-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v248)) (v1 : (c : Dev Cert.KernelIdeal.nD) → Buf (Elt Ideal) ((c.tc : Thread Cert.KernelIdeal.nD Cert.KernelIdeal.τ).loc Cert.KernelIdeal.main_v260)) (v2 : (c : Dev Cert.KernelIdeal.nD) → Buf (Elt Ideal) ((c.tc : Thread Cert.KernelIdeal.nD Cert.KernelIdeal.τ).loc Cert.KernelIdeal.main_v249)) (v3 : (c : Dev Cert.KernelIdeal.nD) → Buf (Elt Ideal) ((c.tc : Thread Cert.KernelIdeal.nD Cert.KernelIdeal.τ).loc Cert.KernelIdeal.main_v271)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v248) = v0 c
          ∧ r.2.mem ((c.tc : Thread Cert.KernelIdeal.nD Cert.KernelIdeal.τ).loc Cert.KernelIdeal.main_v260) = v1 c
          ∧ r.2.mem ((c.tc : Thread Cert.KernelIdeal.nD Cert.KernelIdeal.τ).loc Cert.KernelIdeal.main_v249) = v2 c
          ∧ r.2.mem ((c.tc : Thread Cert.KernelIdeal.nD Cert.KernelIdeal.τ).loc Cert.KernelIdeal.main_v271) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_v237) = v1 c
          ∧ r.2.mem ((c.tc : Thread Cert.ReferenceIdeal.nD Cert.ReferenceIdeal.τ).loc Cert.ReferenceIdeal.main_v226) = v2 c
          ∧ r.2.mem ((c.tc : Thread Cert.ReferenceIdeal.nD Cert.ReferenceIdeal.τ).loc Cert.ReferenceIdeal.main_v248) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x12 : Shape := ⟨2, ![100000, 12]⟩
abbrev S3200000x2 : Shape := ⟨2, ![3200000, 2]⟩
abbrev S12x1024 : Shape := ⟨2, ![12, 1024]⟩
abbrev S1024 : Shape := ⟨1, ![1024]⟩
abbrev S1024x8 : Shape := ⟨2, ![1024, 8]⟩
abbrev S8 : Shape := ⟨1, ![8]⟩
abbrev S3 : Shape := ⟨1, ![3]⟩
abbrev S3200000 : Shape := ⟨1, ![3200000]⟩
abbrev S_ : Shape := ⟨0, ![]⟩

class Facts : Prop where
  bcast_S_S100000x12 : S_.BroadcastsInDim S100000x12 (![] : Fin 0 → Fin S100000x12.rank)
  reducesTo_S100000x12_S_d0_1 : S100000x12.ReducesTo [0, 1] S_
  h_S_ : 0 < S_.numel
  bcast_S_S3200000x2 : S_.BroadcastsInDim S3200000x2 (![] : Fin 0 → Fin S3200000x2.rank)
  reducesTo_S3200000x2_S_d0_1 : S3200000x2.ReducesTo [0, 1] S_
  bcast_S_S12x1024 : S_.BroadcastsInDim S12x1024 (![] : Fin 0 → Fin S12x1024.rank)
  reducesTo_S12x1024_S_d0_1 : S12x1024.ReducesTo [0, 1] S_
  bcast_S_S1024 : S_.BroadcastsInDim S1024 (![] : Fin 0 → Fin S1024.rank)
  reducesTo_S1024_S_d0 : S1024.ReducesTo [0] S_
  bcast_S_S1024x8 : S_.BroadcastsInDim S1024x8 (![] : Fin 0 → Fin S1024x8.rank)
  reducesTo_S1024x8_S_d0_1 : S1024x8.ReducesTo [0, 1] S_
  bcast_S_S8 : S_.BroadcastsInDim S8 (![] : Fin 0 → Fin S8.rank)
  reducesTo_S8_S_d0 : S8.ReducesTo [0] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S1024x8 .f32) (main_arg5 : FVec F S8 .f32) (main_arg6 : FVec F S3 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x8 .f32 := Host.absf main_arg4
  let main_cst_6 : FVec F S_ .f32 := constant S_ .f32 0x7F800000#32
  let main_v20 : FVec F S1024x8 .f32 := broadcastInDim S1024x8 ![] bcast_S_S1024x8 main_cst_6
  let main_v21 : IVec S1024x8 1 := cmpf .olt main_v19 main_v20
  let main_c_7 : IVec S_ 1 := constantI S_ 1 1#1
  let main_v22 : IVec S_ 1 := (fun x v => Host.reduce IntOp.andi x v reducesTo_S1024x8_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S100000x12 .f32) (main_arg1 : FVec F S3200000x2 .f32) (main_arg2 : FVec F S12x1024 .f32) (main_arg3 : FVec F S1024 .f32) (main_arg4 : FVec F S1024x8 .f32) (main_arg5 : FVec F S8 .f32) (main_arg6 : FVec F S3 .f32) (main_arg7 : IVec S3200000 32) (main_arg8 : IVec S3200000 32) : IVec S_ 1 :=
  let main_v0 : FVec F S100000x12 .f32 := Host.absf main_arg0
  let main_cst : FVec F S_ .f32 := constant S_ .f32 0x7F800000#32
  let main_v1 : FVec F S100000x12 .f32 := broadcastInDim S100000x12 ![] bcast_S_S100000x12 main_cst
  let main_v2 : IVec S100000x12 1 := cmpf .olt main_v0 main_v1
  let main_c : IVec S_ 1 := constantI S_ 1 1#1
  let main_v3 : IVec S_ 1 := (fun x v => Host.reduce IntOp.andi x v reducesTo_S100000x12_S_d0_1 h_S_) main_v2 main_c
  let main_v4 : FVec F S3200000x2 .f32 := Host.absf main_arg1
  let main_cst_0 : FVec F S_ .f32 := constant S_ .f32 0x7F800000#32
  let main_v5 : FVec F S3200000x2 .f32 := broadcastInDim S3200000x2 ![] bcast_S_S3200000x2 main_cst_0
  let main_v6 : IVec S3200000x2 1 := cmpf .olt main_v4 main_v5
  let main_c_1 : IVec S_ 1 := constantI S_ 1 1#1
  let main_v7 : IVec S_ 1 := (fun x v => Host.reduce IntOp.andi x v reducesTo_S3200000x2_S_d0_1 h_S_) main_v6 main_c_1
  let main_v8 : IVec S_ 1 := andi main_v3 main_v7
  let main_v9 : FVec F S12x1024 .f32 := Host.absf main_arg2
  let main_cst_2 : FVec F S_ .f32 := constant S_ .f32 0x7F800000#32
  let main_v10 : FVec F S12x1024 .f32 := broadcastInDim S12x1024 ![] bcast_S_S12x1024 main_cst_2
  let main_v11 : IVec S12x1024 1 := cmpf .olt main_v9 main_v10
  let main_c_3 : IVec S_ 1 := constantI S_ 1 1#1
  let main_v12 : IVec S_ 1 := (fun x v => Host.reduce IntOp.andi x v reducesTo_S12x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Kernel.lean ====
abbrev S100000x12 : Shape := ⟨2, ![100000, 12]⟩
abbrev S3200000x2 : Shape := ⟨2, ![3200000, 2]⟩
abbrev S12x1024 : Shape := ⟨2, ![12, 1024]⟩
abbrev S1024 : Shape := ⟨1, ![1024]⟩
abbrev S1024x8 : Shape := ⟨2, ![1024, 8]⟩
abbrev S8 : Shape := ⟨1, ![8]⟩
abbrev S3 : Shape := ⟨1, ![3]⟩
abbrev S3200000 : Shape := ⟨1, ![3200000]⟩
abbrev S1x1024 : Shape := ⟨2, ![1, 1024]⟩
abbrev S1x8 : Shape := ⟨2, ![1, 8]⟩
abbrev S100000x10 : Shape := ⟨2, ![100000, 10]⟩
abbrev S2000x12 : Shape := ⟨2, ![2000, 12]⟩
abbrev S2000x10 : Shape := ⟨2, ![2000, 10]⟩
abbrev S2000x1024 : Shape := ⟨2, ![2000, 1024]⟩
abbrev S2000x8 : Shape := ⟨2, ![2000, 8]⟩
abbrev S2000x1 : Shape := ⟨2, ![2000, 1]⟩
abbrev S2000 : Shape := ⟨1, ![2000]⟩
abbrev S6400000 : Shape := ⟨1, ![6400000]⟩
abbrev S1 : Shape := ⟨1, ![1]⟩
abbrev S_ : Shape := ⟨0, ![]⟩
abbrev S10 : Shape := ⟨1, ![10]⟩
abbrev S2 : Shape := ⟨1, ![2]⟩
abbrev S3200000x1 : Shape := ⟨2, ![3200000, 1]⟩
abbrev S3200000x10 : Shape := ⟨2, ![3200000, 10]⟩
abbrev S1x10 : Shape := ⟨2, ![1, 10]⟩
abbrev S1x2 : Shape := ⟨2, ![1, 2]⟩
abbrev S6400000x10 : Shape := ⟨2, ![6400000, 10]⟩
abbrev S6400000x1 : Shape := ⟨2, ![6400000, 1]⟩
abbrev S100000x8 : Shape := ⟨2, ![100000, 8]⟩
abbrev S100000x4 : Shape := ⟨2, ![100000, 4]⟩
abbrev S100000 : Shape := ⟨1, ![100000]⟩
abbrev S100000x1 : Shape := ⟨2, ![100000, 1]⟩

abbrev nBuf : Space → Nat
  | .hbm => 509
  | .vmem => 8
  | .smem => 0
  | _ => 0

abbrev hbmTy0_0 (i : Nat) : BufTy := match i % 128 with
  | 0 => ⟨S100000x12, .f32⟩
  | 1 => ⟨S3200000x2, .f32⟩
  | 2 => ⟨S12x1024, .f32⟩
  | 3 => ⟨S1024, .f32⟩
  | 4 => ⟨S1024x8, .f32⟩
  | 5 => ⟨S8, .f32⟩
  | 6 => ⟨S3, .f32⟩
  | 7 => ⟨S3200000, .i32⟩
  | 8 => ⟨S3200000, .i32⟩
  | 9 => ⟨S1x1024, .f32⟩
  | 10 => ⟨S1x8, .f32⟩
  | 11 => ⟨S100000x10, .f32⟩
  | 12 => ⟨S6400000, .i32⟩
  | 13 => ⟨S1, .f32⟩
  | 14 => ⟨S_, .f32⟩
  | 15 => ⟨S10, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S10, .i32⟩
  | 23 => ⟨S10, .i32⟩
  | 24 => ⟨S_, .i32⟩
  | 25 => ⟨S10, .i32⟩
  | 26 => ⟨S10, .i1⟩
  | 27 => ⟨S_, .i32⟩
  | 28 => ⟨S10, .i32⟩
  | 29 => ⟨S10, .i1⟩
  | 30 => ⟨S_, .i32⟩
  | 31 => ⟨S_, .i1⟩
  | 32 => ⟨S10, .i1⟩
  | 33 => ⟨S10, .i1⟩
  | 34 => ⟨S10, .i1⟩
  | 35 => ⟨S10, .i32⟩
  | 36 => ⟨S10, .i32⟩
  | 37 => ⟨S10, .i32⟩
  | 38 => ⟨S_, .i32⟩
  | 39 => ⟨S10, .i32⟩
  | 40 => ⟨S10, .i1⟩
  | 41 => ⟨S_, .f32⟩
  | 42 => ⟨S_, .f32⟩
  | 43 => ⟨S10, .f32⟩
  | 44 => ⟨S10, .f32⟩
  | 45 => ⟨S10, .f32⟩
  | 46 => ⟨S10, .f32⟩
  | 47 => ⟨S2, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S2, .i32⟩
  | 55 => ⟨S2, .i32⟩
  | 56 => ⟨S_, .i32⟩
  | 57 => ⟨S2, .i32⟩
  | 58 => ⟨S2, .i1⟩
  | 59 => ⟨S_, .i32⟩
  | 60 => ⟨S2, .i32⟩
  | 61 => ⟨S2, .i1⟩
  | 62 => ⟨S_, .i32⟩
  | 63 => ⟨S_, .i1⟩
  | 64 => ⟨S2, .i1⟩
  | 65 => ⟨S2, .i1⟩
  | 66 => ⟨S2, .i1⟩
  | 67 => ⟨S2, .i32⟩
  | 68 => ⟨S2, .i32⟩
  | 69 => ⟨S2, .i32⟩
  | 70 => ⟨S_, .i32⟩
  | 71 => ⟨S2, .i32⟩
  | 72 => ⟨S2, .i1⟩
  | 73 => ⟨S_, .f32⟩
  | 74 => ⟨S_, .f32⟩
  | 75 => ⟨S2, .f32⟩
  | 76 => ⟨S2, .f32⟩
  | 77 => ⟨S2, .f32⟩
  | 78 => ⟨S2, .f32⟩
  | 79 => ⟨S_, .i32⟩
  | 80 => ⟨S3200000, .i32⟩
  | 81 => ⟨S3200000, .i1⟩
  | 82 => ⟨S_, .i32⟩
  | 83 => ⟨S3200000, .i32⟩
  | 84 => ⟨S3200000, .i32⟩
  | 85 => ⟨S3200000, .i32⟩
  | 86 => ⟨S3200000x1, .i32⟩
  | 87 => ⟨S3200000x10, .f32⟩
  | 88 => ⟨S_, .i32⟩
  | 89 => ⟨S3200000, .i32⟩
  | 90 => ⟨S3200000, .i1⟩
  | 91 => ⟨S_, .i32⟩
  | 92 => ⟨S3200000, .i32⟩
  | 93 => ⟨S3200000, .i32⟩
  | 94 => ⟨S3200000, .i32⟩
  | 95 => ⟨S3200000x1, .i32⟩
  | 96 => ⟨S3200000x10, .f32⟩
  | 97 => ⟨S1x10, .f32⟩
  | 98 => ⟨S3200000x10, .f32⟩
  | 99 => ⟨S3200000x10, .f32⟩
  | 100 => ⟨S1x10, .f32⟩
  | 101 => ⟨S3200000x10, .f32⟩
  | 102 => ⟨S3200000x10, .f32⟩
  | 103 => ⟨S1x2, .f32⟩
  | 104 => ⟨S3200000x2, .f32⟩
  | 105 => ⟨S3200000x2, .f32⟩
  | 106 => ⟨S_, .f32⟩
  | 107 => ⟨S3200000, .f32⟩
  | 108 => ⟨S_, .f32⟩
  | 109 => ⟨S3200000, .f32⟩
  | 110 => ⟨S3200000, .f32⟩
  | 111 => ⟨S_, .f32⟩
  | 112 => ⟨S3200000, .f32⟩
  | 113 => ⟨S3200000, .f32⟩
  | 114 => ⟨S3200000x1, .f32⟩
  | 115 => ⟨S3200000x10, .f32⟩
  | 116 => ⟨S3200000x10, .f32⟩
  | 117 => ⟨S3200000x10, .f32⟩
  | 118 => ⟨S3200000x10, .f32⟩
  | 119 => ⟨S3200000x10, .f32⟩
  | 120 => ⟨S3200000x10, .f32⟩
  | 121 => ⟨S3200000x2, .f32⟩
  | 122 => ⟨S3200000x2, .f32⟩
  | 123 => ⟨S3200000x2, .f32⟩
  | 124 => ⟨S_, .f32⟩
  | 125 => ⟨S3200000, .f32⟩
  | 126 => ⟨S3200000x1, .f32⟩
  | 127 => ⟨S_, .f32⟩
  | _ => ⟨S100000x12, .f32⟩

abbrev hbmTy0_1 (i : Nat) : BufTy := match i % 128 with
  | 0 => ⟨S3200000, .f32⟩
  | 1 => ⟨S3200000x1, .f32⟩
  | 2 => ⟨S3200000x1, .f32⟩
  | 3 => ⟨S_, .f32⟩
  | 4 => ⟨S3200000, .f32⟩
  | 5 => ⟨S3200000x1, .f32⟩
  | 6 => ⟨S3200000x1, .f32⟩
  | 7 => ⟨S_, .f32⟩
  | 8 => ⟨S_, .f32⟩
  | 9 => ⟨S_, .f32⟩
  | 10 => ⟨S_, .i1⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S3200000x1, .f32⟩
  | 19 => ⟨S3200000x1, .f32⟩
  | 20 => ⟨S3200000x10, .f32⟩
  | 21 => ⟨S3200000x10, .f32⟩
  | 22 => ⟨S1x10, .f32⟩
  | 23 => ⟨S3200000x10, .f32⟩
  | 24 => ⟨S3200000x10, .f32⟩
  | 25 => ⟨S3200000x10, .f32⟩
  | 26 => ⟨S3200000x10, .f32⟩
  | 27 => ⟨S1x10, .f32⟩
  | 28 => ⟨S3200000x10, .f32⟩
  | 29 => ⟨S3200000x10, .f32⟩
  | 30 => ⟨S6400000x10, .f32⟩
  | 31 => ⟨S_, .i32⟩
  | 32 => ⟨S6400000, .i32⟩
  | 33 => ⟨S6400000, .i1⟩
  | 34 => ⟨S_, .i32⟩
  | 35 => ⟨S6400000, .i32⟩
  | 36 => ⟨S6400000, .i32⟩
  | 37 => ⟨S6400000, .i32⟩
  | 38 => ⟨S6400000x1, .i32⟩
  | 39 => ⟨S100000x10, .f32⟩
  | 40 => ⟨S1, .f32⟩
  | 41 => ⟨S_, .f32⟩
  | 42 => ⟨S10, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S10, .i32⟩
  | 50 => ⟨S10, .i32⟩
  | 51 => ⟨S_, .i32⟩
  | 52 => ⟨S10, .i32⟩
  | 53 => ⟨S10, .i1⟩
  | 54 => ⟨S_, .i32⟩
  | 55 => ⟨S10, .i32⟩
  | 56 => ⟨S10, .i1⟩
  | 57 => ⟨S_, .i32⟩
  | 58 => ⟨S_, .i1⟩
  | 59 => ⟨S10, .i1⟩
  | 60 => ⟨S10, .i1⟩
  | 61 => ⟨S10, .i1⟩
  | 62 => ⟨S10, .i32⟩
  | 63 => ⟨S10, .i32⟩
  | 64 => ⟨S10, .i32⟩
  | 65 => ⟨S_, .i32⟩
  | 66 => ⟨S10, .i32⟩
  | 67 => ⟨S10, .i1⟩
  | 68 => ⟨S_, .f32⟩
  | 69 => ⟨S_, .f32⟩
  | 70 => ⟨S10, .f32⟩
  | 71 => ⟨S10, .f32⟩
  | 72 => ⟨S10, .f32⟩
  | 73 => ⟨S10, .f32⟩
  | 74 => ⟨S2, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S2, .i32⟩
  | 82 => ⟨S2, .i32⟩
  | 83 => ⟨S_, .i32⟩
  | 84 => ⟨S2, .i32⟩
  | 85 => ⟨S2, .i1⟩
  | 86 => ⟨S_, .i32⟩
  | 87 => ⟨S2, .i32⟩
  | 88 => ⟨S2, .i1⟩
  | 89 => ⟨S_, .i32⟩
  | 90 => ⟨S_, .i1⟩
  | 91 => ⟨S2, .i1⟩
  | 92 => ⟨S2, .i1⟩
  | 93 => ⟨S2, .i1⟩
  | 94 => ⟨S2, .i32⟩
  | 95 => ⟨S2, .i32⟩
  | 96 => ⟨S2, .i32⟩
  | 97 => ⟨S_, .i32⟩
  | 98 => ⟨S2, .i32⟩
  | 99 => ⟨S2, .i1⟩
  | 100 => ⟨S_, .f32⟩
  | 101 => ⟨S_, .f32⟩
  | 102 => ⟨S2, .f32⟩
  | 103 => ⟨S2, .f32⟩
  | 104 => ⟨S2, .f32⟩
  | 105 => ⟨S2, .f32⟩
  | 106 => ⟨S_, .i32⟩
  | 107 => ⟨S3200000, .i32⟩
  | 108 => ⟨S3200000, .i1⟩
  | 109 => ⟨S_, .i32⟩
  | 110 => ⟨S3200000, .i32⟩
  | 111 => ⟨S3200000, .i32⟩
  | 112 => ⟨S3200000, .i32⟩
  | 113 => ⟨S3200000x1, .i32⟩
  | 114 => ⟨S3200000x10, .f32⟩
  | 115 => ⟨S_, .i32⟩
  | 116 => ⟨S3200000, .i32⟩
  | 117 => ⟨S3200000, .i1⟩
  | 118 => ⟨S_, .i32⟩
  | 119 => ⟨S3200000, .i32⟩
  | 120 => ⟨S3200000, .i32⟩
  | 121 => ⟨S3200000, .i32⟩
  | 122 => ⟨S3200000x1, .i32⟩
  | 123 => ⟨S3200000x10, .f32⟩
  | 124 => ⟨S1x10, .f32⟩
  | 125 => ⟨S3200000x10, .f32⟩
  | 126 => ⟨S3200000x10, .f32⟩
  | 127 => ⟨S1x10, .f32⟩
  | _ => ⟨S100000x12, .f32⟩

abbrev hbmTy0_2 (i : Nat) : BufTy := match i % 128 with
  | 0 => ⟨S3200000x10, .f32⟩
  | 1 => ⟨S3200000x10, .f32⟩
  | 2 => ⟨S1x2, .f32⟩
  | 3 => ⟨S3200000x2, .f32⟩
  | 4 => ⟨S3200000x2, .f32⟩
  | 5 => ⟨S_, .f32⟩
  | 6 => ⟨S3200000, .f32⟩
  | 7 => ⟨S_, .f32⟩
  | 8 => ⟨S3200000, .f32⟩
  | 9 => ⟨S3200000, .f32⟩
  | 10 => ⟨S_, .f32⟩
  | 11 => ⟨S3200000, .f32⟩
  | 12 => ⟨S3200000, .f32⟩
  | 13 => ⟨S3200000x1, .f32⟩
  | 14 => ⟨S3200000x10, .f32⟩
  | 15 => ⟨S3200000x10, .f32⟩
  | 16 => ⟨S3200000x10, .f32⟩
  | 17 => ⟨S3200000x10, .f32⟩
  | 18 => ⟨S3200000x10, .f32⟩
  | 19 => ⟨S3200000x10, .f32⟩
  | 20 => ⟨S3200000x2, .f32⟩
  | 21 => ⟨S3200000x2, .f32⟩
  | 22 => ⟨S3200000x2, .f32⟩
  | 23 => ⟨S_, .f32⟩
  | 24 => ⟨S3200000, .f32⟩
  | 25 => ⟨S3200000x1, .f32⟩
  | 26 => ⟨S_, .f32⟩
  | 27 => ⟨S3200000, .f32⟩
  | 28 => ⟨S3200000x1, .f32⟩
  | 29 => ⟨S3200000x1, .f32⟩
  | 30 => ⟨S_, .f32⟩
  | 31 => ⟨S3200000, .f32⟩
  | 32 => ⟨S3200000x1, .f32⟩
  | 33 => ⟨S3200000x1, .f32⟩
  | 34 => ⟨S_, .f32⟩
  | 35 => ⟨S_, .f32⟩
  | 36 => ⟨S_, .f32⟩
  | 37 => ⟨S_, .i1⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S3200000x1, .f32⟩
  | 46 => ⟨S3200000x1, .f32⟩
  | 47 => ⟨S3200000x10, .f32⟩
  | 48 => ⟨S3200000x10, .f32⟩
  | 49 => ⟨S1x10, .f32⟩
  | 50 => ⟨S3200000x10, .f32⟩
  | 51 => ⟨S3200000x10, .f32⟩
  | 52 => ⟨S3200000x10, .f32⟩
  | 53 => ⟨S3200000x10, .f32⟩
  | 54 => ⟨S1x10, .f32⟩
  | 55 => ⟨S3200000x10, .f32⟩
  | 56 => ⟨S3200000x10, .f32⟩
  | 57 => ⟨S6400000x10, .f32⟩
  | 58 => ⟨S_, .i32⟩
  | 59 => ⟨S6400000, .i32⟩
  | 60 => ⟨S6400000, .i1⟩
  | 61 => ⟨S_, .i32⟩
  | 62 => ⟨S6400000, .i32⟩
  | 63 => ⟨S6400000, .i32⟩
  | 64 => ⟨S6400000, .i32⟩
  | 65 => ⟨S6400000x1, .i32⟩
  | 66 => ⟨S100000x10, .f32⟩
  | 67 => ⟨S1, .f32⟩
  | 68 => ⟨S_, .f32⟩
  | 69 => ⟨S10, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S10, .i32⟩
  | 77 => ⟨S10, .i32⟩
  | 78 => ⟨S_, .i32⟩
  | 79 => ⟨S10, .i32⟩
  | 80 => ⟨S10, .i1⟩
  | 81 => ⟨S_, .i32⟩
  | 82 => ⟨S10, .i32⟩
  | 83 => ⟨S10, .i1⟩
  | 84 => ⟨S_, .i32⟩
  | 85 => ⟨S_, .i1⟩
  | 86 => ⟨S10, .i1⟩
  | 87 => ⟨S10, .i1⟩
  | 88 => ⟨S10, .i1⟩
  | 89 => ⟨S10, .i32⟩
  | 90 => ⟨S10, .i32⟩
  | 91 => ⟨S10, .i32⟩
  | 92 => ⟨S_, .i32⟩
  | 93 => ⟨S10, .i32⟩
  | 94 => ⟨S10, .i1⟩
  | 95 => ⟨S_, .f32⟩
  | 96 => ⟨S_, .f32⟩
  | 97 => ⟨S10, .f32⟩
  | 98 => ⟨S10, .f32⟩
  | 99 => ⟨S10, .f32⟩
  | 100 => ⟨S10, .f32⟩
  | 101 => ⟨S2, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S2, .i32⟩
  | 109 => ⟨S2, .i32⟩
  | 110 => ⟨S_, .i32⟩
  | 111 => ⟨S2, .i32⟩
  | 112 => ⟨S2, .i1⟩
  | 113 => ⟨S_, .i32⟩
  | 114 => ⟨S2, .i32⟩
  | 115 => ⟨S2, .i1⟩
  | 116 => ⟨S_, .i32⟩
  | 117 => ⟨S_, .i1⟩
  | 118 => ⟨S2, .i1⟩
  | 119 => ⟨S2, .i1⟩
  | 120 => ⟨S2, .i1⟩
  | 121 => ⟨S2, .i32⟩
  | 122 => ⟨S2, .i32⟩
  | 123 => ⟨S2, .i32⟩
  | 124 => ⟨S_, .i32⟩
  | 125 => ⟨S2, .i32⟩
  | 126 => ⟨S2, .i1⟩
  | 127 => ⟨S_, .f32⟩
  | _ => ⟨S100000x12, .f32⟩

abbrev hbmTy0_3 (i : Nat) : BufTy := match i % 128 with
  | 0 => ⟨S_, .f32⟩
  | 1 => ⟨S2, .f32⟩
  | 2 => ⟨S2, .f32⟩
  | 3 => ⟨S2, .f32⟩
  | 4 => ⟨S2, .f32⟩
  | 5 => ⟨S_, .i32⟩
  | 6 => ⟨S3200000, .i32⟩
  | 7 => ⟨S3200000, .i1⟩
  | 8 => ⟨S_, .i32⟩
  | 9 => ⟨S3200000, .i32⟩
  | 10 => ⟨S3200000, .i32⟩
  | 11 => ⟨S3200000, .i32⟩
  | 12 => ⟨S3200000x1, .i32⟩
  | 13 => ⟨S3200000x10, .f32⟩
  | 14 => ⟨S_, .i32⟩
  | 15 => ⟨S3200000, .i32⟩
  | 16 => ⟨S3200000, .i1⟩
  | 17 => ⟨S_, .i32⟩
  | 18 => ⟨S3200000, .i32⟩
  | 19 => ⟨S3200000, .i32⟩
  | 20 => ⟨S3200000, .i32⟩
  | 21 => ⟨S3200000x1, .i32⟩
  | 22 => ⟨S3200000x10, .f32⟩
  | 23 => ⟨S1x10, .f32⟩
  | 24 => ⟨S3200000x10, .f32⟩
  | 25 => ⟨S3200000x10, .f32⟩
  | 26 => ⟨S1x10, .f32⟩
  | 27 => ⟨S3200000x10, .f32⟩
  | 28 => ⟨S3200000x10, .f32⟩
  | 29 => ⟨S1x2, .f32⟩
  | 30 => ⟨S3200000x2, .f32⟩
  | 31 => ⟨S3200000x2, .f32⟩
  | 32 => ⟨S_, .f32⟩
  | 33 => ⟨S3200000, .f32⟩
  | 34 => ⟨S_, .f32⟩
  | 35 => ⟨S3200000, .f32⟩
  | 36 => ⟨S3200000, .f32⟩
  | 37 => ⟨S_, .f32⟩
  | 38 => ⟨S3200000, .f32⟩
  | 39 => ⟨S3200000, .f32⟩
  | 40 => ⟨S3200000x1, .f32⟩
  | 41 => ⟨S3200000x10, .f32⟩
  | 42 => ⟨S3200000x10, .f32⟩
  | 43 => ⟨S3200000x10, .f32⟩
  | 44 => ⟨S3200000x10, .f32⟩
  | 45 => ⟨S3200000x10, .f32⟩
  | 46 => ⟨S3200000x10, .f32⟩
  | 47 => ⟨S3200000x2, .f32⟩
  | 48 => ⟨S3200000x2, .f32⟩
  | 49 => ⟨S3200000x2, .f32⟩
  | 50 => ⟨S_, .f32⟩
  | 51 => ⟨S3200000, .f32⟩
  | 52 => ⟨S3200000x1, .f32⟩
  | 53 => ⟨S_, .f32⟩
  | 54 => ⟨S3200000, .f32⟩
  | 55 => ⟨S3200000x1, .f32⟩
  | 56 => ⟨S3200000x1, .f32⟩
  | 57 => ⟨S_, .f32⟩
  | 58 => ⟨S3200000, .f32⟩
  | 59 => ⟨S3200000x1, .f32⟩
  | 60 => ⟨S3200000x1, .f32⟩
  | 61 => ⟨S_, .f32⟩
  | 62 => ⟨S_, .f32⟩
  | 63 => ⟨S_, .f32⟩
  | 64 => ⟨S_, .i1⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S3200000x1, .f32⟩
  | 73 => ⟨S3200000x1, .f32⟩
  | 74 => ⟨S3200000x10, .f32⟩
  | 75 => ⟨S3200000x10, .f32⟩
  | 76 => ⟨S1x10, .f32⟩
  | 77 => ⟨S3200000x10, .f32⟩
  | 78 => ⟨S3200000x10, .f32⟩
  | 79 => ⟨S3200000x10, .f32⟩
  | 80 => ⟨S3200000x10, .f32⟩
  | 81 => ⟨S1x10, .f32⟩
  | 82 => ⟨S3200000x10, .f32⟩
  | 83 => ⟨S3200000x10, .f32⟩
  | 84 => ⟨S6400000x10, .f32⟩
  | 85 => ⟨S_, .i32⟩
  | 86 => ⟨S6400000, .i32⟩
  | 87 => ⟨S6400000, .i1⟩
  | 88 => ⟨S_, .i32⟩
  | 89 => ⟨S6400000, .i32⟩
  | 90 => ⟨S6400000, .i32⟩
  | 91 => ⟨S6400000, .i32⟩
  | 92 => ⟨S6400000x1, .i32⟩
  | 93 => ⟨S100000x10, .f32⟩
  | 94 => ⟨S100000x8, .f32⟩
  | 95 => ⟨S100000x4, .f32⟩
  | 96 => ⟨S100000x4, .f32⟩
  | 97 => ⟨S_, .f32⟩
  | 98 => ⟨S100000, .f32⟩
  | 99 => ⟨S_, .f32⟩
  | 100 => ⟨S100000, .f32⟩
  | 101 => ⟨S100000, .f32⟩
  | 102 => ⟨S100000x1, .f32⟩
  | 103 => ⟨S100000x4, .f32⟩
  | 104 => ⟨S100000x4, .f32⟩
  | 105 => ⟨S100000x4, .f32⟩
  | 106 => ⟨S_, .f32⟩
  | 107 => ⟨S100000, .f32⟩
  | 108 => ⟨S100000x1, .f32⟩
  | 109 => ⟨S100000x4, .f32⟩
  | 110 => ⟨S100000x4, .f32⟩
  | 111 => ⟨S_, .f32⟩
  | 112 => ⟨S100000, .f32⟩
  | 113 => ⟨S_, .f32⟩
  | 114 => ⟨S100000, .f32⟩
  | 115 => ⟨S100000, .f32⟩
  | 116 => ⟨S100000x1, .f32⟩
  | 117 => ⟨S100000x4, .f32⟩
  | 118 => ⟨S100000x4, .f32⟩
  | 119 => ⟨S100000x4, .f32⟩
  | 120 => ⟨S_, .f32⟩
  | 121 => ⟨S100000, .f32⟩
  | 122 => ⟨S100000x1, .f32⟩
  | 123 => ⟨S100000x4, .f32⟩
  | 124 => ⟨S100000x4, .f32⟩
  | _ => ⟨S100000x12, .f32⟩

abbrev hbmTy (i : Nat) : BufTy := match i / 128 with
  | 0 => hbmTy0_0 i
  | 1 => hbmTy0_1 i
  | 2 => hbmTy0_2 i
  | 3 => hbmTy0_3 i
  | _ => ⟨S100000x12, .f32⟩

abbrev bufTy : (tb : Table) → Fin (tcTables nBuf tb) → BufTy
  | .hbm, ⟨i, _⟩ => hbmTy i
  | .local _ .vmem, ⟨0, _⟩ => ⟨S2000x12, .f32⟩
  | .local _ .vmem, ⟨1, _⟩ => ⟨S2000x12, .f32⟩
  | .local _ .vmem, ⟨2, _⟩ => ⟨S12x1024, .f32⟩
  | .local _ .vmem, ⟨3, _⟩ => ⟨S1x1024, .f32⟩
  | .local _ .vmem, ⟨4, _⟩ => ⟨S1024x8, .f32⟩
  | .local _ .vmem, ⟨5, _⟩ => ⟨S1x8, .f32⟩
  | .local _ .vmem, ⟨6, _⟩ => ⟨S2000x10, .f32⟩
  | .local _ .vmem, ⟨7, _⟩ => ⟨S2000x10, .f32⟩
  | _, _ => ⟨S100000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v7 : Ref sig .tc := ⟨.hbm, 37, rfl⟩
abbrev main_c_0 : Ref sig .tc := ⟨.hbm, 38, rfl⟩
abbrev main_v8 : Ref sig .tc := ⟨.hbm, 39, rfl⟩
abbrev main_v9 : Ref sig .tc := ⟨.hbm, 40, rfl⟩
abbrev main_cst : Ref sig .tc := ⟨.hbm, 41, rfl⟩
abbrev main_cst_1 : Ref sig .tc := ⟨.hbm, 42, rfl⟩
abbrev main_call1_v0 : Ref sig .tc := ⟨.hbm, 43, rfl⟩
abbrev main_call1_v1 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_c_2 : Ref sig .tc := ⟨.hbm, 48, rfl⟩
abbrev main_call2_v0 : Ref sig .tc := ⟨.hbm, 49, rfl⟩
abbrev main_call2_c : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_c_1 : Ref sig .tc := ⟨.hbm, 56, rfl⟩
abbrev main_call2_v5 : Ref sig .tc := ⟨.hbm, 57, rfl⟩
abbrev main_call2_v6 : Ref sig .tc := ⟨.hbm, 58, rfl⟩
abbrev main_call2_c_2 : Ref sig .tc := ⟨.hbm, 59, rfl⟩
abbrev main_call2_v7 : Ref sig .tc := ⟨.hbm, 60, rfl⟩
abbrev main_call2_v8 : Ref sig .tc := ⟨.hbm, 61, rfl⟩
abbrev main_call2_c_3 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_v12 : Ref sig .tc := ⟨.hbm, 66, rfl⟩
abbrev main_call2_v13 : Ref sig .tc := ⟨.hbm, 67, rfl⟩
abbrev main_call2_v14 : Ref sig .tc := ⟨.hbm, 68, rfl⟩
abbrev main_v13 : Ref sig .tc := ⟨.hbm, 69, rfl⟩
abbrev main_c_3 : Ref sig .tc := ⟨.hbm, 70, rfl⟩
abbrev main_v14 : Ref sig .tc := ⟨.hbm, 71, rfl⟩
abbrev main_v15 : Ref sig .tc := ⟨.hbm, 72, rfl⟩
abbrev main_cst_4 : Ref sig .tc := ⟨.hbm, 73, rfl⟩
abbrev main_cst_5 : Ref sig .tc := ⟨.hbm, 74, rfl⟩
abbrev main_call3_v0 : Ref sig .tc := ⟨.hbm, 75, rfl⟩
abbrev main_call3_v1 : Ref sig .tc := ⟨.hbm, 76, rfl⟩
abbrev main_v16 : Ref sig .tc := ⟨.hbm, 77, rfl⟩
abbrev main_v17 : Ref sig .tc := ⟨.hbm, 78, rfl⟩
abbrev main_c_6 : Ref sig .tc := ⟨.hbm, 79, rfl⟩
abbrev main_v18 : Ref sig .tc := ⟨.hbm, 80, rfl⟩
abbrev main_v19 : Ref sig .tc := ⟨.hbm, 81, rfl⟩
abbrev main_c_7 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_c_8 : Ref sig .tc := ⟨.hbm, 88, rfl⟩
abbrev main_v25 : Ref sig .tc := ⟨.hbm, 89, rfl⟩
abbrev main_v26 : Ref sig .tc := ⟨.hbm, 90, rfl⟩
abbrev main_c_9 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_cst_10 : Ref sig .tc := ⟨.hbm, 106, rfl⟩
abbrev main_v41 : Ref sig .tc := ⟨.hbm, 107, rfl⟩
abbrev main_cst_11 : Ref sig .tc := ⟨.hbm, 108, rfl⟩
abbrev main_v42 : Ref sig .tc := ⟨.hbm, 109, rfl⟩
abbrev main_v43 : Ref sig .tc := ⟨.hbm, 110, rfl⟩
abbrev main_cst_12 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_cst_13 : Ref sig .tc := ⟨.hbm, 124, rfl⟩
abbrev main_v56 : Ref sig .tc := ⟨.hbm, 125, rfl⟩
abbrev main_v57 : Ref sig .tc := ⟨.hbm, 126, rfl⟩
abbrev main_cst_14 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_cst_15 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_call4_cst : Ref sig .tc := ⟨.hbm, 135, rfl⟩
abbrev main_call4_v0 : Ref sig .tc := ⟨.hbm, 136, rfl⟩
abbrev main_call4_v1 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_call4_v5 : Ref sig .tc := ⟨.hbm, 141, rfl⟩
abbrev main_call4_v6 : Ref sig .tc := ⟨.hbm, 142, rfl⟩
abbrev main_call4_v7 : Ref sig .tc := ⟨.hbm, 143, rfl⟩
abbrev main_call4_v8 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_c_16 : Ref sig .tc := ⟨.hbm, 159, rfl⟩
abbrev main_v78 : Ref sig .tc := ⟨.hbm, 160, rfl⟩
abbrev main_v79 : Ref sig .tc := ⟨.hbm, 161, rfl⟩
abbrev main_c_17 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_c_18 : Ref sig .tc := ⟨.hbm, 171, rfl⟩
abbrev main_call5_v0 : Ref sig .tc := ⟨.hbm, 172, rfl⟩
abbrev main_call5_c : Ref sig .tc := ⟨.hbm, 173, rfl⟩
abbrev main_call5_v1 : Ref sig .tc := ⟨.hbm, 174, rfl⟩
abbrev main_call5_c_0 : Ref sig .tc := ⟨.hbm, 175, rfl⟩
abbrev main_call5_v2 : Ref sig .tc := ⟨.hbm, 176, rfl⟩
abbrev main_call5_v3 : Ref sig .tc := ⟨.hbm, 177, rfl⟩
abbrev main_call5_v4 : Ref sig .tc := ⟨.hbm, 178, rfl⟩
abbrev main_call5_c_1 : Ref sig .tc := ⟨.hbm, 179, rfl⟩
abbrev main_call5_v5 : Ref sig .tc := ⟨.hbm, 180, rfl⟩
abbrev main_call5_v6 : Ref sig .tc := ⟨.hbm, 181, rfl⟩
abbrev main_call5_c_2 : Ref sig .tc := ⟨.hbm, 182, rfl⟩
abbrev main_call5_v7 : Ref sig .tc := ⟨.hbm, 183, rfl⟩
abbrev main_call5_v8 : Ref sig .tc := ⟨.hbm, 184, rfl⟩
abbrev main_call5_c_3 : Ref sig .tc := ⟨.hbm, 185, rfl⟩
abbrev main_call5_v9 : Ref sig .tc := ⟨.hbm, 186, rfl⟩
abbrev main_call5_v10 : Ref sig .tc := ⟨.hbm, 187, rfl⟩
abbrev main_call5_v11 : Ref sig .tc := ⟨.hbm, 188, rfl⟩
abbrev main_call5_v12 : Ref sig .tc := ⟨.hbm, 189, rfl⟩
abbrev main_call5_v13 : Ref sig .tc := ⟨.hbm, 190, rfl⟩
abbrev main_call5_v14 : Ref sig .tc := ⟨.hbm, 191, rfl⟩
abbrev main_v88 : Ref sig .tc := ⟨.hbm, 192, rfl⟩
abbrev main_c_19 : Ref sig .tc := ⟨.hbm, 193, rfl⟩
abbrev main_v89 : Ref sig .tc := ⟨.hbm, 194, rfl⟩
abbrev main_v90 : Ref sig .tc := ⟨.hbm, 195, rfl⟩
abbrev main_cst_20 : Ref sig .tc := ⟨.hbm, 196, rfl⟩
abbrev main_cst_21 : Ref sig .tc := ⟨.hbm, 197, rfl⟩
abbrev main_call6_v0 : Ref sig .tc := ⟨.hbm, 198, rfl⟩
abbrev main_call6_v1 : Ref sig .tc := ⟨.hbm, 199, rfl⟩
abbrev main_v91 : Ref sig .tc := ⟨.hbm, 200, rfl⟩
abbrev main_v92 : Ref sig .tc := ⟨.hbm, 201, rfl⟩
abbrev main_v93 : Ref sig .tc := ⟨.hbm, 202, rfl⟩
abbrev main_c_22 : Ref sig .tc := ⟨.hbm, 203, rfl⟩
abbrev main_call7_v0 : Ref sig .tc := ⟨.hbm, 204, rfl⟩
abbrev main_call7_c : Ref sig .tc := ⟨.hbm, 205, rfl⟩
abbrev main_call7_v1 : Ref sig .tc := ⟨.hbm, 206, rfl⟩
abbrev main_call7_c_0 : Ref sig .tc := ⟨.hbm, 207, rfl⟩
abbrev main_call7_v2 : Ref sig .tc := ⟨.hbm, 208, rfl⟩
abbrev main_call7_v3 : Ref sig .tc := ⟨.hbm, 209, rfl⟩
abbrev main_call7_v4 : Ref sig .tc := ⟨.hbm, 210, rfl⟩
abbrev main_call7_c_1 : Ref sig .tc := ⟨.hbm, 211, rfl⟩
abbrev main_call7_v5 : Ref sig .tc := ⟨.hbm, 212, rfl⟩
abbrev main_call7_v6 : Ref sig .tc := ⟨.hbm, 213, rfl⟩
abbrev main_call7_c_2 : Ref sig .tc := ⟨.hbm, 214, rfl⟩
abbrev main_call7_v7 : Ref sig .tc := ⟨.hbm, 215, rfl⟩
abbrev main_call7_v8 : Ref sig .tc := ⟨.hbm, 216, rfl⟩
abbrev main_call7_c_3 : Ref sig .tc := ⟨.hbm, 217, rfl⟩
abbrev main_call7_v9 : Ref sig .tc := ⟨.hbm, 218, rfl⟩
abbrev main_call7_v10 : Ref sig .tc := ⟨.hbm, 219, rfl⟩
abbrev main_call7_v11 : Ref sig .tc := ⟨.hbm, 220, rfl⟩
abbrev main_call7_v12 : Ref sig .tc := ⟨.hbm, 221, rfl⟩
abbrev main_call7_v13 : Ref sig .tc := ⟨.hbm, 222, rfl⟩
abbrev main_call7_v14 : Ref sig .tc := ⟨.hbm, 223, rfl⟩
abbrev main_v94 : Ref sig .tc := ⟨.hbm, 224, rfl⟩
abbrev main_c_23 : Ref sig .tc := ⟨.hbm, 225, rfl⟩
abbrev main_v95 : Ref sig .tc := ⟨.hbm, 226, rfl⟩
abbrev main_v96 : Ref sig .tc := ⟨.hbm, 227, rfl⟩
abbrev main_cst_24 : Ref sig .tc := ⟨.hbm, 228, rfl⟩
abbrev main_cst_25 : Ref sig .tc := ⟨.hbm, 229, rfl⟩
abbrev main_call8_v0 : Ref sig .tc := ⟨.hbm, 230, rfl⟩
abbrev main_call8_v1 : Ref sig .tc := ⟨.hbm, 231, rfl⟩
abbrev main_v97 : Ref sig .tc := ⟨.hbm, 232, rfl⟩
abbrev main_v98 : Ref sig .tc := ⟨.hbm, 233, rfl⟩
abbrev main_c_26 : Ref sig .tc := ⟨.hbm, 234, rfl⟩
abbrev main_v99 : Ref sig .tc := ⟨.hbm, 235, rfl⟩
abbrev main_v100 : Ref sig .tc := ⟨.hbm, 236, rfl⟩
abbrev main_c_27 : Ref sig .tc := ⟨.hbm, 237, rfl⟩
abbrev main_v101 : Ref sig .tc := ⟨.hbm, 238, rfl⟩
abbrev main_v102 : Ref sig .tc := ⟨.hbm, 239, rfl⟩
abbrev main_v103 : Ref sig .tc := ⟨.hbm, 240, rfl⟩
abbrev main_v104 : Ref sig .tc := ⟨.hbm, 241, rfl⟩
abbrev main_v105 : Ref sig .tc := ⟨.hbm, 242, rfl⟩
abbrev main_c_28 : Ref sig .tc := ⟨.hbm, 243, rfl⟩
abbrev main_v106 : Ref sig .tc := ⟨.hbm, 244, rfl⟩
abbrev main_v107 : Ref sig .tc := ⟨.hbm, 245, rfl⟩
abbrev main_c_29 : Ref sig .tc := ⟨.hbm, 246, rfl⟩
abbrev main_v108 : Ref sig .tc := ⟨.hbm, 247, rfl⟩
abbrev main_v109 : Ref sig .tc := ⟨.hbm, 248, rfl⟩
abbrev main_v110 : Ref sig .tc := ⟨.hbm, 249, rfl⟩
abbrev main_v111 : Ref sig .tc := ⟨.hbm, 250, rfl⟩
abbrev main_v112 : Ref sig .tc := ⟨.hbm, 251, rfl⟩
abbrev main_v113 : Ref sig .tc := ⟨.hbm, 252, rfl⟩
abbrev main_v114 : Ref sig .tc := ⟨.hbm, 253, rfl⟩
abbrev main_v115 : Ref sig .tc := ⟨.hbm, 254, rfl⟩
abbrev main_v116 : Ref sig .tc := ⟨.hbm, 255, rfl⟩
abbrev main_v117 : Ref sig .tc := ⟨.hbm, 256, rfl⟩
abbrev main_v118 : Ref sig .tc := ⟨.hbm, 257, rfl⟩
abbrev main_v119 : Ref sig .tc := ⟨.hbm, 258, rfl⟩
abbrev main_v120 : Ref sig .tc := ⟨.hbm, 259, rfl⟩
abbrev main_v121 : Ref sig .tc := ⟨.hbm, 260, rfl⟩
abbrev main_cst_30 : Ref sig .tc := ⟨.hbm, 261, rfl⟩
abbrev main_v122 : Ref sig .tc := ⟨.hbm, 262, rfl⟩
abbrev main_cst_31 : Ref sig .tc := ⟨.hbm, 263, rfl⟩
abbrev main_v123 : Ref sig .tc := ⟨.hbm, 264, rfl⟩
abbrev main_v124 : Ref sig .tc := ⟨.hbm, 265, rfl⟩
abbrev main_cst_32 : Ref sig .tc := ⟨.hbm, 266, rfl⟩
abbrev main_v125 : Ref sig .tc := ⟨.hbm, 267, rfl⟩
abbrev main_v126 : Ref sig .tc := ⟨.hbm, 268, rfl⟩
abbrev main_v127 : Ref sig .tc := ⟨.hbm, 269, rfl⟩
abbrev main_v128 : Ref sig .tc := ⟨.hbm, 270, rfl⟩
abbrev main_v129 : Ref sig .tc := ⟨.hbm, 271, rfl⟩
abbrev main_v130 : Ref sig .tc := ⟨.hbm, 272, rfl⟩
abbrev main_v131 : Ref sig .tc := ⟨.hbm, 273, rfl⟩
abbrev main_v132 : Ref sig .tc := ⟨.hbm, 274, rfl⟩
abbrev main_v133 : Ref sig .tc := ⟨.hbm, 275, rfl⟩
abbrev main_v134 : Ref sig .tc := ⟨.hbm, 276, rfl⟩
abbrev main_v135 : Ref sig .tc := ⟨.hbm, 277, rfl⟩
abbrev main_v136 : Ref sig .tc := ⟨.hbm, 278, rfl⟩
abbrev main_cst_33 : Ref sig .tc := ⟨.hbm, 279, rfl⟩
abbrev main_v137 : Ref sig .tc := ⟨.hbm, 280, rfl⟩
abbrev main_v138 : Ref sig .tc := ⟨.hbm, 281, rfl⟩
abbrev main_cst_34 : Ref sig .tc := ⟨.hbm, 282, rfl⟩
abbrev main_v139 : Ref sig .tc := ⟨.hbm, 283, rfl⟩
abbrev main_v140 : Ref sig .tc := ⟨.hbm, 284, rfl⟩
abbrev main_v141 : Ref sig .tc := ⟨.hbm, 285, rfl⟩
abbrev main_cst_35 : Ref sig .tc := ⟨.hbm, 286, rfl⟩
abbrev main_v142 : Ref sig .tc := ⟨.hbm, 287, rfl⟩
abbrev main_v143 : Ref sig .tc := ⟨.hbm, 288, rfl⟩
abbrev main_v144 : Ref sig .tc := ⟨.hbm, 289, rfl⟩
abbrev main_call9_cst : Ref sig .tc := ⟨.hbm, 290, rfl⟩
abbrev main_call9_v0 : Ref sig .tc := ⟨.hbm, 291, rfl⟩
abbrev main_call9_v1 : Ref sig .tc := ⟨.hbm, 292, rfl⟩
abbrev main_call9_v2 : Ref sig .tc := ⟨.hbm, 293, rfl⟩
abbrev main_call9_v3 : Ref sig .tc := ⟨.hbm, 294, rfl⟩
abbrev main_call9_v4 : Ref sig .tc := ⟨.hbm, 295, rfl⟩
abbrev main_call9_v5 : Ref sig .tc := ⟨.hbm, 296, rfl⟩
abbrev main_call9_v6 : Ref sig .tc := ⟨.hbm, 297, rfl⟩
abbrev main_call9_v7 : Ref sig .tc := ⟨.hbm, 298, rfl⟩
abbrev main_call9_v8 : Ref sig .tc := ⟨.hbm, 299, rfl⟩
abbrev main_v145 : Ref sig .tc := ⟨.hbm, 300, rfl⟩
abbrev main_v146 : Ref sig .tc := ⟨.hbm, 301, rfl⟩
abbrev main_v147 : Ref sig .tc := ⟨.hbm, 302, rfl⟩
abbrev main_v148 : Ref sig .tc := ⟨.hbm, 303, rfl⟩
abbrev main_v149 : Ref sig .tc := ⟨.hbm, 304, rfl⟩
abbrev main_v150 : Ref sig .tc := ⟨.hbm, 305, rfl⟩
abbrev main_v151 : Ref sig .tc := ⟨.hbm, 306, rfl⟩
abbrev main_v152 : Ref sig .tc := ⟨.hbm, 307, rfl⟩
abbrev main_v153 : Ref sig .tc := ⟨.hbm, 308, rfl⟩
abbrev main_v154 : Ref sig .tc := ⟨.hbm, 309, rfl⟩
abbrev main_v155 : Ref sig .tc := ⟨.hbm, 310, rfl⟩
abbrev main_v156 : Ref sig .tc := ⟨.hbm, 311, rfl⟩
abbrev main_v157 : Ref sig .tc := ⟨.hbm, 312, rfl⟩
abbrev main_v158 : Ref sig .tc := ⟨.hbm, 313, rfl⟩
abbrev main_c_36 : Ref sig .tc := ⟨.hbm, 314, rfl⟩
abbrev main_v159 : Ref sig .tc := ⟨.hbm, 315, rfl⟩
abbrev main_v160 : Ref sig .tc := ⟨.hbm, 316, rfl⟩
abbrev main_c_37 : Ref sig .tc := ⟨.hbm, 317, rfl⟩
abbrev main_v161 : Ref sig .tc := ⟨.hbm, 318, rfl⟩
abbrev main_v162 : Ref sig .tc := ⟨.hbm, 319, rfl⟩
abbrev main_v163 : Ref sig .tc := ⟨.hbm, 320, rfl⟩
abbrev main_v164 : Ref sig .tc := ⟨.hbm, 321, rfl⟩
abbrev main_v165 : Ref sig .tc := ⟨.hbm, 322, rfl⟩
abbrev main_v166 : Ref sig .tc := ⟨.hbm, 323, rfl⟩
abbrev main_v167 : Ref sig .tc := ⟨.hbm, 324, rfl⟩
abbrev main_v168 : Ref sig .tc := ⟨.hbm, 325, rfl⟩
abbrev main_c_38 : Ref sig .tc := ⟨.hbm, 326, rfl⟩
abbrev main_call10_v0 : Ref sig .tc := ⟨.hbm, 327, rfl⟩
abbrev main_call10_c : Ref sig .tc := ⟨.hbm, 328, rfl⟩
abbrev main_call10_v1 : Ref sig .tc := ⟨.hbm, 329, rfl⟩
abbrev main_call10_c_0 : Ref sig .tc := ⟨.hbm, 330, rfl⟩
abbrev main_call10_v2 : Ref sig .tc := ⟨.hbm, 331, rfl⟩
abbrev main_call10_v3 : Ref sig .tc := ⟨.hbm, 332, rfl⟩
abbrev main_call10_v4 : Ref sig .tc := ⟨.hbm, 333, rfl⟩
abbrev main_call10_c_1 : Ref sig .tc := ⟨.hbm, 334, rfl⟩
abbrev main_call10_v5 : Ref sig .tc := ⟨.hbm, 335, rfl⟩
abbrev main_call10_v6 : Ref sig .tc := ⟨.hbm, 336, rfl⟩
abbrev main_call10_c_2 : Ref sig .tc := ⟨.hbm, 337, rfl⟩
abbrev main_call10_v7 : Ref sig .tc := ⟨.hbm, 338, rfl⟩
abbrev main_call10_v8 : Ref sig .tc := ⟨.hbm, 339, rfl⟩
abbrev main_call10_c_3 : Ref sig .tc := ⟨.hbm, 340, rfl⟩
abbrev main_call10_v9 : Ref sig .tc := ⟨.hbm, 341, rfl⟩
abbrev main_call10_v10 : Ref sig .tc := ⟨.hbm, 342, rfl⟩
abbrev main_call10_v11 : Ref sig .tc := ⟨.hbm, 343, rfl⟩
abbrev main_call10_v12 : Ref sig .tc := ⟨.hbm, 344, rfl⟩
abbrev main_call10_v13 : Ref sig .tc := ⟨.hbm, 345, rfl⟩
abbrev main_call10_v14 : Ref sig .tc := ⟨.hbm, 346, rfl⟩
abbrev main_v169 : Ref sig .tc := ⟨.hbm, 347, rfl⟩
abbrev main_c_39 : Ref sig .tc := ⟨.hbm, 348, rfl⟩
abbrev main_v170 : Ref sig .tc := ⟨.hbm, 349, rfl⟩
abbrev main_v171 : Ref sig .tc := ⟨.hbm, 350, rfl⟩
abbrev main_cst_40 : Ref sig .tc := ⟨.hbm, 351, rfl⟩
abbrev main_cst_41 : Ref sig .tc := ⟨.hbm, 352, rfl⟩
abbrev main_call11_v0 : Ref sig .tc := ⟨.hbm, 353, rfl⟩
abbrev main_call11_v1 : Ref sig .tc := ⟨.hbm, 354, rfl⟩
abbrev main_v172 : Ref sig .tc := ⟨.hbm, 355, rfl⟩
abbrev main_v173 : Ref sig .tc := ⟨.hbm, 356, rfl⟩
abbrev main_v174 : Ref sig .tc := ⟨.hbm, 357, rfl⟩
abbrev main_c_42 : Ref sig .tc := ⟨.hbm, 358, rfl⟩
abbrev main_call12_v0 : Ref sig .tc := ⟨.hbm, 359, rfl⟩
abbrev main_call12_c : Ref sig .tc := ⟨.hbm, 360, rfl⟩
abbrev main_call12_v1 : Ref sig .tc := ⟨.hbm, 361, rfl⟩
abbrev main_call12_c_0 : Ref sig .tc := ⟨.hbm, 362, rfl⟩
abbrev main_call12_v2 : Ref sig .tc := ⟨.hbm, 363, rfl⟩
abbrev main_call12_v3 : Ref sig .tc := ⟨.hbm, 364, rfl⟩
abbrev main_call12_v4 : Ref sig .tc := ⟨.hbm, 365, rfl⟩
abbrev main_call12_c_1 : Ref sig .tc := ⟨.hbm, 366, rfl⟩
abbrev main_call12_v5 : Ref sig .tc := ⟨.hbm, 367, rfl⟩
abbrev main_call12_v6 : Ref sig .tc := ⟨.hbm, 368, rfl⟩
abbrev main_call12_c_2 : Ref sig .tc := ⟨.hbm, 369, rfl⟩
abbrev main_call12_v7 : Ref sig .tc := ⟨.hbm, 370, rfl⟩
abbrev main_call12_v8 : Ref sig .tc := ⟨.hbm, 371, rfl⟩
abbrev main_call12_c_3 : Ref sig .tc := ⟨.hbm, 372, rfl⟩
abbrev main_call12_v9 : Ref sig .tc := ⟨.hbm, 373, rfl⟩
abbrev main_call12_v10 : Ref sig .tc := ⟨.hbm, 374, rfl⟩
abbrev main_call12_v11 : Ref sig .tc := ⟨.hbm, 375, rfl⟩
abbrev main_call12_v12 : Ref sig .tc := ⟨.hbm, 376, rfl⟩
abbrev main_call12_v13 : Ref sig .tc := ⟨.hbm, 377, rfl⟩
abbrev main_call12_v14 : Ref sig .tc := ⟨.hbm, 378, rfl⟩
abbrev main_v175 : Ref sig .tc := ⟨.hbm, 379, rfl⟩
abbrev main_c_43 : Ref sig .tc := ⟨.hbm, 380, rfl⟩
abbrev main_v176 : Ref sig .tc := ⟨.hbm, 381, rfl⟩
abbrev main_v177 : Ref sig .tc := ⟨.hbm, 382, rfl⟩
abbrev main_cst_44 : Ref sig .tc := ⟨.hbm, 383, rfl⟩
abbrev main_cst_45 : Ref sig .tc := ⟨.hbm, 384, rfl⟩
abbrev main_call13_v0 : Ref sig .tc := ⟨.hbm, 385, rfl⟩
abbrev main_call13_v1 : Ref sig .tc := ⟨.hbm, 386, rfl⟩
abbrev main_v178 : Ref sig .tc := ⟨.hbm, 387, rfl⟩
abbrev main_v179 : Ref sig .tc := ⟨.hbm, 388, rfl⟩
abbrev main_c_46 : Ref sig .tc := ⟨.hbm, 389, rfl⟩
abbrev main_v180 : Ref sig .tc := ⟨.hbm, 390, rfl⟩
abbrev main_v181 : Ref sig .tc := ⟨.hbm, 391, rfl⟩
abbrev main_c_47 : Ref sig .tc := ⟨.hbm, 392, rfl⟩
abbrev main_v182 : Ref sig .tc := ⟨.hbm, 393, rfl⟩
abbrev main_v183 : Ref sig .tc := ⟨.hbm, 394, rfl⟩
abbrev main_v184 : Ref sig .tc := ⟨.hbm, 395, rfl⟩
abbrev main_v185 : Ref sig .tc := ⟨.hbm, 396, rfl⟩
abbrev main_v186 : Ref sig .tc := ⟨.hbm, 397, rfl⟩
abbrev main_c_48 : Ref sig .tc := ⟨.hbm, 398, rfl⟩
abbrev main_v187 : Ref sig .tc := ⟨.hbm, 399, rfl⟩
abbrev main_v188 : Ref sig .tc := ⟨.hbm, 400, rfl⟩
abbrev main_c_49 : Ref sig .tc := ⟨.hbm, 401, rfl⟩
abbrev main_v189 : Ref sig .tc := ⟨.hbm, 402, rfl⟩
abbrev main_v190 : Ref sig .tc := ⟨.hbm, 403, rfl⟩
abbrev main_v191 : Ref sig .tc := ⟨.hbm, 404, rfl⟩
abbrev main_v192 : Ref sig .tc := ⟨.hbm, 405, rfl⟩
abbrev main_v193 : Ref sig .tc := ⟨.hbm, 406, rfl⟩
abbrev main_v194 : Ref sig .tc := ⟨.hbm, 407, rfl⟩
abbrev main_v195 : Ref sig .tc := ⟨.hbm, 408, rfl⟩
abbrev main_v196 : Ref sig .tc := ⟨.hbm, 409, rfl⟩
abbrev main_v197 : Ref sig .tc := ⟨.hbm, 410, rfl⟩
abbrev main_v198 : Ref sig .tc := ⟨.hbm, 411, rfl⟩
abbrev main_v199 : Ref sig .tc := ⟨.hbm, 412, rfl⟩
abbrev main_v200 : Ref sig .tc := ⟨.hbm, 413, rfl⟩
abbrev main_v201 : Ref sig .tc := ⟨.hbm, 414, rfl⟩
abbrev main_v202 : Ref sig .tc := ⟨.hbm, 415, rfl⟩
abbrev main_cst_50 : Ref sig .tc := ⟨.hbm, 416, rfl⟩
abbrev main_v203 : Ref sig .tc := ⟨.hbm, 417, rfl⟩
abbrev main_cst_51 : Ref sig .tc := ⟨.hbm, 418, rfl⟩
abbrev main_v204 : Ref sig .tc := ⟨.hbm, 419, rfl⟩
abbrev main_v205 : Ref sig .tc := ⟨.hbm, 420, rfl⟩
abbrev main_cst_52 : Ref sig .tc := ⟨.hbm, 421, rfl⟩
abbrev main_v206 : Ref sig .tc := ⟨.hbm, 422, rfl⟩
abbrev main_v207 : Ref sig .tc := ⟨.hbm, 423, rfl⟩
abbrev main_v208 : Ref sig .tc := ⟨.hbm, 424, rfl⟩
abbrev main_v209 : Ref sig .tc := ⟨.hbm, 425, rfl⟩
abbrev main_v210 : Ref sig .tc := ⟨.hbm, 426, rfl⟩
abbrev main_v211 : Ref sig .tc := ⟨.hbm, 427, rfl⟩
abbrev main_v212 : Ref sig .tc := ⟨.hbm, 428, rfl⟩
abbrev main_v213 : Ref sig .tc := ⟨.hbm, 429, rfl⟩
abbrev main_v214 : Ref sig .tc := ⟨.hbm, 430, rfl⟩
abbrev main_v215 : Ref sig .tc := ⟨.hbm, 431, rfl⟩
abbrev main_v216 : Ref sig .tc := ⟨.hbm, 432, rfl⟩
abbrev main_v217 : Ref sig .tc := ⟨.hbm, 433, rfl⟩
abbrev main_cst_53 : Ref sig .tc := ⟨.hbm, 434, rfl⟩
abbrev main_v218 : Ref sig .tc := ⟨.hbm, 435, rfl⟩
abbrev main_v219 : Ref sig .tc := ⟨.hbm, 436, rfl⟩
abbrev main_cst_54 : Ref sig .tc := ⟨.hbm, 437, rfl⟩
abbrev main_v220 : Ref sig .tc := ⟨.hbm, 438, rfl⟩
abbrev main_v221 : Ref sig .tc := ⟨.hbm, 439, rfl⟩
abbrev main_v222 : Ref sig .tc := ⟨.hbm, 440, rfl⟩
abbrev main_cst_55 : Ref sig .tc := ⟨.hbm, 441, rfl⟩
abbrev main_v223 : Ref sig .tc := ⟨.hbm, 442, rfl⟩
abbrev main_v224 : Ref sig .tc := ⟨.hbm, 443, rfl⟩
abbrev main_v225 : Ref sig .tc := ⟨.hbm, 444, rfl⟩
abbrev main_call14_cst : Ref sig .tc := ⟨.hbm, 445, rfl⟩
abbrev main_call14_v0 : Ref sig .tc := ⟨.hbm, 446, rfl⟩
abbrev main_call14_v1 : Ref sig .tc := ⟨.hbm, 447, rfl⟩
abbrev main_call14_v2 : Ref sig .tc := ⟨.hbm, 448, rfl⟩
abbrev main_call14_v3 : Ref sig .tc := ⟨.hbm, 449, rfl⟩
abbrev main_call14_v4 : Ref sig .tc := ⟨.hbm, 450, rfl⟩
abbrev main_call14_v5 : Ref sig .tc := ⟨.hbm, 451, rfl⟩
abbrev main_call14_v6 : Ref sig .tc := ⟨.hbm, 452, rfl⟩
abbrev main_call14_v7 : Ref sig .tc := ⟨.hbm, 453, rfl⟩
abbrev main_call14_v8 : Ref sig .tc := ⟨.hbm, 454, rfl⟩
abbrev main_v226 : Ref sig .tc := ⟨.hbm, 455, rfl⟩
abbrev main_v227 : Ref sig .tc := ⟨.hbm, 456, rfl⟩
abbrev main_v228 : Ref sig .tc := ⟨.hbm, 457, rfl⟩
abbrev main_v229 : Ref sig .tc := ⟨.hbm, 458, rfl⟩
abbrev main_v230 : Ref sig .tc := ⟨.hbm, 459, rfl⟩
abbrev main_v231 : Ref sig .tc := ⟨.hbm, 460, rfl⟩
abbrev main_v232 : Ref sig .tc := ⟨.hbm, 461, rfl⟩
abbrev main_v233 : Ref sig .tc := ⟨.hbm, 462, rfl⟩
abbrev main_v234 : Ref sig .tc := ⟨.hbm, 463, rfl⟩
abbrev main_v235 : Ref sig .tc := ⟨.hbm, 464, rfl⟩
abbrev main_v236 : Ref sig .tc := ⟨.hbm, 465, rfl⟩
abbrev main_v237 : Ref sig .tc := ⟨.hbm, 466, rfl⟩
abbrev main_v238 : Ref sig .tc := ⟨.hbm, 467, rfl⟩
abbrev main_v239 : Ref sig .tc := ⟨.hbm, 468, rfl⟩
abbrev main_c_56 : Ref sig .tc := ⟨.hbm, 469, rfl⟩
abbrev main_v240 : Ref sig .tc := ⟨.hbm, 470, rfl⟩
abbrev main_v241 : Ref sig .tc := ⟨.hbm, 471, rfl⟩
abbrev main_c_57 : Ref sig .tc := ⟨.hbm, 472, rfl⟩
abbrev main_v242 : Ref sig .tc := ⟨.hbm, 473, rfl⟩
abbrev main_v243 : Ref sig .tc := ⟨.hbm, 474, rfl⟩
abbrev main_v244 : Ref sig .tc := ⟨.hbm, 475, rfl⟩
abbrev main_v245 : Ref sig .tc := ⟨.hbm, 476, rfl⟩
abbrev main_v246 : Ref sig .tc := ⟨.hbm, 477, rfl⟩
abbrev main_v247 : Ref sig .tc := ⟨.hbm, 478, rfl⟩
abbrev main_v248 : Ref sig .tc := ⟨.hbm, 479, rfl⟩
abbrev main_v249 : Ref sig .tc := ⟨.hbm, 480, rfl⟩
abbrev main_cst_58 : Ref sig .tc := ⟨.hbm, 481, rfl⟩
abbrev main_v250 : Ref sig .tc := ⟨.hbm, 482, rfl⟩
abbrev main_cst_59 : Ref sig .tc := ⟨.hbm, 483, rfl⟩
abbrev main_v251 : Ref sig .tc := ⟨.hbm, 484, rfl⟩
abbrev main_v252 : Ref sig .tc := ⟨.hbm, 485, rfl⟩
abbrev main_v253 : Ref sig .tc := ⟨.hbm, 486, rfl⟩
abbrev main_v254 : Ref sig .tc := ⟨.hbm, 487, rfl⟩
abbrev main_v255 : Ref sig .tc := ⟨.hbm, 488, rfl⟩
abbrev main_v256 : Ref sig .tc := ⟨.hbm, 489, rfl⟩
abbrev main_cst_60 : Ref sig .tc := ⟨.hbm, 490, rfl⟩
abbrev main_v257 : Ref sig .tc := ⟨.hbm, 491, rfl⟩
abbrev main_v258 : Ref sig .tc := ⟨.hbm, 492, rfl⟩
abbrev main_v259 : Ref sig .tc := ⟨.hbm, 493, rfl⟩
abbrev main_v260 : Ref sig .tc := ⟨.hbm, 494, rfl⟩
abbrev main_cst_61 : Ref sig .tc := ⟨.hbm, 495, rfl⟩
abbrev main_v261 : Ref sig .tc := ⟨.hbm, 496, rfl⟩
abbrev main_cst_62 : Ref sig .tc := ⟨.hbm, 497, rfl⟩
abbrev main_v262 : Ref sig .tc := ⟨.hbm, 498, rfl⟩
abbrev main_v263 : Ref sig .tc := ⟨.hbm, 499, rfl⟩
abbrev main_v264 : Ref sig .tc := ⟨.hbm, 500, rfl⟩
abbrev main_v265 : Ref sig .tc := ⟨.hbm, 501, rfl⟩
abbrev main_v266 : Ref sig .tc := ⟨.hbm, 502, rfl⟩
abbrev main_v267 : Ref sig .tc := ⟨.hbm, 503, rfl⟩
abbrev main_cst_63 : Ref sig .tc := ⟨.hbm, 504, rfl⟩
abbrev main_v268 : Ref sig .tc := ⟨.hbm, 505, rfl⟩
abbrev main_v269 : Ref sig .tc := ⟨.hbm, 506, rfl⟩
abbrev main_v270 : Ref sig .tc := ⟨.hbm, 507, rfl⟩
abbrev main_v271 : Ref sig .tc := ⟨.hbm, 508, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1024_S1x1024 : S1024.ShapeCasts S1x1024
  shapeCasts_S8_S1x8 : S8.ShapeCasts S1x8
  inb_S2000x12_S2000x12_0_0 : ∀ a, (![0, 0] : Fin 2 → Nat) a + S2000x12.size a ≤ S2000x12.size a
  h_S2000x12 : 0 < S2000x12.numel
  bitsLt_bf16_f32 : FTy.bits .bf16 < FTy.bits .f32
  inb_S12x1024_S12x1024_0_0 : ∀ a, (![0, 0] : Fin 2 → Nat) a + S12x1024.size a ≤ S12x1024.size a
  h_S12x1024 : 0 < S12x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S1024x8_S1024x8_0_0 : ∀ a, (![0, 0] : Fin 2 → Nat) a + S1024x8.size a ≤ S1024x8.size a
  h_S1024x8 : 0 < S1024x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  slices_S2000x12_o0_2_S2000x1 : S2000x12.Slices ![0, 2] S2000x1
  shapeCasts_S2000x1_S2000 : S2000x1.ShapeCasts S2000
  slices_S2000x12_o0_10_S2000x1 : S2000x12.Slices ![0, 10] S2000x1
  slices_S2000x12_o0_0_S2000x1 : S2000x12.Slices ![0, 0] S2000x1
  slices_S2000x12_o0_5_S2000x1 : S2000x12.Slices ![0, 5] S2000x1
  slices_S2000x12_o0_1_S2000x1 : S2000x12.Slices ![0, 1] S2000x1
  slices_S2000x12_o0_4_S2000x1 : S2000x12.Slices ![0, 4] S2000x1
  slices_S2000x12_o0_11_S2000x1 : S2000x12.Slices ![0, 11] S2000x1
  slices_S2000x12_o0_3_S2000x1 : S2000x12.Slices ![0, 3] S2000x1
  natLt_1_32 : 1 < 32
  shapeCasts_S2000_S2000x1 : S2000.ShapeCasts S2000x1
  concatenates_S2000x8_S2000x1_S2000x1_S2000x10_d1 : Shape.Concatenates [S2000x8, S2000x1, S2000x1] S2000x10 1
  inb_S2000x10_S2000x10_0_0 : ∀ a, (![0, 0] : Fin 2 → Nat) a + S2000x10.size a ≤ S2000x10.size a
  h_S2000x10 : 0 < S2000x10.numel
  concatenates_S3200000_S3200000_S6400000_d0 : Shape.Concatenates [S3200000, S3200000] S6400000 0
  slices_S3_S1_0 : S3.Slices ![0] S1
  shapeCasts_S1_S_ : S1.ShapeCasts S_
  bcast_S_S10 : S_.BroadcastsInDim S10 (![] : Fin 0 → Fin S10.rank)
  bcast_S_S2 : S_.BroadcastsInDim S2 (![] : Fin 0 → Fin S2.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S10_S1x10_1 : S10.BroadcastsInDim S1x10 (![1] : Fin 1 → Fin S1x10.rank)
  bcast_S1x10_S3200000x10_0_1 : S1x10.BroadcastsInDim S3200000x10 (![0, 1] : Fin 2 → Fin S3200000x10.rank)
  bcast_S2_S1x2_1 : S2.BroadcastsInDim S1x2 (![1] : Fin 1 → Fin S1x2.rank)
  bcast_S1x2_S3200000x2_0_1 : S1x2.BroadcastsInDim S3200000x2 (![0, 1] : Fin 2 → Fin S3200000x2.rank)
  reducesTo_S3200000x10_S3200000_d1 : S3200000x10.ReducesTo [1] S3200000
  h_S_ : 0 < S_.numel
  reducesTo_S3200000x2_S3200000_d1 : S3200000x2.ReducesTo [1] S3200000
  bcast_S3200000x1_S3200000x10_0_1 : S3200000x1.BroadcastsInDim S3200000x10 (![0, 1] : Fin 2 → Fin S3200000x10.rank)
  bcast_S3200000x1_S3200000x2_0_1 : S3200000x1.BroadcastsInDim S3200000x2 (![0, 1] : Fin 2 → Fin S3200000x2.rank)
  bcast_S_S3200000x1 : S_.BroadcastsInDim S3200000x1 (![] : Fin 0 → Fin S3200000x1.rank)
  concatenates_S3200000x10_S3200000x10_S6400000x10_d0 : Shape.Concatenates [S3200000x10, S3200000x10] S6400000x10 0
  bcast_S_S6400000 : S_.BroadcastsInDim S6400000 (![] : Fin 0 → Fin S6400000.rank)
  bcast_S6400000_S6400000x1_0 : S6400000.BroadcastsInDim S6400000x1 (![0] : Fin 1 → Fin S6400000x1.rank)
  slices_S3_S1_1 : S3.Slices ![1] S1
  slices_S3_S1_2 : S3.Slices ![2] S1
  slices_S100000x10_S100000x8_0_0 : S100000x10.Slices ![0, 0] S100000x8
  slices_S100000x8_S100000x4_0_0 : S100000x8.Slices ![0, 0] S100000x4
  slices_S100000x8_S100000x4_0_4 : S100000x8.Slices ![0, 4] S100000x4
  reducesTo_S100000x4_S100000_d1 : S100000x4.ReducesTo [1] S100000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  dot_S2000x12_S12x1024_S2000x1024_1_0_0_1_n_n_wf : DotDims.WF S2000x12 S12x1024 S2000x1024 [1] [0] [0] [1] [] []
  dot_S2000x1024_S1024x8_S2000x8_1_0_0_1_n_n_wf : DotDims.WF S2000x1024 S1024x8 S2000x8 [1] [0] [0] [1] [] []
  gather_S100000x10_S3200000x1_S3200000x10_1_0_n_n_0_1_110_wf : GatherDims.WF S100000x10 S3200000x1 S3200000x10 [1] [0] [] [0] [] 1 ![1, 10]
  scatter_S100000x10_S6400000x1_S6400000x10_1_0_0_1_wf : ScatterDims.WF S100000x10 S6400000x1 S6400000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x12.size a ≤ S100000x12.size a
  hwx0_0 : ∀ i : grid0.Coords, EltTy.bits .f32 = 32 ∨ (Rect.block (s := S100000x12) S2000x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x1024.size a ≤ S12x1024.size a
  hwx0_1 : ∀ i : grid0.Coords, EltTy.bits .f32 = 32 ∨ (Rect.block (s := S12x1024) S12x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S1024x8.size a
  hwx0_3 : ∀ i : grid0.Coords, EltTy.bits .f32 = 32 ∨ (Rect.block (s := S1024x8) S1024x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x10.size a ≤ S100000x10.size a
  hwx0_5 : ∀ i : grid0.Coords, EltTy.bits .f32 = 32 ∨ (Rect.block (s := S100000x10) S2000x10.size (cc0_transform_5 i) (hinb0_5 i)).WholeWords (EltTy.packing .f32)

variable [Facts₀]

def dot_S2000x12_S12x1024_S2000x1024_1_0_0_1_n_n : DotDims S2000x12 S12x1024 S2000x1024 where
  lhsContracting := [1]
  rhsContracting := [0]
  lhsNonContracting := [0]
  rhsNonContracting := [1]
  lhsBatch := []
  rhsBatch := []
  wf := dot_S2000x12_S12x1024_S2000x1024_1_0_0_1_n_n_wf
def dot_S2000x1024_S1024x8_S2000x8_1_0_0_1_n_n : DotDims S2000x1024 S1024x8 S2000x8 where
  lhsContracting := [1]
  rhsContracting := [0]
  lhsNonContracting := [0]
  rhsNonContracting := [1]
  lhsBatch := []
  rhsBatch := []
  wf := dot_S2000x1024_S1024x8_S2000x8_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S6400000x1_S6400000x10_1_0_0_1 : ScatterDims S100000x10 S6400000x1 S6400000x10 where
  updateWindowDims := [1]
  insertedWindowDims := [0]
  scatterDimsToOperandDims := [0]
  indexVectorDim := 1
  wf := scatter_S100000x10_S6400000x1_S6400000x10_1_0_0_1_wf

abbrev win0_0 : Pipeline.Window sig grid0 :=
  Pipeline.Window.ofSpec (Memref.whole main_arg0) S2000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S12x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2000x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x12 : Shape := ⟨2, ![100000, 12]⟩
abbrev S3200000x2 : Shape := ⟨2, ![3200000, 2]⟩
abbrev S12x1024 : Shape := ⟨2, ![12, 1024]⟩
abbrev S1024 : Shape := ⟨1, ![1024]⟩
abbrev S1024x8 : Shape := ⟨2, ![1024, 8]⟩
abbrev S8 : Shape := ⟨1, ![8]⟩
abbrev S3 : Shape := ⟨1, ![3]⟩
abbrev S3200000 : Shape := ⟨1, ![3200000]⟩
abbrev S100000x1024 : Shape := ⟨2, ![100000, 1024]⟩
abbrev S1x1024 : Shape := ⟨2, ![1, 1024]⟩
abbrev S_ : Shape := ⟨0, ![]⟩
abbrev S100000x8 : Shape := ⟨2, ![100000, 8]⟩
abbrev S1x8 : Shape := ⟨2, ![1, 8]⟩
abbrev S100000x1 : Shape := ⟨2, ![100000, 1]⟩
abbrev S100000 : Shape := ⟨1, ![100000]⟩
abbrev S100000x10 : Shape := ⟨2, ![100000, 10]⟩
abbrev S1 : Shape := ⟨1, ![1]⟩
abbrev S22 : Shape := ⟨1, ![22]⟩
abbrev S3200000x1 : Shape := ⟨2, ![3200000, 1]⟩
abbrev S3200000x10 : Shape := ⟨2, ![3200000, 10]⟩
abbrev S3200000x22 : Shape := ⟨2, ![3200000, 22]⟩
abbrev S1x22 : Shape := ⟨2, ![1, 22]⟩
abbrev S100000x4 : Shape := ⟨2, ![100000, 4]⟩

abbrev nBuf : Space → Nat
  | .hbm => 410
  | .vmem => 0
  | .smem => 0
  | _ => 0

abbrev hbmTy0_0 (i : Nat) : BufTy := match i % 128 with
  | 0 => ⟨S100000x12, .f32⟩
  | 1 => ⟨S3200000x2, .f32⟩
  | 2 => ⟨S12x1024, .f32⟩
  | 3 => ⟨S1024, .f32⟩
  | 4 => ⟨S1024x8, .f32⟩
  | 5 => ⟨S8, .f32⟩
  | 6 => ⟨S3, .f32⟩
  | 7 => ⟨S3200000, .i32⟩
  | 8 => ⟨S3200000, .i32⟩
  | 9 => ⟨S100000x1024, .f32⟩
  | 10 => ⟨S1x1024, .f32⟩
  | 11 => ⟨S100000x1024, .f32⟩
  | 12 => ⟨S100000x1024, .f32⟩
  | 13 => ⟨S_, .f32⟩
  | 14 => ⟨S100000x1024, .f32⟩
  | 15 => ⟨S100000x1024, .f32⟩
  | 16 => ⟨S100000x8, .f32⟩
  | 17 => ⟨S1x8, .f32⟩
  | 18 => ⟨S100000x8, .f32⟩
  | 19 => ⟨S100000x8, .f32⟩
  | 20 => ⟨S100000x1, .f32⟩
  | 21 => ⟨S100000, .f32⟩
  | 22 => ⟨S100000x1, .f32⟩
  | 23 => ⟨S100000, .f32⟩
  | 24 => ⟨S100000, .f32⟩
  | 25 => ⟨S_, .f32⟩
  | 26 => ⟨S100000, .f32⟩
  | 27 => ⟨S100000, .f32⟩
  | 28 => ⟨S100000x1, .f32⟩
  | 29 => ⟨S100000, .f32⟩
  | 30 => ⟨S100000x1, .f32⟩
  | 31 => ⟨S100000, .f32⟩
  | 32 => ⟨S100000, .i1⟩
  | 33 => ⟨S100000x1, .f32⟩
  | 34 => ⟨S100000, .f32⟩
  | 35 => ⟨S100000x1, .f32⟩
  | 36 => ⟨S100000, .f32⟩
  | 37 => ⟨S100000, .i1⟩
  | 38 => ⟨S100000, .i1⟩
  | 39 => ⟨S100000x1, .f32⟩
  | 40 => ⟨S100000, .f32⟩
  | 41 => ⟨S100000x1, .f32⟩
  | 42 => ⟨S100000, .f32⟩
  | 43 => ⟨S100000, .i1⟩
  | 44 => ⟨S100000, .i1⟩
  | 45 => ⟨S100000x1, .f32⟩
  | 46 => ⟨S100000, .f32⟩
  | 47 => ⟨S100000x1, .f32⟩
  | 48 => ⟨S100000, .f32⟩
  | 49 => ⟨S100000, .i1⟩
  | 50 => ⟨S100000, .i1⟩
  | 51 => ⟨S100000, .f32⟩
  | 52 => ⟨S_, .f32⟩
  | 53 => ⟨S100000, .f32⟩
  | 54 => ⟨S100000, .f32⟩
  | 55 => ⟨S_, .f32⟩
  | 56 => ⟨S100000, .f32⟩
  | 57 => ⟨S100000, .f32⟩
  | 58 => ⟨S100000x1, .f32⟩
  | 59 => ⟨S100000x1, .f32⟩
  | 60 => ⟨S100000x10, .f32⟩
  | 61 => ⟨S1, .f32⟩
  | 62 => ⟨S_, .f32⟩
  | 63 => ⟨S22, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S22, .i32⟩
  | 71 => ⟨S22, .i32⟩
  | 72 => ⟨S_, .i32⟩
  | 73 => ⟨S22, .i32⟩
  | 74 => ⟨S22, .i1⟩
  | 75 => ⟨S_, .i32⟩
  | 76 => ⟨S22, .i32⟩
  | 77 => ⟨S22, .i1⟩
  | 78 => ⟨S_, .i32⟩
  | 79 => ⟨S_, .i1⟩
  | 80 => ⟨S22, .i1⟩
  | 81 => ⟨S22, .i1⟩
  | 82 => ⟨S22, .i1⟩
  | 83 => ⟨S22, .i32⟩
  | 84 => ⟨S22, .i32⟩
  | 85 => ⟨S22, .i32⟩
  | 86 => ⟨S_, .i32⟩
  | 87 => ⟨S22, .i32⟩
  | 88 => ⟨S22, .i1⟩
  | 89 => ⟨S_, .f32⟩
  | 90 => ⟨S_, .f32⟩
  | 91 => ⟨S22, .f32⟩
  | 92 => ⟨S22, .f32⟩
  | 93 => ⟨S22, .f32⟩
  | 94 => ⟨S22, .f32⟩
  | 95 => ⟨S_, .i32⟩
  | 96 => ⟨S3200000, .i32⟩
  | 97 => ⟨S3200000, .i1⟩
  | 98 => ⟨S_, .i32⟩
  | 99 => ⟨S3200000, .i32⟩
  | 100 => ⟨S3200000, .i32⟩
  | 101 => ⟨S3200000, .i32⟩
  | 102 => ⟨S3200000x1, .i32⟩
  | 103 => ⟨S3200000x10, .f32⟩
  | 104 => ⟨S_, .i32⟩
  | 105 => ⟨S3200000, .i32⟩
  | 106 => ⟨S3200000, .i1⟩
  | 107 => ⟨S_, .i32⟩
  | 108 => ⟨S3200000, .i32⟩
  | 109 => ⟨S3200000, .i32⟩
  | 110 => ⟨S3200000, .i32⟩
  | 111 => ⟨S3200000x1, .i32⟩
  | 112 => ⟨S3200000x10, .f32⟩
  | 113 => ⟨S3200000x22, .f32⟩
  | 114 => ⟨S_, .f32⟩
  | 115 => ⟨S_, .f32⟩
  | 116 => ⟨S_, .f32⟩
  | 117 => ⟨S_, .i1⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S1x22, .f32⟩
  | 126 => ⟨S3200000x22, .f32⟩
  | 127 => ⟨S3200000x22, .f32⟩
  | _ => ⟨S100000x12, .f32⟩

abbrev hbmTy0_1 (i : Nat) : BufTy := match i % 128 with
  | 0 => ⟨S_, .f32⟩
  | 1 => ⟨S3200000, .f32⟩
  | 2 => ⟨S_, .f32⟩
  | 3 => ⟨S3200000, .f32⟩
  | 4 => ⟨S3200000, .f32⟩
  | 5 => ⟨S3200000x1, .f32⟩
  | 6 => ⟨S3200000x22, .f32⟩
  | 7 => ⟨S3200000x22, .f32⟩
  | 8 => ⟨S3200000x22, .f32⟩
  | 9 => ⟨S_, .f32⟩
  | 10 => ⟨S3200000, .f32⟩
  | 11 => ⟨S3200000x1, .f32⟩
  | 12 => ⟨S3200000x22, .f32⟩
  | 13 => ⟨S3200000x22, .f32⟩
  | 14 => ⟨S3200000x22, .f32⟩
  | 15 => ⟨S3200000x22, .f32⟩
  | 16 => ⟨S1x22, .f32⟩
  | 17 => ⟨S3200000x22, .f32⟩
  | 18 => ⟨S3200000x22, .f32⟩
  | 19 => ⟨S3200000x10, .f32⟩
  | 20 => ⟨S_, .i32⟩
  | 21 => ⟨S3200000, .i32⟩
  | 22 => ⟨S3200000, .i1⟩
  | 23 => ⟨S_, .i32⟩
  | 24 => ⟨S3200000, .i32⟩
  | 25 => ⟨S3200000, .i32⟩
  | 26 => ⟨S3200000, .i32⟩
  | 27 => ⟨S3200000x1, .i32⟩
  | 28 => ⟨S100000x10, .f32⟩
  | 29 => ⟨S3200000x10, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S100000x10, .f32⟩
  | 39 => ⟨S1, .f32⟩
  | 40 => ⟨S_, .f32⟩
  | 41 => ⟨S22, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S22, .i32⟩
  | 49 => ⟨S22, .i32⟩
  | 50 => ⟨S_, .i32⟩
  | 51 => ⟨S22, .i32⟩
  | 52 => ⟨S22, .i1⟩
  | 53 => ⟨S_, .i32⟩
  | 54 => ⟨S22, .i32⟩
  | 55 => ⟨S22, .i1⟩
  | 56 => ⟨S_, .i32⟩
  | 57 => ⟨S_, .i1⟩
  | 58 => ⟨S22, .i1⟩
  | 59 => ⟨S22, .i1⟩
  | 60 => ⟨S22, .i1⟩
  | 61 => ⟨S22, .i32⟩
  | 62 => ⟨S22, .i32⟩
  | 63 => ⟨S22, .i32⟩
  | 64 => ⟨S_, .i32⟩
  | 65 => ⟨S22, .i32⟩
  | 66 => ⟨S22, .i1⟩
  | 67 => ⟨S_, .f32⟩
  | 68 => ⟨S_, .f32⟩
  | 69 => ⟨S22, .f32⟩
  | 70 => ⟨S22, .f32⟩
  | 71 => ⟨S22, .f32⟩
  | 72 => ⟨S22, .f32⟩
  | 73 => ⟨S_, .i32⟩
  | 74 => ⟨S3200000, .i32⟩
  | 75 => ⟨S3200000, .i1⟩
  | 76 => ⟨S_, .i32⟩
  | 77 => ⟨S3200000, .i32⟩
  | 78 => ⟨S3200000, .i32⟩
  | 79 => ⟨S3200000, .i32⟩
  | 80 => ⟨S3200000x1, .i32⟩
  | 81 => ⟨S3200000x10, .f32⟩
  | 82 => ⟨S_, .i32⟩
  | 83 => ⟨S3200000, .i32⟩
  | 84 => ⟨S3200000, .i1⟩
  | 85 => ⟨S_, .i32⟩
  | 86 => ⟨S3200000, .i32⟩
  | 87 => ⟨S3200000, .i32⟩
  | 88 => ⟨S3200000, .i32⟩
  | 89 => ⟨S3200000x1, .i32⟩
  | 90 => ⟨S3200000x10, .f32⟩
  | 91 => ⟨S3200000x22, .f32⟩
  | 92 => ⟨S_, .f32⟩
  | 93 => ⟨S_, .f32⟩
  | 94 => ⟨S_, .f32⟩
  | 95 => ⟨S_, .i1⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S1x22, .f32⟩
  | 104 => ⟨S3200000x22, .f32⟩
  | 105 => ⟨S3200000x22, .f32⟩
  | 106 => ⟨S_, .f32⟩
  | 107 => ⟨S3200000, .f32⟩
  | 108 => ⟨S_, .f32⟩
  | 109 => ⟨S3200000, .f32⟩
  | 110 => ⟨S3200000, .f32⟩
  | 111 => ⟨S3200000x1, .f32⟩
  | 112 => ⟨S3200000x22, .f32⟩
  | 113 => ⟨S3200000x22, .f32⟩
  | 114 => ⟨S3200000x22, .f32⟩
  | 115 => ⟨S_, .f32⟩
  | 116 => ⟨S3200000, .f32⟩
  | 117 => ⟨S3200000x1, .f32⟩
  | 118 => ⟨S3200000x22, .f32⟩
  | 119 => ⟨S3200000x22, .f32⟩
  | 120 => ⟨S3200000x22, .f32⟩
  | 121 => ⟨S3200000x22, .f32⟩
  | 122 => ⟨S1x22, .f32⟩
  | 123 => ⟨S3200000x22, .f32⟩
  | 124 => ⟨S3200000x22, .f32⟩
  | 125 => ⟨S3200000x10, .f32⟩
  | 126 => ⟨S_, .i32⟩
  | 127 => ⟨S3200000, .i32⟩
  | _ => ⟨S100000x12, .f32⟩

abbrev hbmTy0_2 (i : Nat) : BufTy := match i % 128 with
  | 0 => ⟨S3200000, .i1⟩
  | 1 => ⟨S_, .i32⟩
  | 2 => ⟨S3200000, .i32⟩
  | 3 => ⟨S3200000, .i32⟩
  | 4 => ⟨S3200000, .i32⟩
  | 5 => ⟨S3200000x1, .i32⟩
  | 6 => ⟨S100000x10, .f32⟩
  | 7 => ⟨S3200000x10, .f32⟩
  | 8 => ⟨S_, .i32⟩
  | 9 => ⟨S3200000, .i32⟩
  | 10 => ⟨S3200000, .i1⟩
  | 11 => ⟨S_, .i32⟩
  | 12 => ⟨S3200000, .i32⟩
  | 13 => ⟨S3200000, .i32⟩
  | 14 => ⟨S3200000, .i32⟩
  | 15 => ⟨S3200000x1, .i32⟩
  | 16 => ⟨S100000x10, .f32⟩
  | 17 => ⟨S1, .f32⟩
  | 18 => ⟨S_, .f32⟩
  | 19 => ⟨S22, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S22, .i32⟩
  | 27 => ⟨S22, .i32⟩
  | 28 => ⟨S_, .i32⟩
  | 29 => ⟨S22, .i32⟩
  | 30 => ⟨S22, .i1⟩
  | 31 => ⟨S_, .i32⟩
  | 32 => ⟨S22, .i32⟩
  | 33 => ⟨S22, .i1⟩
  | 34 => ⟨S_, .i32⟩
  | 35 => ⟨S_, .i1⟩
  | 36 => ⟨S22, .i1⟩
  | 37 => ⟨S22, .i1⟩
  | 38 => ⟨S22, .i1⟩
  | 39 => ⟨S22, .i32⟩
  | 40 => ⟨S22, .i32⟩
  | 41 => ⟨S22, .i32⟩
  | 42 => ⟨S_, .i32⟩
  | 43 => ⟨S22, .i32⟩
  | 44 => ⟨S22, .i1⟩
  | 45 => ⟨S_, .f32⟩
  | 46 => ⟨S_, .f32⟩
  | 47 => ⟨S22, .f32⟩
  | 48 => ⟨S22, .f32⟩
  | 49 => ⟨S22, .f32⟩
  | 50 => ⟨S22, .f32⟩
  | 51 => ⟨S_, .i32⟩
  | 52 => ⟨S3200000, .i32⟩
  | 53 => ⟨S3200000, .i1⟩
  | 54 => ⟨S_, .i32⟩
  | 55 => ⟨S3200000, .i32⟩
  | 56 => ⟨S3200000, .i32⟩
  | 57 => ⟨S3200000, .i32⟩
  | 58 => ⟨S3200000x1, .i32⟩
  | 59 => ⟨S3200000x10, .f32⟩
  | 60 => ⟨S_, .i32⟩
  | 61 => ⟨S3200000, .i32⟩
  | 62 => ⟨S3200000, .i1⟩
  | 63 => ⟨S_, .i32⟩
  | 64 => ⟨S3200000, .i32⟩
  | 65 => ⟨S3200000, .i32⟩
  | 66 => ⟨S3200000, .i32⟩
  | 67 => ⟨S3200000x1, .i32⟩
  | 68 => ⟨S3200000x10, .f32⟩
  | 69 => ⟨S3200000x22, .f32⟩
  | 70 => ⟨S_, .f32⟩
  | 71 => ⟨S_, .f32⟩
  | 72 => ⟨S_, .f32⟩
  | 73 => ⟨S_, .i1⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S1x22, .f32⟩
  | 82 => ⟨S3200000x22, .f32⟩
  | 83 => ⟨S3200000x22, .f32⟩
  | 84 => ⟨S_, .f32⟩
  | 85 => ⟨S3200000, .f32⟩
  | 86 => ⟨S_, .f32⟩
  | 87 => ⟨S3200000, .f32⟩
  | 88 => ⟨S3200000, .f32⟩
  | 89 => ⟨S3200000x1, .f32⟩
  | 90 => ⟨S3200000x22, .f32⟩
  | 91 => ⟨S3200000x22, .f32⟩
  | 92 => ⟨S3200000x22, .f32⟩
  | 93 => ⟨S_, .f32⟩
  | 94 => ⟨S3200000, .f32⟩
  | 95 => ⟨S3200000x1, .f32⟩
  | 96 => ⟨S3200000x22, .f32⟩
  | 97 => ⟨S3200000x22, .f32⟩
  | 98 => ⟨S3200000x22, .f32⟩
  | 99 => ⟨S3200000x22, .f32⟩
  | 100 => ⟨S1x22, .f32⟩
  | 101 => ⟨S3200000x22, .f32⟩
  | 102 => ⟨S3200000x22, .f32⟩
  | 103 => ⟨S3200000x10, .f32⟩
  | 104 => ⟨S_, .i32⟩
  | 105 => ⟨S3200000, .i32⟩
  | 106 => ⟨S3200000, .i1⟩
  | 107 => ⟨S_, .i32⟩
  | 108 => ⟨S3200000, .i32⟩
  | 109 => ⟨S3200000, .i32⟩
  | 110 => ⟨S3200000, .i32⟩
  | 111 => ⟨S3200000x1, .i32⟩
  | 112 => ⟨S100000x10, .f32⟩
  | 113 => ⟨S3200000x10, .f32⟩
  | 114 => ⟨S_, .i32⟩
  | 115 => ⟨S3200000, .i32⟩
  | 116 => ⟨S3200000, .i1⟩
  | 117 => ⟨S_, .i32⟩
  | 118 => ⟨S3200000, .i32⟩
  | 119 => ⟨S3200000, .i32⟩
  | 120 => ⟨S3200000, .i32⟩
  | 121 => ⟨S3200000x1, .i32⟩
  | 122 => ⟨S100000x10, .f32⟩
  | 123 => ⟨S100000x8, .f32⟩
  | 124 => ⟨S100000x4, .f32⟩
  | 125 => ⟨S100000x4, .f32⟩
  | 126 => ⟨S_, .f32⟩
  | 127 => ⟨S100000, .f32⟩
  | _ => ⟨S100000x12, .f32⟩

abbrev hbmTy0_3 (i : Nat) : BufTy := match i % 128 with
  | 0 => ⟨S_, .f32⟩
  | 1 => ⟨S100000, .f32⟩
  | 2 => ⟨S100000, .f32⟩
  | 3 => ⟨S100000x1, .f32⟩
  | 4 => ⟨S100000x4, .f32⟩
  | 5 => ⟨S100000x4, .f32⟩
  | 6 => ⟨S100000x4, .f32⟩
  | 7 => ⟨S_, .f32⟩
  | 8 => ⟨S100000, .f32⟩
  | 9 => ⟨S100000x1, .f32⟩
  | 10 => ⟨S100000x4, .f32⟩
  | 11 => ⟨S100000x4, .f32⟩
  | 12 => ⟨S_, .f32⟩
  | 13 => ⟨S100000, .f32⟩
  | 14 => ⟨S_, .f32⟩
  | 15 => ⟨S100000, .f32⟩
  | 16 => ⟨S100000, .f32⟩
  | 17 => ⟨S100000x1, .f32⟩
  | 18 => ⟨S100000x4, .f32⟩
  | 19 => ⟨S100000x4, .f32⟩
  | 20 => ⟨S100000x4, .f32⟩
  | 21 => ⟨S_, .f32⟩
  | 22 => ⟨S100000, .f32⟩
  | 23 => ⟨S100000x1, .f32⟩
  | 24 => ⟨S100000x4, .f32⟩
  | 25 => ⟨S100000x4, .f32⟩
  | _ => ⟨S100000x12, .f32⟩

abbrev hbmTy (i : Nat) : BufTy := match i / 128 with
  | 0 => hbmTy0_0 i
  | 1 => hbmTy0_1 i
  | 2 => hbmTy0_2 i
  | 3 => hbmTy0_3 i
  | _ => ⟨S100000x12, .f32⟩

abbrev bufTy : (tb : Table) → Fin (tcTables nBuf tb) → BufTy
  | .hbm, ⟨i, _⟩ => hbmTy i
  | _, _ => ⟨S100000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_0 : Ref sig .tc := ⟨.hbm, 52, rfl⟩
abbrev main_v40 : Ref sig .tc := ⟨.hbm, 53, rfl⟩
abbrev main_v41 : Ref sig .tc := ⟨.hbm, 54, rfl⟩
abbrev main_cst_1 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c : Ref sig .tc := ⟨.hbm, 64, rfl⟩
abbrev main_call1_v0 : Ref sig .tc := ⟨.hbm, 65, rfl⟩
abbrev main_call1_c : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_c_1 : Ref sig .tc := ⟨.hbm, 72, rfl⟩
abbrev main_call1_v5 : Ref sig .tc := ⟨.hbm, 73, rfl⟩
abbrev main_call1_v6 : Ref sig .tc := ⟨.hbm, 74, rfl⟩
abbrev main_call1_c_2 : Ref sig .tc := ⟨.hbm, 75, rfl⟩
abbrev main_call1_v7 : Ref sig .tc := ⟨.hbm, 76, rfl⟩
abbrev main_call1_v8 : Ref sig .tc := ⟨.hbm, 77, rfl⟩
abbrev main_call1_c_3 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_v50 : Ref sig .tc := ⟨.hbm, 85, rfl⟩
abbrev main_c_2 : Ref sig .tc := ⟨.hbm, 86, rfl⟩
abbrev main_v51 : Ref sig .tc := ⟨.hbm, 87, rfl⟩
abbrev main_v52 : Ref sig .tc := ⟨.hbm, 88, rfl⟩
abbrev main_cst_3 : Ref sig .tc := ⟨.hbm, 89, rfl⟩
abbrev main_cst_4 : Ref sig .tc := ⟨.hbm, 90, rfl⟩
abbrev main_call2_v0 : Ref sig .tc := ⟨.hbm, 91, rfl⟩
abbrev main_call2_v1 : Ref sig .tc := ⟨.hbm, 92, rfl⟩
abbrev main_v53 : Ref sig .tc := ⟨.hbm, 93, rfl⟩
abbrev main_v54 : Ref sig .tc := ⟨.hbm, 94, rfl⟩
abbrev main_c_5 : Ref sig .tc := ⟨.hbm, 95, rfl⟩
abbrev main_v55 : Ref sig .tc := ⟨.hbm, 96, rfl⟩
abbrev main_v56 : Ref sig .tc := ⟨.hbm, 97, rfl⟩
abbrev main_c_6 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_c_7 : Ref sig .tc := ⟨.hbm, 104, rfl⟩
abbrev main_v62 : Ref sig .tc := ⟨.hbm, 105, rfl⟩
abbrev main_v63 : Ref sig .tc := ⟨.hbm, 106, rfl⟩
abbrev main_c_8 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_call3_cst : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_call3_v5 : Ref sig .tc := ⟨.hbm, 120, rfl⟩
abbrev main_call3_v6 : Ref sig .tc := ⟨.hbm, 121, rfl⟩
abbrev main_call3_v7 : Ref sig .tc := ⟨.hbm, 122, rfl⟩
abbrev main_call3_v8 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_9 : Ref sig .tc := ⟨.hbm, 128, rfl⟩
abbrev main_v74 : Ref sig .tc := ⟨.hbm, 129, rfl⟩
abbrev main_cst_10 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_cst_11 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_c_12 : Ref sig .tc := ⟨.hbm, 148, rfl⟩
abbrev main_v91 : Ref sig .tc := ⟨.hbm, 149, rfl⟩
abbrev main_v92 : Ref sig .tc := ⟨.hbm, 150, rfl⟩
abbrev main_c_13 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_c_14 : Ref sig .tc := ⟨.hbm, 158, rfl⟩
abbrev main_v99 : Ref sig .tc := ⟨.hbm, 159, rfl⟩
abbrev main_v100 : Ref sig .tc := ⟨.hbm, 160, rfl⟩
abbrev main_c_15 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_c_16 : Ref sig .tc := ⟨.hbm, 170, rfl⟩
abbrev main_call4_v0 : Ref sig .tc := ⟨.hbm, 171, rfl⟩
abbrev main_call4_c : Ref sig .tc := ⟨.hbm, 172, rfl⟩
abbrev main_call4_v1 : Ref sig .tc := ⟨.hbm, 173, rfl⟩
abbrev main_call4_c_0 : Ref sig .tc := ⟨.hbm, 174, rfl⟩
abbrev main_call4_v2 : Ref sig .tc := ⟨.hbm, 175, rfl⟩
abbrev main_call4_v3 : Ref sig .tc := ⟨.hbm, 176, rfl⟩
abbrev main_call4_v4 : Ref sig .tc := ⟨.hbm, 177, rfl⟩
abbrev main_call4_c_1 : Ref sig .tc := ⟨.hbm, 178, rfl⟩
abbrev main_call4_v5 : Ref sig .tc := ⟨.hbm, 179, rfl⟩
abbrev main_call4_v6 : Ref sig .tc := ⟨.hbm, 180, rfl⟩
abbrev main_call4_c_2 : Ref sig .tc := ⟨.hbm, 181, rfl⟩
abbrev main_call4_v7 : Ref sig .tc := ⟨.hbm, 182, rfl⟩
abbrev main_call4_v8 : Ref sig .tc := ⟨.hbm, 183, rfl⟩
abbrev main_call4_c_3 : Ref sig .tc := ⟨.hbm, 184, rfl⟩
abbrev main_call4_v9 : Ref sig .tc := ⟨.hbm, 185, rfl⟩
abbrev main_call4_v10 : Ref sig .tc := ⟨.hbm, 186, rfl⟩
abbrev main_call4_v11 : Ref sig .tc := ⟨.hbm, 187, rfl⟩
abbrev main_call4_v12 : Ref sig .tc := ⟨.hbm, 188, rfl⟩
abbrev main_call4_v13 : Ref sig .tc := ⟨.hbm, 189, rfl⟩
abbrev main_call4_v14 : Ref sig .tc := ⟨.hbm, 190, rfl⟩
abbrev main_v109 : Ref sig .tc := ⟨.hbm, 191, rfl⟩
abbrev main_c_17 : Ref sig .tc := ⟨.hbm, 192, rfl⟩
abbrev main_v110 : Ref sig .tc := ⟨.hbm, 193, rfl⟩
abbrev main_v111 : Ref sig .tc := ⟨.hbm, 194, rfl⟩
abbrev main_cst_18 : Ref sig .tc := ⟨.hbm, 195, rfl⟩
abbrev main_cst_19 : Ref sig .tc := ⟨.hbm, 196, rfl⟩
abbrev main_call5_v0 : Ref sig .tc := ⟨.hbm, 197, rfl⟩
abbrev main_call5_v1 : Ref sig .tc := ⟨.hbm, 198, rfl⟩
abbrev main_v112 : Ref sig .tc := ⟨.hbm, 199, rfl⟩
abbrev main_v113 : Ref sig .tc := ⟨.hbm, 200, rfl⟩
abbrev main_c_20 : Ref sig .tc := ⟨.hbm, 201, rfl⟩
abbrev main_v114 : Ref sig .tc := ⟨.hbm, 202, rfl⟩
abbrev main_v115 : Ref sig .tc := ⟨.hbm, 203, rfl⟩
abbrev main_c_21 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_c_22 : Ref sig .tc := ⟨.hbm, 210, rfl⟩
abbrev main_v121 : Ref sig .tc := ⟨.hbm, 211, rfl⟩
abbrev main_v122 : Ref sig .tc := ⟨.hbm, 212, rfl⟩
abbrev main_c_23 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_call6_cst : Ref sig .tc := ⟨.hbm, 220, rfl⟩
abbrev main_call6_v0 : Ref sig .tc := ⟨.hbm, 221, rfl⟩
abbrev main_call6_v1 : Ref sig .tc := ⟨.hbm, 222, rfl⟩
abbrev main_call6_v2 : Ref sig .tc := ⟨.hbm, 223, rfl⟩
abbrev main_call6_v3 : Ref sig .tc := ⟨.hbm, 224, rfl⟩
abbrev main_call6_v4 : Ref sig .tc := ⟨.hbm, 225, rfl⟩
abbrev main_call6_v5 : Ref sig .tc := ⟨.hbm, 226, rfl⟩
abbrev main_call6_v6 : Ref sig .tc := ⟨.hbm, 227, rfl⟩
abbrev main_call6_v7 : Ref sig .tc := ⟨.hbm, 228, rfl⟩
abbrev main_call6_v8 : Ref sig .tc := ⟨.hbm, 229, rfl⟩
abbrev main_v129 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_cst_24 : Ref sig .tc := ⟨.hbm, 234, rfl⟩
abbrev main_v133 : Ref sig .tc := ⟨.hbm, 235, rfl⟩
abbrev main_cst_25 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev main_v139 : Ref sig .tc := ⟨.hbm, 242, rfl⟩
abbrev main_cst_26 : Ref sig .tc := ⟨.hbm, 243, rfl⟩
abbrev main_v140 : Ref sig .tc := ⟨.hbm, 244, rfl⟩
abbrev main_v141 : Ref sig .tc := ⟨.hbm, 245, rfl⟩
abbrev main_v142 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_c_27 : Ref sig .tc := ⟨.hbm, 254, rfl⟩
abbrev main_v150 : Ref sig .tc := ⟨.hbm, 255, rfl⟩
abbrev main_v151 : Ref sig .tc := ⟨.hbm, 256, rfl⟩
abbrev main_c_28 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_v155 : Ref sig .tc := ⟨.hbm, 261, rfl⟩
abbrev main_v156 : Ref sig .tc := ⟨.hbm, 262, rfl⟩
abbrev main_v157 : Ref sig .tc := ⟨.hbm, 263, rfl⟩
abbrev main_c_29 : Ref sig .tc := ⟨.hbm, 264, rfl⟩
abbrev main_v158 : Ref sig .tc := ⟨.hbm, 265, rfl⟩
abbrev main_v159 : Ref sig .tc := ⟨.hbm, 266, rfl⟩
abbrev main_c_30 : Ref sig .tc := ⟨.hbm, 267, rfl⟩
abbrev main_v160 : Ref sig .tc := ⟨.hbm, 268, rfl⟩
abbrev main_v161 : Ref sig .tc := ⟨.hbm, 269, rfl⟩
abbrev main_v162 : Ref sig .tc := ⟨.hbm, 270, rfl⟩
abbrev main_v163 : Ref sig .tc := ⟨.hbm, 271, rfl⟩
abbrev main_v164 : Ref sig .tc := ⟨.hbm, 272, rfl⟩
abbrev main_v165 : Ref sig .tc := ⟨.hbm, 273, rfl⟩
abbrev main_v166 : Ref sig .tc := ⟨.hbm, 274, rfl⟩
abbrev main_v167 : Ref sig .tc := ⟨.hbm, 275, rfl⟩
abbrev main_c_31 : Ref sig .tc := ⟨.hbm, 276, rfl⟩
abbrev main_call7_v0 : Ref sig .tc := ⟨.hbm, 277, rfl⟩
abbrev main_call7_c : Ref sig .tc := ⟨.hbm, 278, rfl⟩
abbrev main_call7_v1 : Ref sig .tc := ⟨.hbm, 279, rfl⟩
abbrev main_call7_c_0 : Ref sig .tc := ⟨.hbm, 280, rfl⟩
abbrev main_call7_v2 : Ref sig .tc := ⟨.hbm, 281, rfl⟩
abbrev main_call7_v3 : Ref sig .tc := ⟨.hbm, 282, rfl⟩
abbrev main_call7_v4 : Ref sig .tc := ⟨.hbm, 283, rfl⟩
abbrev main_call7_c_1 : Ref sig .tc := ⟨.hbm, 284, rfl⟩
abbrev main_call7_v5 : Ref sig .tc := ⟨.hbm, 285, rfl⟩
abbrev main_call7_v6 : Ref sig .tc := ⟨.hbm, 286, rfl⟩
abbrev main_call7_c_2 : Ref sig .tc := ⟨.hbm, 287, rfl⟩
abbrev main_call7_v7 : Ref sig .tc := ⟨.hbm, 288, rfl⟩
abbrev main_call7_v8 : Ref sig .tc := ⟨.hbm, 289, rfl⟩
abbrev main_call7_c_3 : Ref sig .tc := ⟨.hbm, 290, rfl⟩
abbrev main_call7_v9 : Ref sig .tc := ⟨.hbm, 291, rfl⟩
abbrev main_call7_v10 : Ref sig .tc := ⟨.hbm, 292, rfl⟩
abbrev main_call7_v11 : Ref sig .tc := ⟨.hbm, 293, rfl⟩
abbrev main_call7_v12 : Ref sig .tc := ⟨.hbm, 294, rfl⟩
abbrev main_call7_v13 : Ref sig .tc := ⟨.hbm, 295, rfl⟩
abbrev main_call7_v14 : Ref sig .tc := ⟨.hbm, 296, rfl⟩
abbrev main_v168 : Ref sig .tc := ⟨.hbm, 297, rfl⟩
abbrev main_c_32 : Ref sig .tc := ⟨.hbm, 298, rfl⟩
abbrev main_v169 : Ref sig .tc := ⟨.hbm, 299, rfl⟩
abbrev main_v170 : Ref sig .tc := ⟨.hbm, 300, rfl⟩
abbrev main_cst_33 : Ref sig .tc := ⟨.hbm, 301, rfl⟩
abbrev main_cst_34 : Ref sig .tc := ⟨.hbm, 302, rfl⟩
abbrev main_call8_v0 : Ref sig .tc := ⟨.hbm, 303, rfl⟩
abbrev main_call8_v1 : Ref sig .tc := ⟨.hbm, 304, rfl⟩
abbrev main_v171 : Ref sig .tc := ⟨.hbm, 305, rfl⟩
abbrev main_v172 : Ref sig .tc := ⟨.hbm, 306, rfl⟩
abbrev main_c_35 : Ref sig .tc := ⟨.hbm, 307, rfl⟩
abbrev main_v173 : Ref sig .tc := ⟨.hbm, 308, rfl⟩
abbrev main_v174 : Ref sig .tc := ⟨.hbm, 309, rfl⟩
abbrev main_c_36 : Ref sig .tc := ⟨.hbm, 310, rfl⟩
abbrev main_v175 : Ref sig .tc := ⟨.hbm, 311, rfl⟩
abbrev main_v176 : Ref sig .tc := ⟨.hbm, 312, rfl⟩
abbrev main_v177 : Ref sig .tc := ⟨.hbm, 313, rfl⟩
abbrev main_v178 : Ref sig .tc := ⟨.hbm, 314, rfl⟩
abbrev main_v179 : Ref sig .tc := ⟨.hbm, 315, rfl⟩
abbrev main_c_37 : Ref sig .tc := ⟨.hbm, 316, rfl⟩
abbrev main_v180 : Ref sig .tc := ⟨.hbm, 317, rfl⟩
abbrev main_v181 : Ref sig .tc := ⟨.hbm, 318, rfl⟩
abbrev main_c_38 : Ref sig .tc := ⟨.hbm, 319, rfl⟩
abbrev main_v182 : Ref sig .tc := ⟨.hbm, 320, rfl⟩
abbrev main_v183 : Ref sig .tc := ⟨.hbm, 321, rfl⟩
abbrev main_v184 : Ref sig .tc := ⟨.hbm, 322, rfl⟩
abbrev main_v185 : Ref sig .tc := ⟨.hbm, 323, rfl⟩
abbrev main_v186 : Ref sig .tc := ⟨.hbm, 324, rfl⟩
abbrev main_v187 : Ref sig .tc := ⟨.hbm, 325, rfl⟩
abbrev main_call9_cst : Ref sig .tc := ⟨.hbm, 326, rfl⟩
abbrev main_call9_v0 : Ref sig .tc := ⟨.hbm, 327, rfl⟩
abbrev main_call9_v1 : Ref sig .tc := ⟨.hbm, 328, rfl⟩
abbrev main_call9_v2 : Ref sig .tc := ⟨.hbm, 329, rfl⟩
abbrev main_call9_v3 : Ref sig .tc := ⟨.hbm, 330, rfl⟩
abbrev main_call9_v4 : Ref sig .tc := ⟨.hbm, 331, rfl⟩
abbrev main_call9_v5 : Ref sig .tc := ⟨.hbm, 332, rfl⟩
abbrev main_call9_v6 : Ref sig .tc := ⟨.hbm, 333, rfl⟩
abbrev main_call9_v7 : Ref sig .tc := ⟨.hbm, 334, rfl⟩
abbrev main_call9_v8 : Ref sig .tc := ⟨.hbm, 335, rfl⟩
abbrev main_v188 : Ref sig .tc := ⟨.hbm, 336, rfl⟩
abbrev main_v189 : Ref sig .tc := ⟨.hbm, 337, rfl⟩
abbrev main_v190 : Ref sig .tc := ⟨.hbm, 338, rfl⟩
abbrev main_v191 : Ref sig .tc := ⟨.hbm, 339, rfl⟩
abbrev main_cst_39 : Ref sig .tc := ⟨.hbm, 340, rfl⟩
abbrev main_v192 : Ref sig .tc := ⟨.hbm, 341, rfl⟩
abbrev main_cst_40 : Ref sig .tc := ⟨.hbm, 342, rfl⟩
abbrev main_v193 : Ref sig .tc := ⟨.hbm, 343, rfl⟩
abbrev main_v194 : Ref sig .tc := ⟨.hbm, 344, rfl⟩
abbrev main_v195 : Ref sig .tc := ⟨.hbm, 345, rfl⟩
abbrev main_v196 : Ref sig .tc := ⟨.hbm, 346, rfl⟩
abbrev main_v197 : Ref sig .tc := ⟨.hbm, 347, rfl⟩
abbrev main_v198 : Ref sig .tc := ⟨.hbm, 348, rfl⟩
abbrev main_cst_41 : Ref sig .tc := ⟨.hbm, 349, rfl⟩
abbrev main_v199 : Ref sig .tc := ⟨.hbm, 350, rfl⟩
abbrev main_v200 : Ref sig .tc := ⟨.hbm, 351, rfl⟩
abbrev main_v201 : Ref sig .tc := ⟨.hbm, 352, rfl⟩
abbrev main_v202 : Ref sig .tc := ⟨.hbm, 353, rfl⟩
abbrev main_v203 : Ref sig .tc := ⟨.hbm, 354, rfl⟩
abbrev main_v204 : Ref sig .tc := ⟨.hbm, 355, rfl⟩
abbrev main_v205 : Ref sig .tc := ⟨.hbm, 356, rfl⟩
abbrev main_v206 : Ref sig .tc := ⟨.hbm, 357, rfl⟩
abbrev main_v207 : Ref sig .tc := ⟨.hbm, 358, rfl⟩
abbrev main_v208 : Ref sig .tc := ⟨.hbm, 359, rfl⟩
abbrev main_c_42 : Ref sig .tc := ⟨.hbm, 360, rfl⟩
abbrev main_v209 : Ref sig .tc := ⟨.hbm, 361, rfl⟩
abbrev main_v210 : Ref sig .tc := ⟨.hbm, 362, rfl⟩
abbrev main_c_43 : Ref sig .tc := ⟨.hbm, 363, rfl⟩
abbrev main_v211 : Ref sig .tc := ⟨.hbm, 364, rfl⟩
abbrev main_v212 : Ref sig .tc := ⟨.hbm, 365, rfl⟩
abbrev main_v213 : Ref sig .tc := ⟨.hbm, 366, rfl⟩
abbrev main_v214 : Ref sig .tc := ⟨.hbm, 367, rfl⟩
abbrev main_v215 : Ref sig .tc := ⟨.hbm, 368, rfl⟩
abbrev main_v216 : Ref sig .tc := ⟨.hbm, 369, rfl⟩
abbrev main_c_44 : Ref sig .tc := ⟨.hbm, 370, rfl⟩
abbrev main_v217 : Ref sig .tc := ⟨.hbm, 371, rfl⟩
abbrev main_v218 : Ref sig .tc := ⟨.hbm, 372, rfl⟩
abbrev main_c_45 : Ref sig .tc := ⟨.hbm, 373, rfl⟩
abbrev main_v219 : Ref sig .tc := ⟨.hbm, 374, rfl⟩
abbrev main_v220 : Ref sig .tc := ⟨.hbm, 375, rfl⟩
abbrev main_v221 : Ref sig .tc := ⟨.hbm, 376, rfl⟩
abbrev main_v222 : Ref sig .tc := ⟨.hbm, 377, rfl⟩
abbrev main_v223 : Ref sig .tc := ⟨.hbm, 378, rfl⟩
abbrev main_v224 : Ref sig .tc := ⟨.hbm, 379, rfl⟩
abbrev main_v225 : Ref sig .tc := ⟨.hbm, 380, rfl⟩
abbrev main_v226 : Ref sig .tc := ⟨.hbm, 381, rfl⟩
abbrev main_cst_46 : Ref sig .tc := ⟨.hbm, 382, rfl⟩
abbrev main_v227 : Ref sig .tc := ⟨.hbm, 383, rfl⟩
abbrev main_cst_47 : Ref sig .tc := ⟨.hbm, 384, rfl⟩
abbrev main_v228 : Ref sig .tc := ⟨.hbm, 385, rfl⟩
abbrev main_v229 : Ref sig .tc := ⟨.hbm, 386, rfl⟩
abbrev main_v230 : Ref sig .tc := ⟨.hbm, 387, rfl⟩
abbrev main_v231 : Ref sig .tc := ⟨.hbm, 388, rfl⟩
abbrev main_v232 : Ref sig .tc := ⟨.hbm, 389, rfl⟩
abbrev main_v233 : Ref sig .tc := ⟨.hbm, 390, rfl⟩
abbrev main_cst_48 : Ref sig .tc := ⟨.hbm, 391, rfl⟩
abbrev main_v234 : Ref sig .tc := ⟨.hbm, 392, rfl⟩
abbrev main_v235 : Ref sig .tc := ⟨.hbm, 393, rfl⟩
abbrev main_v236 : Ref sig .tc := ⟨.hbm, 394, rfl⟩
abbrev main_v237 : Ref sig .tc := ⟨.hbm, 395, rfl⟩
abbrev main_cst_49 : Ref sig .tc := ⟨.hbm, 396, rfl⟩
abbrev main_v238 : Ref sig .tc := ⟨.hbm, 397, rfl⟩
abbrev main_cst_50 : Ref sig .tc := ⟨.hbm, 398, rfl⟩
abbrev main_v239 : Ref sig .tc := ⟨.hbm, 399, rfl⟩
abbrev main_v240 : Ref sig .tc := ⟨.hbm, 400, rfl⟩
abbrev main_v241 : Ref sig .tc := ⟨.hbm, 401, rfl⟩
abbrev main_v242 : Ref sig .tc := ⟨.hbm, 402, rfl⟩
abbrev main_v243 : Ref sig .tc := ⟨.hbm, 403, rfl⟩
abbrev main_v244 : Ref sig .tc := ⟨.hbm, 404, rfl⟩
abbrev main_cst_51 : Ref sig .tc := ⟨.hbm, 405, rfl⟩
abbrev main_v245 : Ref sig .tc := ⟨.hbm, 406, rfl⟩
abbrev main_v246 : Ref sig .tc := ⟨.hbm, 407, rfl⟩
abbrev main_v247 : Ref sig .tc := ⟨.hbm, 408, rfl⟩
abbrev main_v248 : Ref sig .tc := ⟨.hbm, 409, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S100000x1024_0_1 : S1x1024.BroadcastsInDim S100000x1024 (![0, 1] : Fin 2 → Fin S100000x1024.rank)
  bcast_S_S100000x1024 : S_.BroadcastsInDim S100000x1024 (![] : Fin 0 → Fin S100000x1024.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  slices_S100000x12_S100000x1_0_2 : S100000x12.Slices ![0, 2] S100000x1
  shapeCasts_S100000x1_S100000 : S100000x1.ShapeCasts S100000
  slices_S100000x12_S100000x1_0_10 : S100000x12.Slices ![0, 10] S100000x1
  bcast_S_S100000 : S_.BroadcastsInDim S100000 (![] : Fin 0 → Fin S100000.rank)
  slices_S100000x12_S100000x1_0_0 : S100000x12.Slices ![0, 0] S100000x1
  slices_S100000x12_S100000x1_0_5 : S100000x12.Slices ![0, 5] S100000x1
  slices_S100000x12_S100000x1_0_1 : S100000x12.Slices ![0, 1] S100000x1
  slices_S100000x12_S100000x1_0_4 : S100000x12.Slices ![0, 4] S100000x1
  slices_S100000x12_S100000x1_0_11 : S100000x12.Slices ![0, 11] S100000x1
  slices_S100000x12_S100000x1_0_3 : S100000x12.Slices ![0, 3] S100000x1
  bcast_S100000_S100000x1_0 : S100000.BroadcastsInDim S100000x1 (![0] : Fin 1 → Fin S100000x1.rank)
  concatenates_S100000x8_S100000x1_S100000x1_S100000x10_d1 : Shape.Concatenates [S100000x8, S100000x1, S100000x1] S100000x10 1
  slices_S3_S1_0 : S3.Slices ![0] S1
  shapeCasts_S1_S_ : S1.ShapeCasts S_
  bcast_S_S22 : S_.BroadcastsInDim S22 (![] : Fin 0 → Fin S22.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x10_S3200000x10_S3200000x2_S3200000x22_d1 : Shape.Concatenates [S3200000x10, S3200000x10, S3200000x2] S3200000x22 1
  bcast_S22_S1x22_1 : S22.BroadcastsInDim S1x22 (![1] : Fin 1 → Fin S1x22.rank)
  bcast_S1x22_S3200000x22_0_1 : S1x22.BroadcastsInDim S3200000x22 (![0, 1] : Fin 2 → Fin S3200000x22.rank)
  reducesTo_S3200000x22_S3200000_d1 : S3200000x22.ReducesTo [1] S3200000
  h_S_ : 0 < S_.numel
  bcast_S3200000x1_S3200000x22_0_1 : S3200000x1.BroadcastsInDim S3200000x22 (![0, 1] : Fin 2 → Fin S3200000x22.rank)
  bcast_S_S3200000x22 : S_.BroadcastsInDim S3200000x22 (![] : Fin 0 → Fin S3200000x22.rank)
  slices_S3200000x22_S3200000x10_0_0 : S3200000x22.Slices ![0, 0] S3200000x10
  slices_S3200000x22_S3200000x10_0_10 : S3200000x22.Slices ![0, 10] S3200000x10
  slices_S3_S1_1 : S3.Slices ![1] S1
  slices_S3_S1_2 : S3.Slices ![2] S1
  slices_S100000x10_S100000x8_0_0 : S100000x10.Slices ![0, 0] S100000x8
  slices_S100000x8_S100000x4_0_0 : S100000x8.Slices ![0, 0] S100000x4
  slices_S100000x8_S100000x4_0_4 : S100000x8.Slices ![0, 4] S100000x4
  reducesTo_S100000x4_S100000_d1 : S100000x4.ReducesTo [1] S100000
  bcast_S100000x1_S100000x4_0_1 : S100000x1.BroadcastsInDim S100000x4 (![0, 1] : Fin 2 → Fin S100000x4.rank)
  dot_S100000x12_S12x1024_S100000x1024_1_0_0_1_n_n_wf : DotDims.WF S100000x12 S12x1024 S100000x1024 [1] [0] [0] [1] [] []
  dot_S100000x1024_S1024x8_S100000x8_1_0_0_1_n_n_wf : DotDims.WF S100000x1024 S1024x8 S100000x8 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1

variable [Facts₀]

def dot_S100000x12_S12x1024_S100000x1024_1_0_0_1_n_n : DotDims S100000x12 S12x1024 S100000x1024 where
  lhsContracting := [1]
  rhsContracting := [0]
  lhsNonContracting := [0]
  rhsNonContracting := [1]
  lhsBatch := []
  rhsBatch := []
  wf := dot_S100000x12_S12x1024_S100000x1024_1_0_0_1_n_n_wf
def dot_S100000x1024_S1024x8_S100000x8_1_0_0_1_n_n : DotDims S100000x1024 S1024x8 S100000x8 where
  lhsContracting := [1]
  rhsContracting := [0]
  lhsNonContracting := [0]
  rhsNonContracting := [1]
  lhsBatch := []
  rhsBatch := []
  wf := dot_S100000x1024_S1024x8_S100000x8_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf

class Facts : Prop extends Facts₀ where

variable [Facts]
-- ==== Proof.LibHostLine.lean ====
/-
  A straight line of host operations each of which writes one buffer of its own.

  When the operations of a line write pairwise different buffers, what a buffer holds after the line (or after a
  prefix of it) is decided locally: a buffer nobody writes keeps its contents (`after_take_unwritten`), and the
  buffer written at position `n` holds the result of operation `n` over the contents just before it, whatever
  follows (`after_take_at`). The corollaries name the four builders a printed reference uses, so that the
  operation at a literal position is recovered by unification (`hop` by `rfl`) and the statement speaks of its
  function and operand buffers directly.
-/
import Idealize.ShloMosaic.Lib.StableHlo.Run

noncomputable section

namespace Idealize.ShloMosaic.StableHlo

open Idealize.ShloMosaic.TcCoe

variable {τ : Topo} {sig : RefSig} {Val : EltTy → Type}

/-- Running two lines one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- The operations `ops` write the buffers `W`, one each, in order. -/
def WritesOne (ops : List (HloOp τ sig Val)) (W : List (Ref sig .tc)) : Prop :=
  List.Forall₂ (fun op y => op.writes = {Proc.devRef (τ := τ) .tc y}) ops W

theorem WritesOne.append {l₁ l₂ : List (HloOp τ sig Val)} {W₁ W₂ : List (Ref sig .tc)} (h₁ : WritesOne l₁ W₁)
    (h₂ : WritesOne l₂ W₂) : WritesOne (l₁ ++ l₂) (W₁ ++ W₂) := by
  induction h₁ with
  | nil => exact h₂
  | cons hw _ ih => exact List.Forall₂.cons hw ih

theorem WritesOne.take {ops : List (HloOp τ sig Val)} {W : List (Ref sig .tc)} (h : WritesOne ops W) (N : Nat) :
    WritesOne (ops.take N) (W.take N) := by
  induction h generalizing N with
  | nil => simp only [List.take_nil]; exact List.Forall₂.nil
  | cons hw _ ih =>
    cases N with
    | zero => exact List.Forall₂.nil
    | succ N => exact List.Forall₂.cons hw (ih N)

theorem WritesOne.length_eq {ops : List (HloOp τ sig Val)} {W : List (Ref sig .tc)} (h : WritesOne ops W) :
    ops.length = W.length := List.Forall₂.length_eq h

/-- A buffer that is none of the written ones keeps its contents through the line. -/
theorem after_unwritten {ops : List (HloOp τ sig Val)} {W : List (Ref sig .tc)} (h : WritesOne ops W) {b : Ref sig .tc}
    (hb : b ∉ W) (V : Valuation τ sig Val) : after ops V (Proc.devRef .tc b) = V (Proc.devRef .tc b) := by
  induction h generalizing V with
  | nil => rfl
  | @cons op y ops W hw _ ih =>
    have hby : b ≠ y := fun e => hb (e ▸ List.mem_cons_self)
    rw [after_cons, ih (fun hm => hb (List.mem_cons_of_mem _ hm)),
      op.result_of_not_mem V (by rw [hw, Finset.mem_singleton]; exact fun e => hby (Proc.devRef_injective _ e))]

/-- And through any prefix of it. -/
theorem after_take_unwritten {ops : List (HloOp τ sig Val)} {W : List (Ref sig .tc)} (h : WritesOne ops W) {b : Ref sig .tc}
    (hb : b ∉ W) (V : Valuation τ sig Val) (N : Nat) :
    after (ops.take N) V (Proc.devRef .tc b) = V (Proc.devRef .tc b) :=
  after_unwritten (h.take N) (fun hm => hb (List.mem_of_mem_take hm)) V

/-- **The buffer written at position `n`**, after any prefix that includes that position, holds operation `n`'s
    result over the contents just before it: no later operation writes it again. -/
theorem after_take_at {ops : List (HloOp τ sig Val)} {W : List (Ref sig .tc)} (h : WritesOne ops W) (hnd : W.Nodup)
    (V : Valuation τ sig Val) (n N : Nat) (hnN : n < N) (hn : n < ops.length) (hn' : n < W.length) :
    after (ops.take N) V (Proc.devRef .tc W[n]) = (ops[n]).result (after (ops.take n) V) (Proc.devRef .tc W[n]) := by
  induction h generalizing V n N with
  | nil => exact absurd hn (Nat.not_lt_zero _)
  | @cons op y ops W hw hrest ih =>
    obtain ⟨N, rfl⟩ : ∃ N', N = N' + 1 := ⟨N - 1, by omega⟩
    have hy : y ∉ W := (List.nodup_cons.1 hnd).1
    cases n with
    | zero =>
      show after (ops.take N) (op.result V) (Proc.devRef .tc y) = op.result V (Proc.devRef .tc y)
      exact after_take_unwritten hrest hy _ N
    | succ n =>
      have hn0 : n < ops.length := by simpa using hn
      have hn0' : n < W.length := by simpa using hn'
      show after (ops.take N) (op.result V) (Proc.devRef .tc W[n]) = (ops[n]).result (after (ops.take n) (op.result V)) (Proc.devRef .tc W[n])
      exact ih (List.nodup_cons.1 hnd).2 (op.result V) n N (by omega) hn0 hn0'

section Builders

variable {ops : List (HloOp τ sig Val)} {W : List (Ref sig .tc)}

/-- Position `n` is a constant: its buffer holds the constant. -/
theorem after_take_nullary (h : WritesOne ops W) (hnd : W.Nodup) (V : Valuation τ sig Val) (n N : Nat) (hnN : n < N)
    (hn : n < ops.length) (hn' : n < W.length) (y : Ref sig .tc) (v : y.ty.Contents Val) (hy)
    (hop : ops[n] = nullary y v hy) (hW : W[n] = y) :
    after (ops.take N) V (Proc.devRef .tc y) = v := by
  have e := after_take_at h hnd V n N hnN hn hn'
  rw [hop, hW] at e
  exact e.trans (nullary_result y v hy _)

/-- Position `n` applies `f` to the buffer `x`: its buffer holds `f` of what `x` held just before. -/
theorem after_take_unary (h : WritesOne ops W) (hnd : W.Nodup) (V : Valuation τ sig Val) (n N : Nat) (hnN : n < N)
    (hn : n < ops.length) (hn' : n < W.length) (x y : Ref sig .tc) (f : x.ty.Contents Val → y.ty.Contents Val) (hx hy)
    (hop : ops[n] = unary x y f hx hy) (hW : W[n] = y) :
    after (ops.take N) V (Proc.devRef .tc y) = f (after (ops.take n) V (Proc.devRef .tc x)) := by
  have e := after_take_at h hnd V n N hnN hn hn'
  rw [hop, hW] at e
  exact e.trans (unary_result x y f hx hy _)

/-- Position `n` applies `f` to the buffers `a` and `b`. -/
theorem after_take_binary (h : WritesOne ops W) (hnd : W.Nodup) (V : Valuation τ sig Val) (n N : Nat) (hnN : n < N)
    (hn : n < ops.length) (hn' : n < W.length) (a b y : Ref sig .tc)
    (f : a.ty.Contents Val → b.ty.Contents Val → y.ty.Contents Val) (ha hb hy)
    (hop : ops[n] = binary a b y f ha hb hy) (hW : W[n] = y) :
    after (ops.take N) V (Proc.devRef .tc y)
      = f (after (ops.take n) V (Proc.devRef .tc a)) (after (ops.take n) V (Proc.devRef .tc b)) := by
  have e := after_take_at h hnd V n N hnN hn hn'
  rw [hop, hW] at e
  exact e.trans (binary_result a b y f ha hb hy _)

/-- Position `n` applies `f` to a family of buffers. -/
theorem after_take_nary (h : WritesOne ops W) (hnd : W.Nodup) (V : Valuation τ sig Val) (n N : Nat) (hnN : n < N)
    (hn : n < ops.length) (hn' : n < W.length) {k : Nat} (xs : Fin k → Ref sig .tc) (y : Ref sig .tc)
    (f : ((i : Fin k) → (xs i).ty.Contents Val) → y.ty.Contents Val) (hxs hy)
    (hop : ops[n] = nary xs y f hxs hy) (hW : W[n] = y) :
    after (ops.take N) V (Proc.devRef .tc y) = f (fun i => after (ops.take n) V (Proc.devRef .tc (xs i))) := by
  have e := after_take_at h hnd V n N hnN hn hn'
  rw [hop, hW] at e
  exact e.trans (nary_result xs y f hxs hy _)

end Builders

end Idealize.ShloMosaic.StableHlo

end
-- ==== Proof.KernelIdealHost.lean ====
import proofs.«140184_j29661044146691_2_alg».proof.Proof.Gen.KernelIdeal.Launch
import proofs.«140184_j29661044146691_2_alg».proof.Proof.LibHostLine
import Idealize.ShloMosaic.Lib.Pipeline.Frame
import Idealize.ShloMosaic.Lib.Pipeline.Regions

noncomputable section

namespace Cert.KernelIdeal.HostSide

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

/-! ## The buffers' contents between items

@main is a stretch of two host operations, the kernel region, and thirty-one stretches of host operations. Between
two items core `c` holds every unscoped buffer whole at a valuation named here: the launch contents, then
`StableHlo.after` each stretch, the region changing its output array `main_v2` alone, to contents left unknown. -/

/-- What the kernel region leaves in its output array `main_v2`, per core: the unknown the valuations after the
    region are written over. -/
abbrev Out : Type := (c : Dev nD) → Buf (Elt F) ((c : Thread nD τ).loc main_v2)

variable (m : (ℓ : Loc nD τ sig) → Buf (Elt F) ℓ) (out : Out (F := F))

/-- Core `c`'s unscoped buffers at launch. -/
abbrev V0 (c : Dev nD) : Valuation τ sig (Elt F) := fun b => m (c, b)
/-- Core `c`'s unscoped buffers when the region is entered: after the two host operations before it. -/
abbrev V1 (c : Dev nD) : Valuation τ sig (Elt F) := StableHlo.after hostOps0 (V0 m c)
/-- Core `c`'s unscoped buffers when the region is left: it may change `main_v2` only. -/
abbrev V2 (c : Dev nD) : Valuation τ sig (Elt F) := Function.update (V1 m c) main_v2 (out c)

/-- Every host operation after the region, in order: the thirty-one stretches concatenated. -/
abbrev tailOps : List (HloOp τ sig (Elt F)) :=
  hostOps1 ++ hostOps1_1 ++ hostOps1_2 ++ hostOps1_3 ++ hostOps1_4 ++ hostOps1_5 ++ hostOps1_6 ++ hostOps1_7
    ++ hostOps1_8 ++ hostOps1_9 ++ hostOps1_10 ++ hostOps1_11 ++ hostOps1_12 ++ hostOps1_13 ++ hostOps1_14 ++ hostOps1_15
    ++ hostOps1_16 ++ hostOps1_17 ++ hostOps1_18 ++ hostOps1_19 ++ hostOps1_20 ++ hostOps1_21 ++ hostOps1_22 ++ hostOps1_23
    ++ hostOps1_24 ++ hostOps1_25 ++ hostOps1_26 ++ hostOps1_27 ++ hostOps1_28 ++ hostOps1_29 ++ hostOps1_30

/-- Core `c`'s unscoped buffers at the end of @main. -/
abbrev Vend (c : Dev nD) : Valuation τ sig (Elt F) := StableHlo.after tailOps (V2 m out c)

/-! ## The argument arrays -/

/-- The nine argument arrays. -/
abbrev args : List (Ref sig .tc) :=
  [main_arg0, main_arg1, main_arg2, main_arg3, main_arg4, main_arg5, main_arg6, main_arg7, main_arg8]

/-- The operation writes none of the argument arrays. -/
def Keeps (op : HloOp τ sig (Elt F)) : Prop := ∀ r ∈ args, Proc.devRef (τ := τ) .tc r ∉ op.writes

/-- An operation that writes one buffer, not an argument array, writes none of them. -/
theorem keeps_of_single {op : HloOp τ sig (Elt F)} (y : Ref sig .tc) (hw : op.writes = {Proc.devRef (τ := τ) .tc y})
    (hy : y ∉ args) : Keeps op := fun r hr hm => by
  rw [hw, Finset.mem_singleton] at hm
  exact hy (Proc.devRef_injective _ hm ▸ hr)

/-- A line of operations none of which writes an argument array leaves each of them as it was. -/
theorem after_keeps {ops : List (HloOp τ sig (Elt F))} (h : ops.Forall Keeps) (V : Valuation τ sig (Elt F))
    {r : Ref sig .tc} (hr : r ∈ args) : StableHlo.after ops V (Proc.devRef .tc r) = V (Proc.devRef .tc r) :=
  StableHlo.after_of_forall_not_mem ops V fun op hop => (List.forall_iff_forall_mem.mp h) op hop r hr

/-! ## A stretch of host operations, and a list of them run in order -/

/-- A stretch of host operations with what is asked of it below: every operation touches TensorCore references only,
    none allocates a buffer, and none writes an argument array. The last two are read off the literal list, operation
    by operation: a builder's operation allocates nothing and writes its one result buffer, and which reference that is,
    and that it is no argument, is decided. -/
structure Stretch (F : FTy → Type) [FloatOps F] where
  ops : List (HloOp τ sig (Elt F))
  sub : ops.Forall fun op => op.bufs ⊆ StableHlo.tcRefs τ sig
  fresh : ops.Forall (fun op => op.fresh = ∅) := by
    simp only [List.Forall]; repeat' constructor
  keeps : ops.Forall Keeps := by
    simp only [List.Forall]; repeat' apply And.intro
    all_goals exact keeps_of_single _ rfl (by decide)

/-- The buffers' contents after the stretches of `l`, in order, from `V`. -/
def afterAll : List (Stretch F) → Valuation τ sig (Elt F) → Valuation τ sig (Elt F)
  | [], V => V
  | s :: l, V => afterAll l (StableHlo.after s.ops V)

/-- No stretch writes an argument array, so a list of them leaves each as it was. -/
theorem afterAll_arg (l : List (Stretch F)) (V : Valuation τ sig (Elt F)) {r : Ref sig .tc} (hr : r ∈ args) :
    afterAll l V (Proc.devRef .tc r) = V (Proc.devRef .tc r) := by
  induction l generalizing V with
  | nil => rfl
  | cons s l ih => exact (ih _).trans (after_keeps s.keeps V hr)

/-! ## The stretches as segments -/

section Segs

variable {Ix : Type} [DecidableEq Ix] {U : Type} [URA U] {Lvl : Type} [Preorder Lvl]
variable (𝒱₀ : Variants) (L : GSem nD τ sig → Finset Ix) (lv : GSem nD τ sig → Ix → Lvl)

/-- The prefetched tables' admissible contents: the pallas_call has no table. -/
abbrev adm : (p : Fin 1) → (pcfgs (F := F) p).Adm := fun p => (cfgs p).toPCfg_adm

/-- A stretch over the unscoped buffers from `V`, a rest `R` of the thread state riding along
    (`HostSeg.ofOps`: it runs to the buffers at `StableHlo.after s.ops (V c)`). -/
def hseg (s : Stretch F) (V : Dev nD → Valuation τ sig (Elt F)) (R : Dev nD → sProp (MT nD τ sig Ix (Elt F) ℕ U Lvl)) :
    HostSeg (Ix := Ix) (Name := ℕ) (U := U) (Lvl := Lvl) (pcfgs (F := F)) defs₀ 𝒱₀ L lv :=
  HostSeg.ofOps _ _ _ _ _ (Pipeline.ucRefs τ sig) s.ops
    (fun op h => Pipeline.sub_ucRefs op ((List.forall_iff_forall_mem.mp s.sub) op h))
    (fun op h => (List.forall_iff_forall_mem.mp s.fresh) op h) V R

variable (ι : Ix) (pdats : (p : Fin 1) → (c : Dev nD) → Dat τ (Elt F) Ix ℕ U Lvl (cfgs p) c)

/-- The stretches of `l` as segments, each entered from where the one before it ends, the rest `R` riding along. -/
def hostSegs (R : Dev nD → sProp (MT nD τ sig Ix (Elt F) ℕ U Lvl)) :
    List (Stretch F) → (Dev nD → Valuation τ sig (Elt F)) → List (Seg (pcfgs (F := F)) adm pdats ι defs₀ 𝒱₀ L lv)
  | [], _ => []
  | s :: l, V => .host (hseg 𝒱₀ L lv s V R) :: hostSegs R l fun c => StableHlo.after s.ops (V c)

/-- Their fragments of @main are the stretches' lines. -/
theorem hostSegs_prog (R : Dev nD → sProp (MT nD τ sig Ix (Elt F) ℕ U Lvl)) (l : List (Stretch F)) (V : Dev nD → Valuation τ sig (Elt F)) :
    (hostSegs 𝒱₀ L lv ι pdats R l V).map Seg.prog = l.map fun s => StableHlo.seq s.ops := by
  induction l generalizing V with
  | nil => rfl
  | cons s l ih => rw [hostSegs, List.map_cons, List.map_cons, ih]; rfl

/-- They enter no pipeline. -/
theorem hostSegs_pipes (R : Dev nD → sProp (MT nD τ sig Ix (Elt F) ℕ U Lvl)) (l : List (Stretch F)) (V : Dev nD → Valuation τ sig (Elt F)) :
    Seg.pipes (hostSegs 𝒱₀ L lv ι pdats R l V) = [] := by
  induction l generalizing V with
  | nil => rfl
  | cons s l ih => rw [hostSegs, Seg.pipes_host, ih]

/-- Their thread states chain: from a state that holds the unscoped buffers at `V c` beside the rest, to any state that
    the buffers at the contents after every stretch, beside the rest, make. -/
theorem hostSegs_chains (c : Dev nD) (R : Dev nD → sProp (MT nD τ sig Ix (Elt F) ℕ U Lvl)) (T' : Dev nD → sProp (MT nD τ sig Ix (Elt F) ℕ U Lvl))
    (l : List (Stretch F)) (T : Dev nD → sProp (MT nD τ sig Ix (Elt F) ℕ U Lvl)) (V : Dev nD → Valuation τ sig (Elt F))
    (hT : T c ⊢ iprop(StableHlo.held (c : Thread nD τ) (Pipeline.ucRefs τ sig) (V c) ∗ R c))
    (hT' : iprop(StableHlo.held (c : Thread nD τ) (Pipeline.ucRefs τ sig) (afterAll l (V c)) ∗ R c) ⊢ T' c) :
    Seg.ChainsAt c T (hostSegs 𝒱₀ L lv ι pdats R l V) T' := by
  induction l generalizing T V with
  | nil => exact hT.trans hT'
  | cons s l ih => exact ⟨hT, ih _ _ .rfl hT'⟩

end Segs

/-! ## This @main's stretches -/

/-- The two host operations before the region. -/
abbrev head0 : Stretch F := { ops := hostOps0, sub := hostOps0_sub }

/-- The thirty-one stretches after the region, in order. -/
abbrev tail : List (Stretch F) :=
  [ { ops := hostOps1, sub := hostOps1_sub },
    { ops := hostOps1_1, sub := hostOps1_1_sub },
    { ops := hostOps1_2, sub := hostOps1_2_sub },
    { ops := hostOps1_3, sub := hostOps1_3_sub },
    { ops := hostOps1_4, sub := hostOps1_4_sub },
    { ops := hostOps1_5, sub := hostOps1_5_sub },
    { ops := hostOps1_6, sub := hostOps1_6_sub },
    { ops := hostOps1_7, sub := hostOps1_7_sub },
    { ops := hostOps1_8, sub := hostOps1_8_sub },
    { ops := hostOps1_9, sub := hostOps1_9_sub },
    { ops := hostOps1_10, sub := hostOps1_10_sub },
    { ops := hostOps1_11, sub := hostOps1_11_sub },
    { ops := hostOps1_12, sub := hostOps1_12_sub },
    { ops := hostOps1_13, sub := hostOps1_13_sub },
    { ops := hostOps1_14, sub := hostOps1_14_sub },
    { ops := hostOps1_15, sub := hostOps1_15_sub },
    { ops := hostOps1_16, sub := hostOps1_16_sub },
    { ops := hostOps1_17, sub := hostOps1_17_sub },
    { ops := hostOps1_18, sub := hostOps1_18_sub },
    { ops := hostOps1_19, sub := hostOps1_19_sub },
    { ops := hostOps1_20, sub := hostOps1_20_sub },
    { ops := hostOps1_21, sub := hostOps1_21_sub },
    { ops := hostOps1_22, sub := hostOps1_22_sub },
    { ops := hostOps1_23, sub := hostOps1_23_sub },
    { ops := hostOps1_24, sub := hostOps1_24_sub },
    { ops := hostOps1_25, sub := hostOps1_25_sub },
    { ops := hostOps1_26, sub := hostOps1_26_sub },
    { ops := hostOps1_27, sub := hostOps1_27_sub },
    { ops := hostOps1_28, sub := hostOps1_28_sub },
    { ops := hostOps1_29, sub := hostOps1_29_sub },
    { ops := hostOps1_30, sub := hostOps1_30_sub } ]

/-- The end of @main is the end of the last stretch: running a concatenation is running its parts in turn. -/
theorem Vend_eq (c : Dev nD) : Vend m out c = afterAll tail (V2 m out c) := by
  show StableHlo.after tailOps (V2 m out c) = _
  simp only [tailOps, StableHlo.after_append]; rfl

/-- The region's output array is no argument array, so the region leaves each of them as it was. -/
theorem V2_arg (c : Dev nD) {r : Ref sig .tc} (hr : r ∈ args) : V2 m out c r = V1 m c r := by
  have hne : r ≠ main_v2 := fun e => absurd (e ▸ hr) (by decide)
  simp only [V2, Function.update_of_ne (StableHlo.devRef_ne_of_ne hne : (Proc.devRef .tc r : DevRef τ sig) ≠ Proc.devRef .tc main_v2)]

/-- Each argument array reaches the end of @main as launched: no host stretch writes it, the region may not change it. -/
theorem Vend_arg (c : Dev nD) {r : Ref sig .tc} (hr : r ∈ args) : Vend m out c r = m ((c : Thread nD τ).loc r) := by
  rw [Vend_eq]
  exact (afterAll_arg tail _ hr).trans <| (V2_arg m out c hr).trans <| (after_keeps head0.keeps _ hr).trans rfl

/-- @main is the chain of its items, the later stretches read off the table. -/
theorem main_eq (c : Dev nD) : main (F := F) c = (Pipeline.chain
    (StableHlo.seq hostOps0 :: Prog.lift (.customCall (Pipeline.entry 0) ()) :: tail.map fun s => StableHlo.seq s.ops)
      : Prog (TpuEff nD τ sig (Elt F) (Pipeline.Sig Λ₀ (Fin 1) fun p => (pcfgs (F := F) p).Adm) .tc) PUnit) :=
  main_chain c

/-! ## @main as segments -/

section

variable {Ix : Type} [DecidableEq Ix] {U : Type} [URA U] {Lvl : Type} [Preorder Lvl]

/-- @main's items as segments on core `c` (the same list on every core): the two operations before the region from the
    launch contents beside the rest `E 0`, the region's given record, then the later stretches from the contents the region
    leaves, beside the rest `E 1`. -/
abbrev segs (𝒱₀ : Variants) (L : GSem nD τ sig → Finset Ix) (lv : GSem nD τ sig → Ix → Lvl) (E : Fin 2 → Dev nD → sProp (MT nD τ sig Ix (Elt F) ℕ U Lvl)) (ι : Ix)
    (pdats : (p : Fin 1) → (c : Dev nD) → Dat τ (Elt F) Ix ℕ U Lvl (cfgs p) c) (R0 : RegionSeg (pcfgs (F := F)) adm pdats ι defs₀ 𝒱₀ L lv 0) (c : Dev nD) :
    List (Seg (pcfgs (F := F)) adm pdats ι defs₀ 𝒱₀ L lv) :=
  .host (hseg 𝒱₀ L lv head0 (V0 m) (E 0)) :: .region R0 :: hostSegs 𝒱₀ L lv ι pdats (E 1) tail (V2 m out)

/-- The segments' fragments are @main's items. -/
theorem segs_prog (𝒱₀ : Variants) (L : GSem nD τ sig → Finset Ix) (lv : GSem nD τ sig → Ix → Lvl) (E : Fin 2 → Dev nD → sProp (MT nD τ sig Ix (Elt F) ℕ U Lvl)) (ι : Ix)
    (pdats : (p : Fin 1) → (c : Dev nD) → Dat τ (Elt F) Ix ℕ U Lvl (cfgs p) c) (R0 : RegionSeg (pcfgs (F := F)) adm pdats ι defs₀ 𝒱₀ L lv 0) (c : Dev nD) :
    (segs m out 𝒱₀ L lv E ι pdats R0 c).map Seg.prog
      = StableHlo.seq hostOps0 :: Prog.lift (.customCall (Pipeline.entry 0) ()) :: tail.map fun s => StableHlo.seq s.ops := by
  rw [segs, List.map_cons, List.map_cons, hostSegs_prog]; rfl

/-- They enter the one pipeline, once. -/
theorem segs_pipes (𝒱₀ : Variants) (L : GSem nD τ sig → Finset Ix) (lv : GSem nD τ sig → Ix → Lvl) (E : Fin 2 → Dev nD → sProp (MT nD τ sig Ix (Elt F) ℕ U Lvl)) (ι : Ix)
    (pdats : (p : Fin 1) → (c : Dev nD) → Dat τ (Elt F) Ix ℕ U Lvl (cfgs p) c) (R0 : RegionSeg (pcfgs (F := F)) adm pdats ι defs₀ 𝒱₀ L lv 0) (c : Dev nD) :
    Seg.pipes (segs m out 𝒱₀ L lv E ι pdats R0 c) = [0] := by
  rw [segs, Seg.pipes_host, Seg.pipes_region, hostSegs_pipes]

end

/-! ## The run, given the region's record -/

set_option backward.isDefEq.respectTransparency.types false in
/-- THE CONDITIONAL RUN. For any user algebra, level assignment, launch dues and ghost resources, any rest states `E` the
    launch makes on every core at once (`hE0`) and that end owing nothing (`hE1`), any contents the region leaves in its
    output array (`out`) and any proof data: GIVEN the region's segment record, entered from the thread state that holds the
    unscoped buffers at `V1` and left at the one that holds them at `V2`, every weakly fair execution of @main from memory
    `m` with zero counters terminates, and every final memory holds each of the four results at what the host operations
    after the region compute from `V2` (`Vend`) and each of the nine arguments as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (out : Out (F := F))
    (pdats : (p : Fin 1) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 2 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE1 : ∀ c : Dev nD, E 1 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m out c) ∗ E 1 c)) :
    θ_run defs (onTc (τ := τ) (main (F := F))) ⟨m, fun _ => 0, ρ⟩ (fun r => ∀ c : Dev nD,
      r.2.mem ((c.tc : Thread nD τ).loc main_v248) = Vend m out c main_v248
      ∧ r.2.mem ((c.tc : Thread nD τ).loc main_v260) = Vend m out c main_v260
      ∧ r.2.mem ((c.tc : Thread nD τ).loc main_v249) = Vend m out c main_v249
      ∧ r.2.mem ((c.tc : Thread nD τ).loc main_v271) = Vend m out c main_v271
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m out 𝒱₀ L lv E ι pdats R0)
    (fun c Q => by
      rewrite [main_eq c, Seg.run_eq_chain, segs_prog]
      exact .rfl)
    (fun c => by rw [segs_pipes]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (Vend m out c))
    (hch := fun c => ⟨.rfl, hpre0 c,
      hostSegs_chains 𝒱₀ L lv ι pdats c (E 1) _ tail _ (V2 m out) (hpost0 c)
        (by rw [← Vend_eq]; exact sep_mono .rfl (hE1 c))⟩)
    (hinit := ?_)
    (QY := fun c s =>
      s.mem ((c.tc : Thread nD τ).loc main_v248) = Vend m out c main_v248
      ∧ s.mem ((c.tc : Thread nD τ).loc main_v260) = Vend m out c main_v260
      ∧ s.mem ((c.tc : Thread nD τ).loc main_v249) = Vend m out c main_v249
      ∧ s.mem ((c.tc : Thread nD τ).loc main_v271) = Vend m out c main_v271
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8))
    (hfin := fun c s' => ?_) (hQ := fun _ h => h)
  · -- the launch: the unscoped buffers are held at the launch contents; the rest makes the first rest state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the four results and the nine arguments read off the last valuation
    unfold StableHlo.held
    iintro ⟨Hh, HSI⟩
    ihave Hr := (pointsTo_read_all (Pipeline.ucRefs τ sig) (fun b => ((c : Thread nD τ).1, b)) (Vend m out c) s') $$ [Hh HSI]
    · isplitl [Hh] <;> iassumption
    icases Hr with ⟨%h, HSI⟩
    imodintro
    isplitr
    · ipureintro
      have hres : ∀ b : Ref sig .tc, (Proc.devRef (τ := τ) .tc b).isScoped = false →
          s'.mem.mem ((c.tc : Thread nD τ).loc b) = Vend m out c b := fun b hb =>
        h (Proc.devRef .tc b) (Finset.mem_filter.mpr ⟨StableHlo.devRef_mem_tcRefs b, by rw [hb]; exact Bool.false_ne_true⟩)
      have harg : ∀ b : Ref sig .tc, b ∈ args → (Proc.devRef (τ := τ) .tc b).isScoped = false →
          s'.mem.mem ((c.tc : Thread nD τ).loc b) = m ((c.tc : Thread nD τ).loc b) := fun b hb hs =>
        (hres b hs).trans (Vend_arg m out c hb)
      exact ⟨hres main_v248 rfl, hres main_v260 rfl, hres main_v249 rfl, hres main_v271 rfl,
        harg main_arg0 (by decide) rfl, harg main_arg1 (by decide) rfl, harg main_arg2 (by decide) rfl,
        harg main_arg3 (by decide) rfl, harg main_arg4 (by decide) rfl, harg main_arg5 (by decide) rfl,
        harg main_arg6 (by decide) rfl, harg main_arg7 (by decide) rfl, harg main_arg8 (by decide) rfl⟩
    · iexact HSI

end Cert.KernelIdeal.HostSide

end
-- ==== Proof.KernelIdealRegion.lean ====
/-
  The kernel REGION of @main: the fused two-layer perceptron on one block of 2000 rows.

  The pipeline has a grid of 50 points and six windows: the feature rows (a block of 2000 rows of 12 columns per point,
  fetched at every point), the two layers' weights and biases (whole arrays, fetched once, at the first point), and the
  output (a block of 2000 rows of 10 columns per point, written back at every point). At a point the body loads the five
  input blocks whole, computes relu(x·W1 + b1)·W2 + b2 on operands narrowed to bf16 (8 columns), two further columns by
  slices, differences, comparisons and a scaling of the feature columns, concatenates the three along the columns and
  stores the 10-column block whole.

  Here: the body's triple at a SYMBOLIC grid coordinate, for any float instance (`sound_kernel`); what the output staging
  buffer holds after the body as an explicit function of the five input blocks (`out5`, `out5_eq`, `after5`); the proof
  data at an entry valuation (`dat`), the body obligation at a generic point (`body_obligation`), the array the region
  leaves (`mlpOut`) and the region's record over the thread state "every unscoped buffer at a valuation, the
  random-bit register at some state, nothing owed" (`reg`).
-/
import proofs.«140184_j29661044146691_2_alg».proof.Proof.Gen.KernelIdeal.Launch
import proofs.«140184_j29661044146691_2_alg».proof.Proof.Gen.KernelIdeal.Skeleton
import proofs.«140184_j29661044146691_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ

local notation "𝕄" => MT nD τ sig Unit (Elt F) ℕ UU ℕ

/-! ## The body's accesses: every load and the one store go through the whole staging buffer -/

abbrev rIn0 : Rect S2000x12 := Rect.unit (s := S2000x12) ![0, 0] S2000x12.size inb_S2000x12_S2000x12_0_0
abbrev rIn1 : Rect S12x1024 := Rect.unit (s := S12x1024) ![0, 0] S12x1024.size inb_S12x1024_S12x1024_0_0
abbrev rIn2 : Rect S1x1024 := Rect.unit (s := S1x1024) ![0, 0] S1x1024.size inb_S1x1024_S1x1024_0_0
abbrev rIn3 : Rect S1024x8 := Rect.unit (s := S1024x8) ![0, 0] S1024x8.size inb_S1024x8_S1024x8_0_0
abbrev rIn4 : Rect S1x8 := Rect.unit (s := S1x8) ![0, 0] S1x8.size inb_S1x8_S1x8_0_0
abbrev rOut : Rect S2000x10 := Rect.unit (s := S2000x10) ![0, 0] S2000x10.size inb_S2000x10_S2000x10_0_0

/-- The zero offsets of a rank-2 rectangle, as the constant function. -/
theorem zeros2 : (![0, 0] : Fin 2 → Nat) = fun _ => 0 := funext fun a => by fin_cases a <;> rfl

/-! ## What the body leaves in the output window's buffer -/

/-- The output block (2000 rows, 10 columns) the body stores, from the five input blocks: the feature rows `x0`, the
    first layer's weights `x1` and bias `x2`, the second layer's weights `x3` and bias `x4` — its one store as a
    piece over the payloads of the loads. -/
def out5 (x0 : Vec F S2000x12 .f32) (x1 : Vec F S12x1024 .f32) (x2 : Vec F S1x1024 .f32) (x3 : Vec F S1024x8 .f32) (x4 : Vec F S1x8 .f32) :
    Vec F S2000x10 .f32 :=
  View.canon [⟨rOut, k0_pay1 (View.ld x0 rIn0)
    (k0_pay2 (View.ld x0 rIn0) (View.ld x1 rIn1) (View.ld x2 rIn2) (View.ld x3 rIn3) (View.ld x4 rIn4))
    (k0_pay3 (View.ld x0 rIn0)) (k0_pay4 (View.ld x0 rIn0)) (k0_pay5 (View.ld x0 rIn0))⟩]

/-- The one store covers the buffer. -/
theorem cover5 (p0 : Vec F S2000x10 .f32) (y : S2000x10.Idx) :
    ∃ pc ∈ ([⟨rOut, p0⟩] : List (View.Piece (Elt F) S2000x10 .f32)), y ∈ pc.1.set :=
  ⟨_, List.mem_singleton_self _, View.mem_set_unit_zero zeros2 inb_S2000x10_S2000x10_0_0 y⟩

/-- THE OUTPUT BLOCK, EXPLICITLY: a load through the whole buffer reads the block and the one whole store leaves its
    payload, so the output block is the last payload (the concatenation of the 8 second-layer columns and the two
    derived columns) of the payloads of the five input blocks. -/
theorem out5_eq (x0 : Vec F S2000x12 .f32) (x1 : Vec F S12x1024 .f32) (x2 : Vec F S1x1024 .f32) (x3 : Vec F S1024x8 .f32) (x4 : Vec F S1x8 .f32) :
    out5 x0 x1 x2 x3 x4 = k0_pay1 x0 (k0_pay2 x0 x1 x2 x3 x4) (k0_pay3 x0) (k0_pay4 x0) (k0_pay5 x0) := by
  unfold out5
  rw [View.canon_unit_zero (S := S2000x10) zeros2 inb_S2000x10_S2000x10_0_0,
    View.ld_unit_zero (S := S2000x12) zeros2 inb_S2000x12_S2000x12_0_0 x0,
    View.ld_unit_zero (S := S12x1024) zeros2 inb_S12x1024_S12x1024_0_0 x1,
    View.ld_unit_zero (S := S1x1024) zeros2 inb_S1x1024_S1x1024_0_0 x2,
    View.ld_unit_zero (S := S1024x8) zeros2 inb_S1024x8_S1024x8_0_0 x3,
    View.ld_unit_zero (S := S1x8) zeros2 inb_S1x8_S1x8_0_0 x4]

/-! ## The body's triple -/

set_option maxHeartbeats 1000000 in
/-- The kernel body at any grid coordinate, on whole staging memrefs — the inputs' at read contents `x0 … x4`, the
    output's at anything —, runs to the continuation holding the inputs' as they were and the output's at `out5` of the
    inputs': the function and its part are sequences of memory operations over the named payloads, run one operation
    at a time. -/
theorem sound_kernel (c : Dev nD) (E : Set ℕ) (i : grid0.Coords)
    (arg1 : Memref sig .tc .vmem S2000x12 .f32) (harg1 : arg1.IsWhole) (arg2 : Memref sig .tc .vmem S12x1024 .f32) (harg2 : arg2.IsWhole)
    (arg3 : Memref sig .tc .vmem S1x1024 .f32) (harg3 : arg3.IsWhole) (arg4 : Memref sig .tc .vmem S1024x8 .f32) (harg4 : arg4.IsWhole)
    (arg5 : Memref sig .tc .vmem S1x8 .f32) (harg5 : arg5.IsWhole) (arg6 : Memref sig .tc .vmem S2000x10 .f32) (harg6 : arg6.IsWhole)
    (x0 : Vec F S2000x12 .f32) (x1 : Vec F S12x1024 .f32) (x2 : Vec F S1x1024 .f32) (x3 : Vec F S1024x8 .f32) (x4 : Vec F S1x8 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover5 _)

/-! ## The windows' blocks, at the contents the region is entered with -/

section Data

-- the TensorCore's buffer contents when the region is entered: a parameter
variable (V : (c : Dev nD) → (b : Ref sig .tc) → Buf (Elt F) ((c : Thread nD τ).loc b))

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an input never
    written back, uncut and never idle, whose body leaves the block in place; unfetched, the block index has not moved. -/
theorem before0_of {c : Dev nD} (dat : Dat τ (Elt F) Unit ℕ UU ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: an input never
    written back, uncut and never idle, whose body leaves the block in place; unfetched, the block index has not moved. -/
theorem before1_of {c : Dev nD} (dat : Dat τ (Elt F) Unit ℕ UU ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: an input never
    written back, uncut and never idle, whose body leaves the block in place; unfetched, the block index has not moved. -/
theorem before2_of {c : Dev nD} (dat : Dat τ (Elt F) Unit ℕ UU ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: an input never
    written back, uncut and never idle, whose body leaves the block in place; unfetched, the block index has not moved. -/
theorem before3_of {c : Dev nD} (dat : Dat τ (Elt F) Unit ℕ UU ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: an input never
    written back, uncut and never idle, whose body leaves the block in place; unfetched, the block index has not moved. -/
theorem before4_of {c : Dev nD} (dat : Dat τ (Elt F) Unit ℕ UU ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data on core `c`: the arrays as the region finds them (`V`); after the body at point `t` each input's
    buffer at its block and the output's at `out5` of the five input blocks; the invariant the scoped rest and the
    random-bit register, untouched; nothing owed; full shares. -/
def dat (c : Dev nD) : Dat τ (Elt F) Unit ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
/-- THE OUTPUT WINDOW'S STAGING BUFFER AFTER THE BODY AT POINT `t`: `out5` of the five input windows' blocks there. -/
theorem after5 (c : Dev nD) (t : Fin cfg0.N) : (dat V c).after 5 t = out5 (iblk V c 0 t) (iblk V c 1 t) (iblk V c 2 t) (iblk V c 3 t) (iblk V c 4 t) := by dsimp only [dat]

/-- Each input's current staging buffer holds its block at every point, fetched there or not. -/
theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' memrefs hold their blocks (`beforeW`), so `sound_kernel` applies; the invariant
    and the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W0, bigSep_W0]
  exact sound_body V c t

end Data

/-! ## The region over the thread state -/

section Region

-- the core's buffer contents when the region is entered, as a valuation of every device reference
variable (W : Dev nD → Valuation τ sig (Elt F))

/-- The entry contents read at the TensorCore's references: what the proof data take. -/
abbrev Vof : (c : Dev nD) → (b : Ref sig .tc) → Buf (Elt F) ((c : Thread nD τ).loc b) := fun c b => W c b

/-- THE OUTPUT ARRAY AFTER THE REGION (100000 rows, 10 columns): the entry contents with the write-back of every
    point's output block folded in, in point order. -/
def mlpOut (c : Dev nD) : Buf (Elt F) ((c : Thread nD τ).loc main_v2) := (dat (Vof W) c).arrAt 5 cfg0.N

/-- The buffer contents the region leaves: the output array at `mlpOut`, every other buffer as entered. -/
abbrev Wout (c : Dev nD) : Valuation τ sig (Elt F) := Function.update (W c) main_v2 (mlpOut W c)

/-- The prefetched tables' admissible contents: the pipeline has no table. -/
abbrev adm : (p : Fin 1) → (pcfgs (F := F) p).Adm := fun p => (cfgs p).toPCfg_adm

/-- The proof data family of the program's one pipeline, at the region's entry contents. -/
def pdats : (p : Fin 1) → (c : Dev nD) → Dat τ (Elt F) Unit ℕ UU ℕ (Pipeline.pin (pcfgs (F := F)) adm p) c
  | ⟨0, _⟩ => fun c => dat (Vof W) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers: the core's random-bit register at some state (the invariant takes it in and gives it
    back) and its `owes`, at nothing. -/
abbrev R (c : Dev nD) : sProp 𝕄 := iprop((∃ r, prngReg c r) ∗ ∃ O, owes (c : Thread nD τ) (0 : CellTallies nD τ sig Unit) O)

/-- At the exit each of the pipeline's arrays holds what the pipeline leaves: an input as entered, the output `mlpOut`. -/
theorem hF (c : Dev nD) (w : Fin cfg0.W) : (dat (Vof W) c).arrAt w cfg0.N = Vof (Wout W) c (Pipeline.arrRef spec0 w) := by
  fin_cases w
  · exact (((dat (Vof W) c).arrAt_in 0 rfl _).trans (A_eq (Vof W) c 0)).trans
      (Function.update_of_ne (StableHlo.devRef_ne_of_ne (by decide)) _ _).symm
  · exact (((dat (Vof W) c).arrAt_in 1 rfl _).trans (A_eq (Vof W) c 1)).trans
      (Function.update_of_ne (StableHlo.devRef_ne_of_ne (by decide)) _ _).symm
  · exact (((dat (Vof W) c).arrAt_in 2 rfl _).trans (A_eq (Vof W) c 2)).trans
      (Function.update_of_ne (StableHlo.devRef_ne_of_ne (by decide)) _ _).symm
  · exact (((dat (Vof W) c).arrAt_in 3 rfl _).trans (A_eq (Vof W) c 3)).trans
      (Function.update_of_ne (StableHlo.devRef_ne_of_ne (by decide)) _ _).symm
  · exact (((dat (Vof W) c).arrAt_in 4 rfl _).trans (A_eq (Vof W) c 4)).trans
      (Function.update_of_ne (StableHlo.devRef_ne_of_ne (by decide)) _ _).symm
  · exact (Function.update_self (Proc.devRef .tc main_v2 : DevRef τ sig) (mlpOut W c) (W c)).symm

/-- Every other buffer is as entered. -/
theorem hrest (c : Dev nD) : ∀ b, b ∉ Finset.univ.image (Pipeline.arrRef spec0) → Vof (Wout W) c b = Vof W c b :=
  fun b hb => Function.update_of_ne (StableHlo.devRef_ne_of_ne fun e => hb (Finset.mem_image.mpr ⟨5, Finset.mem_univ _, e.symm⟩)) _ _

-- `iapply` of a library lemma stated over `pin pcs a p` unifies with the pinned configuration only when unification may
-- unfold plain definitions in a metavariable's type
set_option backward.isDefEq.respectTransparency.types false in
/-- THE REGION over the thread state: entered from every unscoped buffer at `W`, left at `Wout W`. Its arrays split out
    of the unscoped buffers and put back at the exit contents; the random-bit register into the invariant and out;
    nothing owed; no semaphore of the kernel's own. -/
def reg : Pipeline.RegionSeg (pcfgs (F := F)) adm (pdats W) () defs₀ 𝒱₀ L lv 0 where
  win := launch0.win.to₀
  block_pos := launch0.block_pos
  stage_whole := launch0.stage_whole
  K := PEmpty
  osem k := k.elim
  ho := Pipeline.OwnSemFacts.none _
  hbody c := (body_obligation (Vof W) c).loose
  hwaits := Pipeline.hwaits_of_owed_zero _ _ _ _ L lv 0 fun _ _ => rfl
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UU) (Lvl := ℕ) spec0 c (Vof W c)
  hentry c := by
    rw [Pipeline.ownSems0_none]
    have hsplit := Pipeline.arrays_of_unscopedBufs (p := 0) (pcfgs (F := F)) adm (pdats W) launch0.win launch0.arr_whole c
      ((pdats W 0 c).share_full fun _ => rfl) (Vof W c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%O, HO⟩; iexists O; isplitr; · ipureintro; exact fun _ _ => Or.inl trivial
      iexact HO
    isplitl [Hp]; · iexact Hp
    iexact Hrest
  hin c := by
    rw [show (pdats W 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats W 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UU) (Lvl := ℕ)
      launch0.win launch0.arr_whole c (pdats W) ((pdats W 0 c).share_full fun _ => rfl)
      (Vof W c) (Vof (Wout W) c) ((pdats W 0 c).arrAt · cfg0.N) (hF W c) (hrest W c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%O, -, HO⟩; iexists O; iexact HO

/-- info: 'Cert.KernelIdeal.Region.reg' depends on axioms: [propext, Classical.choice, Quot.sound] -/
#guard_msgs in #print axioms reg

end Region

end Cert.KernelIdeal.Region

end
-- ==== Proof.KernelIdealRun.lean ====
/-
  THE RUN of @main: the host side's conditional run — two host operations, the kernel region, the host operations after
  it — at the region's record, at the pipeline library's own algebra. Every weakly fair execution terminates, nothing
  faulting; every final state holds the four results at what the host operations after the region compute from the
  region's output array, and every argument array as launched.
-/
import proofs.«140184_j29661044146691_2_alg».proof.Proof.KernelIdealHost
import proofs.«140184_j29661044146691_2_alg».proof.Proof.KernelIdealRegion
import Idealize.ShloMosaic.Lib.Pipeline.Frame
import Idealize.ShloMosaic.Lib.Pipeline.Regions

set_option maxRecDepth 16384

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ Region.UU ℕ

variable (m : (ℓ : Loc nD τ sig) → Buf (Elt F) ℓ) (ρ : Dev nD → PrngReg)

-- the host side's conditional run takes its implicit arguments by unifying the region's record with its hypotheses,
-- which takes unfolding plain definitions in a metavariable's type
set_option backward.isDefEq.respectTransparency.types false in
/-- THE RUN of @main: from any memory with zero counters, every weakly fair execution on the TensorCores terminates,
    nothing faulting, and every final state holds the four results at the host operations' account of them from the
    region's output `Region.mlpOut` (computed from the contents the first two host operations leave), and every argument
    array as launched. The host side's conditional run at the pipeline library's own algebra: nothing owed at launch, no
    ghost resource, the random-bit register and the core's `owes` riding beside the buffers through every segment. -/
theorem run : θ_run defs (onTc (τ := τ) (main (F := F))) ⟨m, fun _ => 0, ρ⟩ (fun r => ∀ c : Dev nD,
      r.2.mem ((c.tc : Thread nD τ).loc main_v248) = HostSide.Vend m (fun c => Region.mlpOut (HostSide.V1 m) c) c main_v248
      ∧ r.2.mem ((c.tc : Thread nD τ).loc main_v260) = HostSide.Vend m (fun c => Region.mlpOut (HostSide.V1 m) c) c main_v260
      ∧ r.2.mem ((c.tc : Thread nD τ).loc main_v249) = HostSide.Vend m (fun c => Region.mlpOut (HostSide.V1 m) c) c main_v249
      ∧ r.2.mem ((c.tc : Thread nD τ).loc main_v271) = HostSide.Vend m (fun c => Region.mlpOut (HostSide.V1 m) c) c main_v271
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  HostSide.run_cond m (emb₁ : Emb (URounds (GSem nD τ sig) Unit) 𝕄) () Region.𝒱₀ Region.L Region.lv (fun _ _ => rfl) ρ
    (fun c => Region.mlpOut (HostSide.V1 m) c) (Region.pdats (HostSide.V1 m))
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => Region.R)
    (hE0 := Pipeline.initEach Region.L Region.lv fun c => by
      iintro ⟨⟨-, HO, -, Hp, -⟩, -⟩
      imodintro
      isplitl [Hp]; · iexists _; iexact Hp
      iexists ∅; iexact HO)
    (hE1 := fun c => by iintro ⟨-, HO⟩; iexact HO)
    (Region.reg (HostSide.V1 m)) (fun c => .rfl) (fun c => .rfl)

/-- info: 'Cert.KernelIdeal.Run.run' depends on axioms: [propext, Classical.choice, Quot.sound] -/
#guard_msgs in #print axioms run

end Cert.KernelIdeal.Run

end
-- ==== Proof.KernelHost.lean ====
import proofs.«140184_j29661044146691_2_alg».proof.Proof.Gen.Kernel.Launch
import proofs.«140184_j29661044146691_2_alg».proof.Proof.LibHostLine
import Idealize.ShloMosaic.Lib.Pipeline.Frame
import Idealize.ShloMosaic.Lib.Pipeline.Regions

noncomputable section

namespace Cert.Kernel.HostSide

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

/-! ## The buffers' contents between items

@main is a stretch of two host operations, the kernel region, and thirty-one stretches of host operations. Between
two items core `c` holds every unscoped buffer whole at a valuation named here: the launch contents, then
`StableHlo.after` each stretch, the region changing its output array `main_v2` alone, to contents left unknown. -/

/-- What the kernel region leaves in its output array `main_v2`, per core: the unknown the valuations after the
    region are written over. -/
abbrev Out : Type := (c : Dev nD) → Buf (Elt F) ((c : Thread nD τ).loc main_v2)

variable (m : (ℓ : Loc nD τ sig) → Buf (Elt F) ℓ) (out : Out (F := F))

/-- Core `c`'s unscoped buffers at launch. -/
abbrev V0 (c : Dev nD) : Valuation τ sig (Elt F) := fun b => m (c, b)
/-- Core `c`'s unscoped buffers when the region is entered: after the two host operations before it. -/
abbrev V1 (c : Dev nD) : Valuation τ sig (Elt F) := StableHlo.after hostOps0 (V0 m c)
/-- Core `c`'s unscoped buffers when the region is left: it may change `main_v2` only. -/
abbrev V2 (c : Dev nD) : Valuation τ sig (Elt F) := Function.update (V1 m c) main_v2 (out c)

/-- Every host operation after the region, in order: the thirty-one stretches concatenated. -/
abbrev tailOps : List (HloOp τ sig (Elt F)) :=
  hostOps1 ++ hostOps1_1 ++ hostOps1_2 ++ hostOps1_3 ++ hostOps1_4 ++ hostOps1_5 ++ hostOps1_6 ++ hostOps1_7
    ++ hostOps1_8 ++ hostOps1_9 ++ hostOps1_10 ++ hostOps1_11 ++ hostOps1_12 ++ hostOps1_13 ++ hostOps1_14 ++ hostOps1_15
    ++ hostOps1_16 ++ hostOps1_17 ++ hostOps1_18 ++ hostOps1_19 ++ hostOps1_20 ++ hostOps1_21 ++ hostOps1_22 ++ hostOps1_23
    ++ hostOps1_24 ++ hostOps1_25 ++ hostOps1_26 ++ hostOps1_27 ++ hostOps1_28 ++ hostOps1_29 ++ hostOps1_30

/-- Core `c`'s unscoped buffers at the end of @main. -/
abbrev Vend (c : Dev nD) : Valuation τ sig (Elt F) := StableHlo.after tailOps (V2 m out c)

/-! ## The argument arrays -/

/-- The nine argument arrays. -/
abbrev args : List (Ref sig .tc) :=
  [main_arg0, main_arg1, main_arg2, main_arg3, main_arg4, main_arg5, main_arg6, main_arg7, main_arg8]

/-- The operation writes none of the argument arrays. -/
def Keeps (op : HloOp τ sig (Elt F)) : Prop := ∀ r ∈ args, Proc.devRef (τ := τ) .tc r ∉ op.writes

/-- An operation that writes one buffer, not an argument array, writes none of them. -/
theorem keeps_of_single {op : HloOp τ sig (Elt F)} (y : Ref sig .tc) (hw : op.writes = {Proc.devRef (τ := τ) .tc y})
    (hy : y ∉ args) : Keeps op := fun r hr hm => by
  rw [hw, Finset.mem_singleton] at hm
  exact hy (Proc.devRef_injective _ hm ▸ hr)

/-- A line of operations none of which writes an argument array leaves each of them as it was. -/
theorem after_keeps {ops : List (HloOp τ sig (Elt F))} (h : ops.Forall Keeps) (V : Valuation τ sig (Elt F))
    {r : Ref sig .tc} (hr : r ∈ args) : StableHlo.after ops V (Proc.devRef .tc r) = V (Proc.devRef .tc r) :=
  StableHlo.after_of_forall_not_mem ops V fun op hop => (List.forall_iff_forall_mem.mp h) op hop r hr

/-! ## A stretch of host operations, and a list of them run in order -/

/-- A stretch of host operations with what is asked of it below: every operation touches TensorCore references only,
    none allocates a buffer, and none writes an argument array. The last two are read off the literal list, operation
    by operation: a builder's operation allocates nothing and writes its one result buffer, and which reference that is,
    and that it is no argument, is decided. -/
structure Stretch (F : FTy → Type) [FloatOps F] where
  ops : List (HloOp τ sig (Elt F))
  sub : ops.Forall fun op => op.bufs ⊆ StableHlo.tcRefs τ sig
  fresh : ops.Forall (fun op => op.fresh = ∅) := by
    simp only [List.Forall]; repeat' constructor
  keeps : ops.Forall Keeps := by
    simp only [List.Forall]; repeat' apply And.intro
    all_goals exact keeps_of_single _ rfl (by decide)

/-- The buffers' contents after the stretches of `l`, in order, from `V`. -/
def afterAll : List (Stretch F) → Valuation τ sig (Elt F) → Valuation τ sig (Elt F)
  | [], V => V
  | s :: l, V => afterAll l (StableHlo.after s.ops V)

/-- No stretch writes an argument array, so a list of them leaves each as it was. -/
theorem afterAll_arg (l : List (Stretch F)) (V : Valuation τ sig (Elt F)) {r : Ref sig .tc} (hr : r ∈ args) :
    afterAll l V (Proc.devRef .tc r) = V (Proc.devRef .tc r) := by
  induction l generalizing V with
  | nil => rfl
  | cons s l ih => exact (ih _).trans (after_keeps s.keeps V hr)

/-! ## The stretches as segments -/

section Segs

variable {Ix : Type} [DecidableEq Ix] {U : Type} [URA U] {Lvl : Type} [Preorder Lvl]
variable (𝒱₀ : Variants) (L : GSem nD τ sig → Finset Ix) (lv : GSem nD τ sig → Ix → Lvl)

/-- The prefetched tables' admissible contents: the pallas_call has no table. -/
abbrev adm : (p : Fin 1) → (pcfgs (F := F) p).Adm := fun p => (cfgs p).toPCfg_adm

/-- A stretch over the unscoped buffers from `V`, a rest `R` of the thread state riding along
    (`HostSeg.ofOps`: it runs to the buffers at `StableHlo.after s.ops (V c)`). -/
def hseg (s : Stretch F) (V : Dev nD → Valuation τ sig (Elt F)) (R : Dev nD → sProp (MT nD τ sig Ix (Elt F) ℕ U Lvl)) :
    HostSeg (Ix := Ix) (Name := ℕ) (U := U) (Lvl := Lvl) (pcfgs (F := F)) defs₀ 𝒱₀ L lv :=
  HostSeg.ofOps _ _ _ _ _ (Pipeline.ucRefs τ sig) s.ops
    (fun op h => Pipeline.sub_ucRefs op ((List.forall_iff_forall_mem.mp s.sub) op h))
    (fun op h => (List.forall_iff_forall_mem.mp s.fresh) op h) V R

variable (ι : Ix) (pdats : (p : Fin 1) → (c : Dev nD) → Dat τ (Elt F) Ix ℕ U Lvl (cfgs p) c)

/-- The stretches of `l` as segments, each entered from where the one before it ends, the rest `R` riding along. -/
def hostSegs (R : Dev nD → sProp (MT nD τ sig Ix (Elt F) ℕ U Lvl)) :
    List (Stretch F) → (Dev nD → Valuation τ sig (Elt F)) → List (Seg (pcfgs (F := F)) adm pdats ι defs₀ 𝒱₀ L lv)
  | [], _ => []
  | s :: l, V => .host (hseg 𝒱₀ L lv s V R) :: hostSegs R l fun c => StableHlo.after s.ops (V c)

/-- Their fragments of @main are the stretches' lines. -/
theorem hostSegs_prog (R : Dev nD → sProp (MT nD τ sig Ix (Elt F) ℕ U Lvl)) (l : List (Stretch F)) (V : Dev nD → Valuation τ sig (Elt F)) :
    (hostSegs 𝒱₀ L lv ι pdats R l V).map Seg.prog = l.map fun s => StableHlo.seq s.ops := by
  induction l generalizing V with
  | nil => rfl
  | cons s l ih => rw [hostSegs, List.map_cons, List.map_cons, ih]; rfl

/-- They enter no pipeline. -/
theorem hostSegs_pipes (R : Dev nD → sProp (MT nD τ sig Ix (Elt F) ℕ U Lvl)) (l : List (Stretch F)) (V : Dev nD → Valuation τ sig (Elt F)) :
    Seg.pipes (hostSegs 𝒱₀ L lv ι pdats R l V) = [] := by
  induction l generalizing V with
  | nil => rfl
  | cons s l ih => rw [hostSegs, Seg.pipes_host, ih]

/-- Their thread states chain: from a state that holds the unscoped buffers at `V c` beside the rest, to any state that
    the buffers at the contents after every stretch, beside the rest, make. -/
theorem hostSegs_chains (c : Dev nD) (R : Dev nD → sProp (MT nD τ sig Ix (Elt F) ℕ U Lvl)) (T' : Dev nD → sProp (MT nD τ sig Ix (Elt F) ℕ U Lvl))
    (l : List (Stretch F)) (T : Dev nD → sProp (MT nD τ sig Ix (Elt F) ℕ U Lvl)) (V : Dev nD → Valuation τ sig (Elt F))
    (hT : T c ⊢ iprop(StableHlo.held (c : Thread nD τ) (Pipeline.ucRefs τ sig) (V c) ∗ R c))
    (hT' : iprop(StableHlo.held (c : Thread nD τ) (Pipeline.ucRefs τ sig) (afterAll l (V c)) ∗ R c) ⊢ T' c) :
    Seg.ChainsAt c T (hostSegs 𝒱₀ L lv ι pdats R l V) T' := by
  induction l generalizing T V with
  | nil => exact hT.trans hT'
  | cons s l ih => exact ⟨hT, ih _ _ .rfl hT'⟩

end Segs

/-! ## This @main's stretches -/

/-- The two host operations before the region. -/
abbrev head0 : Stretch F := { ops := hostOps0, sub := hostOps0_sub }

/-- The thirty-one stretches after the region, in order. -/
abbrev tail : List (Stretch F) :=
  [ { ops := hostOps1, sub := hostOps1_sub },
    { ops := hostOps1_1, sub := hostOps1_1_sub },
    { ops := hostOps1_2, sub := hostOps1_2_sub },
    { ops := hostOps1_3, sub := hostOps1_3_sub },
    { ops := hostOps1_4, sub := hostOps1_4_sub },
    { ops := hostOps1_5, sub := hostOps1_5_sub },
    { ops := hostOps1_6, sub := hostOps1_6_sub },
    { ops := hostOps1_7, sub := hostOps1_7_sub },
    { ops := hostOps1_8, sub := hostOps1_8_sub },
    { ops := hostOps1_9, sub := hostOps1_9_sub },
    { ops := hostOps1_10, sub := hostOps1_10_sub },
    { ops := hostOps1_11, sub := hostOps1_11_sub },
    { ops := hostOps1_12, sub := hostOps1_12_sub },
    { ops := hostOps1_13, sub := hostOps1_13_sub },
    { ops := hostOps1_14, sub := hostOps1_14_sub },
    { ops := hostOps1_15, sub := hostOps1_15_sub },
    { ops := hostOps1_16, sub := hostOps1_16_sub },
    { ops := hostOps1_17, sub := hostOps1_17_sub },
    { ops := hostOps1_18, sub := hostOps1_18_sub },
    { ops := hostOps1_19, sub := hostOps1_19_sub },
    { ops := hostOps1_20, sub := hostOps1_20_sub },
    { ops := hostOps1_21, sub := hostOps1_21_sub },
    { ops := hostOps1_22, sub := hostOps1_22_sub },
    { ops := hostOps1_23, sub := hostOps1_23_sub },
    { ops := hostOps1_24, sub := hostOps1_24_sub },
    { ops := hostOps1_25, sub := hostOps1_25_sub },
    { ops := hostOps1_26, sub := hostOps1_26_sub },
    { ops := hostOps1_27, sub := hostOps1_27_sub },
    { ops := hostOps1_28, sub := hostOps1_28_sub },
    { ops := hostOps1_29, sub := hostOps1_29_sub },
    { ops := hostOps1_30, sub := hostOps1_30_sub } ]

/-- The end of @main is the end of the last stretch: running a concatenation is running its parts in turn. -/
theorem Vend_eq (c : Dev nD) : Vend m out c = afterAll tail (V2 m out c) := by
  show StableHlo.after tailOps (V2 m out c) = _
  simp only [tailOps, StableHlo.after_append]; rfl

/-- The region's output array is no argument array, so the region leaves each of them as it was. -/
theorem V2_arg (c : Dev nD) {r : Ref sig .tc} (hr : r ∈ args) : V2 m out c r = V1 m c r := by
  have hne : r ≠ main_v2 := fun e => absurd (e ▸ hr) (by decide)
  simp only [V2, Function.update_of_ne (StableHlo.devRef_ne_of_ne hne : (Proc.devRef .tc r : DevRef τ sig) ≠ Proc.devRef .tc main_v2)]

/-- Each argument array reaches the end of @main as launched: no host stretch writes it, the region may not change it. -/
theorem Vend_arg (c : Dev nD) {r : Ref sig .tc} (hr : r ∈ args) : Vend m out c r = m ((c : Thread nD τ).loc r) := by
  rw [Vend_eq]
  exact (afterAll_arg tail _ hr).trans <| (V2_arg m out c hr).trans <| (after_keeps head0.keeps _ hr).trans rfl

/-- @main is the chain of its items, the later stretches read off the table. -/
theorem main_eq (c : Dev nD) : main (F := F) c = (Pipeline.chain
    (StableHlo.seq hostOps0 :: Prog.lift (.customCall (Pipeline.entry 0) ()) :: tail.map fun s => StableHlo.seq s.ops)
      : Prog (TpuEff nD τ sig (Elt F) (Pipeline.Sig Λ₀ (Fin 1) fun p => (pcfgs (F := F) p).Adm) .tc) PUnit) :=
  main_chain c

/-! ## @main as segments -/

section

variable {Ix : Type} [DecidableEq Ix] {U : Type} [URA U] {Lvl : Type} [Preorder Lvl]

/-- @main's items as segments on core `c` (the same list on every core): the two operations before the region from the
    launch contents beside the rest `E 0`, the region's given record, then the later stretches from the contents the region
    leaves, beside the rest `E 1`. -/
abbrev segs (𝒱₀ : Variants) (L : GSem nD τ sig → Finset Ix) (lv : GSem nD τ sig → Ix → Lvl) (E : Fin 2 → Dev nD → sProp (MT nD τ sig Ix (Elt F) ℕ U Lvl)) (ι : Ix)
    (pdats : (p : Fin 1) → (c : Dev nD) → Dat τ (Elt F) Ix ℕ U Lvl (cfgs p) c) (R0 : RegionSeg (pcfgs (F := F)) adm pdats ι defs₀ 𝒱₀ L lv 0) (c : Dev nD) :
    List (Seg (pcfgs (F := F)) adm pdats ι defs₀ 𝒱₀ L lv) :=
  .host (hseg 𝒱₀ L lv head0 (V0 m) (E 0)) :: .region R0 :: hostSegs 𝒱₀ L lv ι pdats (E 1) tail (V2 m out)

/-- The segments' fragments are @main's items. -/
theorem segs_prog (𝒱₀ : Variants) (L : GSem nD τ sig → Finset Ix) (lv : GSem nD τ sig → Ix → Lvl) (E : Fin 2 → Dev nD → sProp (MT nD τ sig Ix (Elt F) ℕ U Lvl)) (ι : Ix)
    (pdats : (p : Fin 1) → (c : Dev nD) → Dat τ (Elt F) Ix ℕ U Lvl (cfgs p) c) (R0 : RegionSeg (pcfgs (F := F)) adm pdats ι defs₀ 𝒱₀ L lv 0) (c : Dev nD) :
    (segs m out 𝒱₀ L lv E ι pdats R0 c).map Seg.prog
      = StableHlo.seq hostOps0 :: Prog.lift (.customCall (Pipeline.entry 0) ()) :: tail.map fun s => StableHlo.seq s.ops := by
  rw [segs, List.map_cons, List.map_cons, hostSegs_prog]; rfl

/-- They enter the one pipeline, once. -/
theorem segs_pipes (𝒱₀ : Variants) (L : GSem nD τ sig → Finset Ix) (lv : GSem nD τ sig → Ix → Lvl) (E : Fin 2 → Dev nD → sProp (MT nD τ sig Ix (Elt F) ℕ U Lvl)) (ι : Ix)
    (pdats : (p : Fin 1) → (c : Dev nD) → Dat τ (Elt F) Ix ℕ U Lvl (cfgs p) c) (R0 : RegionSeg (pcfgs (F := F)) adm pdats ι defs₀ 𝒱₀ L lv 0) (c : Dev nD) :
    Seg.pipes (segs m out 𝒱₀ L lv E ι pdats R0 c) = [0] := by
  rw [segs, Seg.pipes_host, Seg.pipes_region, hostSegs_pipes]

end

/-! ## The run, given the region's record -/

set_option backward.isDefEq.respectTransparency.types false in
/-- THE CONDITIONAL RUN. For any user algebra, level assignment, launch dues and ghost resources, any rest states `E` the
    launch makes on every core at once (`hE0`) and that end owing nothing (`hE1`), any contents the region leaves in its
    output array (`out`) and any proof data: GIVEN the region's segment record, entered from the thread state that holds the
    unscoped buffers at `V1` and left at the one that holds them at `V2`, every weakly fair execution of @main from memory
    `m` with zero counters terminates, and every final memory holds each of the four results at what the host operations
    after the region compute from `V2` (`Vend`) and each of the nine arguments as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (out : Out (F := F))
    (pdats : (p : Fin 1) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 2 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE1 : ∀ c : Dev nD, E 1 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m out c) ∗ E 1 c)) :
    θ_run defs (onTc (τ := τ) (main (F := F))) ⟨m, fun _ => 0, ρ⟩ (fun r => ∀ c : Dev nD,
      r.2.mem ((c.tc : Thread nD τ).loc main_v248) = Vend m out c main_v248
      ∧ r.2.mem ((c.tc : Thread nD τ).loc main_v260) = Vend m out c main_v260
      ∧ r.2.mem ((c.tc : Thread nD τ).loc main_v249) = Vend m out c main_v249
      ∧ r.2.mem ((c.tc : Thread nD τ).loc main_v271) = Vend m out c main_v271
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m out 𝒱₀ L lv E ι pdats R0)
    (fun c Q => by
      rewrite [main_eq c, Seg.run_eq_chain, segs_prog]
      exact .rfl)
    (fun c => by rw [segs_pipes]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (Vend m out c))
    (hch := fun c => ⟨.rfl, hpre0 c,
      hostSegs_chains 𝒱₀ L lv ι pdats c (E 1) _ tail _ (V2 m out) (hpost0 c)
        (by rw [← Vend_eq]; exact sep_mono .rfl (hE1 c))⟩)
    (hinit := ?_)
    (QY := fun c s =>
      s.mem ((c.tc : Thread nD τ).loc main_v248) = Vend m out c main_v248
      ∧ s.mem ((c.tc : Thread nD τ).loc main_v260) = Vend m out c main_v260
      ∧ s.mem ((c.tc : Thread nD τ).loc main_v249) = Vend m out c main_v249
      ∧ s.mem ((c.tc : Thread nD τ).loc main_v271) = Vend m out c main_v271
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8))
    (hfin := fun c s' => ?_) (hQ := fun _ h => h)
  · -- the launch: the unscoped buffers are held at the launch contents; the rest makes the first rest state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the four results and the nine arguments read off the last valuation
    unfold StableHlo.held
    iintro ⟨Hh, HSI⟩
    ihave Hr := (pointsTo_read_all (Pipeline.ucRefs τ sig) (fun b => ((c : Thread nD τ).1, b)) (Vend m out c) s') $$ [Hh HSI]
    · isplitl [Hh] <;> iassumption
    icases Hr with ⟨%h, HSI⟩
    imodintro
    isplitr
    · ipureintro
      have hres : ∀ b : Ref sig .tc, (Proc.devRef (τ := τ) .tc b).isScoped = false →
          s'.mem.mem ((c.tc : Thread nD τ).loc b) = Vend m out c b := fun b hb =>
        h (Proc.devRef .tc b) (Finset.mem_filter.mpr ⟨StableHlo.devRef_mem_tcRefs b, by rw [hb]; exact Bool.false_ne_true⟩)
      have harg : ∀ b : Ref sig .tc, b ∈ args → (Proc.devRef (τ := τ) .tc b).isScoped = false →
          s'.mem.mem ((c.tc : Thread nD τ).loc b) = m ((c.tc : Thread nD τ).loc b) := fun b hb hs =>
        (hres b hs).trans (Vend_arg m out c hb)
      exact ⟨hres main_v248 rfl, hres main_v260 rfl, hres main_v249 rfl, hres main_v271 rfl,
        harg main_arg0 (by decide) rfl, harg main_arg1 (by decide) rfl, harg main_arg2 (by decide) rfl,
        harg main_arg3 (by decide) rfl, harg main_arg4 (by decide) rfl, harg main_arg5 (by decide) rfl,
        harg main_arg6 (by decide) rfl, harg main_arg7 (by decide) rfl, harg main_arg8 (by decide) rfl⟩
    · iexact HSI

end Cert.Kernel.HostSide

end
-- ==== Proof.KernelRegion.lean ====
/-
  The kernel REGION of @main: the fused two-layer perceptron on one block of 2000 rows.

  The pipeline has a grid of 50 points and six windows: the feature rows (a block of 2000 rows of 12 columns per point,
  fetched at every point), the two layers' weights and biases (whole arrays, fetched once, at the first point), and the
  output (a block of 2000 rows of 10 columns per point, written back at every point). At a point the body loads the five
  input blocks whole, computes relu(x·W1 + b1)·W2 + b2 on operands narrowed to bf16 (8 columns), two further columns by
  slices, differences, comparisons and a scaling of the feature columns, concatenates the three along the columns and
  stores the 10-column block whole.

  Here: the body's triple at a SYMBOLIC grid coordinate, for any float instance (`sound_kernel`); what the output staging
  buffer holds after the body as an explicit function of the five input blocks (`out5`, `out5_eq`, `after5`); the proof
  data at an entry valuation (`dat`), the body obligation at a generic point (`body_obligation`), the array the region
  leaves (`mlpOut`) and the region's record over the thread state "every unscoped buffer at a valuation, the
  random-bit register at some state, nothing owed" (`reg`).
-/
import proofs.«140184_j29661044146691_2_alg».proof.Proof.Gen.Kernel.Launch
import proofs.«140184_j29661044146691_2_alg».proof.Proof.Gen.Kernel.Skeleton
import proofs.«140184_j29661044146691_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ

local notation "𝕄" => MT nD τ sig Unit (Elt F) ℕ UU ℕ

/-! ## The body's accesses: every load and the one store go through the whole staging buffer -/

abbrev rIn0 : Rect S2000x12 := Rect.unit (s := S2000x12) ![0, 0] S2000x12.size inb_S2000x12_S2000x12_0_0
abbrev rIn1 : Rect S12x1024 := Rect.unit (s := S12x1024) ![0, 0] S12x1024.size inb_S12x1024_S12x1024_0_0
abbrev rIn2 : Rect S1x1024 := Rect.unit (s := S1x1024) ![0, 0] S1x1024.size inb_S1x1024_S1x1024_0_0
abbrev rIn3 : Rect S1024x8 := Rect.unit (s := S1024x8) ![0, 0] S1024x8.size inb_S1024x8_S1024x8_0_0
abbrev rIn4 : Rect S1x8 := Rect.unit (s := S1x8) ![0, 0] S1x8.size inb_S1x8_S1x8_0_0
abbrev rOut : Rect S2000x10 := Rect.unit (s := S2000x10) ![0, 0] S2000x10.size inb_S2000x10_S2000x10_0_0

/-- The zero offsets of a rank-2 rectangle, as the constant function. -/
theorem zeros2 : (![0, 0] : Fin 2 → Nat) = fun _ => 0 := funext fun a => by fin_cases a <;> rfl

/-! ## What the body leaves in the output window's buffer -/

/-- The output block (2000 rows, 10 columns) the body stores, from the five input blocks: the feature rows `x0`, the
    first layer's weights `x1` and bias `x2`, the second layer's weights `x3` and bias `x4` — its one store as a
    piece over the payloads of the loads. -/
def out5 (x0 : Vec F S2000x12 .f32) (x1 : Vec F S12x1024 .f32) (x2 : Vec F S1x1024 .f32) (x3 : Vec F S1024x8 .f32) (x4 : Vec F S1x8 .f32) :
    Vec F S2000x10 .f32 :=
  View.canon [⟨rOut, k0_pay1 (View.ld x0 rIn0)
    (k0_pay2 (View.ld x0 rIn0) (View.ld x1 rIn1) (View.ld x2 rIn2) (View.ld x3 rIn3) (View.ld x4 rIn4))
    (k0_pay3 (View.ld x0 rIn0)) (k0_pay4 (View.ld x0 rIn0)) (k0_pay5 (View.ld x0 rIn0))⟩]

/-- The one store covers the buffer. -/
theorem cover5 (p0 : Vec F S2000x10 .f32) (y : S2000x10.Idx) :
    ∃ pc ∈ ([⟨rOut, p0⟩] : List (View.Piece (Elt F) S2000x10 .f32)), y ∈ pc.1.set :=
  ⟨_, List.mem_singleton_self _, View.mem_set_unit_zero zeros2 inb_S2000x10_S2000x10_0_0 y⟩

/-- THE OUTPUT BLOCK, EXPLICITLY: a load through the whole buffer reads the block and the one whole store leaves its
    payload, so the output block is the last payload (the concatenation of the 8 second-layer columns and the two
    derived columns) of the payloads of the five input blocks. -/
theorem out5_eq (x0 : Vec F S2000x12 .f32) (x1 : Vec F S12x1024 .f32) (x2 : Vec F S1x1024 .f32) (x3 : Vec F S1024x8 .f32) (x4 : Vec F S1x8 .f32) :
    out5 x0 x1 x2 x3 x4 = k0_pay1 x0 (k0_pay2 x0 x1 x2 x3 x4) (k0_pay3 x0) (k0_pay4 x0) (k0_pay5 x0) := by
  unfold out5
  rw [View.canon_unit_zero (S := S2000x10) zeros2 inb_S2000x10_S2000x10_0_0,
    View.ld_unit_zero (S := S2000x12) zeros2 inb_S2000x12_S2000x12_0_0 x0,
    View.ld_unit_zero (S := S12x1024) zeros2 inb_S12x1024_S12x1024_0_0 x1,
    View.ld_unit_zero (S := S1x1024) zeros2 inb_S1x1024_S1x1024_0_0 x2,
    View.ld_unit_zero (S := S1024x8) zeros2 inb_S1024x8_S1024x8_0_0 x3,
    View.ld_unit_zero (S := S1x8) zeros2 inb_S1x8_S1x8_0_0 x4]

/-! ## The body's triple -/

set_option maxHeartbeats 1000000 in
/-- The kernel body at any grid coordinate, on whole staging memrefs — the inputs' at read contents `x0 … x4`, the
    output's at anything —, runs to the continuation holding the inputs' as they were and the output's at `out5` of the
    inputs': the function and its part are sequences of memory operations over the named payloads, run one operation
    at a time. -/
theorem sound_kernel (c : Dev nD) (E : Set ℕ) (i : grid0.Coords)
    (arg1 : Memref sig .tc .vmem S2000x12 .f32) (harg1 : arg1.IsWhole) (arg2 : Memref sig .tc .vmem S12x1024 .f32) (harg2 : arg2.IsWhole)
    (arg3 : Memref sig .tc .vmem S1x1024 .f32) (harg3 : arg3.IsWhole) (arg4 : Memref sig .tc .vmem S1024x8 .f32) (harg4 : arg4.IsWhole)
    (arg5 : Memref sig .tc .vmem S1x8 .f32) (harg5 : arg5.IsWhole) (arg6 : Memref sig .tc .vmem S2000x10 .f32) (harg6 : arg6.IsWhole)
    (x0 : Vec F S2000x12 .f32) (x1 : Vec F S12x1024 .f32) (x2 : Vec F S1x1024 .f32) (x3 : Vec F S1024x8 .f32) (x4 : Vec F S1x8 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover5 _)

/-! ## The windows' blocks, at the contents the region is entered with -/

section Data

-- the TensorCore's buffer contents when the region is entered: a parameter
variable (V : (c : Dev nD) → (b : Ref sig .tc) → Buf (Elt F) ((c : Thread nD τ).loc b))

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an input never
    written back, uncut and never idle, whose body leaves the block in place; unfetched, the block index has not moved. -/
theorem before0_of {c : Dev nD} (dat : Dat τ (Elt F) Unit ℕ UU ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: an input never
    written back, uncut and never idle, whose body leaves the block in place; unfetched, the block index has not moved. -/
theorem before1_of {c : Dev nD} (dat : Dat τ (Elt F) Unit ℕ UU ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: an input never
    written back, uncut and never idle, whose body leaves the block in place; unfetched, the block index has not moved. -/
theorem before2_of {c : Dev nD} (dat : Dat τ (Elt F) Unit ℕ UU ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: an input never
    written back, uncut and never idle, whose body leaves the block in place; unfetched, the block index has not moved. -/
theorem before3_of {c : Dev nD} (dat : Dat τ (Elt F) Unit ℕ UU ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: an input never
    written back, uncut and never idle, whose body leaves the block in place; unfetched, the block index has not moved. -/
theorem before4_of {c : Dev nD} (dat : Dat τ (Elt F) Unit ℕ UU ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data on core `c`: the arrays as the region finds them (`V`); after the body at point `t` each input's
    buffer at its block and the output's at `out5` of the five input blocks; the invariant the scoped rest and the
    random-bit register, untouched; nothing owed; full shares. -/
def dat (c : Dev nD) : Dat τ (Elt F) Unit ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
/-- THE OUTPUT WINDOW'S STAGING BUFFER AFTER THE BODY AT POINT `t`: `out5` of the five input windows' blocks there. -/
theorem after5 (c : Dev nD) (t : Fin cfg0.N) : (dat V c).after 5 t = out5 (iblk V c 0 t) (iblk V c 1 t) (iblk V c 2 t) (iblk V c 3 t) (iblk V c 4 t) := by dsimp only [dat]

/-- Each input's current staging buffer holds its block at every point, fetched there or not. -/
theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' memrefs hold their blocks (`beforeW`), so `sound_kernel` applies; the invariant
    and the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W0, bigSep_W0]
  exact sound_body V c t

end Data

/-! ## The region over the thread state -/

section Region

-- the core's buffer contents when the region is entered, as a valuation of every device reference
variable (W : Dev nD → Valuation τ sig (Elt F))

/-- The entry contents read at the TensorCore's references: what the proof data take. -/
abbrev Vof : (c : Dev nD) → (b : Ref sig .tc) → Buf (Elt F) ((c : Thread nD τ).loc b) := fun c b => W c b

/-- THE OUTPUT ARRAY AFTER THE REGION (100000 rows, 10 columns): the entry contents with the write-back of every
    point's output block folded in, in point order. -/
def mlpOut (c : Dev nD) : Buf (Elt F) ((c : Thread nD τ).loc main_v2) := (dat (Vof W) c).arrAt 5 cfg0.N

/-- The buffer contents the region leaves: the output array at `mlpOut`, every other buffer as entered. -/
abbrev Wout (c : Dev nD) : Valuation τ sig (Elt F) := Function.update (W c) main_v2 (mlpOut W c)

/-- The prefetched tables' admissible contents: the pipeline has no table. -/
abbrev adm : (p : Fin 1) → (pcfgs (F := F) p).Adm := fun p => (cfgs p).toPCfg_adm

/-- The proof data family of the program's one pipeline, at the region's entry contents. -/
def pdats : (p : Fin 1) → (c : Dev nD) → Dat τ (Elt F) Unit ℕ UU ℕ (Pipeline.pin (pcfgs (F := F)) adm p) c
  | ⟨0, _⟩ => fun c => dat (Vof W) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers: the core's random-bit register at some state (the invariant takes it in and gives it
    back) and its `owes`, at nothing. -/
abbrev R (c : Dev nD) : sProp 𝕄 := iprop((∃ r, prngReg c r) ∗ ∃ O, owes (c : Thread nD τ) (0 : CellTallies nD τ sig Unit) O)

/-- At the exit each of the pipeline's arrays holds what the pipeline leaves: an input as entered, the output `mlpOut`. -/
theorem hF (c : Dev nD) (w : Fin cfg0.W) : (dat (Vof W) c).arrAt w cfg0.N = Vof (Wout W) c (Pipeline.arrRef spec0 w) := by
  fin_cases w
  · exact (((dat (Vof W) c).arrAt_in 0 rfl _).trans (A_eq (Vof W) c 0)).trans
      (Function.update_of_ne (StableHlo.devRef_ne_of_ne (by decide)) _ _).symm
  · exact (((dat (Vof W) c).arrAt_in 1 rfl _).trans (A_eq (Vof W) c 1)).trans
      (Function.update_of_ne (StableHlo.devRef_ne_of_ne (by decide)) _ _).symm
  · exact (((dat (Vof W) c).arrAt_in 2 rfl _).trans (A_eq (Vof W) c 2)).trans
      (Function.update_of_ne (StableHlo.devRef_ne_of_ne (by decide)) _ _).symm
  · exact (((dat (Vof W) c).arrAt_in 3 rfl _).trans (A_eq (Vof W) c 3)).trans
      (Function.update_of_ne (StableHlo.devRef_ne_of_ne (by decide)) _ _).symm
  · exact (((dat (Vof W) c).arrAt_in 4 rfl _).trans (A_eq (Vof W) c 4)).trans
      (Function.update_of_ne (StableHlo.devRef_ne_of_ne (by decide)) _ _).symm
  · exact (Function.update_self (Proc.devRef .tc main_v2 : DevRef τ sig) (mlpOut W c) (W c)).symm

/-- Every other buffer is as entered. -/
theorem hrest (c : Dev nD) : ∀ b, b ∉ Finset.univ.image (Pipeline.arrRef spec0) → Vof (Wout W) c b = Vof W c b :=
  fun b hb => Function.update_of_ne (StableHlo.devRef_ne_of_ne fun e => hb (Finset.mem_image.mpr ⟨5, Finset.mem_univ _, e.symm⟩)) _ _

-- `iapply` of a library lemma stated over `pin pcs a p` unifies with the pinned configuration only when unification may
-- unfold plain definitions in a metavariable's type
set_option backward.isDefEq.respectTransparency.types false in
/-- THE REGION over the thread state: entered from every unscoped buffer at `W`, left at `Wout W`. Its arrays split out
    of the unscoped buffers and put back at the exit contents; the random-bit register into the invariant and out;
    nothing owed; no semaphore of the kernel's own. -/
def reg : Pipeline.RegionSeg (pcfgs (F := F)) adm (pdats W) () defs₀ 𝒱₀ L lv 0 where
  win := launch0.win.to₀
  block_pos := launch0.block_pos
  stage_whole := launch0.stage_whole
  K := PEmpty
  osem k := k.elim
  ho := Pipeline.OwnSemFacts.none _
  hbody c := (body_obligation (Vof W) c).loose
  hwaits := Pipeline.hwaits_of_owed_zero _ _ _ _ L lv 0 fun _ _ => rfl
  pre c := iprop(StableHlo.held (c : Thread nD τ) (Pipeline.ucRefs τ sig) (W c) ∗ R c)
  post c := iprop(StableHlo.held (c : Thread nD τ) (Pipeline.ucRefs τ sig) (Wout W c) ∗ R c)
  X c := iprop(∃ r, prngReg c r)
  Y c := iprop(∃ r, prngReg c r)
  Z c := Pipeline.unscopedRest (Ix := Unit) (Name := ℕ) (U := UU) (Lvl := ℕ) spec0 c (Vof W c)
  hentry c := by
    rw [Pipeline.ownSems0_none]
    have hsplit := Pipeline.arrays_of_unscopedBufs (p := 0) (pcfgs (F := F)) adm (pdats W) launch0.win launch0.arr_whole c
      ((pdats W 0 c).share_full fun _ => rfl) (Vof W c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%O, HO⟩; iexists O; isplitr; · ipureintro; exact fun _ _ => Or.inl trivial
      iexact HO
    isplitl [Hp]; · iexact Hp
    iexact Hrest
  hin c := by
    rw [show (pdats W 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats W 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UU) (Lvl := ℕ)
      launch0.win launch0.arr_whole c (pdats W) ((pdats W 0 c).share_full fun _ => rfl)
      (Vof W c) (Vof (Wout W) c) ((pdats W 0 c).arrAt · cfg0.N) (hF W c) (hrest W c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%O, -, HO⟩; iexists O; iexact HO

/-- info: 'Cert.Kernel.Region.reg' depends on axioms: [propext, Classical.choice, Quot.sound] -/
#guard_msgs in #print axioms reg

end Region

end Cert.Kernel.Region

end
-- ==== Proof.KernelRun.lean ====
/-
  THE RUN of @main: the host side's conditional run — two host operations, the kernel region, the host operations after
  it — at the region's record, at the pipeline library's own algebra. Every weakly fair execution terminates, nothing
  faulting; every final state holds the four results at what the host operations after the region compute from the
  region's output array, and every argument array as launched.
-/
import proofs.«140184_j29661044146691_2_alg».proof.Proof.KernelHost
import proofs.«140184_j29661044146691_2_alg».proof.Proof.KernelRegion
import Idealize.ShloMosaic.Lib.Pipeline.Frame
import Idealize.ShloMosaic.Lib.Pipeline.Regions

set_option maxRecDepth 16384

noncomputable section

namespace Cert.Kernel.Run

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ Region.UU ℕ

variable (m : (ℓ : Loc nD τ sig) → Buf (Elt F) ℓ) (ρ : Dev nD → PrngReg)

-- the host side's conditional run takes its implicit arguments by unifying the region's record with its hypotheses,
-- which takes unfolding plain definitions in a metavariable's type
set_option backward.isDefEq.respectTransparency.types false in
/-- THE RUN of @main: from any memory with zero counters, every weakly fair execution on the TensorCores terminates,
    nothing faulting, and every final state holds the four results at the host operations' account of them from the
    region's output `Region.mlpOut` (computed from the contents the first two host operations leave), and every argument
    array as launched. The host side's conditional run at the pipeline library's own algebra: nothing owed at launch, no
    ghost resource, the random-bit register and the core's `owes` riding beside the buffers through every segment. -/
theorem run : θ_run defs (onTc (τ := τ) (main (F := F))) ⟨m, fun _ => 0, ρ⟩ (fun r => ∀ c : Dev nD,
      r.2.mem ((c.tc : Thread nD τ).loc main_v248) = HostSide.Vend m (fun c => Region.mlpOut (HostSide.V1 m) c) c main_v248
      ∧ r.2.mem ((c.tc : Thread nD τ).loc main_v260) = HostSide.Vend m (fun c => Region.mlpOut (HostSide.V1 m) c) c main_v260
      ∧ r.2.mem ((c.tc : Thread nD τ).loc main_v249) = HostSide.Vend m (fun c => Region.mlpOut (HostSide.V1 m) c) c main_v249
      ∧ r.2.mem ((c.tc : Thread nD τ).loc main_v271) = HostSide.Vend m (fun c => Region.mlpOut (HostSide.V1 m) c) c main_v271
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  HostSide.run_cond m (emb₁ : Emb (URounds (GSem nD τ sig) Unit) 𝕄) () Region.𝒱₀ Region.L Region.lv (fun _ _ => rfl) ρ
    (fun c => Region.mlpOut (HostSide.V1 m) c) (Region.pdats (HostSide.V1 m))
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => Region.R)
    (hE0 := Pipeline.initEach Region.L Region.lv fun c => by
      iintro ⟨⟨-, HO, -, Hp, -⟩, -⟩
      imodintro
      isplitl [Hp]; · iexists _; iexact Hp
      iexists ∅; iexact HO)
    (hE1 := fun c => by iintro ⟨-, HO⟩; iexact HO)
    (Region.reg (HostSide.V1 m)) (fun c => .rfl) (fun c => .rfl)

/-- info: 'Cert.Kernel.Run.run' depends on axioms: [propext, Classical.choice, Quot.sound] -/
#guard_msgs in #print axioms run

end Cert.Kernel.Run

end
-- ==== Proof.RefOpsTable.lean ====
import proofs.«140184_j29661044146691_2_alg».proof.Proof.Gen.ReferenceIdeal
import Idealize.ShloMosaic.Lib.StableHlo.Run

/-! The reference program's 401 host operations, in order, as 10 list literals: @main's own lines as printed, and at each
    call the called function's lines over that call's buffer record, its arguments the caller's references. -/

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- Operations 0 … 51 (%0 … %46): the perceptron, the two geometric columns and their concatenation. -/
abbrev q0 : List (HloOp τ sig (Elt F)) :=
  [ StableHlo.binary main_arg0 main_arg2 main_v0 ((fun l r => Host.dotGeneral dot_S100000x12_S12x1024_S100000x1024_1_0_0_1_n_n none l r) : (⟨S100000x12, .f32⟩ : BufTy).Contents (Elt F) → (⟨S12x1024, .f32⟩ : BufTy).Contents (Elt F) → (⟨S100000x1024, .f32⟩ : BufTy).Contents (Elt F)),   -- 0: %0
    StableHlo.unary main_arg3 main_v1 (broadcastInDim S1x1024 ![1] bcast_S1024_S1x1024_1 : (⟨S1024, .f32⟩ : BufTy).Contents (Elt F) → (⟨S1x1024, .f32⟩ : BufTy).Contents (Elt F)),   -- 1: %1
    StableHlo.unary main_v1 main_v2 (broadcastInDim S100000x1024 ![0, 1] bcast_S1x1024_S100000x1024_0_1 : (⟨S1x1024, .f32⟩ : BufTy).Contents (Elt F) → (⟨S100000x1024, .f32⟩ : BufTy).Contents (Elt F)),   -- 2: %2
    StableHlo.binary main_v0 main_v2 main_v3 (addf : (⟨S100000x1024, .f32⟩ : BufTy).Contents (Elt F) → (⟨S100000x1024, .f32⟩ : BufTy).Contents (Elt F) → (⟨S100000x1024, .f32⟩ : BufTy).Contents (Elt F)),   -- 3: %3
    StableHlo.TRef.nullary main_call0.cst (constant S_ .f32 0x00000000#32),   -- 4: %4 = @relu's %cst
    StableHlo.TRef.unary main_call0.cst main_call0.v0 (broadcastInDim S100000x1024 ![] bcast_S_S100000x1024),   -- 5: %4 = @relu's %0
    StableHlo.TRef.binary (.of main_v3 : StableHlo.TRef sig ⟨S100000x1024, .f32⟩) main_call0.v0 main_call0.v1 maximumf,   -- 6: %4 = @relu's %1
    StableHlo.binary main_v4 main_arg4 main_v5 ((fun l r => Host.dotGeneral dot_S100000x1024_S1024x8_S100000x8_1_0_0_1_n_n none l r) : (⟨S100000x1024, .f32⟩ : BufTy).Contents (Elt F) → (⟨S1024x8, .f32⟩ : BufTy).Contents (Elt F) → (⟨S100000x8, .f32⟩ : BufTy).Contents (Elt F)),   -- 7: %5
    StableHlo.unary main_arg5 main_v6 (broadcastInDim S1x8 ![1] bcast_S8_S1x8_1 : (⟨S8, .f32⟩ : BufTy).Contents (Elt F) → (⟨S1x8, .f32⟩ : BufTy).Contents (Elt F)),   -- 8: %6
    StableHlo.unary main_v6 main_v7 (broadcastInDim S100000x8 ![0, 1] bcast_S1x8_S100000x8_0_1 : (⟨S1x8, .f32⟩ : BufTy).Contents (Elt F) → (⟨S100000x8, .f32⟩ : BufTy).Contents (Elt F)),   -- 9: %7
    StableHlo.binary main_v5 main_v7 main_v8 (addf : (⟨S100000x8, .f32⟩ : BufTy).Contents (Elt F) → (⟨S100000x8, .f32⟩ : BufTy).Contents (Elt F) → (⟨S100000x8, .f32⟩ : BufTy).Contents (Elt F)),   -- 10: %8
    StableHlo.unary main_arg0 main_v9 ((extractStridedSlice S100000x1 ![0, 2] · slices_S100000x12_S100000x1_0_2) : (⟨S100000x12, .f32⟩ : BufTy).Contents (Elt F) → (⟨S100000x1, .f32⟩ : BufTy).Contents (Elt F)),   -- 11: %9
    StableHlo.reshape main_v9 main_v10 rfl shapeCasts_S100000x1_S100000,   -- 12: %10
    StableHlo.unary main_arg0 main_v11 ((extractStridedSlice S100000x1 ![0, 10] · slices_S100000x12_S100000x1_0_10) : (⟨S100000x12, .f32⟩ : BufTy).Contents (Elt F) → (⟨S100000x1, .f32⟩ : BufTy).Contents (Elt F)),   -- 13: %11
    StableHlo.reshape main_v11 main_v12 rfl shapeCasts_S100000x1_S100000,   -- 14: %12
    StableHlo.binary main_v10 main_v12 main_v13 (subf : (⟨S100000, .f32⟩ : BufTy).Contents (Elt F) → (⟨S100000, .f32⟩ : BufTy).Contents (Elt F) → (⟨S100000, .f32⟩ : BufTy).Contents (Elt F)),   -- 15: %13
    StableHlo.nullary main_cst (constant S_ .f32 0x41200000#32),   -- 16: %cst
    StableHlo.unary main_cst main_v14 (broadcastInDim S100000 ![] bcast_S_S100000 : (⟨S_, .f32⟩ : BufTy).Contents (Elt F) → (⟨S100000, .f32⟩ : BufTy).Contents (Elt F)),   -- 17: %14
    StableHlo.binary main_v13 main_v14 main_v15 (mulf : (⟨S100000, .f32⟩ : BufTy).Contents (Elt F) → (⟨S100000, .f32⟩ : BufTy).Contents (Elt F) → (⟨S100000, .f32⟩ : BufTy).Contents (Elt F)),   -- 18: %15
    StableHlo.unary main_arg0 main_v16 ((extractStridedSlice S100000x1 ![0, 0] · slices_S100000x12_S100000x1_0_0) : (⟨S100000x12, .f32⟩ : BufTy).Contents (Elt F) → (⟨S100000x1, .f32⟩ : BufTy).Contents (Elt F)),   -- 19: %16
    StableHlo.reshape main_v16 main_v17 rfl shapeCasts_S100000x1_S100000,   -- 20: %17
    StableHlo.unary main_arg0 main_v18 ((extractStridedSlice S100000x1 ![0, 5] · slices_S100000x12_S100000x1_0_5) : (⟨S100000x12, .f32⟩ : BufTy).Contents (Elt F) → (⟨S100000x1, .f32⟩ : BufTy).Contents (Elt F)),   -- 21: %18
    StableHlo.reshape main_v18 main_v19 rfl shapeCasts_S100000x1_S100000,   -- 22: %19
    StableHlo.binary main_v17 main_v19 main_v20 (cmpf .ole : (⟨S100000, .f32⟩ : BufTy).Contents (Elt F) → (⟨S100000, .f32⟩ : BufTy).Contents (Elt F) → (⟨S100000, .i1⟩ : BufTy).Contents (Elt F)),   -- 23: %20
    StableHlo.unary main_arg0 main_v21 ((extractStridedSlice S100000x1 ![0, 1] · slices_S100000x12_S100000x1_0_1) : (⟨S100000x12, .f32⟩ : BufTy).Contents (Elt F) → (⟨S100000x1, .f32⟩ : BufTy).Contents (Elt F)),   -- 24: %21
    StableHlo.reshape main_v21 main_v22 rfl shapeCasts_S100000x1_S100000,   -- 25: %22
    StableHlo.unary main_arg0 main_v23 ((extractStridedSlice S100000x1 ![0, 4] · slices_S100000x12_S100000x1_0_4) : (⟨S100000x12, .f32⟩ : BufTy).Contents (Elt F) → (⟨S100000x1, .f32⟩ : BufTy).Contents (Elt F)),   -- 26: %23
    StableHlo.reshape main_v23 main_v24 rfl shapeCasts_S100000x1_S100000,   -- 27: %24
    StableHlo.binary main_v22 main_v24 main_v25 (cmpf .oge : (⟨S100000, .f32⟩ : BufTy).Contents (Elt F) → (⟨S100000, .f32⟩ : BufTy).Contents (Elt F) → (⟨S100000, .i1⟩ : BufTy).Contents (Elt F)),   -- 28: %25
    StableHlo.binary main_v20 main_v25 main_v26 (andi : (⟨S100000, .i1⟩ : BufTy).Contents (Elt F) → (⟨S100000, .i1⟩ : BufTy).Contents (Elt F) → (⟨S100000, .i1⟩ : BufTy).Contents (Elt F)),   -- 29: %26
    StableHlo.unary main_arg0 main_v27 ((extractStridedSlice S100000x1 ![0, 2] · slices_S100000x12_S100000x1_0_2) : (⟨S100000x12, .f32⟩ : BufTy).Contents (Elt F) → (⟨S100000x1, .f32⟩ : BufTy).Contents (Elt F)),   -- 30: %27
    StableHlo.reshape main_v27 main_v28 rfl shapeCasts_S100000x1_S100000,   -- 31: %28
    StableHlo.unary main_arg0 main_v29 ((extractStridedSlice S100000x1 ![0, 11] · slices_S100000x12_S100000x1_0_11) : (⟨S100000x12, .f32⟩ : BufTy).Contents (Elt F) → (⟨S100000x1, .f32⟩ : BufTy).Contents (Elt F)),   -- 32: %29
    StableHlo.reshape main_v29 main_v30 rfl shapeCasts_S100000x1_S100000,   -- 33: %30
    StableHlo.binary main_v28 main_v30 main_v31 (cmpf .ole : (⟨S100000, .f32⟩ : BufTy).Contents (Elt F) → (⟨S100000, .f32⟩ : BufTy).Contents (Elt F) → (⟨S100000, .i1⟩ : BufTy).Contents (Elt F)),   -- 34: %31
    StableHlo.binary main_v26 main_v31 main_v32 (andi : (⟨S100000, .i1⟩ : BufTy).Contents (Elt F) → (⟨S100000, .i1⟩ : BufTy).Contents (Elt F) → (⟨S100000, .i1⟩ : BufTy).Contents (Elt F)),   -- 35: %32
    StableHlo.unary main_arg0 main_v33 ((extractStridedSlice S100000x1 ![0, 3] · slices_S100000x12_S100000x1_0_3) : (⟨S100000x12, .f32⟩ : BufTy).Contents (Elt F) → (⟨S100000x1, .f32⟩ : BufTy).Contents (Elt F)),   -- 36: %33
    StableHlo.reshape main_v33 main_v34 rfl shapeCasts_S100000x1_S100000,   -- 37: %34
    StableHlo.unary main_arg0 main_v35 ((extractStridedSlice S100000x1 ![0, 10] · slices_S100000x12_S100000x1_0_10) : (⟨S100000x12, .f32⟩ : BufTy).Contents (Elt F) → (⟨S100000x1, .f32⟩ : BufTy).Contents (Elt F)),   -- 38: %35
    StableHlo.reshape main_v35 main_v36 rfl shapeCasts_S100000x1_S100000,   -- 39: %36
    StableHlo.binary main_v34 main_v36 main_v37 (cmpf .oge : (⟨S100000, .f32⟩ : BufTy).Contents (Elt F) → (⟨S100000, .f32⟩ : BufTy).Contents (Elt F) → (⟨S100000, .i1⟩ : BufTy).Contents (Elt F)),   -- 40: %37
    StableHlo.binary main_v32 main_v37 main_v38 (andi : (⟨S100000, .i1⟩ : BufTy).Contents (Elt F) → (⟨S100000, .i1⟩ : BufTy).Contents (Elt F) → (⟨S100000, .i1⟩ : BufTy).Contents (Elt F)),   -- 41: %38
    StableHlo.unary main_v38 main_v39 (uitofp .f32 : (⟨S100000, .i1⟩ : BufTy).Contents (Elt F) → (⟨S100000, .f32⟩ : BufTy).Contents (Elt F)),   -- 42: %39
    StableHlo.nullary main_cst_0 (constant S_ .f32 0x41200000#32),   -- 43: %cst_0
    StableHlo.unary main_cst_0 main_v40 (broadcastInDim S100000 ![] bcast_S_S100000 : (⟨S_, .f32⟩ : BufTy).Contents (Elt F) → (⟨S100000, .f32⟩ : BufTy).Contents (Elt F)),   -- 44: %40
    StableHlo.binary main_v39 main_v40 main_v41 (mulf : (⟨S100000, .f32⟩ : BufTy).Contents (Elt F) → (⟨S100000, .f32⟩ : BufTy).Contents (Elt F) → (⟨S100000, .f32⟩ : BufTy).Contents (Elt F)),   -- 45: %41
    StableHlo.nullary main_cst_1 (constant S_ .f32 0x40A00000#32),   -- 46: %cst_1
    StableHlo.unary main_cst_1 main_v42 (broadcastInDim S100000 ![] bcast_S_S100000 : (⟨S_, .f32⟩ : BufTy).Contents (Elt F) → (⟨S100000, .f32⟩ : BufTy).Contents (Elt F)),   -- 47: %42
    StableHlo.binary main_v41 main_v42 main_v43 (subf : (⟨S100000, .f32⟩ : BufTy).Contents (Elt F) → (⟨S100000, .f32⟩ : BufTy).Contents (Elt F) → (⟨S100000, .f32⟩ : BufTy).Contents (Elt F)),   -- 48: %43
    StableHlo.unary main_v15 main_v44 (broadcastInDim S100000x1 ![0] bcast_S100000_S100000x1_0 : (⟨S100000, .f32⟩ : BufTy).Contents (Elt F) → (⟨S100000x1, .f32⟩ : BufTy).Contents (Elt F)),   -- 49: %44
    StableHlo.unary main_v43 main_v45 (broadcastInDim S100000x1 ![0] bcast_S100000_S100000x1_0 : (⟨S100000, .f32⟩ : BufTy).Contents (Elt F) → (⟨S100000x1, .f32⟩ : BufTy).Contents (Elt F)),   -- 50: %45
    StableHlo.nary ![main_v8, main_v44, main_v45] main_v46 (fun u => concatenate S100000x10 1 [⟨S100000x8, u 0⟩, ⟨S100000x1, u 1⟩, ⟨S100000x1, u 2⟩] concatenates_S100000x8_S100000x1_S100000x1_S100000x10_d1) ]   -- 51: %46

/-- Operations 52 … 81 (%47 … %cst_4): layer 1. -/
abbrev q1 : List (HloOp τ sig (Elt F)) :=
  [ StableHlo.unary main_arg6 main_v47 ((extractStridedSlice S1 ![0] · slices_S3_S1_0) : (⟨S3, .f32⟩ : BufTy).Contents (Elt F) → (⟨S1, .f32⟩ : BufTy).Contents (Elt F)),   -- 52: %47
    StableHlo.reshape main_v47 main_v48 rfl shapeCasts_S1_S_,   -- 53: %48
    StableHlo.nullary main_v49 (iotaInDim S22 32 0),   -- 54: %49
    StableHlo.nullary main_c (constantI S_ 32 2#32),   -- 55: %c
    StableHlo.TRef.unary (.of main_c : StableHlo.TRef sig ⟨S_, .i32⟩) main_call1.v0 id,   -- 56: %50 = @remainder's %0
    StableHlo.TRef.nullary main_call1.c (constantI S_ 32 0#32),   -- 57: %50 = @remainder's %c
    StableHlo.TRef.binary main_call1.v0 main_call1.c main_call1.v1 (cmpi .eq),   -- 58: %50 = @remainder's %1
    StableHlo.TRef.nullary main_call1.c_0 (constantI S_ 32 1#32),   -- 59: %50 = @remainder's %c_0
    StableHlo.TRef.ternary main_call1.v1 main_call1.c_0 main_call1.v0 main_call1.call0.v0 select,   -- 60: %50 = @remainder's %2 = @_where's %0
    StableHlo.TRef.unary main_call1.call0.v0 main_call1.v3 (broadcastInDim S22 ![] bcast_S_S22),   -- 61: %50 = @remainder's %3
    StableHlo.TRef.binary (.of main_v49 : StableHlo.TRef sig ⟨S22, .i32⟩) main_call1.v3 main_call1.v4 Host.remsi,   -- 62: %50 = @remainder's %4
    StableHlo.TRef.nullary main_call1.c_1 (constantI S_ 32 0#32),   -- 63: %50 = @remainder's %c_1
    StableHlo.TRef.unary main_call1.c_1 main_call1.v5 (broadcastInDim S22 ![] bcast_S_S22),   -- 64: %50 = @remainder's %5
    StableHlo.TRef.binary main_call1.v4 main_call1.v5 main_call1.v6 (cmpi .ne),   -- 65: %50 = @remainder's %6
    StableHlo.TRef.nullary main_call1.c_2 (constantI S_ 32 0#32),   -- 66: %50 = @remainder's %c_2
    StableHlo.TRef.unary main_call1.c_2 main_call1.v7 (broadcastInDim S22 ![] bcast_S_S22),   -- 67: %50 = @remainder's %7
    StableHlo.TRef.binary main_call1.v4 main_call1.v7 main_call1.v8 (cmpi .slt),   -- 68: %50 = @remainder's %8
    StableHlo.TRef.nullary main_call1.c_3 (constantI S_ 32 0#32),   -- 69: %50 = @remainder's %c_3
    StableHlo.TRef.binary main_call1.call0.v0 main_call1.c_3 main_call1.v9 (cmpi .slt),   -- 70: %50 = @remainder's %9
    StableHlo.TRef.unary main_call1.v9 main_call1.v10 (broadcastInDim S22 ![] bcast_S_S22),   -- 71: %50 = @remainder's %10
    StableHlo.TRef.binary main_call1.v8 main_call1.v10 main_call1.v11 (cmpi .ne),   -- 72: %50 = @remainder's %11
    StableHlo.TRef.binary main_call1.v11 main_call1.v6 main_call1.v12 andi,   -- 73: %50 = @remainder's %12
    StableHlo.TRef.unary main_call1.call0.v0 main_call1.v13 (broadcastInDim S22 ![] bcast_S_S22),   -- 74: %50 = @remainder's %13
    StableHlo.TRef.binary main_call1.v4 main_call1.v13 main_call1.v14 addi,   -- 75: %50 = @remainder's %14
    StableHlo.TRef.ternary main_call1.v12 main_call1.v14 main_call1.v4 main_call1.v15 select,   -- 76: %50 = @remainder's %15
    StableHlo.nullary main_c_2 (constantI S_ 32 0#32),   -- 77: %c_2
    StableHlo.unary main_c_2 main_v51 (broadcastInDim S22 ![] bcast_S_S22 : (⟨S_, .i32⟩ : BufTy).Contents (Elt F) → (⟨S22, .i32⟩ : BufTy).Contents (Elt F)),   -- 78: %51
    StableHlo.binary main_v50 main_v51 main_v52 (cmpi .eq : (⟨S22, .i32⟩ : BufTy).Contents (Elt F) → (⟨S22, .i32⟩ : BufTy).Contents (Elt F) → (⟨S22, .i1⟩ : BufTy).Contents (Elt F)),   -- 79: %52
    StableHlo.nullary main_cst_3 (constant S_ .f32 0x3F800000#32),   -- 80: %cst_3
    StableHlo.nullary main_cst_4 (constant S_ .f32 0xBF800000#32) ]   -- 81: %cst_4

/-- Operations 82 … 153 (%53 = @_where_0's %0 … %101): layer 1. -/
abbrev q2 : List (HloOp τ sig (Elt F)) :=
  [ StableHlo.TRef.unary (.of main_cst_3 : StableHlo.TRef sig ⟨S_, .f32⟩) main_call2.v0 (broadcastInDim S22 ![] bcast_S_S22),   -- 82: %53 = @_where_0's %0
    StableHlo.TRef.unary (.of main_cst_4 : StableHlo.TRef sig ⟨S_, .f32⟩) main_call2.v1 (broadcastInDim S22 ![] bcast_S_S22),   -- 83: %53 = @_where_0's %1
    StableHlo.TRef.ternary (.of main_v52 : StableHlo.TRef sig ⟨S22, .i1⟩) main_call2.v0 main_call2.v1 main_call2.v2 select,   -- 84: %53 = @_where_0's %2
    StableHlo.unary main_v53 main_v54 (id : (⟨S22, .f32⟩ : BufTy).Contents (Elt F) → (⟨S22, .f32⟩ : BufTy).Contents (Elt F)),   -- 85: %54
    StableHlo.nullary main_c_5 (constantI S_ 32 0#32),   -- 86: %c_5
    StableHlo.unary main_c_5 main_v55 (broadcastInDim S3200000 ![] bcast_S_S3200000 : (⟨S_, .i32⟩ : BufTy).Contents (Elt F) → (⟨S3200000, .i32⟩ : BufTy).Contents (Elt F)),   -- 87: %55
    StableHlo.binary main_arg7 main_v55 main_v56 (cmpi .slt : (⟨S3200000, .i32⟩ : BufTy).Contents (Elt F) → (⟨S3200000, .i32⟩ : BufTy).Contents (Elt F) → (⟨S3200000, .i1⟩ : BufTy).Contents (Elt F)),   -- 88: %56
    StableHlo.nullary main_c_6 (constantI S_ 32 100000#32),   -- 89: %c_6
    StableHlo.unary main_c_6 main_v57 (broadcastInDim S3200000 ![] bcast_S_S3200000 : (⟨S_, .i32⟩ : BufTy).Contents (Elt F) → (⟨S3200000, .i32⟩ : BufTy).Contents (Elt F)),   -- 90: %57
    StableHlo.binary main_arg7 main_v57 main_v58 (addi : (⟨S3200000, .i32⟩ : BufTy).Contents (Elt F) → (⟨S3200000, .i32⟩ : BufTy).Contents (Elt F) → (⟨S3200000, .i32⟩ : BufTy).Contents (Elt F)),   -- 91: %58
    StableHlo.ternary main_v56 main_v58 main_arg7 main_v59 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 92: %59
    StableHlo.unary main_v59 main_v60 (broadcastInDim S3200000x1 ![0] bcast_S3200000_S3200000x1_0 : (⟨S3200000, .i32⟩ : BufTy).Contents (Elt F) → (⟨S3200000x1, .i32⟩ : BufTy).Contents (Elt F)),   -- 93: %60
    StableHlo.binary main_v46 main_v60 main_v61 ((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)),   -- 94: %61
    StableHlo.nullary main_c_7 (constantI S_ 32 0#32),   -- 95: %c_7
    StableHlo.unary main_c_7 main_v62 (broadcastInDim S3200000 ![] bcast_S_S3200000 : (⟨S_, .i32⟩ : BufTy).Contents (Elt F) → (⟨S3200000, .i32⟩ : BufTy).Contents (Elt F)),   -- 96: %62
    StableHlo.binary main_arg8 main_v62 main_v63 (cmpi .slt : (⟨S3200000, .i32⟩ : BufTy).Contents (Elt F) → (⟨S3200000, .i32⟩ : BufTy).Contents (Elt F) → (⟨S3200000, .i1⟩ : BufTy).Contents (Elt F)),   -- 97: %63
    StableHlo.nullary main_c_8 (constantI S_ 32 100000#32),   -- 98: %c_8
    StableHlo.unary main_c_8 main_v64 (broadcastInDim S3200000 ![] bcast_S_S3200000 : (⟨S_, .i32⟩ : BufTy).Contents (Elt F) → (⟨S3200000, .i32⟩ : BufTy).Contents (Elt F)),   -- 99: %64
    StableHlo.binary main_arg8 main_v64 main_v65 (addi : (⟨S3200000, .i32⟩ : BufTy).Contents (Elt F) → (⟨S3200000, .i32⟩ : BufTy).Contents (Elt F) → (⟨S3200000, .i32⟩ : BufTy).Contents (Elt F)),   -- 100: %65
    StableHlo.ternary main_v63 main_v65 main_arg8 main_v66 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 101: %66
    StableHlo.unary main_v66 main_v67 (broadcastInDim S3200000x1 ![0] bcast_S3200000_S3200000x1_0 : (⟨S3200000, .i32⟩ : BufTy).Contents (Elt F) → (⟨S3200000x1, .i32⟩ : BufTy).Contents (Elt F)),   -- 102: %67
    StableHlo.binary main_v46 main_v67 main_v68 ((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)),   -- 103: %68
    StableHlo.nary ![main_v61, main_v68, main_arg1] main_v69 (fun u => concatenate S3200000x22 1 [⟨S3200000x10, u 0⟩, ⟨S3200000x10, u 1⟩, ⟨S3200000x2, u 2⟩] concatenates_S3200000x10_S3200000x10_S3200000x2_S3200000x22_d1),   -- 104: %69
    StableHlo.TRef.nullary main_call3.cst (constant S_ .f32 0x00000000#32),   -- 105: %70 = @softplus's %cst
    StableHlo.TRef.binary (.of main_v48 : StableHlo.TRef sig ⟨S_, .f32⟩) main_call3.cst main_call3.v0 maximumf,   -- 106: %70 = @softplus's %0
    StableHlo.TRef.binary (.of main_v48 : StableHlo.TRef sig ⟨S_, .f32⟩) main_call3.cst main_call3.v1 subf,   -- 107: %70 = @softplus's %1
    StableHlo.TRef.binary main_call3.v1 main_call3.v1 main_call3.v2 (cmpf .une),   -- 108: %70 = @softplus's %2
    StableHlo.TRef.binary (.of main_v48 : StableHlo.TRef sig ⟨S_, .f32⟩) main_call3.cst main_call3.v3 addf,   -- 109: %70 = @softplus's %3
    StableHlo.TRef.unary main_call3.v1 main_call3.v4 Host.absf,   -- 110: %70 = @softplus's %4
    StableHlo.TRef.unary main_call3.v4 main_call3.v5 Host.negf,   -- 111: %70 = @softplus's %5
    StableHlo.TRef.unary main_call3.v5 main_call3.v6 Host.exp,   -- 112: %70 = @softplus's %6
    StableHlo.TRef.unary main_call3.v6 main_call3.v7 Host.log1p,   -- 113: %70 = @softplus's %7
    StableHlo.TRef.binary main_call3.v0 main_call3.v7 main_call3.v8 addf,   -- 114: %70 = @softplus's %8
    StableHlo.TRef.ternary main_call3.v2 main_call3.v3 main_call3.v8 main_call3.v9 select,   -- 115: %70 = @softplus's %9
    StableHlo.unary main_v54 main_v71 (broadcastInDim S1x22 ![1] bcast_S22_S1x22_1 : (⟨S22, .f32⟩ : BufTy).Contents (Elt F) → (⟨S1x22, .f32⟩ : BufTy).Contents (Elt F)),   -- 116: %71
    StableHlo.unary main_v71 main_v72 (broadcastInDim S3200000x22 ![0, 1] bcast_S1x22_S3200000x22_0_1 : (⟨S1x22, .f32⟩ : BufTy).Contents (Elt F) → (⟨S3200000x22, .f32⟩ : BufTy).Contents (Elt F)),   -- 117: %72
    StableHlo.binary main_v72 main_v69 main_v73 (mulf : (⟨S3200000x22, .f32⟩ : BufTy).Contents (Elt F) → (⟨S3200000x22, .f32⟩ : BufTy).Contents (Elt F) → (⟨S3200000x22, .f32⟩ : BufTy).Contents (Elt F)),   -- 118: %73
    StableHlo.nullary main_cst_9 (constant S_ .f32 0xFF800000#32),   -- 119: %cst_9
    StableHlo.binary main_v73 main_cst_9 main_v74 ((fun x v => Host.reduce FloatOps.maximumf x v reducesTo_S3200000x22_S3200000_d1 h_S_) : (⟨S3200000x22, .f32⟩ : BufTy).Contents (Elt F) → (⟨S_, .f32⟩ : BufTy).Contents (Elt F) → (⟨S3200000, .f32⟩ : BufTy).Contents (Elt F)),   -- 120: %74
    StableHlo.nullary main_cst_10 (constant S_ .f32 0xFF800000#32),   -- 121: %cst_10
    StableHlo.unary main_cst_10 main_v75 (broadcastInDim S3200000 ![] bcast_S_S3200000 : (⟨S_, .f32⟩ : BufTy).Contents (Elt F) → (⟨S3200000, .f32⟩ : BufTy).Contents (Elt F)),   -- 122: %75
    StableHlo.binary main_v75 main_v74 main_v76 (maximumf : (⟨S3200000, .f32⟩ : BufTy).Contents (Elt F) → (⟨S3200000, .f32⟩ : BufTy).Contents (Elt F) → (⟨S3200000, .f32⟩ : BufTy).Contents (Elt F)),   -- 123: %76
    StableHlo.unary main_v76 main_v77 (broadcastInDim S3200000x1 ![0] bcast_S3200000_S3200000x1_0 : (⟨S3200000, .f32⟩ : BufTy).Contents (Elt F) → (⟨S3200000x1, .f32⟩ : BufTy).Contents (Elt F)),   -- 124: %77
    StableHlo.unary main_v77 main_v78 (broadcastInDim S3200000x22 ![0, 1] bcast_S3200000x1_S3200000x22_0_1 : (⟨S3200000x1, .f32⟩ : BufTy).Contents (Elt F) → (⟨S3200000x22, .f32⟩ : BufTy).Contents (Elt F)),   -- 125: %78
    StableHlo.binary main_v73 main_v78 main_v79 (subf : (⟨S3200000x22, .f32⟩ : BufTy).Contents (Elt F) → (⟨S3200000x22, .f32⟩ : BufTy).Contents (Elt F) → (⟨S3200000x22, .f32⟩ : BufTy).Contents (Elt F)),   -- 126: %79
    StableHlo.unary main_v79 main_v80 (Host.exp : (⟨S3200000x22, .f32⟩ : BufTy).Contents (Elt F) → (⟨S3200000x22, .f32⟩ : BufTy).Contents (Elt F)),   -- 127: %80
    StableHlo.nullary main_cst_11 (constant S_ .f32 0x00000000#32),   -- 128: %cst_11
    StableHlo.binary main_v80 main_cst_11 main_v81 ((fun x v => Host.reduceAdd x v reducesTo_S3200000x22_S3200000_d1 h_S_) : (⟨S3200000x22, .f32⟩ : BufTy).Contents (Elt F) → (⟨S_, .f32⟩ : BufTy).Contents (Elt F) → (⟨S3200000, .f32⟩ : BufTy).Contents (Elt F)),   -- 129: %81
    StableHlo.unary main_v81 main_v82 (broadcastInDim S3200000x1 ![0] bcast_S3200000_S3200000x1_0 : (⟨S3200000, .f32⟩ : BufTy).Contents (Elt F) → (⟨S3200000x1, .f32⟩ : BufTy).Contents (Elt F)),   -- 130: %82
    StableHlo.unary main_v82 main_v83 (broadcastInDim S3200000x22 ![0, 1] bcast_S3200000x1_S3200000x22_0_1 : (⟨S3200000x1, .f32⟩ : BufTy).Contents (Elt F) → (⟨S3200000x22, .f32⟩ : BufTy).Contents (Elt F)),   -- 131: %83
    StableHlo.binary main_v80 main_v83 main_v84 (Host.divf : (⟨S3200000x22, .f32⟩ : BufTy).Contents (Elt F) → (⟨S3200000x22, .f32⟩ : BufTy).Contents (Elt F) → (⟨S3200000x22, .f32⟩ : BufTy).Contents (Elt F)),   -- 132: %84
    StableHlo.unary main_v70 main_v85 (broadcastInDim S3200000x22 ![] bcast_S_S3200000x22 : (⟨S_, .f32⟩ : BufTy).Contents (Elt F) → (⟨S3200000x22, .f32⟩ : BufTy).Contents (Elt F)),   -- 133: %85
    StableHlo.binary main_v85 main_v84 main_v86 (mulf : (⟨S3200000x22, .f32⟩ : BufTy).Contents (Elt F) → (⟨S3200000x22, .f32⟩ : BufTy).Contents (Elt F) → (⟨S3200000x22, .f32⟩ : BufTy).Contents (Elt F)),   -- 134: %86
    StableHlo.unary main_v54 main_v87 (broadcastInDim S1x22 ![1] bcast_S22_S1x22_1 : (⟨S22, .f32⟩ : BufTy).Contents (Elt F) → (⟨S1x22, .f32⟩ : BufTy).Contents (Elt F)),   -- 135: %87
    StableHlo.unary main_v87 main_v88 (broadcastInDim S3200000x22 ![0, 1] bcast_S1x22_S3200000x22_0_1 : (⟨S1x22, .f32⟩ : BufTy).Contents (Elt F) → (⟨S3200000x22, .f32⟩ : BufTy).Contents (Elt F)),   -- 136: %88
    StableHlo.binary main_v86 main_v88 main_v89 (mulf : (⟨S3200000x22, .f32⟩ : BufTy).Contents (Elt F) → (⟨S3200000x22, .f32⟩ : BufTy).Contents (Elt F) → (⟨S3200000x22, .f32⟩ : BufTy).Contents (Elt F)),   -- 137: %89
    StableHlo.unary main_v89 main_v90 ((extractStridedSlice S3200000x10 ![0, 0] · slices_S3200000x22_S3200000x10_0_0) : (⟨S3200000x22, .f32⟩ : BufTy).Contents (Elt F) → (⟨S3200000x10, .f32⟩ : BufTy).Contents (Elt F)),   -- 138: %90
    StableHlo.nullary main_c_12 (constantI S_ 32 0#32),   -- 139: %c_12
    StableHlo.unary main_c_12 main_v91 (broadcastInDim S3200000 ![] bcast_S_S3200000 : (⟨S_, .i32⟩ : BufTy).Contents (Elt F) → (⟨S3200000, .i32⟩ : BufTy).Contents (Elt F)),   -- 140: %91
    StableHlo.binary main_arg7 main_v91 main_v92 (cmpi .slt : (⟨S3200000, .i32⟩ : BufTy).Contents (Elt F) → (⟨S3200000, .i32⟩ : BufTy).Contents (Elt F) → (⟨S3200000, .i1⟩ : BufTy).Contents (Elt F)),   -- 141: %92
    StableHlo.nullary main_c_13 (constantI S_ 32 100000#32),   -- 142: %c_13
    StableHlo.unary main_c_13 main_v93 (broadcastInDim S3200000 ![] bcast_S_S3200000 : (⟨S_, .i32⟩ : BufTy).Contents (Elt F) → (⟨S3200000, .i32⟩ : BufTy).Contents (Elt F)),   -- 143: %93
    StableHlo.binary main_arg7 main_v93 main_v94 (addi : (⟨S3200000, .i32⟩ : BufTy).Contents (Elt F) → (⟨S3200000, .i32⟩ : BufTy).Contents (Elt F) → (⟨S3200000, .i32⟩ : BufTy).Contents (Elt F)),   -- 144: %94
    StableHlo.ternary main_v92 main_v94 main_arg7 main_v95 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 145: %95
    StableHlo.unary main_v95 main_v96 (broadcastInDim S3200000x1 ![0] bcast_S3200000_S3200000x1_0 : (⟨S3200000, .i32⟩ : BufTy).Contents (Elt F) → (⟨S3200000x1, .i32⟩ : BufTy).Contents (Elt F)),   -- 146: %96
    StableHlo.ternary main_v46 main_v96 main_v90 main_v97 ((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)),   -- 147: %97
    StableHlo.unary main_v89 main_v98 ((extractStridedSlice S3200000x10 ![0, 10] · slices_S3200000x22_S3200000x10_0_10) : (⟨S3200000x22, .f32⟩ : BufTy).Contents (Elt F) → (⟨S3200000x10, .f32⟩ : BufTy).Contents (Elt F)),   -- 148: %98
    StableHlo.nullary main_c_14 (constantI S_ 32 0#32),   -- 149: %c_14
    StableHlo.unary main_c_14 main_v99 (broadcastInDim S3200000 ![] bcast_S_S3200000 : (⟨S_, .i32⟩ : BufTy).Contents (Elt F) → (⟨S3200000, .i32⟩ : BufTy).Contents (Elt F)),   -- 150: %99
    StableHlo.binary main_arg8 main_v99 main_v100 (cmpi .slt : (⟨S3200000, .i32⟩ : BufTy).Contents (Elt F) → (⟨S3200000, .i32⟩ : BufTy).Contents (Elt F) → (⟨S3200000, .i1⟩ : BufTy).Contents (Elt F)),   -- 151: %100
    StableHlo.nullary main_c_15 (constantI S_ 32 100000#32),   -- 152: %c_15
    StableHlo.unary main_c_15 main_v101 (broadcastInDim S3200000 ![] bcast_S_S3200000 : (⟨S_, .i32⟩ : BufTy).Contents (Elt F) → (⟨S3200000, .i32⟩ : BufTy).Contents (Elt F)) ]   -- 153: %101

/-- Operations 154 … 157 (%102 … %105): layer 1. -/
abbrev q3 : List (HloOp τ sig (Elt F)) :=
  [ StableHlo.binary main_arg8 main_v101 main_v102 (addi : (⟨S3200000, .i32⟩ : BufTy).Contents (Elt F) → (⟨S3200000, .i32⟩ : BufTy).Contents (Elt F) → (⟨S3200000, .i32⟩ : BufTy).Contents (Elt F)),   -- 154: %102
    StableHlo.ternary main_v100 main_v102 main_arg8 main_v103 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 155: %103
    StableHlo.unary main_v103 main_v104 (broadcastInDim S3200000x1 ![0] bcast_S3200000_S3200000x1_0 : (⟨S3200000, .i32⟩ : BufTy).Contents (Elt F) → (⟨S3200000x1, .i32⟩ : BufTy).Contents (Elt F)),   -- 156: %104
    StableHlo.ternary main_v97 main_v104 main_v98 main_v105 ((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)) ]   -- 157: %105

/-- Operations 158 … 245 (%106 … %c_27): layer 2. -/
abbrev q4 : List (HloOp τ sig (Elt F)) :=
  [ StableHlo.unary main_arg6 main_v106 ((extractStridedSlice S1 ![1] · slices_S3_S1_1) : (⟨S3, .f32⟩ : BufTy).Contents (Elt F) → (⟨S1, .f32⟩ : BufTy).Contents (Elt F)),   -- 158: %106
    StableHlo.reshape main_v106 main_v107 rfl shapeCasts_S1_S_,   -- 159: %107
    StableHlo.nullary main_v108 (iotaInDim S22 32 0),   -- 160: %108
    StableHlo.nullary main_c_16 (constantI S_ 32 2#32),   -- 161: %c_16
    StableHlo.TRef.unary (.of main_c_16 : StableHlo.TRef sig ⟨S_, .i32⟩) main_call4.v0 id,   -- 162: %109 = @remainder's %0
    StableHlo.TRef.nullary main_call4.c (constantI S_ 32 0#32),   -- 163: %109 = @remainder's %c
    StableHlo.TRef.binary main_call4.v0 main_call4.c main_call4.v1 (cmpi .eq),   -- 164: %109 = @remainder's %1
    StableHlo.TRef.nullary main_call4.c_0 (constantI S_ 32 1#32),   -- 165: %109 = @remainder's %c_0
    StableHlo.TRef.ternary main_call4.v1 main_call4.c_0 main_call4.v0 main_call4.call0.v0 select,   -- 166: %109 = @remainder's %2 = @_where's %0
    StableHlo.TRef.unary main_call4.call0.v0 main_call4.v3 (broadcastInDim S22 ![] bcast_S_S22),   -- 167: %109 = @remainder's %3
    StableHlo.TRef.binary (.of main_v108 : StableHlo.TRef sig ⟨S22, .i32⟩) main_call4.v3 main_call4.v4 Host.remsi,   -- 168: %109 = @remainder's %4
    StableHlo.TRef.nullary main_call4.c_1 (constantI S_ 32 0#32),   -- 169: %109 = @remainder's %c_1
    StableHlo.TRef.unary main_call4.c_1 main_call4.v5 (broadcastInDim S22 ![] bcast_S_S22),   -- 170: %109 = @remainder's %5
    StableHlo.TRef.binary main_call4.v4 main_call4.v5 main_call4.v6 (cmpi .ne),   -- 171: %109 = @remainder's %6
    StableHlo.TRef.nullary main_call4.c_2 (constantI S_ 32 0#32),   -- 172: %109 = @remainder's %c_2
    StableHlo.TRef.unary main_call4.c_2 main_call4.v7 (broadcastInDim S22 ![] bcast_S_S22),   -- 173: %109 = @remainder's %7
    StableHlo.TRef.binary main_call4.v4 main_call4.v7 main_call4.v8 (cmpi .slt),   -- 174: %109 = @remainder's %8
    StableHlo.TRef.nullary main_call4.c_3 (constantI S_ 32 0#32),   -- 175: %109 = @remainder's %c_3
    StableHlo.TRef.binary main_call4.call0.v0 main_call4.c_3 main_call4.v9 (cmpi .slt),   -- 176: %109 = @remainder's %9
    StableHlo.TRef.unary main_call4.v9 main_call4.v10 (broadcastInDim S22 ![] bcast_S_S22),   -- 177: %109 = @remainder's %10
    StableHlo.TRef.binary main_call4.v8 main_call4.v10 main_call4.v11 (cmpi .ne),   -- 178: %109 = @remainder's %11
    StableHlo.TRef.binary main_call4.v11 main_call4.v6 main_call4.v12 andi,   -- 179: %109 = @remainder's %12
    StableHlo.TRef.unary main_call4.call0.v0 main_call4.v13 (broadcastInDim S22 ![] bcast_S_S22),   -- 180: %109 = @remainder's %13
    StableHlo.TRef.binary main_call4.v4 main_call4.v13 main_call4.v14 addi,   -- 181: %109 = @remainder's %14
    StableHlo.TRef.ternary main_call4.v12 main_call4.v14 main_call4.v4 main_call4.v15 select,   -- 182: %109 = @remainder's %15
    StableHlo.nullary main_c_17 (constantI S_ 32 0#32),   -- 183: %c_17
    StableHlo.unary main_c_17 main_v110 (broadcastInDim S22 ![] bcast_S_S22 : (⟨S_, .i32⟩ : BufTy).Contents (Elt F) → (⟨S22, .i32⟩ : BufTy).Contents (Elt F)),   -- 184: %110
    StableHlo.binary main_v109 main_v110 main_v111 (cmpi .eq : (⟨S22, .i32⟩ : BufTy).Contents (Elt F) → (⟨S22, .i32⟩ : BufTy).Contents (Elt F) → (⟨S22, .i1⟩ : BufTy).Contents (Elt F)),   -- 185: %111
    StableHlo.nullary main_cst_18 (constant S_ .f32 0x3F800000#32),   -- 186: %cst_18
    StableHlo.nullary main_cst_19 (constant S_ .f32 0xBF800000#32),   -- 187: %cst_19
    StableHlo.TRef.unary (.of main_cst_18 : StableHlo.TRef sig ⟨S_, .f32⟩) main_call5.v0 (broadcastInDim S22 ![] bcast_S_S22),   -- 188: %112 = @_where_0's %0
    StableHlo.TRef.unary (.of main_cst_19 : StableHlo.TRef sig ⟨S_, .f32⟩) main_call5.v1 (broadcastInDim S22 ![] bcast_S_S22),   -- 189: %112 = @_where_0's %1
    StableHlo.TRef.ternary (.of main_v111 : StableHlo.TRef sig ⟨S22, .i1⟩) main_call5.v0 main_call5.v1 main_call5.v2 select,   -- 190: %112 = @_where_0's %2
    StableHlo.unary main_v112 main_v113 (id : (⟨S22, .f32⟩ : BufTy).Contents (Elt F) → (⟨S22, .f32⟩ : BufTy).Contents (Elt F)),   -- 191: %113
    StableHlo.nullary main_c_20 (constantI S_ 32 0#32),   -- 192: %c_20
    StableHlo.unary main_c_20 main_v114 (broadcastInDim S3200000 ![] bcast_S_S3200000 : (⟨S_, .i32⟩ : BufTy).Contents (Elt F) → (⟨S3200000, .i32⟩ : BufTy).Contents (Elt F)),   -- 193: %114
    StableHlo.binary main_arg7 main_v114 main_v115 (cmpi .slt : (⟨S3200000, .i32⟩ : BufTy).Contents (Elt F) → (⟨S3200000, .i32⟩ : BufTy).Contents (Elt F) → (⟨S3200000, .i1⟩ : BufTy).Contents (Elt F)),   -- 194: %115
    StableHlo.nullary main_c_21 (constantI S_ 32 100000#32),   -- 195: %c_21
    StableHlo.unary main_c_21 main_v116 (broadcastInDim S3200000 ![] bcast_S_S3200000 : (⟨S_, .i32⟩ : BufTy).Contents (Elt F) → (⟨S3200000, .i32⟩ : BufTy).Contents (Elt F)),   -- 196: %116
    StableHlo.binary main_arg7 main_v116 main_v117 (addi : (⟨S3200000, .i32⟩ : BufTy).Contents (Elt F) → (⟨S3200000, .i32⟩ : BufTy).Contents (Elt F) → (⟨S3200000, .i32⟩ : BufTy).Contents (Elt F)),   -- 197: %117
    StableHlo.ternary main_v115 main_v117 main_arg7 main_v118 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 198: %118
    StableHlo.unary main_v118 main_v119 (broadcastInDim S3200000x1 ![0] bcast_S3200000_S3200000x1_0 : (⟨S3200000, .i32⟩ : BufTy).Contents (Elt F) → (⟨S3200000x1, .i32⟩ : BufTy).Contents (Elt F)),   -- 199: %119
    StableHlo.binary main_v105 main_v119 main_v120 ((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)),   -- 200: %120
    StableHlo.nullary main_c_22 (constantI S_ 32 0#32),   -- 201: %c_22
    StableHlo.unary main_c_22 main_v121 (broadcastInDim S3200000 ![] bcast_S_S3200000 : (⟨S_, .i32⟩ : BufTy).Contents (Elt F) → (⟨S3200000, .i32⟩ : BufTy).Contents (Elt F)),   -- 202: %121
    StableHlo.binary main_arg8 main_v121 main_v122 (cmpi .slt : (⟨S3200000, .i32⟩ : BufTy).Contents (Elt F) → (⟨S3200000, .i32⟩ : BufTy).Contents (Elt F) → (⟨S3200000, .i1⟩ : BufTy).Contents (Elt F)),   -- 203: %122
    StableHlo.nullary main_c_23 (constantI S_ 32 100000#32),   -- 204: %c_23
    StableHlo.unary main_c_23 main_v123 (broadcastInDim S3200000 ![] bcast_S_S3200000 : (⟨S_, .i32⟩ : BufTy).Contents (Elt F) → (⟨S3200000, .i32⟩ : BufTy).Contents (Elt F)),   -- 205: %123
    StableHlo.binary main_arg8 main_v123 main_v124 (addi : (⟨S3200000, .i32⟩ : BufTy).Contents (Elt F) → (⟨S3200000, .i32⟩ : BufTy).Contents (Elt F) → (⟨S3200000, .i32⟩ : BufTy).Contents (Elt F)),   -- 206: %124
    StableHlo.ternary main_v122 main_v124 main_arg8 main_v125 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 207: %125
    StableHlo.unary main_v125 main_v126 (broadcastInDim S3200000x1 ![0] bcast_S3200000_S3200000x1_0 : (⟨S3200000, .i32⟩ : BufTy).Contents (Elt F) → (⟨S3200000x1, .i32⟩ : BufTy).Contents (Elt F)),   -- 208: %126
    StableHlo.binary main_v105 main_v126 main_v127 ((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)),   -- 209: %127
    StableHlo.nary ![main_v120, main_v127, main_arg1] main_v128 (fun u => concatenate S3200000x22 1 [⟨S3200000x10, u 0⟩, ⟨S3200000x10, u 1⟩, ⟨S3200000x2, u 2⟩] concatenates_S3200000x10_S3200000x10_S3200000x2_S3200000x22_d1),   -- 210: %128
    StableHlo.TRef.nullary main_call6.cst (constant S_ .f32 0x00000000#32),   -- 211: %129 = @softplus's %cst
    StableHlo.TRef.binary (.of main_v107 : StableHlo.TRef sig ⟨S_, .f32⟩) main_call6.cst main_call6.v0 maximumf,   -- 212: %129 = @softplus's %0
    StableHlo.TRef.binary (.of main_v107 : StableHlo.TRef sig ⟨S_, .f32⟩) main_call6.cst main_call6.v1 subf,   -- 213: %129 = @softplus's %1
    StableHlo.TRef.binary main_call6.v1 main_call6.v1 main_call6.v2 (cmpf .une),   -- 214: %129 = @softplus's %2
    StableHlo.TRef.binary (.of main_v107 : StableHlo.TRef sig ⟨S_, .f32⟩) main_call6.cst main_call6.v3 addf,   -- 215: %129 = @softplus's %3
    StableHlo.TRef.unary main_call6.v1 main_call6.v4 Host.absf,   -- 216: %129 = @softplus's %4
    StableHlo.TRef.unary main_call6.v4 main_call6.v5 Host.negf,   -- 217: %129 = @softplus's %5
    StableHlo.TRef.unary main_call6.v5 main_call6.v6 Host.exp,   -- 218: %129 = @softplus's %6
    StableHlo.TRef.unary main_call6.v6 main_call6.v7 Host.log1p,   -- 219: %129 = @softplus's %7
    StableHlo.TRef.binary main_call6.v0 main_call6.v7 main_call6.v8 addf,   -- 220: %129 = @softplus's %8
    StableHlo.TRef.ternary main_call6.v2 main_call6.v3 main_call6.v8 main_call6.v9 select,   -- 221: %129 = @softplus's %9
    StableHlo.unary main_v113 main_v130 (broadcastInDim S1x22 ![1] bcast_S22_S1x22_1 : (⟨S22, .f32⟩ : BufTy).Contents (Elt F) → (⟨S1x22, .f32⟩ : BufTy).Contents (Elt F)),   -- 222: %130
    StableHlo.unary main_v130 main_v131 (broadcastInDim S3200000x22 ![0, 1] bcast_S1x22_S3200000x22_0_1 : (⟨S1x22, .f32⟩ : BufTy).Contents (Elt F) → (⟨S3200000x22, .f32⟩ : BufTy).Contents (Elt F)),   -- 223: %131
    StableHlo.binary main_v131 main_v128 main_v132 (mulf : (⟨S3200000x22, .f32⟩ : BufTy).Contents (Elt F) → (⟨S3200000x22, .f32⟩ : BufTy).Contents (Elt F) → (⟨S3200000x22, .f32⟩ : BufTy).Contents (Elt F)),   -- 224: %132
    StableHlo.nullary main_cst_24 (constant S_ .f32 0xFF800000#32),   -- 225: %cst_24
    StableHlo.binary main_v132 main_cst_24 main_v133 ((fun x v => Host.reduce FloatOps.maximumf x v reducesTo_S3200000x22_S3200000_d1 h_S_) : (⟨S3200000x22, .f32⟩ : BufTy).Contents (Elt F) → (⟨S_, .f32⟩ : BufTy).Contents (Elt F) → (⟨S3200000, .f32⟩ : BufTy).Contents (Elt F)),   -- 226: %133
    StableHlo.nullary main_cst_25 (constant S_ .f32 0xFF800000#32),   -- 227: %cst_25
    StableHlo.unary main_cst_25 main_v134 (broadcastInDim S3200000 ![] bcast_S_S3200000 : (⟨S_, .f32⟩ : BufTy).Contents (Elt F) → (⟨S3200000, .f32⟩ : BufTy).Contents (Elt F)),   -- 228: %134
    StableHlo.binary main_v134 main_v133 main_v135 (maximumf : (⟨S3200000, .f32⟩ : BufTy).Contents (Elt F) → (⟨S3200000, .f32⟩ : BufTy).Contents (Elt F) → (⟨S3200000, .f32⟩ : BufTy).Contents (Elt F)),   -- 229: %135
    StableHlo.unary main_v135 main_v136 (broadcastInDim S3200000x1 ![0] bcast_S3200000_S3200000x1_0 : (⟨S3200000, .f32⟩ : BufTy).Contents (Elt F) → (⟨S3200000x1, .f32⟩ : BufTy).Contents (Elt F)),   -- 230: %136
    StableHlo.unary main_v136 main_v137 (broadcastInDim S3200000x22 ![0, 1] bcast_S3200000x1_S3200000x22_0_1 : (⟨S3200000x1, .f32⟩ : BufTy).Contents (Elt F) → (⟨S3200000x22, .f32⟩ : BufTy).Contents (Elt F)),   -- 231: %137
    StableHlo.binary main_v132 main_v137 main_v138 (subf : (⟨S3200000x22, .f32⟩ : BufTy).Contents (Elt F) → (⟨S3200000x22, .f32⟩ : BufTy).Contents (Elt F) → (⟨S3200000x22, .f32⟩ : BufTy).Contents (Elt F)),   -- 232: %138
    StableHlo.unary main_v138 main_v139 (Host.exp : (⟨S3200000x22, .f32⟩ : BufTy).Contents (Elt F) → (⟨S3200000x22, .f32⟩ : BufTy).Contents (Elt F)),   -- 233: %139
    StableHlo.nullary main_cst_26 (constant S_ .f32 0x00000000#32),   -- 234: %cst_26
    StableHlo.binary main_v139 main_cst_26 main_v140 ((fun x v => Host.reduceAdd x v reducesTo_S3200000x22_S3200000_d1 h_S_) : (⟨S3200000x22, .f32⟩ : BufTy).Contents (Elt F) → (⟨S_, .f32⟩ : BufTy).Contents (Elt F) → (⟨S3200000, .f32⟩ : BufTy).Contents (Elt F)),   -- 235: %140
    StableHlo.unary main_v140 main_v141 (broadcastInDim S3200000x1 ![0] bcast_S3200000_S3200000x1_0 : (⟨S3200000, .f32⟩ : BufTy).Contents (Elt F) → (⟨S3200000x1, .f32⟩ : BufTy).Contents (Elt F)),   -- 236: %141
    StableHlo.unary main_v141 main_v142 (broadcastInDim S3200000x22 ![0, 1] bcast_S3200000x1_S3200000x22_0_1 : (⟨S3200000x1, .f32⟩ : BufTy).Contents (Elt F) → (⟨S3200000x22, .f32⟩ : BufTy).Contents (Elt F)),   -- 237: %142
    StableHlo.binary main_v139 main_v142 main_v143 (Host.divf : (⟨S3200000x22, .f32⟩ : BufTy).Contents (Elt F) → (⟨S3200000x22, .f32⟩ : BufTy).Contents (Elt F) → (⟨S3200000x22, .f32⟩ : BufTy).Contents (Elt F)),   -- 238: %143
    StableHlo.unary main_v129 main_v144 (broadcastInDim S3200000x22 ![] bcast_S_S3200000x22 : (⟨S_, .f32⟩ : BufTy).Contents (Elt F) → (⟨S3200000x22, .f32⟩ : BufTy).Contents (Elt F)),   -- 239: %144
    StableHlo.binary main_v144 main_v143 main_v145 (mulf : (⟨S3200000x22, .f32⟩ : BufTy).Contents (Elt F) → (⟨S3200000x22, .f32⟩ : BufTy).Contents (Elt F) → (⟨S3200000x22, .f32⟩ : BufTy).Contents (Elt F)),   -- 240: %145
    StableHlo.unary main_v113 main_v146 (broadcastInDim S1x22 ![1] bcast_S22_S1x22_1 : (⟨S22, .f32⟩ : BufTy).Contents (Elt F) → (⟨S1x22, .f32⟩ : BufTy).Contents (Elt F)),   -- 241: %146
    StableHlo.unary main_v146 main_v147 (broadcastInDim S3200000x22 ![0, 1] bcast_S1x22_S3200000x22_0_1 : (⟨S1x22, .f32⟩ : BufTy).Contents (Elt F) → (⟨S3200000x22, .f32⟩ : BufTy).Contents (Elt F)),   -- 242: %147
    StableHlo.binary main_v145 main_v147 main_v148 (mulf : (⟨S3200000x22, .f32⟩ : BufTy).Contents (Elt F) → (⟨S3200000x22, .f32⟩ : BufTy).Contents (Elt F) → (⟨S3200000x22, .f32⟩ : BufTy).Contents (Elt F)),   -- 243: %148
    StableHlo.unary main_v148 main_v149 ((extractStridedSlice S3200000x10 ![0, 0] · slices_S3200000x22_S3200000x10_0_0) : (⟨S3200000x22, .f32⟩ : BufTy).Contents (Elt F) → (⟨S3200000x10, .f32⟩ : BufTy).Contents (Elt F)),   -- 244: %149
    StableHlo.nullary main_c_27 (constantI S_ 32 0#32) ]   -- 245: %c_27

/-- Operations 246 … 263 (%150 … %164): layer 2. -/
abbrev q5 : List (HloOp τ sig (Elt F)) :=
  [ StableHlo.unary main_c_27 main_v150 (broadcastInDim S3200000 ![] bcast_S_S3200000 : (⟨S_, .i32⟩ : BufTy).Contents (Elt F) → (⟨S3200000, .i32⟩ : BufTy).Contents (Elt F)),   -- 246: %150
    StableHlo.binary main_arg7 main_v150 main_v151 (cmpi .slt : (⟨S3200000, .i32⟩ : BufTy).Contents (Elt F) → (⟨S3200000, .i32⟩ : BufTy).Contents (Elt F) → (⟨S3200000, .i1⟩ : BufTy).Contents (Elt F)),   -- 247: %151
    StableHlo.nullary main_c_28 (constantI S_ 32 100000#32),   -- 248: %c_28
    StableHlo.unary main_c_28 main_v152 (broadcastInDim S3200000 ![] bcast_S_S3200000 : (⟨S_, .i32⟩ : BufTy).Contents (Elt F) → (⟨S3200000, .i32⟩ : BufTy).Contents (Elt F)),   -- 249: %152
    StableHlo.binary main_arg7 main_v152 main_v153 (addi : (⟨S3200000, .i32⟩ : BufTy).Contents (Elt F) → (⟨S3200000, .i32⟩ : BufTy).Contents (Elt F) → (⟨S3200000, .i32⟩ : BufTy).Contents (Elt F)),   -- 250: %153
    StableHlo.ternary main_v151 main_v153 main_arg7 main_v154 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 251: %154
    StableHlo.unary main_v154 main_v155 (broadcastInDim S3200000x1 ![0] bcast_S3200000_S3200000x1_0 : (⟨S3200000, .i32⟩ : BufTy).Contents (Elt F) → (⟨S3200000x1, .i32⟩ : BufTy).Contents (Elt F)),   -- 252: %155
    StableHlo.ternary main_v105 main_v155 main_v149 main_v156 ((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)),   -- 253: %156
    StableHlo.unary main_v148 main_v157 ((extractStridedSlice S3200000x10 ![0, 10] · slices_S3200000x22_S3200000x10_0_10) : (⟨S3200000x22, .f32⟩ : BufTy).Contents (Elt F) → (⟨S3200000x10, .f32⟩ : BufTy).Contents (Elt F)),   -- 254: %157
    StableHlo.nullary main_c_29 (constantI S_ 32 0#32),   -- 255: %c_29
    StableHlo.unary main_c_29 main_v158 (broadcastInDim S3200000 ![] bcast_S_S3200000 : (⟨S_, .i32⟩ : BufTy).Contents (Elt F) → (⟨S3200000, .i32⟩ : BufTy).Contents (Elt F)),   -- 256: %158
    StableHlo.binary main_arg8 main_v158 main_v159 (cmpi .slt : (⟨S3200000, .i32⟩ : BufTy).Contents (Elt F) → (⟨S3200000, .i32⟩ : BufTy).Contents (Elt F) → (⟨S3200000, .i1⟩ : BufTy).Contents (Elt F)),   -- 257: %159
    StableHlo.nullary main_c_30 (constantI S_ 32 100000#32),   -- 258: %c_30
    StableHlo.unary main_c_30 main_v160 (broadcastInDim S3200000 ![] bcast_S_S3200000 : (⟨S_, .i32⟩ : BufTy).Contents (Elt F) → (⟨S3200000, .i32⟩ : BufTy).Contents (Elt F)),   -- 259: %160
    StableHlo.binary main_arg8 main_v160 main_v161 (addi : (⟨S3200000, .i32⟩ : BufTy).Contents (Elt F) → (⟨S3200000, .i32⟩ : BufTy).Contents (Elt F) → (⟨S3200000, .i32⟩ : BufTy).Contents (Elt F)),   -- 260: %161
    StableHlo.ternary main_v159 main_v161 main_arg8 main_v162 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 261: %162
    StableHlo.unary main_v162 main_v163 (broadcastInDim S3200000x1 ![0] bcast_S3200000_S3200000x1_0 : (⟨S3200000, .i32⟩ : BufTy).Contents (Elt F) → (⟨S3200000x1, .i32⟩ : BufTy).Contents (Elt F)),   -- 262: %163
    StableHlo.ternary main_v156 main_v163 main_v157 main_v164 ((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)) ]   -- 263: %164

/-- Operations 264 … 337 (%165 … %196): layer 3. -/
abbrev q6 : List (HloOp τ sig (Elt F)) :=
  [ StableHlo.unary main_arg6 main_v165 ((extractStridedSlice S1 ![2] · slices_S3_S1_2) : (⟨S3, .f32⟩ : BufTy).Contents (Elt F) → (⟨S1, .f32⟩ : BufTy).Contents (Elt F)),   -- 264: %165
    StableHlo.reshape main_v165 main_v166 rfl shapeCasts_S1_S_,   -- 265: %166
    StableHlo.nullary main_v167 (iotaInDim S22 32 0),   -- 266: %167
    StableHlo.nullary main_c_31 (constantI S_ 32 2#32),   -- 267: %c_31
    StableHlo.TRef.unary (.of main_c_31 : StableHlo.TRef sig ⟨S_, .i32⟩) main_call7.v0 id,   -- 268: %168 = @remainder's %0
    StableHlo.TRef.nullary main_call7.c (constantI S_ 32 0#32),   -- 269: %168 = @remainder's %c
    StableHlo.TRef.binary main_call7.v0 main_call7.c main_call7.v1 (cmpi .eq),   -- 270: %168 = @remainder's %1
    StableHlo.TRef.nullary main_call7.c_0 (constantI S_ 32 1#32),   -- 271: %168 = @remainder's %c_0
    StableHlo.TRef.ternary main_call7.v1 main_call7.c_0 main_call7.v0 main_call7.call0.v0 select,   -- 272: %168 = @remainder's %2 = @_where's %0
    StableHlo.TRef.unary main_call7.call0.v0 main_call7.v3 (broadcastInDim S22 ![] bcast_S_S22),   -- 273: %168 = @remainder's %3
    StableHlo.TRef.binary (.of main_v167 : StableHlo.TRef sig ⟨S22, .i32⟩) main_call7.v3 main_call7.v4 Host.remsi,   -- 274: %168 = @remainder's %4
    StableHlo.TRef.nullary main_call7.c_1 (constantI S_ 32 0#32),   -- 275: %168 = @remainder's %c_1
    StableHlo.TRef.unary main_call7.c_1 main_call7.v5 (broadcastInDim S22 ![] bcast_S_S22),   -- 276: %168 = @remainder's %5
    StableHlo.TRef.binary main_call7.v4 main_call7.v5 main_call7.v6 (cmpi .ne),   -- 277: %168 = @remainder's %6
    StableHlo.TRef.nullary main_call7.c_2 (constantI S_ 32 0#32),   -- 278: %168 = @remainder's %c_2
    StableHlo.TRef.unary main_call7.c_2 main_call7.v7 (broadcastInDim S22 ![] bcast_S_S22),   -- 279: %168 = @remainder's %7
    StableHlo.TRef.binary main_call7.v4 main_call7.v7 main_call7.v8 (cmpi .slt),   -- 280: %168 = @remainder's %8
    StableHlo.TRef.nullary main_call7.c_3 (constantI S_ 32 0#32),   -- 281: %168 = @remainder's %c_3
    StableHlo.TRef.binary main_call7.call0.v0 main_call7.c_3 main_call7.v9 (cmpi .slt),   -- 282: %168 = @remainder's %9
    StableHlo.TRef.unary main_call7.v9 main_call7.v10 (broadcastInDim S22 ![] bcast_S_S22),   -- 283: %168 = @remainder's %10
    StableHlo.TRef.binary main_call7.v8 main_call7.v10 main_call7.v11 (cmpi .ne),   -- 284: %168 = @remainder's %11
    StableHlo.TRef.binary main_call7.v11 main_call7.v6 main_call7.v12 andi,   -- 285: %168 = @remainder's %12
    StableHlo.TRef.unary main_call7.call0.v0 main_call7.v13 (broadcastInDim S22 ![] bcast_S_S22),   -- 286: %168 = @remainder's %13
    StableHlo.TRef.binary main_call7.v4 main_call7.v13 main_call7.v14 addi,   -- 287: %168 = @remainder's %14
    StableHlo.TRef.ternary main_call7.v12 main_call7.v14 main_call7.v4 main_call7.v15 select,   -- 288: %168 = @remainder's %15
    StableHlo.nullary main_c_32 (constantI S_ 32 0#32),   -- 289: %c_32
    StableHlo.unary main_c_32 main_v169 (broadcastInDim S22 ![] bcast_S_S22 : (⟨S_, .i32⟩ : BufTy).Contents (Elt F) → (⟨S22, .i32⟩ : BufTy).Contents (Elt F)),   -- 290: %169
    StableHlo.binary main_v168 main_v169 main_v170 (cmpi .eq : (⟨S22, .i32⟩ : BufTy).Contents (Elt F) → (⟨S22, .i32⟩ : BufTy).Contents (Elt F) → (⟨S22, .i1⟩ : BufTy).Contents (Elt F)),   -- 291: %170
    StableHlo.nullary main_cst_33 (constant S_ .f32 0x3F800000#32),   -- 292: %cst_33
    StableHlo.nullary main_cst_34 (constant S_ .f32 0xBF800000#32),   -- 293: %cst_34
    StableHlo.TRef.unary (.of main_cst_33 : StableHlo.TRef sig ⟨S_, .f32⟩) main_call8.v0 (broadcastInDim S22 ![] bcast_S_S22),   -- 294: %171 = @_where_0's %0
    StableHlo.TRef.unary (.of main_cst_34 : StableHlo.TRef sig ⟨S_, .f32⟩) main_call8.v1 (broadcastInDim S22 ![] bcast_S_S22),   -- 295: %171 = @_where_0's %1
    StableHlo.TRef.ternary (.of main_v170 : StableHlo.TRef sig ⟨S22, .i1⟩) main_call8.v0 main_call8.v1 main_call8.v2 select,   -- 296: %171 = @_where_0's %2
    StableHlo.unary main_v171 main_v172 (id : (⟨S22, .f32⟩ : BufTy).Contents (Elt F) → (⟨S22, .f32⟩ : BufTy).Contents (Elt F)),   -- 297: %172
    StableHlo.nullary main_c_35 (constantI S_ 32 0#32),   -- 298: %c_35
    StableHlo.unary main_c_35 main_v173 (broadcastInDim S3200000 ![] bcast_S_S3200000 : (⟨S_, .i32⟩ : BufTy).Contents (Elt F) → (⟨S3200000, .i32⟩ : BufTy).Contents (Elt F)),   -- 299: %173
    StableHlo.binary main_arg7 main_v173 main_v174 (cmpi .slt : (⟨S3200000, .i32⟩ : BufTy).Contents (Elt F) → (⟨S3200000, .i32⟩ : BufTy).Contents (Elt F) → (⟨S3200000, .i1⟩ : BufTy).Contents (Elt F)),   -- 300: %174
    StableHlo.nullary main_c_36 (constantI S_ 32 100000#32),   -- 301: %c_36
    StableHlo.unary main_c_36 main_v175 (broadcastInDim S3200000 ![] bcast_S_S3200000 : (⟨S_, .i32⟩ : BufTy).Contents (Elt F) → (⟨S3200000, .i32⟩ : BufTy).Contents (Elt F)),   -- 302: %175
    StableHlo.binary main_arg7 main_v175 main_v176 (addi : (⟨S3200000, .i32⟩ : BufTy).Contents (Elt F) → (⟨S3200000, .i32⟩ : BufTy).Contents (Elt F) → (⟨S3200000, .i32⟩ : BufTy).Contents (Elt F)),   -- 303: %176
    StableHlo.ternary main_v174 main_v176 main_arg7 main_v177 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 304: %177
    StableHlo.unary main_v177 main_v178 (broadcastInDim S3200000x1 ![0] bcast_S3200000_S3200000x1_0 : (⟨S3200000, .i32⟩ : BufTy).Contents (Elt F) → (⟨S3200000x1, .i32⟩ : BufTy).Contents (Elt F)),   -- 305: %178
    StableHlo.binary main_v164 main_v178 main_v179 ((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)),   -- 306: %179
    StableHlo.nullary main_c_37 (constantI S_ 32 0#32),   -- 307: %c_37
    StableHlo.unary main_c_37 main_v180 (broadcastInDim S3200000 ![] bcast_S_S3200000 : (⟨S_, .i32⟩ : BufTy).Contents (Elt F) → (⟨S3200000, .i32⟩ : BufTy).Contents (Elt F)),   -- 308: %180
    StableHlo.binary main_arg8 main_v180 main_v181 (cmpi .slt : (⟨S3200000, .i32⟩ : BufTy).Contents (Elt F) → (⟨S3200000, .i32⟩ : BufTy).Contents (Elt F) → (⟨S3200000, .i1⟩ : BufTy).Contents (Elt F)),   -- 309: %181
    StableHlo.nullary main_c_38 (constantI S_ 32 100000#32),   -- 310: %c_38
    StableHlo.unary main_c_38 main_v182 (broadcastInDim S3200000 ![] bcast_S_S3200000 : (⟨S_, .i32⟩ : BufTy).Contents (Elt F) → (⟨S3200000, .i32⟩ : BufTy).Contents (Elt F)),   -- 311: %182
    StableHlo.binary main_arg8 main_v182 main_v183 (addi : (⟨S3200000, .i32⟩ : BufTy).Contents (Elt F) → (⟨S3200000, .i32⟩ : BufTy).Contents (Elt F) → (⟨S3200000, .i32⟩ : BufTy).Contents (Elt F)),   -- 312: %183
    StableHlo.ternary main_v181 main_v183 main_arg8 main_v184 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 313: %184
    StableHlo.unary main_v184 main_v185 (broadcastInDim S3200000x1 ![0] bcast_S3200000_S3200000x1_0 : (⟨S3200000, .i32⟩ : BufTy).Contents (Elt F) → (⟨S3200000x1, .i32⟩ : BufTy).Contents (Elt F)),   -- 314: %185
    StableHlo.binary main_v164 main_v185 main_v186 ((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)),   -- 315: %186
    StableHlo.nary ![main_v179, main_v186, main_arg1] main_v187 (fun u => concatenate S3200000x22 1 [⟨S3200000x10, u 0⟩, ⟨S3200000x10, u 1⟩, ⟨S3200000x2, u 2⟩] concatenates_S3200000x10_S3200000x10_S3200000x2_S3200000x22_d1),   -- 316: %187
    StableHlo.TRef.nullary main_call9.cst (constant S_ .f32 0x00000000#32),   -- 317: %188 = @softplus's %cst
    StableHlo.TRef.binary (.of main_v166 : StableHlo.TRef sig ⟨S_, .f32⟩) main_call9.cst main_call9.v0 maximumf,   -- 318: %188 = @softplus's %0
    StableHlo.TRef.binary (.of main_v166 : StableHlo.TRef sig ⟨S_, .f32⟩) main_call9.cst main_call9.v1 subf,   -- 319: %188 = @softplus's %1
    StableHlo.TRef.binary main_call9.v1 main_call9.v1 main_call9.v2 (cmpf .une),   -- 320: %188 = @softplus's %2
    StableHlo.TRef.binary (.of main_v166 : StableHlo.TRef sig ⟨S_, .f32⟩) main_call9.cst main_call9.v3 addf,   -- 321: %188 = @softplus's %3
    StableHlo.TRef.unary main_call9.v1 main_call9.v4 Host.absf,   -- 322: %188 = @softplus's %4
    StableHlo.TRef.unary main_call9.v4 main_call9.v5 Host.negf,   -- 323: %188 = @softplus's %5
    StableHlo.TRef.unary main_call9.v5 main_call9.v6 Host.exp,   -- 324: %188 = @softplus's %6
    StableHlo.TRef.unary main_call9.v6 main_call9.v7 Host.log1p,   -- 325: %188 = @softplus's %7
    StableHlo.TRef.binary main_call9.v0 main_call9.v7 main_call9.v8 addf,   -- 326: %188 = @softplus's %8
    StableHlo.TRef.ternary main_call9.v2 main_call9.v3 main_call9.v8 main_call9.v9 select,   -- 327: %188 = @softplus's %9
    StableHlo.unary main_v172 main_v189 (broadcastInDim S1x22 ![1] bcast_S22_S1x22_1 : (⟨S22, .f32⟩ : BufTy).Contents (Elt F) → (⟨S1x22, .f32⟩ : BufTy).Contents (Elt F)),   -- 328: %189
    StableHlo.unary main_v189 main_v190 (broadcastInDim S3200000x22 ![0, 1] bcast_S1x22_S3200000x22_0_1 : (⟨S1x22, .f32⟩ : BufTy).Contents (Elt F) → (⟨S3200000x22, .f32⟩ : BufTy).Contents (Elt F)),   -- 329: %190
    StableHlo.binary main_v190 main_v187 main_v191 (mulf : (⟨S3200000x22, .f32⟩ : BufTy).Contents (Elt F) → (⟨S3200000x22, .f32⟩ : BufTy).Contents (Elt F) → (⟨S3200000x22, .f32⟩ : BufTy).Contents (Elt F)),   -- 330: %191
    StableHlo.nullary main_cst_39 (constant S_ .f32 0xFF800000#32),   -- 331: %cst_39
    StableHlo.binary main_v191 main_cst_39 main_v192 ((fun x v => Host.reduce FloatOps.maximumf x v reducesTo_S3200000x22_S3200000_d1 h_S_) : (⟨S3200000x22, .f32⟩ : BufTy).Contents (Elt F) → (⟨S_, .f32⟩ : BufTy).Contents (Elt F) → (⟨S3200000, .f32⟩ : BufTy).Contents (Elt F)),   -- 332: %192
    StableHlo.nullary main_cst_40 (constant S_ .f32 0xFF800000#32),   -- 333: %cst_40
    StableHlo.unary main_cst_40 main_v193 (broadcastInDim S3200000 ![] bcast_S_S3200000 : (⟨S_, .f32⟩ : BufTy).Contents (Elt F) → (⟨S3200000, .f32⟩ : BufTy).Contents (Elt F)),   -- 334: %193
    StableHlo.binary main_v193 main_v192 main_v194 (maximumf : (⟨S3200000, .f32⟩ : BufTy).Contents (Elt F) → (⟨S3200000, .f32⟩ : BufTy).Contents (Elt F) → (⟨S3200000, .f32⟩ : BufTy).Contents (Elt F)),   -- 335: %194
    StableHlo.unary main_v194 main_v195 (broadcastInDim S3200000x1 ![0] bcast_S3200000_S3200000x1_0 : (⟨S3200000, .f32⟩ : BufTy).Contents (Elt F) → (⟨S3200000x1, .f32⟩ : BufTy).Contents (Elt F)),   -- 336: %195
    StableHlo.unary main_v195 main_v196 (broadcastInDim S3200000x22 ![0, 1] bcast_S3200000x1_S3200000x22_0_1 : (⟨S3200000x1, .f32⟩ : BufTy).Contents (Elt F) → (⟨S3200000x22, .f32⟩ : BufTy).Contents (Elt F)) ]   -- 337: %196

/-- Operations 338 … 369 (%197 … %223): layer 3. -/
abbrev q7 : List (HloOp τ sig (Elt F)) :=
  [ StableHlo.binary main_v191 main_v196 main_v197 (subf : (⟨S3200000x22, .f32⟩ : BufTy).Contents (Elt F) → (⟨S3200000x22, .f32⟩ : BufTy).Contents (Elt F) → (⟨S3200000x22, .f32⟩ : BufTy).Contents (Elt F)),   -- 338: %197
    StableHlo.unary main_v197 main_v198 (Host.exp : (⟨S3200000x22, .f32⟩ : BufTy).Contents (Elt F) → (⟨S3200000x22, .f32⟩ : BufTy).Contents (Elt F)),   -- 339: %198
    StableHlo.nullary main_cst_41 (constant S_ .f32 0x00000000#32),   -- 340: %cst_41
    StableHlo.binary main_v198 main_cst_41 main_v199 ((fun x v => Host.reduceAdd x v reducesTo_S3200000x22_S3200000_d1 h_S_) : (⟨S3200000x22, .f32⟩ : BufTy).Contents (Elt F) → (⟨S_, .f32⟩ : BufTy).Contents (Elt F) → (⟨S3200000, .f32⟩ : BufTy).Contents (Elt F)),   -- 341: %199
    StableHlo.unary main_v199 main_v200 (broadcastInDim S3200000x1 ![0] bcast_S3200000_S3200000x1_0 : (⟨S3200000, .f32⟩ : BufTy).Contents (Elt F) → (⟨S3200000x1, .f32⟩ : BufTy).Contents (Elt F)),   -- 342: %200
    StableHlo.unary main_v200 main_v201 (broadcastInDim S3200000x22 ![0, 1] bcast_S3200000x1_S3200000x22_0_1 : (⟨S3200000x1, .f32⟩ : BufTy).Contents (Elt F) → (⟨S3200000x22, .f32⟩ : BufTy).Contents (Elt F)),   -- 343: %201
    StableHlo.binary main_v198 main_v201 main_v202 (Host.divf : (⟨S3200000x22, .f32⟩ : BufTy).Contents (Elt F) → (⟨S3200000x22, .f32⟩ : BufTy).Contents (Elt F) → (⟨S3200000x22, .f32⟩ : BufTy).Contents (Elt F)),   -- 344: %202
    StableHlo.unary main_v188 main_v203 (broadcastInDim S3200000x22 ![] bcast_S_S3200000x22 : (⟨S_, .f32⟩ : BufTy).Contents (Elt F) → (⟨S3200000x22, .f32⟩ : BufTy).Contents (Elt F)),   -- 345: %203
    StableHlo.binary main_v203 main_v202 main_v204 (mulf : (⟨S3200000x22, .f32⟩ : BufTy).Contents (Elt F) → (⟨S3200000x22, .f32⟩ : BufTy).Contents (Elt F) → (⟨S3200000x22, .f32⟩ : BufTy).Contents (Elt F)),   -- 346: %204
    StableHlo.unary main_v172 main_v205 (broadcastInDim S1x22 ![1] bcast_S22_S1x22_1 : (⟨S22, .f32⟩ : BufTy).Contents (Elt F) → (⟨S1x22, .f32⟩ : BufTy).Contents (Elt F)),   -- 347: %205
    StableHlo.unary main_v205 main_v206 (broadcastInDim S3200000x22 ![0, 1] bcast_S1x22_S3200000x22_0_1 : (⟨S1x22, .f32⟩ : BufTy).Contents (Elt F) → (⟨S3200000x22, .f32⟩ : BufTy).Contents (Elt F)),   -- 348: %206
    StableHlo.binary main_v204 main_v206 main_v207 (mulf : (⟨S3200000x22, .f32⟩ : BufTy).Contents (Elt F) → (⟨S3200000x22, .f32⟩ : BufTy).Contents (Elt F) → (⟨S3200000x22, .f32⟩ : BufTy).Contents (Elt F)),   -- 349: %207
    StableHlo.unary main_v207 main_v208 ((extractStridedSlice S3200000x10 ![0, 0] · slices_S3200000x22_S3200000x10_0_0) : (⟨S3200000x22, .f32⟩ : BufTy).Contents (Elt F) → (⟨S3200000x10, .f32⟩ : BufTy).Contents (Elt F)),   -- 350: %208
    StableHlo.nullary main_c_42 (constantI S_ 32 0#32),   -- 351: %c_42
    StableHlo.unary main_c_42 main_v209 (broadcastInDim S3200000 ![] bcast_S_S3200000 : (⟨S_, .i32⟩ : BufTy).Contents (Elt F) → (⟨S3200000, .i32⟩ : BufTy).Contents (Elt F)),   -- 352: %209
    StableHlo.binary main_arg7 main_v209 main_v210 (cmpi .slt : (⟨S3200000, .i32⟩ : BufTy).Contents (Elt F) → (⟨S3200000, .i32⟩ : BufTy).Contents (Elt F) → (⟨S3200000, .i1⟩ : BufTy).Contents (Elt F)),   -- 353: %210
    StableHlo.nullary main_c_43 (constantI S_ 32 100000#32),   -- 354: %c_43
    StableHlo.unary main_c_43 main_v211 (broadcastInDim S3200000 ![] bcast_S_S3200000 : (⟨S_, .i32⟩ : BufTy).Contents (Elt F) → (⟨S3200000, .i32⟩ : BufTy).Contents (Elt F)),   -- 355: %211
    StableHlo.binary main_arg7 main_v211 main_v212 (addi : (⟨S3200000, .i32⟩ : BufTy).Contents (Elt F) → (⟨S3200000, .i32⟩ : BufTy).Contents (Elt F) → (⟨S3200000, .i32⟩ : BufTy).Contents (Elt F)),   -- 356: %212
    StableHlo.ternary main_v210 main_v212 main_arg7 main_v213 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 357: %213
    StableHlo.unary main_v213 main_v214 (broadcastInDim S3200000x1 ![0] bcast_S3200000_S3200000x1_0 : (⟨S3200000, .i32⟩ : BufTy).Contents (Elt F) → (⟨S3200000x1, .i32⟩ : BufTy).Contents (Elt F)),   -- 358: %214
    StableHlo.ternary main_v164 main_v214 main_v208 main_v215 ((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)),   -- 359: %215
    StableHlo.unary main_v207 main_v216 ((extractStridedSlice S3200000x10 ![0, 10] · slices_S3200000x22_S3200000x10_0_10) : (⟨S3200000x22, .f32⟩ : BufTy).Contents (Elt F) → (⟨S3200000x10, .f32⟩ : BufTy).Contents (Elt F)),   -- 360: %216
    StableHlo.nullary main_c_44 (constantI S_ 32 0#32),   -- 361: %c_44
    StableHlo.unary main_c_44 main_v217 (broadcastInDim S3200000 ![] bcast_S_S3200000 : (⟨S_, .i32⟩ : BufTy).Contents (Elt F) → (⟨S3200000, .i32⟩ : BufTy).Contents (Elt F)),   -- 362: %217
    StableHlo.binary main_arg8 main_v217 main_v218 (cmpi .slt : (⟨S3200000, .i32⟩ : BufTy).Contents (Elt F) → (⟨S3200000, .i32⟩ : BufTy).Contents (Elt F) → (⟨S3200000, .i1⟩ : BufTy).Contents (Elt F)),   -- 363: %218
    StableHlo.nullary main_c_45 (constantI S_ 32 100000#32),   -- 364: %c_45
    StableHlo.unary main_c_45 main_v219 (broadcastInDim S3200000 ![] bcast_S_S3200000 : (⟨S_, .i32⟩ : BufTy).Contents (Elt F) → (⟨S3200000, .i32⟩ : BufTy).Contents (Elt F)),   -- 365: %219
    StableHlo.binary main_arg8 main_v219 main_v220 (addi : (⟨S3200000, .i32⟩ : BufTy).Contents (Elt F) → (⟨S3200000, .i32⟩ : BufTy).Contents (Elt F) → (⟨S3200000, .i32⟩ : BufTy).Contents (Elt F)),   -- 366: %220
    StableHlo.ternary main_v218 main_v220 main_arg8 main_v221 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 367: %221
    StableHlo.unary main_v221 main_v222 (broadcastInDim S3200000x1 ![0] bcast_S3200000_S3200000x1_0 : (⟨S3200000, .i32⟩ : BufTy).Contents (Elt F) → (⟨S3200000x1, .i32⟩ : BufTy).Contents (Elt F)),   -- 368: %222
    StableHlo.ternary main_v215 main_v222 main_v216 main_v223 ((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)) ]   -- 369: %223

/-- Operations 370 … 397 (%224 … %245): the head. -/
abbrev q8 : List (HloOp τ sig (Elt F)) :=
  [ StableHlo.unary main_v223 main_v224 ((extractStridedSlice S100000x8 ![0, 0] · slices_S100000x10_S100000x8_0_0) : (⟨S100000x10, .f32⟩ : BufTy).Contents (Elt F) → (⟨S100000x8, .f32⟩ : BufTy).Contents (Elt F)),   -- 370: %224
    StableHlo.unary main_v224 main_v225 ((extractStridedSlice S100000x4 ![0, 0] · slices_S100000x8_S100000x4_0_0) : (⟨S100000x8, .f32⟩ : BufTy).Contents (Elt F) → (⟨S100000x4, .f32⟩ : BufTy).Contents (Elt F)),   -- 371: %225
    StableHlo.unary main_v224 main_v226 ((extractStridedSlice S100000x4 ![0, 4] · slices_S100000x8_S100000x4_0_4) : (⟨S100000x8, .f32⟩ : BufTy).Contents (Elt F) → (⟨S100000x4, .f32⟩ : BufTy).Contents (Elt F)),   -- 372: %226
    StableHlo.nullary main_cst_46 (constant S_ .f32 0xFF800000#32),   -- 373: %cst_46
    StableHlo.binary main_v225 main_cst_46 main_v227 ((fun x v => Host.reduce FloatOps.maximumf x v reducesTo_S100000x4_S100000_d1 h_S_) : (⟨S100000x4, .f32⟩ : BufTy).Contents (Elt F) → (⟨S_, .f32⟩ : BufTy).Contents (Elt F) → (⟨S100000, .f32⟩ : BufTy).Contents (Elt F)),   -- 374: %227
    StableHlo.nullary main_cst_47 (constant S_ .f32 0xFF800000#32),   -- 375: %cst_47
    StableHlo.unary main_cst_47 main_v228 (broadcastInDim S100000 ![] bcast_S_S100000 : (⟨S_, .f32⟩ : BufTy).Contents (Elt F) → (⟨S100000, .f32⟩ : BufTy).Contents (Elt F)),   -- 376: %228
    StableHlo.binary main_v228 main_v227 main_v229 (maximumf : (⟨S100000, .f32⟩ : BufTy).Contents (Elt F) → (⟨S100000, .f32⟩ : BufTy).Contents (Elt F) → (⟨S100000, .f32⟩ : BufTy).Contents (Elt F)),   -- 377: %229
    StableHlo.unary main_v229 main_v230 (broadcastInDim S100000x1 ![0] bcast_S100000_S100000x1_0 : (⟨S100000, .f32⟩ : BufTy).Contents (Elt F) → (⟨S100000x1, .f32⟩ : BufTy).Contents (Elt F)),   -- 378: %230
    StableHlo.unary main_v230 main_v231 (broadcastInDim S100000x4 ![0, 1] bcast_S100000x1_S100000x4_0_1 : (⟨S100000x1, .f32⟩ : BufTy).Contents (Elt F) → (⟨S100000x4, .f32⟩ : BufTy).Contents (Elt F)),   -- 379: %231
    StableHlo.binary main_v225 main_v231 main_v232 (subf : (⟨S100000x4, .f32⟩ : BufTy).Contents (Elt F) → (⟨S100000x4, .f32⟩ : BufTy).Contents (Elt F) → (⟨S100000x4, .f32⟩ : BufTy).Contents (Elt F)),   -- 380: %232
    StableHlo.unary main_v232 main_v233 (Host.exp : (⟨S100000x4, .f32⟩ : BufTy).Contents (Elt F) → (⟨S100000x4, .f32⟩ : BufTy).Contents (Elt F)),   -- 381: %233
    StableHlo.nullary main_cst_48 (constant S_ .f32 0x00000000#32),   -- 382: %cst_48
    StableHlo.binary main_v233 main_cst_48 main_v234 ((fun x v => Host.reduceAdd x v reducesTo_S100000x4_S100000_d1 h_S_) : (⟨S100000x4, .f32⟩ : BufTy).Contents (Elt F) → (⟨S_, .f32⟩ : BufTy).Contents (Elt F) → (⟨S100000, .f32⟩ : BufTy).Contents (Elt F)),   -- 383: %234
    StableHlo.unary main_v234 main_v235 (broadcastInDim S100000x1 ![0] bcast_S100000_S100000x1_0 : (⟨S100000, .f32⟩ : BufTy).Contents (Elt F) → (⟨S100000x1, .f32⟩ : BufTy).Contents (Elt F)),   -- 384: %235
    StableHlo.unary main_v235 main_v236 (broadcastInDim S100000x4 ![0, 1] bcast_S100000x1_S100000x4_0_1 : (⟨S100000x1, .f32⟩ : BufTy).Contents (Elt F) → (⟨S100000x4, .f32⟩ : BufTy).Contents (Elt F)),   -- 385: %236
    StableHlo.binary main_v233 main_v236 main_v237 (Host.divf : (⟨S100000x4, .f32⟩ : BufTy).Contents (Elt F) → (⟨S100000x4, .f32⟩ : BufTy).Contents (Elt F) → (⟨S100000x4, .f32⟩ : BufTy).Contents (Elt F)),   -- 386: %237
    StableHlo.nullary main_cst_49 (constant S_ .f32 0xFF800000#32),   -- 387: %cst_49
    StableHlo.binary main_v226 main_cst_49 main_v238 ((fun x v => Host.reduce FloatOps.maximumf x v reducesTo_S100000x4_S100000_d1 h_S_) : (⟨S100000x4, .f32⟩ : BufTy).Contents (Elt F) → (⟨S_, .f32⟩ : BufTy).Contents (Elt F) → (⟨S100000, .f32⟩ : BufTy).Contents (Elt F)),   -- 388: %238
    StableHlo.nullary main_cst_50 (constant S_ .f32 0xFF800000#32),   -- 389: %cst_50
    StableHlo.unary main_cst_50 main_v239 (broadcastInDim S100000 ![] bcast_S_S100000 : (⟨S_, .f32⟩ : BufTy).Contents (Elt F) → (⟨S100000, .f32⟩ : BufTy).Contents (Elt F)),   -- 390: %239
    StableHlo.binary main_v239 main_v238 main_v240 (maximumf : (⟨S100000, .f32⟩ : BufTy).Contents (Elt F) → (⟨S100000, .f32⟩ : BufTy).Contents (Elt F) → (⟨S100000, .f32⟩ : BufTy).Contents (Elt F)),   -- 391: %240
    StableHlo.unary main_v240 main_v241 (broadcastInDim S100000x1 ![0] bcast_S100000_S100000x1_0 : (⟨S100000, .f32⟩ : BufTy).Contents (Elt F) → (⟨S100000x1, .f32⟩ : BufTy).Contents (Elt F)),   -- 392: %241
    StableHlo.unary main_v241 main_v242 (broadcastInDim S100000x4 ![0, 1] bcast_S100000x1_S100000x4_0_1 : (⟨S100000x1, .f32⟩ : BufTy).Contents (Elt F) → (⟨S100000x4, .f32⟩ : BufTy).Contents (Elt F)),   -- 393: %242
    StableHlo.binary main_v226 main_v242 main_v243 (subf : (⟨S100000x4, .f32⟩ : BufTy).Contents (Elt F) → (⟨S100000x4, .f32⟩ : BufTy).Contents (Elt F) → (⟨S100000x4, .f32⟩ : BufTy).Contents (Elt F)),   -- 394: %243
    StableHlo.unary main_v243 main_v244 (Host.exp : (⟨S100000x4, .f32⟩ : BufTy).Contents (Elt F) → (⟨S100000x4, .f32⟩ : BufTy).Contents (Elt F)),   -- 395: %244
    StableHlo.nullary main_cst_51 (constant S_ .f32 0x00000000#32),   -- 396: %cst_51
    StableHlo.binary main_v244 main_cst_51 main_v245 ((fun x v => Host.reduceAdd x v reducesTo_S100000x4_S100000_d1 h_S_) : (⟨S100000x4, .f32⟩ : BufTy).Contents (Elt F) → (⟨S_, .f32⟩ : BufTy).Contents (Elt F) → (⟨S100000, .f32⟩ : BufTy).Contents (Elt F)) ]   -- 397: %245

/-- Operations 398 … 400 (%246 … %248): the head. -/
abbrev q9 : List (HloOp τ sig (Elt F)) :=
  [ StableHlo.unary main_v245 main_v246 (broadcastInDim S100000x1 ![0] bcast_S100000_S100000x1_0 : (⟨S100000, .f32⟩ : BufTy).Contents (Elt F) → (⟨S100000x1, .f32⟩ : BufTy).Contents (Elt F)),   -- 398: %246
    StableHlo.unary main_v246 main_v247 (broadcastInDim S100000x4 ![0, 1] bcast_S100000x1_S100000x4_0_1 : (⟨S100000x1, .f32⟩ : BufTy).Contents (Elt F) → (⟨S100000x4, .f32⟩ : BufTy).Contents (Elt F)),   -- 399: %247
    StableHlo.binary main_v244 main_v247 main_v248 (Host.divf : (⟨S100000x4, .f32⟩ : BufTy).Contents (Elt F) → (⟨S100000x4, .f32⟩ : BufTy).Contents (Elt F) → (⟨S100000x4, .f32⟩ : BufTy).Contents (Elt F)) ]   -- 400: %248

end Cert.ReferenceIdeal.HostRun

end
-- ==== Proof.RefOps.lean ====
import proofs.«140184_j29661044146691_2_alg».proof.Proof.RefOpsTable

/-! The reference program's run. Its @main is a straight line of 401 host operations once each called function's body
    stands at its call site (a call is the callee's lines over the call's buffer record), so every weakly fair
    execution terminates with each buffer at the fold of the operations' results over the launch contents. The line
    is cut at the boundaries of the five stages (the perceptron, the three relational layers, the head). -/

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The perceptron and the concatenation with the two geometric columns: through %46. -/
abbrev opsMlp : List (HloOp τ sig (Elt F)) := q0
/-- Layer 1: through its second scatter %105. -/
abbrev opsL1 : List (HloOp τ sig (Elt F)) := q1 ++ q2 ++ q3
/-- Layer 2: through its second scatter %164. -/
abbrev opsL2 : List (HloOp τ sig (Elt F)) := q4 ++ q5
/-- Layer 3: through its second scatter %223. -/
abbrev opsL3 : List (HloOp τ sig (Elt F)) := q6 ++ q7
/-- The head: the slice to eight columns and the two softmaxes over four. -/
abbrev opsHead : List (HloOp τ sig (Elt F)) := q8 ++ q9

/-- Every operation of @main, in order. -/
abbrev ops : List (HloOp τ sig (Elt F)) := opsMlp ++ opsL1 ++ opsL2 ++ opsL3 ++ opsHead

/-! ## @main is that line

Each printed window of @main is the line of the pieces it spans: a called function's definition unfolds to its own
lines, and sequencing re-associates by computation. -/

set_option maxRecDepth 8192 in
theorem part0_eq (c : Dev nD) : main_part0 (F := F) c = seq (q0 ++ q1) := rfl
set_option maxRecDepth 8192 in
theorem part1_eq (c : Dev nD) : main_part1 (F := F) c = seq q2 := rfl
set_option maxRecDepth 8192 in
theorem part2_eq (c : Dev nD) : main_part2 (F := F) c = seq (q3 ++ q4) := rfl
set_option maxRecDepth 8192 in
theorem part3_eq (c : Dev nD) : main_part3 (F := F) c = seq (q5 ++ q6) := rfl
set_option maxRecDepth 8192 in
theorem part4_eq (c : Dev nD) : main_part4 (F := F) c = seq (q7 ++ q8) := rfl
set_option maxRecDepth 8192 in
theorem part5_eq (c : Dev nD) : main_part5 (F := F) c = seq q9 := rfl

theorem main_eq (c : Dev nD) : main (F := F) c = seq ops := by
  simp only [main, part0_eq, part1_eq, part2_eq, part3_eq, part4_eq, part5_eq, ops, opsMlp, opsL1, opsL2, opsL3, opsHead,
    seq_append, bind_assoc]

/-! ## The line's side conditions

Nothing of the signature is scoped; every operation touches TensorCore buffers only and determines what it writes
(none leaves a buffer's contents to the machine). -/

theorem scopedRefs_eq : (Finset.univ.filter fun b : Ref sig .tc => b.isScoped) = ∅ := by decide
theorem scopedSems_eq : (Finset.univ.filter fun sm : SemLoc sig => sm.isScoped .tc) = ∅ := by decide

/-- A piece's operations touch TensorCore buffers only: the builder's fact, once per operation. -/
macro "bufs_sub_piece" : tactic =>
  `(tactic| simp only [List.Forall, nullary_bufs_sub, unary_bufs_sub, binary_bufs_sub, ternary_bufs_sub, reshape_bufs_sub,
      nary_bufs_sub, and_self])

/-- A piece's operations each determine what they write: by computation, once per operation. -/
macro "fresh_piece" : tactic => `(tactic| (simp only [List.Forall]; repeat' constructor))

theorem q0_sub : (q0 : List (HloOp τ sig (Elt F))).Forall fun op => op.bufs ⊆ tcRefs τ sig := by bufs_sub_piece
theorem q1_sub : (q1 : List (HloOp τ sig (Elt F))).Forall fun op => op.bufs ⊆ tcRefs τ sig := by bufs_sub_piece
theorem q2_sub : (q2 : List (HloOp τ sig (Elt F))).Forall fun op => op.bufs ⊆ tcRefs τ sig := by bufs_sub_piece
theorem q3_sub : (q3 : List (HloOp τ sig (Elt F))).Forall fun op => op.bufs ⊆ tcRefs τ sig := by bufs_sub_piece
theorem q4_sub : (q4 : List (HloOp τ sig (Elt F))).Forall fun op => op.bufs ⊆ tcRefs τ sig := by bufs_sub_piece
theorem q5_sub : (q5 : List (HloOp τ sig (Elt F))).Forall fun op => op.bufs ⊆ tcRefs τ sig := by bufs_sub_piece
theorem q6_sub : (q6 : List (HloOp τ sig (Elt F))).Forall fun op => op.bufs ⊆ tcRefs τ sig := by bufs_sub_piece
theorem q7_sub : (q7 : List (HloOp τ sig (Elt F))).Forall fun op => op.bufs ⊆ tcRefs τ sig := by bufs_sub_piece
theorem q8_sub : (q8 : List (HloOp τ sig (Elt F))).Forall fun op => op.bufs ⊆ tcRefs τ sig := by bufs_sub_piece
theorem q9_sub : (q9 : List (HloOp τ sig (Elt F))).Forall fun op => op.bufs ⊆ tcRefs τ sig := by bufs_sub_piece

theorem q0_fresh : (q0 : List (HloOp τ sig (Elt F))).Forall fun op => op.fresh = ∅ := by fresh_piece
theorem q1_fresh : (q1 : List (HloOp τ sig (Elt F))).Forall fun op => op.fresh = ∅ := by fresh_piece
theorem q2_fresh : (q2 : List (HloOp τ sig (Elt F))).Forall fun op => op.fresh = ∅ := by fresh_piece
theorem q3_fresh : (q3 : List (HloOp τ sig (Elt F))).Forall fun op => op.fresh = ∅ := by fresh_piece
theorem q4_fresh : (q4 : List (HloOp τ sig (Elt F))).Forall fun op => op.fresh = ∅ := by fresh_piece
theorem q5_fresh : (q5 : List (HloOp τ sig (Elt F))).Forall fun op => op.fresh = ∅ := by fresh_piece
theorem q6_fresh : (q6 : List (HloOp τ sig (Elt F))).Forall fun op => op.fresh = ∅ := by fresh_piece
theorem q7_fresh : (q7 : List (HloOp τ sig (Elt F))).Forall fun op => op.fresh = ∅ := by fresh_piece
theorem q8_fresh : (q8 : List (HloOp τ sig (Elt F))).Forall fun op => op.fresh = ∅ := by fresh_piece
theorem q9_fresh : (q9 : List (HloOp τ sig (Elt F))).Forall fun op => op.fresh = ∅ := by fresh_piece

/-- Membership in the whole line is membership in one of the ten pieces. -/
theorem mem_ops {op : HloOp τ sig (Elt F)} (h : op ∈ (ops : List (HloOp τ sig (Elt F)))) :
    op ∈ (q0 : List (HloOp τ sig (Elt F))) ∨ op ∈ (q1 : List (HloOp τ sig (Elt F))) ∨ op ∈ (q2 : List (HloOp τ sig (Elt F)))
      ∨ op ∈ (q3 : List (HloOp τ sig (Elt F))) ∨ op ∈ (q4 : List (HloOp τ sig (Elt F))) ∨ op ∈ (q5 : List (HloOp τ sig (Elt F)))
      ∨ op ∈ (q6 : List (HloOp τ sig (Elt F))) ∨ op ∈ (q7 : List (HloOp τ sig (Elt F))) ∨ op ∈ (q8 : List (HloOp τ sig (Elt F)))
      ∨ op ∈ (q9 : List (HloOp τ sig (Elt F))) := by
  simpa only [ops, opsMlp, opsL1, opsL2, opsL3, opsHead, List.mem_append, or_assoc] using h

theorem ops_sub : (ops : List (HloOp τ sig (Elt F))).Forall fun op => op.bufs ⊆ tcRefs τ sig :=
  List.forall_iff_forall_mem.mpr fun op h => by
    rcases mem_ops h with h | h | h | h | h | h | h | h | h | h
    exacts [List.forall_iff_forall_mem.mp q0_sub op h, List.forall_iff_forall_mem.mp q1_sub op h,
      List.forall_iff_forall_mem.mp q2_sub op h, List.forall_iff_forall_mem.mp q3_sub op h,
      List.forall_iff_forall_mem.mp q4_sub op h, List.forall_iff_forall_mem.mp q5_sub op h,
      List.forall_iff_forall_mem.mp q6_sub op h, List.forall_iff_forall_mem.mp q7_sub op h,
      List.forall_iff_forall_mem.mp q8_sub op h, List.forall_iff_forall_mem.mp q9_sub op h]

theorem ops_fresh : ∀ op ∈ (ops : List (HloOp τ sig (Elt F))), op.fresh = ∅ := fun op h => by
  rcases mem_ops h with h | h | h | h | h | h | h | h | h | h
  exacts [List.forall_iff_forall_mem.mp q0_fresh op h, List.forall_iff_forall_mem.mp q1_fresh op h,
    List.forall_iff_forall_mem.mp q2_fresh op h, List.forall_iff_forall_mem.mp q3_fresh op h,
    List.forall_iff_forall_mem.mp q4_fresh op h, List.forall_iff_forall_mem.mp q5_fresh op h,
    List.forall_iff_forall_mem.mp q6_fresh op h, List.forall_iff_forall_mem.mp q7_fresh op h,
    List.forall_iff_forall_mem.mp q8_fresh op h, List.forall_iff_forall_mem.mp q9_fresh op h]

/-! ## The run -/

/-- On every device, for any float values, from any memory with zero counters: every weakly fair execution of @main
    terminates, and every final state has each TensorCore buffer at the fold of the operations' results over the
    launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after ops (fun b => m (c, b)) b :=
  run_seq scopedRefs_eq scopedSems_eq defs main (fun _ => ops) main_eq (fun _ => ops_sub) m ρ (fun _ => ops_fresh)

end Cert.ReferenceIdeal.HostRun

end
-- ==== Proof.Frames.lean ====
import proofs.«140184_j29661044146691_2_alg».proof.Defs
import proofs.«140184_j29661044146691_2_alg».proof.Proof.Gen.Pre_finite_inputs
import proofs.«140184_j29661044146691_2_alg».proof.Proof.KernelIdealRun
import proofs.«140184_j29661044146691_2_alg».proof.Proof.KernelRun
import proofs.«140184_j29661044146691_2_alg».proof.Proof.RefOps

/-! The three frame claims: each program, from any memory, terminates on every weakly fair execution without a fault
    and leaves its nine argument arrays as launched. For the two kernel programs this is part of what their runs
    already state. The reference program's run states every buffer at the fold of its host operations over the launch
    contents; no operation writes an argument array, so the fold leaves each as it was. -/

noncomputable section

namespace Cert.Proof.Frames

open Idealize.ShloMosaic Idealize.ShloMosaic.TcCoe Idealize.SL.Sem

/-- The kernel program, at the word-level floats: its run keeps the nine arguments. -/
theorem frame_k : Cert.frame_Kernel := fun m g _ =>
  (θ_run Cert.Kernel.defs _ _).mono (fun _ h c => (h c).2.2.2.2) (Cert.Kernel.Run.run (F := Bits) m g)

/-- The idealized kernel program: its run keeps the nine arguments. -/
theorem frame_ki : Cert.frame_KernelIdeal := fun m g _ =>
  (θ_run Cert.KernelIdeal.defs _ _).mono (fun _ h c => (h c).2.2.2.2) (Cert.KernelIdeal.Run.run (F := Ideal) m g)

section Reference

open Cert.ReferenceIdeal Cert.ReferenceIdeal.HostRun

variable {F : FTy → Type} [FloatOps F]

/-- The reference program's nine argument arrays. -/
abbrev args : List (Ref sig .tc) :=
  [main_arg0, main_arg1, main_arg2, main_arg3, main_arg4, main_arg5, main_arg6, main_arg7, main_arg8]

/-- The operation writes none of the argument arrays. -/
def Keeps (op : HloOp τ sig (Elt F)) : Prop := ∀ r ∈ args, Proc.devRef (τ := τ) .tc r ∉ op.writes

/-- An operation that writes one buffer, not an argument array, writes none of them. -/
theorem keeps_of_single {op : HloOp τ sig (Elt F)} (y : Ref sig .tc) (hw : op.writes = {Proc.devRef (τ := τ) .tc y})
    (hy : y ∉ args) : Keeps op := fun r hr hm => by
  rw [hw, Finset.mem_singleton] at hm
  exact hy (Proc.devRef_injective _ hm ▸ hr)

/-- Each of the ten pieces of the reference's line writes no argument array: read off the literal lists, operation by
    operation — a builder's operation writes its one result buffer, and that it is no argument is decided. -/
theorem pieces_keep :
    (q0 : List (HloOp τ sig (Elt F))).Forall Keeps ∧ (q1 : List (HloOp τ sig (Elt F))).Forall Keeps
      ∧ (q2 : List (HloOp τ sig (Elt F))).Forall Keeps ∧ (q3 : List (HloOp τ sig (Elt F))).Forall Keeps
      ∧ (q4 : List (HloOp τ sig (Elt F))).Forall Keeps ∧ (q5 : List (HloOp τ sig (Elt F))).Forall Keeps
      ∧ (q6 : List (HloOp τ sig (Elt F))).Forall Keeps ∧ (q7 : List (HloOp τ sig (Elt F))).Forall Keeps
      ∧ (q8 : List (HloOp τ sig (Elt F))).Forall Keeps ∧ (q9 : List (HloOp τ sig (Elt F))).Forall Keeps := by
  refine ⟨?_, ?_, ?_, ?_, ?_, ?_, ?_, ?_, ?_, ?_⟩
  all_goals simp only [List.Forall]
  all_goals repeat' apply And.intro
  all_goals exact keeps_of_single _ rfl (by decide)

/-- So does every operation of the whole line. -/
theorem ops_keeps (op : HloOp τ sig (Elt F)) (h : op ∈ (ops : List (HloOp τ sig (Elt F)))) : Keeps op := by
  obtain ⟨k0, k1, k2, k3, k4, k5, k6, k7, k8, k9⟩ := pieces_keep (F := F)
  rcases mem_ops h with h | h | h | h | h | h | h | h | h | h
  exacts [List.forall_iff_forall_mem.mp k0 op h, List.forall_iff_forall_mem.mp k1 op h, List.forall_iff_forall_mem.mp k2 op h,
    List.forall_iff_forall_mem.mp k3 op h, List.forall_iff_forall_mem.mp k4 op h, List.forall_iff_forall_mem.mp k5 op h,
    List.forall_iff_forall_mem.mp k6 op h, List.forall_iff_forall_mem.mp k7 op h, List.forall_iff_forall_mem.mp k8 op h,
    List.forall_iff_forall_mem.mp k9 op h]

/-- The line leaves each argument array as it was. -/
theorem after_ops_arg (V : Valuation τ sig (Elt F)) {r : Ref sig .tc} (hr : r ∈ args) :
    StableHlo.after ops V (Proc.devRef .tc r) = V (Proc.devRef .tc r) :=
  StableHlo.after_of_forall_not_mem ops V fun op hop => ops_keeps op hop r hr

end Reference

/-- The reference program: every buffer ends at the fold of the host operations over the launch contents, and the fold
    leaves the nine arguments as launched. -/
theorem frame_ri : Cert.frame_ReferenceIdeal := fun m g _ =>
  (θ_run Cert.ReferenceIdeal.defs _ _).mono (fun _ h c =>
    ⟨(h c Cert.ReferenceIdeal.main_arg0).trans (after_ops_arg _ (by decide)),
     (h c Cert.ReferenceIdeal.main_arg1).trans (after_ops_arg _ (by decide)),
     (h c Cert.ReferenceIdeal.main_arg2).trans (after_ops_arg _ (by decide)),
     (h c Cert.ReferenceIdeal.main_arg3).trans (after_ops_arg _ (by decide)),
     (h c Cert.ReferenceIdeal.main_arg4).trans (after_ops_arg _ (by decide)),
     (h c Cert.ReferenceIdeal.main_arg5).trans (after_ops_arg _ (by decide)),
     (h c Cert.ReferenceIdeal.main_arg6).trans (after_ops_arg _ (by decide)),
     (h c Cert.ReferenceIdeal.main_arg7).trans (after_ops_arg _ (by decide)),
     (h c Cert.ReferenceIdeal.main_arg8).trans (after_ops_arg _ (by decide))⟩)
    (Cert.ReferenceIdeal.HostRun.run (F := Ideal) m g)

end Cert.Proof.Frames

end
-- ==== Proof.KerStageDefs.lean ====

/- The stages of the kernel program's host code after the fused-MLP region, each as one function of the arrays it reads:
    the concatenated index vector, a layer's clause weight, one relational layer (gather at both endpoints, the three-piece boost,
    one scatter-add over the concatenated indices) and the head (eight logit columns, two groups of four, a softmax of each). -/
import proofs.«140184_j29661044146691_2_alg».proof.KernelIdeal

set_option synthInstance.maxSize 4096

noncomputable section

namespace Cert.KernelIdeal.Stage

open Cert.KernelIdeal Idealize.ShloMosaic
open Cert.KernelIdeal.Facts₀ Cert.KernelIdeal.Facts

variable {F : FTy → Type} [FloatOps F] [Cert.KernelIdeal.Facts]

/-- The two endpoint index vectors, one after the other: the index of every update of the fused scatter. -/
noncomputable def idx2 (sx : (⟨S3200000, .i32⟩ : BufTy).Contents (Elt F)) (sy : (⟨S3200000, .i32⟩ : BufTy).Contents (Elt F)) :
    (⟨S6400000, .i32⟩ : BufTy).Contents (Elt F) :=
  let t0 := (((fun a b => concatenate S6400000 0 [⟨S3200000, a⟩, ⟨S3200000, b⟩] concatenates_S3200000_S3200000_S6400000_d0) : (⟨S3200000, .i32⟩ : BufTy).Contents (Elt F) → (⟨S3200000, .i32⟩ : BufTy).Contents (Elt F) → (⟨S6400000, .i32⟩ : BufTy).Contents (Elt F)) sx sy : (⟨S6400000, .i32⟩ : BufTy).Contents (Elt F))
  t0

/-- Layer 1's clause weight: entry 0 of the weight vector, as a scalar. -/
noncomputable def weight0 (cw : (⟨S3, .f32⟩ : BufTy).Contents (Elt F)) :
    (⟨S_, .f32⟩ : BufTy).Contents (Elt F) :=
  let t0 := (((extractStridedSlice S1 ![0] · slices_S3_S1_0) : (⟨S3, .f32⟩ : BufTy).Contents (Elt F) → (⟨S1, .f32⟩ : BufTy).Contents (Elt F)) cw : (⟨S1, .f32⟩ : BufTy).Contents (Elt F))
  let t1 := ((fun i => shapeCast S_ t0 shapeCasts_S1_S_ i) : (⟨S_, .f32⟩ : BufTy).Contents (Elt F))
  t1

/-- Layer 2's clause weight: entry 1 of the weight vector, as a scalar. -/
noncomputable def weight1 (cw : (⟨S3, .f32⟩ : BufTy).Contents (Elt F)) :
    (⟨S_, .f32⟩ : BufTy).Contents (Elt F) :=
  let t0 := (((extractStridedSlice S1 ![1] · slices_S3_S1_1) : (⟨S3, .f32⟩ : BufTy).Contents (Elt F) → (⟨S1, .f32⟩ : BufTy).Contents (Elt F)) cw : (⟨S1, .f32⟩ : BufTy).Contents (Elt F))
  let t1 := ((fun i => shapeCast S_ t0 shapeCasts_S1_S_ i) : (⟨S_, .f32⟩ : BufTy).Contents (Elt F))
  t1

/-- Layer 3's clause weight: entry 2 of the weight vector, as a scalar. -/
noncomputable def weight2 (cw : (⟨S3, .f32⟩ : BufTy).Contents (Elt F)) :
    (⟨S_, .f32⟩ : BufTy).Contents (Elt F) :=
  let t0 := (((extractStridedSlice S1 ![2] · slices_S3_S1_2) : (⟨S3, .f32⟩ : BufTy).Contents (Elt F) → (⟨S1, .f32⟩ : BufTy).Contents (Elt F)) cw : (⟨S1, .f32⟩ : BufTy).Contents (Elt F))
  let t1 := ((fun i => shapeCast S_ t0 shapeCasts_S1_S_ i) : (⟨S_, .f32⟩ : BufTy).Contents (Elt F))
  t1

/-- One relational layer on the node table `z`: both endpoint rows gathered, the signed literals' max and exponentials' sum taken piece by piece, every exponential times softplus(w)/sum times its sign, the two update blocks one after the other scatter-added at `ix`. -/
noncomputable def layer (z : (⟨S100000x10, .f32⟩ : BufTy).Contents (Elt F)) (rel : (⟨S3200000x2, .f32⟩ : BufTy).Contents (Elt F)) (w : (⟨S_, .f32⟩ : BufTy).Contents (Elt F)) (sx : (⟨S3200000, .i32⟩ : BufTy).Contents (Elt F)) (sy : (⟨S3200000, .i32⟩ : BufTy).Contents (Elt F)) (ix : (⟨S6400000, .i32⟩ : BufTy).Contents (Elt F)) :
    (⟨S100000x10, .f32⟩ : BufTy).Contents (Elt F) :=
  let t0 := ((iotaInDim S10 32 0) : (⟨S10, .i32⟩ : BufTy).Contents (Elt F))
  let t1 := ((constantI S_ 32 2#32) : (⟨S_, .i32⟩ : BufTy).Contents (Elt F))
  let t2 := (id t1 : (⟨S_, .i32⟩ : BufTy).Contents (Elt F))
  let t3 := ((constantI S_ 32 0#32) : (⟨S_, .i32⟩ : BufTy).Contents (Elt F))
  let t4 := ((cmpi .eq) t2 t3 : (⟨S_, .i1⟩ : BufTy).Contents (Elt F))
  let t5 := ((constantI S_ 32 1#32) : (⟨S_, .i32⟩ : BufTy).Contents (Elt F))
  let t6 := (select t4 t5 t2 : (⟨S_, .i32⟩ : BufTy).Contents (Elt F))
  let t7 := ((broadcastInDim S10 ![] bcast_S_S10) t6 : (⟨S10, .i32⟩ : BufTy).Contents (Elt F))
  let t8 := (Host.remsi t0 t7 : (⟨S10, .i32⟩ : BufTy).Contents (Elt F))
  let t9 := ((constantI S_ 32 0#32) : (⟨S_, .i32⟩ : BufTy).Contents (Elt F))
  let t10 := ((broadcastInDim S10 ![] bcast_S_S10) t9 : (⟨S10, .i32⟩ : BufTy).Contents (Elt F))
  let t11 := ((cmpi .ne) t8 t10 : (⟨S10, .i1⟩ : BufTy).Contents (Elt F))
  let t12 := ((constantI S_ 32 0#32) : (⟨S_, .i32⟩ : BufTy).Contents (Elt F))
  let t13 := ((broadcastInDim S10 ![] bcast_S_S10) t12 : (⟨S10, .i32⟩ : BufTy).Contents (Elt F))
  let t14 := ((cmpi .slt) t8 t13 : (⟨S10, .i1⟩ : BufTy).Contents (Elt F))
  let t15 := ((constantI S_ 32 0#32) : (⟨S_, .i32⟩ : BufTy).Contents (Elt F))
  let t16 := ((cmpi .slt) t6 t15 : (⟨S_, .i1⟩ : BufTy).Contents (Elt F))
  let t17 := ((broadcastInDim S10 ![] bcast_S_S10) t16 : (⟨S10, .i1⟩ : BufTy).Contents (Elt F))
  let t18 := ((cmpi .ne) t14 t17 : (⟨S10, .i1⟩ : BufTy).Contents (Elt F))
  let t19 := (andi t18 t11 : (⟨S10, .i1⟩ : BufTy).Contents (Elt F))
  let t20 := ((broadcastInDim S10 ![] bcast_S_S10) t6 : (⟨S10, .i32⟩ : BufTy).Contents (Elt F))
  let t21 := (addi t8 t20 : (⟨S10, .i32⟩ : BufTy).Contents (Elt F))
  let t22 := (select t19 t21 t8 : (⟨S10, .i32⟩ : BufTy).Contents (Elt F))
  let t23 := ((constantI S_ 32 0#32) : (⟨S_, .i32⟩ : BufTy).Contents (Elt F))
  let t24 := ((broadcastInDim S10 ![] bcast_S_S10 : (⟨S_, .i32⟩ : BufTy).Contents (Elt F) → (⟨S10, .i32⟩ : BufTy).Contents (Elt F)) t23 : (⟨S10, .i32⟩ : BufTy).Contents (Elt F))
  let t25 := ((cmpi .eq : (⟨S10, .i32⟩ : BufTy).Contents (Elt F) → (⟨S10, .i32⟩ : BufTy).Contents (Elt F) → (⟨S10, .i1⟩ : BufTy).Contents (Elt F)) t22 t24 : (⟨S10, .i1⟩ : BufTy).Contents (Elt F))
  let t26 := ((constant S_ .f32 0x3F800000#32) : (⟨S_, .f32⟩ : BufTy).Contents (Elt F))
  let t27 := ((constant S_ .f32 0xBF800000#32) : (⟨S_, .f32⟩ : BufTy).Contents (Elt F))
  let t28 := ((broadcastInDim S10 ![] bcast_S_S10) t26 : (⟨S10, .f32⟩ : BufTy).Contents (Elt F))
  let t29 := ((broadcastInDim S10 ![] bcast_S_S10) t27 : (⟨S10, .f32⟩ : BufTy).Contents (Elt F))
  let t30 := (select t25 t28 t29 : (⟨S10, .f32⟩ : BufTy).Contents (Elt F))
  let t31 := ((id : (⟨S10, .f32⟩ : BufTy).Contents (Elt F) → (⟨S10, .f32⟩ : BufTy).Contents (Elt F)) t30 : (⟨S10, .f32⟩ : BufTy).Contents (Elt F))
  let t32 := ((iotaInDim S2 32 0) : (⟨S2, .i32⟩ : BufTy).Contents (Elt F))
  let t33 := ((constantI S_ 32 2#32) : (⟨S_, .i32⟩ : BufTy).Contents (Elt F))
  let t34 := (id t33 : (⟨S_, .i32⟩ : BufTy).Contents (Elt F))
  let t35 := ((constantI S_ 32 0#32) : (⟨S_, .i32⟩ : BufTy).Contents (Elt F))
  let t36 := ((cmpi .eq) t34 t35 : (⟨S_, .i1⟩ : BufTy).Contents (Elt F))
  let t37 := ((constantI S_ 32 1#32) : (⟨S_, .i32⟩ : BufTy).Contents (Elt F))
  let t38 := (select t36 t37 t34 : (⟨S_, .i32⟩ : BufTy).Contents (Elt F))
  let t39 := ((broadcastInDim S2 ![] bcast_S_S2) t38 : (⟨S2, .i32⟩ : BufTy).Contents (Elt F))
  let t40 := (Host.remsi t32 t39 : (⟨S2, .i32⟩ : BufTy).Contents (Elt F))
  let t41 := ((constantI S_ 32 0#32) : (⟨S_, .i32⟩ : BufTy).Contents (Elt F))
  let t42 := ((broadcastInDim S2 ![] bcast_S_S2) t41 : (⟨S2, .i32⟩ : BufTy).Contents (Elt F))
  let t43 := ((cmpi .ne) t40 t42 : (⟨S2, .i1⟩ : BufTy).Contents (Elt F))
  let t44 := ((constantI S_ 32 0#32) : (⟨S_, .i32⟩ : BufTy).Contents (Elt F))
  let t45 := ((broadcastInDim S2 ![] bcast_S_S2) t44 : (⟨S2, .i32⟩ : BufTy).Contents (Elt F))
  let t46 := ((cmpi .slt) t40 t45 : (⟨S2, .i1⟩ : BufTy).Contents (Elt F))
  let t47 := ((constantI S_ 32 0#32) : (⟨S_, .i32⟩ : BufTy).Contents (Elt F))
  let t48 := ((cmpi .slt) t38 t47 : (⟨S_, .i1⟩ : BufTy).Contents (Elt F))
  let t49 := ((broadcastInDim S2 ![] bcast_S_S2) t48 : (⟨S2, .i1⟩ : BufTy).Contents (Elt F))
  let t50 := ((cmpi .ne) t46 t49 : (⟨S2, .i1⟩ : BufTy).Contents (Elt F))
  let t51 := (andi t50 t43 : (⟨S2, .i1⟩ : BufTy).Contents (Elt F))
  let t52 := ((broadcastInDim S2 ![] bcast_S_S2) t38 : (⟨S2, .i32⟩ : BufTy).Contents (Elt F))
  let t53 := (addi t40 t52 : (⟨S2, .i32⟩ : BufTy).Contents (Elt F))
  let t54 := (select t51 t53 t40 : (⟨S2, .i32⟩ : BufTy).Contents (Elt F))
  let t55 := ((constantI S_ 32 0#32) : (⟨S_, .i32⟩ : BufTy).Contents (Elt F))
  let t56 := ((broadcastInDim S2 ![] bcast_S_S2 : (⟨S_, .i32⟩ : BufTy).Contents (Elt F) → (⟨S2, .i32⟩ : BufTy).Contents (Elt F)) t55 : (⟨S2, .i32⟩ : BufTy).Contents (Elt F))
  let t57 := ((cmpi .eq : (⟨S2, .i32⟩ : BufTy).Contents (Elt F) → (⟨S2, .i32⟩ : BufTy).Contents (Elt F) → (⟨S2, .i1⟩ : BufTy).Contents (Elt F)) t54 t56 : (⟨S2, .i1⟩ : BufTy).Contents (Elt F))
  let t58 := ((constant S_ .f32 0x3F800000#32) : (⟨S_, .f32⟩ : BufTy).Contents (Elt F))
  let t59 := ((constant S_ .f32 0xBF800000#32) : (⟨S_, .f32⟩ : BufTy).Contents (Elt F))
  let t60 := ((broadcastInDim S2 ![] bcast_S_S2) t58 : (⟨S2, .f32⟩ : BufTy).Contents (Elt F))
  let t61 := ((broadcastInDim S2 ![] bcast_S_S2) t59 : (⟨S2, .f32⟩ : BufTy).Contents (Elt F))
  let t62 := (select t57 t60 t61 : (⟨S2, .f32⟩ : BufTy).Contents (Elt F))
  let t63 := ((id : (⟨S2, .f32⟩ : BufTy).Contents (Elt F) → (⟨S2, .f32⟩ : BufTy).Contents (Elt F)) t62 : (⟨S2, .f32⟩ : BufTy).Contents (Elt F))
  let t64 := ((constantI S_ 32 0#32) : (⟨S_, .i32⟩ : BufTy).Contents (Elt F))
  let t65 := ((broadcastInDim S3200000 ![] bcast_S_S3200000 : (⟨S_, .i32⟩ : BufTy).Contents (Elt F) → (⟨S3200000, .i32⟩ : BufTy).Contents (Elt F)) t64 : (⟨S3200000, .i32⟩ : BufTy).Contents (Elt F))
  let t66 := ((cmpi .slt : (⟨S3200000, .i32⟩ : BufTy).Contents (Elt F) → (⟨S3200000, .i32⟩ : BufTy).Contents (Elt F) → (⟨S3200000, .i1⟩ : BufTy).Contents (Elt F)) sx t65 : (⟨S3200000, .i1⟩ : BufTy).Contents (Elt F))
  let t67 := ((constantI S_ 32 100000#32) : (⟨S_, .i32⟩ : BufTy).Contents (Elt F))
  let t68 := ((broadcastInDim S3200000 ![] bcast_S_S3200000 : (⟨S_, .i32⟩ : BufTy).Contents (Elt F) → (⟨S3200000, .i32⟩ : BufTy).Contents (Elt F)) t67 : (⟨S3200000, .i32⟩ : BufTy).Contents (Elt F))
  let t69 := ((addi : (⟨S3200000, .i32⟩ : BufTy).Contents (Elt F) → (⟨S3200000, .i32⟩ : BufTy).Contents (Elt F) → (⟨S3200000, .i32⟩ : BufTy).Contents (Elt F)) sx t68 : (⟨S3200000, .i32⟩ : BufTy).Contents (Elt F))
  let t70 := ((select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) t66 t69 sx : (⟨S3200000, .i32⟩ : BufTy).Contents (Elt F))
  let t71 := ((broadcastInDim S3200000x1 ![0] bcast_S3200000_S3200000x1_0 : (⟨S3200000, .i32⟩ : BufTy).Contents (Elt F) → (⟨S3200000x1, .i32⟩ : BufTy).Contents (Elt F)) t70 : (⟨S3200000x1, .i32⟩ : BufTy).Contents (Elt F))
  let t72 := (((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)) z t71 : (⟨S3200000x10, .f32⟩ : BufTy).Contents (Elt F))
  let t73 := ((constantI S_ 32 0#32) : (⟨S_, .i32⟩ : BufTy).Contents (Elt F))
  let t74 := ((broadcastInDim S3200000 ![] bcast_S_S3200000 : (⟨S_, .i32⟩ : BufTy).Contents (Elt F) → (⟨S3200000, .i32⟩ : BufTy).Contents (Elt F)) t73 : (⟨S3200000, .i32⟩ : BufTy).Contents (Elt F))
  let t75 := ((cmpi .slt : (⟨S3200000, .i32⟩ : BufTy).Contents (Elt F) → (⟨S3200000, .i32⟩ : BufTy).Contents (Elt F) → (⟨S3200000, .i1⟩ : BufTy).Contents (Elt F)) sy t74 : (⟨S3200000, .i1⟩ : BufTy).Contents (Elt F))
  let t76 := ((constantI S_ 32 100000#32) : (⟨S_, .i32⟩ : BufTy).Contents (Elt F))
  let t77 := ((broadcastInDim S3200000 ![] bcast_S_S3200000 : (⟨S_, .i32⟩ : BufTy).Contents (Elt F) → (⟨S3200000, .i32⟩ : BufTy).Contents (Elt F)) t76 : (⟨S3200000, .i32⟩ : BufTy).Contents (Elt F))
  let t78 := ((addi : (⟨S3200000, .i32⟩ : BufTy).Contents (Elt F) → (⟨S3200000, .i32⟩ : BufTy).Contents (Elt F) → (⟨S3200000, .i32⟩ : BufTy).Contents (Elt F)) sy t77 : (⟨S3200000, .i32⟩ : BufTy).Contents (Elt F))
  let t79 := ((select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) t75 t78 sy : (⟨S3200000, .i32⟩ : BufTy).Contents (Elt F))
  let t80 := ((broadcastInDim S3200000x1 ![0] bcast_S3200000_S3200000x1_0 : (⟨S3200000, .i32⟩ : BufTy).Contents (Elt F) → (⟨S3200000x1, .i32⟩ : BufTy).Contents (Elt F)) t79 : (⟨S3200000x1, .i32⟩ : BufTy).Contents (Elt F))
  let t81 := (((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)) z t80 : (⟨S3200000x10, .f32⟩ : BufTy).Contents (Elt F))
  let t82 := ((broadcastInDim S1x10 ![1] bcast_S10_S1x10_1 : (⟨S10, .f32⟩ : BufTy).Contents (Elt F) → (⟨S1x10, .f32⟩ : BufTy).Contents (Elt F)) t31 : (⟨S1x10, .f32⟩ : BufTy).Contents (Elt F))
  let t83 := ((broadcastInDim S3200000x10 ![0, 1] bcast_S1x10_S3200000x10_0_1 : (⟨S1x10, .f32⟩ : BufTy).Contents (Elt F) → (⟨S3200000x10, .f32⟩ : BufTy).Contents (Elt F)) t82 : (⟨S3200000x10, .f32⟩ : BufTy).Contents (Elt F))
  let t84 := ((mulf : (⟨S3200000x10, .f32⟩ : BufTy).Contents (Elt F) → (⟨S3200000x10, .f32⟩ : BufTy).Contents (Elt F) → (⟨S3200000x10, .f32⟩ : BufTy).Contents (Elt F)) t72 t83 : (⟨S3200000x10, .f32⟩ : BufTy).Contents (Elt F))
  let t85 := ((broadcastInDim S1x10 ![1] bcast_S10_S1x10_1 : (⟨S10, .f32⟩ : BufTy).Contents (Elt F) → (⟨S1x10, .f32⟩ : BufTy).Contents (Elt F)) t31 : (⟨S1x10, .f32⟩ : BufTy).Contents (Elt F))
  let t86 := ((broadcastInDim S3200000x10 ![0, 1] bcast_S1x10_S3200000x10_0_1 : (⟨S1x10, .f32⟩ : BufTy).Contents (Elt F) → (⟨S3200000x10, .f32⟩ : BufTy).Contents (Elt F)) t85 : (⟨S3200000x10, .f32⟩ : BufTy).Contents (Elt F))
  let t87 := ((mulf : (⟨S3200000x10, .f32⟩ : BufTy).Contents (Elt F) → (⟨S3200000x10, .f32⟩ : BufTy).Contents (Elt F) → (⟨S3200000x10, .f32⟩ : BufTy).Contents (Elt F)) t81 t86 : (⟨S3200000x10, .f32⟩ : BufTy).Contents (Elt F))
  let t88 := ((broadcastInDim S1x2 ![1] bcast_S2_S1x2_1 : (⟨S2, .f32⟩ : BufTy).Contents (Elt F) → (⟨S1x2, .f32⟩ : BufTy).Contents (Elt F)) t63 : (⟨S1x2, .f32⟩ : BufTy).Contents (Elt F))
  let t89 := ((broadcastInDim S3200000x2 ![0, 1] bcast_S1x2_S3200000x2_0_1 : (⟨S1x2, .f32⟩ : BufTy).Contents (Elt F) → (⟨S3200000x2, .f32⟩ : BufTy).Contents (Elt F)) t88 : (⟨S3200000x2, .f32⟩ : BufTy).Contents (Elt F))
  let t90 := ((mulf : (⟨S3200000x2, .f32⟩ : BufTy).Contents (Elt F) → (⟨S3200000x2, .f32⟩ : BufTy).Contents (Elt F) → (⟨S3200000x2, .f32⟩ : BufTy).Contents (Elt F)) rel t89 : (⟨S3200000x2, .f32⟩ : BufTy).Contents (Elt F))
  let t91 := ((constant S_ .f32 0xFF800000#32) : (⟨S_, .f32⟩ : BufTy).Contents (Elt F))
  let t92 := (((fun x v => Host.reduce FloatOps.maximumf x v reducesTo_S3200000x10_S3200000_d1 h_S_) : (⟨S3200000x10, .f32⟩ : BufTy).Contents (Elt F) → (⟨S_, .f32⟩ : BufTy).Contents (Elt F) → (⟨S3200000, .f32⟩ : BufTy).Contents (Elt F)) t84 t91 : (⟨S3200000, .f32⟩ : BufTy).Contents (Elt F))
  let t93 := ((constant S_ .f32 0xFF800000#32) : (⟨S_, .f32⟩ : BufTy).Contents (Elt F))
  let t94 := (((fun x v => Host.reduce FloatOps.maximumf x v reducesTo_S3200000x10_S3200000_d1 h_S_) : (⟨S3200000x10, .f32⟩ : BufTy).Contents (Elt F) → (⟨S_, .f32⟩ : BufTy).Contents (Elt F) → (⟨S3200000, .f32⟩ : BufTy).Contents (Elt F)) t87 t93 : (⟨S3200000, .f32⟩ : BufTy).Contents (Elt F))
  let t95 := ((maximumf : (⟨S3200000, .f32⟩ : BufTy).Contents (Elt F) → (⟨S3200000, .f32⟩ : BufTy).Contents (Elt F) → (⟨S3200000, .f32⟩ : BufTy).Contents (Elt F)) t92 t94 : (⟨S3200000, .f32⟩ : BufTy).Contents (Elt F))
  let t96 := ((constant S_ .f32 0xFF800000#32) : (⟨S_, .f32⟩ : BufTy).Contents (Elt F))
  let t97 := (((fun x v => Host.reduce FloatOps.maximumf x v reducesTo_S3200000x2_S3200000_d1 h_S_) : (⟨S3200000x2, .f32⟩ : BufTy).Contents (Elt F) → (⟨S_, .f32⟩ : BufTy).Contents (Elt F) → (⟨S3200000, .f32⟩ : BufTy).Contents (Elt F)) t90 t96 : (⟨S3200000, .f32⟩ : BufTy).Contents (Elt F))
  let t98 := ((maximumf : (⟨S3200000, .f32⟩ : BufTy).Contents (Elt F) → (⟨S3200000, .f32⟩ : BufTy).Contents (Elt F) → (⟨S3200000, .f32⟩ : BufTy).Contents (Elt F)) t95 t97 : (⟨S3200000, .f32⟩ : BufTy).Contents (Elt F))
  let t99 := ((broadcastInDim S3200000x1 ![0] bcast_S3200000_S3200000x1_0 : (⟨S3200000, .f32⟩ : BufTy).Contents (Elt F) → (⟨S3200000x1, .f32⟩ : BufTy).Contents (Elt F)) t98 : (⟨S3200000x1, .f32⟩ : BufTy).Contents (Elt F))
  let t100 := ((broadcastInDim S3200000x10 ![0, 1] bcast_S3200000x1_S3200000x10_0_1 : (⟨S3200000x1, .f32⟩ : BufTy).Contents (Elt F) → (⟨S3200000x10, .f32⟩ : BufTy).Contents (Elt F)) t99 : (⟨S3200000x10, .f32⟩ : BufTy).Contents (Elt F))
  let t101 := ((subf : (⟨S3200000x10, .f32⟩ : BufTy).Contents (Elt F) → (⟨S3200000x10, .f32⟩ : BufTy).Contents (Elt F) → (⟨S3200000x10, .f32⟩ : BufTy).Contents (Elt F)) t84 t100 : (⟨S3200000x10, .f32⟩ : BufTy).Contents (Elt F))
  let t102 := ((Host.exp : (⟨S3200000x10, .f32⟩ : BufTy).Contents (Elt F) → (⟨S3200000x10, .f32⟩ : BufTy).Contents (Elt F)) t101 : (⟨S3200000x10, .f32⟩ : BufTy).Contents (Elt F))
  let t103 := ((broadcastInDim S3200000x10 ![0, 1] bcast_S3200000x1_S3200000x10_0_1 : (⟨S3200000x1, .f32⟩ : BufTy).Contents (Elt F) → (⟨S3200000x10, .f32⟩ : BufTy).Contents (Elt F)) t99 : (⟨S3200000x10, .f32⟩ : BufTy).Contents (Elt F))
  let t104 := ((subf : (⟨S3200000x10, .f32⟩ : BufTy).Contents (Elt F) → (⟨S3200000x10, .f32⟩ : BufTy).Contents (Elt F) → (⟨S3200000x10, .f32⟩ : BufTy).Contents (Elt F)) t87 t103 : (⟨S3200000x10, .f32⟩ : BufTy).Contents (Elt F))
  let t105 := ((Host.exp : (⟨S3200000x10, .f32⟩ : BufTy).Contents (Elt F) → (⟨S3200000x10, .f32⟩ : BufTy).Contents (Elt F)) t104 : (⟨S3200000x10, .f32⟩ : BufTy).Contents (Elt F))
  let t106 := ((broadcastInDim S3200000x2 ![0, 1] bcast_S3200000x1_S3200000x2_0_1 : (⟨S3200000x1, .f32⟩ : BufTy).Contents (Elt F) → (⟨S3200000x2, .f32⟩ : BufTy).Contents (Elt F)) t99 : (⟨S3200000x2, .f32⟩ : BufTy).Contents (Elt F))
  let t107 := ((subf : (⟨S3200000x2, .f32⟩ : BufTy).Contents (Elt F) → (⟨S3200000x2, .f32⟩ : BufTy).Contents (Elt F) → (⟨S3200000x2, .f32⟩ : BufTy).Contents (Elt F)) t90 t106 : (⟨S3200000x2, .f32⟩ : BufTy).Contents (Elt F))
  let t108 := ((Host.exp : (⟨S3200000x2, .f32⟩ : BufTy).Contents (Elt F) → (⟨S3200000x2, .f32⟩ : BufTy).Contents (Elt F)) t107 : (⟨S3200000x2, .f32⟩ : BufTy).Contents (Elt F))
  let t109 := ((constant S_ .f32 0x00000000#32) : (⟨S_, .f32⟩ : BufTy).Contents (Elt F))
  let t110 := (((fun x v => Host.reduceAdd x v reducesTo_S3200000x10_S3200000_d1 h_S_) : (⟨S3200000x10, .f32⟩ : BufTy).Contents (Elt F) → (⟨S_, .f32⟩ : BufTy).Contents (Elt F) → (⟨S3200000, .f32⟩ : BufTy).Contents (Elt F)) t102 t109 : (⟨S3200000, .f32⟩ : BufTy).Contents (Elt F))
  let t111 := ((broadcastInDim S3200000x1 ![0] bcast_S3200000_S3200000x1_0 : (⟨S3200000, .f32⟩ : BufTy).Contents (Elt F) → (⟨S3200000x1, .f32⟩ : BufTy).Contents (Elt F)) t110 : (⟨S3200000x1, .f32⟩ : BufTy).Contents (Elt F))
  let t112 := ((constant S_ .f32 0x00000000#32) : (⟨S_, .f32⟩ : BufTy).Contents (Elt F))
  let t113 := (((fun x v => Host.reduceAdd x v reducesTo_S3200000x10_S3200000_d1 h_S_) : (⟨S3200000x10, .f32⟩ : BufTy).Contents (Elt F) → (⟨S_, .f32⟩ : BufTy).Contents (Elt F) → (⟨S3200000, .f32⟩ : BufTy).Contents (Elt F)) t105 t112 : (⟨S3200000, .f32⟩ : BufTy).Contents (Elt F))
  let t114 := ((broadcastInDim S3200000x1 ![0] bcast_S3200000_S3200000x1_0 : (⟨S3200000, .f32⟩ : BufTy).Contents (Elt F) → (⟨S3200000x1, .f32⟩ : BufTy).Contents (Elt F)) t113 : (⟨S3200000x1, .f32⟩ : BufTy).Contents (Elt F))
  let t115 := ((addf : (⟨S3200000x1, .f32⟩ : BufTy).Contents (Elt F) → (⟨S3200000x1, .f32⟩ : BufTy).Contents (Elt F) → (⟨S3200000x1, .f32⟩ : BufTy).Contents (Elt F)) t111 t114 : (⟨S3200000x1, .f32⟩ : BufTy).Contents (Elt F))
  let t116 := ((constant S_ .f32 0x00000000#32) : (⟨S_, .f32⟩ : BufTy).Contents (Elt F))
  let t117 := (((fun x v => Host.reduceAdd x v reducesTo_S3200000x2_S3200000_d1 h_S_) : (⟨S3200000x2, .f32⟩ : BufTy).Contents (Elt F) → (⟨S_, .f32⟩ : BufTy).Contents (Elt F) → (⟨S3200000, .f32⟩ : BufTy).Contents (Elt F)) t108 t116 : (⟨S3200000, .f32⟩ : BufTy).Contents (Elt F))
  let t118 := ((broadcastInDim S3200000x1 ![0] bcast_S3200000_S3200000x1_0 : (⟨S3200000, .f32⟩ : BufTy).Contents (Elt F) → (⟨S3200000x1, .f32⟩ : BufTy).Contents (Elt F)) t117 : (⟨S3200000x1, .f32⟩ : BufTy).Contents (Elt F))
  let t119 := ((addf : (⟨S3200000x1, .f32⟩ : BufTy).Contents (Elt F) → (⟨S3200000x1, .f32⟩ : BufTy).Contents (Elt F) → (⟨S3200000x1, .f32⟩ : BufTy).Contents (Elt F)) t115 t118 : (⟨S3200000x1, .f32⟩ : BufTy).Contents (Elt F))
  let t120 := ((constant S_ .f32 0x00000000#32) : (⟨S_, .f32⟩ : BufTy).Contents (Elt F))
  let t121 := (maximumf w t120 : (⟨S_, .f32⟩ : BufTy).Contents (Elt F))
  let t122 := (subf w t120 : (⟨S_, .f32⟩ : BufTy).Contents (Elt F))
  let t123 := ((cmpf .une) t122 t122 : (⟨S_, .i1⟩ : BufTy).Contents (Elt F))
  let t124 := (addf w t120 : (⟨S_, .f32⟩ : BufTy).Contents (Elt F))
  let t125 := (Host.absf t122 : (⟨S_, .f32⟩ : BufTy).Contents (Elt F))
  let t126 := (Host.negf t125 : (⟨S_, .f32⟩ : BufTy).Contents (Elt F))
  let t127 := (Host.exp t126 : (⟨S_, .f32⟩ : BufTy).Contents (Elt F))
  let t128 := (Host.log1p t127 : (⟨S_, .f32⟩ : BufTy).Contents (Elt F))
  let t129 := (addf t121 t128 : (⟨S_, .f32⟩ : BufTy).Contents (Elt F))
  let t130 := (select t123 t124 t129 : (⟨S_, .f32⟩ : BufTy).Contents (Elt F))
  let t131 := ((broadcastInDim S3200000x1 ![] bcast_S_S3200000x1 : (⟨S_, .f32⟩ : BufTy).Contents (Elt F) → (⟨S3200000x1, .f32⟩ : BufTy).Contents (Elt F)) t130 : (⟨S3200000x1, .f32⟩ : BufTy).Contents (Elt F))
  let t132 := ((Host.divf : (⟨S3200000x1, .f32⟩ : BufTy).Contents (Elt F) → (⟨S3200000x1, .f32⟩ : BufTy).Contents (Elt F) → (⟨S3200000x1, .f32⟩ : BufTy).Contents (Elt F)) t131 t119 : (⟨S3200000x1, .f32⟩ : BufTy).Contents (Elt F))
  let t133 := ((broadcastInDim S3200000x10 ![0, 1] bcast_S3200000x1_S3200000x10_0_1 : (⟨S3200000x1, .f32⟩ : BufTy).Contents (Elt F) → (⟨S3200000x10, .f32⟩ : BufTy).Contents (Elt F)) t132 : (⟨S3200000x10, .f32⟩ : BufTy).Contents (Elt F))
  let t134 := ((mulf : (⟨S3200000x10, .f32⟩ : BufTy).Contents (Elt F) → (⟨S3200000x10, .f32⟩ : BufTy).Contents (Elt F) → (⟨S3200000x10, .f32⟩ : BufTy).Contents (Elt F)) t102 t133 : (⟨S3200000x10, .f32⟩ : BufTy).Contents (Elt F))
  let t135 := ((broadcastInDim S1x10 ![1] bcast_S10_S1x10_1 : (⟨S10, .f32⟩ : BufTy).Contents (Elt F) → (⟨S1x10, .f32⟩ : BufTy).Contents (Elt F)) t31 : (⟨S1x10, .f32⟩ : BufTy).Contents (Elt F))
  let t136 := ((broadcastInDim S3200000x10 ![0, 1] bcast_S1x10_S3200000x10_0_1 : (⟨S1x10, .f32⟩ : BufTy).Contents (Elt F) → (⟨S3200000x10, .f32⟩ : BufTy).Contents (Elt F)) t135 : (⟨S3200000x10, .f32⟩ : BufTy).Contents (Elt F))
  let t137 := ((mulf : (⟨S3200000x10, .f32⟩ : BufTy).Contents (Elt F) → (⟨S3200000x10, .f32⟩ : BufTy).Contents (Elt F) → (⟨S3200000x10, .f32⟩ : BufTy).Contents (Elt F)) t134 t136 : (⟨S3200000x10, .f32⟩ : BufTy).Contents (Elt F))
  let t138 := ((broadcastInDim S3200000x10 ![0, 1] bcast_S3200000x1_S3200000x10_0_1 : (⟨S3200000x1, .f32⟩ : BufTy).Contents (Elt F) → (⟨S3200000x10, .f32⟩ : BufTy).Contents (Elt F)) t132 : (⟨S3200000x10, .f32⟩ : BufTy).Contents (Elt F))
  let t139 := ((mulf : (⟨S3200000x10, .f32⟩ : BufTy).Contents (Elt F) → (⟨S3200000x10, .f32⟩ : BufTy).Contents (Elt F) → (⟨S3200000x10, .f32⟩ : BufTy).Contents (Elt F)) t105 t138 : (⟨S3200000x10, .f32⟩ : BufTy).Contents (Elt F))
  let t140 := ((broadcastInDim S1x10 ![1] bcast_S10_S1x10_1 : (⟨S10, .f32⟩ : BufTy).Contents (Elt F) → (⟨S1x10, .f32⟩ : BufTy).Contents (Elt F)) t31 : (⟨S1x10, .f32⟩ : BufTy).Contents (Elt F))
  let t141 := ((broadcastInDim S3200000x10 ![0, 1] bcast_S1x10_S3200000x10_0_1 : (⟨S1x10, .f32⟩ : BufTy).Contents (Elt F) → (⟨S3200000x10, .f32⟩ : BufTy).Contents (Elt F)) t140 : (⟨S3200000x10, .f32⟩ : BufTy).Contents (Elt F))
  let t142 := ((mulf : (⟨S3200000x10, .f32⟩ : BufTy).Contents (Elt F) → (⟨S3200000x10, .f32⟩ : BufTy).Contents (Elt F) → (⟨S3200000x10, .f32⟩ : BufTy).Contents (Elt F)) t139 t141 : (⟨S3200000x10, .f32⟩ : BufTy).Contents (Elt F))
  let t143 := (((fun a b => concatenate S6400000x10 0 [⟨S3200000x10, a⟩, ⟨S3200000x10, b⟩] concatenates_S3200000x10_S3200000x10_S6400000x10_d0) : (⟨S3200000x10, .f32⟩ : BufTy).Contents (Elt F) → (⟨S3200000x10, .f32⟩ : BufTy).Contents (Elt F) → (⟨S6400000x10, .f32⟩ : BufTy).Contents (Elt F)) t137 t142 : (⟨S6400000x10, .f32⟩ : BufTy).Contents (Elt F))
  let t144 := ((constantI S_ 32 0#32) : (⟨S_, .i32⟩ : BufTy).Contents (Elt F))
  let t145 := ((broadcastInDim S6400000 ![] bcast_S_S6400000 : (⟨S_, .i32⟩ : BufTy).Contents (Elt F) → (⟨S6400000, .i32⟩ : BufTy).Contents (Elt F)) t144 : (⟨S6400000, .i32⟩ : BufTy).Contents (Elt F))
  let t146 := ((cmpi .slt : (⟨S6400000, .i32⟩ : BufTy).Contents (Elt F) → (⟨S6400000, .i32⟩ : BufTy).Contents (Elt F) → (⟨S6400000, .i1⟩ : BufTy).Contents (Elt F)) ix t145 : (⟨S6400000, .i1⟩ : BufTy).Contents (Elt F))
  let t147 := ((constantI S_ 32 100000#32) : (⟨S_, .i32⟩ : BufTy).Contents (Elt F))
  let t148 := ((broadcastInDim S6400000 ![] bcast_S_S6400000 : (⟨S_, .i32⟩ : BufTy).Contents (Elt F) → (⟨S6400000, .i32⟩ : BufTy).Contents (Elt F)) t147 : (⟨S6400000, .i32⟩ : BufTy).Contents (Elt F))
  let t149 := ((addi : (⟨S6400000, .i32⟩ : BufTy).Contents (Elt F) → (⟨S6400000, .i32⟩ : BufTy).Contents (Elt F) → (⟨S6400000, .i32⟩ : BufTy).Contents (Elt F)) ix t148 : (⟨S6400000, .i32⟩ : BufTy).Contents (Elt F))
  let t150 := ((select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)) t146 t149 ix : (⟨S6400000, .i32⟩ : BufTy).Contents (Elt F))
  let t151 := ((broadcastInDim S6400000x1 ![0] bcast_S6400000_S6400000x1_0 : (⟨S6400000, .i32⟩ : BufTy).Contents (Elt F) → (⟨S6400000x1, .i32⟩ : BufTy).Contents (Elt F)) t150 : (⟨S6400000x1, .i32⟩ : BufTy).Contents (Elt F))
  let t152 := (((fun x i u => Host.scatterAdd scatter_S100000x10_S6400000x1_S6400000x10_1_0_0_1 x i u) : (⟨S100000x10, .f32⟩ : BufTy).Contents (Elt F) → (⟨S6400000x1, .i32⟩ : BufTy).Contents (Elt F) → (⟨S6400000x10, .f32⟩ : BufTy).Contents (Elt F) → (⟨S100000x10, .f32⟩ : BufTy).Contents (Elt F)) z t151 t143 : (⟨S100000x10, .f32⟩ : BufTy).Contents (Elt F))
  t152

/-- The first group of four logits. -/
noncomputable def headA (z : (⟨S100000x10, .f32⟩ : BufTy).Contents (Elt F)) :
    (⟨S100000x4, .f32⟩ : BufTy).Contents (Elt F) :=
  let t0 := (((extractStridedSlice S100000x8 ![0, 0] · slices_S100000x10_S100000x8_0_0) : (⟨S100000x10, .f32⟩ : BufTy).Contents (Elt F) → (⟨S100000x8, .f32⟩ : BufTy).Contents (Elt F)) z : (⟨S100000x8, .f32⟩ : BufTy).Contents (Elt F))
  let t1 := (((extractStridedSlice S100000x4 ![0, 0] · slices_S100000x8_S100000x4_0_0) : (⟨S100000x8, .f32⟩ : BufTy).Contents (Elt F) → (⟨S100000x4, .f32⟩ : BufTy).Contents (Elt F)) t0 : (⟨S100000x4, .f32⟩ : BufTy).Contents (Elt F))
  t1

/-- The softmax of the first group of four logits. -/
noncomputable def headSA (z : (⟨S100000x10, .f32⟩ : BufTy).Contents (Elt F)) :
    (⟨S100000x4, .f32⟩ : BufTy).Contents (Elt F) :=
  let t0 := (((extractStridedSlice S100000x8 ![0, 0] · slices_S100000x10_S100000x8_0_0) : (⟨S100000x10, .f32⟩ : BufTy).Contents (Elt F) → (⟨S100000x8, .f32⟩ : BufTy).Contents (Elt F)) z : (⟨S100000x8, .f32⟩ : BufTy).Contents (Elt F))
  let t1 := (((extractStridedSlice S100000x4 ![0, 0] · slices_S100000x8_S100000x4_0_0) : (⟨S100000x8, .f32⟩ : BufTy).Contents (Elt F) → (⟨S100000x4, .f32⟩ : BufTy).Contents (Elt F)) t0 : (⟨S100000x4, .f32⟩ : BufTy).Contents (Elt F))
  let t2 := ((constant S_ .f32 0xFF800000#32) : (⟨S_, .f32⟩ : BufTy).Contents (Elt F))
  let t3 := (((fun x v => Host.reduce FloatOps.maximumf x v reducesTo_S100000x4_S100000_d1 h_S_) : (⟨S100000x4, .f32⟩ : BufTy).Contents (Elt F) → (⟨S_, .f32⟩ : BufTy).Contents (Elt F) → (⟨S100000, .f32⟩ : BufTy).Contents (Elt F)) t1 t2 : (⟨S100000, .f32⟩ : BufTy).Contents (Elt F))
  let t4 := ((constant S_ .f32 0xFF800000#32) : (⟨S_, .f32⟩ : BufTy).Contents (Elt F))
  let t5 := ((broadcastInDim S100000 ![] bcast_S_S100000 : (⟨S_, .f32⟩ : BufTy).Contents (Elt F) → (⟨S100000, .f32⟩ : BufTy).Contents (Elt F)) t4 : (⟨S100000, .f32⟩ : BufTy).Contents (Elt F))
  let t6 := ((maximumf : (⟨S100000, .f32⟩ : BufTy).Contents (Elt F) → (⟨S100000, .f32⟩ : BufTy).Contents (Elt F) → (⟨S100000, .f32⟩ : BufTy).Contents (Elt F)) t5 t3 : (⟨S100000, .f32⟩ : BufTy).Contents (Elt F))
  let t7 := ((broadcastInDim S100000x1 ![0] bcast_S100000_S100000x1_0 : (⟨S100000, .f32⟩ : BufTy).Contents (Elt F) → (⟨S100000x1, .f32⟩ : BufTy).Contents (Elt F)) t6 : (⟨S100000x1, .f32⟩ : BufTy).Contents (Elt F))
  let t8 := ((broadcastInDim S100000x4 ![0, 1] bcast_S100000x1_S100000x4_0_1 : (⟨S100000x1, .f32⟩ : BufTy).Contents (Elt F) → (⟨S100000x4, .f32⟩ : BufTy).Contents (Elt F)) t7 : (⟨S100000x4, .f32⟩ : BufTy).Contents (Elt F))
  let t9 := ((subf : (⟨S100000x4, .f32⟩ : BufTy).Contents (Elt F) → (⟨S100000x4, .f32⟩ : BufTy).Contents (Elt F) → (⟨S100000x4, .f32⟩ : BufTy).Contents (Elt F)) t1 t8 : (⟨S100000x4, .f32⟩ : BufTy).Contents (Elt F))
  let t10 := ((Host.exp : (⟨S100000x4, .f32⟩ : BufTy).Contents (Elt F) → (⟨S100000x4, .f32⟩ : BufTy).Contents (Elt F)) t9 : (⟨S100000x4, .f32⟩ : BufTy).Contents (Elt F))
  let t11 := ((constant S_ .f32 0x00000000#32) : (⟨S_, .f32⟩ : BufTy).Contents (Elt F))
  let t12 := (((fun x v => Host.reduceAdd x v reducesTo_S100000x4_S100000_d1 h_S_) : (⟨S100000x4, .f32⟩ : BufTy).Contents (Elt F) → (⟨S_, .f32⟩ : BufTy).Contents (Elt F) → (⟨S100000, .f32⟩ : BufTy).Contents (Elt F)) t10 t11 : (⟨S100000, .f32⟩ : BufTy).Contents (Elt F))
  let t13 := ((broadcastInDim S100000x1 ![0] bcast_S100000_S100000x1_0 : (⟨S100000, .f32⟩ : BufTy).Contents (Elt F) → (⟨S100000x1, .f32⟩ : BufTy).Contents (Elt F)) t12 : (⟨S100000x1, .f32⟩ : BufTy).Contents (Elt F))
  let t14 := ((broadcastInDim S100000x4 ![0, 1] bcast_S100000x1_S100000x4_0_1 : (⟨S100000x1, .f32⟩ : BufTy).Contents (Elt F) → (⟨S100000x4, .f32⟩ : BufTy).Contents (Elt F)) t13 : (⟨S100000x4, .f32⟩ : BufTy).Contents (Elt F))
  let t15 := ((Host.divf : (⟨S100000x4, .f32⟩ : BufTy).Contents (Elt F) → (⟨S100000x4, .f32⟩ : BufTy).Contents (Elt F) → (⟨S100000x4, .f32⟩ : BufTy).Contents (Elt F)) t10 t14 : (⟨S100000x4, .f32⟩ : BufTy).Contents (Elt F))
  t15

/-- The second group of four logits. -/
noncomputable def headB (z : (⟨S100000x10, .f32⟩ : BufTy).Contents (Elt F)) :
    (⟨S100000x4, .f32⟩ : BufTy).Contents (Elt F) :=
  let t0 := (((extractStridedSlice S100000x8 ![0, 0] · slices_S100000x10_S100000x8_0_0) : (⟨S100000x10, .f32⟩ : BufTy).Contents (Elt F) → (⟨S100000x8, .f32⟩ : BufTy).Contents (Elt F)) z : (⟨S100000x8, .f32⟩ : BufTy).Contents (Elt F))
  let t1 := (((extractStridedSlice S100000x4 ![0, 4] · slices_S100000x8_S100000x4_0_4) : (⟨S100000x8, .f32⟩ : BufTy).Contents (Elt F) → (⟨S100000x4, .f32⟩ : BufTy).Contents (Elt F)) t0 : (⟨S100000x4, .f32⟩ : BufTy).Contents (Elt F))
  t1

/-- The softmax of the second group of four logits. -/
noncomputable def headSB (z : (⟨S100000x10, .f32⟩ : BufTy).Contents (Elt F)) :
    (⟨S100000x4, .f32⟩ : BufTy).Contents (Elt F) :=
  let t0 := (((extractStridedSlice S100000x8 ![0, 0] · slices_S100000x10_S100000x8_0_0) : (⟨S100000x10, .f32⟩ : BufTy).Contents (Elt F) → (⟨S100000x8, .f32⟩ : BufTy).Contents (Elt F)) z : (⟨S100000x8, .f32⟩ : BufTy).Contents (Elt F))
  let t1 := (((extractStridedSlice S100000x4 ![0, 4] · slices_S100000x8_S100000x4_0_4) : (⟨S100000x8, .f32⟩ : BufTy).Contents (Elt F) → (⟨S100000x4, .f32⟩ : BufTy).Contents (Elt F)) t0 : (⟨S100000x4, .f32⟩ : BufTy).Contents (Elt F))
  let t2 := ((constant S_ .f32 0xFF800000#32) : (⟨S_, .f32⟩ : BufTy).Contents (Elt F))
  let t3 := (((fun x v => Host.reduce FloatOps.maximumf x v reducesTo_S100000x4_S100000_d1 h_S_) : (⟨S100000x4, .f32⟩ : BufTy).Contents (Elt F) → (⟨S_, .f32⟩ : BufTy).Contents (Elt F) → (⟨S100000, .f32⟩ : BufTy).Contents (Elt F)) t1 t2 : (⟨S100000, .f32⟩ : BufTy).Contents (Elt F))
  let t4 := ((constant S_ .f32 0xFF800000#32) : (⟨S_, .f32⟩ : BufTy).Contents (Elt F))
  let t5 := ((broadcastInDim S100000 ![] bcast_S_S100000 : (⟨S_, .f32⟩ : BufTy).Contents (Elt F) → (⟨S100000, .f32⟩ : BufTy).Contents (Elt F)) t4 : (⟨S100000, .f32⟩ : BufTy).Contents (Elt F))
  let t6 := ((maximumf : (⟨S100000, .f32⟩ : BufTy).Contents (Elt F) → (⟨S100000, .f32⟩ : BufTy).Contents (Elt F) → (⟨S100000, .f32⟩ : BufTy).Contents (Elt F)) t5 t3 : (⟨S100000, .f32⟩ : BufTy).Contents (Elt F))
  let t7 := ((broadcastInDim S100000x1 ![0] bcast_S100000_S100000x1_0 : (⟨S100000, .f32⟩ : BufTy).Contents (Elt F) → (⟨S100000x1, .f32⟩ : BufTy).Contents (Elt F)) t6 : (⟨S100000x1, .f32⟩ : BufTy).Contents (Elt F))
  let t8 := ((broadcastInDim S100000x4 ![0, 1] bcast_S100000x1_S100000x4_0_1 : (⟨S100000x1, .f32⟩ : BufTy).Contents (Elt F) → (⟨S100000x4, .f32⟩ : BufTy).Contents (Elt F)) t7 : (⟨S100000x4, .f32⟩ : BufTy).Contents (Elt F))
  let t9 := ((subf : (⟨S100000x4, .f32⟩ : BufTy).Contents (Elt F) → (⟨S100000x4, .f32⟩ : BufTy).Contents (Elt F) → (⟨S100000x4, .f32⟩ : BufTy).Contents (Elt F)) t1 t8 : (⟨S100000x4, .f32⟩ : BufTy).Contents (Elt F))
  let t10 := ((Host.exp : (⟨S100000x4, .f32⟩ : BufTy).Contents (Elt F) → (⟨S100000x4, .f32⟩ : BufTy).Contents (Elt F)) t9 : (⟨S100000x4, .f32⟩ : BufTy).Contents (Elt F))
  let t11 := ((constant S_ .f32 0x00000000#32) : (⟨S_, .f32⟩ : BufTy).Contents (Elt F))
  let t12 := (((fun x v => Host.reduceAdd x v reducesTo_S100000x4_S100000_d1 h_S_) : (⟨S100000x4, .f32⟩ : BufTy).Contents (Elt F) → (⟨S_, .f32⟩ : BufTy).Contents (Elt F) → (⟨S100000, .f32⟩ : BufTy).Contents (Elt F)) t10 t11 : (⟨S100000, .f32⟩ : BufTy).Contents (Elt F))
  let t13 := ((broadcastInDim S100000x1 ![0] bcast_S100000_S100000x1_0 : (⟨S100000, .f32⟩ : BufTy).Contents (Elt F) → (⟨S100000x1, .f32⟩ : BufTy).Contents (Elt F)) t12 : (⟨S100000x1, .f32⟩ : BufTy).Contents (Elt F))
  let t14 := ((broadcastInDim S100000x4 ![0, 1] bcast_S100000x1_S100000x4_0_1 : (⟨S100000x1, .f32⟩ : BufTy).Contents (Elt F) → (⟨S100000x4, .f32⟩ : BufTy).Contents (Elt F)) t13 : (⟨S100000x4, .f32⟩ : BufTy).Contents (Elt F))
  let t15 := ((Host.divf : (⟨S100000x4, .f32⟩ : BufTy).Contents (Elt F) → (⟨S100000x4, .f32⟩ : BufTy).Contents (Elt F) → (⟨S100000x4, .f32⟩ : BufTy).Contents (Elt F)) t10 t14 : (⟨S100000x4, .f32⟩ : BufTy).Contents (Elt F))
  t15

end Cert.KernelIdeal.Stage

end
-- ==== Proof.RefStageDefs.lean ====

/- The stages of the reference program, each as one function of the arrays it reads: the MLP with its two feature-derived
    channels, a layer's clause weight, one relational layer (one softmax over the 22 concatenated literals, two scatter-adds in turn)
    and the head. -/
import proofs.«140184_j29661044146691_2_alg».proof.ReferenceIdeal

set_option synthInstance.maxSize 4096

noncomputable section

namespace Cert.ReferenceIdeal.Stage

open Cert.ReferenceIdeal Idealize.ShloMosaic
open Cert.ReferenceIdeal.Facts₀ Cert.ReferenceIdeal.Facts

variable {F : FTy → Type} [FloatOps F] [Cert.ReferenceIdeal.Facts]

/-- The node table before any layer: relu(features·W1 + b1)·W2 + b2 in eight columns, then ten times a feature difference, then ±5 by four feature comparisons. -/
noncomputable def mlp (feat : (⟨S100000x12, .f32⟩ : BufTy).Contents (Elt F)) (w1 : (⟨S12x1024, .f32⟩ : BufTy).Contents (Elt F)) (b1 : (⟨S1024, .f32⟩ : BufTy).Contents (Elt F)) (w2 : (⟨S1024x8, .f32⟩ : BufTy).Contents (Elt F)) (b2 : (⟨S8, .f32⟩ : BufTy).Contents (Elt F)) :
    (⟨S100000x10, .f32⟩ : BufTy).Contents (Elt F) :=
  let t0 := (((fun l r => Host.dotGeneral dot_S100000x12_S12x1024_S100000x1024_1_0_0_1_n_n none l r) : (⟨S100000x12, .f32⟩ : BufTy).Contents (Elt F) → (⟨S12x1024, .f32⟩ : BufTy).Contents (Elt F) → (⟨S100000x1024, .f32⟩ : BufTy).Contents (Elt F)) feat w1 : (⟨S100000x1024, .f32⟩ : BufTy).Contents (Elt F))
  let t1 := ((broadcastInDim S1x1024 ![1] bcast_S1024_S1x1024_1 : (⟨S1024, .f32⟩ : BufTy).Contents (Elt F) → (⟨S1x1024, .f32⟩ : BufTy).Contents (Elt F)) b1 : (⟨S1x1024, .f32⟩ : BufTy).Contents (Elt F))
  let t2 := ((broadcastInDim S100000x1024 ![0, 1] bcast_S1x1024_S100000x1024_0_1 : (⟨S1x1024, .f32⟩ : BufTy).Contents (Elt F) → (⟨S100000x1024, .f32⟩ : BufTy).Contents (Elt F)) t1 : (⟨S100000x1024, .f32⟩ : BufTy).Contents (Elt F))
  let t3 := ((addf : (⟨S100000x1024, .f32⟩ : BufTy).Contents (Elt F) → (⟨S100000x1024, .f32⟩ : BufTy).Contents (Elt F) → (⟨S100000x1024, .f32⟩ : BufTy).Contents (Elt F)) t0 t2 : (⟨S100000x1024, .f32⟩ : BufTy).Contents (Elt F))
  let t4 := ((constant S_ .f32 0x00000000#32) : (⟨S_, .f32⟩ : BufTy).Contents (Elt F))
  let t5 := ((broadcastInDim S100000x1024 ![] bcast_S_S100000x1024) t4 : (⟨S100000x1024, .f32⟩ : BufTy).Contents (Elt F))
  let t6 := (maximumf t3 t5 : (⟨S100000x1024, .f32⟩ : BufTy).Contents (Elt F))
  let t7 := (((fun l r => Host.dotGeneral dot_S100000x1024_S1024x8_S100000x8_1_0_0_1_n_n none l r) : (⟨S100000x1024, .f32⟩ : BufTy).Contents (Elt F) → (⟨S1024x8, .f32⟩ : BufTy).Contents (Elt F) → (⟨S100000x8, .f32⟩ : BufTy).Contents (Elt F)) t6 w2 : (⟨S100000x8, .f32⟩ : BufTy).Contents (Elt F))
  let t8 := ((broadcastInDim S1x8 ![1] bcast_S8_S1x8_1 : (⟨S8, .f32⟩ : BufTy).Contents (Elt F) → (⟨S1x8, .f32⟩ : BufTy).Contents (Elt F)) b2 : (⟨S1x8, .f32⟩ : BufTy).Contents (Elt F))
  let t9 := ((broadcastInDim S100000x8 ![0, 1] bcast_S1x8_S100000x8_0_1 : (⟨S1x8, .f32⟩ : BufTy).Contents (Elt F) → (⟨S100000x8, .f32⟩ : BufTy).Contents (Elt F)) t8 : (⟨S100000x8, .f32⟩ : BufTy).Contents (Elt F))
  let t10 := ((addf : (⟨S100000x8, .f32⟩ : BufTy).Contents (Elt F) → (⟨S100000x8, .f32⟩ : BufTy).Contents (Elt F) → (⟨S100000x8, .f32⟩ : BufTy).Contents (Elt F)) t7 t9 : (⟨S100000x8, .f32⟩ : BufTy).Contents (Elt F))
  let t11 := (((extractStridedSlice S100000x1 ![0, 2] · slices_S100000x12_S100000x1_0_2) : (⟨S100000x12, .f32⟩ : BufTy).Contents (Elt F) → (⟨S100000x1, .f32⟩ : BufTy).Contents (Elt F)) feat : (⟨S100000x1, .f32⟩ : BufTy).Contents (Elt F))
  let t12 := ((fun i => shapeCast S100000 t11 shapeCasts_S100000x1_S100000 i) : (⟨S100000, .f32⟩ : BufTy).Contents (Elt F))
  let t13 := (((extractStridedSlice S100000x1 ![0, 10] · slices_S100000x12_S100000x1_0_10) : (⟨S100000x12, .f32⟩ : BufTy).Contents (Elt F) → (⟨S100000x1, .f32⟩ : BufTy).Contents (Elt F)) feat : (⟨S100000x1, .f32⟩ : BufTy).Contents (Elt F))
  let t14 := ((fun i => shapeCast S100000 t13 shapeCasts_S100000x1_S100000 i) : (⟨S100000, .f32⟩ : BufTy).Contents (Elt F))
  let t15 := ((subf : (⟨S100000, .f32⟩ : BufTy).Contents (Elt F) → (⟨S100000, .f32⟩ : BufTy).Contents (Elt F) → (⟨S100000, .f32⟩ : BufTy).Contents (Elt F)) t12 t14 : (⟨S100000, .f32⟩ : BufTy).Contents (Elt F))
  let t16 := ((constant S_ .f32 0x41200000#32) : (⟨S_, .f32⟩ : BufTy).Contents (Elt F))
  let t17 := ((broadcastInDim S100000 ![] bcast_S_S100000 : (⟨S_, .f32⟩ : BufTy).Contents (Elt F) → (⟨S100000, .f32⟩ : BufTy).Contents (Elt F)) t16 : (⟨S100000, .f32⟩ : BufTy).Contents (Elt F))
  let t18 := ((mulf : (⟨S100000, .f32⟩ : BufTy).Contents (Elt F) → (⟨S100000, .f32⟩ : BufTy).Contents (Elt F) → (⟨S100000, .f32⟩ : BufTy).Contents (Elt F)) t15 t17 : (⟨S100000, .f32⟩ : BufTy).Contents (Elt F))
  let t19 := (((extractStridedSlice S100000x1 ![0, 0] · slices_S100000x12_S100000x1_0_0) : (⟨S100000x12, .f32⟩ : BufTy).Contents (Elt F) → (⟨S100000x1, .f32⟩ : BufTy).Contents (Elt F)) feat : (⟨S100000x1, .f32⟩ : BufTy).Contents (Elt F))
  let t20 := ((fun i => shapeCast S100000 t19 shapeCasts_S100000x1_S100000 i) : (⟨S100000, .f32⟩ : BufTy).Contents (Elt F))
  let t21 := (((extractStridedSlice S100000x1 ![0, 5] · slices_S100000x12_S100000x1_0_5) : (⟨S100000x12, .f32⟩ : BufTy).Contents (Elt F) → (⟨S100000x1, .f32⟩ : BufTy).Contents (Elt F)) feat : (⟨S100000x1, .f32⟩ : BufTy).Contents (Elt F))
  let t22 := ((fun i => shapeCast S100000 t21 shapeCasts_S100000x1_S100000 i) : (⟨S100000, .f32⟩ : BufTy).Contents (Elt F))
  let t23 := ((cmpf .ole : (⟨S100000, .f32⟩ : BufTy).Contents (Elt F) → (⟨S100000, .f32⟩ : BufTy).Contents (Elt F) → (⟨S100000, .i1⟩ : BufTy).Contents (Elt F)) t20 t22 : (⟨S100000, .i1⟩ : BufTy).Contents (Elt F))
  let t24 := (((extractStridedSlice S100000x1 ![0, 1] · slices_S100000x12_S100000x1_0_1) : (⟨S100000x12, .f32⟩ : BufTy).Contents (Elt F) → (⟨S100000x1, .f32⟩ : BufTy).Contents (Elt F)) feat : (⟨S100000x1, .f32⟩ : BufTy).Contents (Elt F))
  let t25 := ((fun i => shapeCast S100000 t24 shapeCasts_S100000x1_S100000 i) : (⟨S100000, .f32⟩ : BufTy).Contents (Elt F))
  let t26 := (((extractStridedSlice S100000x1 ![0, 4] · slices_S100000x12_S100000x1_0_4) : (⟨S100000x12, .f32⟩ : BufTy).Contents (Elt F) → (⟨S100000x1, .f32⟩ : BufTy).Contents (Elt F)) feat : (⟨S100000x1, .f32⟩ : BufTy).Contents (Elt F))
  let t27 := ((fun i => shapeCast S100000 t26 shapeCasts_S100000x1_S100000 i) : (⟨S100000, .f32⟩ : BufTy).Contents (Elt F))
  let t28 := ((cmpf .oge : (⟨S100000, .f32⟩ : BufTy).Contents (Elt F) → (⟨S100000, .f32⟩ : BufTy).Contents (Elt F) → (⟨S100000, .i1⟩ : BufTy).Contents (Elt F)) t25 t27 : (⟨S100000, .i1⟩ : BufTy).Contents (Elt F))
  let t29 := ((andi : (⟨S100000, .i1⟩ : BufTy).Contents (Elt F) → (⟨S100000, .i1⟩ : BufTy).Contents (Elt F) → (⟨S100000, .i1⟩ : BufTy).Contents (Elt F)) t23 t28 : (⟨S100000, .i1⟩ : BufTy).Contents (Elt F))
  let t30 := (((extractStridedSlice S100000x1 ![0, 2] · slices_S100000x12_S100000x1_0_2) : (⟨S100000x12, .f32⟩ : BufTy).Contents (Elt F) → (⟨S100000x1, .f32⟩ : BufTy).Contents (Elt F)) feat : (⟨S100000x1, .f32⟩ : BufTy).Contents (Elt F))
  let t31 := ((fun i => shapeCast S100000 t30 shapeCasts_S100000x1_S100000 i) : (⟨S100000, .f32⟩ : BufTy).Contents (Elt F))
  let t32 := (((extractStridedSlice S100000x1 ![0, 11] · slices_S100000x12_S100000x1_0_11) : (⟨S100000x12, .f32⟩ : BufTy).Contents (Elt F) → (⟨S100000x1, .f32⟩ : BufTy).Contents (Elt F)) feat : (⟨S100000x1, .f32⟩ : BufTy).Contents (Elt F))
  let t33 := ((fun i => shapeCast S100000 t32 shapeCasts_S100000x1_S100000 i) : (⟨S100000, .f32⟩ : BufTy).Contents (Elt F))
  let t34 := ((cmpf .ole : (⟨S100000, .f32⟩ : BufTy).Contents (Elt F) → (⟨S100000, .f32⟩ : BufTy).Contents (Elt F) → (⟨S100000, .i1⟩ : BufTy).Contents (Elt F)) t31 t33 : (⟨S100000, .i1⟩ : BufTy).Contents (Elt F))
  let t35 := ((andi : (⟨S100000, .i1⟩ : BufTy).Contents (Elt F) → (⟨S100000, .i1⟩ : BufTy).Contents (Elt F) → (⟨S100000, .i1⟩ : BufTy).Contents (Elt F)) t29 t34 : (⟨S100000, .i1⟩ : BufTy).Contents (Elt F))
  let t36 := (((extractStridedSlice S100000x1 ![0, 3] · slices_S100000x12_S100000x1_0_3) : (⟨S100000x12, .f32⟩ : BufTy).Contents (Elt F) → (⟨S100000x1, .f32⟩ : BufTy).Contents (Elt F)) feat : (⟨S100000x1, .f32⟩ : BufTy).Contents (Elt F))
  let t37 := ((fun i => shapeCast S100000 t36 shapeCasts_S100000x1_S100000 i) : (⟨S100000, .f32⟩ : BufTy).Contents (Elt F))
  let t38 := (((extractStridedSlice S100000x1 ![0, 10] · slices_S100000x12_S100000x1_0_10) : (⟨S100000x12, .f32⟩ : BufTy).Contents (Elt F) → (⟨S100000x1, .f32⟩ : BufTy).Contents (Elt F)) feat : (⟨S100000x1, .f32⟩ : BufTy).Contents (Elt F))
  let t39 := ((fun i => shapeCast S100000 t38 shapeCasts_S100000x1_S100000 i) : (⟨S100000, .f32⟩ : BufTy).Contents (Elt F))
  let t40 := ((cmpf .oge : (⟨S100000, .f32⟩ : BufTy).Contents (Elt F) → (⟨S100000, .f32⟩ : BufTy).Contents (Elt F) → (⟨S100000, .i1⟩ : BufTy).Contents (Elt F)) t37 t39 : (⟨S100000, .i1⟩ : BufTy).Contents (Elt F))
  let t41 := ((andi : (⟨S100000, .i1⟩ : BufTy).Contents (Elt F) → (⟨S100000, .i1⟩ : BufTy).Contents (Elt F) → (⟨S100000, .i1⟩ : BufTy).Contents (Elt F)) t35 t40 : (⟨S100000, .i1⟩ : BufTy).Contents (Elt F))
  let t42 := ((uitofp .f32 : (⟨S100000, .i1⟩ : BufTy).Contents (Elt F) → (⟨S100000, .f32⟩ : BufTy).Contents (Elt F)) t41 : (⟨S100000, .f32⟩ : BufTy).Contents (Elt F))
  let t43 := ((constant S_ .f32 0x41200000#32) : (⟨S_, .f32⟩ : BufTy).Contents (Elt F))
  let t44 := ((broadcastInDim S100000 ![] bcast_S_S100000 : (⟨S_, .f32⟩ : BufTy).Contents (Elt F) → (⟨S100000, .f32⟩ : BufTy).Contents (Elt F)) t43 : (⟨S100000, .f32⟩ : BufTy).Contents (Elt F))
  let t45 := ((mulf : (⟨S100000, .f32⟩ : BufTy).Contents (Elt F) → (⟨S100000, .f32⟩ : BufTy).Contents (Elt F) → (⟨S100000, .f32⟩ : BufTy).Contents (Elt F)) t42 t44 : (⟨S100000, .f32⟩ : BufTy).Contents (Elt F))
  let t46 := ((constant S_ .f32 0x40A00000#32) : (⟨S_, .f32⟩ : BufTy).Contents (Elt F))
  let t47 := ((broadcastInDim S100000 ![] bcast_S_S100000 : (⟨S_, .f32⟩ : BufTy).Contents (Elt F) → (⟨S100000, .f32⟩ : BufTy).Contents (Elt F)) t46 : (⟨S100000, .f32⟩ : BufTy).Contents (Elt F))
  let t48 := ((subf : (⟨S100000, .f32⟩ : BufTy).Contents (Elt F) → (⟨S100000, .f32⟩ : BufTy).Contents (Elt F) → (⟨S100000, .f32⟩ : BufTy).Contents (Elt F)) t45 t47 : (⟨S100000, .f32⟩ : BufTy).Contents (Elt F))
  let t49 := ((broadcastInDim S100000x1 ![0] bcast_S100000_S100000x1_0 : (⟨S100000, .f32⟩ : BufTy).Contents (Elt F) → (⟨S100000x1, .f32⟩ : BufTy).Contents (Elt F)) t18 : (⟨S100000x1, .f32⟩ : BufTy).Contents (Elt F))
  let t50 := ((broadcastInDim S100000x1 ![0] bcast_S100000_S100000x1_0 : (⟨S100000, .f32⟩ : BufTy).Contents (Elt F) → (⟨S100000x1, .f32⟩ : BufTy).Contents (Elt F)) t48 : (⟨S100000x1, .f32⟩ : BufTy).Contents (Elt F))
  let t51 := (concatenate S100000x10 1 [⟨S100000x8, t10⟩, ⟨S100000x1, t49⟩, ⟨S100000x1, t50⟩] concatenates_S100000x8_S100000x1_S100000x1_S100000x10_d1 : (⟨S100000x10, .f32⟩ : BufTy).Contents (Elt F))
  t51

/-- Layer 1's clause weight: entry 0 of the weight vector, as a scalar. -/
noncomputable def weight0 (cw : (⟨S3, .f32⟩ : BufTy).Contents (Elt F)) :
    (⟨S_, .f32⟩ : BufTy).Contents (Elt F) :=
  let t0 := (((extractStridedSlice S1 ![0] · slices_S3_S1_0) : (⟨S3, .f32⟩ : BufTy).Contents (Elt F) → (⟨S1, .f32⟩ : BufTy).Contents (Elt F)) cw : (⟨S1, .f32⟩ : BufTy).Contents (Elt F))
  let t1 := ((fun i => shapeCast S_ t0 shapeCasts_S1_S_ i) : (⟨S_, .f32⟩ : BufTy).Contents (Elt F))
  t1

/-- Layer 2's clause weight: entry 1 of the weight vector, as a scalar. -/
noncomputable def weight1 (cw : (⟨S3, .f32⟩ : BufTy).Contents (Elt F)) :
    (⟨S_, .f32⟩ : BufTy).Contents (Elt F) :=
  let t0 := (((extractStridedSlice S1 ![1] · slices_S3_S1_1) : (⟨S3, .f32⟩ : BufTy).Contents (Elt F) → (⟨S1, .f32⟩ : BufTy).Contents (Elt F)) cw : (⟨S1, .f32⟩ : BufTy).Contents (Elt F))
  let t1 := ((fun i => shapeCast S_ t0 shapeCasts_S1_S_ i) : (⟨S_, .f32⟩ : BufTy).Contents (Elt F))
  t1

/-- Layer 3's clause weight: entry 2 of the weight vector, as a scalar. -/
noncomputable def weight2 (cw : (⟨S3, .f32⟩ : BufTy).Contents (Elt F)) :
    (⟨S_, .f32⟩ : BufTy).Contents (Elt F) :=
  let t0 := (((extractStridedSlice S1 ![2] · slices_S3_S1_2) : (⟨S3, .f32⟩ : BufTy).Contents (Elt F) → (⟨S1, .f32⟩ : BufTy).Contents (Elt F)) cw : (⟨S1, .f32⟩ : BufTy).Contents (Elt F))
  let t1 := ((fun i => shapeCast S_ t0 shapeCasts_S1_S_ i) : (⟨S_, .f32⟩ : BufTy).Contents (Elt F))
  t1

/-- One relational layer on the node table `z`: both endpoint rows gathered and laid beside the relation features, one softmax of the signed 22 literals, times softplus(w), times the signs; columns 0–9 scatter-added at the first endpoints, then columns 10–19 at the second. -/
noncomputable def layer (z : (⟨S100000x10, .f32⟩ : BufTy).Contents (Elt F)) (rel : (⟨S3200000x2, .f32⟩ : BufTy).Contents (Elt F)) (w : (⟨S_, .f32⟩ : BufTy).Contents (Elt F)) (sx : (⟨S3200000, .i32⟩ : BufTy).Contents (Elt F)) (sy : (⟨S3200000, .i32⟩ : BufTy).Contents (Elt F)) :
    (⟨S100000x10, .f32⟩ : BufTy).Contents (Elt F) :=
  let t0 := ((iotaInDim S22 32 0) : (⟨S22, .i32⟩ : BufTy).Contents (Elt F))
  let t1 := ((constantI S_ 32 2#32) : (⟨S_, .i32⟩ : BufTy).Contents (Elt F))
  let t2 := (id t1 : (⟨S_, .i32⟩ : BufTy).Contents (Elt F))
  let t3 := ((constantI S_ 32 0#32) : (⟨S_, .i32⟩ : BufTy).Contents (Elt F))
  let t4 := ((cmpi .eq) t2 t3 : (⟨S_, .i1⟩ : BufTy).Contents (Elt F))
  let t5 := ((constantI S_ 32 1#32) : (⟨S_, .i32⟩ : BufTy).Contents (Elt F))
  let t6 := (select t4 t5 t2 : (⟨S_, .i32⟩ : BufTy).Contents (Elt F))
  let t7 := ((broadcastInDim S22 ![] bcast_S_S22) t6 : (⟨S22, .i32⟩ : BufTy).Contents (Elt F))
  let t8 := (Host.remsi t0 t7 : (⟨S22, .i32⟩ : BufTy).Contents (Elt F))
  let t9 := ((constantI S_ 32 0#32) : (⟨S_, .i32⟩ : BufTy).Contents (Elt F))
  let t10 := ((broadcastInDim S22 ![] bcast_S_S22) t9 : (⟨S22, .i32⟩ : BufTy).Contents (Elt F))
  let t11 := ((cmpi .ne) t8 t10 : (⟨S22, .i1⟩ : BufTy).Contents (Elt F))
  let t12 := ((constantI S_ 32 0#32) : (⟨S_, .i32⟩ : BufTy).Contents (Elt F))
  let t13 := ((broadcastInDim S22 ![] bcast_S_S22) t12 : (⟨S22, .i32⟩ : BufTy).Contents (Elt F))
  let t14 := ((cmpi .slt) t8 t13 : (⟨S22, .i1⟩ : BufTy).Contents (Elt F))
  let t15 := ((constantI S_ 32 0#32) : (⟨S_, .i32⟩ : BufTy).Contents (Elt F))
  let t16 := ((cmpi .slt) t6 t15 : (⟨S_, .i1⟩ : BufTy).Contents (Elt F))
  let t17 := ((broadcastInDim S22 ![] bcast_S_S22) t16 : (⟨S22, .i1⟩ : BufTy).Contents (Elt F))
  let t18 := ((cmpi .ne) t14 t17 : (⟨S22, .i1⟩ : BufTy).Contents (Elt F))
  let t19 := (andi t18 t11 : (⟨S22, .i1⟩ : BufTy).Contents (Elt F))
  let t20 := ((broadcastInDim S22 ![] bcast_S_S22) t6 : (⟨S22, .i32⟩ : BufTy).Contents (Elt F))
  let t21 := (addi t8 t20 : (⟨S22, .i32⟩ : BufTy).Contents (Elt F))
  let t22 := (select t19 t21 t8 : (⟨S22, .i32⟩ : BufTy).Contents (Elt F))
  let t23 := ((constantI S_ 32 0#32) : (⟨S_, .i32⟩ : BufTy).Contents (Elt F))
  let t24 := ((broadcastInDim S22 ![] bcast_S_S22 : (⟨S_, .i32⟩ : BufTy).Contents (Elt F) → (⟨S22, .i32⟩ : BufTy).Contents (Elt F)) t23 : (⟨S22, .i32⟩ : BufTy).Contents (Elt F))
  let t25 := ((cmpi .eq : (⟨S22, .i32⟩ : BufTy).Contents (Elt F) → (⟨S22, .i32⟩ : BufTy).Contents (Elt F) → (⟨S22, .i1⟩ : BufTy).Contents (Elt F)) t22 t24 : (⟨S22, .i1⟩ : BufTy).Contents (Elt F))
  let t26 := ((constant S_ .f32 0x3F800000#32) : (⟨S_, .f32⟩ : BufTy).Contents (Elt F))
  let t27 := ((constant S_ .f32 0xBF800000#32) : (⟨S_, .f32⟩ : BufTy).Contents (Elt F))
  let t28 := ((broadcastInDim S22 ![] bcast_S_S22) t26 : (⟨S22, .f32⟩ : BufTy).Contents (Elt F))
  let t29 := ((broadcastInDim S22 ![] bcast_S_S22) t27 : (⟨S22, .f32⟩ : BufTy).Contents (Elt F))
  let t30 := (select t25 t28 t29 : (⟨S22, .f32⟩ : BufTy).Contents (Elt F))
  let t31 := ((id : (⟨S22, .f32⟩ : BufTy).Contents (Elt F) → (⟨S22, .f32⟩ : BufTy).Contents (Elt F)) t30 : (⟨S22, .f32⟩ : BufTy).Contents (Elt F))
  let t32 := ((constantI S_ 32 0#32) : (⟨S_, .i32⟩ : BufTy).Contents (Elt F))
  let t33 := ((broadcastInDim S3200000 ![] bcast_S_S3200000 : (⟨S_, .i32⟩ : BufTy).Contents (Elt F) → (⟨S3200000, .i32⟩ : BufTy).Contents (Elt F)) t32 : (⟨S3200000, .i32⟩ : BufTy).Contents (Elt F))
  let t34 := ((cmpi .slt : (⟨S3200000, .i32⟩ : BufTy).Contents (Elt F) → (⟨S3200000, .i32⟩ : BufTy).Contents (Elt F) → (⟨S3200000, .i1⟩ : BufTy).Contents (Elt F)) sx t33 : (⟨S3200000, .i1⟩ : BufTy).Contents (Elt F))
  let t35 := ((constantI S_ 32 100000#32) : (⟨S_, .i32⟩ : BufTy).Contents (Elt F))
  let t36 := ((broadcastInDim S3200000 ![] bcast_S_S3200000 : (⟨S_, .i32⟩ : BufTy).Contents (Elt F) → (⟨S3200000, .i32⟩ : BufTy).Contents (Elt F)) t35 : (⟨S3200000, .i32⟩ : BufTy).Contents (Elt F))
  let t37 := ((addi : (⟨S3200000, .i32⟩ : BufTy).Contents (Elt F) → (⟨S3200000, .i32⟩ : BufTy).Contents (Elt F) → (⟨S3200000, .i32⟩ : BufTy).Contents (Elt F)) sx t36 : (⟨S3200000, .i32⟩ : BufTy).Contents (Elt F))
  let t38 := ((select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) t34 t37 sx : (⟨S3200000, .i32⟩ : BufTy).Contents (Elt F))
  let t39 := ((broadcastInDim S3200000x1 ![0] bcast_S3200000_S3200000x1_0 : (⟨S3200000, .i32⟩ : BufTy).Contents (Elt F) → (⟨S3200000x1, .i32⟩ : BufTy).Contents (Elt F)) t38 : (⟨S3200000x1, .i32⟩ : BufTy).Contents (Elt F))
  let t40 := (((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)) z t39 : (⟨S3200000x10, .f32⟩ : BufTy).Contents (Elt F))
  let t41 := ((constantI S_ 32 0#32) : (⟨S_, .i32⟩ : BufTy).Contents (Elt F))
  let t42 := ((broadcastInDim S3200000 ![] bcast_S_S3200000 : (⟨S_, .i32⟩ : BufTy).Contents (Elt F) → (⟨S3200000, .i32⟩ : BufTy).Contents (Elt F)) t41 : (⟨S3200000, .i32⟩ : BufTy).Contents (Elt F))
  let t43 := ((cmpi .slt : (⟨S3200000, .i32⟩ : BufTy).Contents (Elt F) → (⟨S3200000, .i32⟩ : BufTy).Contents (Elt F) → (⟨S3200000, .i1⟩ : BufTy).Contents (Elt F)) sy t42 : (⟨S3200000, .i1⟩ : BufTy).Contents (Elt F))
  let t44 := ((constantI S_ 32 100000#32) : (⟨S_, .i32⟩ : BufTy).Contents (Elt F))
  let t45 := ((broadcastInDim S3200000 ![] bcast_S_S3200000 : (⟨S_, .i32⟩ : BufTy).Contents (Elt F) → (⟨S3200000, .i32⟩ : BufTy).Contents (Elt F)) t44 : (⟨S3200000, .i32⟩ : BufTy).Contents (Elt F))
  let t46 := ((addi : (⟨S3200000, .i32⟩ : BufTy).Contents (Elt F) → (⟨S3200000, .i32⟩ : BufTy).Contents (Elt F) → (⟨S3200000, .i32⟩ : BufTy).Contents (Elt F)) sy t45 : (⟨S3200000, .i32⟩ : BufTy).Contents (Elt F))
  let t47 := ((select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) t43 t46 sy : (⟨S3200000, .i32⟩ : BufTy).Contents (Elt F))
  let t48 := ((broadcastInDim S3200000x1 ![0] bcast_S3200000_S3200000x1_0 : (⟨S3200000, .i32⟩ : BufTy).Contents (Elt F) → (⟨S3200000x1, .i32⟩ : BufTy).Contents (Elt F)) t47 : (⟨S3200000x1, .i32⟩ : BufTy).Contents (Elt F))
  let t49 := (((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)) z t48 : (⟨S3200000x10, .f32⟩ : BufTy).Contents (Elt F))
  let t50 := (concatenate S3200000x22 1 [⟨S3200000x10, t40⟩, ⟨S3200000x10, t49⟩, ⟨S3200000x2, rel⟩] concatenates_S3200000x10_S3200000x10_S3200000x2_S3200000x22_d1 : (⟨S3200000x22, .f32⟩ : BufTy).Contents (Elt F))
  let t51 := ((constant S_ .f32 0x00000000#32) : (⟨S_, .f32⟩ : BufTy).Contents (Elt F))
  let t52 := (maximumf w t51 : (⟨S_, .f32⟩ : BufTy).Contents (Elt F))
  let t53 := (subf w t51 : (⟨S_, .f32⟩ : BufTy).Contents (Elt F))
  let t54 := ((cmpf .une) t53 t53 : (⟨S_, .i1⟩ : BufTy).Contents (Elt F))
  let t55 := (addf w t51 : (⟨S_, .f32⟩ : BufTy).Contents (Elt F))
  let t56 := (Host.absf t53 : (⟨S_, .f32⟩ : BufTy).Contents (Elt F))
  let t57 := (Host.negf t56 : (⟨S_, .f32⟩ : BufTy).Contents (Elt F))
  let t58 := (Host.exp t57 : (⟨S_, .f32⟩ : BufTy).Contents (Elt F))
  let t59 := (Host.log1p t58 : (⟨S_, .f32⟩ : BufTy).Contents (Elt F))
  let t60 := (addf t52 t59 : (⟨S_, .f32⟩ : BufTy).Contents (Elt F))
  let t61 := (select t54 t55 t60 : (⟨S_, .f32⟩ : BufTy).Contents (Elt F))
  let t62 := ((broadcastInDim S1x22 ![1] bcast_S22_S1x22_1 : (⟨S22, .f32⟩ : BufTy).Contents (Elt F) → (⟨S1x22, .f32⟩ : BufTy).Contents (Elt F)) t31 : (⟨S1x22, .f32⟩ : BufTy).Contents (Elt F))
  let t63 := ((broadcastInDim S3200000x22 ![0, 1] bcast_S1x22_S3200000x22_0_1 : (⟨S1x22, .f32⟩ : BufTy).Contents (Elt F) → (⟨S3200000x22, .f32⟩ : BufTy).Contents (Elt F)) t62 : (⟨S3200000x22, .f32⟩ : BufTy).Contents (Elt F))
  let t64 := ((mulf : (⟨S3200000x22, .f32⟩ : BufTy).Contents (Elt F) → (⟨S3200000x22, .f32⟩ : BufTy).Contents (Elt F) → (⟨S3200000x22, .f32⟩ : BufTy).Contents (Elt F)) t63 t50 : (⟨S3200000x22, .f32⟩ : BufTy).Contents (Elt F))
  let t65 := ((constant S_ .f32 0xFF800000#32) : (⟨S_, .f32⟩ : BufTy).Contents (Elt F))
  let t66 := (((fun x v => Host.reduce FloatOps.maximumf x v reducesTo_S3200000x22_S3200000_d1 h_S_) : (⟨S3200000x22, .f32⟩ : BufTy).Contents (Elt F) → (⟨S_, .f32⟩ : BufTy).Contents (Elt F) → (⟨S3200000, .f32⟩ : BufTy).Contents (Elt F)) t64 t65 : (⟨S3200000, .f32⟩ : BufTy).Contents (Elt F))
  let t67 := ((constant S_ .f32 0xFF800000#32) : (⟨S_, .f32⟩ : BufTy).Contents (Elt F))
  let t68 := ((broadcastInDim S3200000 ![] bcast_S_S3200000 : (⟨S_, .f32⟩ : BufTy).Contents (Elt F) → (⟨S3200000, .f32⟩ : BufTy).Contents (Elt F)) t67 : (⟨S3200000, .f32⟩ : BufTy).Contents (Elt F))
  let t69 := ((maximumf : (⟨S3200000, .f32⟩ : BufTy).Contents (Elt F) → (⟨S3200000, .f32⟩ : BufTy).Contents (Elt F) → (⟨S3200000, .f32⟩ : BufTy).Contents (Elt F)) t68 t66 : (⟨S3200000, .f32⟩ : BufTy).Contents (Elt F))
  let t70 := ((broadcastInDim S3200000x1 ![0] bcast_S3200000_S3200000x1_0 : (⟨S3200000, .f32⟩ : BufTy).Contents (Elt F) → (⟨S3200000x1, .f32⟩ : BufTy).Contents (Elt F)) t69 : (⟨S3200000x1, .f32⟩ : BufTy).Contents (Elt F))
  let t71 := ((broadcastInDim S3200000x22 ![0, 1] bcast_S3200000x1_S3200000x22_0_1 : (⟨S3200000x1, .f32⟩ : BufTy).Contents (Elt F) → (⟨S3200000x22, .f32⟩ : BufTy).Contents (Elt F)) t70 : (⟨S3200000x22, .f32⟩ : BufTy).Contents (Elt F))
  let t72 := ((subf : (⟨S3200000x22, .f32⟩ : BufTy).Contents (Elt F) → (⟨S3200000x22, .f32⟩ : BufTy).Contents (Elt F) → (⟨S3200000x22, .f32⟩ : BufTy).Contents (Elt F)) t64 t71 : (⟨S3200000x22, .f32⟩ : BufTy).Contents (Elt F))
  let t73 := ((Host.exp : (⟨S3200000x22, .f32⟩ : BufTy).Contents (Elt F) → (⟨S3200000x22, .f32⟩ : BufTy).Contents (Elt F)) t72 : (⟨S3200000x22, .f32⟩ : BufTy).Contents (Elt F))
  let t74 := ((constant S_ .f32 0x00000000#32) : (⟨S_, .f32⟩ : BufTy).Contents (Elt F))
  let t75 := (((fun x v => Host.reduceAdd x v reducesTo_S3200000x22_S3200000_d1 h_S_) : (⟨S3200000x22, .f32⟩ : BufTy).Contents (Elt F) → (⟨S_, .f32⟩ : BufTy).Contents (Elt F) → (⟨S3200000, .f32⟩ : BufTy).Contents (Elt F)) t73 t74 : (⟨S3200000, .f32⟩ : BufTy).Contents (Elt F))
  let t76 := ((broadcastInDim S3200000x1 ![0] bcast_S3200000_S3200000x1_0 : (⟨S3200000, .f32⟩ : BufTy).Contents (Elt F) → (⟨S3200000x1, .f32⟩ : BufTy).Contents (Elt F)) t75 : (⟨S3200000x1, .f32⟩ : BufTy).Contents (Elt F))
  let t77 := ((broadcastInDim S3200000x22 ![0, 1] bcast_S3200000x1_S3200000x22_0_1 : (⟨S3200000x1, .f32⟩ : BufTy).Contents (Elt F) → (⟨S3200000x22, .f32⟩ : BufTy).Contents (Elt F)) t76 : (⟨S3200000x22, .f32⟩ : BufTy).Contents (Elt F))
  let t78 := ((Host.divf : (⟨S3200000x22, .f32⟩ : BufTy).Contents (Elt F) → (⟨S3200000x22, .f32⟩ : BufTy).Contents (Elt F) → (⟨S3200000x22, .f32⟩ : BufTy).Contents (Elt F)) t73 t77 : (⟨S3200000x22, .f32⟩ : BufTy).Contents (Elt F))
  let t79 := ((broadcastInDim S3200000x22 ![] bcast_S_S3200000x22 : (⟨S_, .f32⟩ : BufTy).Contents (Elt F) → (⟨S3200000x22, .f32⟩ : BufTy).Contents (Elt F)) t61 : (⟨S3200000x22, .f32⟩ : BufTy).Contents (Elt F))
  let t80 := ((mulf : (⟨S3200000x22, .f32⟩ : BufTy).Contents (Elt F) → (⟨S3200000x22, .f32⟩ : BufTy).Contents (Elt F) → (⟨S3200000x22, .f32⟩ : BufTy).Contents (Elt F)) t79 t78 : (⟨S3200000x22, .f32⟩ : BufTy).Contents (Elt F))
  let t81 := ((broadcastInDim S1x22 ![1] bcast_S22_S1x22_1 : (⟨S22, .f32⟩ : BufTy).Contents (Elt F) → (⟨S1x22, .f32⟩ : BufTy).Contents (Elt F)) t31 : (⟨S1x22, .f32⟩ : BufTy).Contents (Elt F))
  let t82 := ((broadcastInDim S3200000x22 ![0, 1] bcast_S1x22_S3200000x22_0_1 : (⟨S1x22, .f32⟩ : BufTy).Contents (Elt F) → (⟨S3200000x22, .f32⟩ : BufTy).Contents (Elt F)) t81 : (⟨S3200000x22, .f32⟩ : BufTy).Contents (Elt F))
  let t83 := ((mulf : (⟨S3200000x22, .f32⟩ : BufTy).Contents (Elt F) → (⟨S3200000x22, .f32⟩ : BufTy).Contents (Elt F) → (⟨S3200000x22, .f32⟩ : BufTy).Contents (Elt F)) t80 t82 : (⟨S3200000x22, .f32⟩ : BufTy).Contents (Elt F))
  let t84 := (((extractStridedSlice S3200000x10 ![0, 0] · slices_S3200000x22_S3200000x10_0_0) : (⟨S3200000x22, .f32⟩ : BufTy).Contents (Elt F) → (⟨S3200000x10, .f32⟩ : BufTy).Contents (Elt F)) t83 : (⟨S3200000x10, .f32⟩ : BufTy).Contents (Elt F))
  let t85 := ((constantI S_ 32 0#32) : (⟨S_, .i32⟩ : BufTy).Contents (Elt F))
  let t86 := ((broadcastInDim S3200000 ![] bcast_S_S3200000 : (⟨S_, .i32⟩ : BufTy).Contents (Elt F) → (⟨S3200000, .i32⟩ : BufTy).Contents (Elt F)) t85 : (⟨S3200000, .i32⟩ : BufTy).Contents (Elt F))
  let t87 := ((cmpi .slt : (⟨S3200000, .i32⟩ : BufTy).Contents (Elt F) → (⟨S3200000, .i32⟩ : BufTy).Contents (Elt F) → (⟨S3200000, .i1⟩ : BufTy).Contents (Elt F)) sx t86 : (⟨S3200000, .i1⟩ : BufTy).Contents (Elt F))
  let t88 := ((constantI S_ 32 100000#32) : (⟨S_, .i32⟩ : BufTy).Contents (Elt F))
  let t89 := ((broadcastInDim S3200000 ![] bcast_S_S3200000 : (⟨S_, .i32⟩ : BufTy).Contents (Elt F) → (⟨S3200000, .i32⟩ : BufTy).Contents (Elt F)) t88 : (⟨S3200000, .i32⟩ : BufTy).Contents (Elt F))
  let t90 := ((addi : (⟨S3200000, .i32⟩ : BufTy).Contents (Elt F) → (⟨S3200000, .i32⟩ : BufTy).Contents (Elt F) → (⟨S3200000, .i32⟩ : BufTy).Contents (Elt F)) sx t89 : (⟨S3200000, .i32⟩ : BufTy).Contents (Elt F))
  let t91 := ((select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) t87 t90 sx : (⟨S3200000, .i32⟩ : BufTy).Contents (Elt F))
  let t92 := ((broadcastInDim S3200000x1 ![0] bcast_S3200000_S3200000x1_0 : (⟨S3200000, .i32⟩ : BufTy).Contents (Elt F) → (⟨S3200000x1, .i32⟩ : BufTy).Contents (Elt F)) t91 : (⟨S3200000x1, .i32⟩ : BufTy).Contents (Elt F))
  let t93 := (((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)) z t92 t84 : (⟨S100000x10, .f32⟩ : BufTy).Contents (Elt F))
  let t94 := (((extractStridedSlice S3200000x10 ![0, 10] · slices_S3200000x22_S3200000x10_0_10) : (⟨S3200000x22, .f32⟩ : BufTy).Contents (Elt F) → (⟨S3200000x10, .f32⟩ : BufTy).Contents (Elt F)) t83 : (⟨S3200000x10, .f32⟩ : BufTy).Contents (Elt F))
  let t95 := ((constantI S_ 32 0#32) : (⟨S_, .i32⟩ : BufTy).Contents (Elt F))
  let t96 := ((broadcastInDim S3200000 ![] bcast_S_S3200000 : (⟨S_, .i32⟩ : BufTy).Contents (Elt F) → (⟨S3200000, .i32⟩ : BufTy).Contents (Elt F)) t95 : (⟨S3200000, .i32⟩ : BufTy).Contents (Elt F))
  let t97 := ((cmpi .slt : (⟨S3200000, .i32⟩ : BufTy).Contents (Elt F) → (⟨S3200000, .i32⟩ : BufTy).Contents (Elt F) → (⟨S3200000, .i1⟩ : BufTy).Contents (Elt F)) sy t96 : (⟨S3200000, .i1⟩ : BufTy).Contents (Elt F))
  let t98 := ((constantI S_ 32 100000#32) : (⟨S_, .i32⟩ : BufTy).Contents (Elt F))
  let t99 := ((broadcastInDim S3200000 ![] bcast_S_S3200000 : (⟨S_, .i32⟩ : BufTy).Contents (Elt F) → (⟨S3200000, .i32⟩ : BufTy).Contents (Elt F)) t98 : (⟨S3200000, .i32⟩ : BufTy).Contents (Elt F))
  let t100 := ((addi : (⟨S3200000, .i32⟩ : BufTy).Contents (Elt F) → (⟨S3200000, .i32⟩ : BufTy).Contents (Elt F) → (⟨S3200000, .i32⟩ : BufTy).Contents (Elt F)) sy t99 : (⟨S3200000, .i32⟩ : BufTy).Contents (Elt F))
  let t101 := ((select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) t97 t100 sy : (⟨S3200000, .i32⟩ : BufTy).Contents (Elt F))
  let t102 := ((broadcastInDim S3200000x1 ![0] bcast_S3200000_S3200000x1_0 : (⟨S3200000, .i32⟩ : BufTy).Contents (Elt F) → (⟨S3200000x1, .i32⟩ : BufTy).Contents (Elt F)) t101 : (⟨S3200000x1, .i32⟩ : BufTy).Contents (Elt F))
  let t103 := (((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)) t93 t102 t94 : (⟨S100000x10, .f32⟩ : BufTy).Contents (Elt F))
  t103

/-- The first group of four logits. -/
noncomputable def headA (z : (⟨S100000x10, .f32⟩ : BufTy).Contents (Elt F)) :
    (⟨S100000x4, .f32⟩ : BufTy).Contents (Elt F) :=
  let t0 := (((extractStridedSlice S100000x8 ![0, 0] · slices_S100000x10_S100000x8_0_0) : (⟨S100000x10, .f32⟩ : BufTy).Contents (Elt F) → (⟨S100000x8, .f32⟩ : BufTy).Contents (Elt F)) z : (⟨S100000x8, .f32⟩ : BufTy).Contents (Elt F))
  let t1 := (((extractStridedSlice S100000x4 ![0, 0] · slices_S100000x8_S100000x4_0_0) : (⟨S100000x8, .f32⟩ : BufTy).Contents (Elt F) → (⟨S100000x4, .f32⟩ : BufTy).Contents (Elt F)) t0 : (⟨S100000x4, .f32⟩ : BufTy).Contents (Elt F))
  t1

/-- The softmax of the first group of four logits. -/
noncomputable def headSA (z : (⟨S100000x10, .f32⟩ : BufTy).Contents (Elt F)) :
    (⟨S100000x4, .f32⟩ : BufTy).Contents (Elt F) :=
  let t0 := (((extractStridedSlice S100000x8 ![0, 0] · slices_S100000x10_S100000x8_0_0) : (⟨S100000x10, .f32⟩ : BufTy).Contents (Elt F) → (⟨S100000x8, .f32⟩ : BufTy).Contents (Elt F)) z : (⟨S100000x8, .f32⟩ : BufTy).Contents (Elt F))
  let t1 := (((extractStridedSlice S100000x4 ![0, 0] · slices_S100000x8_S100000x4_0_0) : (⟨S100000x8, .f32⟩ : BufTy).Contents (Elt F) → (⟨S100000x4, .f32⟩ : BufTy).Contents (Elt F)) t0 : (⟨S100000x4, .f32⟩ : BufTy).Contents (Elt F))
  let t2 := ((constant S_ .f32 0xFF800000#32) : (⟨S_, .f32⟩ : BufTy).Contents (Elt F))
  let t3 := (((fun x v => Host.reduce FloatOps.maximumf x v reducesTo_S100000x4_S100000_d1 h_S_) : (⟨S100000x4, .f32⟩ : BufTy).Contents (Elt F) → (⟨S_, .f32⟩ : BufTy).Contents (Elt F) → (⟨S100000, .f32⟩ : BufTy).Contents (Elt F)) t1 t2 : (⟨S100000, .f32⟩ : BufTy).Contents (Elt F))
  let t4 := ((constant S_ .f32 0xFF800000#32) : (⟨S_, .f32⟩ : BufTy).Contents (Elt F))
  let t5 := ((broadcastInDim S100000 ![] bcast_S_S100000 : (⟨S_, .f32⟩ : BufTy).Contents (Elt F) → (⟨S100000, .f32⟩ : BufTy).Contents (Elt F)) t4 : (⟨S100000, .f32⟩ : BufTy).Contents (Elt F))
  let t6 := ((maximumf : (⟨S100000, .f32⟩ : BufTy).Contents (Elt F) → (⟨S100000, .f32⟩ : BufTy).Contents (Elt F) → (⟨S100000, .f32⟩ : BufTy).Contents (Elt F)) t5 t3 : (⟨S100000, .f32⟩ : BufTy).Contents (Elt F))
  let t7 := ((broadcastInDim S100000x1 ![0] bcast_S100000_S100000x1_0 : (⟨S100000, .f32⟩ : BufTy).Contents (Elt F) → (⟨S100000x1, .f32⟩ : BufTy).Contents (Elt F)) t6 : (⟨S100000x1, .f32⟩ : BufTy).Contents (Elt F))
  let t8 := ((broadcastInDim S100000x4 ![0, 1] bcast_S100000x1_S100000x4_0_1 : (⟨S100000x1, .f32⟩ : BufTy).Contents (Elt F) → (⟨S100000x4, .f32⟩ : BufTy).Contents (Elt F)) t7 : (⟨S100000x4, .f32⟩ : BufTy).Contents (Elt F))
  let t9 := ((subf : (⟨S100000x4, .f32⟩ : BufTy).Contents (Elt F) → (⟨S100000x4, .f32⟩ : BufTy).Contents (Elt F) → (⟨S100000x4, .f32⟩ : BufTy).Contents (Elt F)) t1 t8 : (⟨S100000x4, .f32⟩ : BufTy).Contents (Elt F))
  let t10 := ((Host.exp : (⟨S100000x4, .f32⟩ : BufTy).Contents (Elt F) → (⟨S100000x4, .f32⟩ : BufTy).Contents (Elt F)) t9 : (⟨S100000x4, .f32⟩ : BufTy).Contents (Elt F))
  let t11 := ((constant S_ .f32 0x00000000#32) : (⟨S_, .f32⟩ : BufTy).Contents (Elt F))
  let t12 := (((fun x v => Host.reduceAdd x v reducesTo_S100000x4_S100000_d1 h_S_) : (⟨S100000x4, .f32⟩ : BufTy).Contents (Elt F) → (⟨S_, .f32⟩ : BufTy).Contents (Elt F) → (⟨S100000, .f32⟩ : BufTy).Contents (Elt F)) t10 t11 : (⟨S100000, .f32⟩ : BufTy).Contents (Elt F))
  let t13 := ((broadcastInDim S100000x1 ![0] bcast_S100000_S100000x1_0 : (⟨S100000, .f32⟩ : BufTy).Contents (Elt F) → (⟨S100000x1, .f32⟩ : BufTy).Contents (Elt F)) t12 : (⟨S100000x1, .f32⟩ : BufTy).Contents (Elt F))
  let t14 := ((broadcastInDim S100000x4 ![0, 1] bcast_S100000x1_S100000x4_0_1 : (⟨S100000x1, .f32⟩ : BufTy).Contents (Elt F) → (⟨S100000x4, .f32⟩ : BufTy).Contents (Elt F)) t13 : (⟨S100000x4, .f32⟩ : BufTy).Contents (Elt F))
  let t15 := ((Host.divf : (⟨S100000x4, .f32⟩ : BufTy).Contents (Elt F) → (⟨S100000x4, .f32⟩ : BufTy).Contents (Elt F) → (⟨S100000x4, .f32⟩ : BufTy).Contents (Elt F)) t10 t14 : (⟨S100000x4, .f32⟩ : BufTy).Contents (Elt F))
  t15

/-- The second group of four logits. -/
noncomputable def headB (z : (⟨S100000x10, .f32⟩ : BufTy).Contents (Elt F)) :
    (⟨S100000x4, .f32⟩ : BufTy).Contents (Elt F) :=
  let t0 := (((extractStridedSlice S100000x8 ![0, 0] · slices_S100000x10_S100000x8_0_0) : (⟨S100000x10, .f32⟩ : BufTy).Contents (Elt F) → (⟨S100000x8, .f32⟩ : BufTy).Contents (Elt F)) z : (⟨S100000x8, .f32⟩ : BufTy).Contents (Elt F))
  let t1 := (((extractStridedSlice S100000x4 ![0, 4] · slices_S100000x8_S100000x4_0_4) : (⟨S100000x8, .f32⟩ : BufTy).Contents (Elt F) → (⟨S100000x4, .f32⟩ : BufTy).Contents (Elt F)) t0 : (⟨S100000x4, .f32⟩ : BufTy).Contents (Elt F))
  t1

/-- The softmax of the second group of four logits. -/
noncomputable def headSB (z : (⟨S100000x10, .f32⟩ : BufTy).Contents (Elt F)) :
    (⟨S100000x4, .f32⟩ : BufTy).Contents (Elt F) :=
  let t0 := (((extractStridedSlice S100000x8 ![0, 0] · slices_S100000x10_S100000x8_0_0) : (⟨S100000x10, .f32⟩ : BufTy).Contents (Elt F) → (⟨S100000x8, .f32⟩ : BufTy).Contents (Elt F)) z : (⟨S100000x8, .f32⟩ : BufTy).Contents (Elt F))
  let t1 := (((extractStridedSlice S100000x4 ![0, 4] · slices_S100000x8_S100000x4_0_4) : (⟨S100000x8, .f32⟩ : BufTy).Contents (Elt F) → (⟨S100000x4, .f32⟩ : BufTy).Contents (Elt F)) t0 : (⟨S100000x4, .f32⟩ : BufTy).Contents (Elt F))
  let t2 := ((constant S_ .f32 0xFF800000#32) : (⟨S_, .f32⟩ : BufTy).Contents (Elt F))
  let t3 := (((fun x v => Host.reduce FloatOps.maximumf x v reducesTo_S100000x4_S100000_d1 h_S_) : (⟨S100000x4, .f32⟩ : BufTy).Contents (Elt F) → (⟨S_, .f32⟩ : BufTy).Contents (Elt F) → (⟨S100000, .f32⟩ : BufTy).Contents (Elt F)) t1 t2 : (⟨S100000, .f32⟩ : BufTy).Contents (Elt F))
  let t4 := ((constant S_ .f32 0xFF800000#32) : (⟨S_, .f32⟩ : BufTy).Contents (Elt F))
  let t5 := ((broadcastInDim S100000 ![] bcast_S_S100000 : (⟨S_, .f32⟩ : BufTy).Contents (Elt F) → (⟨S100000, .f32⟩ : BufTy).Contents (Elt F)) t4 : (⟨S100000, .f32⟩ : BufTy).Contents (Elt F))
  let t6 := ((maximumf : (⟨S100000, .f32⟩ : BufTy).Contents (Elt F) → (⟨S100000, .f32⟩ : BufTy).Contents (Elt F) → (⟨S100000, .f32⟩ : BufTy).Contents (Elt F)) t5 t3 : (⟨S100000, .f32⟩ : BufTy).Contents (Elt F))
  let t7 := ((broadcastInDim S100000x1 ![0] bcast_S100000_S100000x1_0 : (⟨S100000, .f32⟩ : BufTy).Contents (Elt F) → (⟨S100000x1, .f32⟩ : BufTy).Contents (Elt F)) t6 : (⟨S100000x1, .f32⟩ : BufTy).Contents (Elt F))
  let t8 := ((broadcastInDim S100000x4 ![0, 1] bcast_S100000x1_S100000x4_0_1 : (⟨S100000x1, .f32⟩ : BufTy).Contents (Elt F) → (⟨S100000x4, .f32⟩ : BufTy).Contents (Elt F)) t7 : (⟨S100000x4, .f32⟩ : BufTy).Contents (Elt F))
  let t9 := ((subf : (⟨S100000x4, .f32⟩ : BufTy).Contents (Elt F) → (⟨S100000x4, .f32⟩ : BufTy).Contents (Elt F) → (⟨S100000x4, .f32⟩ : BufTy).Contents (Elt F)) t1 t8 : (⟨S100000x4, .f32⟩ : BufTy).Contents (Elt F))
  let t10 := ((Host.exp : (⟨S100000x4, .f32⟩ : BufTy).Contents (Elt F) → (⟨S100000x4, .f32⟩ : BufTy).Contents (Elt F)) t9 : (⟨S100000x4, .f32⟩ : BufTy).Contents (Elt F))
  let t11 := ((constant S_ .f32 0x00000000#32) : (⟨S_, .f32⟩ : BufTy).Contents (Elt F))
  let t12 := (((fun x v => Host.reduceAdd x v reducesTo_S100000x4_S100000_d1 h_S_) : (⟨S100000x4, .f32⟩ : BufTy).Contents (Elt F) → (⟨S_, .f32⟩ : BufTy).Contents (Elt F) → (⟨S100000, .f32⟩ : BufTy).Contents (Elt F)) t10 t11 : (⟨S100000, .f32⟩ : BufTy).Contents (Elt F))
  let t13 := ((broadcastInDim S100000x1 ![0] bcast_S100000_S100000x1_0 : (⟨S100000, .f32⟩ : BufTy).Contents (Elt F) → (⟨S100000x1, .f32⟩ : BufTy).Contents (Elt F)) t12 : (⟨S100000x1, .f32⟩ : BufTy).Contents (Elt F))
  let t14 := ((broadcastInDim S100000x4 ![0, 1] bcast_S100000x1_S100000x4_0_1 : (⟨S100000x1, .f32⟩ : BufTy).Contents (Elt F) → (⟨S100000x4, .f32⟩ : BufTy).Contents (Elt F)) t13 : (⟨S100000x4, .f32⟩ : BufTy).Contents (Elt F))
  let t15 := ((Host.divf : (⟨S100000x4, .f32⟩ : BufTy).Contents (Elt F) → (⟨S100000x4, .f32⟩ : BufTy).Contents (Elt F) → (⟨S100000x4, .f32⟩ : BufTy).Contents (Elt F)) t10 t14 : (⟨S100000x4, .f32⟩ : BufTy).Contents (Elt F))
  t15

end Cert.ReferenceIdeal.Stage

end
-- ==== Proof.KernelIdealBlocks.lean ====
/-
  The region's output array READ AT AN INDEX, and the input windows' blocks as functions of their arrays.

  The output window's block at grid point `t` is rows `2000 t … 2000 t + 1999` of the output array (all 10 columns), and
  distinct points have distinct blocks; so entry `(2000 t + p, k)` of the array the region leaves is what point `t` wrote
  back there: the body's output block (`out5` of the five input blocks at `t`) at `(p, k)` (`mlpOut_apply`). The feature
  window's block at `t` is the same rows of the feature array (`iblk0_apply`); the weights' and the biases' windows are
  their whole arrays at every point (`iblk1_eq` … `iblk4_eq`).
-/
import proofs.«140184_j29661044146691_2_alg».proof.Proof.KernelIdealRegion
import Idealize.ShloMosaic.Lib.Pipeline.Value
import Idealize.ShloMosaic.Lib.ValueIdx

set_option maxRecDepth 16384

noncomputable section

namespace Cert.KernelIdeal.Region

open Cert.KernelIdeal Cert.KernelIdeal.Gen

open Idealize.ShloMosaic Idealize.ShloMosaic.TcCoe Idealize.SL.Sem
open Idealize.ShloMosaic.Pipeline (Dat)
open Idealize.ShloMosaic.ValueIdx

variable {F : FTy → Type} [FloatOps F]

/-! ## The index maps, decided over the 50 grid points -/

/-- The feature window and the output window sit at block `t` along the rows at point `t` (and at block 0 along the
    columns); the weights' and biases' windows are their whole arrays (block 0 on both axes) at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The output's index map sends distinct grid points to distinct blocks. -/
theorem idx_inj5 : ∀ t t' : Fin cfg0.N, win0_5.index t = win0_5.index t' → t = t' :=
  (by decide +kernel : ∀ t t' : Fin grid0.N, win0_5.index t = win0_5.index t' → t = t')

/-- So two points' output blocks share no array index. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- A grid point is below 50. -/
theorem point_lt (t : Fin cfg0.N) : t.val < 50 := N_0 ▸ t.isLt

/-- Row `p` of block `t` is a row of the array. -/
theorem row_lt (t : Fin cfg0.N) (p : Fin 2000) : 2000 * t.val + p.val < 100000 := by
  have := point_lt t; have := p.isLt; omega

section Data
variable (V : (c : Dev nD) → (b : Ref sig .tc) → Buf (Elt F) ((c : Thread nD τ).loc b))

/-- WHAT POINT `t` WRITES BACK to the output array: `out5` of the input windows' blocks at `t`. -/
theorem flushed5 (c : Dev nD) (t : Fin cfg0.N) :
    (dat V c).flushed 5 t = (cfg0.win 5).cut (grid0.coords t) (out5 (iblk V c 0 t) (iblk V c 1 t) (iblk V c 2 t) (iblk V c 3 t) (iblk V c 4 t)) := by
  show (cfg0.win 5).cut (grid0.coords t) ((dat V c).after 5 t) = _
  rw [after5]

/-- The output block's element `(p, k)` at point `t` sits in the array at row `2000 t + p`, column `k`. -/
theorem emb5 (t : Fin cfg0.N) (p : Fin 2000) (k : Fin 10) :
    ((cfg0.win 5).blk t).view.emb (ix2 p k) = (ix2 (⟨2000 * t.val + p.val, row_lt t p⟩ : Fin 100000) k : S100000x10.Idx) := by
  obtain ⟨-, -, -, -, -, -, -, -, -, -, e0, e1⟩ := idx_facts t
  funext a; apply Fin.ext
  match a with
  | ⟨0, _⟩ => show win0_5.index t (0 : Fin 2) * 2000 + 1 * p.val = 2000 * t.val + p.val; omega
  | ⟨1, _⟩ => show win0_5.index t (1 : Fin 2) * 10 + 1 * k.val = k.val; omega

/-- The feature block's element `(p, d)` at point `t` sits in the array at row `2000 t + p`, column `d`. -/
theorem emb0 (t : Fin cfg0.N) (p : Fin 2000) (d : Fin 12) :
    ((cfg0.win 0).blk t).view.emb (ix2 p d) = (ix2 (⟨2000 * t.val + p.val, row_lt t p⟩ : Fin 100000) d : S100000x12.Idx) := by
  obtain ⟨e0, e1, -⟩ := idx_facts t
  funext a; apply Fin.ext
  match a with
  | ⟨0, _⟩ => show win0_0.index t (0 : Fin 2) * 2000 + 1 * p.val = 2000 * t.val + p.val; omega
  | ⟨1, _⟩ => show win0_0.index t (1 : Fin 2) * 12 + 1 * d.val = d.val; omega

/-- THE FEATURE BLOCK at point `t`, element `(p, d)`: the feature array's entry at row `2000 t + p`, column `d`. -/
theorem iblk0_apply (c : Dev nD) (t : Fin cfg0.N) (p : Fin 2000) (d : Fin 12) :
    iblk V c 0 t (ix2 p d) = V c main_arg0 (ix2 (⟨2000 * t.val + p.val, row_lt t p⟩ : Fin 100000) d : S100000x12.Idx) := by
  show V c main_arg0 (((cfg0.win 0).blk t).view.emb (ix2 p d)) = _
  rw [emb0]

/-- Window 1 is its whole array at every point: its block there is the array `main_arg2` as the region finds it. -/
theorem iblk1_eq (c : Dev nD) (t : Fin cfg0.N) : (iblk V c 1 t : S12x1024.Idx → Elt F .f32) = V c main_arg2 := by
  funext j
  show V c main_arg2 (((cfg0.win 1).blk t).view.emb j) = V c main_arg2 j
  obtain ⟨-, -, e0, e1, -, -, -, -, -, -, -, -⟩ := idx_facts t
  refine congrArg _ (funext fun a => Fin.ext ?_)
  match a with
  | ⟨0, _⟩ => show win0_1.index t (0 : Fin 2) * 12 + 1 * (j 0).val = (j 0).val; omega
  | ⟨1, _⟩ => show win0_1.index t (1 : Fin 2) * 1024 + 1 * (j 1).val = (j 1).val; omega

/-- Window 2 is its whole array at every point: its block there is the array `main_v0` as the region finds it. -/
theorem iblk2_eq (c : Dev nD) (t : Fin cfg0.N) : (iblk V c 2 t : S1x1024.Idx → Elt F .f32) = V c main_v0 := by
  funext j
  show V c main_v0 (((cfg0.win 2).blk t).view.emb j) = V c main_v0 j
  obtain ⟨-, -, -, -, e0, e1, -, -, -, -, -, -⟩ := idx_facts t
  refine congrArg _ (funext fun a => Fin.ext ?_)
  match a with
  | ⟨0, _⟩ => show win0_2.index t (0 : Fin 2) * 1 + 1 * (j 0).val = (j 0).val; omega
  | ⟨1, _⟩ => show win0_2.index t (1 : Fin 2) * 1024 + 1 * (j 1).val = (j 1).val; omega

/-- Window 3 is its whole array at every point: its block there is the array `main_arg4` as the region finds it. -/
theorem iblk3_eq (c : Dev nD) (t : Fin cfg0.N) : (iblk V c 3 t : S1024x8.Idx → Elt F .f32) = V c main_arg4 := by
  funext j
  show V c main_arg4 (((cfg0.win 3).blk t).view.emb j) = V c main_arg4 j
  obtain ⟨-, -, -, -, -, -, e0, e1, -, -, -, -⟩ := idx_facts t
  refine congrArg _ (funext fun a => Fin.ext ?_)
  match a with
  | ⟨0, _⟩ => show win0_3.index t (0 : Fin 2) * 1024 + 1 * (j 0).val = (j 0).val; omega
  | ⟨1, _⟩ => show win0_3.index t (1 : Fin 2) * 8 + 1 * (j 1).val = (j 1).val; omega

/-- Window 4 is its whole array at every point: its block there is the array `main_v1` as the region finds it. -/
theorem iblk4_eq (c : Dev nD) (t : Fin cfg0.N) : (iblk V c 4 t : S1x8.Idx → Elt F .f32) = V c main_v1 := by
  funext j
  show V c main_v1 (((cfg0.win 4).blk t).view.emb j) = V c main_v1 j
  obtain ⟨-, -, -, -, -, -, -, -, e0, e1, -, -⟩ := idx_facts t
  refine congrArg _ (funext fun a => Fin.ext ?_)
  match a with
  | ⟨0, _⟩ => show win0_4.index t (0 : Fin 2) * 1 + 1 * (j 0).val = (j 0).val; omega
  | ⟨1, _⟩ => show win0_4.index t (1 : Fin 2) * 8 + 1 * (j 1).val = (j 1).val; omega

end Data

section Region
variable (W : Dev nD → Valuation τ sig (Elt F))

/-- THE OUTPUT ARRAY AFTER THE REGION, entry `(2000 t + p, k)`: what point `t` wrote back there, `out5` of the five input
    windows' blocks at `t` at `(p, k)` — the points' output blocks are pairwise disjoint, so no other point touches it. -/
theorem mlpOut_apply (c : Dev nD) (t : Fin cfg0.N) (p : Fin 2000) (k : Fin 10) :
    mlpOut W c (ix2 (⟨2000 * t.val + p.val, row_lt t p⟩ : Fin 100000) k : S100000x10.Idx)
      = out5 (iblk (Vof W) c 0 t) (iblk (Vof W) c 1 t) (iblk (Vof W) c 2 t) (iblk (Vof W) c 3 t) (iblk (Vof W) c 4 t) (ix2 p k) := by
  have h := (dat (Vof W) c).arrAt_emb_eq_flushed 5 disjoint5 t (flush0_5 t) (ix2 p k)
  rw [emb5, flushed5] at h
  refine h.trans ?_
  rw [cast_eq]
  show out5 _ _ _ _ _ ((cfg0.win 5).xinj (grid0.coords t) (ix2 p k)) = _
  exact congrArg _ (funext fun a => Fin.ext (by match a with | ⟨0, _⟩ => rfl | ⟨1, _⟩ => rfl))

end Region

end Cert.KernelIdeal.Region
end
-- ==== Proof.KernelIdealEntry.lean ====
/-
  The two host operations before the region, read at an index: each views a bias vector as an array of one row, so the
  row's entry in column `h` is the vector's entry `h`. These are the contents the region finds in its bias windows' arrays.
-/
import proofs.«140184_j29661044146691_2_alg».proof.Proof.KernelIdealHost
import Idealize.ShloMosaic.Lib.Pipeline.Value
import Idealize.ShloMosaic.Lib.ValueIdx

noncomputable section

namespace Cert.KernelIdeal.HostSide

open Cert.KernelIdeal Cert.KernelIdeal.Gen
open Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The first host operation views the first layer's bias (1024 entries) as one row of 1024 columns. -/
theorem V1_main_v0_eq (c : Dev nD) :
    (V1 m c main_v0 : S1x1024.Idx → Elt F .f32) = shapeCast S1x1024 (V0 m c main_arg3 : S1024.Idx → Elt F .f32) shapeCasts_S1024_S1x1024 := by
  show StableHlo.after hostOps0 (V0 m c) (Proc.devRef .tc main_v0) = _
  after_results
  rfl

/-- Its entry in column `h` is the bias's entry `h`. -/
theorem V1_main_v0_apply (c : Dev nD) (h : Fin 1024) :
    (V1 m c main_v0 : S1x1024.Idx → Elt F .f32) (ix2 (0 : Fin 1) h) = (V0 m c main_arg3 : S1024.Idx → Elt F .f32) (ix1 h) :=
  (congrFun (V1_main_v0_eq m c) (ix2 (0 : Fin 1) h)).trans
    (shapeCast_apply _ _ (ix2 (0 : Fin 1) h) (ix1 h) (by
      rw [Shape.rowMajor_val_one, Shape.rowMajor_val_two]
      show h.val = 0 * 1024 + h.val
      omega))

/-- The second host operation views the second layer's bias (8 entries) as one row of 8 columns. -/
theorem V1_main_v1_eq (c : Dev nD) :
    (V1 m c main_v1 : S1x8.Idx → Elt F .f32) = shapeCast S1x8 (V0 m c main_arg5 : S8.Idx → Elt F .f32) shapeCasts_S8_S1x8 := by
  show StableHlo.after hostOps0 (V0 m c) (Proc.devRef .tc main_v1) = _
  after_results
  rfl

/-- Its entry in column `k` is the bias's entry `k`. -/
theorem V1_main_v1_apply (c : Dev nD) (k : Fin 8) :
    (V1 m c main_v1 : S1x8.Idx → Elt F .f32) (ix2 (0 : Fin 1) k) = (V0 m c main_arg5 : S8.Idx → Elt F .f32) (ix1 k) :=
  (congrFun (V1_main_v1_eq m c) (ix2 (0 : Fin 1) k)).trans
    (shapeCast_apply _ _ (ix2 (0 : Fin 1) k) (ix1 k) (by
      rw [Shape.rowMajor_val_one, Shape.rowMajor_val_two]
      show k.val = 0 * 8 + k.val
      omega))

/-! ## The argument arrays and the region's output array around the region -/

/-- The two host operations before the region write no argument array: the region finds each as launched. -/
theorem V1_arg (c : Dev nD) {r : Ref sig .tc} (hr : r ∈ args) : V1 m c r = V0 m c r :=
  after_keeps head0.keeps (V0 m c) hr

variable (out : Out (F := F))

/-- The region leaves its output array at the contents named. -/
theorem V2_out (c : Dev nD) : V2 m out c main_v2 = out c :=
  Function.update_self (Proc.devRef .tc main_v2 : DevRef τ sig) (out c) (V1 m c)

/-- The region leaves each argument array as launched. -/
theorem V2_arg0 (c : Dev nD) {r : Ref sig .tc} (hr : r ∈ args) : V2 m out c r = V0 m c r :=
  (V2_arg m out c hr).trans (V1_arg m c hr)

end Cert.KernelIdeal.HostSide
end
-- ==== Proof.LibDotRead.lean ====
/-
  A matrix product accumulated into zero, read at one entry, at the ideal values.

  For the two dimension-number forms a two-operand product takes on rank-2 operands — rows × contraction times
  contraction × columns (`DotDims.plain`), and the same with the right operand stored transposed, columns × contraction
  (`DotDims.transposedRhs`) — entry `(r, c)` of the product is the plain sum, over the one contracted axis, of the
  left operand at `(r, k)` times the right operand at `(k, c)` (at `(c, k)` when stored transposed). The contraction
  index type of the dimension numbers is re-indexed to `Fin K` (`ValueIdx.contrEquiv1`), and the operands' indices at an
  output index and a contraction position are computed axis by axis: a free axis reads the output index, the
  contracted axis the contraction position. Extents are variables: nothing here depends on their values.
  No law of real arithmetic beyond `0 + x = x` is used, so the statements hold at the infinities too.
-/
import Idealize.ShloMosaic.Lib.ValueIdx
import Idealize.ShloMosaic.PureOps.Ideal.Laws

noncomputable section

namespace Idealize.ShloMosaic.DotRead

open Idealize.ShloMosaic Idealize.ShloMosaic.ValueIdx

/-! ## Rows × contraction times contraction × columns -/

/-- The left operand's row is the output's row. -/
theorem plain_lhs_row (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_col (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem plain_rhs_col (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry `(r, c)` of `A · B` accumulated into zero is `∑ k, A (r, k) * B (k, c)`. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_row M K N _ _
      | ⟨1, _⟩ => exact (plain_lhs_col M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_row M K N _ _).trans hk
      | ⟨1, _⟩ => exact plain_rhs_col M K N _ _)
  rw [el, er]

/-! ## The right operand stored transposed: rows × contraction times columns × contraction -/

/-- The left operand's row is the output's row. -/
theorem transposedRhs_lhs_row (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem transposedRhs_lhs_col (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the output's column. -/
theorem transposedRhs_rhs_row (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem transposedRhs_rhs_col (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- Entry `(r, c)` of `A · Bᵀ` accumulated into zero is `∑ k, A (r, k) * B (c, k)`. -/
theorem matmul_transposedRhs_zero_apply {φ₁ φ₂ : FTy} (M K N : Nat) (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant (F := Ideal) ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact transposedRhs_lhs_row M K N _ _
      | ⟨1, _⟩ => exact (transposedRhs_lhs_col M K N _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact transposedRhs_rhs_row M K N _ _
      | ⟨1, _⟩ => exact (transposedRhs_rhs_col M K N _ _).trans hk)
  rw [el, er]

end Idealize.ShloMosaic.DotRead

end
-- ==== Proof.LibKeepdims.lean ====
/-
  Keepdims layouts read at an index given by coordinates.

  A sum taken with `keepdims=True` leaves a unit axis where the summed axis was, so a kernel that brings a matrix down
  to a 1×1 cell one axis at a time passes through the column shapes: a vector `[a]` is made a column `[a, 1]`, a
  column is read back as a vector, laid as a row `[1, a]`, or broadcast across `b` columns. Each lemma reads one of
  these at an index written with `ix1` / `ix2`. The reason is the same every time: the unit coordinate `u : Fin 1`
  is `0`, so the row-major position of `(i, u)` in `[a, 1]` is `i · 1 + 0 = i`, the position of `i` in `[a]`
  and of `(0, i)` in `[1, a]`.

  These complete the leading-unit-axis forms of Lib/ValueLayout.lean (`shapeCast_a_1a_apply`, `shapeCast_1a_a_apply`,
  `broadcastTo_1b_ab_apply`) on the trailing side.
-/
import Idealize.ShloMosaic.Lib.ValueLayout

namespace Idealize.ShloMosaic.KeepdimsLayout

open Idealize.ShloMosaic Idealize.ShloMosaic.ValueIdx

variable {α : Type}

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` cast to a row `[1, a]` reads, at `(u, i)`, the operand at `(i, 0)`: the transpose of a
    column costs nothing, both lay the `a` entries out in order. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A row `[1, a]` cast to a column `[a, 1]` reads, at `(i, u)`, the operand at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.mul_one, Nat.add_zero, Nat.zero_mul, Nat.zero_add])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry vector `[1]` cast to a cell `[1, 1]` reads, anywhere, the operand's entry: the last step of a matrix
    summed down to one cell. -/
theorem shapeCast_1_11_apply (x : (⟨1, ![1]⟩ : Shape).Idx → α) (h : (⟨1, ![1]⟩ : Shape).ShapeCasts ⟨2, ![1, 1]⟩)
    (i u : Fin 1) : shapeCast ⟨2, ![1, 1]⟩ x h (ix2 i u) = x (ix1 (0 : Fin 1)) := by
  have hi : i = 0 := Subsingleton.elim _ _
  subst hi
  exact shapeCast_a_a1_apply x h 0 u

end Idealize.ShloMosaic.KeepdimsLayout
-- ==== Proof.MlpReads.lean ====
/-
  Reads at an index that a two-layer perceptron over the rows of a matrix needs, for any extents.

  * Three matrices with the same number of rows laid side by side (a concatenation along the column axis): a column
    of the result is a column of the first, the second or the third piece, according to where it falls among the
    three widths.
  * One column of a matrix taken as a vector (a unit-stride slice of width one, then the unit axis dropped): entry
    `p` is the matrix at `(p, o)`.
  * The host's matrix product rows × contraction times contraction × columns, at the ideal values: entry `(r, c)`
    is the plain sum over the contracted axis, with no accumulator and no regrouping.
  * A bitwise and and an unsigned conversion to a float, at an index, act on the elements.
  * A one-bit word widened to 32 bits and read as a signed integer is the bit read as an unsigned integer (0 or 1),
    so the two conversions to a float agree.
-/
import Idealize.ShloMosaic.Lib.ValueLayout
import Idealize.ShloMosaic.PureOps.Ideal.Laws
import proofs.«140184_j29661044146691_2_alg».proof.Proof.LibDotRead
import proofs.«140184_j29661044146691_2_alg».proof.Proof.LibKeepdims

noncomputable section

namespace MlpReads

open Idealize.ShloMosaic Idealize.ShloMosaic.ValueIdx

variable {α : Type}

/-! ## Three pieces side by side -/

/-- A column below the first width reads the first piece at the same position. -/
theorem concat3_cols_fst {n a b c m : Nat} (x : (⟨2, ![n, a]⟩ : Shape).Idx → α) (y : (⟨2, ![n, b]⟩ : Shape).Idx → α)
    (z : (⟨2, ![n, c]⟩ : Shape).Idx → α)
    (h : Shape.Concatenates [⟨2, ![n, a]⟩, ⟨2, ![n, b]⟩, ⟨2, ![n, c]⟩] ⟨2, ![n, m]⟩ 1)
    (p : Fin n) (k : Fin m) (i : Fin a) (hk : k.val = i.val) :
    concatenate ⟨2, ![n, m]⟩ 1 [⟨⟨2, ![n, a]⟩, x⟩, ⟨⟨2, ![n, b]⟩, y⟩, ⟨⟨2, ![n, c]⟩, z⟩] h (ix2 p k) = x (ix2 p i) :=
  concatenate_apply_piece (t := ⟨2, ![n, m]⟩) (1 : Fin 2)
    [⟨⟨2, ![n, a]⟩, x⟩, ⟨⟨2, ![n, b]⟩, y⟩, ⟨⟨2, ![n, c]⟩, z⟩] h (ix2 p k) 0 (by simp) _ x rfl rfl 0 rfl (ix2 p i)
    (fun d hd => by
      match d with
      | ⟨0, _⟩ => rfl
      | ⟨1, _⟩ => exact absurd rfl hd)
    (by show 0 + i.val = k.val; omega)

/-- A column in the second piece's span reads the second piece, the first width less. -/
theorem concat3_cols_snd {n a b c m : Nat} (x : (⟨2, ![n, a]⟩ : Shape).Idx → α) (y : (⟨2, ![n, b]⟩ : Shape).Idx → α)
    (z : (⟨2, ![n, c]⟩ : Shape).Idx → α)
    (h : Shape.Concatenates [⟨2, ![n, a]⟩, ⟨2, ![n, b]⟩, ⟨2, ![n, c]⟩] ⟨2, ![n, m]⟩ 1)
    (p : Fin n) (k : Fin m) (i : Fin b) (hk : k.val = a + i.val) :
    concatenate ⟨2, ![n, m]⟩ 1 [⟨⟨2, ![n, a]⟩, x⟩, ⟨⟨2, ![n, b]⟩, y⟩, ⟨⟨2, ![n, c]⟩, z⟩] h (ix2 p k) = y (ix2 p i) :=
  concatenate_apply_piece (t := ⟨2, ![n, m]⟩) (1 : Fin 2)
    [⟨⟨2, ![n, a]⟩, x⟩, ⟨⟨2, ![n, b]⟩, y⟩, ⟨⟨2, ![n, c]⟩, z⟩] h (ix2 p k) 1 (by simp) _ y rfl rfl a (by simp) (ix2 p i)
    (fun d hd => by
      match d with
      | ⟨0, _⟩ => rfl
      | ⟨1, _⟩ => exact absurd rfl hd)
    (by show a + i.val = k.val; omega)

/-- A column in the third piece's span reads the third piece, the first two widths less. -/
theorem concat3_cols_thd {n a b c m : Nat} (x : (⟨2, ![n, a]⟩ : Shape).Idx → α) (y : (⟨2, ![n, b]⟩ : Shape).Idx → α)
    (z : (⟨2, ![n, c]⟩ : Shape).Idx → α)
    (h : Shape.Concatenates [⟨2, ![n, a]⟩, ⟨2, ![n, b]⟩, ⟨2, ![n, c]⟩] ⟨2, ![n, m]⟩ 1)
    (p : Fin n) (k : Fin m) (i : Fin c) (hk : k.val = a + b + i.val) :
    concatenate ⟨2, ![n, m]⟩ 1 [⟨⟨2, ![n, a]⟩, x⟩, ⟨⟨2, ![n, b]⟩, y⟩, ⟨⟨2, ![n, c]⟩, z⟩] h (ix2 p k) = z (ix2 p i) :=
  concatenate_apply_piece (t := ⟨2, ![n, m]⟩) (1 : Fin 2)
    [⟨⟨2, ![n, a]⟩, x⟩, ⟨⟨2, ![n, b]⟩, y⟩, ⟨⟨2, ![n, c]⟩, z⟩] h (ix2 p k) 2 (by simp) _ z rfl rfl (a + b) (by simp) (ix2 p i)
    (fun d hd => by
      match d with
      | ⟨0, _⟩ => rfl
      | ⟨1, _⟩ => exact absurd rfl hd)
    (by show a + b + i.val = k.val; omega)

/-! ## One column as a vector -/

/-- Column `o` of a matrix, sliced out with width one and cast to a vector, reads at `p` the matrix at `(p, o)`. -/
theorem column_apply {n m : Nat} (o : Nat) (X : (⟨2, ![n, m]⟩ : Shape).Idx → α)
    (hs : (⟨2, ![n, m]⟩ : Shape).Slices ![0, o] ⟨2, ![n, 1]⟩) (hc : (⟨2, ![n, 1]⟩ : Shape).ShapeCasts ⟨1, ![n]⟩)
    (p : Fin n) (k : Fin m) (hk : k.val = o) :
    shapeCast ⟨1, ![n]⟩ (extractStridedSlice ⟨2, ![n, 1]⟩ ![0, o] X hs) hc (ix1 p) = X (ix2 p k) :=
  (KeepdimsLayout.shapeCast_a1_a_apply _ hc p).trans
    (slice2_axis1_apply o X hs p (0 : Fin 1) k (by show k.val = o + 0; omega))

/-! ## The host's matrix product at an entry -/

/-- Entry `(r, c)` of the host's `A · B` is `∑ k, A (r, k) * B (k, c)`. -/
theorem dotGeneral_plain_apply {φ₁ φ₂ : FTy} (M K N : Nat) (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c) = ∑ k : Fin K, lhs (ix2 r k) * rhs (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact DotRead.plain_lhs_row M K N _ _
      | ⟨1, _⟩ => exact (DotRead.plain_lhs_col M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (DotRead.plain_rhs_row M K N _ _).trans hk
      | ⟨1, _⟩ => exact DotRead.plain_rhs_col M K N _ _)
  rw [el, er]

/-! ## Two more elementwise operations at an index -/

/-- A bitwise and at an index is the and of the elements. -/
theorem andi_apply {s : Shape} {w : Nat} (x y : IVec s w) (i : s.Idx) : andi x y i = IntOp.andi (x i) (y i) := rfl

/-- An unsigned-integer-to-float conversion at an index converts the element. -/
theorem uitofp_apply {F : FTy → Type} [FloatOps F] {s : Shape} {φ : FTy} {w : Nat} (x : IVec s w) (i : s.Idx) :
    (uitofp φ x : FVec F s φ) i = FloatOps.uitofp φ (x i) := rfl

/-! ## A bit as a float, two ways -/

/-- A one-bit word widened to 32 bits and read signed is the bit read unsigned. -/
theorem setWidth_toInt_bit (b : BitVec 1) : (b.setWidth 32).toInt = (b.toNat : Int) := by
  revert b; decide

/-- So the signed conversion of the widened bit is the unsigned conversion of the bit. -/
theorem sitofp_extui_bit (b : BitVec 1) :
    (FloatOps.sitofp .f32 (b.setWidth 32) : Ideal .f32) = FloatOps.uitofp .f32 b := by
  show (((b.setWidth 32).toInt : ℝ) : EReal) = ((b.toNat : ℝ) : EReal)
  rw [setWidth_toInt_bit]
  norm_cast

end MlpReads

end
-- ==== Proof.MlpRow.lean ====
/-
  One row of the node table the perceptron produces, as a function of that row's twelve features and the weights.

  Columns 0 to 7 are the dense part: the features times the first weight matrix plus its bias, the positive part of
  each of the 1024 hidden units (a maximum with zero), times the second weight matrix plus its bias. Column 8 is ten
  times the difference of features 2 and 10. Column 9 is 10 or 0, less 5: ten times the bit that says features
  0 ≤ 5, 1 ≥ 4, 2 ≤ 11 and 3 ≥ 10 all hold. Nothing here assumes the numbers finite: sums, products and maxima are
  the extended reals' own.
-/
import Idealize.ShloMosaic.Lib.ValueIdx

noncomputable section

namespace MlpRow

open Idealize.ShloMosaic Idealize.ShloMosaic.ValueIdx

/-- Hidden unit `j` of a row: the positive part of the features' product with column `j` of the first weights, plus
    the bias. -/
def hidden (x : Fin 12 → EReal) (w1 : (⟨2, ![12, 1024]⟩ : Shape).Idx → EReal) (b1 : Fin 1024 → EReal) (j : Fin 1024) :
    EReal :=
  max ((∑ d : Fin 12, x d * w1 (ix2 d j)) + b1 j) (Ideal.ofBits .f32 0x00000000#32)

/-- Dense column `c` of a row: the hidden units' product with column `c` of the second weights, plus the bias. -/
def dense (x : Fin 12 → EReal) (w1 : (⟨2, ![12, 1024]⟩ : Shape).Idx → EReal) (b1 : Fin 1024 → EReal)
    (w2 : (⟨2, ![1024, 8]⟩ : Shape).Idx → EReal) (b2 : Fin 8 → EReal) (c : Fin 8) : EReal :=
  (∑ j : Fin 1024, hidden x w1 b1 j * w2 (ix2 j c)) + b2 c

/-- Column 8 of a row: ten times feature 2 less feature 10. -/
def diff (x : Fin 12 → EReal) : EReal :=
  (x 2 - x 10) * Ideal.ofBits .f32 0x41200000#32

/-- The bit of a row: the four feature comparisons, all of them. -/
def bit (x : Fin 12 → EReal) : BitVec 1 :=
  IntOp.andi (IntOp.andi (IntOp.andi (Ideal.cmp .ole (x 0) (x 5)) (Ideal.cmp .oge (x 1) (x 4)))
    (Ideal.cmp .ole (x 2) (x 11))) (Ideal.cmp .oge (x 3) (x 10))

/-- Column 9 of a row: ten times the bit, less five. -/
def flag (x : Fin 12 → EReal) : EReal :=
  (((bit x).toNat : ℝ) : EReal) * Ideal.ofBits .f32 0x41200000#32 - Ideal.ofBits .f32 0x40A00000#32

/-- The row: eight dense columns, the difference, the flag. -/
def row (x : Fin 12 → EReal) (w1 : (⟨2, ![12, 1024]⟩ : Shape).Idx → EReal) (b1 : Fin 1024 → EReal)
    (w2 : (⟨2, ![1024, 8]⟩ : Shape).Idx → EReal) (b2 : Fin 8 → EReal) (k : Fin 10) : EReal :=
  if h : k.val < 8 then dense x w1 b1 w2 b2 ⟨k.val, h⟩ else if k.val = 8 then diff x else flag x

theorem row_of_lt (x : Fin 12 → EReal) (w1 : (⟨2, ![12, 1024]⟩ : Shape).Idx → EReal) (b1 : Fin 1024 → EReal)
    (w2 : (⟨2, ![1024, 8]⟩ : Shape).Idx → EReal) (b2 : Fin 8 → EReal) (k : Fin 10) (h : k.val < 8) :
    row x w1 b1 w2 b2 k = dense x w1 b1 w2 b2 ⟨k.val, h⟩ := dif_pos h

theorem row_of_eq8 (x : Fin 12 → EReal) (w1 : (⟨2, ![12, 1024]⟩ : Shape).Idx → EReal) (b1 : Fin 1024 → EReal)
    (w2 : (⟨2, ![1024, 8]⟩ : Shape).Idx → EReal) (b2 : Fin 8 → EReal) (k : Fin 10) (h : k.val = 8) :
    row x w1 b1 w2 b2 k = diff x := by
  unfold row
  rw [dif_neg (by omega), if_pos h]

theorem row_of_eq9 (x : Fin 12 → EReal) (w1 : (⟨2, ![12, 1024]⟩ : Shape).Idx → EReal) (b1 : Fin 1024 → EReal)
    (w2 : (⟨2, ![1024, 8]⟩ : Shape).Idx → EReal) (b2 : Fin 8 → EReal) (k : Fin 10) (h : k.val = 9) :
    row x w1 b1 w2 b2 k = flag x := by
  unfold row
  rw [dif_neg (by omega), if_neg (by omega)]

end MlpRow

end
-- ==== Proof.MlpKernelBlock.lean ====
/-
  The value the kernel body stores for one block of 2000 rows, entry by entry.

  The body computes, from the block `x0` of feature rows, the weights and the two bias rows, a 2000 × 10 vector: eight
  columns from two matrix products accumulated into zero (operands passed through a change of float format, which is
  the identity on the extended reals), a bias row broadcast down the rows after each, a maximum with zero between
  them; one column from two feature columns subtracted and scaled; one column from four comparisons of feature
  columns, and-ed, widened, converted and scaled. Read at row `p` and column `k` this is `MlpRow.row` of row `p` of the
  block: each matrix product at an entry is the plain sum over the contracted axis, every other operation acts entry
  by entry or only moves entries.
-/
import proofs.«140184_j29661044146691_2_alg».proof.Proof.Gen.KernelIdeal.Skeleton
import proofs.«140184_j29661044146691_2_alg».proof.Proof.MlpReads
import proofs.«140184_j29661044146691_2_alg».proof.Proof.MlpRow

noncomputable section

namespace Cert.KernelIdeal.MlpBlock

open Idealize.ShloMosaic Idealize.ShloMosaic.ValueIdx Cert.KernelIdeal

/-- The eight dense columns: the second product's entry `(p, c)` plus the second bias. -/
theorem pay2_apply (x0 : Vec Ideal S2000x12 .f32) (w1 : Vec Ideal S12x1024 .f32) (b1r : Vec Ideal S1x1024 .f32)
    (w2 : Vec Ideal S1024x8 .f32) (b2r : Vec Ideal S1x8 .f32) (p : Fin 2000) (c : Fin 8) :
    Gen.k0_pay2 x0 w1 b1r w2 b2r (ix2 p c)
      = MlpRow.dense (fun d => x0 (ix2 p d)) w1 (fun j => b1r (ix2 0 j)) w2 (fun c => b2r (ix2 0 c)) c := by
  unfold Gen.k0_pay2 MlpRow.dense
  dsimp only
  rw [addf_apply]
  refine congrArg₂ (· + ·) ?_ ((broadcastTo_1b_ab_apply _ _ p c).trans (congrFun (shapeCast_self _ _) _))
  refine (DotRead.matmul_plain_zero_apply 2000 1024 8 none _ _ p c).trans ?_
  refine Finset.sum_congr rfl fun j _ => congrArg₂ (· * ·) ?_ rfl
  unfold MlpRow.hidden
  rw [truncf_apply, maximumf_apply, addf_apply]
  refine congrArg₂ max (congrArg₂ (· + ·) ?_ ?_) rfl
  · exact DotRead.matmul_plain_zero_apply 2000 12 1024 none _ _ p j
  · exact (broadcastTo_1b_ab_apply _ _ p j).trans (congrFun (shapeCast_self _ _) _)

/-- The difference column: feature 2 less feature 10, times ten. -/
theorem pay3_apply (x0 : Vec Ideal S2000x12 .f32) (p : Fin 2000) :
    Gen.k0_pay3 x0 (ix1 p) = MlpRow.diff (fun d => x0 (ix2 p d)) := by
  unfold Gen.k0_pay3 MlpRow.diff
  dsimp only
  rw [mulf_apply, subf_apply]
  exact congrArg₂ (· * ·)
    (congrArg₂ (· - ·) (MlpReads.column_apply 2 x0 _ _ p 2 rfl) (MlpReads.column_apply 10 x0 _ _ p 10 rfl)) rfl

/-- The first three comparisons, and-ed. -/
theorem pay4_apply (x0 : Vec Ideal S2000x12 .f32) (p : Fin 2000) :
    Gen.k0_pay4 x0 (ix1 p)
      = IntOp.andi (IntOp.andi (Ideal.cmp .ole (x0 (ix2 p 0)) (x0 (ix2 p 5))) (Ideal.cmp .oge (x0 (ix2 p 1)) (x0 (ix2 p 4))))
          (Ideal.cmp .ole (x0 (ix2 p 2)) (x0 (ix2 p 11))) := by
  unfold Gen.k0_pay4
  rw [MlpReads.andi_apply, MlpReads.andi_apply, cmpf_apply, cmpf_apply, cmpf_apply,
    MlpReads.column_apply 0 x0 _ _ p 0 rfl, MlpReads.column_apply 5 x0 _ _ p 5 rfl,
    MlpReads.column_apply 1 x0 _ _ p 1 rfl, MlpReads.column_apply 4 x0 _ _ p 4 rfl,
    MlpReads.column_apply 2 x0 _ _ p 2 rfl, MlpReads.column_apply 11 x0 _ _ p 11 rfl]
  rfl

/-- Feature 3 as a vector. -/
theorem pay5_apply (x0 : Vec Ideal S2000x12 .f32) (p : Fin 2000) : Gen.k0_pay5 x0 (ix1 p) = x0 (ix2 p 3) := by
  unfold Gen.k0_pay5
  exact MlpReads.column_apply 3 x0 _ _ p 3 rfl

/-- A column below 8 of the stored vector is that column of the dense part. -/
theorem pay1_dense (x0 : Vec Ideal S2000x12 .f32) (v18 : FVec Ideal S2000x8 .f32) (v25 : FVec Ideal S2000 .f32)
    (v42 : IVec S2000 1) (v44 : FVec Ideal S2000 .f32) (p : Fin 2000) (k : Fin 10) (c : Fin 8) (hk : k.val = c.val) :
    Gen.k0_pay1 x0 v18 v25 v42 v44 (ix2 p k) = v18 (ix2 p c) := by
  unfold Gen.k0_pay1
  exact MlpReads.concat3_cols_fst _ _ _ _ p k c hk

/-- Column 8 of the stored vector is the difference vector. -/
theorem pay1_diff (x0 : Vec Ideal S2000x12 .f32) (v18 : FVec Ideal S2000x8 .f32) (v25 : FVec Ideal S2000 .f32)
    (v42 : IVec S2000 1) (v44 : FVec Ideal S2000 .f32) (p : Fin 2000) (k : Fin 10) (hk : k.val = 8) :
    Gen.k0_pay1 x0 v18 v25 v42 v44 (ix2 p k) = v25 (ix1 p) := by
  unfold Gen.k0_pay1
  exact (MlpReads.concat3_cols_snd _ _ _ _ p k (0 : Fin 1) (by show k.val = 8 + 0; omega)).trans
    (KeepdimsLayout.shapeCast_a_a1_apply _ _ p 0)

/-- Column 9 of the stored vector: the three-comparison bit and-ed with the fourth comparison, as 0 or 1, times ten,
    less five. -/
theorem pay1_flag (x0 : Vec Ideal S2000x12 .f32) (v18 : FVec Ideal S2000x8 .f32) (v25 : FVec Ideal S2000 .f32)
    (v42 : IVec S2000 1) (v44 : FVec Ideal S2000 .f32) (p : Fin 2000) (k : Fin 10) (hk : k.val = 9) :
    Gen.k0_pay1 x0 v18 v25 v42 v44 (ix2 p k)
      = (((IntOp.andi (v42 (ix1 p)) (Ideal.cmp .oge (v44 (ix1 p)) (x0 (ix2 p 10)))).toNat : ℝ) : EReal)
          * Ideal.ofBits .f32 0x41200000#32 - Ideal.ofBits .f32 0x40A00000#32 := by
  unfold Gen.k0_pay1
  refine ((MlpReads.concat3_cols_thd _ _ _ _ p k (0 : Fin 1) (by show k.val = 8 + 1 + 0; omega)).trans
    (KeepdimsLayout.shapeCast_a_a1_apply _ _ p 0)).trans ?_
  rw [subf_apply, mulf_apply, sitofp_apply, extui_apply, MlpReads.sitofp_extui_bit, MlpReads.andi_apply, cmpf_apply,
    MlpReads.column_apply 10 x0 _ _ p 10 rfl]
  rfl

/-- **The stored block, entry by entry**: row `p`, column `k` of what the body stores is `MlpRow.row` of row `p` of the
    feature block, the weights, and the two bias rows read along their one row. -/
theorem block_row (x0 : Vec Ideal S2000x12 .f32) (w1 : Vec Ideal S12x1024 .f32) (b1r : Vec Ideal S1x1024 .f32)
    (w2 : Vec Ideal S1024x8 .f32) (b2r : Vec Ideal S1x8 .f32) (p : Fin 2000) (k : Fin 10) :
    Gen.k0_pay1 x0 (Gen.k0_pay2 x0 w1 b1r w2 b2r) (Gen.k0_pay3 x0) (Gen.k0_pay4 x0) (Gen.k0_pay5 x0) (ix2 p k)
      = MlpRow.row (fun d => x0 (ix2 p d)) w1 (fun j => b1r (ix2 0 j)) w2 (fun c => b2r (ix2 0 c)) k := by
  by_cases h8 : k.val < 8
  · rw [MlpRow.row_of_lt _ _ _ _ _ k h8, pay1_dense x0 _ _ _ _ p k ⟨k.val, h8⟩ rfl]
    exact pay2_apply x0 w1 b1r w2 b2r p ⟨k.val, h8⟩
  · by_cases h9 : k.val = 8
    · rw [MlpRow.row_of_eq8 _ _ _ _ _ k h9, pay1_diff x0 _ _ _ _ p k h9]
      exact pay3_apply x0 p
    · have h10 : k.val = 9 := by have := k.isLt; omega
      rw [MlpRow.row_of_eq9 _ _ _ _ _ k h10, pay1_flag x0 _ _ _ _ p k h10, pay4_apply, pay5_apply]
      rfl

end Cert.KernelIdeal.MlpBlock

end
-- ==== Proof.LibBroadcastReads.lean ====
/-
  `broadcast_in_dim` of the small shapes a bias, a per-row scale and a per-edge scale go through, read at an index:
  a scalar to any shape; a list [a] to a column [a, 1]; a column [a, 1] across [a, b]; a list [b] to a row [1, b]; a row
  [1, b] down [a, b].
-/
import Idealize.ShloMosaic.Lib.ValueIdx
import Idealize.ShloMosaic.Lib.Pipeline.Value

noncomputable section

namespace BroadcastReads

open Idealize.ShloMosaic Idealize.ShloMosaic.ValueIdx

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A list as a column: entry `(p, 0)` is entry `p`. -/
theorem col_apply {a : Nat} (dims : Fin 1 → Fin 2) (hd : dims 0 = 0)
    (h : (⟨1, ![a]⟩ : Shape).BroadcastsInDim ⟨2, ![a, 1]⟩ dims) (x : (⟨1, ![a]⟩ : Shape).Idx → α) (p : Fin a) (z : Fin 1) :
    broadcastInDim ⟨2, ![a, 1]⟩ dims h x (ix2 p z) = x (ix1 p) :=
  broadcastInDim_apply dims h x (ix2 p z) (ix1 p) (fun d => by
    match d with
    | ⟨0, _⟩ =>
      show p.val = if a = 1 then 0 else ((ix2 p z) (dims 0)).val
      rw [hd]
      show p.val = if a = 1 then 0 else p.val
      split
      · have := p.isLt; omega
      · rfl)

/-- A column across its rows: entry `(p, q)` is the column's entry `(p, 0)`. -/
theorem colAcross_apply {a b : Nat} (dims : Fin 2 → Fin 2) (hd0 : dims 0 = 0) (hd1 : dims 1 = 1)
    (h : (⟨2, ![a, 1]⟩ : Shape).BroadcastsInDim ⟨2, ![a, b]⟩ dims) (x : (⟨2, ![a, 1]⟩ : Shape).Idx → α) (p : Fin a) (q : Fin b) :
    broadcastInDim ⟨2, ![a, b]⟩ dims h x (ix2 p q) = x (ix2 p (0 : Fin 1)) :=
  broadcastInDim_apply dims h x (ix2 p q) (ix2 p (0 : Fin 1)) (fun d => by
    match d with
    | ⟨0, _⟩ =>
      show p.val = if a = 1 then 0 else ((ix2 p q) (dims 0)).val
      rw [hd0]
      show p.val = if a = 1 then 0 else p.val
      split
      · have := p.isLt; omega
      · rfl
    | ⟨1, _⟩ =>
      show (0 : Nat) = if (1 : Nat) = 1 then 0 else ((ix2 p q) (dims 1)).val
      rw [if_pos rfl])

/-- A list as a row: entry `(0, q)` is entry `q`. -/
theorem row_apply {b : Nat} (dims : Fin 1 → Fin 2) (hd : dims 0 = 1)
    (h : (⟨1, ![b]⟩ : Shape).BroadcastsInDim ⟨2, ![1, b]⟩ dims) (x : (⟨1, ![b]⟩ : Shape).Idx → α) (z : Fin 1) (q : Fin b) :
    broadcastInDim ⟨2, ![1, b]⟩ dims h x (ix2 z q) = x (ix1 q) :=
  broadcastInDim_apply dims h x (ix2 z q) (ix1 q) (fun d => by
    match d with
    | ⟨0, _⟩ =>
      show q.val = if b = 1 then 0 else ((ix2 z q) (dims 0)).val
      rw [hd]
      show q.val = if b = 1 then 0 else q.val
      split
      · have := q.isLt; omega
      · rfl)

/-- A row down its columns: entry `(p, q)` is the row's entry `(0, q)`. -/
theorem rowDown_apply {a b : Nat} (dims : Fin 2 → Fin 2) (hd0 : dims 0 = 0) (hd1 : dims 1 = 1)
    (h : (⟨2, ![1, b]⟩ : Shape).BroadcastsInDim ⟨2, ![a, b]⟩ dims) (x : (⟨2, ![1, b]⟩ : Shape).Idx → α) (p : Fin a) (q : Fin b) :
    broadcastInDim ⟨2, ![a, b]⟩ dims h x (ix2 p q) = x (ix2 (0 : Fin 1) q) :=
  broadcastInDim_apply dims h x (ix2 p q) (ix2 (0 : Fin 1) q) (fun d => by
    match d with
    | ⟨0, _⟩ =>
      show (0 : Nat) = if (1 : Nat) = 1 then 0 else ((ix2 p q) (dims 0)).val
      rw [if_pos rfl]
    | ⟨1, _⟩ =>
      show q.val = if b = 1 then 0 else ((ix2 p q) (dims 1)).val
      rw [hd1]
      show q.val = if b = 1 then 0 else q.val
      split
      · have := q.isLt; omega
      · rfl)

end BroadcastReads

end
-- ==== Proof.MlpRefTable.lean ====
/-
  The reference's node table before any layer, entry by entry.

  The reference computes the same perceptron on all 100000 rows at once: two host matrix products, each followed by
  its bias (a list made a row, the row broadcast down the rows), a maximum with a broadcast zero between them; the
  difference of two feature columns scaled; four comparisons of feature columns and-ed, converted and scaled; the
  three pieces laid side by side. Read at row `n` and column `k` this is `MlpRow.row` of row `n` of the features: a
  host matrix product at an entry is the plain sum over the contracted axis, every other operation acts entry by
  entry or only moves entries.
-/
import proofs.«140184_j29661044146691_2_alg».proof.Proof.RefStageDefs
import proofs.«140184_j29661044146691_2_alg».proof.Proof.MlpReads
import proofs.«140184_j29661044146691_2_alg».proof.Proof.MlpRow
import proofs.«140184_j29661044146691_2_alg».proof.Proof.LibBroadcastReads

noncomputable section

namespace Cert.ReferenceIdeal.MlpTable

open Idealize.ShloMosaic Idealize.ShloMosaic.ValueIdx Cert.ReferenceIdeal

variable [Cert.ReferenceIdeal.Facts]

/-- A column below 8 of the table is that dense column of the row. -/
theorem mlp_dense (feat : FVec Ideal S100000x12 .f32) (w1 : FVec Ideal S12x1024 .f32) (b1 : FVec Ideal S1024 .f32)
    (w2 : FVec Ideal S1024x8 .f32) (b2 : FVec Ideal S8 .f32) (n : Fin 100000) (k : Fin 10) (c : Fin 8) (hk : k.val = c.val) :
    Stage.mlp (F := Ideal) feat w1 b1 w2 b2 (ix2 n k)
      = MlpRow.dense (fun d => feat (ix2 n d)) w1 (fun j => b1 (ix1 j)) w2 (fun c => b2 (ix1 c)) c := by
  unfold Stage.mlp MlpRow.dense
  dsimp only
  refine (MlpReads.concat3_cols_fst _ _ _ _ n k c hk).trans ?_
  rw [addf_apply]
  refine congrArg₂ (· + ·) ?_ ?_
  · refine (MlpReads.dotGeneral_plain_apply 100000 1024 8 none _ _ _ n c).trans ?_
    refine Finset.sum_congr rfl fun j _ => congrArg₂ (· * ·) ?_ rfl
    unfold MlpRow.hidden
    rw [maximumf_apply, addf_apply]
    refine congrArg₂ max (congrArg₂ (· + ·) ?_ ?_) ?_
    · exact MlpReads.dotGeneral_plain_apply 100000 12 1024 none _ _ _ n j
    · exact (BroadcastReads.rowDown_apply ![0, 1] rfl rfl _ _ n j).trans (BroadcastReads.row_apply ![1] rfl _ _ 0 j)
    · exact BroadcastReads.scalar_apply _ _ _ _
  · exact (BroadcastReads.rowDown_apply ![0, 1] rfl rfl _ _ n c).trans (BroadcastReads.row_apply ![1] rfl _ _ 0 c)

/-- Column 8 of the table is the row's difference. -/
theorem mlp_diff (feat : FVec Ideal S100000x12 .f32) (w1 : FVec Ideal S12x1024 .f32) (b1 : FVec Ideal S1024 .f32)
    (w2 : FVec Ideal S1024x8 .f32) (b2 : FVec Ideal S8 .f32) (n : Fin 100000) (k : Fin 10) (hk : k.val = 8) :
    Stage.mlp (F := Ideal) feat w1 b1 w2 b2 (ix2 n k) = MlpRow.diff (fun d => feat (ix2 n d)) := by
  unfold Stage.mlp MlpRow.diff
  dsimp only
  refine ((MlpReads.concat3_cols_snd _ _ _ _ n k (0 : Fin 1) (by show k.val = 8 + 0; omega)).trans
    (BroadcastReads.col_apply ![0] rfl _ _ n 0)).trans ?_
  rw [mulf_apply, subf_apply]
  exact congrArg₂ (· * ·)
    (congrArg₂ (· - ·) (MlpReads.column_apply 2 feat _ _ n 2 rfl) (MlpReads.column_apply 10 feat _ _ n 10 rfl))
    (BroadcastReads.scalar_apply _ _ _ _)

/-- Column 9 of the table is the row's flag. -/
theorem mlp_flag (feat : FVec Ideal S100000x12 .f32) (w1 : FVec Ideal S12x1024 .f32) (b1 : FVec Ideal S1024 .f32)
    (w2 : FVec Ideal S1024x8 .f32) (b2 : FVec Ideal S8 .f32) (n : Fin 100000) (k : Fin 10) (hk : k.val = 9) :
    Stage.mlp (F := Ideal) feat w1 b1 w2 b2 (ix2 n k) = MlpRow.flag (fun d => feat (ix2 n d)) := by
  unfold Stage.mlp MlpRow.flag MlpRow.bit
  dsimp only
  refine ((MlpReads.concat3_cols_thd _ _ _ _ n k (0 : Fin 1) (by show k.val = 8 + 1 + 0; omega)).trans
    (BroadcastReads.col_apply ![0] rfl _ _ n 0)).trans ?_
  rw [subf_apply, mulf_apply, MlpReads.uitofp_apply]
  refine congrArg₂ (· - ·) (congrArg₂ (· * ·) ?_ (BroadcastReads.scalar_apply _ _ _ _))
    (BroadcastReads.scalar_apply _ _ _ _)
  refine congrArg (fun b : BitVec 1 => (((b.toNat : ℝ)) : EReal)) ?_
  rw [MlpReads.andi_apply, MlpReads.andi_apply, MlpReads.andi_apply, cmpf_apply, cmpf_apply, cmpf_apply, cmpf_apply]
  exact congrArg₂ IntOp.andi
    (congrArg₂ IntOp.andi
      (congrArg₂ IntOp.andi
        (congrArg₂ (Ideal.cmp .ole) (MlpReads.column_apply 0 feat _ _ n 0 rfl) (MlpReads.column_apply 5 feat _ _ n 5 rfl))
        (congrArg₂ (Ideal.cmp .oge) (MlpReads.column_apply 1 feat _ _ n 1 rfl) (MlpReads.column_apply 4 feat _ _ n 4 rfl)))
      (congrArg₂ (Ideal.cmp .ole) (MlpReads.column_apply 2 feat _ _ n 2 rfl) (MlpReads.column_apply 11 feat _ _ n 11 rfl)))
    (congrArg₂ (Ideal.cmp .oge) (MlpReads.column_apply 3 feat _ _ n 3 rfl) (MlpReads.column_apply 10 feat _ _ n 10 rfl))

/-- **The table, entry by entry**: row `n`, column `k` is `MlpRow.row` of row `n` of the features, the weights and the
    biases. -/
theorem table_row (feat : FVec Ideal S100000x12 .f32) (w1 : FVec Ideal S12x1024 .f32) (b1 : FVec Ideal S1024 .f32)
    (w2 : FVec Ideal S1024x8 .f32) (b2 : FVec Ideal S8 .f32) (n : Fin 100000) (k : Fin 10) :
    Stage.mlp (F := Ideal) feat w1 b1 w2 b2 (ix2 n k)
      = MlpRow.row (fun d => feat (ix2 n d)) w1 (fun j => b1 (ix1 j)) w2 (fun c => b2 (ix1 c)) k := by
  by_cases h8 : k.val < 8
  · rw [MlpRow.row_of_lt _ _ _ _ _ k h8]
    exact mlp_dense feat w1 b1 w2 b2 n k ⟨k.val, h8⟩ rfl
  · by_cases h9 : k.val = 8
    · rw [MlpRow.row_of_eq8 _ _ _ _ _ k h9]
      exact mlp_diff feat w1 b1 w2 b2 n k h9
    · have h10 : k.val = 9 := by have := k.isLt; omega
      rw [MlpRow.row_of_eq9 _ _ _ _ _ k h10]
      exact mlp_flag feat w1 b1 w2 b2 n k h10

end Cert.ReferenceIdeal.MlpTable

end
-- ==== Proof.MlpBlockLaw.lean ====
/-
  The perceptron's block law: what the kernel body stores for block `t` of 2000 rows is, entry by entry, the
  reference's node table at rows `2000 · t … 2000 · t + 1999`.

  Both sides are `MlpRow.row` of the same feature row and the same weights: the kernel's block `x0` is rows
  `2000 · t + p` of the features, and its two bias rows hold the bias lists along their one row. No finiteness is
  used: the matrix products are the same plain sums over the contracted axis on both sides, a change of float format
  is the identity on the extended reals, and the comparison bit is 0 or 1 whichever way it is converted.
-/
import proofs.«140184_j29661044146691_2_alg».proof.Proof.MlpKernelBlock
import proofs.«140184_j29661044146691_2_alg».proof.Proof.MlpRefTable

noncomputable section

namespace Cert.MlpBlockLaw

open Idealize.ShloMosaic Idealize.ShloMosaic.ValueIdx

variable [Cert.ReferenceIdeal.Facts]

/-- **The block law.** -/
theorem mlp_block (feat : FVec Ideal Cert.ReferenceIdeal.S100000x12 .f32) (w1 : FVec Ideal Cert.ReferenceIdeal.S12x1024 .f32)
    (b1 : FVec Ideal Cert.ReferenceIdeal.S1024 .f32) (w2 : FVec Ideal Cert.ReferenceIdeal.S1024x8 .f32)
    (b2 : FVec Ideal Cert.ReferenceIdeal.S8 .f32)
    (t : Fin 50) (x0 : Vec Ideal Cert.KernelIdeal.S2000x12 .f32) (b1r : Vec Ideal Cert.KernelIdeal.S1x1024 .f32)
    (b2r : Vec Ideal Cert.KernelIdeal.S1x8 .f32)
    (hx0 : ∀ (p : Fin 2000) (d : Fin 12), x0 (ix2 p d) = feat (ix2 ⟨2000 * t.val + p.val, by omega⟩ d))
    (hb1 : ∀ h : Fin 1024, b1r (ix2 0 h) = b1 (ix1 h)) (hb2 : ∀ k : Fin 8, b2r (ix2 0 k) = b2 (ix1 k))
    (p : Fin 2000) (k : Fin 10) :
    Cert.KernelIdeal.Gen.k0_pay1 x0 (Cert.KernelIdeal.Gen.k0_pay2 x0 w1 b1r w2 b2r) (Cert.KernelIdeal.Gen.k0_pay3 x0)
        (Cert.KernelIdeal.Gen.k0_pay4 x0) (Cert.KernelIdeal.Gen.k0_pay5 x0) (ix2 p k)
      = Cert.ReferenceIdeal.Stage.mlp (F := Ideal) feat w1 b1 w2 b2 (ix2 ⟨2000 * t.val + p.val, by omega⟩ k) := by
  rw [Cert.KernelIdeal.MlpBlock.block_row, Cert.ReferenceIdeal.MlpTable.table_row]
  have e0 : (fun d => x0 (ix2 p d)) = fun d => feat (ix2 ⟨2000 * t.val + p.val, by omega⟩ d) := funext fun d => hx0 p d
  have e1 : (fun j => b1r (ix2 0 j)) = fun j => b1 (ix1 j) := funext hb1
  have e2 : (fun c => b2r (ix2 0 c)) = fun c => b2 (ix1 c) := funext hb2
  rw [e0, e1, e2]

end Cert.MlpBlockLaw

end
-- ==== Proof.MlpJoin.lean ====
/-
  THE PERCEPTRON JOIN, on the extended reals: the array the kernel region leaves (`Region.mlpOut` from the contents the
  two host operations before it leave) IS the reference's node table `Stage.mlp` of the launch contents of the features,
  the two layers' weights and the two bias vectors.

  Entry `(n, k)` with `n = 2000 t + p` is what grid point `t` wrote back at `(p, k)`; the input blocks there are rows
  `2000 t …` of the features, the weights whole, and the bias vectors viewed as one row; the block law identifies the
  body's stored value with the reference's table at that entry.
-/
import proofs.«140184_j29661044146691_2_alg».proof.Proof.KernelIdealBlocks
import proofs.«140184_j29661044146691_2_alg».proof.Proof.KernelIdealEntry
import proofs.«140184_j29661044146691_2_alg».proof.Proof.MlpBlockLaw

noncomputable section

namespace Cert.MlpJoin

open Cert.KernelIdeal Cert.KernelIdeal.Gen
open Idealize.ShloMosaic Idealize.ShloMosaic.TcCoe Idealize.SL.Sem
open Idealize.ShloMosaic.ValueIdx
open Cert.KernelIdeal.Region Cert.KernelIdeal.HostSide

variable [Cert.ReferenceIdeal.Facts]
variable (m : (ℓ : Loc nD τ sig) → Buf (Elt Ideal) ℓ)

/-- Entry `(2000 t + p, k)` of the array the region leaves is the reference's node table there: what point `t` wrote
    back is the body's output block of the input blocks at `t`, the feature block being rows `2000 t …` of the features,
    the weights whole, the two bias rows the bias vectors along their one row; the block law does the rest. -/
theorem mlpOut_row (c : Dev nD) (t : Fin cfg0.N) (p : Fin 2000) (k : Fin 10) :
    mlpOut (V1 m) c (ix2 (⟨2000 * t.val + p.val, row_lt t p⟩ : Fin 100000) k : S100000x10.Idx)
      = Cert.ReferenceIdeal.Stage.mlp (F := Ideal) (V0 m c main_arg0) (V0 m c main_arg2) (V0 m c main_arg3) (V0 m c main_arg4) (V0 m c main_arg5)
          (ix2 (⟨2000 * t.val + p.val, row_lt t p⟩ : Fin 100000) k) := by
  rw [mlpOut_apply, out5_eq]
  have hx0 : ∀ (p : Fin 2000) (d : Fin 12), iblk (Vof (V1 m)) c 0 t (ix2 p d)
      = (V0 m c main_arg0 : S100000x12.Idx → EReal) (ix2 (⟨2000 * t.val + p.val, row_lt t p⟩ : Fin 100000) d) := fun p d =>
    (iblk0_apply (Vof (V1 m)) c t p d).trans (congrFun (V1_arg m c (r := main_arg0) (by decide)) _)
  have e1 : (iblk (Vof (V1 m)) c 1 t : S12x1024.Idx → EReal) = V0 m c main_arg2 :=
    (iblk1_eq (Vof (V1 m)) c t).trans (V1_arg m c (r := main_arg2) (by decide))
  have e2 : (iblk (Vof (V1 m)) c 2 t : S1x1024.Idx → EReal) = V1 m c main_v0 := iblk2_eq (Vof (V1 m)) c t
  have e3 : (iblk (Vof (V1 m)) c 3 t : S1024x8.Idx → EReal) = V0 m c main_arg4 :=
    (iblk3_eq (Vof (V1 m)) c t).trans (V1_arg m c (r := main_arg4) (by decide))
  have e4 : (iblk (Vof (V1 m)) c 4 t : S1x8.Idx → EReal) = V1 m c main_v1 := iblk4_eq (Vof (V1 m)) c t
  rw [e1, e2, e3, e4]
  exact Cert.MlpBlockLaw.mlp_block (V0 m c main_arg0) (V0 m c main_arg2) (V0 m c main_arg3) (V0 m c main_arg4) (V0 m c main_arg5)
    ⟨t.val, point_lt t⟩ (iblk (Vof (V1 m)) c 0 t) (V1 m c main_v0) (V1 m c main_v1) hx0
    (V1_main_v0_apply m c) (V1_main_v1_apply m c) p k

/-- THE REGION'S OUTPUT ARRAY IS THE REFERENCE'S NODE TABLE of the launch contents of the features, the two layers'
    weights and the two bias vectors: every row `n` is row `n % 2000` of the block of point `n / 2000`. -/
theorem mlpOut_eq_ref (c : Dev nD) :
    (mlpOut (V1 m) c : S100000x10.Idx → EReal)
      = Cert.ReferenceIdeal.Stage.mlp (F := Ideal) (V0 m c main_arg0) (V0 m c main_arg2) (V0 m c main_arg3) (V0 m c main_arg4) (V0 m c main_arg5) := by
  funext i
  obtain ⟨n, k, rfl⟩ : ∃ (n : Fin 100000) (k : Fin 10), i = ix2 n k := ⟨i 0, i 1, eq_ix2 i⟩
  have hn := n.isLt
  have ht : n.val / 2000 < cfg0.N := by rw [show cfg0.N = 50 from N_0]; omega
  have hp : n.val % 2000 < 2000 := Nat.mod_lt _ (by decide)
  have e : n = ⟨2000 * (⟨n.val / 2000, ht⟩ : Fin cfg0.N).val + (⟨n.val % 2000, hp⟩ : Fin 2000).val, row_lt _ _⟩ :=
    Fin.ext (by show n.val = 2000 * (n.val / 2000) + n.val % 2000; omega)
  rw [e]
  exact mlpOut_row m c ⟨n.val / 2000, ht⟩ ⟨n.val % 2000, hp⟩ k

end Cert.MlpJoin

end
-- ==== Proof.KerTailChunks.lean ====
/- The kernel program's host operations after the fused-MLP region, cut where one stage ends and the next begins: per layer the part that
   computes the two update blocks and the part that concatenates and scatter-adds them; then the head. -/
import proofs.«140184_j29661044146691_2_alg».proof.Proof.Gen.KernelIdeal.Launch
import proofs.«140184_j29661044146691_2_alg».proof.Proof.KerStageDefs
import proofs.«140184_j29661044146691_2_alg».proof.Proof.LibHostLine

import Idealize.ShloMosaic.Lib.StableHlo.Run

set_option maxRecDepth 65536

noncomputable section

namespace Cert.KernelIdeal.TailValue

open Cert.KernelIdeal Cert.KernelIdeal.Gen Idealize.ShloMosaic Idealize.ShloMosaic.TcCoe Idealize.SL.Sem Idealize.ShloMosaic.StableHlo

variable {F : FTy → Type} [FloatOps F]

/-- From the end of the region to layer 1's two update blocks: the index concatenation, the clause weight, the gathers and the boost. -/
abbrev partA1 : List (HloOp τ sig (Elt F)) := hostOps1 ++ hostOps1_1 ++ hostOps1_2 ++ hostOps1_3 ++ hostOps1_4 ++ hostOps1_5 ++ hostOps1_6 ++ hostOps1_7 ++ hostOps1_8 ++ hostOps1_9 ++ hostOps1_10.take 12
/-- Layer 1's concatenation and scatter-add. -/
abbrev partB1 : List (HloOp τ sig (Elt F)) := (hostOps1_10.drop 12).take 10
abbrev partA2 : List (HloOp τ sig (Elt F)) := hostOps1_10.drop 22 ++ hostOps1_11 ++ hostOps1_12 ++ hostOps1_13 ++ hostOps1_14 ++ hostOps1_15 ++ hostOps1_16 ++ hostOps1_17 ++ hostOps1_18 ++ hostOps1_19 ++ hostOps1_20.take 12
abbrev partB2 : List (HloOp τ sig (Elt F)) := (hostOps1_20.drop 12).take 10
abbrev partA3 : List (HloOp τ sig (Elt F)) := hostOps1_20.drop 22 ++ hostOps1_21 ++ hostOps1_22 ++ hostOps1_23 ++ hostOps1_24 ++ hostOps1_25 ++ hostOps1_26 ++ hostOps1_27 ++ hostOps1_28 ++ hostOps1_29 ++ hostOps1_30.take 12
abbrev partB3 : List (HloOp τ sig (Elt F)) := (hostOps1_30.drop 12).take 10
/-- The head. -/
abbrev chunk4 : List (HloOp τ sig (Elt F)) := hostOps1_30.drop 22
/-- Every host operation after the region, in order. -/
abbrev tailAll : List (HloOp τ sig (Elt F)) := hostOps1 ++ hostOps1_1 ++ hostOps1_2 ++ hostOps1_3 ++ hostOps1_4 ++ hostOps1_5 ++ hostOps1_6 ++ hostOps1_7 ++ hostOps1_8 ++ hostOps1_9 ++ hostOps1_10 ++ hostOps1_11 ++ hostOps1_12 ++ hostOps1_13 ++ hostOps1_14 ++ hostOps1_15 ++ hostOps1_16 ++ hostOps1_17 ++ hostOps1_18 ++ hostOps1_19 ++ hostOps1_20 ++ hostOps1_21 ++ hostOps1_22 ++ hostOps1_23 ++ hostOps1_24 ++ hostOps1_25 ++ hostOps1_26 ++ hostOps1_27 ++ hostOps1_28 ++ hostOps1_29 ++ hostOps1_30

/-- A list is its first 12 entries, its next 10, and the rest. -/
theorem split3 {α : Type} (l : List α) : l = l.take 12 ++ ((l.drop 12).take 10 ++ l.drop 22) := by
  conv_lhs => rw [← List.take_append_drop 12 l, ← List.take_append_drop 10 (l.drop 12)]
  simp [List.drop_drop]

/-- The seven parts, one after the other, are the whole tail. -/
theorem tailAll_eq : (tailAll : List (HloOp τ sig (Elt F))) = partA1 ++ (partB1 ++ (partA2 ++ (partB2 ++ (partA3 ++ (partB3 ++ chunk4))))) := by
  have e10 := split3 (hostOps1_10 : List (HloOp τ sig (Elt F)))
  have e20 := split3 (hostOps1_20 : List (HloOp τ sig (Elt F)))
  have e30 := split3 (hostOps1_30 : List (HloOp τ sig (Elt F)))
  unfold tailAll partA1 partB1 partA2 partB2 partA3 partB3 chunk4
  conv_lhs => rw [e10, e20, e30]
  simp only [List.append_assoc]

end Cert.KernelIdeal.TailValue

end
-- ==== Proof.KerStageParts.lean ====

/- One relational layer of the kernel program's host code in three parts: the update block of the first endpoints, the update block of
   the second endpoints, and the scatter-add of the two blocks, one after the other, at the concatenated indices. -/

import proofs.«140184_j29661044146691_2_alg».proof.KernelIdeal

set_option synthInstance.maxSize 4096

noncomputable section

namespace Cert.KernelIdeal.Stage

open Cert.KernelIdeal Idealize.ShloMosaic
open Cert.KernelIdeal.Facts₀ Cert.KernelIdeal.Facts

variable {F : FTy → Type} [FloatOps F] [Cert.KernelIdeal.Facts]

/-- The update rows for the first endpoints: exp(s·z[sx] − max) · (softplus(w) / sum) · s. -/
noncomputable def deltaX (z : (⟨S100000x10, .f32⟩ : BufTy).Contents (Elt F)) (rel : (⟨S3200000x2, .f32⟩ : BufTy).Contents (Elt F)) (w : (⟨S_, .f32⟩ : BufTy).Contents (Elt F)) (sx : (⟨S3200000, .i32⟩ : BufTy).Contents (Elt F)) (sy : (⟨S3200000, .i32⟩ : BufTy).Contents (Elt F)) :
    (⟨S3200000x10, .f32⟩ : BufTy).Contents (Elt F) :=
  let t0 := ((iotaInDim S10 32 0) : (⟨S10, .i32⟩ : BufTy).Contents (Elt F))
  let t1 := ((constantI S_ 32 2#32) : (⟨S_, .i32⟩ : BufTy).Contents (Elt F))
  let t2 := (id t1 : (⟨S_, .i32⟩ : BufTy).Contents (Elt F))
  let t3 := ((constantI S_ 32 0#32) : (⟨S_, .i32⟩ : BufTy).Contents (Elt F))
  let t4 := ((cmpi .eq) t2 t3 : (⟨S_, .i1⟩ : BufTy).Contents (Elt F))
  let t5 := ((constantI S_ 32 1#32) : (⟨S_, .i32⟩ : BufTy).Contents (Elt F))
  let t6 := (select t4 t5 t2 : (⟨S_, .i32⟩ : BufTy).Contents (Elt F))
  let t7 := ((broadcastInDim S10 ![] bcast_S_S10) t6 : (⟨S10, .i32⟩ : BufTy).Contents (Elt F))
  let t8 := (Host.remsi t0 t7 : (⟨S10, .i32⟩ : BufTy).Contents (Elt F))
  let t9 := ((constantI S_ 32 0#32) : (⟨S_, .i32⟩ : BufTy).Contents (Elt F))
  let t10 := ((broadcastInDim S10 ![] bcast_S_S10) t9 : (⟨S10, .i32⟩ : BufTy).Contents (Elt F))
  let t11 := ((cmpi .ne) t8 t10 : (⟨S10, .i1⟩ : BufTy).Contents (Elt F))
  let t12 := ((constantI S_ 32 0#32) : (⟨S_, .i32⟩ : BufTy).Contents (Elt F))
  let t13 := ((broadcastInDim S10 ![] bcast_S_S10) t12 : (⟨S10, .i32⟩ : BufTy).Contents (Elt F))
  let t14 := ((cmpi .slt) t8 t13 : (⟨S10, .i1⟩ : BufTy).Contents (Elt F))
  let t15 := ((constantI S_ 32 0#32) : (⟨S_, .i32⟩ : BufTy).Contents (Elt F))
  let t16 := ((cmpi .slt) t6 t15 : (⟨S_, .i1⟩ : BufTy).Contents (Elt F))
  let t17 := ((broadcastInDim S10 ![] bcast_S_S10) t16 : (⟨S10, .i1⟩ : BufTy).Contents (Elt F))
  let t18 := ((cmpi .ne) t14 t17 : (⟨S10, .i1⟩ : BufTy).Contents (Elt F))
  let t19 := (andi t18 t11 : (⟨S10, .i1⟩ : BufTy).Contents (Elt F))
  let t20 := ((broadcastInDim S10 ![] bcast_S_S10) t6 : (⟨S10, .i32⟩ : BufTy).Contents (Elt F))
  let t21 := (addi t8 t20 : (⟨S10, .i32⟩ : BufTy).Contents (Elt F))
  let t22 := (select t19 t21 t8 : (⟨S10, .i32⟩ : BufTy).Contents (Elt F))
  let t23 := ((constantI S_ 32 0#32) : (⟨S_, .i32⟩ : BufTy).Contents (Elt F))
  let t24 := ((broadcastInDim S10 ![] bcast_S_S10 : (⟨S_, .i32⟩ : BufTy).Contents (Elt F) → (⟨S10, .i32⟩ : BufTy).Contents (Elt F)) t23 : (⟨S10, .i32⟩ : BufTy).Contents (Elt F))
  let t25 := ((cmpi .eq : (⟨S10, .i32⟩ : BufTy).Contents (Elt F) → (⟨S10, .i32⟩ : BufTy).Contents (Elt F) → (⟨S10, .i1⟩ : BufTy).Contents (Elt F)) t22 t24 : (⟨S10, .i1⟩ : BufTy).Contents (Elt F))
  let t26 := ((constant S_ .f32 0x3F800000#32) : (⟨S_, .f32⟩ : BufTy).Contents (Elt F))
  let t27 := ((constant S_ .f32 0xBF800000#32) : (⟨S_, .f32⟩ : BufTy).Contents (Elt F))
  let t28 := ((broadcastInDim S10 ![] bcast_S_S10) t26 : (⟨S10, .f32⟩ : BufTy).Contents (Elt F))
  let t29 := ((broadcastInDim S10 ![] bcast_S_S10) t27 : (⟨S10, .f32⟩ : BufTy).Contents (Elt F))
  let t30 := (select t25 t28 t29 : (⟨S10, .f32⟩ : BufTy).Contents (Elt F))
  let t31 := ((id : (⟨S10, .f32⟩ : BufTy).Contents (Elt F) → (⟨S10, .f32⟩ : BufTy).Contents (Elt F)) t30 : (⟨S10, .f32⟩ : BufTy).Contents (Elt F))
  let t32 := ((iotaInDim S2 32 0) : (⟨S2, .i32⟩ : BufTy).Contents (Elt F))
  let t33 := ((constantI S_ 32 2#32) : (⟨S_, .i32⟩ : BufTy).Contents (Elt F))
  let t34 := (id t33 : (⟨S_, .i32⟩ : BufTy).Contents (Elt F))
  let t35 := ((constantI S_ 32 0#32) : (⟨S_, .i32⟩ : BufTy).Contents (Elt F))
  let t36 := ((cmpi .eq) t34 t35 : (⟨S_, .i1⟩ : BufTy).Contents (Elt F))
  let t37 := ((constantI S_ 32 1#32) : (⟨S_, .i32⟩ : BufTy).Contents (Elt F))
  let t38 := (select t36 t37 t34 : (⟨S_, .i32⟩ : BufTy).Contents (Elt F))
  let t39 := ((broadcastInDim S2 ![] bcast_S_S2) t38 : (⟨S2, .i32⟩ : BufTy).Contents (Elt F))
  let t40 := (Host.remsi t32 t39 : (⟨S2, .i32⟩ : BufTy).Contents (Elt F))
  let t41 := ((constantI S_ 32 0#32) : (⟨S_, .i32⟩ : BufTy).Contents (Elt F))
  let t42 := ((broadcastInDim S2 ![] bcast_S_S2) t41 : (⟨S2, .i32⟩ : BufTy).Contents (Elt F))
  let t43 := ((cmpi .ne) t40 t42 : (⟨S2, .i1⟩ : BufTy).Contents (Elt F))
  let t44 := ((constantI S_ 32 0#32) : (⟨S_, .i32⟩ : BufTy).Contents (Elt F))
  let t45 := ((broadcastInDim S2 ![] bcast_S_S2) t44 : (⟨S2, .i32⟩ : BufTy).Contents (Elt F))
  let t46 := ((cmpi .slt) t40 t45 : (⟨S2, .i1⟩ : BufTy).Contents (Elt F))
  let t47 := ((constantI S_ 32 0#32) : (⟨S_, .i32⟩ : BufTy).Contents (Elt F))
  let t48 := ((cmpi .slt) t38 t47 : (⟨S_, .i1⟩ : BufTy).Contents (Elt F))
  let t49 := ((broadcastInDim S2 ![] bcast_S_S2) t48 : (⟨S2, .i1⟩ : BufTy).Contents (Elt F))
  let t50 := ((cmpi .ne) t46 t49 : (⟨S2, .i1⟩ : BufTy).Contents (Elt F))
  let t51 := (andi t50 t43 : (⟨S2, .i1⟩ : BufTy).Contents (Elt F))
  let t52 := ((broadcastInDim S2 ![] bcast_S_S2) t38 : (⟨S2, .i32⟩ : BufTy).Contents (Elt F))
  let t53 := (addi t40 t52 : (⟨S2, .i32⟩ : BufTy).Contents (Elt F))
  let t54 := (select t51 t53 t40 : (⟨S2, .i32⟩ : BufTy).Contents (Elt F))
  let t55 := ((constantI S_ 32 0#32) : (⟨S_, .i32⟩ : BufTy).Contents (Elt F))
  let t56 := ((broadcastInDim S2 ![] bcast_S_S2 : (⟨S_, .i32⟩ : BufTy).Contents (Elt F) → (⟨S2, .i32⟩ : BufTy).Contents (Elt F)) t55 : (⟨S2, .i32⟩ : BufTy).Contents (Elt F))
  let t57 := ((cmpi .eq : (⟨S2, .i32⟩ : BufTy).Contents (Elt F) → (⟨S2, .i32⟩ : BufTy).Contents (Elt F) → (⟨S2, .i1⟩ : BufTy).Contents (Elt F)) t54 t56 : (⟨S2, .i1⟩ : BufTy).Contents (Elt F))
  let t58 := ((constant S_ .f32 0x3F800000#32) : (⟨S_, .f32⟩ : BufTy).Contents (Elt F))
  let t59 := ((constant S_ .f32 0xBF800000#32) : (⟨S_, .f32⟩ : BufTy).Contents (Elt F))
  let t60 := ((broadcastInDim S2 ![] bcast_S_S2) t58 : (⟨S2, .f32⟩ : BufTy).Contents (Elt F))
  let t61 := ((broadcastInDim S2 ![] bcast_S_S2) t59 : (⟨S2, .f32⟩ : BufTy).Contents (Elt F))
  let t62 := (select t57 t60 t61 : (⟨S2, .f32⟩ : BufTy).Contents (Elt F))
  let t63 := ((id : (⟨S2, .f32⟩ : BufTy).Contents (Elt F) → (⟨S2, .f32⟩ : BufTy).Contents (Elt F)) t62 : (⟨S2, .f32⟩ : BufTy).Contents (Elt F))
  let t64 := ((constantI S_ 32 0#32) : (⟨S_, .i32⟩ : BufTy).Contents (Elt F))
  let t65 := ((broadcastInDim S3200000 ![] bcast_S_S3200000 : (⟨S_, .i32⟩ : BufTy).Contents (Elt F) → (⟨S3200000, .i32⟩ : BufTy).Contents (Elt F)) t64 : (⟨S3200000, .i32⟩ : BufTy).Contents (Elt F))
  let t66 := ((cmpi .slt : (⟨S3200000, .i32⟩ : BufTy).Contents (Elt F) → (⟨S3200000, .i32⟩ : BufTy).Contents (Elt F) → (⟨S3200000, .i1⟩ : BufTy).Contents (Elt F)) sx t65 : (⟨S3200000, .i1⟩ : BufTy).Contents (Elt F))
  let t67 := ((constantI S_ 32 100000#32) : (⟨S_, .i32⟩ : BufTy).Contents (Elt F))
  let t68 := ((broadcastInDim S3200000 ![] bcast_S_S3200000 : (⟨S_, .i32⟩ : BufTy).Contents (Elt F) → (⟨S3200000, .i32⟩ : BufTy).Contents (Elt F)) t67 : (⟨S3200000, .i32⟩ : BufTy).Contents (Elt F))
  let t69 := ((addi : (⟨S3200000, .i32⟩ : BufTy).Contents (Elt F) → (⟨S3200000, .i32⟩ : BufTy).Contents (Elt F) → (⟨S3200000, .i32⟩ : BufTy).Contents (Elt F)) sx t68 : (⟨S3200000, .i32⟩ : BufTy).Contents (Elt F))
  let t70 := ((select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) t66 t69 sx : (⟨S3200000, .i32⟩ : BufTy).Contents (Elt F))
  let t71 := ((broadcastInDim S3200000x1 ![0] bcast_S3200000_S3200000x1_0 : (⟨S3200000, .i32⟩ : BufTy).Contents (Elt F) → (⟨S3200000x1, .i32⟩ : BufTy).Contents (Elt F)) t70 : (⟨S3200000x1, .i32⟩ : BufTy).Contents (Elt F))
  let t72 := (((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)) z t71 : (⟨S3200000x10, .f32⟩ : BufTy).Contents (Elt F))
  let t73 := ((constantI S_ 32 0#32) : (⟨S_, .i32⟩ : BufTy).Contents (Elt F))
  let t74 := ((broadcastInDim S3200000 ![] bcast_S_S3200000 : (⟨S_, .i32⟩ : BufTy).Contents (Elt F) → (⟨S3200000, .i32⟩ : BufTy).Contents (Elt F)) t73 : (⟨S3200000, .i32⟩ : BufTy).Contents (Elt F))
  let t75 := ((cmpi .slt : (⟨S3200000, .i32⟩ : BufTy).Contents (Elt F) → (⟨S3200000, .i32⟩ : BufTy).Contents (Elt F) → (⟨S3200000, .i1⟩ : BufTy).Contents (Elt F)) sy t74 : (⟨S3200000, .i1⟩ : BufTy).Contents (Elt F))
  let t76 := ((constantI S_ 32 100000#32) : (⟨S_, .i32⟩ : BufTy).Contents (Elt F))
  let t77 := ((broadcastInDim S3200000 ![] bcast_S_S3200000 : (⟨S_, .i32⟩ : BufTy).Contents (Elt F) → (⟨S3200000, .i32⟩ : BufTy).Contents (Elt F)) t76 : (⟨S3200000, .i32⟩ : BufTy).Contents (Elt F))
  let t78 := ((addi : (⟨S3200000, .i32⟩ : BufTy).Contents (Elt F) → (⟨S3200000, .i32⟩ : BufTy).Contents (Elt F) → (⟨S3200000, .i32⟩ : BufTy).Contents (Elt F)) sy t77 : (⟨S3200000, .i32⟩ : BufTy).Contents (Elt F))
  let t79 := ((select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) t75 t78 sy : (⟨S3200000, .i32⟩ : BufTy).Contents (Elt F))
  let t80 := ((broadcastInDim S3200000x1 ![0] bcast_S3200000_S3200000x1_0 : (⟨S3200000, .i32⟩ : BufTy).Contents (Elt F) → (⟨S3200000x1, .i32⟩ : BufTy).Contents (Elt F)) t79 : (⟨S3200000x1, .i32⟩ : BufTy).Contents (Elt F))
  let t81 := (((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)) z t80 : (⟨S3200000x10, .f32⟩ : BufTy).Contents (Elt F))
  let t82 := ((broadcastInDim S1x10 ![1] bcast_S10_S1x10_1 : (⟨S10, .f32⟩ : BufTy).Contents (Elt F) → (⟨S1x10, .f32⟩ : BufTy).Contents (Elt F)) t31 : (⟨S1x10, .f32⟩ : BufTy).Contents (Elt F))
  let t83 := ((broadcastInDim S3200000x10 ![0, 1] bcast_S1x10_S3200000x10_0_1 : (⟨S1x10, .f32⟩ : BufTy).Contents (Elt F) → (⟨S3200000x10, .f32⟩ : BufTy).Contents (Elt F)) t82 : (⟨S3200000x10, .f32⟩ : BufTy).Contents (Elt F))
  let t84 := ((mulf : (⟨S3200000x10, .f32⟩ : BufTy).Contents (Elt F) → (⟨S3200000x10, .f32⟩ : BufTy).Contents (Elt F) → (⟨S3200000x10, .f32⟩ : BufTy).Contents (Elt F)) t72 t83 : (⟨S3200000x10, .f32⟩ : BufTy).Contents (Elt F))
  let t85 := ((broadcastInDim S1x10 ![1] bcast_S10_S1x10_1 : (⟨S10, .f32⟩ : BufTy).Contents (Elt F) → (⟨S1x10, .f32⟩ : BufTy).Contents (Elt F)) t31 : (⟨S1x10, .f32⟩ : BufTy).Contents (Elt F))
  let t86 := ((broadcastInDim S3200000x10 ![0, 1] bcast_S1x10_S3200000x10_0_1 : (⟨S1x10, .f32⟩ : BufTy).Contents (Elt F) → (⟨S3200000x10, .f32⟩ : BufTy).Contents (Elt F)) t85 : (⟨S3200000x10, .f32⟩ : BufTy).Contents (Elt F))
  let t87 := ((mulf : (⟨S3200000x10, .f32⟩ : BufTy).Contents (Elt F) → (⟨S3200000x10, .f32⟩ : BufTy).Contents (Elt F) → (⟨S3200000x10, .f32⟩ : BufTy).Contents (Elt F)) t81 t86 : (⟨S3200000x10, .f32⟩ : BufTy).Contents (Elt F))
  let t88 := ((broadcastInDim S1x2 ![1] bcast_S2_S1x2_1 : (⟨S2, .f32⟩ : BufTy).Contents (Elt F) → (⟨S1x2, .f32⟩ : BufTy).Contents (Elt F)) t63 : (⟨S1x2, .f32⟩ : BufTy).Contents (Elt F))
  let t89 := ((broadcastInDim S3200000x2 ![0, 1] bcast_S1x2_S3200000x2_0_1 : (⟨S1x2, .f32⟩ : BufTy).Contents (Elt F) → (⟨S3200000x2, .f32⟩ : BufTy).Contents (Elt F)) t88 : (⟨S3200000x2, .f32⟩ : BufTy).Contents (Elt F))
  let t90 := ((mulf : (⟨S3200000x2, .f32⟩ : BufTy).Contents (Elt F) → (⟨S3200000x2, .f32⟩ : BufTy).Contents (Elt F) → (⟨S3200000x2, .f32⟩ : BufTy).Contents (Elt F)) rel t89 : (⟨S3200000x2, .f32⟩ : BufTy).Contents (Elt F))
  let t91 := ((constant S_ .f32 0xFF800000#32) : (⟨S_, .f32⟩ : BufTy).Contents (Elt F))
  let t92 := (((fun x v => Host.reduce FloatOps.maximumf x v reducesTo_S3200000x10_S3200000_d1 h_S_) : (⟨S3200000x10, .f32⟩ : BufTy).Contents (Elt F) → (⟨S_, .f32⟩ : BufTy).Contents (Elt F) → (⟨S3200000, .f32⟩ : BufTy).Contents (Elt F)) t84 t91 : (⟨S3200000, .f32⟩ : BufTy).Contents (Elt F))
  let t93 := ((constant S_ .f32 0xFF800000#32) : (⟨S_, .f32⟩ : BufTy).Contents (Elt F))
  let t94 := (((fun x v => Host.reduce FloatOps.maximumf x v reducesTo_S3200000x10_S3200000_d1 h_S_) : (⟨S3200000x10, .f32⟩ : BufTy).Contents (Elt F) → (⟨S_, .f32⟩ : BufTy).Contents (Elt F) → (⟨S3200000, .f32⟩ : BufTy).Contents (Elt F)) t87 t93 : (⟨S3200000, .f32⟩ : BufTy).Contents (Elt F))
  let t95 := ((maximumf : (⟨S3200000, .f32⟩ : BufTy).Contents (Elt F) → (⟨S3200000, .f32⟩ : BufTy).Contents (Elt F) → (⟨S3200000, .f32⟩ : BufTy).Contents (Elt F)) t92 t94 : (⟨S3200000, .f32⟩ : BufTy).Contents (Elt F))
  let t96 := ((constant S_ .f32 0xFF800000#32) : (⟨S_, .f32⟩ : BufTy).Contents (Elt F))
  let t97 := (((fun x v => Host.reduce FloatOps.maximumf x v reducesTo_S3200000x2_S3200000_d1 h_S_) : (⟨S3200000x2, .f32⟩ : BufTy).Contents (Elt F) → (⟨S_, .f32⟩ : BufTy).Contents (Elt F) → (⟨S3200000, .f32⟩ : BufTy).Contents (Elt F)) t90 t96 : (⟨S3200000, .f32⟩ : BufTy).Contents (Elt F))
  let t98 := ((maximumf : (⟨S3200000, .f32⟩ : BufTy).Contents (Elt F) → (⟨S3200000, .f32⟩ : BufTy).Contents (Elt F) → (⟨S3200000, .f32⟩ : BufTy).Contents (Elt F)) t95 t97 : (⟨S3200000, .f32⟩ : BufTy).Contents (Elt F))
  let t99 := ((broadcastInDim S3200000x1 ![0] bcast_S3200000_S3200000x1_0 : (⟨S3200000, .f32⟩ : BufTy).Contents (Elt F) → (⟨S3200000x1, .f32⟩ : BufTy).Contents (Elt F)) t98 : (⟨S3200000x1, .f32⟩ : BufTy).Contents (Elt F))
  let t100 := ((broadcastInDim S3200000x10 ![0, 1] bcast_S3200000x1_S3200000x10_0_1 : (⟨S3200000x1, .f32⟩ : BufTy).Contents (Elt F) → (⟨S3200000x10, .f32⟩ : BufTy).Contents (Elt F)) t99 : (⟨S3200000x10, .f32⟩ : BufTy).Contents (Elt F))
  let t101 := ((subf : (⟨S3200000x10, .f32⟩ : BufTy).Contents (Elt F) → (⟨S3200000x10, .f32⟩ : BufTy).Contents (Elt F) → (⟨S3200000x10, .f32⟩ : BufTy).Contents (Elt F)) t84 t100 : (⟨S3200000x10, .f32⟩ : BufTy).Contents (Elt F))
  let t102 := ((Host.exp : (⟨S3200000x10, .f32⟩ : BufTy).Contents (Elt F) → (⟨S3200000x10, .f32⟩ : BufTy).Contents (Elt F)) t101 : (⟨S3200000x10, .f32⟩ : BufTy).Contents (Elt F))
  let t103 := ((broadcastInDim S3200000x10 ![0, 1] bcast_S3200000x1_S3200000x10_0_1 : (⟨S3200000x1, .f32⟩ : BufTy).Contents (Elt F) → (⟨S3200000x10, .f32⟩ : BufTy).Contents (Elt F)) t99 : (⟨S3200000x10, .f32⟩ : BufTy).Contents (Elt F))
  let t104 := ((subf : (⟨S3200000x10, .f32⟩ : BufTy).Contents (Elt F) → (⟨S3200000x10, .f32⟩ : BufTy).Contents (Elt F) → (⟨S3200000x10, .f32⟩ : BufTy).Contents (Elt F)) t87 t103 : (⟨S3200000x10, .f32⟩ : BufTy).Contents (Elt F))
  let t105 := ((Host.exp : (⟨S3200000x10, .f32⟩ : BufTy).Contents (Elt F) → (⟨S3200000x10, .f32⟩ : BufTy).Contents (Elt F)) t104 : (⟨S3200000x10, .f32⟩ : BufTy).Contents (Elt F))
  let t106 := ((broadcastInDim S3200000x2 ![0, 1] bcast_S3200000x1_S3200000x2_0_1 : (⟨S3200000x1, .f32⟩ : BufTy).Contents (Elt F) → (⟨S3200000x2, .f32⟩ : BufTy).Contents (Elt F)) t99 : (⟨S3200000x2, .f32⟩ : BufTy).Contents (Elt F))
  let t107 := ((subf : (⟨S3200000x2, .f32⟩ : BufTy).Contents (Elt F) → (⟨S3200000x2, .f32⟩ : BufTy).Contents (Elt F) → (⟨S3200000x2, .f32⟩ : BufTy).Contents (Elt F)) t90 t106 : (⟨S3200000x2, .f32⟩ : BufTy).Contents (Elt F))
  let t108 := ((Host.exp : (⟨S3200000x2, .f32⟩ : BufTy).Contents (Elt F) → (⟨S3200000x2, .f32⟩ : BufTy).Contents (Elt F)) t107 : (⟨S3200000x2, .f32⟩ : BufTy).Contents (Elt F))
  let t109 := ((constant S_ .f32 0x00000000#32) : (⟨S_, .f32⟩ : BufTy).Contents (Elt F))
  let t110 := (((fun x v => Host.reduceAdd x v reducesTo_S3200000x10_S3200000_d1 h_S_) : (⟨S3200000x10, .f32⟩ : BufTy).Contents (Elt F) → (⟨S_, .f32⟩ : BufTy).Contents (Elt F) → (⟨S3200000, .f32⟩ : BufTy).Contents (Elt F)) t102 t109 : (⟨S3200000, .f32⟩ : BufTy).Contents (Elt F))
  let t111 := ((broadcastInDim S3200000x1 ![0] bcast_S3200000_S3200000x1_0 : (⟨S3200000, .f32⟩ : BufTy).Contents (Elt F) → (⟨S3200000x1, .f32⟩ : BufTy).Contents (Elt F)) t110 : (⟨S3200000x1, .f32⟩ : BufTy).Contents (Elt F))
  let t112 := ((constant S_ .f32 0x00000000#32) : (⟨S_, .f32⟩ : BufTy).Contents (Elt F))
  let t113 := (((fun x v => Host.reduceAdd x v reducesTo_S3200000x10_S3200000_d1 h_S_) : (⟨S3200000x10, .f32⟩ : BufTy).Contents (Elt F) → (⟨S_, .f32⟩ : BufTy).Contents (Elt F) → (⟨S3200000, .f32⟩ : BufTy).Contents (Elt F)) t105 t112 : (⟨S3200000, .f32⟩ : BufTy).Contents (Elt F))
  let t114 := ((broadcastInDim S3200000x1 ![0] bcast_S3200000_S3200000x1_0 : (⟨S3200000, .f32⟩ : BufTy).Contents (Elt F) → (⟨S3200000x1, .f32⟩ : BufTy).Contents (Elt F)) t113 : (⟨S3200000x1, .f32⟩ : BufTy).Contents (Elt F))
  let t115 := ((addf : (⟨S3200000x1, .f32⟩ : BufTy).Contents (Elt F) → (⟨S3200000x1, .f32⟩ : BufTy).Contents (Elt F) → (⟨S3200000x1, .f32⟩ : BufTy).Contents (Elt F)) t111 t114 : (⟨S3200000x1, .f32⟩ : BufTy).Contents (Elt F))
  let t116 := ((constant S_ .f32 0x00000000#32) : (⟨S_, .f32⟩ : BufTy).Contents (Elt F))
  let t117 := (((fun x v => Host.reduceAdd x v reducesTo_S3200000x2_S3200000_d1 h_S_) : (⟨S3200000x2, .f32⟩ : BufTy).Contents (Elt F) → (⟨S_, .f32⟩ : BufTy).Contents (Elt F) → (⟨S3200000, .f32⟩ : BufTy).Contents (Elt F)) t108 t116 : (⟨S3200000, .f32⟩ : BufTy).Contents (Elt F))
  let t118 := ((broadcastInDim S3200000x1 ![0] bcast_S3200000_S3200000x1_0 : (⟨S3200000, .f32⟩ : BufTy).Contents (Elt F) → (⟨S3200000x1, .f32⟩ : BufTy).Contents (Elt F)) t117 : (⟨S3200000x1, .f32⟩ : BufTy).Contents (Elt F))
  let t119 := ((addf : (⟨S3200000x1, .f32⟩ : BufTy).Contents (Elt F) → (⟨S3200000x1, .f32⟩ : BufTy).Contents (Elt F) → (⟨S3200000x1, .f32⟩ : BufTy).Contents (Elt F)) t115 t118 : (⟨S3200000x1, .f32⟩ : BufTy).Contents (Elt F))
  let t120 := ((constant S_ .f32 0x00000000#32) : (⟨S_, .f32⟩ : BufTy).Contents (Elt F))
  let t121 := (maximumf w t120 : (⟨S_, .f32⟩ : BufTy).Contents (Elt F))
  let t122 := (subf w t120 : (⟨S_, .f32⟩ : BufTy).Contents (Elt F))
  let t123 := ((cmpf .une) t122 t122 : (⟨S_, .i1⟩ : BufTy).Contents (Elt F))
  let t124 := (addf w t120 : (⟨S_, .f32⟩ : BufTy).Contents (Elt F))
  let t125 := (Host.absf t122 : (⟨S_, .f32⟩ : BufTy).Contents (Elt F))
  let t126 := (Host.negf t125 : (⟨S_, .f32⟩ : BufTy).Contents (Elt F))
  let t127 := (Host.exp t126 : (⟨S_, .f32⟩ : BufTy).Contents (Elt F))
  let t128 := (Host.log1p t127 : (⟨S_, .f32⟩ : BufTy).Contents (Elt F))
  let t129 := (addf t121 t128 : (⟨S_, .f32⟩ : BufTy).Contents (Elt F))
  let t130 := (select t123 t124 t129 : (⟨S_, .f32⟩ : BufTy).Contents (Elt F))
  let t131 := ((broadcastInDim S3200000x1 ![] bcast_S_S3200000x1 : (⟨S_, .f32⟩ : BufTy).Contents (Elt F) → (⟨S3200000x1, .f32⟩ : BufTy).Contents (Elt F)) t130 : (⟨S3200000x1, .f32⟩ : BufTy).Contents (Elt F))
  let t132 := ((Host.divf : (⟨S3200000x1, .f32⟩ : BufTy).Contents (Elt F) → (⟨S3200000x1, .f32⟩ : BufTy).Contents (Elt F) → (⟨S3200000x1, .f32⟩ : BufTy).Contents (Elt F)) t131 t119 : (⟨S3200000x1, .f32⟩ : BufTy).Contents (Elt F))
  let t133 := ((broadcastInDim S3200000x10 ![0, 1] bcast_S3200000x1_S3200000x10_0_1 : (⟨S3200000x1, .f32⟩ : BufTy).Contents (Elt F) → (⟨S3200000x10, .f32⟩ : BufTy).Contents (Elt F)) t132 : (⟨S3200000x10, .f32⟩ : BufTy).Contents (Elt F))
  let t134 := ((mulf : (⟨S3200000x10, .f32⟩ : BufTy).Contents (Elt F) → (⟨S3200000x10, .f32⟩ : BufTy).Contents (Elt F) → (⟨S3200000x10, .f32⟩ : BufTy).Contents (Elt F)) t102 t133 : (⟨S3200000x10, .f32⟩ : BufTy).Contents (Elt F))
  let t135 := ((broadcastInDim S1x10 ![1] bcast_S10_S1x10_1 : (⟨S10, .f32⟩ : BufTy).Contents (Elt F) → (⟨S1x10, .f32⟩ : BufTy).Contents (Elt F)) t31 : (⟨S1x10, .f32⟩ : BufTy).Contents (Elt F))
  let t136 := ((broadcastInDim S3200000x10 ![0, 1] bcast_S1x10_S3200000x10_0_1 : (⟨S1x10, .f32⟩ : BufTy).Contents (Elt F) → (⟨S3200000x10, .f32⟩ : BufTy).Contents (Elt F)) t135 : (⟨S3200000x10, .f32⟩ : BufTy).Contents (Elt F))
  let t137 := ((mulf : (⟨S3200000x10, .f32⟩ : BufTy).Contents (Elt F) → (⟨S3200000x10, .f32⟩ : BufTy).Contents (Elt F) → (⟨S3200000x10, .f32⟩ : BufTy).Contents (Elt F)) t134 t136 : (⟨S3200000x10, .f32⟩ : BufTy).Contents (Elt F))
  t137

/-- The update rows for the second endpoints: exp(s·z[sy] − max) · (softplus(w) / sum) · s. -/
noncomputable def deltaY (z : (⟨S100000x10, .f32⟩ : BufTy).Contents (Elt F)) (rel : (⟨S3200000x2, .f32⟩ : BufTy).Contents (Elt F)) (w : (⟨S_, .f32⟩ : BufTy).Contents (Elt F)) (sx : (⟨S3200000, .i32⟩ : BufTy).Contents (Elt F)) (sy : (⟨S3200000, .i32⟩ : BufTy).Contents (Elt F)) :
    (⟨S3200000x10, .f32⟩ : BufTy).Contents (Elt F) :=
  let t0 := ((iotaInDim S10 32 0) : (⟨S10, .i32⟩ : BufTy).Contents (Elt F))
  let t1 := ((constantI S_ 32 2#32) : (⟨S_, .i32⟩ : BufTy).Contents (Elt F))
  let t2 := (id t1 : (⟨S_, .i32⟩ : BufTy).Contents (Elt F))
  let t3 := ((constantI S_ 32 0#32) : (⟨S_, .i32⟩ : BufTy).Contents (Elt F))
  let t4 := ((cmpi .eq) t2 t3 : (⟨S_, .i1⟩ : BufTy).Contents (Elt F))
  let t5 := ((constantI S_ 32 1#32) : (⟨S_, .i32⟩ : BufTy).Contents (Elt F))
  let t6 := (select t4 t5 t2 : (⟨S_, .i32⟩ : BufTy).Contents (Elt F))
  let t7 := ((broadcastInDim S10 ![] bcast_S_S10) t6 : (⟨S10, .i32⟩ : BufTy).Contents (Elt F))
  let t8 := (Host.remsi t0 t7 : (⟨S10, .i32⟩ : BufTy).Contents (Elt F))
  let t9 := ((constantI S_ 32 0#32) : (⟨S_, .i32⟩ : BufTy).Contents (Elt F))
  let t10 := ((broadcastInDim S10 ![] bcast_S_S10) t9 : (⟨S10, .i32⟩ : BufTy).Contents (Elt F))
  let t11 := ((cmpi .ne) t8 t10 : (⟨S10, .i1⟩ : BufTy).Contents (Elt F))
  let t12 := ((constantI S_ 32 0#32) : (⟨S_, .i32⟩ : BufTy).Contents (Elt F))
  let t13 := ((broadcastInDim S10 ![] bcast_S_S10) t12 : (⟨S10, .i32⟩ : BufTy).Contents (Elt F))
  let t14 := ((cmpi .slt) t8 t13 : (⟨S10, .i1⟩ : BufTy).Contents (Elt F))
  let t15 := ((constantI S_ 32 0#32) : (⟨S_, .i32⟩ : BufTy).Contents (Elt F))
  let t16 := ((cmpi .slt) t6 t15 : (⟨S_, .i1⟩ : BufTy).Contents (Elt F))
  let t17 := ((broadcastInDim S10 ![] bcast_S_S10) t16 : (⟨S10, .i1⟩ : BufTy).Contents (Elt F))
  let t18 := ((cmpi .ne) t14 t17 : (⟨S10, .i1⟩ : BufTy).Contents (Elt F))
  let t19 := (andi t18 t11 : (⟨S10, .i1⟩ : BufTy).Contents (Elt F))
  let t20 := ((broadcastInDim S10 ![] bcast_S_S10) t6 : (⟨S10, .i32⟩ : BufTy).Contents (Elt F))
  let t21 := (addi t8 t20 : (⟨S10, .i32⟩ : BufTy).Contents (Elt F))
  let t22 := (select t19 t21 t8 : (⟨S10, .i32⟩ : BufTy).Contents (Elt F))
  let t23 := ((constantI S_ 32 0#32) : (⟨S_, .i32⟩ : BufTy).Contents (Elt F))
  let t24 := ((broadcastInDim S10 ![] bcast_S_S10 : (⟨S_, .i32⟩ : BufTy).Contents (Elt F) → (⟨S10, .i32⟩ : BufTy).Contents (Elt F)) t23 : (⟨S10, .i32⟩ : BufTy).Contents (Elt F))
  let t25 := ((cmpi .eq : (⟨S10, .i32⟩ : BufTy).Contents (Elt F) → (⟨S10, .i32⟩ : BufTy).Contents (Elt F) → (⟨S10, .i1⟩ : BufTy).Contents (Elt F)) t22 t24 : (⟨S10, .i1⟩ : BufTy).Contents (Elt F))
  let t26 := ((constant S_ .f32 0x3F800000#32) : (⟨S_, .f32⟩ : BufTy).Contents (Elt F))
  let t27 := ((constant S_ .f32 0xBF800000#32) : (⟨S_, .f32⟩ : BufTy).Contents (Elt F))
  let t28 := ((broadcastInDim S10 ![] bcast_S_S10) t26 : (⟨S10, .f32⟩ : BufTy).Contents (Elt F))
  let t29 := ((broadcastInDim S10 ![] bcast_S_S10) t27 : (⟨S10, .f32⟩ : BufTy).Contents (Elt F))
  let t30 := (select t25 t28 t29 : (⟨S10, .f32⟩ : BufTy).Contents (Elt F))
  let t31 := ((id : (⟨S10, .f32⟩ : BufTy).Contents (Elt F) → (⟨S10, .f32⟩ : BufTy).Contents (Elt F)) t30 : (⟨S10, .f32⟩ : BufTy).Contents (Elt F))
  let t32 := ((iotaInDim S2 32 0) : (⟨S2, .i32⟩ : BufTy).Contents (Elt F))
  let t33 := ((constantI S_ 32 2#32) : (⟨S_, .i32⟩ : BufTy).Contents (Elt F))
  let t34 := (id t33 : (⟨S_, .i32⟩ : BufTy).Contents (Elt F))
  let t35 := ((constantI S_ 32 0#32) : (⟨S_, .i32⟩ : BufTy).Contents (Elt F))
  let t36 := ((cmpi .eq) t34 t35 : (⟨S_, .i1⟩ : BufTy).Contents (Elt F))
  let t37 := ((constantI S_ 32 1#32) : (⟨S_, .i32⟩ : BufTy).Contents (Elt F))
  let t38 := (select t36 t37 t34 : (⟨S_, .i32⟩ : BufTy).Contents (Elt F))
  let t39 := ((broadcastInDim S2 ![] bcast_S_S2) t38 : (⟨S2, .i32⟩ : BufTy).Contents (Elt F))
  let t40 := (Host.remsi t32 t39 : (⟨S2, .i32⟩ : BufTy).Contents (Elt F))
  let t41 := ((constantI S_ 32 0#32) : (⟨S_, .i32⟩ : BufTy).Contents (Elt F))
  let t42 := ((broadcastInDim S2 ![] bcast_S_S2) t41 : (⟨S2, .i32⟩ : BufTy).Contents (Elt F))
  let t43 := ((cmpi .ne) t40 t42 : (⟨S2, .i1⟩ : BufTy).Contents (Elt F))
  let t44 := ((constantI S_ 32 0#32) : (⟨S_, .i32⟩ : BufTy).Contents (Elt F))
  let t45 := ((broadcastInDim S2 ![] bcast_S_S2) t44 : (⟨S2, .i32⟩ : BufTy).Contents (Elt F))
  let t46 := ((cmpi .slt) t40 t45 : (⟨S2, .i1⟩ : BufTy).Contents (Elt F))
  let t47 := ((constantI S_ 32 0#32) : (⟨S_, .i32⟩ : BufTy).Contents (Elt F))
  let t48 := ((cmpi .slt) t38 t47 : (⟨S_, .i1⟩ : BufTy).Contents (Elt F))
  let t49 := ((broadcastInDim S2 ![] bcast_S_S2) t48 : (⟨S2, .i1⟩ : BufTy).Contents (Elt F))
  let t50 := ((cmpi .ne) t46 t49 : (⟨S2, .i1⟩ : BufTy).Contents (Elt F))
  let t51 := (andi t50 t43 : (⟨S2, .i1⟩ : BufTy).Contents (Elt F))
  let t52 := ((broadcastInDim S2 ![] bcast_S_S2) t38 : (⟨S2, .i32⟩ : BufTy).Contents (Elt F))
  let t53 := (addi t40 t52 : (⟨S2, .i32⟩ : BufTy).Contents (Elt F))
  let t54 := (select t51 t53 t40 : (⟨S2, .i32⟩ : BufTy).Contents (Elt F))
  let t55 := ((constantI S_ 32 0#32) : (⟨S_, .i32⟩ : BufTy).Contents (Elt F))
  let t56 := ((broadcastInDim S2 ![] bcast_S_S2 : (⟨S_, .i32⟩ : BufTy).Contents (Elt F) → (⟨S2, .i32⟩ : BufTy).Contents (Elt F)) t55 : (⟨S2, .i32⟩ : BufTy).Contents (Elt F))
  let t57 := ((cmpi .eq : (⟨S2, .i32⟩ : BufTy).Contents (Elt F) → (⟨S2, .i32⟩ : BufTy).Contents (Elt F) → (⟨S2, .i1⟩ : BufTy).Contents (Elt F)) t54 t56 : (⟨S2, .i1⟩ : BufTy).Contents (Elt F))
  let t58 := ((constant S_ .f32 0x3F800000#32) : (⟨S_, .f32⟩ : BufTy).Contents (Elt F))
  let t59 := ((constant S_ .f32 0xBF800000#32) : (⟨S_, .f32⟩ : BufTy).Contents (Elt F))
  let t60 := ((broadcastInDim S2 ![] bcast_S_S2) t58 : (⟨S2, .f32⟩ : BufTy).Contents (Elt F))
  let t61 := ((broadcastInDim S2 ![] bcast_S_S2) t59 : (⟨S2, .f32⟩ : BufTy).Contents (Elt F))
  let t62 := (select t57 t60 t61 : (⟨S2, .f32⟩ : BufTy).Contents (Elt F))
  let t63 := ((id : (⟨S2, .f32⟩ : BufTy).Contents (Elt F) → (⟨S2, .f32⟩ : BufTy).Contents (Elt F)) t62 : (⟨S2, .f32⟩ : BufTy).Contents (Elt F))
  let t64 := ((constantI S_ 32 0#32) : (⟨S_, .i32⟩ : BufTy).Contents (Elt F))
  let t65 := ((broadcastInDim S3200000 ![] bcast_S_S3200000 : (⟨S_, .i32⟩ : BufTy).Contents (Elt F) → (⟨S3200000, .i32⟩ : BufTy).Contents (Elt F)) t64 : (⟨S3200000, .i32⟩ : BufTy).Contents (Elt F))
  let t66 := ((cmpi .slt : (⟨S3200000, .i32⟩ : BufTy).Contents (Elt F) → (⟨S3200000, .i32⟩ : BufTy).Contents (Elt F) → (⟨S3200000, .i1⟩ : BufTy).Contents (Elt F)) sx t65 : (⟨S3200000, .i1⟩ : BufTy).Contents (Elt F))
  let t67 := ((constantI S_ 32 100000#32) : (⟨S_, .i32⟩ : BufTy).Contents (Elt F))
  let t68 := ((broadcastInDim S3200000 ![] bcast_S_S3200000 : (⟨S_, .i32⟩ : BufTy).Contents (Elt F) → (⟨S3200000, .i32⟩ : BufTy).Contents (Elt F)) t67 : (⟨S3200000, .i32⟩ : BufTy).Contents (Elt F))
  let t69 := ((addi : (⟨S3200000, .i32⟩ : BufTy).Contents (Elt F) → (⟨S3200000, .i32⟩ : BufTy).Contents (Elt F) → (⟨S3200000, .i32⟩ : BufTy).Contents (Elt F)) sx t68 : (⟨S3200000, .i32⟩ : BufTy).Contents (Elt F))
  let t70 := ((select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) t66 t69 sx : (⟨S3200000, .i32⟩ : BufTy).Contents (Elt F))
  let t71 := ((broadcastInDim S3200000x1 ![0] bcast_S3200000_S3200000x1_0 : (⟨S3200000, .i32⟩ : BufTy).Contents (Elt F) → (⟨S3200000x1, .i32⟩ : BufTy).Contents (Elt F)) t70 : (⟨S3200000x1, .i32⟩ : BufTy).Contents (Elt F))
  let t72 := (((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)) z t71 : (⟨S3200000x10, .f32⟩ : BufTy).Contents (Elt F))
  let t73 := ((constantI S_ 32 0#32) : (⟨S_, .i32⟩ : BufTy).Contents (Elt F))
  let t74 := ((broadcastInDim S3200000 ![] bcast_S_S3200000 : (⟨S_, .i32⟩ : BufTy).Contents (Elt F) → (⟨S3200000, .i32⟩ : BufTy).Contents (Elt F)) t73 : (⟨S3200000, .i32⟩ : BufTy).Contents (Elt F))
  let t75 := ((cmpi .slt : (⟨S3200000, .i32⟩ : BufTy).Contents (Elt F) → (⟨S3200000, .i32⟩ : BufTy).Contents (Elt F) → (⟨S3200000, .i1⟩ : BufTy).Contents (Elt F)) sy t74 : (⟨S3200000, .i1⟩ : BufTy).Contents (Elt F))
  let t76 := ((constantI S_ 32 100000#32) : (⟨S_, .i32⟩ : BufTy).Contents (Elt F))
  let t77 := ((broadcastInDim S3200000 ![] bcast_S_S3200000 : (⟨S_, .i32⟩ : BufTy).Contents (Elt F) → (⟨S3200000, .i32⟩ : BufTy).Contents (Elt F)) t76 : (⟨S3200000, .i32⟩ : BufTy).Contents (Elt F))
  let t78 := ((addi : (⟨S3200000, .i32⟩ : BufTy).Contents (Elt F) → (⟨S3200000, .i32⟩ : BufTy).Contents (Elt F) → (⟨S3200000, .i32⟩ : BufTy).Contents (Elt F)) sy t77 : (⟨S3200000, .i32⟩ : BufTy).Contents (Elt F))
  let t79 := ((select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) t75 t78 sy : (⟨S3200000, .i32⟩ : BufTy).Contents (Elt F))
  let t80 := ((broadcastInDim S3200000x1 ![0] bcast_S3200000_S3200000x1_0 : (⟨S3200000, .i32⟩ : BufTy).Contents (Elt F) → (⟨S3200000x1, .i32⟩ : BufTy).Contents (Elt F)) t79 : (⟨S3200000x1, .i32⟩ : BufTy).Contents (Elt F))
  let t81 := (((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)) z t80 : (⟨S3200000x10, .f32⟩ : BufTy).Contents (Elt F))
  let t82 := ((broadcastInDim S1x10 ![1] bcast_S10_S1x10_1 : (⟨S10, .f32⟩ : BufTy).Contents (Elt F) → (⟨S1x10, .f32⟩ : BufTy).Contents (Elt F)) t31 : (⟨S1x10, .f32⟩ : BufTy).Contents (Elt F))
  let t83 := ((broadcastInDim S3200000x10 ![0, 1] bcast_S1x10_S3200000x10_0_1 : (⟨S1x10, .f32⟩ : BufTy).Contents (Elt F) → (⟨S3200000x10, .f32⟩ : BufTy).Contents (Elt F)) t82 : (⟨S3200000x10, .f32⟩ : BufTy).Contents (Elt F))
  let t84 := ((mulf : (⟨S3200000x10, .f32⟩ : BufTy).Contents (Elt F) → (⟨S3200000x10, .f32⟩ : BufTy).Contents (Elt F) → (⟨S3200000x10, .f32⟩ : BufTy).Contents (Elt F)) t72 t83 : (⟨S3200000x10, .f32⟩ : BufTy).Contents (Elt F))
  let t85 := ((broadcastInDim S1x10 ![1] bcast_S10_S1x10_1 : (⟨S10, .f32⟩ : BufTy).Contents (Elt F) → (⟨S1x10, .f32⟩ : BufTy).Contents (Elt F)) t31 : (⟨S1x10, .f32⟩ : BufTy).Contents (Elt F))
  let t86 := ((broadcastInDim S3200000x10 ![0, 1] bcast_S1x10_S3200000x10_0_1 : (⟨S1x10, .f32⟩ : BufTy).Contents (Elt F) → (⟨S3200000x10, .f32⟩ : BufTy).Contents (Elt F)) t85 : (⟨S3200000x10, .f32⟩ : BufTy).Contents (Elt F))
  let t87 := ((mulf : (⟨S3200000x10, .f32⟩ : BufTy).Contents (Elt F) → (⟨S3200000x10, .f32⟩ : BufTy).Contents (Elt F) → (⟨S3200000x10, .f32⟩ : BufTy).Contents (Elt F)) t81 t86 : (⟨S3200000x10, .f32⟩ : BufTy).Contents (Elt F))
  let t88 := ((broadcastInDim S1x2 ![1] bcast_S2_S1x2_1 : (⟨S2, .f32⟩ : BufTy).Contents (Elt F) → (⟨S1x2, .f32⟩ : BufTy).Contents (Elt F)) t63 : (⟨S1x2, .f32⟩ : BufTy).Contents (Elt F))
  let t89 := ((broadcastInDim S3200000x2 ![0, 1] bcast_S1x2_S3200000x2_0_1 : (⟨S1x2, .f32⟩ : BufTy).Contents (Elt F) → (⟨S3200000x2, .f32⟩ : BufTy).Contents (Elt F)) t88 : (⟨S3200000x2, .f32⟩ : BufTy).Contents (Elt F))
  let t90 := ((mulf : (⟨S3200000x2, .f32⟩ : BufTy).Contents (Elt F) → (⟨S3200000x2, .f32⟩ : BufTy).Contents (Elt F) → (⟨S3200000x2, .f32⟩ : BufTy).Contents (Elt F)) rel t89 : (⟨S3200000x2, .f32⟩ : BufTy).Contents (Elt F))
  let t91 := ((constant S_ .f32 0xFF800000#32) : (⟨S_, .f32⟩ : BufTy).Contents (Elt F))
  let t92 := (((fun x v => Host.reduce FloatOps.maximumf x v reducesTo_S3200000x10_S3200000_d1 h_S_) : (⟨S3200000x10, .f32⟩ : BufTy).Contents (Elt F) → (⟨S_, .f32⟩ : BufTy).Contents (Elt F) → (⟨S3200000, .f32⟩ : BufTy).Contents (Elt F)) t84 t91 : (⟨S3200000, .f32⟩ : BufTy).Contents (Elt F))
  let t93 := ((constant S_ .f32 0xFF800000#32) : (⟨S_, .f32⟩ : BufTy).Contents (Elt F))
  let t94 := (((fun x v => Host.reduce FloatOps.maximumf x v reducesTo_S3200000x10_S3200000_d1 h_S_) : (⟨S3200000x10, .f32⟩ : BufTy).Contents (Elt F) → (⟨S_, .f32⟩ : BufTy).Contents (Elt F) → (⟨S3200000, .f32⟩ : BufTy).Contents (Elt F)) t87 t93 : (⟨S3200000, .f32⟩ : BufTy).Contents (Elt F))
  let t95 := ((maximumf : (⟨S3200000, .f32⟩ : BufTy).Contents (Elt F) → (⟨S3200000, .f32⟩ : BufTy).Contents (Elt F) → (⟨S3200000, .f32⟩ : BufTy).Contents (Elt F)) t92 t94 : (⟨S3200000, .f32⟩ : BufTy).Contents (Elt F))
  let t96 := ((constant S_ .f32 0xFF800000#32) : (⟨S_, .f32⟩ : BufTy).Contents (Elt F))
  let t97 := (((fun x v => Host.reduce FloatOps.maximumf x v reducesTo_S3200000x2_S3200000_d1 h_S_) : (⟨S3200000x2, .f32⟩ : BufTy).Contents (Elt F) → (⟨S_, .f32⟩ : BufTy).Contents (Elt F) → (⟨S3200000, .f32⟩ : BufTy).Contents (Elt F)) t90 t96 : (⟨S3200000, .f32⟩ : BufTy).Contents (Elt F))
  let t98 := ((maximumf : (⟨S3200000, .f32⟩ : BufTy).Contents (Elt F) → (⟨S3200000, .f32⟩ : BufTy).Contents (Elt F) → (⟨S3200000, .f32⟩ : BufTy).Contents (Elt F)) t95 t97 : (⟨S3200000, .f32⟩ : BufTy).Contents (Elt F))
  let t99 := ((broadcastInDim S3200000x1 ![0] bcast_S3200000_S3200000x1_0 : (⟨S3200000, .f32⟩ : BufTy).Contents (Elt F) → (⟨S3200000x1, .f32⟩ : BufTy).Contents (Elt F)) t98 : (⟨S3200000x1, .f32⟩ : BufTy).Contents (Elt F))
  let t100 := ((broadcastInDim S3200000x10 ![0, 1] bcast_S3200000x1_S3200000x10_0_1 : (⟨S3200000x1, .f32⟩ : BufTy).Contents (Elt F) → (⟨S3200000x10, .f32⟩ : BufTy).Contents (Elt F)) t99 : (⟨S3200000x10, .f32⟩ : BufTy).Contents (Elt F))
  let t101 := ((subf : (⟨S3200000x10, .f32⟩ : BufTy).Contents (Elt F) → (⟨S3200000x10, .f32⟩ : BufTy).Contents (Elt F) → (⟨S3200000x10, .f32⟩ : BufTy).Contents (Elt F)) t84 t100 : (⟨S3200000x10, .f32⟩ : BufTy).Contents (Elt F))
  let t102 := ((Host.exp : (⟨S3200000x10, .f32⟩ : BufTy).Contents (Elt F) → (⟨S3200000x10, .f32⟩ : BufTy).Contents (Elt F)) t101 : (⟨S3200000x10, .f32⟩ : BufTy).Contents (Elt F))
  let t103 := ((broadcastInDim S3200000x10 ![0, 1] bcast_S3200000x1_S3200000x10_0_1 : (⟨S3200000x1, .f32⟩ : BufTy).Contents (Elt F) → (⟨S3200000x10, .f32⟩ : BufTy).Contents (Elt F)) t99 : (⟨S3200000x10, .f32⟩ : BufTy).Contents (Elt F))
  let t104 := ((subf : (⟨S3200000x10, .f32⟩ : BufTy).Contents (Elt F) → (⟨S3200000x10, .f32⟩ : BufTy).Contents (Elt F) → (⟨S3200000x10, .f32⟩ : BufTy).Contents (Elt F)) t87 t103 : (⟨S3200000x10, .f32⟩ : BufTy).Contents (Elt F))
  let t105 := ((Host.exp : (⟨S3200000x10, .f32⟩ : BufTy).Contents (Elt F) → (⟨S3200000x10, .f32⟩ : BufTy).Contents (Elt F)) t104 : (⟨S3200000x10, .f32⟩ : BufTy).Contents (Elt F))
  let t106 := ((broadcastInDim S3200000x2 ![0, 1] bcast_S3200000x1_S3200000x2_0_1 : (⟨S3200000x1, .f32⟩ : BufTy).Contents (Elt F) → (⟨S3200000x2, .f32⟩ : BufTy).Contents (Elt F)) t99 : (⟨S3200000x2, .f32⟩ : BufTy).Contents (Elt F))
  let t107 := ((subf : (⟨S3200000x2, .f32⟩ : BufTy).Contents (Elt F) → (⟨S3200000x2, .f32⟩ : BufTy).Contents (Elt F) → (⟨S3200000x2, .f32⟩ : BufTy).Contents (Elt F)) t90 t106 : (⟨S3200000x2, .f32⟩ : BufTy).Contents (Elt F))
  let t108 := ((Host.exp : (⟨S3200000x2, .f32⟩ : BufTy).Contents (Elt F) → (⟨S3200000x2, .f32⟩ : BufTy).Contents (Elt F)) t107 : (⟨S3200000x2, .f32⟩ : BufTy).Contents (Elt F))
  let t109 := ((constant S_ .f32 0x00000000#32) : (⟨S_, .f32⟩ : BufTy).Contents (Elt F))
  let t110 := (((fun x v => Host.reduceAdd x v reducesTo_S3200000x10_S3200000_d1 h_S_) : (⟨S3200000x10, .f32⟩ : BufTy).Contents (Elt F) → (⟨S_, .f32⟩ : BufTy).Contents (Elt F) → (⟨S3200000, .f32⟩ : BufTy).Contents (Elt F)) t102 t109 : (⟨S3200000, .f32⟩ : BufTy).Contents (Elt F))
  let t111 := ((broadcastInDim S3200000x1 ![0] bcast_S3200000_S3200000x1_0 : (⟨S3200000, .f32⟩ : BufTy).Contents (Elt F) → (⟨S3200000x1, .f32⟩ : BufTy).Contents (Elt F)) t110 : (⟨S3200000x1, .f32⟩ : BufTy).Contents (Elt F))
  let t112 := ((constant S_ .f32 0x00000000#32) : (⟨S_, .f32⟩ : BufTy).Contents (Elt F))
  let t113 := (((fun x v => Host.reduceAdd x v reducesTo_S3200000x10_S3200000_d1 h_S_) : (⟨S3200000x10, .f32⟩ : BufTy).Contents (Elt F) → (⟨S_, .f32⟩ : BufTy).Contents (Elt F) → (⟨S3200000, .f32⟩ : BufTy).Contents (Elt F)) t105 t112 : (⟨S3200000, .f32⟩ : BufTy).Contents (Elt F))
  let t114 := ((broadcastInDim S3200000x1 ![0] bcast_S3200000_S3200000x1_0 : (⟨S3200000, .f32⟩ : BufTy).Contents (Elt F) → (⟨S3200000x1, .f32⟩ : BufTy).Contents (Elt F)) t113 : (⟨S3200000x1, .f32⟩ : BufTy).Contents (Elt F))
  let t115 := ((addf : (⟨S3200000x1, .f32⟩ : BufTy).Contents (Elt F) → (⟨S3200000x1, .f32⟩ : BufTy).Contents (Elt F) → (⟨S3200000x1, .f32⟩ : BufTy).Contents (Elt F)) t111 t114 : (⟨S3200000x1, .f32⟩ : BufTy).Contents (Elt F))
  let t116 := ((constant S_ .f32 0x00000000#32) : (⟨S_, .f32⟩ : BufTy).Contents (Elt F))
  let t117 := (((fun x v => Host.reduceAdd x v reducesTo_S3200000x2_S3200000_d1 h_S_) : (⟨S3200000x2, .f32⟩ : BufTy).Contents (Elt F) → (⟨S_, .f32⟩ : BufTy).Contents (Elt F) → (⟨S3200000, .f32⟩ : BufTy).Contents (Elt F)) t108 t116 : (⟨S3200000, .f32⟩ : BufTy).Contents (Elt F))
  let t118 := ((broadcastInDim S3200000x1 ![0] bcast_S3200000_S3200000x1_0 : (⟨S3200000, .f32⟩ : BufTy).Contents (Elt F) → (⟨S3200000x1, .f32⟩ : BufTy).Contents (Elt F)) t117 : (⟨S3200000x1, .f32⟩ : BufTy).Contents (Elt F))
  let t119 := ((addf : (⟨S3200000x1, .f32⟩ : BufTy).Contents (Elt F) → (⟨S3200000x1, .f32⟩ : BufTy).Contents (Elt F) → (⟨S3200000x1, .f32⟩ : BufTy).Contents (Elt F)) t115 t118 : (⟨S3200000x1, .f32⟩ : BufTy).Contents (Elt F))
  let t120 := ((constant S_ .f32 0x00000000#32) : (⟨S_, .f32⟩ : BufTy).Contents (Elt F))
  let t121 := (maximumf w t120 : (⟨S_, .f32⟩ : BufTy).Contents (Elt F))
  let t122 := (subf w t120 : (⟨S_, .f32⟩ : BufTy).Contents (Elt F))
  let t123 := ((cmpf .une) t122 t122 : (⟨S_, .i1⟩ : BufTy).Contents (Elt F))
  let t124 := (addf w t120 : (⟨S_, .f32⟩ : BufTy).Contents (Elt F))
  let t125 := (Host.absf t122 : (⟨S_, .f32⟩ : BufTy).Contents (Elt F))
  let t126 := (Host.negf t125 : (⟨S_, .f32⟩ : BufTy).Contents (Elt F))
  let t127 := (Host.exp t126 : (⟨S_, .f32⟩ : BufTy).Contents (Elt F))
  let t128 := (Host.log1p t127 : (⟨S_, .f32⟩ : BufTy).Contents (Elt F))
  let t129 := (addf t121 t128 : (⟨S_, .f32⟩ : BufTy).Contents (Elt F))
  let t130 := (select t123 t124 t129 : (⟨S_, .f32⟩ : BufTy).Contents (Elt F))
  let t131 := ((broadcastInDim S3200000x1 ![] bcast_S_S3200000x1 : (⟨S_, .f32⟩ : BufTy).Contents (Elt F) → (⟨S3200000x1, .f32⟩ : BufTy).Contents (Elt F)) t130 : (⟨S3200000x1, .f32⟩ : BufTy).Contents (Elt F))
  let t132 := ((Host.divf : (⟨S3200000x1, .f32⟩ : BufTy).Contents (Elt F) → (⟨S3200000x1, .f32⟩ : BufTy).Contents (Elt F) → (⟨S3200000x1, .f32⟩ : BufTy).Contents (Elt F)) t131 t119 : (⟨S3200000x1, .f32⟩ : BufTy).Contents (Elt F))
  let t133 := ((broadcastInDim S3200000x10 ![0, 1] bcast_S3200000x1_S3200000x10_0_1 : (⟨S3200000x1, .f32⟩ : BufTy).Contents (Elt F) → (⟨S3200000x10, .f32⟩ : BufTy).Contents (Elt F)) t132 : (⟨S3200000x10, .f32⟩ : BufTy).Contents (Elt F))
  let t134 := ((mulf : (⟨S3200000x10, .f32⟩ : BufTy).Contents (Elt F) → (⟨S3200000x10, .f32⟩ : BufTy).Contents (Elt F) → (⟨S3200000x10, .f32⟩ : BufTy).Contents (Elt F)) t105 t133 : (⟨S3200000x10, .f32⟩ : BufTy).Contents (Elt F))
  let t135 := ((broadcastInDim S1x10 ![1] bcast_S10_S1x10_1 : (⟨S10, .f32⟩ : BufTy).Contents (Elt F) → (⟨S1x10, .f32⟩ : BufTy).Contents (Elt F)) t31 : (⟨S1x10, .f32⟩ : BufTy).Contents (Elt F))
  let t136 := ((broadcastInDim S3200000x10 ![0, 1] bcast_S1x10_S3200000x10_0_1 : (⟨S1x10, .f32⟩ : BufTy).Contents (Elt F) → (⟨S3200000x10, .f32⟩ : BufTy).Contents (Elt F)) t135 : (⟨S3200000x10, .f32⟩ : BufTy).Contents (Elt F))
  let t137 := ((mulf : (⟨S3200000x10, .f32⟩ : BufTy).Contents (Elt F) → (⟨S3200000x10, .f32⟩ : BufTy).Contents (Elt F) → (⟨S3200000x10, .f32⟩ : BufTy).Contents (Elt F)) t134 t136 : (⟨S3200000x10, .f32⟩ : BufTy).Contents (Elt F))
  t137

/-- The two update blocks one after the other, scatter-added into the node table at the concatenated endpoint indices (a negative index counted from the end). -/
noncomputable def scat (z : (⟨S100000x10, .f32⟩ : BufTy).Contents (Elt F)) (ix : (⟨S6400000, .i32⟩ : BufTy).Contents (Elt F)) (dx : (⟨S3200000x10, .f32⟩ : BufTy).Contents (Elt F)) (dy : (⟨S3200000x10, .f32⟩ : BufTy).Contents (Elt F)) :
    (⟨S100000x10, .f32⟩ : BufTy).Contents (Elt F) :=
  let t0 := (((fun a b => concatenate S6400000x10 0 [⟨S3200000x10, a⟩, ⟨S3200000x10, b⟩] concatenates_S3200000x10_S3200000x10_S6400000x10_d0) : (⟨S3200000x10, .f32⟩ : BufTy).Contents (Elt F) → (⟨S3200000x10, .f32⟩ : BufTy).Contents (Elt F) → (⟨S6400000x10, .f32⟩ : BufTy).Contents (Elt F)) dx dy : (⟨S6400000x10, .f32⟩ : BufTy).Contents (Elt F))
  let t1 := ((constantI S_ 32 0#32) : (⟨S_, .i32⟩ : BufTy).Contents (Elt F))
  let t2 := ((broadcastInDim S6400000 ![] bcast_S_S6400000 : (⟨S_, .i32⟩ : BufTy).Contents (Elt F) → (⟨S6400000, .i32⟩ : BufTy).Contents (Elt F)) t1 : (⟨S6400000, .i32⟩ : BufTy).Contents (Elt F))
  let t3 := ((cmpi .slt : (⟨S6400000, .i32⟩ : BufTy).Contents (Elt F) → (⟨S6400000, .i32⟩ : BufTy).Contents (Elt F) → (⟨S6400000, .i1⟩ : BufTy).Contents (Elt F)) ix t2 : (⟨S6400000, .i1⟩ : BufTy).Contents (Elt F))
  let t4 := ((constantI S_ 32 100000#32) : (⟨S_, .i32⟩ : BufTy).Contents (Elt F))
  let t5 := ((broadcastInDim S6400000 ![] bcast_S_S6400000 : (⟨S_, .i32⟩ : BufTy).Contents (Elt F) → (⟨S6400000, .i32⟩ : BufTy).Contents (Elt F)) t4 : (⟨S6400000, .i32⟩ : BufTy).Contents (Elt F))
  let t6 := ((addi : (⟨S6400000, .i32⟩ : BufTy).Contents (Elt F) → (⟨S6400000, .i32⟩ : BufTy).Contents (Elt F) → (⟨S6400000, .i32⟩ : BufTy).Contents (Elt F)) ix t5 : (⟨S6400000, .i32⟩ : BufTy).Contents (Elt F))
  let t7 := ((select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)) t3 t6 ix : (⟨S6400000, .i32⟩ : BufTy).Contents (Elt F))
  let t8 := ((broadcastInDim S6400000x1 ![0] bcast_S6400000_S6400000x1_0 : (⟨S6400000, .i32⟩ : BufTy).Contents (Elt F) → (⟨S6400000x1, .i32⟩ : BufTy).Contents (Elt F)) t7 : (⟨S6400000x1, .i32⟩ : BufTy).Contents (Elt F))
  let t9 := (((fun x i u => Host.scatterAdd scatter_S100000x10_S6400000x1_S6400000x10_1_0_0_1 x i u) : (⟨S100000x10, .f32⟩ : BufTy).Contents (Elt F) → (⟨S6400000x1, .i32⟩ : BufTy).Contents (Elt F) → (⟨S6400000x10, .f32⟩ : BufTy).Contents (Elt F) → (⟨S100000x10, .f32⟩ : BufTy).Contents (Elt F)) z t8 t0 : (⟨S100000x10, .f32⟩ : BufTy).Contents (Elt F))
  t9

end Cert.KernelIdeal.Stage

end
-- ==== Proof.KerStageSplit.lean ====
/- A layer of the kernel program's host code is its three parts put together: the two update blocks scatter-added into the node table. -/
import proofs.«140184_j29661044146691_2_alg».proof.Proof.KerStageDefs
import proofs.«140184_j29661044146691_2_alg».proof.Proof.KerStageParts

set_option maxRecDepth 65536

noncomputable section

namespace Cert.KernelIdeal.Stage

open Cert.KernelIdeal Idealize.ShloMosaic

variable {F : FTy → Type} [FloatOps F] [Cert.KernelIdeal.Facts]

theorem layer_eq_parts (z : (⟨S100000x10, .f32⟩ : BufTy).Contents (Elt F)) (rel : (⟨S3200000x2, .f32⟩ : BufTy).Contents (Elt F))
    (w : (⟨S_, .f32⟩ : BufTy).Contents (Elt F)) (sx sy : (⟨S3200000, .i32⟩ : BufTy).Contents (Elt F)) (ix : (⟨S6400000, .i32⟩ : BufTy).Contents (Elt F)) :
    layer z rel w sx sy ix = scat z ix (deltaX z rel w sx sy) (deltaY z rel w sx sy) := rfl

end Cert.KernelIdeal.Stage

end
-- ==== Proof.KerTail1a.lean ====
/- Layer 1 of the kernel program's host code up to its two update blocks, read back. -/
import proofs.«140184_j29661044146691_2_alg».proof.Proof.Gen.KernelIdeal.Launch
import proofs.«140184_j29661044146691_2_alg».proof.Proof.KerStageDefs
import proofs.«140184_j29661044146691_2_alg».proof.Proof.LibHostLine
import proofs.«140184_j29661044146691_2_alg».proof.Proof.KerTailChunks
import proofs.«140184_j29661044146691_2_alg».proof.Proof.KerStageParts
import Idealize.ShloMosaic.Lib.StableHlo.Run

set_option maxRecDepth 65536

noncomputable section

namespace Cert.KernelIdeal.TailValue

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
/-- The index buffer holds the two endpoint index vectors one after the other. -/
theorem partA1_ix (W : Valuation τ sig (Elt F)) : after partA1 W main_v3 = Stage.idx2 (W main_arg7) (W main_arg8) := by
  simp only [Stage.idx2]
  simp only [partA1, hostOps1, hostOps1_1, hostOps1_2, hostOps1_3, hostOps1_4, hostOps1_5, hostOps1_6, hostOps1_7, hostOps1_8, hostOps1_9, hostOps1_10, List.take_succ_cons, List.take_zero, List.drop_succ_cons, List.drop_zero, List.cons_append, List.nil_append, List.append_nil, List.append_assoc]
  after_results_simp

set_option maxHeartbeats 8000000 in
/-- The first endpoints' update block is the function `deltaX` of the node table, the relation features, this layer's clause weight and
    the endpoint indices. -/
theorem partA1_dx (W : Valuation τ sig (Elt F)) :
    after partA1 W main_v71 = Stage.deltaX (W main_v2) (W main_arg1) (Stage.weight0 (W main_arg6)) (W main_arg7) (W main_arg8) := by
  simp only [Stage.deltaX, Stage.weight0]
  simp only [partA1, hostOps1, hostOps1_1, hostOps1_2, hostOps1_3, hostOps1_4, hostOps1_5, hostOps1_6, hostOps1_7, hostOps1_8, hostOps1_9, hostOps1_10, List.take_succ_cons, List.take_zero, List.drop_succ_cons, List.drop_zero, List.cons_append, List.nil_append, List.append_nil, List.append_assoc]
  after_results_simp
  rfl

set_option maxHeartbeats 8000000 in
/-- The second endpoints' update block is the function `deltaY` of the same arrays. -/
theorem partA1_dy (W : Valuation τ sig (Elt F)) :
    after partA1 W main_v76 = Stage.deltaY (W main_v2) (W main_arg1) (Stage.weight0 (W main_arg6)) (W main_arg7) (W main_arg8) := by
  simp only [Stage.deltaY, Stage.weight0]
  simp only [partA1, hostOps1, hostOps1_1, hostOps1_2, hostOps1_3, hostOps1_4, hostOps1_5, hostOps1_6, hostOps1_7, hostOps1_8, hostOps1_9, hostOps1_10, List.take_succ_cons, List.take_zero, List.drop_succ_cons, List.drop_zero, List.cons_append, List.nil_append, List.append_nil, List.append_assoc]
  after_results_simp
  rfl

set_option maxHeartbeats 4000000 in
/-- No operation of this part writes `main_v2`. -/
theorem partA1_keeps_main_v2 (W : Valuation τ sig (Elt F)) : after partA1 W main_v2 = W main_v2 := by
  simp only [partA1, hostOps1, hostOps1_1, hostOps1_2, hostOps1_3, hostOps1_4, hostOps1_5, hostOps1_6, hostOps1_7, hostOps1_8, hostOps1_9, hostOps1_10, List.take_succ_cons, List.take_zero, List.drop_succ_cons, List.drop_zero, List.cons_append, List.nil_append, List.append_nil, List.append_assoc]
  after_results_simp

set_option maxHeartbeats 4000000 in
/-- No operation of this part writes `main_arg1`. -/
theorem partA1_keeps_main_arg1 (W : Valuation τ sig (Elt F)) : after partA1 W main_arg1 = W main_arg1 := by
  simp only [partA1, hostOps1, hostOps1_1, hostOps1_2, hostOps1_3, hostOps1_4, hostOps1_5, hostOps1_6, hostOps1_7, hostOps1_8, hostOps1_9, hostOps1_10, List.take_succ_cons, List.take_zero, List.drop_succ_cons, List.drop_zero, List.cons_append, List.nil_append, List.append_nil, List.append_assoc]
  after_results_simp

set_option maxHeartbeats 4000000 in
/-- No operation of this part writes `main_arg6`. -/
theorem partA1_keeps_main_arg6 (W : Valuation τ sig (Elt F)) : after partA1 W main_arg6 = W main_arg6 := by
  simp only [partA1, hostOps1, hostOps1_1, hostOps1_2, hostOps1_3, hostOps1_4, hostOps1_5, hostOps1_6, hostOps1_7, hostOps1_8, hostOps1_9, hostOps1_10, List.take_succ_cons, List.take_zero, List.drop_succ_cons, List.drop_zero, List.cons_append, List.nil_append, List.append_nil, List.append_assoc]
  after_results_simp

set_option maxHeartbeats 4000000 in
/-- No operation of this part writes `main_arg7`. -/
theorem partA1_keeps_main_arg7 (W : Valuation τ sig (Elt F)) : after partA1 W main_arg7 = W main_arg7 := by
  simp only [partA1, hostOps1, hostOps1_1, hostOps1_2, hostOps1_3, hostOps1_4, hostOps1_5, hostOps1_6, hostOps1_7, hostOps1_8, hostOps1_9, hostOps1_10, List.take_succ_cons, List.take_zero, List.drop_succ_cons, List.drop_zero, List.cons_append, List.nil_append, List.append_nil, List.append_assoc]
  after_results_simp

set_option maxHeartbeats 4000000 in
/-- No operation of this part writes `main_arg8`. -/
theorem partA1_keeps_main_arg8 (W : Valuation τ sig (Elt F)) : after partA1 W main_arg8 = W main_arg8 := by
  simp only [partA1, hostOps1, hostOps1_1, hostOps1_2, hostOps1_3, hostOps1_4, hostOps1_5, hostOps1_6, hostOps1_7, hostOps1_8, hostOps1_9, hostOps1_10, List.take_succ_cons, List.take_zero, List.drop_succ_cons, List.drop_zero, List.cons_append, List.nil_append, List.append_nil, List.append_assoc]
  after_results_simp
end Cert.KernelIdeal.TailValue

end
-- ==== Proof.KerTail1b.lean ====
/- Layer 1's concatenation and scatter-add, read back. -/
import proofs.«140184_j29661044146691_2_alg».proof.Proof.Gen.KernelIdeal.Launch
import proofs.«140184_j29661044146691_2_alg».proof.Proof.KerStageDefs
import proofs.«140184_j29661044146691_2_alg».proof.Proof.LibHostLine
import proofs.«140184_j29661044146691_2_alg».proof.Proof.KerTailChunks
import proofs.«140184_j29661044146691_2_alg».proof.Proof.KerStageParts
import Idealize.ShloMosaic.Lib.StableHlo.Run

set_option maxRecDepth 65536

noncomputable section

namespace Cert.KernelIdeal.TailValue

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
/-- The node table after the layer: the two update blocks, one after the other, scatter-added at the concatenated indices. -/
theorem partB1_z (W : Valuation τ sig (Elt F)) :
    after partB1 W main_v84 = Stage.scat (W main_v2) (W main_v3) (W main_v71) (W main_v76) := by
  simp only [Stage.scat]
  simp only [partB1, hostOps1_10, List.take_succ_cons, List.take_zero, List.drop_succ_cons, List.drop_zero, List.cons_append, List.nil_append, List.append_nil, List.append_assoc]
  after_results_simp

set_option maxHeartbeats 4000000 in
/-- No operation of this part writes `main_v3`. -/
theorem partB1_keeps_main_v3 (W : Valuation τ sig (Elt F)) : after partB1 W main_v3 = W main_v3 := by
  simp only [partB1, hostOps1_10, List.take_succ_cons, List.take_zero, List.drop_succ_cons, List.drop_zero, List.cons_append, List.nil_append, List.append_nil, List.append_assoc]
  after_results_simp

set_option maxHeartbeats 4000000 in
/-- No operation of this part writes `main_arg1`. -/
theorem partB1_keeps_main_arg1 (W : Valuation τ sig (Elt F)) : after partB1 W main_arg1 = W main_arg1 := by
  simp only [partB1, hostOps1_10, List.take_succ_cons, List.take_zero, List.drop_succ_cons, List.drop_zero, List.cons_append, List.nil_append, List.append_nil, List.append_assoc]
  after_results_simp

set_option maxHeartbeats 4000000 in
/-- No operation of this part writes `main_arg6`. -/
theorem partB1_keeps_main_arg6 (W : Valuation τ sig (Elt F)) : after partB1 W main_arg6 = W main_arg6 := by
  simp only [partB1, hostOps1_10, List.take_succ_cons, List.take_zero, List.drop_succ_cons, List.drop_zero, List.cons_append, List.nil_append, List.append_nil, List.append_assoc]
  after_results_simp

set_option maxHeartbeats 4000000 in
/-- No operation of this part writes `main_arg7`. -/
theorem partB1_keeps_main_arg7 (W : Valuation τ sig (Elt F)) : after partB1 W main_arg7 = W main_arg7 := by
  simp only [partB1, hostOps1_10, List.take_succ_cons, List.take_zero, List.drop_succ_cons, List.drop_zero, List.cons_append, List.nil_append, List.append_nil, List.append_assoc]
  after_results_simp

set_option maxHeartbeats 4000000 in
/-- No operation of this part writes `main_arg8`. -/
theorem partB1_keeps_main_arg8 (W : Valuation τ sig (Elt F)) : after partB1 W main_arg8 = W main_arg8 := by
  simp only [partB1, hostOps1_10, List.take_succ_cons, List.take_zero, List.drop_succ_cons, List.drop_zero, List.cons_append, List.nil_append, List.append_nil, List.append_assoc]
  after_results_simp
end Cert.KernelIdeal.TailValue

end
-- ==== Proof.KerTail2a.lean ====
/- Layer 2 of the kernel program's host code up to its two update blocks, read back. -/
import proofs.«140184_j29661044146691_2_alg».proof.Proof.Gen.KernelIdeal.Launch
import proofs.«140184_j29661044146691_2_alg».proof.Proof.KerStageDefs
import proofs.«140184_j29661044146691_2_alg».proof.Proof.LibHostLine
import proofs.«140184_j29661044146691_2_alg».proof.Proof.KerTailChunks
import proofs.«140184_j29661044146691_2_alg».proof.Proof.KerStageParts
import Idealize.ShloMosaic.Lib.StableHlo.Run

set_option maxRecDepth 65536

noncomputable section

namespace Cert.KernelIdeal.TailValue

open Cert.KernelIdeal Cert.KernelIdeal.Gen Idealize.ShloMosaic Idealize.ShloMosaic.TcCoe Idealize.SL.Sem Idealize.ShloMosaic.StableHlo

variable {F : FTy → Type} [FloatOps F]

set_option maxHeartbeats 8000000 in
/-- The first endpoints' update block is the function `deltaX` of the node table, the relation features, this layer's clause weight and
    the endpoint indices. -/
theorem partA2_dx (W : Valuation τ sig (Elt F)) :
    after partA2 W main_v152 = Stage.deltaX (W main_v84) (W main_arg1) (Stage.weight1 (W main_arg6)) (W main_arg7) (W main_arg8) := by
  simp only [Stage.deltaX, Stage.weight1]
  simp only [partA2, hostOps1_10, hostOps1_11, hostOps1_12, hostOps1_13, hostOps1_14, hostOps1_15, hostOps1_16, hostOps1_17, hostOps1_18, hostOps1_19, hostOps1_20, List.take_succ_cons, List.take_zero, List.drop_succ_cons, List.drop_zero, List.cons_append, List.nil_append, List.append_nil, List.append_assoc]
  after_results_simp
  rfl

set_option maxHeartbeats 8000000 in
/-- The second endpoints' update block is the function `deltaY` of the same arrays. -/
theorem partA2_dy (W : Valuation τ sig (Elt F)) :
    after partA2 W main_v157 = Stage.deltaY (W main_v84) (W main_arg1) (Stage.weight1 (W main_arg6)) (W main_arg7) (W main_arg8) := by
  simp only [Stage.deltaY, Stage.weight1]
  simp only [partA2, hostOps1_10, hostOps1_11, hostOps1_12, hostOps1_13, hostOps1_14, hostOps1_15, hostOps1_16, hostOps1_17, hostOps1_18, hostOps1_19, hostOps1_20, List.take_succ_cons, List.take_zero, List.drop_succ_cons, List.drop_zero, List.cons_append, List.nil_append, List.append_nil, List.append_assoc]
  after_results_simp
  rfl

set_option maxHeartbeats 4000000 in
/-- No operation of this part writes `main_v84`. -/
theorem partA2_keeps_main_v84 (W : Valuation τ sig (Elt F)) : after partA2 W main_v84 = W main_v84 := by
  simp only [partA2, hostOps1_10, hostOps1_11, hostOps1_12, hostOps1_13, hostOps1_14, hostOps1_15, hostOps1_16, hostOps1_17, hostOps1_18, hostOps1_19, hostOps1_20, List.take_succ_cons, List.take_zero, List.drop_succ_cons, List.drop_zero, List.cons_append, List.nil_append, List.append_nil, List.append_assoc]
  after_results_simp

set_option maxHeartbeats 4000000 in
/-- No operation of this part writes `main_v3`. -/
theorem partA2_keeps_main_v3 (W : Valuation τ sig (Elt F)) : after partA2 W main_v3 = W main_v3 := by
  simp only [partA2, hostOps1_10, hostOps1_11, hostOps1_12, hostOps1_13, hostOps1_14, hostOps1_15, hostOps1_16, hostOps1_17, hostOps1_18, hostOps1_19, hostOps1_20, List.take_succ_cons, List.take_zero, List.drop_succ_cons, List.drop_zero, List.cons_append, List.nil_append, List.append_nil, List.append_assoc]
  after_results_simp

set_option maxHeartbeats 4000000 in
/-- No operation of this part writes `main_arg1`. -/
theorem partA2_keeps_main_arg1 (W : Valuation τ sig (Elt F)) : after partA2 W main_arg1 = W main_arg1 := by
  simp only [partA2, hostOps1_10, hostOps1_11, hostOps1_12, hostOps1_13, hostOps1_14, hostOps1_15, hostOps1_16, hostOps1_17, hostOps1_18, hostOps1_19, hostOps1_20, List.take_succ_cons, List.take_zero, List.drop_succ_cons, List.drop_zero, List.cons_append, List.nil_append, List.append_nil, List.append_assoc]
  after_results_simp

set_option maxHeartbeats 4000000 in
/-- No operation of this part writes `main_arg6`. -/
theorem partA2_keeps_main_arg6 (W : Valuation τ sig (Elt F)) : after partA2 W main_arg6 = W main_arg6 := by
  simp only [partA2, hostOps1_10, hostOps1_11, hostOps1_12, hostOps1_13, hostOps1_14, hostOps1_15, hostOps1_16, hostOps1_17, hostOps1_18, hostOps1_19, hostOps1_20, List.take_succ_cons, List.take_zero, List.drop_succ_cons, List.drop_zero, List.cons_append, List.nil_append, List.append_nil, List.append_assoc]
  after_results_simp

set_option maxHeartbeats 4000000 in
/-- No operation of this part writes `main_arg7`. -/
theorem partA2_keeps_main_arg7 (W : Valuation τ sig (Elt F)) : after partA2 W main_arg7 = W main_arg7 := by
  simp only [partA2, hostOps1_10, hostOps1_11, hostOps1_12, hostOps1_13, hostOps1_14, hostOps1_15, hostOps1_16, hostOps1_17, hostOps1_18, hostOps1_19, hostOps1_20, List.take_succ_cons, List.take_zero, List.drop_succ_cons, List.drop_zero, List.cons_append, List.nil_append, List.append_nil, List.append_assoc]
  after_results_simp

set_option maxHeartbeats 4000000 in
/-- No operation of this part writes `main_arg8`. -/
theorem partA2_keeps_main_arg8 (W : Valuation τ sig (Elt F)) : after partA2 W main_arg8 = W main_arg8 := by
  simp only [partA2, hostOps1_10, hostOps1_11, hostOps1_12, hostOps1_13, hostOps1_14, hostOps1_15, hostOps1_16, hostOps1_17, hostOps1_18, hostOps1_19, hostOps1_20, List.take_succ_cons, List.take_zero, List.drop_succ_cons, List.drop_zero, List.cons_append, List.nil_append, List.append_nil, List.append_assoc]
  after_results_simp
end Cert.KernelIdeal.TailValue

end
-- ==== Proof.KerTail2b.lean ====
/- Layer 2's concatenation and scatter-add, read back. -/
import proofs.«140184_j29661044146691_2_alg».proof.Proof.Gen.KernelIdeal.Launch
import proofs.«140184_j29661044146691_2_alg».proof.Proof.KerStageDefs
import proofs.«140184_j29661044146691_2_alg».proof.Proof.LibHostLine
import proofs.«140184_j29661044146691_2_alg».proof.Proof.KerTailChunks
import proofs.«140184_j29661044146691_2_alg».proof.Proof.KerStageParts
import Idealize.ShloMosaic.Lib.StableHlo.Run

set_option maxRecDepth 65536

noncomputable section

namespace Cert.KernelIdeal.TailValue

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
/-- The node table after the layer: the two update blocks, one after the other, scatter-added at the concatenated indices. -/
theorem partB2_z (W : Valuation τ sig (Elt F)) :
    after partB2 W main_v165 = Stage.scat (W main_v84) (W main_v3) (W main_v152) (W main_v157) := by
  simp only [Stage.scat]
  simp only [partB2, hostOps1_20, List.take_succ_cons, List.take_zero, List.drop_succ_cons, List.drop_zero, List.cons_append, List.nil_append, List.append_nil, List.append_assoc]
  after_results_simp

set_option maxHeartbeats 4000000 in
/-- No operation of this part writes `main_v3`. -/
theorem partB2_keeps_main_v3 (W : Valuation τ sig (Elt F)) : after partB2 W main_v3 = W main_v3 := by
  simp only [partB2, hostOps1_20, List.take_succ_cons, List.take_zero, List.drop_succ_cons, List.drop_zero, List.cons_append, List.nil_append, List.append_nil, List.append_assoc]
  after_results_simp

set_option maxHeartbeats 4000000 in
/-- No operation of this part writes `main_arg1`. -/
theorem partB2_keeps_main_arg1 (W : Valuation τ sig (Elt F)) : after partB2 W main_arg1 = W main_arg1 := by
  simp only [partB2, hostOps1_20, List.take_succ_cons, List.take_zero, List.drop_succ_cons, List.drop_zero, List.cons_append, List.nil_append, List.append_nil, List.append_assoc]
  after_results_simp

set_option maxHeartbeats 4000000 in
/-- No operation of this part writes `main_arg6`. -/
theorem partB2_keeps_main_arg6 (W : Valuation τ sig (Elt F)) : after partB2 W main_arg6 = W main_arg6 := by
  simp only [partB2, hostOps1_20, List.take_succ_cons, List.take_zero, List.drop_succ_cons, List.drop_zero, List.cons_append, List.nil_append, List.append_nil, List.append_assoc]
  after_results_simp

set_option maxHeartbeats 4000000 in
/-- No operation of this part writes `main_arg7`. -/
theorem partB2_keeps_main_arg7 (W : Valuation τ sig (Elt F)) : after partB2 W main_arg7 = W main_arg7 := by
  simp only [partB2, hostOps1_20, List.take_succ_cons, List.take_zero, List.drop_succ_cons, List.drop_zero, List.cons_append, List.nil_append, List.append_nil, List.append_assoc]
  after_results_simp

set_option maxHeartbeats 4000000 in
/-- No operation of this part writes `main_arg8`. -/
theorem partB2_keeps_main_arg8 (W : Valuation τ sig (Elt F)) : after partB2 W main_arg8 = W main_arg8 := by
  simp only [partB2, hostOps1_20, List.take_succ_cons, List.take_zero, List.drop_succ_cons, List.drop_zero, List.cons_append, List.nil_append, List.append_nil, List.append_assoc]
  after_results_simp
end Cert.KernelIdeal.TailValue

end
-- ==== Proof.KerTail3a.lean ====
/- Layer 3 of the kernel program's host code up to its two update blocks, read back. -/
import proofs.«140184_j29661044146691_2_alg».proof.Proof.Gen.KernelIdeal.Launch
import proofs.«140184_j29661044146691_2_alg».proof.Proof.KerStageDefs
import proofs.«140184_j29661044146691_2_alg».proof.Proof.LibHostLine
import proofs.«140184_j29661044146691_2_alg».proof.Proof.KerTailChunks
import proofs.«140184_j29661044146691_2_alg».proof.Proof.KerStageParts
import Idealize.ShloMosaic.Lib.StableHlo.Run

set_option maxRecDepth 65536

noncomputable section

namespace Cert.KernelIdeal.TailValue

open Cert.KernelIdeal Cert.KernelIdeal.Gen Idealize.ShloMosaic Idealize.ShloMosaic.TcCoe Idealize.SL.Sem Idealize.ShloMosaic.StableHlo

variable {F : FTy → Type} [FloatOps F]

set_option maxHeartbeats 8000000 in
/-- The first endpoints' update block is the function `deltaX` of the node table, the relation features, this layer's clause weight and
    the endpoint indices. -/
theorem partA3_dx (W : Valuation τ sig (Elt F)) :
    after partA3 W main_v233 = Stage.deltaX (W main_v165) (W main_arg1) (Stage.weight2 (W main_arg6)) (W main_arg7) (W main_arg8) := by
  simp only [Stage.deltaX, Stage.weight2]
  simp only [partA3, hostOps1_20, hostOps1_21, hostOps1_22, hostOps1_23, hostOps1_24, hostOps1_25, hostOps1_26, hostOps1_27, hostOps1_28, hostOps1_29, hostOps1_30, List.take_succ_cons, List.take_zero, List.drop_succ_cons, List.drop_zero, List.cons_append, List.nil_append, List.append_nil, List.append_assoc]
  after_results_simp
  rfl

set_option maxHeartbeats 8000000 in
/-- The second endpoints' update block is the function `deltaY` of the same arrays. -/
theorem partA3_dy (W : Valuation τ sig (Elt F)) :
    after partA3 W main_v238 = Stage.deltaY (W main_v165) (W main_arg1) (Stage.weight2 (W main_arg6)) (W main_arg7) (W main_arg8) := by
  simp only [Stage.deltaY, Stage.weight2]
  simp only [partA3, hostOps1_20, hostOps1_21, hostOps1_22, hostOps1_23, hostOps1_24, hostOps1_25, hostOps1_26, hostOps1_27, hostOps1_28, hostOps1_29, hostOps1_30, List.take_succ_cons, List.take_zero, List.drop_succ_cons, List.drop_zero, List.cons_append, List.nil_append, List.append_nil, List.append_assoc]
  after_results_simp
  rfl

set_option maxHeartbeats 4000000 in
/-- No operation of this part writes `main_v165`. -/
theorem partA3_keeps_main_v165 (W : Valuation τ sig (Elt F)) : after partA3 W main_v165 = W main_v165 := by
  simp only [partA3, hostOps1_20, hostOps1_21, hostOps1_22, hostOps1_23, hostOps1_24, hostOps1_25, hostOps1_26, hostOps1_27, hostOps1_28, hostOps1_29, hostOps1_30, List.take_succ_cons, List.take_zero, List.drop_succ_cons, List.drop_zero, List.cons_append, List.nil_append, List.append_nil, List.append_assoc]
  after_results_simp

set_option maxHeartbeats 4000000 in
/-- No operation of this part writes `main_v3`. -/
theorem partA3_keeps_main_v3 (W : Valuation τ sig (Elt F)) : after partA3 W main_v3 = W main_v3 := by
  simp only [partA3, hostOps1_20, hostOps1_21, hostOps1_22, hostOps1_23, hostOps1_24, hostOps1_25, hostOps1_26, hostOps1_27, hostOps1_28, hostOps1_29, hostOps1_30, List.take_succ_cons, List.take_zero, List.drop_succ_cons, List.drop_zero, List.cons_append, List.nil_append, List.append_nil, List.append_assoc]
  after_results_simp

set_option maxHeartbeats 4000000 in
/-- No operation of this part writes `main_arg1`. -/
theorem partA3_keeps_main_arg1 (W : Valuation τ sig (Elt F)) : after partA3 W main_arg1 = W main_arg1 := by
  simp only [partA3, hostOps1_20, hostOps1_21, hostOps1_22, hostOps1_23, hostOps1_24, hostOps1_25, hostOps1_26, hostOps1_27, hostOps1_28, hostOps1_29, hostOps1_30, List.take_succ_cons, List.take_zero, List.drop_succ_cons, List.drop_zero, List.cons_append, List.nil_append, List.append_nil, List.append_assoc]
  after_results_simp

set_option maxHeartbeats 4000000 in
/-- No operation of this part writes `main_arg6`. -/
theorem partA3_keeps_main_arg6 (W : Valuation τ sig (Elt F)) : after partA3 W main_arg6 = W main_arg6 := by
  simp only [partA3, hostOps1_20, hostOps1_21, hostOps1_22, hostOps1_23, hostOps1_24, hostOps1_25, hostOps1_26, hostOps1_27, hostOps1_28, hostOps1_29, hostOps1_30, List.take_succ_cons, List.take_zero, List.drop_succ_cons, List.drop_zero, List.cons_append, List.nil_append, List.append_nil, List.append_assoc]
  after_results_simp

set_option maxHeartbeats 4000000 in
/-- No operation of this part writes `main_arg7`. -/
theorem partA3_keeps_main_arg7 (W : Valuation τ sig (Elt F)) : after partA3 W main_arg7 = W main_arg7 := by
  simp only [partA3, hostOps1_20, hostOps1_21, hostOps1_22, hostOps1_23, hostOps1_24, hostOps1_25, hostOps1_26, hostOps1_27, hostOps1_28, hostOps1_29, hostOps1_30, List.take_succ_cons, List.take_zero, List.drop_succ_cons, List.drop_zero, List.cons_append, List.nil_append, List.append_nil, List.append_assoc]
  after_results_simp

set_option maxHeartbeats 4000000 in
/-- No operation of this part writes `main_arg8`. -/
theorem partA3_keeps_main_arg8 (W : Valuation τ sig (Elt F)) : after partA3 W main_arg8 = W main_arg8 := by
  simp only [partA3, hostOps1_20, hostOps1_21, hostOps1_22, hostOps1_23, hostOps1_24, hostOps1_25, hostOps1_26, hostOps1_27, hostOps1_28, hostOps1_29, hostOps1_30, List.take_succ_cons, List.take_zero, List.drop_succ_cons, List.drop_zero, List.cons_append, List.nil_append, List.append_nil, List.append_assoc]
  after_results_simp
end Cert.KernelIdeal.TailValue

end
-- ==== Proof.KerTail3b.lean ====
/- Layer 3's concatenation and scatter-add, read back. -/
import proofs.«140184_j29661044146691_2_alg».proof.Proof.Gen.KernelIdeal.Launch
import proofs.«140184_j29661044146691_2_alg».proof.Proof.KerStageDefs
import proofs.«140184_j29661044146691_2_alg».proof.Proof.LibHostLine
import proofs.«140184_j29661044146691_2_alg».proof.Proof.KerTailChunks
import proofs.«140184_j29661044146691_2_alg».proof.Proof.KerStageParts
import Idealize.ShloMosaic.Lib.StableHlo.Run

set_option maxRecDepth 65536

noncomputable section

namespace Cert.KernelIdeal.TailValue

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
/-- The node table after the layer: the two update blocks, one after the other, scatter-added at the concatenated indices. -/
theorem partB3_z (W : Valuation τ sig (Elt F)) :
    after partB3 W main_v246 = Stage.scat (W main_v165) (W main_v3) (W main_v233) (W main_v238) := by
  simp only [Stage.scat]
  simp only [partB3, hostOps1_30, List.take_succ_cons, List.take_zero, List.drop_succ_cons, List.drop_zero, List.cons_append, List.nil_append, List.append_nil, List.append_assoc]
  after_results_simp

set_option maxHeartbeats 4000000 in
/-- No operation of this part writes `main_v3`. -/
theorem partB3_keeps_main_v3 (W : Valuation τ sig (Elt F)) : after partB3 W main_v3 = W main_v3 := by
  simp only [partB3, hostOps1_30, List.take_succ_cons, List.take_zero, List.drop_succ_cons, List.drop_zero, List.cons_append, List.nil_append, List.append_nil, List.append_assoc]
  after_results_simp

set_option maxHeartbeats 4000000 in
/-- No operation of this part writes `main_arg1`. -/
theorem partB3_keeps_main_arg1 (W : Valuation τ sig (Elt F)) : after partB3 W main_arg1 = W main_arg1 := by
  simp only [partB3, hostOps1_30, List.take_succ_cons, List.take_zero, List.drop_succ_cons, List.drop_zero, List.cons_append, List.nil_append, List.append_nil, List.append_assoc]
  after_results_simp

set_option maxHeartbeats 4000000 in
/-- No operation of this part writes `main_arg6`. -/
theorem partB3_keeps_main_arg6 (W : Valuation τ sig (Elt F)) : after partB3 W main_arg6 = W main_arg6 := by
  simp only [partB3, hostOps1_30, List.take_succ_cons, List.take_zero, List.drop_succ_cons, List.drop_zero, List.cons_append, List.nil_append, List.append_nil, List.append_assoc]
  after_results_simp

set_option maxHeartbeats 4000000 in
/-- No operation of this part writes `main_arg7`. -/
theorem partB3_keeps_main_arg7 (W : Valuation τ sig (Elt F)) : after partB3 W main_arg7 = W main_arg7 := by
  simp only [partB3, hostOps1_30, List.take_succ_cons, List.take_zero, List.drop_succ_cons, List.drop_zero, List.cons_append, List.nil_append, List.append_nil, List.append_assoc]
  after_results_simp

set_option maxHeartbeats 4000000 in
/-- No operation of this part writes `main_arg8`. -/
theorem partB3_keeps_main_arg8 (W : Valuation τ sig (Elt F)) : after partB3 W main_arg8 = W main_arg8 := by
  simp only [partB3, hostOps1_30, List.take_succ_cons, List.take_zero, List.drop_succ_cons, List.drop_zero, List.cons_append, List.nil_append, List.append_nil, List.append_assoc]
  after_results_simp
end Cert.KernelIdeal.TailValue

end
-- ==== Proof.KerTail4.lean ====
/- The head of the kernel program's host code, read back. -/
import proofs.«140184_j29661044146691_2_alg».proof.Proof.Gen.KernelIdeal.Launch
import proofs.«140184_j29661044146691_2_alg».proof.Proof.KerStageDefs
import proofs.«140184_j29661044146691_2_alg».proof.Proof.LibHostLine
import proofs.«140184_j29661044146691_2_alg».proof.Proof.KerTailChunks
import Idealize.ShloMosaic.Lib.StableHlo.Run

set_option maxRecDepth 65536

noncomputable section

namespace Cert.KernelIdeal.TailValue

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
theorem chunk4_A (W : Valuation τ sig (Elt F)) : after chunk4 W main_v248 = Stage.headA (W main_v246) := by
  simp only [Stage.headA]
  simp only [chunk4, hostOps1_30, List.drop_succ_cons, List.drop_zero]
  after_results_simp

set_option maxHeartbeats 4000000 in
theorem chunk4_SA (W : Valuation τ sig (Elt F)) : after chunk4 W main_v260 = Stage.headSA (W main_v246) := by
  simp only [Stage.headSA]
  simp only [chunk4, hostOps1_30, List.drop_succ_cons, List.drop_zero]
  after_results_simp

set_option maxHeartbeats 4000000 in
theorem chunk4_B (W : Valuation τ sig (Elt F)) : after chunk4 W main_v249 = Stage.headB (W main_v246) := by
  simp only [Stage.headB]
  simp only [chunk4, hostOps1_30, List.drop_succ_cons, List.drop_zero]
  after_results_simp

set_option maxHeartbeats 4000000 in
theorem chunk4_SB (W : Valuation τ sig (Elt F)) : after chunk4 W main_v271 = Stage.headSB (W main_v246) := by
  simp only [Stage.headSB]
  simp only [chunk4, hostOps1_30, List.drop_succ_cons, List.drop_zero]
  after_results_simp
end Cert.KernelIdeal.TailValue

end
-- ==== Proof.KerTail.lean ====
/- The kernel program's host code after the region, read back whole: from any contents `W` of the buffers at the region's end, each of the four
   results is the head of three layers applied to the node table the region left, every layer reading the same relation features, endpoint
   indices and concatenated index vector and its own entry of the clause weights. -/
import proofs.«140184_j29661044146691_2_alg».proof.Proof.Gen.KernelIdeal.Launch
import proofs.«140184_j29661044146691_2_alg».proof.Proof.KerStageDefs
import proofs.«140184_j29661044146691_2_alg».proof.Proof.LibHostLine
import proofs.«140184_j29661044146691_2_alg».proof.Proof.KerTailChunks
import proofs.«140184_j29661044146691_2_alg».proof.Proof.KerStageSplit
import proofs.«140184_j29661044146691_2_alg».proof.Proof.KerTail1a
import proofs.«140184_j29661044146691_2_alg».proof.Proof.KerTail1b
import proofs.«140184_j29661044146691_2_alg».proof.Proof.KerTail2a
import proofs.«140184_j29661044146691_2_alg».proof.Proof.KerTail2b
import proofs.«140184_j29661044146691_2_alg».proof.Proof.KerTail3a
import proofs.«140184_j29661044146691_2_alg».proof.Proof.KerTail3b
import proofs.«140184_j29661044146691_2_alg».proof.Proof.KerTail4
import Idealize.ShloMosaic.Lib.StableHlo.Run

set_option maxRecDepth 65536

noncomputable section

namespace Cert.KernelIdeal.TailValue

open Cert.KernelIdeal Cert.KernelIdeal.Gen Idealize.ShloMosaic Idealize.ShloMosaic.TcCoe Idealize.SL.Sem Idealize.ShloMosaic.StableHlo

variable {F : FTy → Type} [FloatOps F]

/-- The node table after the three layers, from the buffers' contents `W` at the region's end. -/
abbrev z3 (W : Valuation τ sig (Elt F)) : (⟨S100000x10, .f32⟩ : BufTy).Contents (Elt F) :=
  Stage.layer
    (Stage.layer
      (Stage.layer (W main_v2) (W main_arg1) (Stage.weight0 (W main_arg6)) (W main_arg7) (W main_arg8) (Stage.idx2 (W main_arg7) (W main_arg8)))
      (W main_arg1) (Stage.weight1 (W main_arg6)) (W main_arg7) (W main_arg8) (Stage.idx2 (W main_arg7) (W main_arg8)))
    (W main_arg1) (Stage.weight2 (W main_arg6)) (W main_arg7) (W main_arg8) (Stage.idx2 (W main_arg7) (W main_arg8))

/-- After the six parts of the three layers the node table's buffer holds the three layers of what the region left. -/
theorem after_layers (W : Valuation τ sig (Elt F)) :
    after partB3 (after partA3 (after partB2 (after partA2 (after partB1 (after partA1 W))))) main_v246 = z3 W := by
  repeat (first | rw [partB1_z] | rw [partA1_dx] | rw [partA1_dy] | rw [partB2_z] | rw [partA2_dx] | rw [partA2_dy] | rw [partB3_z] | rw [partA3_dx] | rw [partA3_dy] | rw [partA1_keeps_main_v2] | rw [partA1_keeps_main_arg1] | rw [partA1_keeps_main_arg6] | rw [partA1_keeps_main_arg7] | rw [partA1_keeps_main_arg8] | rw [partB1_keeps_main_v3] | rw [partB1_keeps_main_arg1] | rw [partB1_keeps_main_arg6] | rw [partB1_keeps_main_arg7] | rw [partB1_keeps_main_arg8] | rw [partA2_keeps_main_v84] | rw [partA2_keeps_main_v3] | rw [partA2_keeps_main_arg1] | rw [partA2_keeps_main_arg6] | rw [partA2_keeps_main_arg7] | rw [partA2_keeps_main_arg8] | rw [partB2_keeps_main_v3] | rw [partB2_keeps_main_arg1] | rw [partB2_keeps_main_arg6] | rw [partB2_keeps_main_arg7] | rw [partB2_keeps_main_arg8] | rw [partA3_keeps_main_v165] | rw [partA3_keeps_main_v3] | rw [partA3_keeps_main_arg1] | rw [partA3_keeps_main_arg6] | rw [partA3_keeps_main_arg7] | rw [partA3_keeps_main_arg8] | rw [partB3_keeps_main_v3] | rw [partB3_keeps_main_arg1] | rw [partB3_keeps_main_arg6] | rw [partB3_keeps_main_arg7] | rw [partB3_keeps_main_arg8] | rw [partA1_ix])
  simp only [z3, Stage.layer_eq_parts]

/-- Running the whole tail is running its seven parts in turn. -/
theorem after_tail (W : Valuation τ sig (Elt F)) :
    after tailAll W = after chunk4 (after partB3 (after partA3 (after partB2 (after partA2 (after partB1 (after partA1 W)))))) := by
  rw [tailAll_eq]
  simp only [after_append]

theorem tail_A (W : Valuation τ sig (Elt F)) : after tailAll W main_v248 = Stage.headA (z3 W) := by
  rw [after_tail, chunk4_A, after_layers]
theorem tail_SA (W : Valuation τ sig (Elt F)) : after tailAll W main_v260 = Stage.headSA (z3 W) := by
  rw [after_tail, chunk4_SA, after_layers]
theorem tail_B (W : Valuation τ sig (Elt F)) : after tailAll W main_v249 = Stage.headB (z3 W) := by
  rw [after_tail, chunk4_B, after_layers]
theorem tail_SB (W : Valuation τ sig (Elt F)) : after tailAll W main_v271 = Stage.headSB (z3 W) := by
  rw [after_tail, chunk4_SB, after_layers]

end Cert.KernelIdeal.TailValue

end
-- ==== Proof.LayerLawKerDefs.lean ====
/-
  One relational layer of the fused program, cut into its steps: the sign vectors, the row numbers made non-negative, the gathered rows, the signed literals, the row maximum, the exponentials, their sum, the quotient softplus / sum, the boosts, and the one scatter of the two boost blocks. The layer is their composition.
-/
import proofs.«140184_j29661044146691_2_alg».proof.Proof.KerStageDefs

set_option synthInstance.maxSize 4096

noncomputable section

namespace LayerLaw.Ker

open Cert.KernelIdeal Idealize.ShloMosaic
open Cert.KernelIdeal.Facts₀ Cert.KernelIdeal.Facts

variable {F : FTy → Type} [FloatOps F] [Cert.KernelIdeal.Facts]

/-- The ten alternating signs: `1` at even positions, `-1` at odd ones. -/
noncomputable def sg10  :
    (⟨S10, .f32⟩ : BufTy).Contents (Elt F) :=
  let t0 := ((iotaInDim S10 32 0) : (⟨S10, .i32⟩ : BufTy).Contents (Elt F))
  let t1 := ((constantI S_ 32 2#32) : (⟨S_, .i32⟩ : BufTy).Contents (Elt F))
  let t2 := (id t1 : (⟨S_, .i32⟩ : BufTy).Contents (Elt F))
  let t3 := ((constantI S_ 32 0#32) : (⟨S_, .i32⟩ : BufTy).Contents (Elt F))
  let t4 := ((cmpi .eq) t2 t3 : (⟨S_, .i1⟩ : BufTy).Contents (Elt F))
  let t5 := ((constantI S_ 32 1#32) : (⟨S_, .i32⟩ : BufTy).Contents (Elt F))
  let t6 := (select t4 t5 t2 : (⟨S_, .i32⟩ : BufTy).Contents (Elt F))
  let t7 := ((broadcastInDim S10 ![] bcast_S_S10) t6 : (⟨S10, .i32⟩ : BufTy).Contents (Elt F))
  let t8 := (Host.remsi t0 t7 : (⟨S10, .i32⟩ : BufTy).Contents (Elt F))
  let t9 := ((constantI S_ 32 0#32) : (⟨S_, .i32⟩ : BufTy).Contents (Elt F))
  let t10 := ((broadcastInDim S10 ![] bcast_S_S10) t9 : (⟨S10, .i32⟩ : BufTy).Contents (Elt F))
  let t11 := ((cmpi .ne) t8 t10 : (⟨S10, .i1⟩ : BufTy).Contents (Elt F))
  let t12 := ((constantI S_ 32 0#32) : (⟨S_, .i32⟩ : BufTy).Contents (Elt F))
  let t13 := ((broadcastInDim S10 ![] bcast_S_S10) t12 : (⟨S10, .i32⟩ : BufTy).Contents (Elt F))
  let t14 := ((cmpi .slt) t8 t13 : (⟨S10, .i1⟩ : BufTy).Contents (Elt F))
  let t15 := ((constantI S_ 32 0#32) : (⟨S_, .i32⟩ : BufTy).Contents (Elt F))
  let t16 := ((cmpi .slt) t6 t15 : (⟨S_, .i1⟩ : BufTy).Contents (Elt F))
  let t17 := ((broadcastInDim S10 ![] bcast_S_S10) t16 : (⟨S10, .i1⟩ : BufTy).Contents (Elt F))
  let t18 := ((cmpi .ne) t14 t17 : (⟨S10, .i1⟩ : BufTy).Contents (Elt F))
  let t19 := (andi t18 t11 : (⟨S10, .i1⟩ : BufTy).Contents (Elt F))
  let t20 := ((broadcastInDim S10 ![] bcast_S_S10) t6 : (⟨S10, .i32⟩ : BufTy).Contents (Elt F))
  let t21 := (addi t8 t20 : (⟨S10, .i32⟩ : BufTy).Contents (Elt F))
  let t22 := (select t19 t21 t8 : (⟨S10, .i32⟩ : BufTy).Contents (Elt F))
  let t23 := ((constantI S_ 32 0#32) : (⟨S_, .i32⟩ : BufTy).Contents (Elt F))
  let t24 := ((broadcastInDim S10 ![] bcast_S_S10 : (⟨S_, .i32⟩ : BufTy).Contents (Elt F) → (⟨S10, .i32⟩ : BufTy).Contents (Elt F)) t23 : (⟨S10, .i32⟩ : BufTy).Contents (Elt F))
  let t25 := ((cmpi .eq : (⟨S10, .i32⟩ : BufTy).Contents (Elt F) → (⟨S10, .i32⟩ : BufTy).Contents (Elt F) → (⟨S10, .i1⟩ : BufTy).Contents (Elt F)) t22 t24 : (⟨S10, .i1⟩ : BufTy).Contents (Elt F))
  let t26 := ((constant S_ .f32 0x3F800000#32) : (⟨S_, .f32⟩ : BufTy).Contents (Elt F))
  let t27 := ((constant S_ .f32 0xBF800000#32) : (⟨S_, .f32⟩ : BufTy).Contents (Elt F))
  let t28 := ((broadcastInDim S10 ![] bcast_S_S10) t26 : (⟨S10, .f32⟩ : BufTy).Contents (Elt F))
  let t29 := ((broadcastInDim S10 ![] bcast_S_S10) t27 : (⟨S10, .f32⟩ : BufTy).Contents (Elt F))
  let t30 := (select t25 t28 t29 : (⟨S10, .f32⟩ : BufTy).Contents (Elt F))
  let t31 := ((id : (⟨S10, .f32⟩ : BufTy).Contents (Elt F) → (⟨S10, .f32⟩ : BufTy).Contents (Elt F)) t30 : (⟨S10, .f32⟩ : BufTy).Contents (Elt F))
  t31

/-- The two alternating signs. -/
noncomputable def sg2  :
    (⟨S2, .f32⟩ : BufTy).Contents (Elt F) :=
  let t32 := ((iotaInDim S2 32 0) : (⟨S2, .i32⟩ : BufTy).Contents (Elt F))
  let t33 := ((constantI S_ 32 2#32) : (⟨S_, .i32⟩ : BufTy).Contents (Elt F))
  let t34 := (id t33 : (⟨S_, .i32⟩ : BufTy).Contents (Elt F))
  let t35 := ((constantI S_ 32 0#32) : (⟨S_, .i32⟩ : BufTy).Contents (Elt F))
  let t36 := ((cmpi .eq) t34 t35 : (⟨S_, .i1⟩ : BufTy).Contents (Elt F))
  let t37 := ((constantI S_ 32 1#32) : (⟨S_, .i32⟩ : BufTy).Contents (Elt F))
  let t38 := (select t36 t37 t34 : (⟨S_, .i32⟩ : BufTy).Contents (Elt F))
  let t39 := ((broadcastInDim S2 ![] bcast_S_S2) t38 : (⟨S2, .i32⟩ : BufTy).Contents (Elt F))
  let t40 := (Host.remsi t32 t39 : (⟨S2, .i32⟩ : BufTy).Contents (Elt F))
  let t41 := ((constantI S_ 32 0#32) : (⟨S_, .i32⟩ : BufTy).Contents (Elt F))
  let t42 := ((broadcastInDim S2 ![] bcast_S_S2) t41 : (⟨S2, .i32⟩ : BufTy).Contents (Elt F))
  let t43 := ((cmpi .ne) t40 t42 : (⟨S2, .i1⟩ : BufTy).Contents (Elt F))
  let t44 := ((constantI S_ 32 0#32) : (⟨S_, .i32⟩ : BufTy).Contents (Elt F))
  let t45 := ((broadcastInDim S2 ![] bcast_S_S2) t44 : (⟨S2, .i32⟩ : BufTy).Contents (Elt F))
  let t46 := ((cmpi .slt) t40 t45 : (⟨S2, .i1⟩ : BufTy).Contents (Elt F))
  let t47 := ((constantI S_ 32 0#32) : (⟨S_, .i32⟩ : BufTy).Contents (Elt F))
  let t48 := ((cmpi .slt) t38 t47 : (⟨S_, .i1⟩ : BufTy).Contents (Elt F))
  let t49 := ((broadcastInDim S2 ![] bcast_S_S2) t48 : (⟨S2, .i1⟩ : BufTy).Contents (Elt F))
  let t50 := ((cmpi .ne) t46 t49 : (⟨S2, .i1⟩ : BufTy).Contents (Elt F))
  let t51 := (andi t50 t43 : (⟨S2, .i1⟩ : BufTy).Contents (Elt F))
  let t52 := ((broadcastInDim S2 ![] bcast_S_S2) t38 : (⟨S2, .i32⟩ : BufTy).Contents (Elt F))
  let t53 := (addi t40 t52 : (⟨S2, .i32⟩ : BufTy).Contents (Elt F))
  let t54 := (select t51 t53 t40 : (⟨S2, .i32⟩ : BufTy).Contents (Elt F))
  let t55 := ((constantI S_ 32 0#32) : (⟨S_, .i32⟩ : BufTy).Contents (Elt F))
  let t56 := ((broadcastInDim S2 ![] bcast_S_S2 : (⟨S_, .i32⟩ : BufTy).Contents (Elt F) → (⟨S2, .i32⟩ : BufTy).Contents (Elt F)) t55 : (⟨S2, .i32⟩ : BufTy).Contents (Elt F))
  let t57 := ((cmpi .eq : (⟨S2, .i32⟩ : BufTy).Contents (Elt F) → (⟨S2, .i32⟩ : BufTy).Contents (Elt F) → (⟨S2, .i1⟩ : BufTy).Contents (Elt F)) t54 t56 : (⟨S2, .i1⟩ : BufTy).Contents (Elt F))
  let t58 := ((constant S_ .f32 0x3F800000#32) : (⟨S_, .f32⟩ : BufTy).Contents (Elt F))
  let t59 := ((constant S_ .f32 0xBF800000#32) : (⟨S_, .f32⟩ : BufTy).Contents (Elt F))
  let t60 := ((broadcastInDim S2 ![] bcast_S_S2) t58 : (⟨S2, .f32⟩ : BufTy).Contents (Elt F))
  let t61 := ((broadcastInDim S2 ![] bcast_S_S2) t59 : (⟨S2, .f32⟩ : BufTy).Contents (Elt F))
  let t62 := (select t57 t60 t61 : (⟨S2, .f32⟩ : BufTy).Contents (Elt F))
  let t63 := ((id : (⟨S2, .f32⟩ : BufTy).Contents (Elt F) → (⟨S2, .f32⟩ : BufTy).Contents (Elt F)) t62 : (⟨S2, .f32⟩ : BufTy).Contents (Elt F))
  t63

/-- Row numbers with `100000` added to the negative ones, as a column. -/
noncomputable def nz (sx : (⟨S3200000, .i32⟩ : BufTy).Contents (Elt F)) :
    (⟨S3200000x1, .i32⟩ : BufTy).Contents (Elt F) :=
  let t64 := ((constantI S_ 32 0#32) : (⟨S_, .i32⟩ : BufTy).Contents (Elt F))
  let t65 := ((broadcastInDim S3200000 ![] bcast_S_S3200000 : (⟨S_, .i32⟩ : BufTy).Contents (Elt F) → (⟨S3200000, .i32⟩ : BufTy).Contents (Elt F)) t64 : (⟨S3200000, .i32⟩ : BufTy).Contents (Elt F))
  let t66 := ((cmpi .slt : (⟨S3200000, .i32⟩ : BufTy).Contents (Elt F) → (⟨S3200000, .i32⟩ : BufTy).Contents (Elt F) → (⟨S3200000, .i1⟩ : BufTy).Contents (Elt F)) sx t65 : (⟨S3200000, .i1⟩ : BufTy).Contents (Elt F))
  let t67 := ((constantI S_ 32 100000#32) : (⟨S_, .i32⟩ : BufTy).Contents (Elt F))
  let t68 := ((broadcastInDim S3200000 ![] bcast_S_S3200000 : (⟨S_, .i32⟩ : BufTy).Contents (Elt F) → (⟨S3200000, .i32⟩ : BufTy).Contents (Elt F)) t67 : (⟨S3200000, .i32⟩ : BufTy).Contents (Elt F))
  let t69 := ((addi : (⟨S3200000, .i32⟩ : BufTy).Contents (Elt F) → (⟨S3200000, .i32⟩ : BufTy).Contents (Elt F) → (⟨S3200000, .i32⟩ : BufTy).Contents (Elt F)) sx t68 : (⟨S3200000, .i32⟩ : BufTy).Contents (Elt F))
  let t70 := ((select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) t66 t69 sx : (⟨S3200000, .i32⟩ : BufTy).Contents (Elt F))
  let t71 := ((broadcastInDim S3200000x1 ![0] bcast_S3200000_S3200000x1_0 : (⟨S3200000, .i32⟩ : BufTy).Contents (Elt F) → (⟨S3200000x1, .i32⟩ : BufTy).Contents (Elt F)) t70 : (⟨S3200000x1, .i32⟩ : BufTy).Contents (Elt F))
  t71

/-- The rows of the node table at a column of row numbers. -/
noncomputable def gat (z : (⟨S100000x10, .f32⟩ : BufTy).Contents (Elt F)) (i : (⟨S3200000x1, .i32⟩ : BufTy).Contents (Elt F)) :
    (⟨S3200000x10, .f32⟩ : BufTy).Contents (Elt F) :=
  let t72 := (((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)) z i : (⟨S3200000x10, .f32⟩ : BufTy).Contents (Elt F))
  t72

/-- Ten gathered entries, each times its sign. -/
noncomputable def lit10 (g : (⟨S3200000x10, .f32⟩ : BufTy).Contents (Elt F)) :
    (⟨S3200000x10, .f32⟩ : BufTy).Contents (Elt F) :=
  let t82 := ((broadcastInDim S1x10 ![1] bcast_S10_S1x10_1 : (⟨S10, .f32⟩ : BufTy).Contents (Elt F) → (⟨S1x10, .f32⟩ : BufTy).Contents (Elt F)) (sg10 (F := F)) : (⟨S1x10, .f32⟩ : BufTy).Contents (Elt F))
  let t83 := ((broadcastInDim S3200000x10 ![0, 1] bcast_S1x10_S3200000x10_0_1 : (⟨S1x10, .f32⟩ : BufTy).Contents (Elt F) → (⟨S3200000x10, .f32⟩ : BufTy).Contents (Elt F)) t82 : (⟨S3200000x10, .f32⟩ : BufTy).Contents (Elt F))
  let t84 := ((mulf : (⟨S3200000x10, .f32⟩ : BufTy).Contents (Elt F) → (⟨S3200000x10, .f32⟩ : BufTy).Contents (Elt F) → (⟨S3200000x10, .f32⟩ : BufTy).Contents (Elt F)) g t83 : (⟨S3200000x10, .f32⟩ : BufTy).Contents (Elt F))
  t84

/-- The two relation entries, each times its sign. -/
noncomputable def lit2 (rel : (⟨S3200000x2, .f32⟩ : BufTy).Contents (Elt F)) :
    (⟨S3200000x2, .f32⟩ : BufTy).Contents (Elt F) :=
  let t88 := ((broadcastInDim S1x2 ![1] bcast_S2_S1x2_1 : (⟨S2, .f32⟩ : BufTy).Contents (Elt F) → (⟨S1x2, .f32⟩ : BufTy).Contents (Elt F)) (sg2 (F := F)) : (⟨S1x2, .f32⟩ : BufTy).Contents (Elt F))
  let t89 := ((broadcastInDim S3200000x2 ![0, 1] bcast_S1x2_S3200000x2_0_1 : (⟨S1x2, .f32⟩ : BufTy).Contents (Elt F) → (⟨S3200000x2, .f32⟩ : BufTy).Contents (Elt F)) t88 : (⟨S3200000x2, .f32⟩ : BufTy).Contents (Elt F))
  let t90 := ((mulf : (⟨S3200000x2, .f32⟩ : BufTy).Contents (Elt F) → (⟨S3200000x2, .f32⟩ : BufTy).Contents (Elt F) → (⟨S3200000x2, .f32⟩ : BufTy).Contents (Elt F)) rel t89 : (⟨S3200000x2, .f32⟩ : BufTy).Contents (Elt F))
  t90

/-- Each edge's maximum over its three rows of literals, as a column. -/
noncomputable def mrow (X : (⟨S3200000x10, .f32⟩ : BufTy).Contents (Elt F)) (Y : (⟨S3200000x10, .f32⟩ : BufTy).Contents (Elt F)) (R : (⟨S3200000x2, .f32⟩ : BufTy).Contents (Elt F)) :
    (⟨S3200000x1, .f32⟩ : BufTy).Contents (Elt F) :=
  let t91 := ((constant S_ .f32 0xFF800000#32) : (⟨S_, .f32⟩ : BufTy).Contents (Elt F))
  let t92 := (((fun x v => Host.reduce FloatOps.maximumf x v reducesTo_S3200000x10_S3200000_d1 h_S_) : (⟨S3200000x10, .f32⟩ : BufTy).Contents (Elt F) → (⟨S_, .f32⟩ : BufTy).Contents (Elt F) → (⟨S3200000, .f32⟩ : BufTy).Contents (Elt F)) X t91 : (⟨S3200000, .f32⟩ : BufTy).Contents (Elt F))
  let t93 := ((constant S_ .f32 0xFF800000#32) : (⟨S_, .f32⟩ : BufTy).Contents (Elt F))
  let t94 := (((fun x v => Host.reduce FloatOps.maximumf x v reducesTo_S3200000x10_S3200000_d1 h_S_) : (⟨S3200000x10, .f32⟩ : BufTy).Contents (Elt F) → (⟨S_, .f32⟩ : BufTy).Contents (Elt F) → (⟨S3200000, .f32⟩ : BufTy).Contents (Elt F)) Y t93 : (⟨S3200000, .f32⟩ : BufTy).Contents (Elt F))
  let t95 := ((maximumf : (⟨S3200000, .f32⟩ : BufTy).Contents (Elt F) → (⟨S3200000, .f32⟩ : BufTy).Contents (Elt F) → (⟨S3200000, .f32⟩ : BufTy).Contents (Elt F)) t92 t94 : (⟨S3200000, .f32⟩ : BufTy).Contents (Elt F))
  let t96 := ((constant S_ .f32 0xFF800000#32) : (⟨S_, .f32⟩ : BufTy).Contents (Elt F))
  let t97 := (((fun x v => Host.reduce FloatOps.maximumf x v reducesTo_S3200000x2_S3200000_d1 h_S_) : (⟨S3200000x2, .f32⟩ : BufTy).Contents (Elt F) → (⟨S_, .f32⟩ : BufTy).Contents (Elt F) → (⟨S3200000, .f32⟩ : BufTy).Contents (Elt F)) R t96 : (⟨S3200000, .f32⟩ : BufTy).Contents (Elt F))
  let t98 := ((maximumf : (⟨S3200000, .f32⟩ : BufTy).Contents (Elt F) → (⟨S3200000, .f32⟩ : BufTy).Contents (Elt F) → (⟨S3200000, .f32⟩ : BufTy).Contents (Elt F)) t95 t97 : (⟨S3200000, .f32⟩ : BufTy).Contents (Elt F))
  let t99 := ((broadcastInDim S3200000x1 ![0] bcast_S3200000_S3200000x1_0 : (⟨S3200000, .f32⟩ : BufTy).Contents (Elt F) → (⟨S3200000x1, .f32⟩ : BufTy).Contents (Elt F)) t98 : (⟨S3200000x1, .f32⟩ : BufTy).Contents (Elt F))
  t99

/-- The exponentials of ten literals less the edge's maximum. -/
noncomputable def ex10 (X : (⟨S3200000x10, .f32⟩ : BufTy).Contents (Elt F)) (M : (⟨S3200000x1, .f32⟩ : BufTy).Contents (Elt F)) :
    (⟨S3200000x10, .f32⟩ : BufTy).Contents (Elt F) :=
  let t100 := ((broadcastInDim S3200000x10 ![0, 1] bcast_S3200000x1_S3200000x10_0_1 : (⟨S3200000x1, .f32⟩ : BufTy).Contents (Elt F) → (⟨S3200000x10, .f32⟩ : BufTy).Contents (Elt F)) M : (⟨S3200000x10, .f32⟩ : BufTy).Contents (Elt F))
  let t101 := ((subf : (⟨S3200000x10, .f32⟩ : BufTy).Contents (Elt F) → (⟨S3200000x10, .f32⟩ : BufTy).Contents (Elt F) → (⟨S3200000x10, .f32⟩ : BufTy).Contents (Elt F)) X t100 : (⟨S3200000x10, .f32⟩ : BufTy).Contents (Elt F))
  let t102 := ((Host.exp : (⟨S3200000x10, .f32⟩ : BufTy).Contents (Elt F) → (⟨S3200000x10, .f32⟩ : BufTy).Contents (Elt F)) t101 : (⟨S3200000x10, .f32⟩ : BufTy).Contents (Elt F))
  t102

/-- The exponentials of the two relation literals less the edge's maximum. -/
noncomputable def ex2 (R : (⟨S3200000x2, .f32⟩ : BufTy).Contents (Elt F)) (M : (⟨S3200000x1, .f32⟩ : BufTy).Contents (Elt F)) :
    (⟨S3200000x2, .f32⟩ : BufTy).Contents (Elt F) :=
  let t106 := ((broadcastInDim S3200000x2 ![0, 1] bcast_S3200000x1_S3200000x2_0_1 : (⟨S3200000x1, .f32⟩ : BufTy).Contents (Elt F) → (⟨S3200000x2, .f32⟩ : BufTy).Contents (Elt F)) M : (⟨S3200000x2, .f32⟩ : BufTy).Contents (Elt F))
  let t107 := ((subf : (⟨S3200000x2, .f32⟩ : BufTy).Contents (Elt F) → (⟨S3200000x2, .f32⟩ : BufTy).Contents (Elt F) → (⟨S3200000x2, .f32⟩ : BufTy).Contents (Elt F)) R t106 : (⟨S3200000x2, .f32⟩ : BufTy).Contents (Elt F))
  let t108 := ((Host.exp : (⟨S3200000x2, .f32⟩ : BufTy).Contents (Elt F) → (⟨S3200000x2, .f32⟩ : BufTy).Contents (Elt F)) t107 : (⟨S3200000x2, .f32⟩ : BufTy).Contents (Elt F))
  t108

/-- Each edge's sum of its exponentials, taken row by row. -/
noncomputable def den (EX : (⟨S3200000x10, .f32⟩ : BufTy).Contents (Elt F)) (EY : (⟨S3200000x10, .f32⟩ : BufTy).Contents (Elt F)) (ER : (⟨S3200000x2, .f32⟩ : BufTy).Contents (Elt F)) :
    (⟨S3200000x1, .f32⟩ : BufTy).Contents (Elt F) :=
  let t109 := ((constant S_ .f32 0x00000000#32) : (⟨S_, .f32⟩ : BufTy).Contents (Elt F))
  let t110 := (((fun x v => Host.reduceAdd x v reducesTo_S3200000x10_S3200000_d1 h_S_) : (⟨S3200000x10, .f32⟩ : BufTy).Contents (Elt F) → (⟨S_, .f32⟩ : BufTy).Contents (Elt F) → (⟨S3200000, .f32⟩ : BufTy).Contents (Elt F)) EX t109 : (⟨S3200000, .f32⟩ : BufTy).Contents (Elt F))
  let t111 := ((broadcastInDim S3200000x1 ![0] bcast_S3200000_S3200000x1_0 : (⟨S3200000, .f32⟩ : BufTy).Contents (Elt F) → (⟨S3200000x1, .f32⟩ : BufTy).Contents (Elt F)) t110 : (⟨S3200000x1, .f32⟩ : BufTy).Contents (Elt F))
  let t112 := ((constant S_ .f32 0x00000000#32) : (⟨S_, .f32⟩ : BufTy).Contents (Elt F))
  let t113 := (((fun x v => Host.reduceAdd x v reducesTo_S3200000x10_S3200000_d1 h_S_) : (⟨S3200000x10, .f32⟩ : BufTy).Contents (Elt F) → (⟨S_, .f32⟩ : BufTy).Contents (Elt F) → (⟨S3200000, .f32⟩ : BufTy).Contents (Elt F)) EY t112 : (⟨S3200000, .f32⟩ : BufTy).Contents (Elt F))
  let t114 := ((broadcastInDim S3200000x1 ![0] bcast_S3200000_S3200000x1_0 : (⟨S3200000, .f32⟩ : BufTy).Contents (Elt F) → (⟨S3200000x1, .f32⟩ : BufTy).Contents (Elt F)) t113 : (⟨S3200000x1, .f32⟩ : BufTy).Contents (Elt F))
  let t115 := ((addf : (⟨S3200000x1, .f32⟩ : BufTy).Contents (Elt F) → (⟨S3200000x1, .f32⟩ : BufTy).Contents (Elt F) → (⟨S3200000x1, .f32⟩ : BufTy).Contents (Elt F)) t111 t114 : (⟨S3200000x1, .f32⟩ : BufTy).Contents (Elt F))
  let t116 := ((constant S_ .f32 0x00000000#32) : (⟨S_, .f32⟩ : BufTy).Contents (Elt F))
  let t117 := (((fun x v => Host.reduceAdd x v reducesTo_S3200000x2_S3200000_d1 h_S_) : (⟨S3200000x2, .f32⟩ : BufTy).Contents (Elt F) → (⟨S_, .f32⟩ : BufTy).Contents (Elt F) → (⟨S3200000, .f32⟩ : BufTy).Contents (Elt F)) ER t116 : (⟨S3200000, .f32⟩ : BufTy).Contents (Elt F))
  let t118 := ((broadcastInDim S3200000x1 ![0] bcast_S3200000_S3200000x1_0 : (⟨S3200000, .f32⟩ : BufTy).Contents (Elt F) → (⟨S3200000x1, .f32⟩ : BufTy).Contents (Elt F)) t117 : (⟨S3200000x1, .f32⟩ : BufTy).Contents (Elt F))
  let t119 := ((addf : (⟨S3200000x1, .f32⟩ : BufTy).Contents (Elt F) → (⟨S3200000x1, .f32⟩ : BufTy).Contents (Elt F) → (⟨S3200000x1, .f32⟩ : BufTy).Contents (Elt F)) t115 t118 : (⟨S3200000x1, .f32⟩ : BufTy).Contents (Elt F))
  t119

/-- The softplus of the clause weight. -/
noncomputable def spl (w : (⟨S_, .f32⟩ : BufTy).Contents (Elt F)) :
    (⟨S_, .f32⟩ : BufTy).Contents (Elt F) :=
  let t120 := ((constant S_ .f32 0x00000000#32) : (⟨S_, .f32⟩ : BufTy).Contents (Elt F))
  let t121 := (maximumf w t120 : (⟨S_, .f32⟩ : BufTy).Contents (Elt F))
  let t122 := (subf w t120 : (⟨S_, .f32⟩ : BufTy).Contents (Elt F))
  let t123 := ((cmpf .une) t122 t122 : (⟨S_, .i1⟩ : BufTy).Contents (Elt F))
  let t124 := (addf w t120 : (⟨S_, .f32⟩ : BufTy).Contents (Elt F))
  let t125 := (Host.absf t122 : (⟨S_, .f32⟩ : BufTy).Contents (Elt F))
  let t126 := (Host.negf t125 : (⟨S_, .f32⟩ : BufTy).Contents (Elt F))
  let t127 := (Host.exp t126 : (⟨S_, .f32⟩ : BufTy).Contents (Elt F))
  let t128 := (Host.log1p t127 : (⟨S_, .f32⟩ : BufTy).Contents (Elt F))
  let t129 := (addf t121 t128 : (⟨S_, .f32⟩ : BufTy).Contents (Elt F))
  let t130 := (select t123 t124 t129 : (⟨S_, .f32⟩ : BufTy).Contents (Elt F))
  t130

/-- The softplus value over each edge's sum. -/
noncomputable def quo (sp : (⟨S_, .f32⟩ : BufTy).Contents (Elt F)) (d : (⟨S3200000x1, .f32⟩ : BufTy).Contents (Elt F)) :
    (⟨S3200000x1, .f32⟩ : BufTy).Contents (Elt F) :=
  let t131 := ((broadcastInDim S3200000x1 ![] bcast_S_S3200000x1 : (⟨S_, .f32⟩ : BufTy).Contents (Elt F) → (⟨S3200000x1, .f32⟩ : BufTy).Contents (Elt F)) sp : (⟨S3200000x1, .f32⟩ : BufTy).Contents (Elt F))
  let t132 := ((Host.divf : (⟨S3200000x1, .f32⟩ : BufTy).Contents (Elt F) → (⟨S3200000x1, .f32⟩ : BufTy).Contents (Elt F) → (⟨S3200000x1, .f32⟩ : BufTy).Contents (Elt F)) t131 d : (⟨S3200000x1, .f32⟩ : BufTy).Contents (Elt F))
  t132

/-- Ten boosts: exponential times the quotient times the sign. -/
noncomputable def dlt (EX : (⟨S3200000x10, .f32⟩ : BufTy).Contents (Elt F)) (Q : (⟨S3200000x1, .f32⟩ : BufTy).Contents (Elt F)) :
    (⟨S3200000x10, .f32⟩ : BufTy).Contents (Elt F) :=
  let t133 := ((broadcastInDim S3200000x10 ![0, 1] bcast_S3200000x1_S3200000x10_0_1 : (⟨S3200000x1, .f32⟩ : BufTy).Contents (Elt F) → (⟨S3200000x10, .f32⟩ : BufTy).Contents (Elt F)) Q : (⟨S3200000x10, .f32⟩ : BufTy).Contents (Elt F))
  let t134 := ((mulf : (⟨S3200000x10, .f32⟩ : BufTy).Contents (Elt F) → (⟨S3200000x10, .f32⟩ : BufTy).Contents (Elt F) → (⟨S3200000x10, .f32⟩ : BufTy).Contents (Elt F)) EX t133 : (⟨S3200000x10, .f32⟩ : BufTy).Contents (Elt F))
  let t135 := ((broadcastInDim S1x10 ![1] bcast_S10_S1x10_1 : (⟨S10, .f32⟩ : BufTy).Contents (Elt F) → (⟨S1x10, .f32⟩ : BufTy).Contents (Elt F)) (sg10 (F := F)) : (⟨S1x10, .f32⟩ : BufTy).Contents (Elt F))
  let t136 := ((broadcastInDim S3200000x10 ![0, 1] bcast_S1x10_S3200000x10_0_1 : (⟨S1x10, .f32⟩ : BufTy).Contents (Elt F) → (⟨S3200000x10, .f32⟩ : BufTy).Contents (Elt F)) t135 : (⟨S3200000x10, .f32⟩ : BufTy).Contents (Elt F))
  let t137 := ((mulf : (⟨S3200000x10, .f32⟩ : BufTy).Contents (Elt F) → (⟨S3200000x10, .f32⟩ : BufTy).Contents (Elt F) → (⟨S3200000x10, .f32⟩ : BufTy).Contents (Elt F)) t134 t136 : (⟨S3200000x10, .f32⟩ : BufTy).Contents (Elt F))
  t137

/-- The concatenated row numbers with `100000` added to the negative ones, as a column. -/
noncomputable def nz2 (ix : (⟨S6400000, .i32⟩ : BufTy).Contents (Elt F)) :
    (⟨S6400000x1, .i32⟩ : BufTy).Contents (Elt F) :=
  let t144 := ((constantI S_ 32 0#32) : (⟨S_, .i32⟩ : BufTy).Contents (Elt F))
  let t145 := ((broadcastInDim S6400000 ![] bcast_S_S6400000 : (⟨S_, .i32⟩ : BufTy).Contents (Elt F) → (⟨S6400000, .i32⟩ : BufTy).Contents (Elt F)) t144 : (⟨S6400000, .i32⟩ : BufTy).Contents (Elt F))
  let t146 := ((cmpi .slt : (⟨S6400000, .i32⟩ : BufTy).Contents (Elt F) → (⟨S6400000, .i32⟩ : BufTy).Contents (Elt F) → (⟨S6400000, .i1⟩ : BufTy).Contents (Elt F)) ix t145 : (⟨S6400000, .i1⟩ : BufTy).Contents (Elt F))
  let t147 := ((constantI S_ 32 100000#32) : (⟨S_, .i32⟩ : BufTy).Contents (Elt F))
  let t148 := ((broadcastInDim S6400000 ![] bcast_S_S6400000 : (⟨S_, .i32⟩ : BufTy).Contents (Elt F) → (⟨S6400000, .i32⟩ : BufTy).Contents (Elt F)) t147 : (⟨S6400000, .i32⟩ : BufTy).Contents (Elt F))
  let t149 := ((addi : (⟨S6400000, .i32⟩ : BufTy).Contents (Elt F) → (⟨S6400000, .i32⟩ : BufTy).Contents (Elt F) → (⟨S6400000, .i32⟩ : BufTy).Contents (Elt F)) ix t148 : (⟨S6400000, .i32⟩ : BufTy).Contents (Elt F))
  let t150 := ((select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)) t146 t149 ix : (⟨S6400000, .i32⟩ : BufTy).Contents (Elt F))
  let t151 := ((broadcastInDim S6400000x1 ![0] bcast_S6400000_S6400000x1_0 : (⟨S6400000, .i32⟩ : BufTy).Contents (Elt F) → (⟨S6400000x1, .i32⟩ : BufTy).Contents (Elt F)) t150 : (⟨S6400000x1, .i32⟩ : BufTy).Contents (Elt F))
  t151

/-- The two boost blocks one under the other, scatter-added into the node table. -/
noncomputable def fin (z : (⟨S100000x10, .f32⟩ : BufTy).Contents (Elt F)) (i2 : (⟨S6400000x1, .i32⟩ : BufTy).Contents (Elt F)) (DX : (⟨S3200000x10, .f32⟩ : BufTy).Contents (Elt F)) (DY : (⟨S3200000x10, .f32⟩ : BufTy).Contents (Elt F)) :
    (⟨S100000x10, .f32⟩ : BufTy).Contents (Elt F) :=
  let t143 := (((fun a b => concatenate S6400000x10 0 [⟨S3200000x10, a⟩, ⟨S3200000x10, b⟩] concatenates_S3200000x10_S3200000x10_S6400000x10_d0) : (⟨S3200000x10, .f32⟩ : BufTy).Contents (Elt F) → (⟨S3200000x10, .f32⟩ : BufTy).Contents (Elt F) → (⟨S6400000x10, .f32⟩ : BufTy).Contents (Elt F)) DX DY : (⟨S6400000x10, .f32⟩ : BufTy).Contents (Elt F))
  let t152 := (((fun x i u => Host.scatterAdd scatter_S100000x10_S6400000x1_S6400000x10_1_0_0_1 x i u) : (⟨S100000x10, .f32⟩ : BufTy).Contents (Elt F) → (⟨S6400000x1, .i32⟩ : BufTy).Contents (Elt F) → (⟨S6400000x10, .f32⟩ : BufTy).Contents (Elt F) → (⟨S100000x10, .f32⟩ : BufTy).Contents (Elt F)) z i2 t143 : (⟨S100000x10, .f32⟩ : BufTy).Contents (Elt F))
  t152

/-- The signed literals of the rows gathered at one endpoint. -/
noncomputable def litAt (z : (⟨S100000x10, .f32⟩ : BufTy).Contents (Elt F)) (s : (⟨S3200000, .i32⟩ : BufTy).Contents (Elt F)) :
    (⟨S3200000x10, .f32⟩ : BufTy).Contents (Elt F) :=
  lit10 (gat z (nz s))

/-- Each edge's maximum. -/
noncomputable def mOf (z : (⟨S100000x10, .f32⟩ : BufTy).Contents (Elt F)) (rel : (⟨S3200000x2, .f32⟩ : BufTy).Contents (Elt F)) (sx : (⟨S3200000, .i32⟩ : BufTy).Contents (Elt F)) (sy : (⟨S3200000, .i32⟩ : BufTy).Contents (Elt F)) :
    (⟨S3200000x1, .f32⟩ : BufTy).Contents (Elt F) :=
  mrow (litAt z sx) (litAt z sy) (lit2 rel)

/-- Each edge's quotient softplus / sum. -/
noncomputable def qOf (z : (⟨S100000x10, .f32⟩ : BufTy).Contents (Elt F)) (rel : (⟨S3200000x2, .f32⟩ : BufTy).Contents (Elt F)) (w : (⟨S_, .f32⟩ : BufTy).Contents (Elt F)) (sx : (⟨S3200000, .i32⟩ : BufTy).Contents (Elt F)) (sy : (⟨S3200000, .i32⟩ : BufTy).Contents (Elt F)) :
    (⟨S3200000x1, .f32⟩ : BufTy).Contents (Elt F) :=
  quo (spl w) (den (ex10 (litAt z sx) (mOf z rel sx sy)) (ex10 (litAt z sy) (mOf z rel sx sy)) (ex2 (lit2 rel) (mOf z rel sx sy)))

/-- The boosts at one endpoint `s`. -/
noncomputable def dAt (z : (⟨S100000x10, .f32⟩ : BufTy).Contents (Elt F)) (rel : (⟨S3200000x2, .f32⟩ : BufTy).Contents (Elt F)) (w : (⟨S_, .f32⟩ : BufTy).Contents (Elt F)) (sx : (⟨S3200000, .i32⟩ : BufTy).Contents (Elt F)) (sy : (⟨S3200000, .i32⟩ : BufTy).Contents (Elt F)) (s : (⟨S3200000, .i32⟩ : BufTy).Contents (Elt F)) :
    (⟨S3200000x10, .f32⟩ : BufTy).Contents (Elt F) :=
  dlt (ex10 (litAt z s) (mOf z rel sx sy)) (qOf z rel w sx sy)

/-- The layer is the composition of its steps. -/
theorem layer_eq (z : (⟨S100000x10, .f32⟩ : BufTy).Contents (Elt F)) (rel : (⟨S3200000x2, .f32⟩ : BufTy).Contents (Elt F)) (w : (⟨S_, .f32⟩ : BufTy).Contents (Elt F)) (sx : (⟨S3200000, .i32⟩ : BufTy).Contents (Elt F)) (sy : (⟨S3200000, .i32⟩ : BufTy).Contents (Elt F)) (ix : (⟨S6400000, .i32⟩ : BufTy).Contents (Elt F)) :
    Cert.KernelIdeal.Stage.layer z rel w sx sy ix
      = fin z (nz2 ix) (dAt z rel w sx sy sx) (dAt z rel w sx sy sy) := rfl

end LayerLaw.Ker

end
-- ==== Proof.LayerLawReads.lean ====
/-
  The host operations of one relational layer read at an index, for any number of rows `E`: the maximum and the sum of an
  `[E, C]` array along its columns at a row; the parity word of the sign vectors (the printed chain iota, remainder by 2
  with the sign adjustment, compare with 0) and its period 2; a row of `C` entries broadcast down `E` rows and a
  column of `E` entries broadcast across `C` columns; the concatenation of `[E,10]`, `[E,10]`, `[E,2]` along the
  columns; and the concatenation of two arrays of `E` rows along the rows.
-/
import Idealize.ShloMosaic.Lib.ValueIdx
import Idealize.ShloMosaic.Lib.ValueLayout
import Idealize.ShloMosaic.Lib.Pipeline.Value
import Idealize.ShloMosaic.PureOps.Ideal.Laws
import proofs.«140184_j29661044146691_2_alg».proof.Proof.LibBroadcastReads

open scoped BigOperators

noncomputable section

namespace LayerLaw

open Idealize.ShloMosaic Idealize.ShloMosaic.ValueIdx

/-! ## The maximum and the sum along the columns, at a row -/

section Reduce
variable {E C : Nat}

/-- Into a rank-one shape the host's reduction fact is the vector unit's. -/
theorem reduces_of_reducesTo (h' : (⟨2, ![E, C]⟩ : Shape).ReducesTo [1] ⟨1, ![E]⟩) :
    (⟨2, ![E, C]⟩ : Shape).Reduces [1] ⟨1, ![E]⟩ := ⟨h'.1, Nat.one_pos, h'.2⟩

/-- Row `e` with the column `k` inserted is `(e, k)`. -/
theorem lift_row (h : (⟨2, ![E, C]⟩ : Shape).Reduces [1] ⟨1, ![E]⟩) (e : Fin E) (k : Fin C) :
    h.lift (ix1 e) k = ix2 e k := by
  funext c
  match c with
  | ⟨0, _⟩ => exact Fin.ext rfl
  | ⟨1, _⟩ => exact Fin.ext rfl

/-- The host's `max` reduction along the columns, at row `e`: the fold of `max` from the initial value over the row. -/
theorem reduce_max_row (h' : (⟨2, ![E, C]⟩ : Shape).ReducesTo [1] ⟨1, ![E]⟩) (hu : 0 < (⟨0, ![]⟩ : Shape).numel)
    (x : FVec Ideal ⟨2, ![E, C]⟩ .f32) (init : (⟨0, ![]⟩ : Shape).Idx → Ideal .f32) (e : Fin E) :
    Host.reduce (FloatOps.maximumf (F := Ideal) (φ := .f32)) x init h' hu (ix1 e)
      = (Finset.univ : Finset (Fin C)).fold max (init (Shape.Idx.first hu)) (fun k => x (ix2 e k)) := by
  rw [Host.reduce_eq_fold_single _ x init h' (reduces_of_reducesTo h') hu (ix1 e)]
  show (Finset.univ : Finset (Fin C)).fold max (init (Shape.Idx.first hu))
      (fun k => x ((reduces_of_reducesTo h').lift (ix1 e) k)) = _
  congr 1
  funext k
  exact congrArg x (lift_row (reduces_of_reducesTo h') e k)

/-- The host's sum along the columns, at row `e`: the initial value plus the sum over the row. -/
theorem reduceAdd_row (h' : (⟨2, ![E, C]⟩ : Shape).ReducesTo [1] ⟨1, ![E]⟩) (hu : 0 < (⟨0, ![]⟩ : Shape).numel)
    (x : FVec Ideal ⟨2, ![E, C]⟩ .f32) (init : (⟨0, ![]⟩ : Shape).Idx → Ideal .f32) (e : Fin E) :
    Host.reduceAdd (F := Ideal) x init h' hu (ix1 e) = init (Shape.Idx.first hu) + ∑ k : Fin C, x (ix2 e k) := by
  show Ideal.hostReduceAdd h' x (init (Shape.Idx.first hu)) (ix1 e) = _
  rw [Ideal.hostReduceAdd_single h' (reduces_of_reducesTo h')]
  show _ + ∑ k : Fin C, x ((reduces_of_reducesTo h').lift (ix1 e) k) = _
  congr 1
  exact Finset.sum_congr rfl fun k _ => congrArg x (lift_row (reduces_of_reducesTo h') e k)

end Reduce

/-! ## The parity word of the sign vectors -/

/-- Entry `k` of the printed chain: `iota`, the remainder by `2` (a divisor that is not zero, so the divisor itself)
    with jax's sign adjustment, compared with `0`. -/
def signW (k : Nat) : BitVec 1 :=
  let y : BitVec 32 := Scalar.select (IntOp.cmpi .eq (2#32) (0#32)) (1#32) (2#32)
  let r : BitVec 32 := IntOp.remsi .host (BitVec.ofNat 32 k) y
  IntOp.cmpi .eq
    (Scalar.select (IntOp.andi (IntOp.cmpi .ne (IntOp.cmpi .slt r (0#32)) (IntOp.cmpi .slt y (0#32))) (IntOp.cmpi .ne r (0#32)))
      (IntOp.addi r y) r) (0#32)

/-- The sign it selects, as a real: `1` where the parity word is set, `-1` elsewhere. -/
def signR (k : Nat) : ℝ := if signW k = 1#1 then 1 else -1

theorem signW_add_ten : ∀ j : Fin 10, signW (10 + j.val) = signW j.val := by decide
theorem signW_add_twenty : ∀ t : Fin 2, signW (10 + 10 + t.val) = signW t.val := by decide

theorem signR_add_ten (j : Fin 10) : signR (10 + j.val) = signR j.val := by
  unfold signR; rw [signW_add_ten j]
theorem signR_add_twenty (t : Fin 2) : signR (10 + 10 + t.val) = signR t.val := by
  unfold signR; rw [signW_add_twenty t]

/-- The selected float, `1.0` or `-1.0`, is the real sign. -/
theorem select_sign (k : Nat) :
    Scalar.select (signW k) (Ideal.ofBits .f32 0x3F800000#32) (Ideal.ofBits .f32 0xBF800000#32)
      = ((signR k : ℝ) : EReal) := by
  have h1 : Ideal.ofBits .f32 0x3F800000#32 = 1 := IdealRules.sign_bit.ideal_onePat .f32
  have h2 : Ideal.ofBits .f32 0xBF800000#32 = -1 := IdealRules.sign_bit.ideal_negOnePat .f32
  unfold signR
  by_cases hk : signW k = 1#1
  · rw [hk, select_one, h1, if_pos rfl]; simp
  · rw [eq_zero_of_ne_one hk, select_zero, h2, if_neg (by decide)]; simp

/-! ## Broadcasts -/

section Bcast
variable {α : Type} {E C : Nat}

/-- A list of `C` entries laid as a row and repeated down `E` rows reads, at `(e, c)`, its entry `c`. -/
theorem rowDown_row_apply (d1 : Fin 1 → Fin 2) (hd1 : d1 0 = 1)
    (h1 : (⟨1, ![C]⟩ : Shape).BroadcastsInDim ⟨2, ![1, C]⟩ d1)
    (d2 : Fin 2 → Fin 2) (hd20 : d2 0 = 0) (hd21 : d2 1 = 1)
    (h2 : (⟨2, ![1, C]⟩ : Shape).BroadcastsInDim ⟨2, ![E, C]⟩ d2)
    (s : (⟨1, ![C]⟩ : Shape).Idx → α) (e : Fin E) (c : Fin C) :
    broadcastInDim ⟨2, ![E, C]⟩ d2 h2 (broadcastInDim ⟨2, ![1, C]⟩ d1 h1 s) (ix2 e c) = s (ix1 c) := by
  rw [BroadcastReads.rowDown_apply d2 hd20 hd21, BroadcastReads.row_apply d1 hd1]

/-- A list of `E` entries laid as a column and repeated across `C` columns reads, at `(e, c)`, its entry `e`. -/
theorem colAcross_col_apply (d1 : Fin 1 → Fin 2) (hd1 : d1 0 = 0)
    (h1 : (⟨1, ![E]⟩ : Shape).BroadcastsInDim ⟨2, ![E, 1]⟩ d1)
    (d2 : Fin 2 → Fin 2) (hd20 : d2 0 = 0) (hd21 : d2 1 = 1)
    (h2 : (⟨2, ![E, 1]⟩ : Shape).BroadcastsInDim ⟨2, ![E, C]⟩ d2)
    (v : (⟨1, ![E]⟩ : Shape).Idx → α) (e : Fin E) (c : Fin C) :
    broadcastInDim ⟨2, ![E, C]⟩ d2 h2 (broadcastInDim ⟨2, ![E, 1]⟩ d1 h1 v) (ix2 e c) = v (ix1 e) := by
  rw [BroadcastReads.colAcross_apply d2 hd20 hd21, BroadcastReads.col_apply d1 hd1]

end Bcast

/-! ## The three-piece concatenation along the columns -/

section Concat3
variable {α : Type} {E : Nat}
  (h : Shape.Concatenates [(⟨2, ![E, 10]⟩ : Shape), ⟨2, ![E, 10]⟩, ⟨2, ![E, 2]⟩] ⟨2, ![E, 22]⟩ 1)
  (gx gy : (⟨2, ![E, 10]⟩ : Shape).Idx → α) (r : (⟨2, ![E, 2]⟩ : Shape).Idx → α) (e : Fin E)

theorem concat3_apply_x (j : Fin 10) :
    concatenate ⟨2, ![E, 22]⟩ 1 [⟨⟨2, ![E, 10]⟩, gx⟩, ⟨⟨2, ![E, 10]⟩, gy⟩, ⟨⟨2, ![E, 2]⟩, r⟩] h
      (ix2 e (⟨j.val, by omega⟩ : Fin 22)) = gx (ix2 e j) :=
  concatenate_apply_piece (t := ⟨2, ![E, 22]⟩) 1 [⟨⟨2, ![E, 10]⟩, gx⟩, ⟨⟨2, ![E, 10]⟩, gy⟩, ⟨⟨2, ![E, 2]⟩, r⟩] h _ 0 (by simp) _ gx rfl rfl 0 rfl (ix2 e j)
    (fun b hb => by
      match b with
      | ⟨0, _⟩ => rfl
      | ⟨1, _⟩ => exact absurd rfl hb)
    (Nat.zero_add _)

theorem concat3_apply_y (j : Fin 10) :
    concatenate ⟨2, ![E, 22]⟩ 1 [⟨⟨2, ![E, 10]⟩, gx⟩, ⟨⟨2, ![E, 10]⟩, gy⟩, ⟨⟨2, ![E, 2]⟩, r⟩] h
      (ix2 e (⟨10 + j.val, by omega⟩ : Fin 22)) = gy (ix2 e j) :=
  concatenate_apply_piece (t := ⟨2, ![E, 22]⟩) 1 [⟨⟨2, ![E, 10]⟩, gx⟩, ⟨⟨2, ![E, 10]⟩, gy⟩, ⟨⟨2, ![E, 2]⟩, r⟩] h _ 1 (by simp) _ gy rfl rfl 10 rfl (ix2 e j)
    (fun b hb => by
      match b with
      | ⟨0, _⟩ => rfl
      | ⟨1, _⟩ => exact absurd rfl hb)
    rfl

theorem concat3_apply_r (t : Fin 2) :
    concatenate ⟨2, ![E, 22]⟩ 1 [⟨⟨2, ![E, 10]⟩, gx⟩, ⟨⟨2, ![E, 10]⟩, gy⟩, ⟨⟨2, ![E, 2]⟩, r⟩] h
      (ix2 e (⟨10 + 10 + t.val, by omega⟩ : Fin 22)) = r (ix2 e t) :=
  concatenate_apply_piece (t := ⟨2, ![E, 22]⟩) 1 [⟨⟨2, ![E, 10]⟩, gx⟩, ⟨⟨2, ![E, 10]⟩, gy⟩, ⟨⟨2, ![E, 2]⟩, r⟩] h _ 2 (by simp) _ r rfl rfl 20 rfl (ix2 e t)
    (fun b hb => by
      match b with
      | ⟨0, _⟩ => rfl
      | ⟨1, _⟩ => exact absurd rfl hb)
    rfl

end Concat3

/-! ## The two-piece concatenation along the rows -/

section Concat2
variable {α : Type} {E E2 : Nat} (hE : E2 = E + E)

/-- Two lists of `E` entries one after the other: the first `E` entries are the first list's. -/
theorem concat2_vec_left (h : Shape.Concatenates [(⟨1, ![E]⟩ : Shape), ⟨1, ![E]⟩] ⟨1, ![E2]⟩ 0)
    (x y : (⟨1, ![E]⟩ : Shape).Idx → α) (e : Fin E) :
    concatenate ⟨1, ![E2]⟩ 0 [⟨⟨1, ![E]⟩, x⟩, ⟨⟨1, ![E]⟩, y⟩] h (ix1 (⟨e.val, by omega⟩ : Fin E2)) = x (ix1 e) :=
  concatenate_pair_apply_left 0 x y h _ rfl (ix1 e) (fun b => by
    match b with
    | ⟨0, _⟩ => rfl)

/-- … and the last `E` entries are the second list's. -/
theorem concat2_vec_right (h : Shape.Concatenates [(⟨1, ![E]⟩ : Shape), ⟨1, ![E]⟩] ⟨1, ![E2]⟩ 0)
    (x y : (⟨1, ![E]⟩ : Shape).Idx → α) (e : Fin E) :
    concatenate ⟨1, ![E2]⟩ 0 [⟨⟨1, ![E]⟩, x⟩, ⟨⟨1, ![E]⟩, y⟩] h (ix1 (⟨E + e.val, by omega⟩ : Fin E2)) = y (ix1 e) :=
  concatenate_pair_apply_right 0 x y h _ rfl rfl (ix1 e) (fun b hb => by
    match b with
    | ⟨0, _⟩ => exact absurd rfl hb) (Nat.add_comm _ _)

/-- Two arrays of `E` rows one under the other: the first `E` rows are the first array's. -/
theorem concat2_rows_left {D : Nat} (h : Shape.Concatenates [(⟨2, ![E, D]⟩ : Shape), ⟨2, ![E, D]⟩] ⟨2, ![E2, D]⟩ 0)
    (x y : (⟨2, ![E, D]⟩ : Shape).Idx → α) (e : Fin E) (c : Fin D) :
    concatenate ⟨2, ![E2, D]⟩ 0 [⟨⟨2, ![E, D]⟩, x⟩, ⟨⟨2, ![E, D]⟩, y⟩] h (ix2 (⟨e.val, by omega⟩ : Fin E2) c)
      = x (ix2 e c) :=
  concatenate_pair_apply_left 0 x y h _ rfl (ix2 e c) (fun b => by
    match b with
    | ⟨0, _⟩ => rfl
    | ⟨1, _⟩ => rfl)

/-- … and the last `E` rows are the second array's. -/
theorem concat2_rows_right {D : Nat} (h : Shape.Concatenates [(⟨2, ![E, D]⟩ : Shape), ⟨2, ![E, D]⟩] ⟨2, ![E2, D]⟩ 0)
    (x y : (⟨2, ![E, D]⟩ : Shape).Idx → α) (e : Fin E) (c : Fin D) :
    concatenate ⟨2, ![E2, D]⟩ 0 [⟨⟨2, ![E, D]⟩, x⟩, ⟨⟨2, ![E, D]⟩, y⟩] h (ix2 (⟨E + e.val, by omega⟩ : Fin E2) c)
      = y (ix2 e c) :=
  concatenate_pair_apply_right 0 x y h _ rfl rfl (ix2 e c) (fun b hb => by
    match b with
    | ⟨0, _⟩ => exact absurd rfl hb
    | ⟨1, _⟩ => rfl) (Nat.add_comm _ _)

end Concat2

/-! ## Row numbers, the pattern of `-∞`, and the three stretches of 22 -/

/-- A row number with `100000` added when it is negative (as the programs compute it, on words). -/
def nzw (v : BitVec 32) : BitVec 32 := Scalar.select (IntOp.cmpi .slt v (0#32)) (IntOp.addi v (100000#32)) v

/-- The row a gather reads for that row number: read signed, clamped into the table. -/
def rowN (v : BitVec 32) : Fin 100000 := ⟨min (nzw v).toInt.toNat (100000 - 1), by omega⟩

theorem ofBits_neg_inf : Ideal.ofBits .f32 0xFF800000#32 = ⊥ := by simp [Ideal.ofBits, Ideal.ieee]

/-- A position below 22 lies in one of the stretches `0..9`, `10..19`, `20..21`. -/
theorem fin22_cases (k : Fin 22) :
    (∃ j : Fin 10, k = ⟨j.val, by omega⟩) ∨ (∃ j : Fin 10, k = ⟨10 + j.val, by omega⟩)
      ∨ (∃ t : Fin 2, k = ⟨10 + 10 + t.val, by omega⟩) := by
  by_cases h1 : k.val < 10
  · exact Or.inl ⟨⟨k.val, h1⟩, rfl⟩
  · by_cases h2 : k.val < 20
    · exact Or.inr (Or.inl ⟨⟨k.val - 10, by omega⟩, Fin.ext (by show k.val = 10 + (k.val - 10); omega)⟩)
    · exact Or.inr (Or.inr ⟨⟨k.val - 20, by omega⟩, Fin.ext (by show k.val = 10 + 10 + (k.val - 20); omega)⟩)

/-! ## The row maximum and the row sum of a layer, as the two programs compute them, for any number of rows -/

section RowOps
variable {E : Nat}
  (h10 : (⟨2, ![E, 10]⟩ : Shape).ReducesTo [1] ⟨1, ![E]⟩) (h2 : (⟨2, ![E, 2]⟩ : Shape).ReducesTo [1] ⟨1, ![E]⟩)
  (h22 : (⟨2, ![E, 22]⟩ : Shape).ReducesTo [1] ⟨1, ![E]⟩) (hu : 0 < (⟨0, ![]⟩ : Shape).numel)
  (hb : (⟨1, ![E]⟩ : Shape).BroadcastsInDim ⟨2, ![E, 1]⟩ ![0])
  (hs : (⟨0, ![]⟩ : Shape).BroadcastsInDim ⟨1, ![E]⟩ ![])

/-- The maximum of three rows' maxima, each from `-∞`, laid as a column. -/
theorem rowMax3_apply (X Y : FVec Ideal ⟨2, ![E, 10]⟩ .f32) (R : FVec Ideal ⟨2, ![E, 2]⟩ .f32) (e : Fin E) :
    broadcastInDim ⟨2, ![E, 1]⟩ ![0] hb
        (maximumf
          (maximumf (Host.reduce FloatOps.maximumf X (constant (⟨0, ![]⟩ : Shape) .f32 0xFF800000#32) h10 hu)
            (Host.reduce FloatOps.maximumf Y (constant (⟨0, ![]⟩ : Shape) .f32 0xFF800000#32) h10 hu))
          (Host.reduce FloatOps.maximumf R (constant (⟨0, ![]⟩ : Shape) .f32 0xFF800000#32) h2 hu)) (ix2 e (0 : Fin 1))
      = max (max ((Finset.univ : Finset (Fin 10)).fold max (⊥ : EReal) (fun k => X (ix2 e k)))
                 ((Finset.univ : Finset (Fin 10)).fold max (⊥ : EReal) (fun k => Y (ix2 e k))))
            ((Finset.univ : Finset (Fin 2)).fold max (⊥ : EReal) (fun k => R (ix2 e k))) := by
  refine (BroadcastReads.col_apply (![0] : Fin 1 → Fin 2) rfl hb _ e 0).trans ?_
  rw [← ofBits_neg_inf]
  exact congrArg₂ max (congrArg₂ max (reduce_max_row h10 hu X _ e) (reduce_max_row h10 hu Y _ e))
    (reduce_max_row h2 hu R _ e)

/-- The maximum of one row of 22 from `-∞`, joined with `-∞`, laid as a column. -/
theorem rowMax1_apply (L : FVec Ideal ⟨2, ![E, 22]⟩ .f32) (e : Fin E) :
    broadcastInDim ⟨2, ![E, 1]⟩ ![0] hb
        (maximumf (broadcastInDim ⟨1, ![E]⟩ ![] hs (constant (⟨0, ![]⟩ : Shape) .f32 0xFF800000#32))
          (Host.reduce FloatOps.maximumf L (constant (⟨0, ![]⟩ : Shape) .f32 0xFF800000#32) h22 hu)) (ix2 e (0 : Fin 1))
      = max (⊥ : EReal) ((Finset.univ : Finset (Fin 22)).fold max (⊥ : EReal) (fun k => L (ix2 e k))) := by
  refine (BroadcastReads.col_apply (![0] : Fin 1 → Fin 2) rfl hb _ e 0).trans ?_
  rw [← ofBits_neg_inf]
  exact congrArg (max (Ideal.ofBits .f32 0xFF800000#32)) (reduce_max_row h22 hu L _ e)

/-- The sum of three rows' sums, each from `0` and laid as a column, added in turn. -/
theorem rowSum3_apply (EX EY : FVec Ideal ⟨2, ![E, 10]⟩ .f32) (ER : FVec Ideal ⟨2, ![E, 2]⟩ .f32) (e : Fin E) :
    addf
        (addf
          (broadcastInDim ⟨2, ![E, 1]⟩ ![0] hb (Host.reduceAdd EX (constant (⟨0, ![]⟩ : Shape) .f32 0x00000000#32) h10 hu))
          (broadcastInDim ⟨2, ![E, 1]⟩ ![0] hb (Host.reduceAdd EY (constant (⟨0, ![]⟩ : Shape) .f32 0x00000000#32) h10 hu)))
        (broadcastInDim ⟨2, ![E, 1]⟩ ![0] hb (Host.reduceAdd ER (constant (⟨0, ![]⟩ : Shape) .f32 0x00000000#32) h2 hu))
        (ix2 e (0 : Fin 1))
      = ((0 + ∑ k : Fin 10, EX (ix2 e k)) + (0 + ∑ k : Fin 10, EY (ix2 e k))) + (0 + ∑ k : Fin 2, ER (ix2 e k)) := by
  rw [← Ideal.ofBits_zero_f32]
  exact congrArg₂ (· + ·) (congrArg₂ (· + ·)
      ((BroadcastReads.col_apply (![0] : Fin 1 → Fin 2) rfl hb _ e 0).trans (reduceAdd_row h10 hu EX _ e))
      ((BroadcastReads.col_apply (![0] : Fin 1 → Fin 2) rfl hb _ e 0).trans (reduceAdd_row h10 hu EY _ e)))
    ((BroadcastReads.col_apply (![0] : Fin 1 → Fin 2) rfl hb _ e 0).trans (reduceAdd_row h2 hu ER _ e))

/-- The sum of one row of 22 from `0`, laid as a column. -/
theorem rowSum1_apply (EXP : FVec Ideal ⟨2, ![E, 22]⟩ .f32) (e : Fin E) :
    broadcastInDim ⟨2, ![E, 1]⟩ ![0] hb (Host.reduceAdd EXP (constant (⟨0, ![]⟩ : Shape) .f32 0x00000000#32) h22 hu)
        (ix2 e (0 : Fin 1))
      = 0 + ∑ k : Fin 22, EXP (ix2 e k) := by
  rw [← Ideal.ofBits_zero_f32]
  exact (BroadcastReads.col_apply (![0] : Fin 1 → Fin 2) rfl hb _ e 0).trans (reduceAdd_row h22 hu EXP _ e)

end RowOps

end LayerLaw

end
-- ==== Proof.LibRowGatherScatter.lean ====
/-
  Row gather and row scatter read at an index: the row gather of a two-axis array at a column of start indices, the
  gather of a flat array at a column of start indices, and where a row scatter (a segment sum of rows) lands an update.
-/
import Idealize.ShloMosaic.Lib.ValueIdx

noncomputable section

namespace RowGatherScatter

open Idealize.ShloMosaic Idealize.ShloMosaic.ValueIdx

/-! ## Row gather of an `[N, D]` array at a column `[E, 1]` of start indices -/

/-- The dimension numbers of the row gather `h[idx]`: operand `[N, D]`, start indices `[E, 1]`, result `[E, D]`;
    axis 0 of the operand is collapsed and indexed, axis 1 is the offset axis taken whole. -/
abbrev gRows (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather read at `(e, f)`: the operand at row `idx[e, 0]`, read signed and clamped into `[0, N − 1]`,
    and column `f`. -/
theorem gather_rows_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (f : Fin D) :
    Host.gather (gRows N D E wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ =>
    show (gRows N D E wf).start (ix2 e f) idx 0 + (gRows N D E wf).batchCoord (ix2 e f) 0
      + (gRows N D E wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gRows N D E wf).startIndexMap from List.mem_singleton.mpr rfl)]
    have hsi : (gRows N D E wf).siIdx (ix2 e f) ⟨List.idxOf (0 : Fin 2) (gRows N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gRows N D E wf).start (ix2 e f) idx 1 + (gRows N D E wf).batchCoord (ix2 e f) 1
      + (gRows N D E wf).offCoord (ix2 e f) 1 = _
    rw [GatherDims.batchCoord_eq_zero _ _ _ List.not_mem_nil]
    unfold GatherDims.start
    rw [dif_neg (show (1 : Fin 2) ∉ [(0 : Fin 2)] by decide)]
    have hk : (1 : Fin 2) ∈ (gRows N D E wf).sKept :=
      (GatherDims.mem_sKept _ _).mpr ⟨show (1 : Fin 2) ∉ [(0 : Fin 2)] by decide, List.not_mem_nil⟩
    unfold GatherDims.offCoord
    rw [dif_pos hk]
    simp only [Nat.add_zero, Nat.zero_add]
    rfl

/-! ## Gather of a flat `[N]` array at a column `[E, 1]` of start indices -/

/-- The dimension numbers of the gather `v[idx]`: operand `[N]`, start indices `[E, 1]`, result `[E]`; the
    operand's one axis is collapsed and indexed. -/
abbrev gVec (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at `idx[e, 0]`, read signed and clamped into `[0, N − 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gVec N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gVec N E wf).start (ix1 e) idx 0 + (gVec N E wf).batchCoord (ix1 e) 0 + (gVec N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gVec N E wf).startIndexMap from List.mem_singleton.mpr rfl)]
  have hsi : (gVec N E wf).siIdx (ix1 e) ⟨List.idxOf (0 : Fin 1) (gVec N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Row scatter of `[E, D]` updates into an `[N, D]` array at a column `[E, 1]` of row numbers -/

/-- The dimension numbers of the row scatter (a segment sum of rows): operand `[N, D]`, scatter indices `[E, 1]`,
    updates `[E, D]`; axis 0 of the operand is the scattered (inserted) axis, axis 1 the window axis. -/
abbrev sRows (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Scatter
variable {N D E w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- On the scattered axis the window starts at the update row's scatter index, read signed. -/
theorem sRows_start0 :
    (sRows N D E wf).start j idx 0 = (idx (ix2 ⟨(j 0).val, idx2_lt0 j⟩ (0 : Fin 1))).toInt := by
  unfold ScatterDims.start
  rw [dif_pos (show (0 : Fin 2) ∈ (sRows N D E wf).scatterDimsToOperandDims from List.mem_singleton.mpr rfl)]
  have hsi : (sRows N D E wf).siIdx j ⟨List.idxOf (0 : Fin 2) (sRows N D E wf).scatterDimsToOperandDims,
      List.idxOf_lt_length_iff.2 (List.mem_singleton.mpr rfl)⟩ = ix2 ⟨(j 0).val, idx2_lt0 j⟩ (0 : Fin 1) := by
    funext b; refine Fin.ext ?_
    match b with
    | ⟨0, _⟩ => rfl
    | ⟨1, _⟩ => rfl
  rw [hsi]

/-- On the window axis the window starts at 0. -/
theorem sRows_start1 : (sRows N D E wf).start j idx 1 = 0 := by
  unfold ScatterDims.start
  rw [dif_neg (show (1 : Fin 2) ∉ [(0 : Fin 2)] by decide)]

/-- The scattered axis carries no window coordinate. -/
theorem sRows_window0 : (sRows N D E wf).window j 0 = 0 := by
  unfold ScatterDims.window
  rw [dif_neg]
  intro h
  have : (0 : Fin 2) ∉ [(0 : Fin 2)] := by
    simpa [ScatterDims.sKept, Shape.kept, List.mem_filter] using h
  exact this (List.mem_singleton.mpr rfl)

/-- The window axis carries the update's column. -/
theorem sRows_window1 : (sRows N D E wf).window j 1 = (j 1).val := by
  have hk : (1 : Fin 2) ∈ (sRows N D E wf).sKept := by
    simp [ScatterDims.sKept, Shape.kept, List.mem_filter]
  unfold ScatterDims.window
  rw [dif_pos hk]
  rfl

/-- Where a row scatter lands an update: update `(e, f)` lands at `(n, c)` exactly when the row's scatter index,
    read signed, is `n` and `c = f`. -/
theorem scatter_rows_hit_iff (i : (⟨2, ![N, D]⟩ : Shape).Idx) :
    (sRows N D E wf).resultIdx? j idx = some i ↔
      (idx (ix2 ⟨(j 0).val, idx2_lt0 j⟩ (0 : Fin 1))).toInt = ((i 0).val : Int) ∧ (i 1).val = (j 1).val := by
  have h0 : (sRows N D E wf).start j idx 0 + (sRows N D E wf).window j 0
      = (idx (ix2 ⟨(j 0).val, idx2_lt0 j⟩ (0 : Fin 1))).toInt := by
    rw [sRows_start0, sRows_window0]; simp
  have h1 : (sRows N D E wf).start j idx 1 + (sRows N D E wf).window j 1 = ((j 1).val : Int) := by
    rw [sRows_start1, sRows_window1]; simp
  have hi0 := idx2_lt0 i
  have hi1 := idx2_lt1 i
  have hj1 := idx2_lt1 j
  unfold ScatterDims.resultIdx?
  constructor
  · intro h
    split at h
    · rename_i hall
      have hi := Option.some.inj h
      have e0 : (i 0).val = ((sRows N D E wf).start j idx 0 + (sRows N D E wf).window j 0).toNat := by
        rw [← hi]
      have e1 : (i 1).val = ((sRows N D E wf).start j idx 1 + (sRows N D E wf).window j 1).toNat := by
        rw [← hi]
      have p0 := (hall 0).1
      rw [h0] at e0 p0
      rw [h1] at e1
      refine ⟨by omega, by omega⟩
    · exact absurd h (by simp)
  · rintro ⟨g0, g1⟩
    have hall : ∀ a : Fin 2, 0 ≤ (sRows N D E wf).start j idx a + (sRows N D E wf).window j a ∧
        (sRows N D E wf).start j idx a + (sRows N D E wf).window j a < ((⟨2, ![N, D]⟩ : Shape).size a : Int) := by
      intro a
      match a with
      | ⟨0, _⟩ =>
        show 0 ≤ (sRows N D E wf).start j idx 0 + (sRows N D E wf).window j 0 ∧
          (sRows N D E wf).start j idx 0 + (sRows N D E wf).window j 0 < (N : Int)
        rw [h0, g0]; omega
      | ⟨1, _⟩ =>
        show 0 ≤ (sRows N D E wf).start j idx 1 + (sRows N D E wf).window j 1 ∧
          (sRows N D E wf).start j idx 1 + (sRows N D E wf).window j 1 < (D : Int)
        rw [h1]; omega
    rw [dif_pos hall]
    congr 1
    funext a
    refine Fin.ext ?_
    match a with
    | ⟨0, _⟩ =>
      show ((sRows N D E wf).start j idx 0 + (sRows N D E wf).window j 0).toNat = (i 0).val
      rw [h0, g0]; omega
    | ⟨1, _⟩ =>
      show ((sRows N D E wf).start j idx 1 + (sRows N D E wf).window j 1).toNat = (i 1).val
      rw [h1]; omega

/-- An update row lands in row `n` only if its scatter index, read signed, is `n`; it keeps its column. -/
theorem scatter_rows_hit (i : (⟨2, ![N, D]⟩ : Shape).Idx)
    (h : (sRows N D E wf).resultIdx? j idx = some i) :
    (idx (ix2 ⟨(j 0).val, idx2_lt0 j⟩ (0 : Fin 1))).toInt = ((i 0).val : Int) ∧ (i 1).val = (j 1).val :=
  (scatter_rows_hit_iff wf idx j i).mp h

end Scatter

end RowGatherScatter

end
-- ==== Proof.LayerLawKer.lean ====
/-
  The steps of the fused program's layer read at an index, at the extended reals: the signs are the real signs; the
  non-negative row number of an edge; a gathered entry is the node table's entry at the edge's row; a signed literal is
  the entry times the sign; the edge's maximum is the maximum of its three rows' maxima; an exponential is `exp` of
  literal less maximum; the edge's sum is the sum of its three rows' sums; the quotient is softplus over the sum; a boost
  is exponential times quotient times sign; and the final scatter is the row scatter of the two blocks one under the other.
-/
import proofs.«140184_j29661044146691_2_alg».proof.Proof.LayerLawKerDefs
import proofs.«140184_j29661044146691_2_alg».proof.Proof.LayerLawReads
import proofs.«140184_j29661044146691_2_alg».proof.Proof.LibRowGatherScatter

set_option synthInstance.maxSize 4096

open scoped BigOperators

noncomputable section

namespace LayerLaw.Ker

open Cert.KernelIdeal Idealize.ShloMosaic Idealize.ShloMosaic.ValueIdx
open Cert.KernelIdeal.Facts₀ Cert.KernelIdeal.Facts
open LayerLaw

variable [Cert.KernelIdeal.Facts]

theorem sg10_apply (k : Fin 10) : sg10 (F := Ideal) (ix1 k) = ((signR k.val : ℝ) : EReal) :=
  (show sg10 (F := Ideal) (ix1 k)
      = Scalar.select (signW k.val) (Ideal.ofBits .f32 0x3F800000#32) (Ideal.ofBits .f32 0xBF800000#32) from rfl).trans
    (select_sign _)

theorem sg2_apply (k : Fin 2) : sg2 (F := Ideal) (ix1 k) = ((signR k.val : ℝ) : EReal) :=
  (show sg2 (F := Ideal) (ix1 k)
      = Scalar.select (signW k.val) (Ideal.ofBits .f32 0x3F800000#32) (Ideal.ofBits .f32 0xBF800000#32) from rfl).trans
    (select_sign _)

theorem nz_apply (s : (⟨S3200000, .i32⟩ : BufTy).Contents (Elt Ideal)) (e : Fin 3200000) :
    nz (F := Ideal) s (ix2 e (0 : Fin 1)) = nzw (s (ix1 e)) := by
  unfold nz
  exact (BroadcastReads.col_apply (![0] : Fin 1 → Fin 2) rfl bcast_S3200000_S3200000x1_0 _ e 0).trans rfl

theorem nz2_apply (ix : (⟨S6400000, .i32⟩ : BufTy).Contents (Elt Ideal)) (u : Fin 6400000) :
    nz2 (F := Ideal) ix (ix2 u (0 : Fin 1)) = nzw (ix (ix1 u)) := by
  unfold nz2
  exact (BroadcastReads.col_apply (![0] : Fin 1 → Fin 2) rfl bcast_S6400000_S6400000x1_0 _ u 0).trans rfl

theorem gat_apply (z : (⟨S100000x10, .f32⟩ : BufTy).Contents (Elt Ideal)) (i : (⟨S3200000x1, .i32⟩ : BufTy).Contents (Elt Ideal)) (e : Fin 3200000) (c : Fin 10) :
    gat (F := Ideal) z i (ix2 e c)
      = z (ix2 (⟨min (i (ix2 e (0 : Fin 1))).toInt.toNat (100000 - 1), by omega⟩ : Fin 100000) c) := by
  unfold gat
  exact RowGatherScatter.gather_rows_apply (by norm_num)
    gather_S100000x10_S3200000x1_S3200000x10_1_0_n_n_0_1_110_wf z i e c

theorem lit10_apply (g : (⟨S3200000x10, .f32⟩ : BufTy).Contents (Elt Ideal)) (e : Fin 3200000) (c : Fin 10) :
    lit10 (F := Ideal) g (ix2 e c) = g (ix2 e c) * sg10 (F := Ideal) (ix1 c) := by
  unfold lit10
  exact congrArg (g (ix2 e c) * ·) (rowDown_row_apply (![1] : Fin 1 → Fin 2) rfl bcast_S10_S1x10_1
    (![0, 1] : Fin 2 → Fin 2) rfl rfl bcast_S1x10_S3200000x10_0_1 (sg10 (F := Ideal)) e c)

theorem lit2_apply (rel : (⟨S3200000x2, .f32⟩ : BufTy).Contents (Elt Ideal)) (e : Fin 3200000) (t : Fin 2) :
    lit2 (F := Ideal) rel (ix2 e t) = rel (ix2 e t) * sg2 (F := Ideal) (ix1 t) := by
  unfold lit2
  exact congrArg (rel (ix2 e t) * ·) (rowDown_row_apply (![1] : Fin 1 → Fin 2) rfl bcast_S2_S1x2_1
    (![0, 1] : Fin 2 → Fin 2) rfl rfl bcast_S1x2_S3200000x2_0_1 (sg2 (F := Ideal)) e t)

theorem litAt_apply (z : (⟨S100000x10, .f32⟩ : BufTy).Contents (Elt Ideal)) (s : (⟨S3200000, .i32⟩ : BufTy).Contents (Elt Ideal)) (e : Fin 3200000) (c : Fin 10) :
    litAt (F := Ideal) z s (ix2 e c) = z (ix2 (rowN (s (ix1 e))) c) * ((signR c.val : ℝ) : EReal) := by
  unfold litAt
  rw [lit10_apply, gat_apply, sg10_apply]
  simp only [nz_apply, rowN]

theorem mrow_apply (X Y : (⟨S3200000x10, .f32⟩ : BufTy).Contents (Elt Ideal)) (R : (⟨S3200000x2, .f32⟩ : BufTy).Contents (Elt Ideal)) (e : Fin 3200000) :
    mrow (F := Ideal) X Y R (ix2 e (0 : Fin 1))
      = max (max ((Finset.univ : Finset (Fin 10)).fold max (⊥ : EReal) (fun k => X (ix2 e k)))
                 ((Finset.univ : Finset (Fin 10)).fold max (⊥ : EReal) (fun k => Y (ix2 e k))))
            ((Finset.univ : Finset (Fin 2)).fold max (⊥ : EReal) (fun k => R (ix2 e k))) := by
  unfold mrow
  exact rowMax3_apply reducesTo_S3200000x10_S3200000_d1 reducesTo_S3200000x2_S3200000_d1 h_S_
    bcast_S3200000_S3200000x1_0 X Y R e

theorem ex10_apply (X : (⟨S3200000x10, .f32⟩ : BufTy).Contents (Elt Ideal)) (M : (⟨S3200000x1, .f32⟩ : BufTy).Contents (Elt Ideal)) (e : Fin 3200000) (c : Fin 10) :
    ex10 (F := Ideal) X M (ix2 e c) = Ideal.exp (X (ix2 e c) - M (ix2 e (0 : Fin 1))) := by
  unfold ex10
  exact congrArg (fun v => Ideal.exp (X (ix2 e c) - v))
    (BroadcastReads.colAcross_apply (![0, 1] : Fin 2 → Fin 2) rfl rfl bcast_S3200000x1_S3200000x10_0_1 M e c)

theorem ex2_apply (R : (⟨S3200000x2, .f32⟩ : BufTy).Contents (Elt Ideal)) (M : (⟨S3200000x1, .f32⟩ : BufTy).Contents (Elt Ideal)) (e : Fin 3200000) (t : Fin 2) :
    ex2 (F := Ideal) R M (ix2 e t) = Ideal.exp (R (ix2 e t) - M (ix2 e (0 : Fin 1))) := by
  unfold ex2
  exact congrArg (fun v => Ideal.exp (R (ix2 e t) - v))
    (BroadcastReads.colAcross_apply (![0, 1] : Fin 2 → Fin 2) rfl rfl bcast_S3200000x1_S3200000x2_0_1 M e t)

theorem den_apply (EX EY : (⟨S3200000x10, .f32⟩ : BufTy).Contents (Elt Ideal)) (ER : (⟨S3200000x2, .f32⟩ : BufTy).Contents (Elt Ideal)) (e : Fin 3200000) :
    den (F := Ideal) EX EY ER (ix2 e (0 : Fin 1))
      = ((0 + ∑ k : Fin 10, EX (ix2 e k)) + (0 + ∑ k : Fin 10, EY (ix2 e k))) + (0 + ∑ k : Fin 2, ER (ix2 e k)) := by
  unfold den
  exact rowSum3_apply reducesTo_S3200000x10_S3200000_d1 reducesTo_S3200000x2_S3200000_d1 h_S_
    bcast_S3200000_S3200000x1_0 EX EY ER e

theorem quo_apply (sp : (⟨S_, .f32⟩ : BufTy).Contents (Elt Ideal)) (d : (⟨S3200000x1, .f32⟩ : BufTy).Contents (Elt Ideal)) (e : Fin 3200000) :
    quo (F := Ideal) sp d (ix2 e (0 : Fin 1)) = Ideal.div (sp ix0) (d (ix2 e (0 : Fin 1))) := by
  unfold quo
  exact congrArg (fun v => Ideal.div v (d (ix2 e (0 : Fin 1))))
    (BroadcastReads.scalar_apply (![] : Fin 0 → Fin 2) bcast_S_S3200000x1 sp (ix2 e (0 : Fin 1)))

theorem dlt_apply (EX : (⟨S3200000x10, .f32⟩ : BufTy).Contents (Elt Ideal)) (Q : (⟨S3200000x1, .f32⟩ : BufTy).Contents (Elt Ideal)) (e : Fin 3200000) (c : Fin 10) :
    dlt (F := Ideal) EX Q (ix2 e c) = (EX (ix2 e c) * Q (ix2 e (0 : Fin 1))) * ((signR c.val : ℝ) : EReal) := by
  unfold dlt
  rw [← sg10_apply c]
  exact congrArg₂ (· * ·)
    (congrArg (EX (ix2 e c) * ·)
      (BroadcastReads.colAcross_apply (![0, 1] : Fin 2 → Fin 2) rfl rfl bcast_S3200000x1_S3200000x10_0_1 Q e c))
    (rowDown_row_apply (![1] : Fin 1 → Fin 2) rfl bcast_S10_S1x10_1
      (![0, 1] : Fin 2 → Fin 2) rfl rfl bcast_S1x10_S3200000x10_0_1 (sg10 (F := Ideal)) e c)

/-- The final step is the row scatter of the two blocks one under the other. -/
theorem fin_eq (z : (⟨S100000x10, .f32⟩ : BufTy).Contents (Elt Ideal)) (i2 : (⟨S6400000x1, .i32⟩ : BufTy).Contents (Elt Ideal)) (DX DY : (⟨S3200000x10, .f32⟩ : BufTy).Contents (Elt Ideal)) :
    fin (F := Ideal) z i2 DX DY
      = Host.scatterAdd (F := Ideal) (φ := .f32) (RowGatherScatter.sRows 100000 10 6400000 scatter_S100000x10_S6400000x1_S6400000x10_1_0_0_1_wf)
          z i2 (concatenate S6400000x10 0 [⟨S3200000x10, DX⟩, ⟨S3200000x10, DY⟩]
            concatenates_S3200000x10_S3200000x10_S6400000x10_d0) := rfl

/-- The concatenated index vector: its first `3200000` entries are the first endpoints, its last the second. -/
theorem idx2_left (sx sy : (⟨S3200000, .i32⟩ : BufTy).Contents (Elt Ideal)) (e : Fin 3200000) :
    Cert.KernelIdeal.Stage.idx2 (F := Ideal) sx sy (ix1 (⟨e.val, by omega⟩ : Fin 6400000)) = sx (ix1 e) := by
  unfold Cert.KernelIdeal.Stage.idx2
  exact concat2_vec_left (E := 3200000) (E2 := 6400000) (by norm_num) concatenates_S3200000_S3200000_S6400000_d0 sx sy e

theorem idx2_right (sx sy : (⟨S3200000, .i32⟩ : BufTy).Contents (Elt Ideal)) (e : Fin 3200000) :
    Cert.KernelIdeal.Stage.idx2 (F := Ideal) sx sy (ix1 (⟨3200000 + e.val, by omega⟩ : Fin 6400000)) = sy (ix1 e) := by
  unfold Cert.KernelIdeal.Stage.idx2
  exact concat2_vec_right (E := 3200000) (E2 := 6400000) (by norm_num) concatenates_S3200000_S3200000_S6400000_d0 sx sy e

end LayerLaw.Ker

end
-- ==== Proof.LayerLawRefDefs.lean ====
/-
  One relational layer of the reference program, cut into its steps: the sign vector, the row numbers made non-negative, the gathered rows, the 22 literals side by side, the signed literals, the row maximum, the exponentials, their sum, the boosts, the two column blocks, and the two scatters in turn. The layer is their composition.
-/
import proofs.«140184_j29661044146691_2_alg».proof.Proof.RefStageDefs

set_option synthInstance.maxSize 4096

noncomputable section

namespace LayerLaw.Ref

open Cert.ReferenceIdeal Idealize.ShloMosaic
open Cert.ReferenceIdeal.Facts₀ Cert.ReferenceIdeal.Facts

variable {F : FTy → Type} [FloatOps F] [Cert.ReferenceIdeal.Facts]

/-- The 22 alternating signs: `1` at even positions, `-1` at odd ones. -/
noncomputable def sg22  :
    (⟨S22, .f32⟩ : BufTy).Contents (Elt F) :=
  let t0 := ((iotaInDim S22 32 0) : (⟨S22, .i32⟩ : BufTy).Contents (Elt F))
  let t1 := ((constantI S_ 32 2#32) : (⟨S_, .i32⟩ : BufTy).Contents (Elt F))
  let t2 := (id t1 : (⟨S_, .i32⟩ : BufTy).Contents (Elt F))
  let t3 := ((constantI S_ 32 0#32) : (⟨S_, .i32⟩ : BufTy).Contents (Elt F))
  let t4 := ((cmpi .eq) t2 t3 : (⟨S_, .i1⟩ : BufTy).Contents (Elt F))
  let t5 := ((constantI S_ 32 1#32) : (⟨S_, .i32⟩ : BufTy).Contents (Elt F))
  let t6 := (select t4 t5 t2 : (⟨S_, .i32⟩ : BufTy).Contents (Elt F))
  let t7 := ((broadcastInDim S22 ![] bcast_S_S22) t6 : (⟨S22, .i32⟩ : BufTy).Contents (Elt F))
  let t8 := (Host.remsi t0 t7 : (⟨S22, .i32⟩ : BufTy).Contents (Elt F))
  let t9 := ((constantI S_ 32 0#32) : (⟨S_, .i32⟩ : BufTy).Contents (Elt F))
  let t10 := ((broadcastInDim S22 ![] bcast_S_S22) t9 : (⟨S22, .i32⟩ : BufTy).Contents (Elt F))
  let t11 := ((cmpi .ne) t8 t10 : (⟨S22, .i1⟩ : BufTy).Contents (Elt F))
  let t12 := ((constantI S_ 32 0#32) : (⟨S_, .i32⟩ : BufTy).Contents (Elt F))
  let t13 := ((broadcastInDim S22 ![] bcast_S_S22) t12 : (⟨S22, .i32⟩ : BufTy).Contents (Elt F))
  let t14 := ((cmpi .slt) t8 t13 : (⟨S22, .i1⟩ : BufTy).Contents (Elt F))
  let t15 := ((constantI S_ 32 0#32) : (⟨S_, .i32⟩ : BufTy).Contents (Elt F))
  let t16 := ((cmpi .slt) t6 t15 : (⟨S_, .i1⟩ : BufTy).Contents (Elt F))
  let t17 := ((broadcastInDim S22 ![] bcast_S_S22) t16 : (⟨S22, .i1⟩ : BufTy).Contents (Elt F))
  let t18 := ((cmpi .ne) t14 t17 : (⟨S22, .i1⟩ : BufTy).Contents (Elt F))
  let t19 := (andi t18 t11 : (⟨S22, .i1⟩ : BufTy).Contents (Elt F))
  let t20 := ((broadcastInDim S22 ![] bcast_S_S22) t6 : (⟨S22, .i32⟩ : BufTy).Contents (Elt F))
  let t21 := (addi t8 t20 : (⟨S22, .i32⟩ : BufTy).Contents (Elt F))
  let t22 := (select t19 t21 t8 : (⟨S22, .i32⟩ : BufTy).Contents (Elt F))
  let t23 := ((constantI S_ 32 0#32) : (⟨S_, .i32⟩ : BufTy).Contents (Elt F))
  let t24 := ((broadcastInDim S22 ![] bcast_S_S22 : (⟨S_, .i32⟩ : BufTy).Contents (Elt F) → (⟨S22, .i32⟩ : BufTy).Contents (Elt F)) t23 : (⟨S22, .i32⟩ : BufTy).Contents (Elt F))
  let t25 := ((cmpi .eq : (⟨S22, .i32⟩ : BufTy).Contents (Elt F) → (⟨S22, .i32⟩ : BufTy).Contents (Elt F) → (⟨S22, .i1⟩ : BufTy).Contents (Elt F)) t22 t24 : (⟨S22, .i1⟩ : BufTy).Contents (Elt F))
  let t26 := ((constant S_ .f32 0x3F800000#32) : (⟨S_, .f32⟩ : BufTy).Contents (Elt F))
  let t27 := ((constant S_ .f32 0xBF800000#32) : (⟨S_, .f32⟩ : BufTy).Contents (Elt F))
  let t28 := ((broadcastInDim S22 ![] bcast_S_S22) t26 : (⟨S22, .f32⟩ : BufTy).Contents (Elt F))
  let t29 := ((broadcastInDim S22 ![] bcast_S_S22) t27 : (⟨S22, .f32⟩ : BufTy).Contents (Elt F))
  let t30 := (select t25 t28 t29 : (⟨S22, .f32⟩ : BufTy).Contents (Elt F))
  let t31 := ((id : (⟨S22, .f32⟩ : BufTy).Contents (Elt F) → (⟨S22, .f32⟩ : BufTy).Contents (Elt F)) t30 : (⟨S22, .f32⟩ : BufTy).Contents (Elt F))
  t31

/-- Row numbers with `100000` added to the negative ones, as a column. -/
noncomputable def nz (sx : (⟨S3200000, .i32⟩ : BufTy).Contents (Elt F)) :
    (⟨S3200000x1, .i32⟩ : BufTy).Contents (Elt F) :=
  let t32 := ((constantI S_ 32 0#32) : (⟨S_, .i32⟩ : BufTy).Contents (Elt F))
  let t33 := ((broadcastInDim S3200000 ![] bcast_S_S3200000 : (⟨S_, .i32⟩ : BufTy).Contents (Elt F) → (⟨S3200000, .i32⟩ : BufTy).Contents (Elt F)) t32 : (⟨S3200000, .i32⟩ : BufTy).Contents (Elt F))
  let t34 := ((cmpi .slt : (⟨S3200000, .i32⟩ : BufTy).Contents (Elt F) → (⟨S3200000, .i32⟩ : BufTy).Contents (Elt F) → (⟨S3200000, .i1⟩ : BufTy).Contents (Elt F)) sx t33 : (⟨S3200000, .i1⟩ : BufTy).Contents (Elt F))
  let t35 := ((constantI S_ 32 100000#32) : (⟨S_, .i32⟩ : BufTy).Contents (Elt F))
  let t36 := ((broadcastInDim S3200000 ![] bcast_S_S3200000 : (⟨S_, .i32⟩ : BufTy).Contents (Elt F) → (⟨S3200000, .i32⟩ : BufTy).Contents (Elt F)) t35 : (⟨S3200000, .i32⟩ : BufTy).Contents (Elt F))
  let t37 := ((addi : (⟨S3200000, .i32⟩ : BufTy).Contents (Elt F) → (⟨S3200000, .i32⟩ : BufTy).Contents (Elt F) → (⟨S3200000, .i32⟩ : BufTy).Contents (Elt F)) sx t36 : (⟨S3200000, .i32⟩ : BufTy).Contents (Elt F))
  let t38 := ((select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) t34 t37 sx : (⟨S3200000, .i32⟩ : BufTy).Contents (Elt F))
  let t39 := ((broadcastInDim S3200000x1 ![0] bcast_S3200000_S3200000x1_0 : (⟨S3200000, .i32⟩ : BufTy).Contents (Elt F) → (⟨S3200000x1, .i32⟩ : BufTy).Contents (Elt F)) t38 : (⟨S3200000x1, .i32⟩ : BufTy).Contents (Elt F))
  t39

/-- The rows of the node table at a column of row numbers. -/
noncomputable def gat (z : (⟨S100000x10, .f32⟩ : BufTy).Contents (Elt F)) (i : (⟨S3200000x1, .i32⟩ : BufTy).Contents (Elt F)) :
    (⟨S3200000x10, .f32⟩ : BufTy).Contents (Elt F) :=
  let t40 := (((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)) z i : (⟨S3200000x10, .f32⟩ : BufTy).Contents (Elt F))
  t40

/-- The two gathered rows and the relation entries side by side: 22 entries an edge. -/
noncomputable def cat3 (GX : (⟨S3200000x10, .f32⟩ : BufTy).Contents (Elt F)) (GY : (⟨S3200000x10, .f32⟩ : BufTy).Contents (Elt F)) (rel : (⟨S3200000x2, .f32⟩ : BufTy).Contents (Elt F)) :
    (⟨S3200000x22, .f32⟩ : BufTy).Contents (Elt F) :=
  let t50 := (concatenate S3200000x22 1 [⟨S3200000x10, GX⟩, ⟨S3200000x10, GY⟩, ⟨S3200000x2, rel⟩] concatenates_S3200000x10_S3200000x10_S3200000x2_S3200000x22_d1 : (⟨S3200000x22, .f32⟩ : BufTy).Contents (Elt F))
  t50

/-- The softplus of the clause weight. -/
noncomputable def spl (w : (⟨S_, .f32⟩ : BufTy).Contents (Elt F)) :
    (⟨S_, .f32⟩ : BufTy).Contents (Elt F) :=
  let t51 := ((constant S_ .f32 0x00000000#32) : (⟨S_, .f32⟩ : BufTy).Contents (Elt F))
  let t52 := (maximumf w t51 : (⟨S_, .f32⟩ : BufTy).Contents (Elt F))
  let t53 := (subf w t51 : (⟨S_, .f32⟩ : BufTy).Contents (Elt F))
  let t54 := ((cmpf .une) t53 t53 : (⟨S_, .i1⟩ : BufTy).Contents (Elt F))
  let t55 := (addf w t51 : (⟨S_, .f32⟩ : BufTy).Contents (Elt F))
  let t56 := (Host.absf t53 : (⟨S_, .f32⟩ : BufTy).Contents (Elt F))
  let t57 := (Host.negf t56 : (⟨S_, .f32⟩ : BufTy).Contents (Elt F))
  let t58 := (Host.exp t57 : (⟨S_, .f32⟩ : BufTy).Contents (Elt F))
  let t59 := (Host.log1p t58 : (⟨S_, .f32⟩ : BufTy).Contents (Elt F))
  let t60 := (addf t52 t59 : (⟨S_, .f32⟩ : BufTy).Contents (Elt F))
  let t61 := (select t54 t55 t60 : (⟨S_, .f32⟩ : BufTy).Contents (Elt F))
  t61

/-- The 22 entries, each times its sign. -/
noncomputable def lit22 (Cc : (⟨S3200000x22, .f32⟩ : BufTy).Contents (Elt F)) :
    (⟨S3200000x22, .f32⟩ : BufTy).Contents (Elt F) :=
  let t62 := ((broadcastInDim S1x22 ![1] bcast_S22_S1x22_1 : (⟨S22, .f32⟩ : BufTy).Contents (Elt F) → (⟨S1x22, .f32⟩ : BufTy).Contents (Elt F)) (sg22 (F := F)) : (⟨S1x22, .f32⟩ : BufTy).Contents (Elt F))
  let t63 := ((broadcastInDim S3200000x22 ![0, 1] bcast_S1x22_S3200000x22_0_1 : (⟨S1x22, .f32⟩ : BufTy).Contents (Elt F) → (⟨S3200000x22, .f32⟩ : BufTy).Contents (Elt F)) t62 : (⟨S3200000x22, .f32⟩ : BufTy).Contents (Elt F))
  let t64 := ((mulf : (⟨S3200000x22, .f32⟩ : BufTy).Contents (Elt F) → (⟨S3200000x22, .f32⟩ : BufTy).Contents (Elt F) → (⟨S3200000x22, .f32⟩ : BufTy).Contents (Elt F)) t63 Cc : (⟨S3200000x22, .f32⟩ : BufTy).Contents (Elt F))
  t64

/-- Each edge's maximum over its 22 literals, as a column. -/
noncomputable def mrow (L : (⟨S3200000x22, .f32⟩ : BufTy).Contents (Elt F)) :
    (⟨S3200000x1, .f32⟩ : BufTy).Contents (Elt F) :=
  let t65 := ((constant S_ .f32 0xFF800000#32) : (⟨S_, .f32⟩ : BufTy).Contents (Elt F))
  let t66 := (((fun x v => Host.reduce FloatOps.maximumf x v reducesTo_S3200000x22_S3200000_d1 h_S_) : (⟨S3200000x22, .f32⟩ : BufTy).Contents (Elt F) → (⟨S_, .f32⟩ : BufTy).Contents (Elt F) → (⟨S3200000, .f32⟩ : BufTy).Contents (Elt F)) L t65 : (⟨S3200000, .f32⟩ : BufTy).Contents (Elt F))
  let t67 := ((constant S_ .f32 0xFF800000#32) : (⟨S_, .f32⟩ : BufTy).Contents (Elt F))
  let t68 := ((broadcastInDim S3200000 ![] bcast_S_S3200000 : (⟨S_, .f32⟩ : BufTy).Contents (Elt F) → (⟨S3200000, .f32⟩ : BufTy).Contents (Elt F)) t67 : (⟨S3200000, .f32⟩ : BufTy).Contents (Elt F))
  let t69 := ((maximumf : (⟨S3200000, .f32⟩ : BufTy).Contents (Elt F) → (⟨S3200000, .f32⟩ : BufTy).Contents (Elt F) → (⟨S3200000, .f32⟩ : BufTy).Contents (Elt F)) t68 t66 : (⟨S3200000, .f32⟩ : BufTy).Contents (Elt F))
  let t70 := ((broadcastInDim S3200000x1 ![0] bcast_S3200000_S3200000x1_0 : (⟨S3200000, .f32⟩ : BufTy).Contents (Elt F) → (⟨S3200000x1, .f32⟩ : BufTy).Contents (Elt F)) t69 : (⟨S3200000x1, .f32⟩ : BufTy).Contents (Elt F))
  t70

/-- The exponentials of the 22 literals less the edge's maximum. -/
noncomputable def ex22 (L : (⟨S3200000x22, .f32⟩ : BufTy).Contents (Elt F)) (M : (⟨S3200000x1, .f32⟩ : BufTy).Contents (Elt F)) :
    (⟨S3200000x22, .f32⟩ : BufTy).Contents (Elt F) :=
  let t71 := ((broadcastInDim S3200000x22 ![0, 1] bcast_S3200000x1_S3200000x22_0_1 : (⟨S3200000x1, .f32⟩ : BufTy).Contents (Elt F) → (⟨S3200000x22, .f32⟩ : BufTy).Contents (Elt F)) M : (⟨S3200000x22, .f32⟩ : BufTy).Contents (Elt F))
  let t72 := ((subf : (⟨S3200000x22, .f32⟩ : BufTy).Contents (Elt F) → (⟨S3200000x22, .f32⟩ : BufTy).Contents (Elt F) → (⟨S3200000x22, .f32⟩ : BufTy).Contents (Elt F)) L t71 : (⟨S3200000x22, .f32⟩ : BufTy).Contents (Elt F))
  let t73 := ((Host.exp : (⟨S3200000x22, .f32⟩ : BufTy).Contents (Elt F) → (⟨S3200000x22, .f32⟩ : BufTy).Contents (Elt F)) t72 : (⟨S3200000x22, .f32⟩ : BufTy).Contents (Elt F))
  t73

/-- Each edge's sum of its exponentials, as a column. -/
noncomputable def den (EXP : (⟨S3200000x22, .f32⟩ : BufTy).Contents (Elt F)) :
    (⟨S3200000x1, .f32⟩ : BufTy).Contents (Elt F) :=
  let t74 := ((constant S_ .f32 0x00000000#32) : (⟨S_, .f32⟩ : BufTy).Contents (Elt F))
  let t75 := (((fun x v => Host.reduceAdd x v reducesTo_S3200000x22_S3200000_d1 h_S_) : (⟨S3200000x22, .f32⟩ : BufTy).Contents (Elt F) → (⟨S_, .f32⟩ : BufTy).Contents (Elt F) → (⟨S3200000, .f32⟩ : BufTy).Contents (Elt F)) EXP t74 : (⟨S3200000, .f32⟩ : BufTy).Contents (Elt F))
  let t76 := ((broadcastInDim S3200000x1 ![0] bcast_S3200000_S3200000x1_0 : (⟨S3200000, .f32⟩ : BufTy).Contents (Elt F) → (⟨S3200000x1, .f32⟩ : BufTy).Contents (Elt F)) t75 : (⟨S3200000x1, .f32⟩ : BufTy).Contents (Elt F))
  t76

/-- The 22 boosts: the softplus value times exponential over sum, times the sign. -/
noncomputable def dlt (EXP : (⟨S3200000x22, .f32⟩ : BufTy).Contents (Elt F)) (D : (⟨S3200000x1, .f32⟩ : BufTy).Contents (Elt F)) (sp : (⟨S_, .f32⟩ : BufTy).Contents (Elt F)) :
    (⟨S3200000x22, .f32⟩ : BufTy).Contents (Elt F) :=
  let t77 := ((broadcastInDim S3200000x22 ![0, 1] bcast_S3200000x1_S3200000x22_0_1 : (⟨S3200000x1, .f32⟩ : BufTy).Contents (Elt F) → (⟨S3200000x22, .f32⟩ : BufTy).Contents (Elt F)) D : (⟨S3200000x22, .f32⟩ : BufTy).Contents (Elt F))
  let t78 := ((Host.divf : (⟨S3200000x22, .f32⟩ : BufTy).Contents (Elt F) → (⟨S3200000x22, .f32⟩ : BufTy).Contents (Elt F) → (⟨S3200000x22, .f32⟩ : BufTy).Contents (Elt F)) EXP t77 : (⟨S3200000x22, .f32⟩ : BufTy).Contents (Elt F))
  let t79 := ((broadcastInDim S3200000x22 ![] bcast_S_S3200000x22 : (⟨S_, .f32⟩ : BufTy).Contents (Elt F) → (⟨S3200000x22, .f32⟩ : BufTy).Contents (Elt F)) sp : (⟨S3200000x22, .f32⟩ : BufTy).Contents (Elt F))
  let t80 := ((mulf : (⟨S3200000x22, .f32⟩ : BufTy).Contents (Elt F) → (⟨S3200000x22, .f32⟩ : BufTy).Contents (Elt F) → (⟨S3200000x22, .f32⟩ : BufTy).Contents (Elt F)) t79 t78 : (⟨S3200000x22, .f32⟩ : BufTy).Contents (Elt F))
  let t81 := ((broadcastInDim S1x22 ![1] bcast_S22_S1x22_1 : (⟨S22, .f32⟩ : BufTy).Contents (Elt F) → (⟨S1x22, .f32⟩ : BufTy).Contents (Elt F)) (sg22 (F := F)) : (⟨S1x22, .f32⟩ : BufTy).Contents (Elt F))
  let t82 := ((broadcastInDim S3200000x22 ![0, 1] bcast_S1x22_S3200000x22_0_1 : (⟨S1x22, .f32⟩ : BufTy).Contents (Elt F) → (⟨S3200000x22, .f32⟩ : BufTy).Contents (Elt F)) t81 : (⟨S3200000x22, .f32⟩ : BufTy).Contents (Elt F))
  let t83 := ((mulf : (⟨S3200000x22, .f32⟩ : BufTy).Contents (Elt F) → (⟨S3200000x22, .f32⟩ : BufTy).Contents (Elt F) → (⟨S3200000x22, .f32⟩ : BufTy).Contents (Elt F)) t80 t82 : (⟨S3200000x22, .f32⟩ : BufTy).Contents (Elt F))
  t83

/-- Columns 0 to 9 of the boosts. -/
noncomputable def slx (DL : (⟨S3200000x22, .f32⟩ : BufTy).Contents (Elt F)) :
    (⟨S3200000x10, .f32⟩ : BufTy).Contents (Elt F) :=
  let t84 := (((extractStridedSlice S3200000x10 ![0, 0] · slices_S3200000x22_S3200000x10_0_0) : (⟨S3200000x22, .f32⟩ : BufTy).Contents (Elt F) → (⟨S3200000x10, .f32⟩ : BufTy).Contents (Elt F)) DL : (⟨S3200000x10, .f32⟩ : BufTy).Contents (Elt F))
  t84

/-- Columns 10 to 19 of the boosts. -/
noncomputable def sly (DL : (⟨S3200000x22, .f32⟩ : BufTy).Contents (Elt F)) :
    (⟨S3200000x10, .f32⟩ : BufTy).Contents (Elt F) :=
  let t94 := (((extractStridedSlice S3200000x10 ![0, 10] · slices_S3200000x22_S3200000x10_0_10) : (⟨S3200000x22, .f32⟩ : BufTy).Contents (Elt F) → (⟨S3200000x10, .f32⟩ : BufTy).Contents (Elt F)) DL : (⟨S3200000x10, .f32⟩ : BufTy).Contents (Elt F))
  t94

/-- One block of boosts scatter-added into a node table. -/
noncomputable def sc (x0 : (⟨S100000x10, .f32⟩ : BufTy).Contents (Elt F)) (i : (⟨S3200000x1, .i32⟩ : BufTy).Contents (Elt F)) (u : (⟨S3200000x10, .f32⟩ : BufTy).Contents (Elt F)) :
    (⟨S100000x10, .f32⟩ : BufTy).Contents (Elt F) :=
  let t93 := (((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)) x0 i u : (⟨S100000x10, .f32⟩ : BufTy).Contents (Elt F))
  t93

/-- The 22 boosts of every edge. -/
noncomputable def dAll (z : (⟨S100000x10, .f32⟩ : BufTy).Contents (Elt F)) (rel : (⟨S3200000x2, .f32⟩ : BufTy).Contents (Elt F)) (w : (⟨S_, .f32⟩ : BufTy).Contents (Elt F)) (sx : (⟨S3200000, .i32⟩ : BufTy).Contents (Elt F)) (sy : (⟨S3200000, .i32⟩ : BufTy).Contents (Elt F)) :
    (⟨S3200000x22, .f32⟩ : BufTy).Contents (Elt F) :=
  dlt (ex22 (lit22 (cat3 (gat z (nz sx)) (gat z (nz sy)) rel)) (mrow (lit22 (cat3 (gat z (nz sx)) (gat z (nz sy)) rel))))
    (den (ex22 (lit22 (cat3 (gat z (nz sx)) (gat z (nz sy)) rel)) (mrow (lit22 (cat3 (gat z (nz sx)) (gat z (nz sy)) rel)))))
    (spl w)

/-- The layer is the composition of its steps. -/
theorem layer_eq (z : (⟨S100000x10, .f32⟩ : BufTy).Contents (Elt F)) (rel : (⟨S3200000x2, .f32⟩ : BufTy).Contents (Elt F)) (w : (⟨S_, .f32⟩ : BufTy).Contents (Elt F)) (sx : (⟨S3200000, .i32⟩ : BufTy).Contents (Elt F)) (sy : (⟨S3200000, .i32⟩ : BufTy).Contents (Elt F)) :
    Cert.ReferenceIdeal.Stage.layer z rel w sx sy
      = sc (sc z (nz sx) (slx (dAll z rel w sx sy))) (nz sy) (sly (dAll z rel w sx sy)) := rfl

end LayerLaw.Ref

end
-- ==== Proof.LayerLawRef.lean ====
/-
  The steps of the reference program's layer read at an index, at the extended reals: the signs are the real signs; the
  non-negative row number of an edge; a gathered entry is the node table's entry at the edge's row; the 22 entries of an
  edge are its two gathered rows and its relation entries; a signed literal is the sign times the entry; the edge's
  maximum; an exponential is `exp` of literal less maximum; the edge's sum; a boost is softplus times exponential over
  sum, times the sign; the two column blocks; and each scatter is a row scatter.
-/
import proofs.«140184_j29661044146691_2_alg».proof.Proof.LayerLawRefDefs
import proofs.«140184_j29661044146691_2_alg».proof.Proof.LayerLawReads
import proofs.«140184_j29661044146691_2_alg».proof.Proof.LibRowGatherScatter

set_option synthInstance.maxSize 4096

open scoped BigOperators

noncomputable section

namespace LayerLaw.Ref

open Cert.ReferenceIdeal Idealize.ShloMosaic Idealize.ShloMosaic.ValueIdx
open Cert.ReferenceIdeal.Facts₀ Cert.ReferenceIdeal.Facts
open LayerLaw

variable [Cert.ReferenceIdeal.Facts]

theorem sg22_apply (k : Fin 22) : sg22 (F := Ideal) (ix1 k) = ((signR k.val : ℝ) : EReal) :=
  (show sg22 (F := Ideal) (ix1 k)
      = Scalar.select (signW k.val) (Ideal.ofBits .f32 0x3F800000#32) (Ideal.ofBits .f32 0xBF800000#32) from rfl).trans
    (select_sign _)

theorem nz_apply (s : (⟨S3200000, .i32⟩ : BufTy).Contents (Elt Ideal)) (e : Fin 3200000) :
    nz (F := Ideal) s (ix2 e (0 : Fin 1)) = nzw (s (ix1 e)) := by
  unfold nz
  exact (BroadcastReads.col_apply (![0] : Fin 1 → Fin 2) rfl bcast_S3200000_S3200000x1_0 _ e 0).trans rfl

theorem gat_apply (z : (⟨S100000x10, .f32⟩ : BufTy).Contents (Elt Ideal)) (i : (⟨S3200000x1, .i32⟩ : BufTy).Contents (Elt Ideal)) (e : Fin 3200000) (c : Fin 10) :
    gat (F := Ideal) z i (ix2 e c)
      = z (ix2 (⟨min (i (ix2 e (0 : Fin 1))).toInt.toNat (100000 - 1), by omega⟩ : Fin 100000) c) := by
  unfold gat
  exact RowGatherScatter.gather_rows_apply (by norm_num)
    gather_S100000x10_S3200000x1_S3200000x10_1_0_n_n_0_1_110_wf z i e c

theorem gatAt_apply (z : (⟨S100000x10, .f32⟩ : BufTy).Contents (Elt Ideal)) (s : (⟨S3200000, .i32⟩ : BufTy).Contents (Elt Ideal)) (e : Fin 3200000) (c : Fin 10) :
    gat (F := Ideal) z (nz s) (ix2 e c) = z (ix2 (rowN (s (ix1 e))) c) := by
  rw [gat_apply]
  simp only [nz_apply, rowN]

theorem cat3_apply_x (GX GY : (⟨S3200000x10, .f32⟩ : BufTy).Contents (Elt Ideal)) (rel : (⟨S3200000x2, .f32⟩ : BufTy).Contents (Elt Ideal)) (e : Fin 3200000) (j : Fin 10) :
    cat3 (F := Ideal) GX GY rel (ix2 e (⟨j.val, by omega⟩ : Fin 22)) = GX (ix2 e j) := by
  unfold cat3
  exact concat3_apply_x concatenates_S3200000x10_S3200000x10_S3200000x2_S3200000x22_d1 GX GY rel e j

theorem cat3_apply_y (GX GY : (⟨S3200000x10, .f32⟩ : BufTy).Contents (Elt Ideal)) (rel : (⟨S3200000x2, .f32⟩ : BufTy).Contents (Elt Ideal)) (e : Fin 3200000) (j : Fin 10) :
    cat3 (F := Ideal) GX GY rel (ix2 e (⟨10 + j.val, by omega⟩ : Fin 22)) = GY (ix2 e j) := by
  unfold cat3
  exact concat3_apply_y concatenates_S3200000x10_S3200000x10_S3200000x2_S3200000x22_d1 GX GY rel e j

theorem cat3_apply_r (GX GY : (⟨S3200000x10, .f32⟩ : BufTy).Contents (Elt Ideal)) (rel : (⟨S3200000x2, .f32⟩ : BufTy).Contents (Elt Ideal)) (e : Fin 3200000) (t : Fin 2) :
    cat3 (F := Ideal) GX GY rel (ix2 e (⟨10 + 10 + t.val, by omega⟩ : Fin 22)) = rel (ix2 e t) := by
  unfold cat3
  exact concat3_apply_r concatenates_S3200000x10_S3200000x10_S3200000x2_S3200000x22_d1 GX GY rel e t

theorem lit22_apply (Cc : (⟨S3200000x22, .f32⟩ : BufTy).Contents (Elt Ideal)) (e : Fin 3200000) (k : Fin 22) :
    lit22 (F := Ideal) Cc (ix2 e k) = ((signR k.val : ℝ) : EReal) * Cc (ix2 e k) := by
  unfold lit22
  rw [← sg22_apply k]
  exact congrArg (· * Cc (ix2 e k)) (rowDown_row_apply (![1] : Fin 1 → Fin 2) rfl bcast_S22_S1x22_1
    (![0, 1] : Fin 2 → Fin 2) rfl rfl bcast_S1x22_S3200000x22_0_1 (sg22 (F := Ideal)) e k)

theorem mrow_apply (L : (⟨S3200000x22, .f32⟩ : BufTy).Contents (Elt Ideal)) (e : Fin 3200000) :
    mrow (F := Ideal) L (ix2 e (0 : Fin 1))
      = max (⊥ : EReal) ((Finset.univ : Finset (Fin 22)).fold max (⊥ : EReal) (fun k => L (ix2 e k))) := by
  unfold mrow
  exact rowMax1_apply reducesTo_S3200000x22_S3200000_d1 h_S_ bcast_S3200000_S3200000x1_0 bcast_S_S3200000 L e

theorem ex22_apply (L : (⟨S3200000x22, .f32⟩ : BufTy).Contents (Elt Ideal)) (M : (⟨S3200000x1, .f32⟩ : BufTy).Contents (Elt Ideal)) (e : Fin 3200000) (k : Fin 22) :
    ex22 (F := Ideal) L M (ix2 e k) = Ideal.exp (L (ix2 e k) - M (ix2 e (0 : Fin 1))) := by
  unfold ex22
  exact congrArg (fun v => Ideal.exp (L (ix2 e k) - v))
    (BroadcastReads.colAcross_apply (![0, 1] : Fin 2 → Fin 2) rfl rfl bcast_S3200000x1_S3200000x22_0_1 M e k)

theorem den_apply (EXP : (⟨S3200000x22, .f32⟩ : BufTy).Contents (Elt Ideal)) (e : Fin 3200000) :
    den (F := Ideal) EXP (ix2 e (0 : Fin 1)) = 0 + ∑ k : Fin 22, EXP (ix2 e k) := by
  unfold den
  exact rowSum1_apply reducesTo_S3200000x22_S3200000_d1 h_S_ bcast_S3200000_S3200000x1_0 EXP e

theorem dlt_apply (EXP : (⟨S3200000x22, .f32⟩ : BufTy).Contents (Elt Ideal)) (D : (⟨S3200000x1, .f32⟩ : BufTy).Contents (Elt Ideal)) (sp : (⟨S_, .f32⟩ : BufTy).Contents (Elt Ideal))
    (e : Fin 3200000) (k : Fin 22) :
    dlt (F := Ideal) EXP D sp (ix2 e k)
      = (sp ix0 * Ideal.div (EXP (ix2 e k)) (D (ix2 e (0 : Fin 1)))) * ((signR k.val : ℝ) : EReal) := by
  unfold dlt
  rw [← sg22_apply k]
  exact congrArg₂ (· * ·)
    (congrArg₂ (· * ·)
      (BroadcastReads.scalar_apply (![] : Fin 0 → Fin 2) bcast_S_S3200000x22 sp (ix2 e k))
      (congrArg (Ideal.div (EXP (ix2 e k)))
        (BroadcastReads.colAcross_apply (![0, 1] : Fin 2 → Fin 2) rfl rfl bcast_S3200000x1_S3200000x22_0_1 D e k)))
    (rowDown_row_apply (![1] : Fin 1 → Fin 2) rfl bcast_S22_S1x22_1
      (![0, 1] : Fin 2 → Fin 2) rfl rfl bcast_S1x22_S3200000x22_0_1 (sg22 (F := Ideal)) e k)

theorem slx_apply (DL : (⟨S3200000x22, .f32⟩ : BufTy).Contents (Elt Ideal)) (e : Fin 3200000) (j : Fin 10) :
    slx (F := Ideal) DL (ix2 e j) = DL (ix2 e (⟨j.val, by omega⟩ : Fin 22)) := by
  unfold slx
  exact slice2_axis1_apply 0 DL slices_S3200000x22_S3200000x10_0_0 e j ⟨j.val, by omega⟩ (Nat.zero_add _).symm

theorem sly_apply (DL : (⟨S3200000x22, .f32⟩ : BufTy).Contents (Elt Ideal)) (e : Fin 3200000) (j : Fin 10) :
    sly (F := Ideal) DL (ix2 e j) = DL (ix2 e (⟨10 + j.val, by omega⟩ : Fin 22)) := by
  unfold sly
  exact slice2_axis1_apply 10 DL slices_S3200000x22_S3200000x10_0_10 e j ⟨10 + j.val, by omega⟩ rfl

/-- The row scatter's shape fact at `3200000` update rows. -/
theorem wfS : ScatterDims.WF ⟨2, ![100000, 10]⟩ ⟨2, ![3200000, 1]⟩ ⟨2, ![3200000, 10]⟩ [1] [0] [0] 1 :=
  scatter_S100000x10_S3200000x1_S3200000x10_1_0_0_1_wf

/-- Each scatter is the row scatter. -/
theorem sc_eq (x0 : (⟨S100000x10, .f32⟩ : BufTy).Contents (Elt Ideal)) (i : (⟨S3200000x1, .i32⟩ : BufTy).Contents (Elt Ideal)) (u : (⟨S3200000x10, .f32⟩ : BufTy).Contents (Elt Ideal)) :
    sc (F := Ideal) x0 i u
      = Host.scatterAdd (F := Ideal) (φ := .f32) (RowGatherScatter.sRows 100000 10 3200000 wfS)
          x0 i u := rfl

end LayerLaw.Ref

end
-- ==== Proof.LayerLawFold.lean ====
/-
  A sum and a fold of `max` over `Fin n`, `n = a + b + c`, split into the three consecutive stretches of lengths
  `a`, `b` and `c`: the sum (the maximum) of a concatenation of three lists is the sum (the maximum) of the three
  lists' sums (maxima).
-/
import Idealize.ShloMosaic.PureOps.Ideal

open scoped BigOperators

namespace LayerLaw

/-- A sum over `Fin n`, `n = a + b + c`, is the sum of the sums over the three stretches. -/
theorem sum_three {M : Type} [AddCommMonoid M] {n : Nat} (a b c : Nat) (hn : n = a + b + c) (f : Fin n → M)
    (fx : Fin a → M) (fy : Fin b → M) (fr : Fin c → M)
    (hx : ∀ j : Fin a, f ⟨j.val, by omega⟩ = fx j)
    (hy : ∀ j : Fin b, f ⟨a + j.val, by omega⟩ = fy j)
    (hr : ∀ j : Fin c, f ⟨a + b + j.val, by omega⟩ = fr j) :
    ∑ k, f k = (∑ j, fx j + ∑ j, fy j) + ∑ j, fr j := by
  subst hn
  rw [Fin.sum_univ_add, Fin.sum_univ_add]
  congr 1
  · congr 1
    · exact Finset.sum_congr rfl fun j _ => hx j
    · exact Finset.sum_congr rfl fun j _ => hy j
  · exact Finset.sum_congr rfl fun j _ => hr j

/-- A fold of `max` over `Fin n`, `n = a + b + c`, from any starting value is the maximum of the folds over the
    three stretches from the same starting value. -/
theorem fold_max_three {α : Type} [LinearOrder α] {n : Nat} (a b c : Nat) (hn : n = a + b + c) (v : α)
    (f : Fin n → α) (fx : Fin a → α) (fy : Fin b → α) (fr : Fin c → α)
    (hx : ∀ j : Fin a, f ⟨j.val, by omega⟩ = fx j)
    (hy : ∀ j : Fin b, f ⟨a + j.val, by omega⟩ = fy j)
    (hr : ∀ j : Fin c, f ⟨a + b + j.val, by omega⟩ = fr j) :
    (Finset.univ : Finset (Fin n)).fold max v f
      = max (max ((Finset.univ : Finset (Fin a)).fold max v fx) ((Finset.univ : Finset (Fin b)).fold max v fy))
          ((Finset.univ : Finset (Fin c)).fold max v fr) := by
  refine eq_of_forall_ge_iff fun t => ?_
  simp only [Finset.fold_max_le, max_le_iff, Finset.mem_univ, forall_true_left]
  constructor
  · rintro ⟨hv, hf⟩
    exact ⟨⟨⟨hv, fun j => hx j ▸ hf _⟩, ⟨hv, fun j => hy j ▸ hf _⟩⟩, ⟨hv, fun j => hr j ▸ hf _⟩⟩
  · rintro ⟨⟨⟨hv, h1⟩, ⟨_, h2⟩⟩, ⟨_, h3⟩⟩
    refine ⟨hv, fun k => ?_⟩
    by_cases hk1 : k.val < a
    · have h := h1 ⟨k.val, hk1⟩
      rw [← hx] at h
      exact h
    · by_cases hk2 : k.val < a + b
      · have h := h2 ⟨k.val - a, by omega⟩
        rw [← hy] at h
        have e : (⟨a + (k.val - a), by omega⟩ : Fin n) = k := Fin.ext (by show a + (k.val - a) = k.val; omega)
        rw [e] at h
        exact h
      · have h := h3 ⟨k.val - (a + b), by omega⟩
        rw [← hr] at h
        have e : (⟨a + b + (k.val - (a + b)), by omega⟩ : Fin n) = k :=
          Fin.ext (by show a + b + (k.val - (a + b)) = k.val; omega)
        rw [e] at h
        exact h

end LayerLaw
-- ==== Proof.LayerLawReal.lean ====
/-
  The boost of one edge over real literals. For reals `a k`: the fold of `max` from `-∞` over them is one of them and
  bounds them all; the sum of `exp (a k - max)` is a real that is at least `1`, hence not zero; for a divisor that is
  not zero `e * (sp / d) = sp * (e / d)`; and each product `(e * (sp / d)) * s` of reals with a real divisor that is
  not zero is a real.
-/
import Idealize.ShloMosaic.PureOps.Ideal

open scoped BigOperators

noncomputable section

namespace LayerLaw

open Idealize.ShloMosaic

/-- The extended real of a finite sum of reals is the sum of the extended reals. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The fold of `max` from `-∞` over finitely many reals, at least one: it is one of them, and bounds them all. -/
theorem fold_max_coe {n : Nat} (hn : 0 < n) (r : Fin n → ℝ) :
    ∃ k0 : Fin n, (Finset.univ : Finset (Fin n)).fold max (⊥ : EReal) (fun k => (r k : EReal)) = (r k0 : EReal)
      ∧ ∀ k, r k ≤ r k0 := by
  obtain ⟨k0, _, hk0⟩ := Finset.exists_max_image Finset.univ r ⟨⟨0, hn⟩, Finset.mem_univ _⟩
  refine ⟨k0, le_antisymm ?_ ?_, fun k => hk0 k (Finset.mem_univ k)⟩
  · rw [Finset.fold_max_le]
    exact ⟨bot_le, fun k _ => EReal.coe_le_coe_iff.2 (hk0 k (Finset.mem_univ k))⟩
  · rw [Finset.le_fold_max]
    exact Or.inr ⟨k0, Finset.mem_univ _, le_rfl⟩

/-- `exp` of a difference of reals is the real `exp` of the difference. -/
theorem exp_coe_sub (a m : ℝ) : Ideal.exp ((a : EReal) - (m : EReal)) = ((Real.exp (a - m) : ℝ) : EReal) := by
  rw [← EReal.coe_sub]
  rfl

/-- The sum of `exp (a k - a k0)` over reals bounded by `a k0` is a real that is at least `1`. -/
theorem denom_coe {n : Nat} (r : Fin n → ℝ) (k0 : Fin n) :
    ∃ d : ℝ, 1 ≤ d ∧ ∑ k, Ideal.exp ((r k : EReal) - (r k0 : EReal)) = (d : EReal) := by
  refine ⟨∑ k, Real.exp (r k - r k0), ?_, ?_⟩
  · calc (1 : ℝ) = Real.exp (r k0 - r k0) := by simp
      _ ≤ ∑ k, Real.exp (r k - r k0) :=
        Finset.single_le_sum (f := fun k => Real.exp (r k - r k0)) (fun k _ => (Real.exp_pos _).le)
          (Finset.mem_univ k0)
  · rw [coe_finset_sum]
    exact Finset.sum_congr rfl fun k _ => exp_coe_sub _ _

/-- A real that is at least `1` is not zero as an extended real. -/
theorem coe_ne_zero_of_one_le {d : ℝ} (hd : 1 ≤ d) : (d : EReal) ≠ 0 := by
  intro h
  have : d = 0 := by exact_mod_cast h
  linarith

/-- By a divisor that is not zero, `e * (sp / d) = sp * (e / d)`. -/
theorem mul_div_left_comm (e sp d : EReal) (hd : d ≠ 0) : e * Ideal.div sp d = sp * Ideal.div e d := by
  unfold Ideal.div
  rw [if_neg hd, if_neg hd, mul_left_comm]

/-- A quotient of reals by a real that is not zero is the real quotient. -/
theorem div_coe_coe (x : ℝ) {d : ℝ} (hd : d ≠ 0) : Ideal.div (x : EReal) (d : EReal) = ((x / d : ℝ) : EReal) := by
  have hd' : (d : EReal) ≠ 0 := fun h => hd (by exact_mod_cast h)
  unfold Ideal.div
  rw [if_neg hd', ← EReal.coe_inv, ← EReal.coe_mul, div_eq_mul_inv]

/-- The boost of one entry, over reals with a real divisor that is not zero, is a real. -/
theorem delta_coe (e sp s : ℝ) {d : ℝ} (hd : d ≠ 0) :
    ((e : EReal) * Ideal.div (sp : EReal) (d : EReal)) * (s : EReal) = ((e * (sp / d) * s : ℝ) : EReal) := by
  rw [div_coe_coe sp hd, ← EReal.coe_mul, ← EReal.coe_mul]

end LayerLaw

end
-- ==== Proof.LayerLawEdge.lean ====
/-
  One edge's 22 real literals `L`, read once as three rows `X` (10), `Y` (10), `R` (2) and once as one row `LR` (22):
  the maximum of the three rows' maxima and the maximum of the one row are the same real `m`, which bounds every
  literal; and the three-piece sum and the one sum of `exp (literal - m)` are the same real `d ≥ 1`.
-/
import proofs.«140184_j29661044146691_2_alg».proof.Proof.LayerLawFold
import proofs.«140184_j29661044146691_2_alg».proof.Proof.LayerLawReal

open scoped BigOperators

noncomputable section

namespace LayerLaw

open Idealize.ShloMosaic

theorem edge_law (L : Fin 22 → ℝ) (X Y : Fin 10 → EReal) (R : Fin 2 → EReal) (LR : Fin 22 → EReal)
    (hX : ∀ j : Fin 10, X j = ((L ⟨j.val, by omega⟩ : ℝ) : EReal))
    (hY : ∀ j : Fin 10, Y j = ((L ⟨10 + j.val, by omega⟩ : ℝ) : EReal))
    (hR : ∀ t : Fin 2, R t = ((L ⟨10 + 10 + t.val, by omega⟩ : ℝ) : EReal))
    (hLR : ∀ k, LR k = ((L k : ℝ) : EReal)) :
    ∃ (m d : ℝ), 1 ≤ d ∧ (∀ k, L k ≤ m) ∧
      max (max ((Finset.univ : Finset (Fin 10)).fold max ⊥ X) ((Finset.univ : Finset (Fin 10)).fold max ⊥ Y))
          ((Finset.univ : Finset (Fin 2)).fold max ⊥ R) = (m : EReal) ∧
      max ⊥ ((Finset.univ : Finset (Fin 22)).fold max ⊥ LR) = (m : EReal) ∧
      (0 + ∑ k, Ideal.exp (LR k - (m : EReal))) = (d : EReal) ∧
      ((0 + ∑ j, Ideal.exp (X j - (m : EReal))) + (0 + ∑ j, Ideal.exp (Y j - (m : EReal))))
          + (0 + ∑ t, Ideal.exp (R t - (m : EReal))) = (d : EReal) := by
  obtain ⟨k0, hk0, hle⟩ := fold_max_coe (by norm_num : 0 < 22) L
  obtain ⟨d, hd1, hd⟩ := denom_coe L k0
  have hLRf : LR = fun k => ((L k : ℝ) : EReal) := funext hLR
  refine ⟨L k0, d, hd1, hle, ?_, ?_, ?_, ?_⟩
  · rw [← fold_max_three 10 10 2 (by norm_num) ⊥ (fun k => ((L k : ℝ) : EReal)) X Y R
      (fun j => (hX j).symm) (fun j => (hY j).symm) (fun t => (hR t).symm)]
    exact hk0
  · rw [hLRf, hk0]
    exact max_eq_right bot_le
  · rw [zero_add, hLRf]
    exact hd
  · rw [zero_add, zero_add, zero_add]
    rw [← sum_three 10 10 2 (by norm_num) (fun k => Ideal.exp (((L k : ℝ) : EReal) - ((L k0 : ℝ) : EReal)))
      (fun j => Ideal.exp (X j - ((L k0 : ℝ) : EReal))) (fun j => Ideal.exp (Y j - ((L k0 : ℝ) : EReal)))
      (fun t => Ideal.exp (R t - ((L k0 : ℝ) : EReal)))
      (fun j => by rw [hX j]) (fun j => by rw [hY j]) (fun t => by rw [hR t])]
    exact hd

end LayerLaw

end
-- ==== Proof.LayerLawScatter.lean ====
/-
  The accumulating row scatter at the extended reals, read at an index: the operand there plus the sum, over the update
  rows whose row number (read signed) is that row, of the update row's entry in that column. Hence one row scatter over
  a concatenation of two index columns and of the two update arrays is the two row scatters one after the other: the sum
  over the `E + E` update rows splits into the sums over the first and the last `E`.
-/
import Idealize.ShloMosaic.Lib.ValueIdx
import proofs.«140184_j29661044146691_2_alg».proof.Proof.LibRowGatherScatter

open scoped BigOperators

noncomputable section

namespace LayerLaw

open Idealize.ShloMosaic Idealize.ShloMosaic.ValueIdx RowGatherScatter

/-- The accumulating row scatter read at `(n, c)`: the operand's entry plus the sum over the update rows `e` whose
    row number, read signed, is `n` of the update's entry `(e, c)`. -/
theorem scatterAdd_rows_apply {N D E w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd (sRows N D E wf) x idx upd (ix2 n c)
      = x (ix2 n c)
        + ∑ e : Fin E, if (idx (ix2 e (0 : Fin 1))).toInt = (n.val : Int) then upd (ix2 e c) else 0 := by
  unfold Ideal.hostScatterAdd
  congr 1
  rw [Finset.sum_filter, sum_idx2]
  refine Finset.sum_congr rfl fun e _ => ?_
  have hcond : ∀ b : Fin D, ((sRows N D E wf).resultIdx? (ix2 e b) idx = some (ix2 n c)) ↔
      ((idx (ix2 e (0 : Fin 1))).toInt = (n.val : Int) ∧ c = b) := by
    intro b
    rw [scatter_rows_hit_iff]
    constructor
    · rintro ⟨h0, h1⟩; exact ⟨h0, Fin.ext h1⟩
    · rintro ⟨h0, h1⟩; exact ⟨h0, congrArg Fin.val h1⟩
  rw [Finset.sum_congr rfl fun b _ => if_congr (hcond b) rfl rfl]
  by_cases hP : (idx (ix2 e (0 : Fin 1))).toInt = (n.val : Int)
  · simp [hP]
  · simp [hP]

/-- One row scatter over `E2 = E + E` update rows whose index column and update array restrict, on the first `E` rows
    and on the last `E` rows, to two index columns and two update arrays, is the row scatter of the first pair followed
    by the row scatter of the second pair. -/
theorem scatterAdd_concat_rows {N D E E2 w : Nat} (hE : E2 = E + E)
    (wf2 : ScatterDims.WF ⟨2, ![N, D]⟩ ⟨2, ![E2, 1]⟩ ⟨2, ![E2, D]⟩ [1] [0] [0] 1)
    (wf : ScatterDims.WF ⟨2, ![N, D]⟩ ⟨2, ![E, 1]⟩ ⟨2, ![E, D]⟩ [1] [0] [0] 1)
    (x : (⟨2, ![N, D]⟩ : Shape).Idx → EReal)
    (ix iy : IVec ⟨2, ![E, 1]⟩ w) (ixy : IVec ⟨2, ![E2, 1]⟩ w)
    (ux uy : (⟨2, ![E, D]⟩ : Shape).Idx → EReal) (uxy : (⟨2, ![E2, D]⟩ : Shape).Idx → EReal)
    (hix : ∀ e : Fin E, ixy (ix2 (⟨e.val, by omega⟩ : Fin E2) (0 : Fin 1)) = ix (ix2 e (0 : Fin 1)))
    (hiy : ∀ e : Fin E, ixy (ix2 (⟨E + e.val, by omega⟩ : Fin E2) (0 : Fin 1)) = iy (ix2 e (0 : Fin 1)))
    (hux : ∀ (e : Fin E) (c : Fin D), uxy (ix2 (⟨e.val, by omega⟩ : Fin E2) c) = ux (ix2 e c))
    (huy : ∀ (e : Fin E) (c : Fin D), uxy (ix2 (⟨E + e.val, by omega⟩ : Fin E2) c) = uy (ix2 e c)) :
    Ideal.hostScatterAdd (sRows N D E2 wf2) x ixy uxy
      = Ideal.hostScatterAdd (sRows N D E wf) (Ideal.hostScatterAdd (sRows N D E wf) x ix ux) iy uy := by
  funext i
  obtain ⟨n, c, rfl⟩ : ∃ (n : Fin N) (c : Fin D), i = ix2 n c := ⟨i 0, i 1, eq_ix2 i⟩
  rw [scatterAdd_rows_apply, scatterAdd_rows_apply, scatterAdd_rows_apply, add_assoc]
  congr 1
  subst hE
  rw [Fin.sum_univ_add]
  congr 1
  · refine Finset.sum_congr rfl fun e _ => ?_
    rw [← hix e, ← hux e c]
    rfl
  · refine Finset.sum_congr rfl fun e _ => ?_
    rw [← hiy e, ← huy e c]
    rfl

/-- The same two facts for the host operation as a printed program names it. -/
theorem Host_scatterAdd_rows_apply {N D E w : Nat}
    (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w)
    (upd : FVec Ideal ⟨2, ![E, D]⟩ .f32) (n : Fin N) (c : Fin D) :
    Host.scatterAdd (F := Ideal) (sRows N D E wf) x idx upd (ix2 n c)
      = x (ix2 n c)
        + ∑ e : Fin E, if (idx (ix2 e (0 : Fin 1))).toInt = (n.val : Int) then upd (ix2 e c) else 0 :=
  scatterAdd_rows_apply wf x idx upd n c

theorem Host_scatterAdd_concat_rows {N D E E2 w : Nat} (hE : E2 = E + E)
    (wf2 : ScatterDims.WF ⟨2, ![N, D]⟩ ⟨2, ![E2, 1]⟩ ⟨2, ![E2, D]⟩ [1] [0] [0] 1)
    (wf : ScatterDims.WF ⟨2, ![N, D]⟩ ⟨2, ![E, 1]⟩ ⟨2, ![E, D]⟩ [1] [0] [0] 1)
    (x : FVec Ideal ⟨2, ![N, D]⟩ .f32)
    (ix iy : IVec ⟨2, ![E, 1]⟩ w) (ixy : IVec ⟨2, ![E2, 1]⟩ w)
    (ux uy : FVec Ideal ⟨2, ![E, D]⟩ .f32) (uxy : FVec Ideal ⟨2, ![E2, D]⟩ .f32)
    (hix : ∀ e : Fin E, ixy (ix2 (⟨e.val, by omega⟩ : Fin E2) (0 : Fin 1)) = ix (ix2 e (0 : Fin 1)))
    (hiy : ∀ e : Fin E, ixy (ix2 (⟨E + e.val, by omega⟩ : Fin E2) (0 : Fin 1)) = iy (ix2 e (0 : Fin 1)))
    (hux : ∀ (e : Fin E) (c : Fin D), uxy (ix2 (⟨e.val, by omega⟩ : Fin E2) c) = ux (ix2 e c))
    (huy : ∀ (e : Fin E) (c : Fin D), uxy (ix2 (⟨E + e.val, by omega⟩ : Fin E2) c) = uy (ix2 e c)) :
    Host.scatterAdd (F := Ideal) (sRows N D E2 wf2) x ixy uxy
      = Host.scatterAdd (F := Ideal) (sRows N D E wf) (Host.scatterAdd (F := Ideal) (sRows N D E wf) x ix ux) iy uy :=
  scatterAdd_concat_rows hE wf2 wf x ix iy ixy ux uy uxy hix hiy hux huy

end LayerLaw

end
-- ==== Proof.LayerLawSoftplus.lean ====
/-
  The softplus of the clause weight, on the extended reals. Both programs compute it by the same eleven scalar
  operations: with `d = w - 0`, the value is `w + 0` where `d ≠ d` (never, on the extended reals) and
  `max w 0 + log (1 + exp (-|d|))` elsewhere. So the two programs' values are the same term, and at a real weight `r`
  the value is the real `max r 0 + log (1 + exp (-max r (-r)))`: `1 + exp _` is positive, so its logarithm is real.
-/
import proofs.«140184_j29661044146691_2_alg».proof.Proof.LayerLawKerDefs
import proofs.«140184_j29661044146691_2_alg».proof.Proof.LayerLawRefDefs
import Idealize.ShloMosaic.Lib.ValueIdx
import Idealize.ShloMosaic.PureOps.Ideal.Laws

set_option synthInstance.maxSize 4096

noncomputable section

open Idealize.ShloMosaic Idealize.ShloMosaic.ValueIdx

namespace LayerLaw

/-- The reference's softplus and the fused program's are the same eleven operations. -/
theorem spl_eq [Cert.KernelIdeal.Facts] [Cert.ReferenceIdeal.Facts] (w : (⟨Cert.KernelIdeal.S_, .f32⟩ : BufTy).Contents (Elt Ideal)) :
    LayerLaw.Ref.spl (F := Ideal) w = LayerLaw.Ker.spl (F := Ideal) w := rfl

/-- The softplus at the one index of the scalar shape, its operations read through. -/
theorem Ker.spl_ix0 [Cert.KernelIdeal.Facts] (w : (⟨Cert.KernelIdeal.S_, .f32⟩ : BufTy).Contents (Elt Ideal)) :
    LayerLaw.Ker.spl (F := Ideal) w ix0
      = Scalar.select (Ideal.cmp .une (w ix0 - Ideal.ofBits .f32 0x00000000#32) (w ix0 - Ideal.ofBits .f32 0x00000000#32))
          (w ix0 + Ideal.ofBits .f32 0x00000000#32)
          (max (w ix0) (Ideal.ofBits .f32 0x00000000#32)
            + Ideal.log1p (Ideal.exp (-(max (w ix0 - Ideal.ofBits .f32 0x00000000#32) (-(w ix0 - Ideal.ofBits .f32 0x00000000#32)))))) := rfl

/-- The extended real of a maximum of two reals is the maximum of the extended reals. -/
theorem coe_max' (a b : ℝ) : ((max a b : ℝ) : EReal) = max (a : EReal) (b : EReal) :=
  EReal.coe_strictMono.monotone.map_max

/-- At a real weight the softplus is a real. -/
theorem Ker.spl_real [Cert.KernelIdeal.Facts] (w : (⟨Cert.KernelIdeal.S_, .f32⟩ : BufTy).Contents (Elt Ideal))
    (hw : ∃ r : ℝ, w ix0 = (r : EReal)) : ∃ s : ℝ, LayerLaw.Ker.spl (F := Ideal) w ix0 = (s : EReal) := by
  obtain ⟨r, hr⟩ := hw
  refine ⟨max r 0 + Real.log (1 + Real.exp (-(max r (-r)))), ?_⟩
  rw [Ker.spl_ix0, hr, Ideal.ofBits_zero_f32]
  have h0 : (0 : EReal) = ((0 : ℝ) : EReal) := rfl
  have e1 : ((r : EReal) - 0) = (r : EReal) := by rw [h0, ← EReal.coe_sub, sub_zero]
  have hc : Ideal.cmp .une (r : EReal) (r : EReal) = 0#1 := by simp [Ideal.cmp]
  rw [e1, hc, select_zero, h0, ← EReal.coe_neg, ← coe_max', ← coe_max', ← EReal.coe_neg, Ideal.exp_coe]
  unfold Ideal.log1p
  rw [show (1 : EReal) = ((1 : ℝ) : EReal) from rfl, ← EReal.coe_add, Ideal.log_coe,
    if_neg (by have := Real.exp_pos (-(max r (-r))); linarith), ← EReal.coe_add]

end LayerLaw
end
-- ==== Proof.LayerLaw.lean ====
/-
  The layer law at the extended reals. For a real-valued node table, real relation features and a real clause weight,
  one relational layer as the fused program computes it (three-piece maximum and sum, exponential times softplus / sum,
  one scatter over the two endpoint blocks one under the other) and as the reference computes it (one maximum and sum
  over the 22 literals, softplus times exponential / sum, two scatters in turn) are the same array, and it is
  real-valued again.
-/
import proofs.«140184_j29661044146691_2_alg».proof.Proof.LayerLawKer
import proofs.«140184_j29661044146691_2_alg».proof.Proof.LayerLawRef
import proofs.«140184_j29661044146691_2_alg».proof.Proof.LayerLawEdge
import proofs.«140184_j29661044146691_2_alg».proof.Proof.LayerLawScatter
import proofs.«140184_j29661044146691_2_alg».proof.Proof.LayerLawSoftplus

set_option synthInstance.maxSize 4096

open scoped BigOperators

noncomputable section

namespace LayerLaw

open Idealize.ShloMosaic Idealize.ShloMosaic.ValueIdx RowGatherScatter

variable [Cert.KernelIdeal.Facts] [Cert.ReferenceIdeal.Facts]

/-- Every entry is a real. -/
abbrev IsReal {S : Shape} (x : S.Idx → EReal) : Prop := ∀ i, ∃ r : ℝ, x i = (r : EReal)

/-- A sum of reals, some of them left out, is a real. -/
theorem sum_ite_coe {ι : Type} [Fintype ι] (p : ι → Prop) [DecidablePred p] (f : ι → EReal)
    (hf : ∀ i, ∃ r : ℝ, f i = (r : EReal)) : ∃ r : ℝ, (∑ i, if p i then f i else 0) = (r : EReal) := by
  choose g hg using hf
  refine ⟨∑ i, if p i then g i else 0, ?_⟩
  rw [coe_finset_sum]
  refine Finset.sum_congr rfl fun i _ => ?_
  by_cases h : p i
  · rw [if_pos h, if_pos h, hg i]
  · rw [if_neg h, if_neg h, EReal.coe_zero]

/-- The reference's 22 signed literals of every edge. -/
def refL (z : (⟨Cert.KernelIdeal.S100000x10, .f32⟩ : BufTy).Contents (Elt Ideal)) (rel : (⟨Cert.KernelIdeal.S3200000x2, .f32⟩ : BufTy).Contents (Elt Ideal))
    (sx sy : (⟨Cert.KernelIdeal.S3200000, .i32⟩ : BufTy).Contents (Elt Ideal)) :
    (⟨Cert.ReferenceIdeal.S3200000x22, .f32⟩ : BufTy).Contents (Elt Ideal) :=
  Ref.lit22 (Ref.cat3 (Ref.gat z (Ref.nz sx)) (Ref.gat z (Ref.nz sy)) rel)

theorem dAll_eq (z : (⟨Cert.KernelIdeal.S100000x10, .f32⟩ : BufTy).Contents (Elt Ideal)) (rel : (⟨Cert.KernelIdeal.S3200000x2, .f32⟩ : BufTy).Contents (Elt Ideal)) (w : (⟨Cert.KernelIdeal.S_, .f32⟩ : BufTy).Contents (Elt Ideal))
    (sx sy : (⟨Cert.KernelIdeal.S3200000, .i32⟩ : BufTy).Contents (Elt Ideal)) :
    Ref.dAll (F := Ideal) z rel w sx sy
      = Ref.dlt (Ref.ex22 (refL z rel sx sy) (Ref.mrow (refL z rel sx sy)))
          (Ref.den (Ref.ex22 (refL z rel sx sy) (Ref.mrow (refL z rel sx sy)))) (Ref.spl w) := rfl

/-- Both programs make the row numbers non-negative the same way. -/
theorem nz_same (s : (⟨Cert.KernelIdeal.S3200000, .i32⟩ : BufTy).Contents (Elt Ideal)) : Ker.nz (F := Ideal) s = Ref.nz (F := Ideal) s := rfl

theorem refL_x (z : (⟨Cert.KernelIdeal.S100000x10, .f32⟩ : BufTy).Contents (Elt Ideal)) (rel : (⟨Cert.KernelIdeal.S3200000x2, .f32⟩ : BufTy).Contents (Elt Ideal))
    (sx sy : (⟨Cert.KernelIdeal.S3200000, .i32⟩ : BufTy).Contents (Elt Ideal))
    (e : Fin 3200000) (j : Fin 10) :
    refL z rel sx sy (ix2 e (⟨j.val, by omega⟩ : Fin 22))
      = ((signR j.val : ℝ) : EReal) * z (ix2 (rowN (sx (ix1 e))) j) := by
  unfold refL
  simp only [Ref.lit22_apply, Ref.cat3_apply_x, Ref.gatAt_apply]

theorem refL_y (z : (⟨Cert.KernelIdeal.S100000x10, .f32⟩ : BufTy).Contents (Elt Ideal)) (rel : (⟨Cert.KernelIdeal.S3200000x2, .f32⟩ : BufTy).Contents (Elt Ideal))
    (sx sy : (⟨Cert.KernelIdeal.S3200000, .i32⟩ : BufTy).Contents (Elt Ideal))
    (e : Fin 3200000) (j : Fin 10) :
    refL z rel sx sy (ix2 e (⟨10 + j.val, by omega⟩ : Fin 22))
      = ((signR j.val : ℝ) : EReal) * z (ix2 (rowN (sy (ix1 e))) j) := by
  unfold refL
  simp only [Ref.lit22_apply, Ref.cat3_apply_y, Ref.gatAt_apply, signR_add_ten]

theorem refL_r (z : (⟨Cert.KernelIdeal.S100000x10, .f32⟩ : BufTy).Contents (Elt Ideal)) (rel : (⟨Cert.KernelIdeal.S3200000x2, .f32⟩ : BufTy).Contents (Elt Ideal))
    (sx sy : (⟨Cert.KernelIdeal.S3200000, .i32⟩ : BufTy).Contents (Elt Ideal))
    (e : Fin 3200000) (t : Fin 2) :
    refL z rel sx sy (ix2 e (⟨10 + 10 + t.val, by omega⟩ : Fin 22))
      = ((signR t.val : ℝ) : EReal) * rel (ix2 e t) := by
  unfold refL
  simp only [Ref.lit22_apply, Ref.cat3_apply_r, signR_add_twenty]

theorem refL_real (z : (⟨Cert.KernelIdeal.S100000x10, .f32⟩ : BufTy).Contents (Elt Ideal)) (rel : (⟨Cert.KernelIdeal.S3200000x2, .f32⟩ : BufTy).Contents (Elt Ideal))
    (sx sy : (⟨Cert.KernelIdeal.S3200000, .i32⟩ : BufTy).Contents (Elt Ideal))
    (hz : IsReal z) (hrel : IsReal rel) (e : Fin 3200000) (k : Fin 22) :
    ∃ r : ℝ, refL z rel sx sy (ix2 e k) = (r : EReal) := by
  rcases fin22_cases k with ⟨j, rfl⟩ | ⟨j, rfl⟩ | ⟨t, rfl⟩
  · obtain ⟨r, hr⟩ := hz (ix2 (rowN (sx (ix1 e))) j)
    exact ⟨signR j.val * r, by rw [refL_x, hr, EReal.coe_mul]⟩
  · obtain ⟨r, hr⟩ := hz (ix2 (rowN (sy (ix1 e))) j)
    exact ⟨signR j.val * r, by rw [refL_y, hr, EReal.coe_mul]⟩
  · obtain ⟨r, hr⟩ := hrel (ix2 e t)
    exact ⟨signR t.val * r, by rw [refL_r, hr, EReal.coe_mul]⟩

theorem kerX_eq (z : (⟨Cert.KernelIdeal.S100000x10, .f32⟩ : BufTy).Contents (Elt Ideal)) (rel : (⟨Cert.KernelIdeal.S3200000x2, .f32⟩ : BufTy).Contents (Elt Ideal))
    (sx sy : (⟨Cert.KernelIdeal.S3200000, .i32⟩ : BufTy).Contents (Elt Ideal))
    (e : Fin 3200000) (j : Fin 10) :
    Ker.litAt (F := Ideal) z sx (ix2 e j) = refL z rel sx sy (ix2 e (⟨j.val, by omega⟩ : Fin 22)) := by
  rw [Ker.litAt_apply, refL_x, mul_comm]

theorem kerY_eq (z : (⟨Cert.KernelIdeal.S100000x10, .f32⟩ : BufTy).Contents (Elt Ideal)) (rel : (⟨Cert.KernelIdeal.S3200000x2, .f32⟩ : BufTy).Contents (Elt Ideal))
    (sx sy : (⟨Cert.KernelIdeal.S3200000, .i32⟩ : BufTy).Contents (Elt Ideal))
    (e : Fin 3200000) (j : Fin 10) :
    Ker.litAt (F := Ideal) z sy (ix2 e j) = refL z rel sx sy (ix2 e (⟨10 + j.val, by omega⟩ : Fin 22)) := by
  rw [Ker.litAt_apply, refL_y, mul_comm]

theorem kerR_eq (z : (⟨Cert.KernelIdeal.S100000x10, .f32⟩ : BufTy).Contents (Elt Ideal)) (rel : (⟨Cert.KernelIdeal.S3200000x2, .f32⟩ : BufTy).Contents (Elt Ideal))
    (sx sy : (⟨Cert.KernelIdeal.S3200000, .i32⟩ : BufTy).Contents (Elt Ideal))
    (e : Fin 3200000) (t : Fin 2) :
    Ker.lit2 (F := Ideal) rel (ix2 e t) = refL z rel sx sy (ix2 e (⟨10 + 10 + t.val, by omega⟩ : Fin 22)) := by
  rw [Ker.lit2_apply, Ker.sg2_apply, refL_r, mul_comm]

/-- One edge: the two programs' maxima are one real `m`, their sums one real `d ≥ 1`. -/
theorem edge_pack (z : (⟨Cert.KernelIdeal.S100000x10, .f32⟩ : BufTy).Contents (Elt Ideal)) (rel : (⟨Cert.KernelIdeal.S3200000x2, .f32⟩ : BufTy).Contents (Elt Ideal))
    (sx sy : (⟨Cert.KernelIdeal.S3200000, .i32⟩ : BufTy).Contents (Elt Ideal))
    (hz : IsReal z) (hrel : IsReal rel) (e : Fin 3200000) :
    ∃ m d : ℝ, 1 ≤ d
      ∧ Ker.mOf (F := Ideal) z rel sx sy (ix2 e (0 : Fin 1)) = (m : EReal)
      ∧ Ref.mrow (F := Ideal) (refL z rel sx sy) (ix2 e (0 : Fin 1)) = (m : EReal)
      ∧ Ker.den (F := Ideal) (Ker.ex10 (Ker.litAt z sx) (Ker.mOf z rel sx sy))
          (Ker.ex10 (Ker.litAt z sy) (Ker.mOf z rel sx sy)) (Ker.ex2 (Ker.lit2 rel) (Ker.mOf z rel sx sy))
          (ix2 e (0 : Fin 1)) = (d : EReal)
      ∧ Ref.den (F := Ideal) (Ref.ex22 (refL z rel sx sy) (Ref.mrow (refL z rel sx sy))) (ix2 e (0 : Fin 1))
          = (d : EReal) := by
  choose Lr hLr using refL_real z rel sx sy hz hrel e
  obtain ⟨m, d, hd1, _, hMK, hMR, hdR, hdK⟩ := edge_law Lr
    (fun j => Ker.litAt (F := Ideal) z sx (ix2 e j)) (fun j => Ker.litAt (F := Ideal) z sy (ix2 e j))
    (fun t => Ker.lit2 (F := Ideal) rel (ix2 e t)) (fun k => refL z rel sx sy (ix2 e k))
    (fun j => (kerX_eq z rel sx sy e j).trans (hLr _)) (fun j => (kerY_eq z rel sx sy e j).trans (hLr _))
    (fun t => (kerR_eq z rel sx sy e t).trans (hLr _)) hLr
  have hMK' : Ker.mOf (F := Ideal) z rel sx sy (ix2 e (0 : Fin 1)) = (m : EReal) := by
    unfold Ker.mOf
    rw [Ker.mrow_apply]
    exact hMK
  have hMR' : Ref.mrow (F := Ideal) (refL z rel sx sy) (ix2 e (0 : Fin 1)) = (m : EReal) := by
    rw [Ref.mrow_apply]
    exact hMR
  refine ⟨m, d, hd1, hMK', hMR', ?_, ?_⟩
  · rw [Ker.den_apply]
    simp only [Ker.ex10_apply, Ker.ex2_apply, hMK']
    exact hdK
  · rw [Ref.den_apply]
    simp only [Ref.ex22_apply, hMR']
    exact hdR

/-- The boosts at the first endpoints are the same in both programs. -/
theorem dX_eq (z : (⟨Cert.KernelIdeal.S100000x10, .f32⟩ : BufTy).Contents (Elt Ideal)) (rel : (⟨Cert.KernelIdeal.S3200000x2, .f32⟩ : BufTy).Contents (Elt Ideal)) (w : (⟨Cert.KernelIdeal.S_, .f32⟩ : BufTy).Contents (Elt Ideal))
    (sx sy : (⟨Cert.KernelIdeal.S3200000, .i32⟩ : BufTy).Contents (Elt Ideal))
    (hz : IsReal z) (hrel : IsReal rel) :
    Ker.dAt (F := Ideal) z rel w sx sy sx = Ref.slx (Ref.dAll z rel w sx sy) := by
  funext i
  obtain ⟨e, c, rfl⟩ : ∃ (e : Fin 3200000) (c : Fin 10), i = ix2 e c := ⟨i 0, i 1, eq_ix2 i⟩
  obtain ⟨m, d, hd1, hMK, hMR, hdK, hdR⟩ := edge_pack z rel sx sy hz hrel e
  rw [Ref.slx_apply, dAll_eq]
  unfold Ker.dAt Ker.qOf
  rw [Ker.dlt_apply, Ker.ex10_apply, Ker.quo_apply, Ref.dlt_apply, Ref.ex22_apply, hMK, hMR, hdK, hdR,
    kerX_eq z rel sx sy, spl_eq, mul_div_left_comm _ _ _ (coe_ne_zero_of_one_le hd1)]

/-- The boosts at the second endpoints are the same in both programs. -/
theorem dY_eq (z : (⟨Cert.KernelIdeal.S100000x10, .f32⟩ : BufTy).Contents (Elt Ideal)) (rel : (⟨Cert.KernelIdeal.S3200000x2, .f32⟩ : BufTy).Contents (Elt Ideal)) (w : (⟨Cert.KernelIdeal.S_, .f32⟩ : BufTy).Contents (Elt Ideal))
    (sx sy : (⟨Cert.KernelIdeal.S3200000, .i32⟩ : BufTy).Contents (Elt Ideal))
    (hz : IsReal z) (hrel : IsReal rel) :
    Ker.dAt (F := Ideal) z rel w sx sy sy = Ref.sly (Ref.dAll z rel w sx sy) := by
  funext i
  obtain ⟨e, c, rfl⟩ : ∃ (e : Fin 3200000) (c : Fin 10), i = ix2 e c := ⟨i 0, i 1, eq_ix2 i⟩
  obtain ⟨m, d, hd1, hMK, hMR, hdK, hdR⟩ := edge_pack z rel sx sy hz hrel e
  rw [Ref.sly_apply, dAll_eq]
  unfold Ker.dAt Ker.qOf
  rw [Ker.dlt_apply, Ker.ex10_apply, Ker.quo_apply, Ref.dlt_apply, Ref.ex22_apply, hMK, hMR, hdK, hdR,
    kerY_eq z rel sx sy, spl_eq, mul_div_left_comm _ _ _ (coe_ne_zero_of_one_le hd1)]
  simp only [signR_add_ten]

/-- Every boost of the reference is a real. -/
theorem dAll_real (z : (⟨Cert.KernelIdeal.S100000x10, .f32⟩ : BufTy).Contents (Elt Ideal)) (rel : (⟨Cert.KernelIdeal.S3200000x2, .f32⟩ : BufTy).Contents (Elt Ideal)) (w : (⟨Cert.KernelIdeal.S_, .f32⟩ : BufTy).Contents (Elt Ideal))
    (sx sy : (⟨Cert.KernelIdeal.S3200000, .i32⟩ : BufTy).Contents (Elt Ideal))
    (hz : IsReal z) (hrel : IsReal rel) (hw : IsReal w) (e : Fin 3200000) (k : Fin 22) :
    ∃ r : ℝ, Ref.dAll (F := Ideal) z rel w sx sy (ix2 e k) = (r : EReal) := by
  obtain ⟨m, d, hd1, _, hMR, _, hdR⟩ := edge_pack z rel sx sy hz hrel e
  obtain ⟨s, hs⟩ := Ker.spl_real w (hw ix0)
  obtain ⟨l, hl⟩ := refL_real z rel sx sy hz hrel e k
  refine ⟨s * (Real.exp (l - m) / d) * signR k.val, ?_⟩
  rw [dAll_eq, Ref.dlt_apply, Ref.ex22_apply, hMR, hdR, spl_eq, hs, hl, exp_coe_sub,
    div_coe_coe _ (by linarith : d ≠ 0), ← EReal.coe_mul, ← EReal.coe_mul]

/-- The fused program's one scatter is the two scatters in turn. -/
theorem ker_two (z : (⟨Cert.KernelIdeal.S100000x10, .f32⟩ : BufTy).Contents (Elt Ideal)) (rel : (⟨Cert.KernelIdeal.S3200000x2, .f32⟩ : BufTy).Contents (Elt Ideal)) (w : (⟨Cert.KernelIdeal.S_, .f32⟩ : BufTy).Contents (Elt Ideal))
    (sx sy : (⟨Cert.KernelIdeal.S3200000, .i32⟩ : BufTy).Contents (Elt Ideal)) :
    Cert.KernelIdeal.Stage.layer (F := Ideal) z rel w sx sy (Cert.KernelIdeal.Stage.idx2 sx sy)
      = Host.scatterAdd (F := Ideal) (φ := .f32) (sRows 100000 10 3200000 Ref.wfS)
          (Host.scatterAdd (F := Ideal) (φ := .f32) (sRows 100000 10 3200000 Ref.wfS) z (Ker.nz sx)
            (Ker.dAt z rel w sx sy sx))
          (Ker.nz sy) (Ker.dAt z rel w sx sy sy) := by
  rw [Ker.layer_eq, Ker.fin_eq]
  exact Host_scatterAdd_concat_rows (E := 3200000) (E2 := 6400000) (by norm_num) _ Ref.wfS z (Ker.nz sx) (Ker.nz sy)
    _ _ _ _
    (fun e => by rw [Ker.nz2_apply, Ker.nz_apply, Ker.idx2_left])
    (fun e => by rw [Ker.nz2_apply, Ker.nz_apply, Ker.idx2_right])
    (fun e c => concat2_rows_left (E := 3200000) (E2 := 6400000) (by norm_num) _ _ _ e c)
    (fun e c => concat2_rows_right (E := 3200000) (E2 := 6400000) (by norm_num) _ _ _ e c)

/-- The reference's layer as its two row scatters. -/
theorem ref_two (z : (⟨Cert.KernelIdeal.S100000x10, .f32⟩ : BufTy).Contents (Elt Ideal)) (rel : (⟨Cert.KernelIdeal.S3200000x2, .f32⟩ : BufTy).Contents (Elt Ideal)) (w : (⟨Cert.KernelIdeal.S_, .f32⟩ : BufTy).Contents (Elt Ideal))
    (sx sy : (⟨Cert.KernelIdeal.S3200000, .i32⟩ : BufTy).Contents (Elt Ideal)) :
    Cert.ReferenceIdeal.Stage.layer (F := Ideal) z rel w sx sy
      = Host.scatterAdd (F := Ideal) (φ := .f32) (sRows 100000 10 3200000 Ref.wfS)
          (Host.scatterAdd (F := Ideal) (φ := .f32) (sRows 100000 10 3200000 Ref.wfS) z (Ref.nz sx)
            (Ref.slx (Ref.dAll z rel w sx sy)))
          (Ref.nz sy) (Ref.sly (Ref.dAll z rel w sx sy)) := by
  rw [Ref.layer_eq, Ref.sc_eq, Ref.sc_eq]

/-- **The layer law.** -/
theorem layer_law (z : (⟨Cert.KernelIdeal.S100000x10, .f32⟩ : BufTy).Contents (Elt Ideal)) (rel : (⟨Cert.KernelIdeal.S3200000x2, .f32⟩ : BufTy).Contents (Elt Ideal)) (w : (⟨Cert.KernelIdeal.S_, .f32⟩ : BufTy).Contents (Elt Ideal))
    (sx sy : (⟨Cert.KernelIdeal.S3200000, .i32⟩ : BufTy).Contents (Elt Ideal))
    (hz : IsReal z) (hrel : IsReal rel) (hw : IsReal w) :
    Cert.KernelIdeal.Stage.layer z rel w sx sy (Cert.KernelIdeal.Stage.idx2 sx sy)
        = Cert.ReferenceIdeal.Stage.layer z rel w sx sy
      ∧ IsReal (Cert.ReferenceIdeal.Stage.layer z rel w sx sy) := by
  constructor
  · rw [ker_two, ref_two, dX_eq z rel w sx sy hz hrel, dY_eq z rel w sx sy hz hrel, nz_same sx, nz_same sy]
  · rw [ref_two]
    intro i
    obtain ⟨n, c, rfl⟩ : ∃ (n : Fin 100000) (c : Fin 10), i = ix2 n c := ⟨i 0, i 1, eq_ix2 i⟩
    rw [Host_scatterAdd_rows_apply, Host_scatterAdd_rows_apply]
    obtain ⟨r0, h0⟩ := hz (ix2 n c)
    obtain ⟨r1, h1⟩ := sum_ite_coe (fun e : Fin 3200000 => (Ref.nz (F := Ideal) sx (ix2 e (0 : Fin 1))).toInt = (n.val : Int))
      (fun e => Ref.slx (Ref.dAll (F := Ideal) z rel w sx sy) (ix2 e c))
      (fun e => by rw [Ref.slx_apply]; exact dAll_real z rel w sx sy hz hrel hw e _)
    obtain ⟨r2, h2⟩ := sum_ite_coe (fun e : Fin 3200000 => (Ref.nz (F := Ideal) sy (ix2 e (0 : Fin 1))).toInt = (n.val : Int))
      (fun e => Ref.sly (Ref.dAll (F := Ideal) z rel w sx sy) (ix2 e c))
      (fun e => by rw [Ref.sly_apply]; exact dAll_real z rel w sx sy hz hrel hw e _)
    exact ⟨r0 + r1 + r2, by rw [h0, h1, h2, EReal.coe_add, EReal.coe_add]⟩

end LayerLaw

end
-- ==== Proof.RefStageTable.lean ====
import proofs.«140184_j29661044146691_2_alg».proof.Proof.RefOps

/-! The reference program's operations once more, stage by stage: each relational layer as the seven parts its value is read
    off by, and for every stage and part the list of the buffers its operations write. -/

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The buffers operations 0 … 51 write, one each, in order. -/
abbrev wMlp : List (Ref sig .tc) :=
  [ main_v0, main_v1, main_v2, main_v3, main_call0.cst.ref, main_call0.v0.ref, main_call0.v1.ref, main_v5,
    main_v6, main_v7, main_v8, main_v9, main_v10, main_v11, main_v12, main_v13,
    main_cst, main_v14, main_v15, main_v16, main_v17, main_v18, main_v19, main_v20,
    main_v21, main_v22, main_v23, main_v24, main_v25, main_v26, main_v27, main_v28,
    main_v29, main_v30, main_v31, main_v32, main_v33, main_v34, main_v35, main_v36,
    main_v37, main_v38, main_v39, main_cst_0, main_v40, main_v41, main_cst_1, main_v42,
    main_v43, main_v44, main_v45, main_v46 ]

/-- Operations 52 … 53 (%47 … %48): layer 1, the clause weight. -/
abbrev l1_w : List (HloOp τ sig (Elt F)) :=
  [ StableHlo.unary main_arg6 main_v47 ((extractStridedSlice S1 ![0] · slices_S3_S1_0) : (⟨S3, .f32⟩ : BufTy).Contents (Elt F) → (⟨S1, .f32⟩ : BufTy).Contents (Elt F)),   -- 52: %47
    StableHlo.reshape main_v47 main_v48 rfl shapeCasts_S1_S_ ]   -- 53: %48

/-- The buffers operations 52 … 53 write, one each, in order. -/
abbrev w1_w : List (Ref sig .tc) :=
  [ main_v47, main_v48 ]

/-- Operations 54 … 85 (%49 … %54): layer 1, the sign vector. -/
abbrev l1_sgn : List (HloOp τ sig (Elt F)) :=
  [ StableHlo.nullary main_v49 (iotaInDim S22 32 0),   -- 54: %49
    StableHlo.nullary main_c (constantI S_ 32 2#32),   -- 55: %c
    StableHlo.TRef.unary (.of main_c : StableHlo.TRef sig ⟨S_, .i32⟩) main_call1.v0 id,   -- 56: %50 = @remainder's %0
    StableHlo.TRef.nullary main_call1.c (constantI S_ 32 0#32),   -- 57: %50 = @remainder's %c
    StableHlo.TRef.binary main_call1.v0 main_call1.c main_call1.v1 (cmpi .eq),   -- 58: %50 = @remainder's %1
    StableHlo.TRef.nullary main_call1.c_0 (constantI S_ 32 1#32),   -- 59: %50 = @remainder's %c_0
    StableHlo.TRef.ternary main_call1.v1 main_call1.c_0 main_call1.v0 main_call1.call0.v0 select,   -- 60: %50 = @remainder's %2 = @_where's %0
    StableHlo.TRef.unary main_call1.call0.v0 main_call1.v3 (broadcastInDim S22 ![] bcast_S_S22),   -- 61: %50 = @remainder's %3
    StableHlo.TRef.binary (.of main_v49 : StableHlo.TRef sig ⟨S22, .i32⟩) main_call1.v3 main_call1.v4 Host.remsi,   -- 62: %50 = @remainder's %4
    StableHlo.TRef.nullary main_call1.c_1 (constantI S_ 32 0#32),   -- 63: %50 = @remainder's %c_1
    StableHlo.TRef.unary main_call1.c_1 main_call1.v5 (broadcastInDim S22 ![] bcast_S_S22),   -- 64: %50 = @remainder's %5
    StableHlo.TRef.binary main_call1.v4 main_call1.v5 main_call1.v6 (cmpi .ne),   -- 65: %50 = @remainder's %6
    StableHlo.TRef.nullary main_call1.c_2 (constantI S_ 32 0#32),   -- 66: %50 = @remainder's %c_2
    StableHlo.TRef.unary main_call1.c_2 main_call1.v7 (broadcastInDim S22 ![] bcast_S_S22),   -- 67: %50 = @remainder's %7
    StableHlo.TRef.binary main_call1.v4 main_call1.v7 main_call1.v8 (cmpi .slt),   -- 68: %50 = @remainder's %8
    StableHlo.TRef.nullary main_call1.c_3 (constantI S_ 32 0#32),   -- 69: %50 = @remainder's %c_3
    StableHlo.TRef.binary main_call1.call0.v0 main_call1.c_3 main_call1.v9 (cmpi .slt),   -- 70: %50 = @remainder's %9
    StableHlo.TRef.unary main_call1.v9 main_call1.v10 (broadcastInDim S22 ![] bcast_S_S22),   -- 71: %50 = @remainder's %10
    StableHlo.TRef.binary main_call1.v8 main_call1.v10 main_call1.v11 (cmpi .ne),   -- 72: %50 = @remainder's %11
    StableHlo.TRef.binary main_call1.v11 main_call1.v6 main_call1.v12 andi,   -- 73: %50 = @remainder's %12
    StableHlo.TRef.unary main_call1.call0.v0 main_call1.v13 (broadcastInDim S22 ![] bcast_S_S22),   -- 74: %50 = @remainder's %13
    StableHlo.TRef.binary main_call1.v4 main_call1.v13 main_call1.v14 addi,   -- 75: %50 = @remainder's %14
    StableHlo.TRef.ternary main_call1.v12 main_call1.v14 main_call1.v4 main_call1.v15 select,   -- 76: %50 = @remainder's %15
    StableHlo.nullary main_c_2 (constantI S_ 32 0#32),   -- 77: %c_2
    StableHlo.unary main_c_2 main_v51 (broadcastInDim S22 ![] bcast_S_S22 : (⟨S_, .i32⟩ : BufTy).Contents (Elt F) → (⟨S22, .i32⟩ : BufTy).Contents (Elt F)),   -- 78: %51
    StableHlo.binary main_v50 main_v51 main_v52 (cmpi .eq : (⟨S22, .i32⟩ : BufTy).Contents (Elt F) → (⟨S22, .i32⟩ : BufTy).Contents (Elt F) → (⟨S22, .i1⟩ : BufTy).Contents (Elt F)),   -- 79: %52
    StableHlo.nullary main_cst_3 (constant S_ .f32 0x3F800000#32),   -- 80: %cst_3
    StableHlo.nullary main_cst_4 (constant S_ .f32 0xBF800000#32),   -- 81: %cst_4
    StableHlo.TRef.unary (.of main_cst_3 : StableHlo.TRef sig ⟨S_, .f32⟩) main_call2.v0 (broadcastInDim S22 ![] bcast_S_S22),   -- 82: %53 = @_where_0's %0
    StableHlo.TRef.unary (.of main_cst_4 : StableHlo.TRef sig ⟨S_, .f32⟩) main_call2.v1 (broadcastInDim S22 ![] bcast_S_S22),   -- 83: %53 = @_where_0's %1
    StableHlo.TRef.ternary (.of main_v52 : StableHlo.TRef sig ⟨S22, .i1⟩) main_call2.v0 main_call2.v1 main_call2.v2 select,   -- 84: %53 = @_where_0's %2
    StableHlo.unary main_v53 main_v54 (id : (⟨S22, .f32⟩ : BufTy).Contents (Elt F) → (⟨S22, .f32⟩ : BufTy).Contents (Elt F)) ]   -- 85: %54

/-- The buffers operations 54 … 85 write, one each, in order. -/
abbrev w1_sgn : List (Ref sig .tc) :=
  [ main_v49, main_c, main_call1.v0.ref, main_call1.c.ref, main_call1.v1.ref, main_call1.c_0.ref, main_call1.call0.v0.ref, main_call1.v3.ref,
    main_call1.v4.ref, main_call1.c_1.ref, main_call1.v5.ref, main_call1.v6.ref, main_call1.c_2.ref, main_call1.v7.ref, main_call1.v8.ref, main_call1.c_3.ref,
    main_call1.v9.ref, main_call1.v10.ref, main_call1.v11.ref, main_call1.v12.ref, main_call1.v13.ref, main_call1.v14.ref, main_call1.v15.ref, main_c_2,
    main_v51, main_v52, main_cst_3, main_cst_4, main_call2.v0.ref, main_call2.v1.ref, main_call2.v2.ref, main_v54 ]

/-- Operations 86 … 104 (%c_5 … %69): layer 1, the two row gathers and the 22 literals. -/
abbrev l1_lits : List (HloOp τ sig (Elt F)) :=
  [ StableHlo.nullary main_c_5 (constantI S_ 32 0#32),   -- 86: %c_5
    StableHlo.unary main_c_5 main_v55 (broadcastInDim S3200000 ![] bcast_S_S3200000 : (⟨S_, .i32⟩ : BufTy).Contents (Elt F) → (⟨S3200000, .i32⟩ : BufTy).Contents (Elt F)),   -- 87: %55
    StableHlo.binary main_arg7 main_v55 main_v56 (cmpi .slt : (⟨S3200000, .i32⟩ : BufTy).Contents (Elt F) → (⟨S3200000, .i32⟩ : BufTy).Contents (Elt F) → (⟨S3200000, .i1⟩ : BufTy).Contents (Elt F)),   -- 88: %56
    StableHlo.nullary main_c_6 (constantI S_ 32 100000#32),   -- 89: %c_6
    StableHlo.unary main_c_6 main_v57 (broadcastInDim S3200000 ![] bcast_S_S3200000 : (⟨S_, .i32⟩ : BufTy).Contents (Elt F) → (⟨S3200000, .i32⟩ : BufTy).Contents (Elt F)),   -- 90: %57
    StableHlo.binary main_arg7 main_v57 main_v58 (addi : (⟨S3200000, .i32⟩ : BufTy).Contents (Elt F) → (⟨S3200000, .i32⟩ : BufTy).Contents (Elt F) → (⟨S3200000, .i32⟩ : BufTy).Contents (Elt F)),   -- 91: %58
    StableHlo.ternary main_v56 main_v58 main_arg7 main_v59 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 92: %59
    StableHlo.unary main_v59 main_v60 (broadcastInDim S3200000x1 ![0] bcast_S3200000_S3200000x1_0 : (⟨S3200000, .i32⟩ : BufTy).Contents (Elt F) → (⟨S3200000x1, .i32⟩ : BufTy).Contents (Elt F)),   -- 93: %60
    StableHlo.binary main_v46 main_v60 main_v61 ((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)),   -- 94: %61
    StableHlo.nullary main_c_7 (constantI S_ 32 0#32),   -- 95: %c_7
    StableHlo.unary main_c_7 main_v62 (broadcastInDim S3200000 ![] bcast_S_S3200000 : (⟨S_, .i32⟩ : BufTy).Contents (Elt F) → (⟨S3200000, .i32⟩ : BufTy).Contents (Elt F)),   -- 96: %62
    StableHlo.binary main_arg8 main_v62 main_v63 (cmpi .slt : (⟨S3200000, .i32⟩ : BufTy).Contents (Elt F) → (⟨S3200000, .i32⟩ : BufTy).Contents (Elt F) → (⟨S3200000, .i1⟩ : BufTy).Contents (Elt F)),   -- 97: %63
    StableHlo.nullary main_c_8 (constantI S_ 32 100000#32),   -- 98: %c_8
    StableHlo.unary main_c_8 main_v64 (broadcastInDim S3200000 ![] bcast_S_S3200000 : (⟨S_, .i32⟩ : BufTy).Contents (Elt F) → (⟨S3200000, .i32⟩ : BufTy).Contents (Elt F)),   -- 99: %64
    StableHlo.binary main_arg8 main_v64 main_v65 (addi : (⟨S3200000, .i32⟩ : BufTy).Contents (Elt F) → (⟨S3200000, .i32⟩ : BufTy).Contents (Elt F) → (⟨S3200000, .i32⟩ : BufTy).Contents (Elt F)),   -- 100: %65
    StableHlo.ternary main_v63 main_v65 main_arg8 main_v66 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 101: %66
    StableHlo.unary main_v66 main_v67 (broadcastInDim S3200000x1 ![0] bcast_S3200000_S3200000x1_0 : (⟨S3200000, .i32⟩ : BufTy).Contents (Elt F) → (⟨S3200000x1, .i32⟩ : BufTy).Contents (Elt F)),   -- 102: %67
    StableHlo.binary main_v46 main_v67 main_v68 ((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)),   -- 103: %68
    StableHlo.nary ![main_v61, main_v68, main_arg1] main_v69 (fun u => concatenate S3200000x22 1 [⟨S3200000x10, u 0⟩, ⟨S3200000x10, u 1⟩, ⟨S3200000x2, u 2⟩] concatenates_S3200000x10_S3200000x10_S3200000x2_S3200000x22_d1) ]   -- 104: %69

/-- The buffers operations 86 … 104 write, one each, in order. -/
abbrev w1_lits : List (Ref sig .tc) :=
  [ main_c_5, main_v55, main_v56, main_c_6, main_v57, main_v58, main_v59, main_v60,
    main_v61, main_c_7, main_v62, main_v63, main_c_8, main_v64, main_v65, main_v66,
    main_v67, main_v68, main_v69 ]

/-- Operations 105 … 115 (%70 = @softplus's %cst … %70 = @softplus's %9): layer 1, the softplus of the clause weight. -/
abbrev l1_splus : List (HloOp τ sig (Elt F)) :=
  [ StableHlo.TRef.nullary main_call3.cst (constant S_ .f32 0x00000000#32),   -- 105: %70 = @softplus's %cst
    StableHlo.TRef.binary (.of main_v48 : StableHlo.TRef sig ⟨S_, .f32⟩) main_call3.cst main_call3.v0 maximumf,   -- 106: %70 = @softplus's %0
    StableHlo.TRef.binary (.of main_v48 : StableHlo.TRef sig ⟨S_, .f32⟩) main_call3.cst main_call3.v1 subf,   -- 107: %70 = @softplus's %1
    StableHlo.TRef.binary main_call3.v1 main_call3.v1 main_call3.v2 (cmpf .une),   -- 108: %70 = @softplus's %2
    StableHlo.TRef.binary (.of main_v48 : StableHlo.TRef sig ⟨S_, .f32⟩) main_call3.cst main_call3.v3 addf,   -- 109: %70 = @softplus's %3
    StableHlo.TRef.unary main_call3.v1 main_call3.v4 Host.absf,   -- 110: %70 = @softplus's %4
    StableHlo.TRef.unary main_call3.v4 main_call3.v5 Host.negf,   -- 111: %70 = @softplus's %5
    StableHlo.TRef.unary main_call3.v5 main_call3.v6 Host.exp,   -- 112: %70 = @softplus's %6
    StableHlo.TRef.unary main_call3.v6 main_call3.v7 Host.log1p,   -- 113: %70 = @softplus's %7
    StableHlo.TRef.binary main_call3.v0 main_call3.v7 main_call3.v8 addf,   -- 114: %70 = @softplus's %8
    StableHlo.TRef.ternary main_call3.v2 main_call3.v3 main_call3.v8 main_call3.v9 select ]   -- 115: %70 = @softplus's %9

/-- The buffers operations 105 … 115 write, one each, in order. -/
abbrev w1_splus : List (Ref sig .tc) :=
  [ main_call3.cst.ref, main_call3.v0.ref, main_call3.v1.ref, main_call3.v2.ref, main_call3.v3.ref, main_call3.v4.ref, main_call3.v5.ref, main_call3.v6.ref,
    main_call3.v7.ref, main_call3.v8.ref, main_call3.v9.ref ]

/-- Operations 116 … 137 (%71 … %89): layer 1, the signed softmax of the signed literals, scaled. -/
abbrev l1_deltas : List (HloOp τ sig (Elt F)) :=
  [ StableHlo.unary main_v54 main_v71 (broadcastInDim S1x22 ![1] bcast_S22_S1x22_1 : (⟨S22, .f32⟩ : BufTy).Contents (Elt F) → (⟨S1x22, .f32⟩ : BufTy).Contents (Elt F)),   -- 116: %71
    StableHlo.unary main_v71 main_v72 (broadcastInDim S3200000x22 ![0, 1] bcast_S1x22_S3200000x22_0_1 : (⟨S1x22, .f32⟩ : BufTy).Contents (Elt F) → (⟨S3200000x22, .f32⟩ : BufTy).Contents (Elt F)),   -- 117: %72
    StableHlo.binary main_v72 main_v69 main_v73 (mulf : (⟨S3200000x22, .f32⟩ : BufTy).Contents (Elt F) → (⟨S3200000x22, .f32⟩ : BufTy).Contents (Elt F) → (⟨S3200000x22, .f32⟩ : BufTy).Contents (Elt F)),   -- 118: %73
    StableHlo.nullary main_cst_9 (constant S_ .f32 0xFF800000#32),   -- 119: %cst_9
    StableHlo.binary main_v73 main_cst_9 main_v74 ((fun x v => Host.reduce FloatOps.maximumf x v reducesTo_S3200000x22_S3200000_d1 h_S_) : (⟨S3200000x22, .f32⟩ : BufTy).Contents (Elt F) → (⟨S_, .f32⟩ : BufTy).Contents (Elt F) → (⟨S3200000, .f32⟩ : BufTy).Contents (Elt F)),   -- 120: %74
    StableHlo.nullary main_cst_10 (constant S_ .f32 0xFF800000#32),   -- 121: %cst_10
    StableHlo.unary main_cst_10 main_v75 (broadcastInDim S3200000 ![] bcast_S_S3200000 : (⟨S_, .f32⟩ : BufTy).Contents (Elt F) → (⟨S3200000, .f32⟩ : BufTy).Contents (Elt F)),   -- 122: %75
    StableHlo.binary main_v75 main_v74 main_v76 (maximumf : (⟨S3200000, .f32⟩ : BufTy).Contents (Elt F) → (⟨S3200000, .f32⟩ : BufTy).Contents (Elt F) → (⟨S3200000, .f32⟩ : BufTy).Contents (Elt F)),   -- 123: %76
    StableHlo.unary main_v76 main_v77 (broadcastInDim S3200000x1 ![0] bcast_S3200000_S3200000x1_0 : (⟨S3200000, .f32⟩ : BufTy).Contents (Elt F) → (⟨S3200000x1, .f32⟩ : BufTy).Contents (Elt F)),   -- 124: %77
    StableHlo.unary main_v77 main_v78 (broadcastInDim S3200000x22 ![0, 1] bcast_S3200000x1_S3200000x22_0_1 : (⟨S3200000x1, .f32⟩ : BufTy).Contents (Elt F) → (⟨S3200000x22, .f32⟩ : BufTy).Contents (Elt F)),   -- 125: %78
    StableHlo.binary main_v73 main_v78 main_v79 (subf : (⟨S3200000x22, .f32⟩ : BufTy).Contents (Elt F) → (⟨S3200000x22, .f32⟩ : BufTy).Contents (Elt F) → (⟨S3200000x22, .f32⟩ : BufTy).Contents (Elt F)),   -- 126: %79
    StableHlo.unary main_v79 main_v80 (Host.exp : (⟨S3200000x22, .f32⟩ : BufTy).Contents (Elt F) → (⟨S3200000x22, .f32⟩ : BufTy).Contents (Elt F)),   -- 127: %80
    StableHlo.nullary main_cst_11 (constant S_ .f32 0x00000000#32),   -- 128: %cst_11
    StableHlo.binary main_v80 main_cst_11 main_v81 ((fun x v => Host.reduceAdd x v reducesTo_S3200000x22_S3200000_d1 h_S_) : (⟨S3200000x22, .f32⟩ : BufTy).Contents (Elt F) → (⟨S_, .f32⟩ : BufTy).Contents (Elt F) → (⟨S3200000, .f32⟩ : BufTy).Contents (Elt F)),   -- 129: %81
    StableHlo.unary main_v81 main_v82 (broadcastInDim S3200000x1 ![0] bcast_S3200000_S3200000x1_0 : (⟨S3200000, .f32⟩ : BufTy).Contents (Elt F) → (⟨S3200000x1, .f32⟩ : BufTy).Contents (Elt F)),   -- 130: %82
    StableHlo.unary main_v82 main_v83 (broadcastInDim S3200000x22 ![0, 1] bcast_S3200000x1_S3200000x22_0_1 : (⟨S3200000x1, .f32⟩ : BufTy).Contents (Elt F) → (⟨S3200000x22, .f32⟩ : BufTy).Contents (Elt F)),   -- 131: %83
    StableHlo.binary main_v80 main_v83 main_v84 (Host.divf : (⟨S3200000x22, .f32⟩ : BufTy).Contents (Elt F) → (⟨S3200000x22, .f32⟩ : BufTy).Contents (Elt F) → (⟨S3200000x22, .f32⟩ : BufTy).Contents (Elt F)),   -- 132: %84
    StableHlo.unary main_v70 main_v85 (broadcastInDim S3200000x22 ![] bcast_S_S3200000x22 : (⟨S_, .f32⟩ : BufTy).Contents (Elt F) → (⟨S3200000x22, .f32⟩ : BufTy).Contents (Elt F)),   -- 133: %85
    StableHlo.binary main_v85 main_v84 main_v86 (mulf : (⟨S3200000x22, .f32⟩ : BufTy).Contents (Elt F) → (⟨S3200000x22, .f32⟩ : BufTy).Contents (Elt F) → (⟨S3200000x22, .f32⟩ : BufTy).Contents (Elt F)),   -- 134: %86
    StableHlo.unary main_v54 main_v87 (broadcastInDim S1x22 ![1] bcast_S22_S1x22_1 : (⟨S22, .f32⟩ : BufTy).Contents (Elt F) → (⟨S1x22, .f32⟩ : BufTy).Contents (Elt F)),   -- 135: %87
    StableHlo.unary main_v87 main_v88 (broadcastInDim S3200000x22 ![0, 1] bcast_S1x22_S3200000x22_0_1 : (⟨S1x22, .f32⟩ : BufTy).Contents (Elt F) → (⟨S3200000x22, .f32⟩ : BufTy).Contents (Elt F)),   -- 136: %88
    StableHlo.binary main_v86 main_v88 main_v89 (mulf : (⟨S3200000x22, .f32⟩ : BufTy).Contents (Elt F) → (⟨S3200000x22, .f32⟩ : BufTy).Contents (Elt F) → (⟨S3200000x22, .f32⟩ : BufTy).Contents (Elt F)) ]   -- 137: %89

/-- The buffers operations 116 … 137 write, one each, in order. -/
abbrev w1_deltas : List (Ref sig .tc) :=
  [ main_v71, main_v72, main_v73, main_cst_9, main_v74, main_cst_10, main_v75, main_v76,
    main_v77, main_v78, main_v79, main_v80, main_cst_11, main_v81, main_v82, main_v83,
    main_v84, main_v85, main_v86, main_v87, main_v88, main_v89 ]

/-- Operations 138 … 147 (%90 … %97): layer 1, the first scatter-add. -/
abbrev l1_scat1 : List (HloOp τ sig (Elt F)) :=
  [ StableHlo.unary main_v89 main_v90 ((extractStridedSlice S3200000x10 ![0, 0] · slices_S3200000x22_S3200000x10_0_0) : (⟨S3200000x22, .f32⟩ : BufTy).Contents (Elt F) → (⟨S3200000x10, .f32⟩ : BufTy).Contents (Elt F)),   -- 138: %90
    StableHlo.nullary main_c_12 (constantI S_ 32 0#32),   -- 139: %c_12
    StableHlo.unary main_c_12 main_v91 (broadcastInDim S3200000 ![] bcast_S_S3200000 : (⟨S_, .i32⟩ : BufTy).Contents (Elt F) → (⟨S3200000, .i32⟩ : BufTy).Contents (Elt F)),   -- 140: %91
    StableHlo.binary main_arg7 main_v91 main_v92 (cmpi .slt : (⟨S3200000, .i32⟩ : BufTy).Contents (Elt F) → (⟨S3200000, .i32⟩ : BufTy).Contents (Elt F) → (⟨S3200000, .i1⟩ : BufTy).Contents (Elt F)),   -- 141: %92
    StableHlo.nullary main_c_13 (constantI S_ 32 100000#32),   -- 142: %c_13
    StableHlo.unary main_c_13 main_v93 (broadcastInDim S3200000 ![] bcast_S_S3200000 : (⟨S_, .i32⟩ : BufTy).Contents (Elt F) → (⟨S3200000, .i32⟩ : BufTy).Contents (Elt F)),   -- 143: %93
    StableHlo.binary main_arg7 main_v93 main_v94 (addi : (⟨S3200000, .i32⟩ : BufTy).Contents (Elt F) → (⟨S3200000, .i32⟩ : BufTy).Contents (Elt F) → (⟨S3200000, .i32⟩ : BufTy).Contents (Elt F)),   -- 144: %94
    StableHlo.ternary main_v92 main_v94 main_arg7 main_v95 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 145: %95
    StableHlo.unary main_v95 main_v96 (broadcastInDim S3200000x1 ![0] bcast_S3200000_S3200000x1_0 : (⟨S3200000, .i32⟩ : BufTy).Contents (Elt F) → (⟨S3200000x1, .i32⟩ : BufTy).Contents (Elt F)),   -- 146: %96
    StableHlo.ternary main_v46 main_v96 main_v90 main_v97 ((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)) ]   -- 147: %97

/-- The buffers operations 138 … 147 write, one each, in order. -/
abbrev w1_scat1 : List (Ref sig .tc) :=
  [ main_v90, main_c_12, main_v91, main_v92, main_c_13, main_v93, main_v94, main_v95,
    main_v96, main_v97 ]

/-- Operations 148 … 157 (%98 … %105): layer 1, the second scatter-add. -/
abbrev l1_scat2 : List (HloOp τ sig (Elt F)) :=
  [ StableHlo.unary main_v89 main_v98 ((extractStridedSlice S3200000x10 ![0, 10] · slices_S3200000x22_S3200000x10_0_10) : (⟨S3200000x22, .f32⟩ : BufTy).Contents (Elt F) → (⟨S3200000x10, .f32⟩ : BufTy).Contents (Elt F)),   -- 148: %98
    StableHlo.nullary main_c_14 (constantI S_ 32 0#32),   -- 149: %c_14
    StableHlo.unary main_c_14 main_v99 (broadcastInDim S3200000 ![] bcast_S_S3200000 : (⟨S_, .i32⟩ : BufTy).Contents (Elt F) → (⟨S3200000, .i32⟩ : BufTy).Contents (Elt F)),   -- 150: %99
    StableHlo.binary main_arg8 main_v99 main_v100 (cmpi .slt : (⟨S3200000, .i32⟩ : BufTy).Contents (Elt F) → (⟨S3200000, .i32⟩ : BufTy).Contents (Elt F) → (⟨S3200000, .i1⟩ : BufTy).Contents (Elt F)),   -- 151: %100
    StableHlo.nullary main_c_15 (constantI S_ 32 100000#32),   -- 152: %c_15
    StableHlo.unary main_c_15 main_v101 (broadcastInDim S3200000 ![] bcast_S_S3200000 : (⟨S_, .i32⟩ : BufTy).Contents (Elt F) → (⟨S3200000, .i32⟩ : BufTy).Contents (Elt F)),   -- 153: %101
    StableHlo.binary main_arg8 main_v101 main_v102 (addi : (⟨S3200000, .i32⟩ : BufTy).Contents (Elt F) → (⟨S3200000, .i32⟩ : BufTy).Contents (Elt F) → (⟨S3200000, .i32⟩ : BufTy).Contents (Elt F)),   -- 154: %102
    StableHlo.ternary main_v100 main_v102 main_arg8 main_v103 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 155: %103
    StableHlo.unary main_v103 main_v104 (broadcastInDim S3200000x1 ![0] bcast_S3200000_S3200000x1_0 : (⟨S3200000, .i32⟩ : BufTy).Contents (Elt F) → (⟨S3200000x1, .i32⟩ : BufTy).Contents (Elt F)),   -- 156: %104
    StableHlo.ternary main_v97 main_v104 main_v98 main_v105 ((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)) ]   -- 157: %105

/-- The buffers operations 148 … 157 write, one each, in order. -/
abbrev w1_scat2 : List (Ref sig .tc) :=
  [ main_v98, main_c_14, main_v99, main_v100, main_c_15, main_v101, main_v102, main_v103,
    main_v104, main_v105 ]

/-- Operations 158 … 159 (%106 … %107): layer 2, the clause weight. -/
abbrev l2_w : List (HloOp τ sig (Elt F)) :=
  [ StableHlo.unary main_arg6 main_v106 ((extractStridedSlice S1 ![1] · slices_S3_S1_1) : (⟨S3, .f32⟩ : BufTy).Contents (Elt F) → (⟨S1, .f32⟩ : BufTy).Contents (Elt F)),   -- 158: %106
    StableHlo.reshape main_v106 main_v107 rfl shapeCasts_S1_S_ ]   -- 159: %107

/-- The buffers operations 158 … 159 write, one each, in order. -/
abbrev w2_w : List (Ref sig .tc) :=
  [ main_v106, main_v107 ]

/-- Operations 160 … 191 (%108 … %113): layer 2, the sign vector. -/
abbrev l2_sgn : List (HloOp τ sig (Elt F)) :=
  [ StableHlo.nullary main_v108 (iotaInDim S22 32 0),   -- 160: %108
    StableHlo.nullary main_c_16 (constantI S_ 32 2#32),   -- 161: %c_16
    StableHlo.TRef.unary (.of main_c_16 : StableHlo.TRef sig ⟨S_, .i32⟩) main_call4.v0 id,   -- 162: %109 = @remainder's %0
    StableHlo.TRef.nullary main_call4.c (constantI S_ 32 0#32),   -- 163: %109 = @remainder's %c
    StableHlo.TRef.binary main_call4.v0 main_call4.c main_call4.v1 (cmpi .eq),   -- 164: %109 = @remainder's %1
    StableHlo.TRef.nullary main_call4.c_0 (constantI S_ 32 1#32),   -- 165: %109 = @remainder's %c_0
    StableHlo.TRef.ternary main_call4.v1 main_call4.c_0 main_call4.v0 main_call4.call0.v0 select,   -- 166: %109 = @remainder's %2 = @_where's %0
    StableHlo.TRef.unary main_call4.call0.v0 main_call4.v3 (broadcastInDim S22 ![] bcast_S_S22),   -- 167: %109 = @remainder's %3
    StableHlo.TRef.binary (.of main_v108 : StableHlo.TRef sig ⟨S22, .i32⟩) main_call4.v3 main_call4.v4 Host.remsi,   -- 168: %109 = @remainder's %4
    StableHlo.TRef.nullary main_call4.c_1 (constantI S_ 32 0#32),   -- 169: %109 = @remainder's %c_1
    StableHlo.TRef.unary main_call4.c_1 main_call4.v5 (broadcastInDim S22 ![] bcast_S_S22),   -- 170: %109 = @remainder's %5
    StableHlo.TRef.binary main_call4.v4 main_call4.v5 main_call4.v6 (cmpi .ne),   -- 171: %109 = @remainder's %6
    StableHlo.TRef.nullary main_call4.c_2 (constantI S_ 32 0#32),   -- 172: %109 = @remainder's %c_2
    StableHlo.TRef.unary main_call4.c_2 main_call4.v7 (broadcastInDim S22 ![] bcast_S_S22),   -- 173: %109 = @remainder's %7
    StableHlo.TRef.binary main_call4.v4 main_call4.v7 main_call4.v8 (cmpi .slt),   -- 174: %109 = @remainder's %8
    StableHlo.TRef.nullary main_call4.c_3 (constantI S_ 32 0#32),   -- 175: %109 = @remainder's %c_3
    StableHlo.TRef.binary main_call4.call0.v0 main_call4.c_3 main_call4.v9 (cmpi .slt),   -- 176: %109 = @remainder's %9
    StableHlo.TRef.unary main_call4.v9 main_call4.v10 (broadcastInDim S22 ![] bcast_S_S22),   -- 177: %109 = @remainder's %10
    StableHlo.TRef.binary main_call4.v8 main_call4.v10 main_call4.v11 (cmpi .ne),   -- 178: %109 = @remainder's %11
    StableHlo.TRef.binary main_call4.v11 main_call4.v6 main_call4.v12 andi,   -- 179: %109 = @remainder's %12
    StableHlo.TRef.unary main_call4.call0.v0 main_call4.v13 (broadcastInDim S22 ![] bcast_S_S22),   -- 180: %109 = @remainder's %13
    StableHlo.TRef.binary main_call4.v4 main_call4.v13 main_call4.v14 addi,   -- 181: %109 = @remainder's %14
    StableHlo.TRef.ternary main_call4.v12 main_call4.v14 main_call4.v4 main_call4.v15 select,   -- 182: %109 = @remainder's %15
    StableHlo.nullary main_c_17 (constantI S_ 32 0#32),   -- 183: %c_17
    StableHlo.unary main_c_17 main_v110 (broadcastInDim S22 ![] bcast_S_S22 : (⟨S_, .i32⟩ : BufTy).Contents (Elt F) → (⟨S22, .i32⟩ : BufTy).Contents (Elt F)),   -- 184: %110
    StableHlo.binary main_v109 main_v110 main_v111 (cmpi .eq : (⟨S22, .i32⟩ : BufTy).Contents (Elt F) → (⟨S22, .i32⟩ : BufTy).Contents (Elt F) → (⟨S22, .i1⟩ : BufTy).Contents (Elt F)),   -- 185: %111
    StableHlo.nullary main_cst_18 (constant S_ .f32 0x3F800000#32),   -- 186: %cst_18
    StableHlo.nullary main_cst_19 (constant S_ .f32 0xBF800000#32),   -- 187: %cst_19
    StableHlo.TRef.unary (.of main_cst_18 : StableHlo.TRef sig ⟨S_, .f32⟩) main_call5.v0 (broadcastInDim S22 ![] bcast_S_S22),   -- 188: %112 = @_where_0's %0
    StableHlo.TRef.unary (.of main_cst_19 : StableHlo.TRef sig ⟨S_, .f32⟩) main_call5.v1 (broadcastInDim S22 ![] bcast_S_S22),   -- 189: %112 = @_where_0's %1
    StableHlo.TRef.ternary (.of main_v111 : StableHlo.TRef sig ⟨S22, .i1⟩) main_call5.v0 main_call5.v1 main_call5.v2 select,   -- 190: %112 = @_where_0's %2
    StableHlo.unary main_v112 main_v113 (id : (⟨S22, .f32⟩ : BufTy).Contents (Elt F) → (⟨S22, .f32⟩ : BufTy).Contents (Elt F)) ]   -- 191: %113

/-- The buffers operations 160 … 191 write, one each, in order. -/
abbrev w2_sgn : List (Ref sig .tc) :=
  [ main_v108, main_c_16, main_call4.v0.ref, main_call4.c.ref, main_call4.v1.ref, main_call4.c_0.ref, main_call4.call0.v0.ref, main_call4.v3.ref,
    main_call4.v4.ref, main_call4.c_1.ref, main_call4.v5.ref, main_call4.v6.ref, main_call4.c_2.ref, main_call4.v7.ref, main_call4.v8.ref, main_call4.c_3.ref,
    main_call4.v9.ref, main_call4.v10.ref, main_call4.v11.ref, main_call4.v12.ref, main_call4.v13.ref, main_call4.v14.ref, main_call4.v15.ref, main_c_17,
    main_v110, main_v111, main_cst_18, main_cst_19, main_call5.v0.ref, main_call5.v1.ref, main_call5.v2.ref, main_v113 ]

/-- Operations 192 … 210 (%c_20 … %128): layer 2, the two row gathers and the 22 literals. -/
abbrev l2_lits : List (HloOp τ sig (Elt F)) :=
  [ StableHlo.nullary main_c_20 (constantI S_ 32 0#32),   -- 192: %c_20
    StableHlo.unary main_c_20 main_v114 (broadcastInDim S3200000 ![] bcast_S_S3200000 : (⟨S_, .i32⟩ : BufTy).Contents (Elt F) → (⟨S3200000, .i32⟩ : BufTy).Contents (Elt F)),   -- 193: %114
    StableHlo.binary main_arg7 main_v114 main_v115 (cmpi .slt : (⟨S3200000, .i32⟩ : BufTy).Contents (Elt F) → (⟨S3200000, .i32⟩ : BufTy).Contents (Elt F) → (⟨S3200000, .i1⟩ : BufTy).Contents (Elt F)),   -- 194: %115
    StableHlo.nullary main_c_21 (constantI S_ 32 100000#32),   -- 195: %c_21
    StableHlo.unary main_c_21 main_v116 (broadcastInDim S3200000 ![] bcast_S_S3200000 : (⟨S_, .i32⟩ : BufTy).Contents (Elt F) → (⟨S3200000, .i32⟩ : BufTy).Contents (Elt F)),   -- 196: %116
    StableHlo.binary main_arg7 main_v116 main_v117 (addi : (⟨S3200000, .i32⟩ : BufTy).Contents (Elt F) → (⟨S3200000, .i32⟩ : BufTy).Contents (Elt F) → (⟨S3200000, .i32⟩ : BufTy).Contents (Elt F)),   -- 197: %117
    StableHlo.ternary main_v115 main_v117 main_arg7 main_v118 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 198: %118
    StableHlo.unary main_v118 main_v119 (broadcastInDim S3200000x1 ![0] bcast_S3200000_S3200000x1_0 : (⟨S3200000, .i32⟩ : BufTy).Contents (Elt F) → (⟨S3200000x1, .i32⟩ : BufTy).Contents (Elt F)),   -- 199: %119
    StableHlo.binary main_v105 main_v119 main_v120 ((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)),   -- 200: %120
    StableHlo.nullary main_c_22 (constantI S_ 32 0#32),   -- 201: %c_22
    StableHlo.unary main_c_22 main_v121 (broadcastInDim S3200000 ![] bcast_S_S3200000 : (⟨S_, .i32⟩ : BufTy).Contents (Elt F) → (⟨S3200000, .i32⟩ : BufTy).Contents (Elt F)),   -- 202: %121
    StableHlo.binary main_arg8 main_v121 main_v122 (cmpi .slt : (⟨S3200000, .i32⟩ : BufTy).Contents (Elt F) → (⟨S3200000, .i32⟩ : BufTy).Contents (Elt F) → (⟨S3200000, .i1⟩ : BufTy).Contents (Elt F)),   -- 203: %122
    StableHlo.nullary main_c_23 (constantI S_ 32 100000#32),   -- 204: %c_23
    StableHlo.unary main_c_23 main_v123 (broadcastInDim S3200000 ![] bcast_S_S3200000 : (⟨S_, .i32⟩ : BufTy).Contents (Elt F) → (⟨S3200000, .i32⟩ : BufTy).Contents (Elt F)),   -- 205: %123
    StableHlo.binary main_arg8 main_v123 main_v124 (addi : (⟨S3200000, .i32⟩ : BufTy).Contents (Elt F) → (⟨S3200000, .i32⟩ : BufTy).Contents (Elt F) → (⟨S3200000, .i32⟩ : BufTy).Contents (Elt F)),   -- 206: %124
    StableHlo.ternary main_v122 main_v124 main_arg8 main_v125 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 207: %125
    StableHlo.unary main_v125 main_v126 (broadcastInDim S3200000x1 ![0] bcast_S3200000_S3200000x1_0 : (⟨S3200000, .i32⟩ : BufTy).Contents (Elt F) → (⟨S3200000x1, .i32⟩ : BufTy).Contents (Elt F)),   -- 208: %126
    StableHlo.binary main_v105 main_v126 main_v127 ((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)),   -- 209: %127
    StableHlo.nary ![main_v120, main_v127, main_arg1] main_v128 (fun u => concatenate S3200000x22 1 [⟨S3200000x10, u 0⟩, ⟨S3200000x10, u 1⟩, ⟨S3200000x2, u 2⟩] concatenates_S3200000x10_S3200000x10_S3200000x2_S3200000x22_d1) ]   -- 210: %128

/-- The buffers operations 192 … 210 write, one each, in order. -/
abbrev w2_lits : List (Ref sig .tc) :=
  [ main_c_20, main_v114, main_v115, main_c_21, main_v116, main_v117, main_v118, main_v119,
    main_v120, main_c_22, main_v121, main_v122, main_c_23, main_v123, main_v124, main_v125,
    main_v126, main_v127, main_v128 ]

/-- Operations 211 … 221 (%129 = @softplus's %cst … %129 = @softplus's %9): layer 2, the softplus of the clause weight. -/
abbrev l2_splus : List (HloOp τ sig (Elt F)) :=
  [ StableHlo.TRef.nullary main_call6.cst (constant S_ .f32 0x00000000#32),   -- 211: %129 = @softplus's %cst
    StableHlo.TRef.binary (.of main_v107 : StableHlo.TRef sig ⟨S_, .f32⟩) main_call6.cst main_call6.v0 maximumf,   -- 212: %129 = @softplus's %0
    StableHlo.TRef.binary (.of main_v107 : StableHlo.TRef sig ⟨S_, .f32⟩) main_call6.cst main_call6.v1 subf,   -- 213: %129 = @softplus's %1
    StableHlo.TRef.binary main_call6.v1 main_call6.v1 main_call6.v2 (cmpf .une),   -- 214: %129 = @softplus's %2
    StableHlo.TRef.binary (.of main_v107 : StableHlo.TRef sig ⟨S_, .f32⟩) main_call6.cst main_call6.v3 addf,   -- 215: %129 = @softplus's %3
    StableHlo.TRef.unary main_call6.v1 main_call6.v4 Host.absf,   -- 216: %129 = @softplus's %4
    StableHlo.TRef.unary main_call6.v4 main_call6.v5 Host.negf,   -- 217: %129 = @softplus's %5
    StableHlo.TRef.unary main_call6.v5 main_call6.v6 Host.exp,   -- 218: %129 = @softplus's %6
    StableHlo.TRef.unary main_call6.v6 main_call6.v7 Host.log1p,   -- 219: %129 = @softplus's %7
    StableHlo.TRef.binary main_call6.v0 main_call6.v7 main_call6.v8 addf,   -- 220: %129 = @softplus's %8
    StableHlo.TRef.ternary main_call6.v2 main_call6.v3 main_call6.v8 main_call6.v9 select ]   -- 221: %129 = @softplus's %9

/-- The buffers operations 211 … 221 write, one each, in order. -/
abbrev w2_splus : List (Ref sig .tc) :=
  [ main_call6.cst.ref, main_call6.v0.ref, main_call6.v1.ref, main_call6.v2.ref, main_call6.v3.ref, main_call6.v4.ref, main_call6.v5.ref, main_call6.v6.ref,
    main_call6.v7.ref, main_call6.v8.ref, main_call6.v9.ref ]

/-- Operations 222 … 243 (%130 … %148): layer 2, the signed softmax of the signed literals, scaled. -/
abbrev l2_deltas : List (HloOp τ sig (Elt F)) :=
  [ StableHlo.unary main_v113 main_v130 (broadcastInDim S1x22 ![1] bcast_S22_S1x22_1 : (⟨S22, .f32⟩ : BufTy).Contents (Elt F) → (⟨S1x22, .f32⟩ : BufTy).Contents (Elt F)),   -- 222: %130
    StableHlo.unary main_v130 main_v131 (broadcastInDim S3200000x22 ![0, 1] bcast_S1x22_S3200000x22_0_1 : (⟨S1x22, .f32⟩ : BufTy).Contents (Elt F) → (⟨S3200000x22, .f32⟩ : BufTy).Contents (Elt F)),   -- 223: %131
    StableHlo.binary main_v131 main_v128 main_v132 (mulf : (⟨S3200000x22, .f32⟩ : BufTy).Contents (Elt F) → (⟨S3200000x22, .f32⟩ : BufTy).Contents (Elt F) → (⟨S3200000x22, .f32⟩ : BufTy).Contents (Elt F)),   -- 224: %132
    StableHlo.nullary main_cst_24 (constant S_ .f32 0xFF800000#32),   -- 225: %cst_24
    StableHlo.binary main_v132 main_cst_24 main_v133 ((fun x v => Host.reduce FloatOps.maximumf x v reducesTo_S3200000x22_S3200000_d1 h_S_) : (⟨S3200000x22, .f32⟩ : BufTy).Contents (Elt F) → (⟨S_, .f32⟩ : BufTy).Contents (Elt F) → (⟨S3200000, .f32⟩ : BufTy).Contents (Elt F)),   -- 226: %133
    StableHlo.nullary main_cst_25 (constant S_ .f32 0xFF800000#32),   -- 227: %cst_25
    StableHlo.unary main_cst_25 main_v134 (broadcastInDim S3200000 ![] bcast_S_S3200000 : (⟨S_, .f32⟩ : BufTy).Contents (Elt F) → (⟨S3200000, .f32⟩ : BufTy).Contents (Elt F)),   -- 228: %134
    StableHlo.binary main_v134 main_v133 main_v135 (maximumf : (⟨S3200000, .f32⟩ : BufTy).Contents (Elt F) → (⟨S3200000, .f32⟩ : BufTy).Contents (Elt F) → (⟨S3200000, .f32⟩ : BufTy).Contents (Elt F)),   -- 229: %135
    StableHlo.unary main_v135 main_v136 (broadcastInDim S3200000x1 ![0] bcast_S3200000_S3200000x1_0 : (⟨S3200000, .f32⟩ : BufTy).Contents (Elt F) → (⟨S3200000x1, .f32⟩ : BufTy).Contents (Elt F)),   -- 230: %136
    StableHlo.unary main_v136 main_v137 (broadcastInDim S3200000x22 ![0, 1] bcast_S3200000x1_S3200000x22_0_1 : (⟨S3200000x1, .f32⟩ : BufTy).Contents (Elt F) → (⟨S3200000x22, .f32⟩ : BufTy).Contents (Elt F)),   -- 231: %137
    StableHlo.binary main_v132 main_v137 main_v138 (subf : (⟨S3200000x22, .f32⟩ : BufTy).Contents (Elt F) → (⟨S3200000x22, .f32⟩ : BufTy).Contents (Elt F) → (⟨S3200000x22, .f32⟩ : BufTy).Contents (Elt F)),   -- 232: %138
    StableHlo.unary main_v138 main_v139 (Host.exp : (⟨S3200000x22, .f32⟩ : BufTy).Contents (Elt F) → (⟨S3200000x22, .f32⟩ : BufTy).Contents (Elt F)),   -- 233: %139
    StableHlo.nullary main_cst_26 (constant S_ .f32 0x00000000#32),   -- 234: %cst_26
    StableHlo.binary main_v139 main_cst_26 main_v140 ((fun x v => Host.reduceAdd x v reducesTo_S3200000x22_S3200000_d1 h_S_) : (⟨S3200000x22, .f32⟩ : BufTy).Contents (Elt F) → (⟨S_, .f32⟩ : BufTy).Contents (Elt F) → (⟨S3200000, .f32⟩ : BufTy).Contents (Elt F)),   -- 235: %140
    StableHlo.unary main_v140 main_v141 (broadcastInDim S3200000x1 ![0] bcast_S3200000_S3200000x1_0 : (⟨S3200000, .f32⟩ : BufTy).Contents (Elt F) → (⟨S3200000x1, .f32⟩ : BufTy).Contents (Elt F)),   -- 236: %141
    StableHlo.unary main_v141 main_v142 (broadcastInDim S3200000x22 ![0, 1] bcast_S3200000x1_S3200000x22_0_1 : (⟨S3200000x1, .f32⟩ : BufTy).Contents (Elt F) → (⟨S3200000x22, .f32⟩ : BufTy).Contents (Elt F)),   -- 237: %142
    StableHlo.binary main_v139 main_v142 main_v143 (Host.divf : (⟨S3200000x22, .f32⟩ : BufTy).Contents (Elt F) → (⟨S3200000x22, .f32⟩ : BufTy).Contents (Elt F) → (⟨S3200000x22, .f32⟩ : BufTy).Contents (Elt F)),   -- 238: %143
    StableHlo.unary main_v129 main_v144 (broadcastInDim S3200000x22 ![] bcast_S_S3200000x22 : (⟨S_, .f32⟩ : BufTy).Contents (Elt F) → (⟨S3200000x22, .f32⟩ : BufTy).Contents (Elt F)),   -- 239: %144
    StableHlo.binary main_v144 main_v143 main_v145 (mulf : (⟨S3200000x22, .f32⟩ : BufTy).Contents (Elt F) → (⟨S3200000x22, .f32⟩ : BufTy).Contents (Elt F) → (⟨S3200000x22, .f32⟩ : BufTy).Contents (Elt F)),   -- 240: %145
    StableHlo.unary main_v113 main_v146 (broadcastInDim S1x22 ![1] bcast_S22_S1x22_1 : (⟨S22, .f32⟩ : BufTy).Contents (Elt F) → (⟨S1x22, .f32⟩ : BufTy).Contents (Elt F)),   -- 241: %146
    StableHlo.unary main_v146 main_v147 (broadcastInDim S3200000x22 ![0, 1] bcast_S1x22_S3200000x22_0_1 : (⟨S1x22, .f32⟩ : BufTy).Contents (Elt F) → (⟨S3200000x22, .f32⟩ : BufTy).Contents (Elt F)),   -- 242: %147
    StableHlo.binary main_v145 main_v147 main_v148 (mulf : (⟨S3200000x22, .f32⟩ : BufTy).Contents (Elt F) → (⟨S3200000x22, .f32⟩ : BufTy).Contents (Elt F) → (⟨S3200000x22, .f32⟩ : BufTy).Contents (Elt F)) ]   -- 243: %148

/-- The buffers operations 222 … 243 write, one each, in order. -/
abbrev w2_deltas : List (Ref sig .tc) :=
  [ main_v130, main_v131, main_v132, main_cst_24, main_v133, main_cst_25, main_v134, main_v135,
    main_v136, main_v137, main_v138, main_v139, main_cst_26, main_v140, main_v141, main_v142,
    main_v143, main_v144, main_v145, main_v146, main_v147, main_v148 ]

/-- Operations 244 … 253 (%149 … %156): layer 2, the first scatter-add. -/
abbrev l2_scat1 : List (HloOp τ sig (Elt F)) :=
  [ StableHlo.unary main_v148 main_v149 ((extractStridedSlice S3200000x10 ![0, 0] · slices_S3200000x22_S3200000x10_0_0) : (⟨S3200000x22, .f32⟩ : BufTy).Contents (Elt F) → (⟨S3200000x10, .f32⟩ : BufTy).Contents (Elt F)),   -- 244: %149
    StableHlo.nullary main_c_27 (constantI S_ 32 0#32),   -- 245: %c_27
    StableHlo.unary main_c_27 main_v150 (broadcastInDim S3200000 ![] bcast_S_S3200000 : (⟨S_, .i32⟩ : BufTy).Contents (Elt F) → (⟨S3200000, .i32⟩ : BufTy).Contents (Elt F)),   -- 246: %150
    StableHlo.binary main_arg7 main_v150 main_v151 (cmpi .slt : (⟨S3200000, .i32⟩ : BufTy).Contents (Elt F) → (⟨S3200000, .i32⟩ : BufTy).Contents (Elt F) → (⟨S3200000, .i1⟩ : BufTy).Contents (Elt F)),   -- 247: %151
    StableHlo.nullary main_c_28 (constantI S_ 32 100000#32),   -- 248: %c_28
    StableHlo.unary main_c_28 main_v152 (broadcastInDim S3200000 ![] bcast_S_S3200000 : (⟨S_, .i32⟩ : BufTy).Contents (Elt F) → (⟨S3200000, .i32⟩ : BufTy).Contents (Elt F)),   -- 249: %152
    StableHlo.binary main_arg7 main_v152 main_v153 (addi : (⟨S3200000, .i32⟩ : BufTy).Contents (Elt F) → (⟨S3200000, .i32⟩ : BufTy).Contents (Elt F) → (⟨S3200000, .i32⟩ : BufTy).Contents (Elt F)),   -- 250: %153
    StableHlo.ternary main_v151 main_v153 main_arg7 main_v154 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 251: %154
    StableHlo.unary main_v154 main_v155 (broadcastInDim S3200000x1 ![0] bcast_S3200000_S3200000x1_0 : (⟨S3200000, .i32⟩ : BufTy).Contents (Elt F) → (⟨S3200000x1, .i32⟩ : BufTy).Contents (Elt F)),   -- 252: %155
    StableHlo.ternary main_v105 main_v155 main_v149 main_v156 ((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)) ]   -- 253: %156

/-- The buffers operations 244 … 253 write, one each, in order. -/
abbrev w2_scat1 : List (Ref sig .tc) :=
  [ main_v149, main_c_27, main_v150, main_v151, main_c_28, main_v152, main_v153, main_v154,
    main_v155, main_v156 ]

/-- Operations 254 … 263 (%157 … %164): layer 2, the second scatter-add. -/
abbrev l2_scat2 : List (HloOp τ sig (Elt F)) :=
  [ StableHlo.unary main_v148 main_v157 ((extractStridedSlice S3200000x10 ![0, 10] · slices_S3200000x22_S3200000x10_0_10) : (⟨S3200000x22, .f32⟩ : BufTy).Contents (Elt F) → (⟨S3200000x10, .f32⟩ : BufTy).Contents (Elt F)),   -- 254: %157
    StableHlo.nullary main_c_29 (constantI S_ 32 0#32),   -- 255: %c_29
    StableHlo.unary main_c_29 main_v158 (broadcastInDim S3200000 ![] bcast_S_S3200000 : (⟨S_, .i32⟩ : BufTy).Contents (Elt F) → (⟨S3200000, .i32⟩ : BufTy).Contents (Elt F)),   -- 256: %158
    StableHlo.binary main_arg8 main_v158 main_v159 (cmpi .slt : (⟨S3200000, .i32⟩ : BufTy).Contents (Elt F) → (⟨S3200000, .i32⟩ : BufTy).Contents (Elt F) → (⟨S3200000, .i1⟩ : BufTy).Contents (Elt F)),   -- 257: %159
    StableHlo.nullary main_c_30 (constantI S_ 32 100000#32),   -- 258: %c_30
    StableHlo.unary main_c_30 main_v160 (broadcastInDim S3200000 ![] bcast_S_S3200000 : (⟨S_, .i32⟩ : BufTy).Contents (Elt F) → (⟨S3200000, .i32⟩ : BufTy).Contents (Elt F)),   -- 259: %160
    StableHlo.binary main_arg8 main_v160 main_v161 (addi : (⟨S3200000, .i32⟩ : BufTy).Contents (Elt F) → (⟨S3200000, .i32⟩ : BufTy).Contents (Elt F) → (⟨S3200000, .i32⟩ : BufTy).Contents (Elt F)),   -- 260: %161
    StableHlo.ternary main_v159 main_v161 main_arg8 main_v162 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 261: %162
    StableHlo.unary main_v162 main_v163 (broadcastInDim S3200000x1 ![0] bcast_S3200000_S3200000x1_0 : (⟨S3200000, .i32⟩ : BufTy).Contents (Elt F) → (⟨S3200000x1, .i32⟩ : BufTy).Contents (Elt F)),   -- 262: %163
    StableHlo.ternary main_v156 main_v163 main_v157 main_v164 ((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)) ]   -- 263: %164

/-- The buffers operations 254 … 263 write, one each, in order. -/
abbrev w2_scat2 : List (Ref sig .tc) :=
  [ main_v157, main_c_29, main_v158, main_v159, main_c_30, main_v160, main_v161, main_v162,
    main_v163, main_v164 ]

/-- Operations 264 … 265 (%165 … %166): layer 3, the clause weight. -/
abbrev l3_w : List (HloOp τ sig (Elt F)) :=
  [ StableHlo.unary main_arg6 main_v165 ((extractStridedSlice S1 ![2] · slices_S3_S1_2) : (⟨S3, .f32⟩ : BufTy).Contents (Elt F) → (⟨S1, .f32⟩ : BufTy).Contents (Elt F)),   -- 264: %165
    StableHlo.reshape main_v165 main_v166 rfl shapeCasts_S1_S_ ]   -- 265: %166

/-- The buffers operations 264 … 265 write, one each, in order. -/
abbrev w3_w : List (Ref sig .tc) :=
  [ main_v165, main_v166 ]

/-- Operations 266 … 297 (%167 … %172): layer 3, the sign vector. -/
abbrev l3_sgn : List (HloOp τ sig (Elt F)) :=
  [ StableHlo.nullary main_v167 (iotaInDim S22 32 0),   -- 266: %167
    StableHlo.nullary main_c_31 (constantI S_ 32 2#32),   -- 267: %c_31
    StableHlo.TRef.unary (.of main_c_31 : StableHlo.TRef sig ⟨S_, .i32⟩) main_call7.v0 id,   -- 268: %168 = @remainder's %0
    StableHlo.TRef.nullary main_call7.c (constantI S_ 32 0#32),   -- 269: %168 = @remainder's %c
    StableHlo.TRef.binary main_call7.v0 main_call7.c main_call7.v1 (cmpi .eq),   -- 270: %168 = @remainder's %1
    StableHlo.TRef.nullary main_call7.c_0 (constantI S_ 32 1#32),   -- 271: %168 = @remainder's %c_0
    StableHlo.TRef.ternary main_call7.v1 main_call7.c_0 main_call7.v0 main_call7.call0.v0 select,   -- 272: %168 = @remainder's %2 = @_where's %0
    StableHlo.TRef.unary main_call7.call0.v0 main_call7.v3 (broadcastInDim S22 ![] bcast_S_S22),   -- 273: %168 = @remainder's %3
    StableHlo.TRef.binary (.of main_v167 : StableHlo.TRef sig ⟨S22, .i32⟩) main_call7.v3 main_call7.v4 Host.remsi,   -- 274: %168 = @remainder's %4
    StableHlo.TRef.nullary main_call7.c_1 (constantI S_ 32 0#32),   -- 275: %168 = @remainder's %c_1
    StableHlo.TRef.unary main_call7.c_1 main_call7.v5 (broadcastInDim S22 ![] bcast_S_S22),   -- 276: %168 = @remainder's %5
    StableHlo.TRef.binary main_call7.v4 main_call7.v5 main_call7.v6 (cmpi .ne),   -- 277: %168 = @remainder's %6
    StableHlo.TRef.nullary main_call7.c_2 (constantI S_ 32 0#32),   -- 278: %168 = @remainder's %c_2
    StableHlo.TRef.unary main_call7.c_2 main_call7.v7 (broadcastInDim S22 ![] bcast_S_S22),   -- 279: %168 = @remainder's %7
    StableHlo.TRef.binary main_call7.v4 main_call7.v7 main_call7.v8 (cmpi .slt),   -- 280: %168 = @remainder's %8
    StableHlo.TRef.nullary main_call7.c_3 (constantI S_ 32 0#32),   -- 281: %168 = @remainder's %c_3
    StableHlo.TRef.binary main_call7.call0.v0 main_call7.c_3 main_call7.v9 (cmpi .slt),   -- 282: %168 = @remainder's %9
    StableHlo.TRef.unary main_call7.v9 main_call7.v10 (broadcastInDim S22 ![] bcast_S_S22),   -- 283: %168 = @remainder's %10
    StableHlo.TRef.binary main_call7.v8 main_call7.v10 main_call7.v11 (cmpi .ne),   -- 284: %168 = @remainder's %11
    StableHlo.TRef.binary main_call7.v11 main_call7.v6 main_call7.v12 andi,   -- 285: %168 = @remainder's %12
    StableHlo.TRef.unary main_call7.call0.v0 main_call7.v13 (broadcastInDim S22 ![] bcast_S_S22),   -- 286: %168 = @remainder's %13
    StableHlo.TRef.binary main_call7.v4 main_call7.v13 main_call7.v14 addi,   -- 287: %168 = @remainder's %14
    StableHlo.TRef.ternary main_call7.v12 main_call7.v14 main_call7.v4 main_call7.v15 select,   -- 288: %168 = @remainder's %15
    StableHlo.nullary main_c_32 (constantI S_ 32 0#32),   -- 289: %c_32
    StableHlo.unary main_c_32 main_v169 (broadcastInDim S22 ![] bcast_S_S22 : (⟨S_, .i32⟩ : BufTy).Contents (Elt F) → (⟨S22, .i32⟩ : BufTy).Contents (Elt F)),   -- 290: %169
    StableHlo.binary main_v168 main_v169 main_v170 (cmpi .eq : (⟨S22, .i32⟩ : BufTy).Contents (Elt F) → (⟨S22, .i32⟩ : BufTy).Contents (Elt F) → (⟨S22, .i1⟩ : BufTy).Contents (Elt F)),   -- 291: %170
    StableHlo.nullary main_cst_33 (constant S_ .f32 0x3F800000#32),   -- 292: %cst_33
    StableHlo.nullary main_cst_34 (constant S_ .f32 0xBF800000#32),   -- 293: %cst_34
    StableHlo.TRef.unary (.of main_cst_33 : StableHlo.TRef sig ⟨S_, .f32⟩) main_call8.v0 (broadcastInDim S22 ![] bcast_S_S22),   -- 294: %171 = @_where_0's %0
    StableHlo.TRef.unary (.of main_cst_34 : StableHlo.TRef sig ⟨S_, .f32⟩) main_call8.v1 (broadcastInDim S22 ![] bcast_S_S22),   -- 295: %171 = @_where_0's %1
    StableHlo.TRef.ternary (.of main_v170 : StableHlo.TRef sig ⟨S22, .i1⟩) main_call8.v0 main_call8.v1 main_call8.v2 select,   -- 296: %171 = @_where_0's %2
    StableHlo.unary main_v171 main_v172 (id : (⟨S22, .f32⟩ : BufTy).Contents (Elt F) → (⟨S22, .f32⟩ : BufTy).Contents (Elt F)) ]   -- 297: %172

/-- The buffers operations 266 … 297 write, one each, in order. -/
abbrev w3_sgn : List (Ref sig .tc) :=
  [ main_v167, main_c_31, main_call7.v0.ref, main_call7.c.ref, main_call7.v1.ref, main_call7.c_0.ref, main_call7.call0.v0.ref, main_call7.v3.ref,
    main_call7.v4.ref, main_call7.c_1.ref, main_call7.v5.ref, main_call7.v6.ref, main_call7.c_2.ref, main_call7.v7.ref, main_call7.v8.ref, main_call7.c_3.ref,
    main_call7.v9.ref, main_call7.v10.ref, main_call7.v11.ref, main_call7.v12.ref, main_call7.v13.ref, main_call7.v14.ref, main_call7.v15.ref, main_c_32,
    main_v169, main_v170, main_cst_33, main_cst_34, main_call8.v0.ref, main_call8.v1.ref, main_call8.v2.ref, main_v172 ]

/-- Operations 298 … 316 (%c_35 … %187): layer 3, the two row gathers and the 22 literals. -/
abbrev l3_lits : List (HloOp τ sig (Elt F)) :=
  [ StableHlo.nullary main_c_35 (constantI S_ 32 0#32),   -- 298: %c_35
    StableHlo.unary main_c_35 main_v173 (broadcastInDim S3200000 ![] bcast_S_S3200000 : (⟨S_, .i32⟩ : BufTy).Contents (Elt F) → (⟨S3200000, .i32⟩ : BufTy).Contents (Elt F)),   -- 299: %173
    StableHlo.binary main_arg7 main_v173 main_v174 (cmpi .slt : (⟨S3200000, .i32⟩ : BufTy).Contents (Elt F) → (⟨S3200000, .i32⟩ : BufTy).Contents (Elt F) → (⟨S3200000, .i1⟩ : BufTy).Contents (Elt F)),   -- 300: %174
    StableHlo.nullary main_c_36 (constantI S_ 32 100000#32),   -- 301: %c_36
    StableHlo.unary main_c_36 main_v175 (broadcastInDim S3200000 ![] bcast_S_S3200000 : (⟨S_, .i32⟩ : BufTy).Contents (Elt F) → (⟨S3200000, .i32⟩ : BufTy).Contents (Elt F)),   -- 302: %175
    StableHlo.binary main_arg7 main_v175 main_v176 (addi : (⟨S3200000, .i32⟩ : BufTy).Contents (Elt F) → (⟨S3200000, .i32⟩ : BufTy).Contents (Elt F) → (⟨S3200000, .i32⟩ : BufTy).Contents (Elt F)),   -- 303: %176
    StableHlo.ternary main_v174 main_v176 main_arg7 main_v177 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 304: %177
    StableHlo.unary main_v177 main_v178 (broadcastInDim S3200000x1 ![0] bcast_S3200000_S3200000x1_0 : (⟨S3200000, .i32⟩ : BufTy).Contents (Elt F) → (⟨S3200000x1, .i32⟩ : BufTy).Contents (Elt F)),   -- 305: %178
    StableHlo.binary main_v164 main_v178 main_v179 ((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)),   -- 306: %179
    StableHlo.nullary main_c_37 (constantI S_ 32 0#32),   -- 307: %c_37
    StableHlo.unary main_c_37 main_v180 (broadcastInDim S3200000 ![] bcast_S_S3200000 : (⟨S_, .i32⟩ : BufTy).Contents (Elt F) → (⟨S3200000, .i32⟩ : BufTy).Contents (Elt F)),   -- 308: %180
    StableHlo.binary main_arg8 main_v180 main_v181 (cmpi .slt : (⟨S3200000, .i32⟩ : BufTy).Contents (Elt F) → (⟨S3200000, .i32⟩ : BufTy).Contents (Elt F) → (⟨S3200000, .i1⟩ : BufTy).Contents (Elt F)),   -- 309: %181
    StableHlo.nullary main_c_38 (constantI S_ 32 100000#32),   -- 310: %c_38
    StableHlo.unary main_c_38 main_v182 (broadcastInDim S3200000 ![] bcast_S_S3200000 : (⟨S_, .i32⟩ : BufTy).Contents (Elt F) → (⟨S3200000, .i32⟩ : BufTy).Contents (Elt F)),   -- 311: %182
    StableHlo.binary main_arg8 main_v182 main_v183 (addi : (⟨S3200000, .i32⟩ : BufTy).Contents (Elt F) → (⟨S3200000, .i32⟩ : BufTy).Contents (Elt F) → (⟨S3200000, .i32⟩ : BufTy).Contents (Elt F)),   -- 312: %183
    StableHlo.ternary main_v181 main_v183 main_arg8 main_v184 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 313: %184
    StableHlo.unary main_v184 main_v185 (broadcastInDim S3200000x1 ![0] bcast_S3200000_S3200000x1_0 : (⟨S3200000, .i32⟩ : BufTy).Contents (Elt F) → (⟨S3200000x1, .i32⟩ : BufTy).Contents (Elt F)),   -- 314: %185
    StableHlo.binary main_v164 main_v185 main_v186 ((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)),   -- 315: %186
    StableHlo.nary ![main_v179, main_v186, main_arg1] main_v187 (fun u => concatenate S3200000x22 1 [⟨S3200000x10, u 0⟩, ⟨S3200000x10, u 1⟩, ⟨S3200000x2, u 2⟩] concatenates_S3200000x10_S3200000x10_S3200000x2_S3200000x22_d1) ]   -- 316: %187

/-- The buffers operations 298 … 316 write, one each, in order. -/
abbrev w3_lits : List (Ref sig .tc) :=
  [ main_c_35, main_v173, main_v174, main_c_36, main_v175, main_v176, main_v177, main_v178,
    main_v179, main_c_37, main_v180, main_v181, main_c_38, main_v182, main_v183, main_v184,
    main_v185, main_v186, main_v187 ]

/-- Operations 317 … 327 (%188 = @softplus's %cst … %188 = @softplus's %9): layer 3, the softplus of the clause weight. -/
abbrev l3_splus : List (HloOp τ sig (Elt F)) :=
  [ StableHlo.TRef.nullary main_call9.cst (constant S_ .f32 0x00000000#32),   -- 317: %188 = @softplus's %cst
    StableHlo.TRef.binary (.of main_v166 : StableHlo.TRef sig ⟨S_, .f32⟩) main_call9.cst main_call9.v0 maximumf,   -- 318: %188 = @softplus's %0
    StableHlo.TRef.binary (.of main_v166 : StableHlo.TRef sig ⟨S_, .f32⟩) main_call9.cst main_call9.v1 subf,   -- 319: %188 = @softplus's %1
    StableHlo.TRef.binary main_call9.v1 main_call9.v1 main_call9.v2 (cmpf .une),   -- 320: %188 = @softplus's %2
    StableHlo.TRef.binary (.of main_v166 : StableHlo.TRef sig ⟨S_, .f32⟩) main_call9.cst main_call9.v3 addf,   -- 321: %188 = @softplus's %3
    StableHlo.TRef.unary main_call9.v1 main_call9.v4 Host.absf,   -- 322: %188 = @softplus's %4
    StableHlo.TRef.unary main_call9.v4 main_call9.v5 Host.negf,   -- 323: %188 = @softplus's %5
    StableHlo.TRef.unary main_call9.v5 main_call9.v6 Host.exp,   -- 324: %188 = @softplus's %6
    StableHlo.TRef.unary main_call9.v6 main_call9.v7 Host.log1p,   -- 325: %188 = @softplus's %7
    StableHlo.TRef.binary main_call9.v0 main_call9.v7 main_call9.v8 addf,   -- 326: %188 = @softplus's %8
    StableHlo.TRef.ternary main_call9.v2 main_call9.v3 main_call9.v8 main_call9.v9 select ]   -- 327: %188 = @softplus's %9

/-- The buffers operations 317 … 327 write, one each, in order. -/
abbrev w3_splus : List (Ref sig .tc) :=
  [ main_call9.cst.ref, main_call9.v0.ref, main_call9.v1.ref, main_call9.v2.ref, main_call9.v3.ref, main_call9.v4.ref, main_call9.v5.ref, main_call9.v6.ref,
    main_call9.v7.ref, main_call9.v8.ref, main_call9.v9.ref ]

/-- Operations 328 … 349 (%189 … %207): layer 3, the signed softmax of the signed literals, scaled. -/
abbrev l3_deltas : List (HloOp τ sig (Elt F)) :=
  [ StableHlo.unary main_v172 main_v189 (broadcastInDim S1x22 ![1] bcast_S22_S1x22_1 : (⟨S22, .f32⟩ : BufTy).Contents (Elt F) → (⟨S1x22, .f32⟩ : BufTy).Contents (Elt F)),   -- 328: %189
    StableHlo.unary main_v189 main_v190 (broadcastInDim S3200000x22 ![0, 1] bcast_S1x22_S3200000x22_0_1 : (⟨S1x22, .f32⟩ : BufTy).Contents (Elt F) → (⟨S3200000x22, .f32⟩ : BufTy).Contents (Elt F)),   -- 329: %190
    StableHlo.binary main_v190 main_v187 main_v191 (mulf : (⟨S3200000x22, .f32⟩ : BufTy).Contents (Elt F) → (⟨S3200000x22, .f32⟩ : BufTy).Contents (Elt F) → (⟨S3200000x22, .f32⟩ : BufTy).Contents (Elt F)),   -- 330: %191
    StableHlo.nullary main_cst_39 (constant S_ .f32 0xFF800000#32),   -- 331: %cst_39
    StableHlo.binary main_v191 main_cst_39 main_v192 ((fun x v => Host.reduce FloatOps.maximumf x v reducesTo_S3200000x22_S3200000_d1 h_S_) : (⟨S3200000x22, .f32⟩ : BufTy).Contents (Elt F) → (⟨S_, .f32⟩ : BufTy).Contents (Elt F) → (⟨S3200000, .f32⟩ : BufTy).Contents (Elt F)),   -- 332: %192
    StableHlo.nullary main_cst_40 (constant S_ .f32 0xFF800000#32),   -- 333: %cst_40
    StableHlo.unary main_cst_40 main_v193 (broadcastInDim S3200000 ![] bcast_S_S3200000 : (⟨S_, .f32⟩ : BufTy).Contents (Elt F) → (⟨S3200000, .f32⟩ : BufTy).Contents (Elt F)),   -- 334: %193
    StableHlo.binary main_v193 main_v192 main_v194 (maximumf : (⟨S3200000, .f32⟩ : BufTy).Contents (Elt F) → (⟨S3200000, .f32⟩ : BufTy).Contents (Elt F) → (⟨S3200000, .f32⟩ : BufTy).Contents (Elt F)),   -- 335: %194
    StableHlo.unary main_v194 main_v195 (broadcastInDim S3200000x1 ![0] bcast_S3200000_S3200000x1_0 : (⟨S3200000, .f32⟩ : BufTy).Contents (Elt F) → (⟨S3200000x1, .f32⟩ : BufTy).Contents (Elt F)),   -- 336: %195
    StableHlo.unary main_v195 main_v196 (broadcastInDim S3200000x22 ![0, 1] bcast_S3200000x1_S3200000x22_0_1 : (⟨S3200000x1, .f32⟩ : BufTy).Contents (Elt F) → (⟨S3200000x22, .f32⟩ : BufTy).Contents (Elt F)),   -- 337: %196
    StableHlo.binary main_v191 main_v196 main_v197 (subf : (⟨S3200000x22, .f32⟩ : BufTy).Contents (Elt F) → (⟨S3200000x22, .f32⟩ : BufTy).Contents (Elt F) → (⟨S3200000x22, .f32⟩ : BufTy).Contents (Elt F)),   -- 338: %197
    StableHlo.unary main_v197 main_v198 (Host.exp : (⟨S3200000x22, .f32⟩ : BufTy).Contents (Elt F) → (⟨S3200000x22, .f32⟩ : BufTy).Contents (Elt F)),   -- 339: %198
    StableHlo.nullary main_cst_41 (constant S_ .f32 0x00000000#32),   -- 340: %cst_41
    StableHlo.binary main_v198 main_cst_41 main_v199 ((fun x v => Host.reduceAdd x v reducesTo_S3200000x22_S3200000_d1 h_S_) : (⟨S3200000x22, .f32⟩ : BufTy).Contents (Elt F) → (⟨S_, .f32⟩ : BufTy).Contents (Elt F) → (⟨S3200000, .f32⟩ : BufTy).Contents (Elt F)),   -- 341: %199
    StableHlo.unary main_v199 main_v200 (broadcastInDim S3200000x1 ![0] bcast_S3200000_S3200000x1_0 : (⟨S3200000, .f32⟩ : BufTy).Contents (Elt F) → (⟨S3200000x1, .f32⟩ : BufTy).Contents (Elt F)),   -- 342: %200
    StableHlo.unary main_v200 main_v201 (broadcastInDim S3200000x22 ![0, 1] bcast_S3200000x1_S3200000x22_0_1 : (⟨S3200000x1, .f32⟩ : BufTy).Contents (Elt F) → (⟨S3200000x22, .f32⟩ : BufTy).Contents (Elt F)),   -- 343: %201
    StableHlo.binary main_v198 main_v201 main_v202 (Host.divf : (⟨S3200000x22, .f32⟩ : BufTy).Contents (Elt F) → (⟨S3200000x22, .f32⟩ : BufTy).Contents (Elt F) → (⟨S3200000x22, .f32⟩ : BufTy).Contents (Elt F)),   -- 344: %202
    StableHlo.unary main_v188 main_v203 (broadcastInDim S3200000x22 ![] bcast_S_S3200000x22 : (⟨S_, .f32⟩ : BufTy).Contents (Elt F) → (⟨S3200000x22, .f32⟩ : BufTy).Contents (Elt F)),   -- 345: %203
    StableHlo.binary main_v203 main_v202 main_v204 (mulf : (⟨S3200000x22, .f32⟩ : BufTy).Contents (Elt F) → (⟨S3200000x22, .f32⟩ : BufTy).Contents (Elt F) → (⟨S3200000x22, .f32⟩ : BufTy).Contents (Elt F)),   -- 346: %204
    StableHlo.unary main_v172 main_v205 (broadcastInDim S1x22 ![1] bcast_S22_S1x22_1 : (⟨S22, .f32⟩ : BufTy).Contents (Elt F) → (⟨S1x22, .f32⟩ : BufTy).Contents (Elt F)),   -- 347: %205
    StableHlo.unary main_v205 main_v206 (broadcastInDim S3200000x22 ![0, 1] bcast_S1x22_S3200000x22_0_1 : (⟨S1x22, .f32⟩ : BufTy).Contents (Elt F) → (⟨S3200000x22, .f32⟩ : BufTy).Contents (Elt F)),   -- 348: %206
    StableHlo.binary main_v204 main_v206 main_v207 (mulf : (⟨S3200000x22, .f32⟩ : BufTy).Contents (Elt F) → (⟨S3200000x22, .f32⟩ : BufTy).Contents (Elt F) → (⟨S3200000x22, .f32⟩ : BufTy).Contents (Elt F)) ]   -- 349: %207

/-- The buffers operations 328 … 349 write, one each, in order. -/
abbrev w3_deltas : List (Ref sig .tc) :=
  [ main_v189, main_v190, main_v191, main_cst_39, main_v192, main_cst_40, main_v193, main_v194,
    main_v195, main_v196, main_v197, main_v198, main_cst_41, main_v199, main_v200, main_v201,
    main_v202, main_v203, main_v204, main_v205, main_v206, main_v207 ]

/-- Operations 350 … 359 (%208 … %215): layer 3, the first scatter-add. -/
abbrev l3_scat1 : List (HloOp τ sig (Elt F)) :=
  [ StableHlo.unary main_v207 main_v208 ((extractStridedSlice S3200000x10 ![0, 0] · slices_S3200000x22_S3200000x10_0_0) : (⟨S3200000x22, .f32⟩ : BufTy).Contents (Elt F) → (⟨S3200000x10, .f32⟩ : BufTy).Contents (Elt F)),   -- 350: %208
    StableHlo.nullary main_c_42 (constantI S_ 32 0#32),   -- 351: %c_42
    StableHlo.unary main_c_42 main_v209 (broadcastInDim S3200000 ![] bcast_S_S3200000 : (⟨S_, .i32⟩ : BufTy).Contents (Elt F) → (⟨S3200000, .i32⟩ : BufTy).Contents (Elt F)),   -- 352: %209
    StableHlo.binary main_arg7 main_v209 main_v210 (cmpi .slt : (⟨S3200000, .i32⟩ : BufTy).Contents (Elt F) → (⟨S3200000, .i32⟩ : BufTy).Contents (Elt F) → (⟨S3200000, .i1⟩ : BufTy).Contents (Elt F)),   -- 353: %210
    StableHlo.nullary main_c_43 (constantI S_ 32 100000#32),   -- 354: %c_43
    StableHlo.unary main_c_43 main_v211 (broadcastInDim S3200000 ![] bcast_S_S3200000 : (⟨S_, .i32⟩ : BufTy).Contents (Elt F) → (⟨S3200000, .i32⟩ : BufTy).Contents (Elt F)),   -- 355: %211
    StableHlo.binary main_arg7 main_v211 main_v212 (addi : (⟨S3200000, .i32⟩ : BufTy).Contents (Elt F) → (⟨S3200000, .i32⟩ : BufTy).Contents (Elt F) → (⟨S3200000, .i32⟩ : BufTy).Contents (Elt F)),   -- 356: %212
    StableHlo.ternary main_v210 main_v212 main_arg7 main_v213 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 357: %213
    StableHlo.unary main_v213 main_v214 (broadcastInDim S3200000x1 ![0] bcast_S3200000_S3200000x1_0 : (⟨S3200000, .i32⟩ : BufTy).Contents (Elt F) → (⟨S3200000x1, .i32⟩ : BufTy).Contents (Elt F)),   -- 358: %214
    StableHlo.ternary main_v164 main_v214 main_v208 main_v215 ((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)) ]   -- 359: %215

/-- The buffers operations 350 … 359 write, one each, in order. -/
abbrev w3_scat1 : List (Ref sig .tc) :=
  [ main_v208, main_c_42, main_v209, main_v210, main_c_43, main_v211, main_v212, main_v213,
    main_v214, main_v215 ]

/-- Operations 360 … 369 (%216 … %223): layer 3, the second scatter-add. -/
abbrev l3_scat2 : List (HloOp τ sig (Elt F)) :=
  [ StableHlo.unary main_v207 main_v216 ((extractStridedSlice S3200000x10 ![0, 10] · slices_S3200000x22_S3200000x10_0_10) : (⟨S3200000x22, .f32⟩ : BufTy).Contents (Elt F) → (⟨S3200000x10, .f32⟩ : BufTy).Contents (Elt F)),   -- 360: %216
    StableHlo.nullary main_c_44 (constantI S_ 32 0#32),   -- 361: %c_44
    StableHlo.unary main_c_44 main_v217 (broadcastInDim S3200000 ![] bcast_S_S3200000 : (⟨S_, .i32⟩ : BufTy).Contents (Elt F) → (⟨S3200000, .i32⟩ : BufTy).Contents (Elt F)),   -- 362: %217
    StableHlo.binary main_arg8 main_v217 main_v218 (cmpi .slt : (⟨S3200000, .i32⟩ : BufTy).Contents (Elt F) → (⟨S3200000, .i32⟩ : BufTy).Contents (Elt F) → (⟨S3200000, .i1⟩ : BufTy).Contents (Elt F)),   -- 363: %218
    StableHlo.nullary main_c_45 (constantI S_ 32 100000#32),   -- 364: %c_45
    StableHlo.unary main_c_45 main_v219 (broadcastInDim S3200000 ![] bcast_S_S3200000 : (⟨S_, .i32⟩ : BufTy).Contents (Elt F) → (⟨S3200000, .i32⟩ : BufTy).Contents (Elt F)),   -- 365: %219
    StableHlo.binary main_arg8 main_v219 main_v220 (addi : (⟨S3200000, .i32⟩ : BufTy).Contents (Elt F) → (⟨S3200000, .i32⟩ : BufTy).Contents (Elt F) → (⟨S3200000, .i32⟩ : BufTy).Contents (Elt F)),   -- 366: %220
    StableHlo.ternary main_v218 main_v220 main_arg8 main_v221 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),   -- 367: %221
    StableHlo.unary main_v221 main_v222 (broadcastInDim S3200000x1 ![0] bcast_S3200000_S3200000x1_0 : (⟨S3200000, .i32⟩ : BufTy).Contents (Elt F) → (⟨S3200000x1, .i32⟩ : BufTy).Contents (Elt F)),   -- 368: %222
    StableHlo.ternary main_v215 main_v222 main_v216 main_v223 ((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)) ]   -- 369: %223

/-- The buffers operations 360 … 369 write, one each, in order. -/
abbrev w3_scat2 : List (Ref sig .tc) :=
  [ main_v216, main_c_44, main_v217, main_v218, main_c_45, main_v219, main_v220, main_v221,
    main_v222, main_v223 ]

/-- The buffers operations 370 … 400 write, one each, in order. -/
abbrev wHead : List (Ref sig .tc) :=
  [ main_v224, main_v225, main_v226, main_cst_46, main_v227, main_cst_47, main_v228, main_v229,
    main_v230, main_v231, main_v232, main_v233, main_cst_48, main_v234, main_v235, main_v236,
    main_v237, main_cst_49, main_v238, main_cst_50, main_v239, main_v240, main_v241, main_v242,
    main_v243, main_v244, main_cst_51, main_v245, main_v246, main_v247, main_v248 ]

end Cert.ReferenceIdeal.HostRun

end
-- ==== Proof.RefStageParts.lean ====

/- One relational layer of the reference program in six parts: the sign vector, the 22 literals per edge, softplus of the clause weight,
   the signed boost of every literal, and the two scatter-adds in turn. -/

import proofs.«140184_j29661044146691_2_alg».proof.ReferenceIdeal

set_option synthInstance.maxSize 4096

noncomputable section

namespace Cert.ReferenceIdeal.Stage

open Cert.ReferenceIdeal Idealize.ShloMosaic
open Cert.ReferenceIdeal.Facts₀ Cert.ReferenceIdeal.Facts

variable {F : FTy → Type} [FloatOps F] [Cert.ReferenceIdeal.Facts]

/-- The sign of each of the 22 literals: +1 at even positions, −1 at odd ones. -/
noncomputable def sgn  :
    (⟨S22, .f32⟩ : BufTy).Contents (Elt F) :=
  let t0 := ((iotaInDim S22 32 0) : (⟨S22, .i32⟩ : BufTy).Contents (Elt F))
  let t1 := ((constantI S_ 32 2#32) : (⟨S_, .i32⟩ : BufTy).Contents (Elt F))
  let t2 := (id t1 : (⟨S_, .i32⟩ : BufTy).Contents (Elt F))
  let t3 := ((constantI S_ 32 0#32) : (⟨S_, .i32⟩ : BufTy).Contents (Elt F))
  let t4 := ((cmpi .eq) t2 t3 : (⟨S_, .i1⟩ : BufTy).Contents (Elt F))
  let t5 := ((constantI S_ 32 1#32) : (⟨S_, .i32⟩ : BufTy).Contents (Elt F))
  let t6 := (select t4 t5 t2 : (⟨S_, .i32⟩ : BufTy).Contents (Elt F))
  let t7 := ((broadcastInDim S22 ![] bcast_S_S22) t6 : (⟨S22, .i32⟩ : BufTy).Contents (Elt F))
  let t8 := (Host.remsi t0 t7 : (⟨S22, .i32⟩ : BufTy).Contents (Elt F))
  let t9 := ((constantI S_ 32 0#32) : (⟨S_, .i32⟩ : BufTy).Contents (Elt F))
  let t10 := ((broadcastInDim S22 ![] bcast_S_S22) t9 : (⟨S22, .i32⟩ : BufTy).Contents (Elt F))
  let t11 := ((cmpi .ne) t8 t10 : (⟨S22, .i1⟩ : BufTy).Contents (Elt F))
  let t12 := ((constantI S_ 32 0#32) : (⟨S_, .i32⟩ : BufTy).Contents (Elt F))
  let t13 := ((broadcastInDim S22 ![] bcast_S_S22) t12 : (⟨S22, .i32⟩ : BufTy).Contents (Elt F))
  let t14 := ((cmpi .slt) t8 t13 : (⟨S22, .i1⟩ : BufTy).Contents (Elt F))
  let t15 := ((constantI S_ 32 0#32) : (⟨S_, .i32⟩ : BufTy).Contents (Elt F))
  let t16 := ((cmpi .slt) t6 t15 : (⟨S_, .i1⟩ : BufTy).Contents (Elt F))
  let t17 := ((broadcastInDim S22 ![] bcast_S_S22) t16 : (⟨S22, .i1⟩ : BufTy).Contents (Elt F))
  let t18 := ((cmpi .ne) t14 t17 : (⟨S22, .i1⟩ : BufTy).Contents (Elt F))
  let t19 := (andi t18 t11 : (⟨S22, .i1⟩ : BufTy).Contents (Elt F))
  let t20 := ((broadcastInDim S22 ![] bcast_S_S22) t6 : (⟨S22, .i32⟩ : BufTy).Contents (Elt F))
  let t21 := (addi t8 t20 : (⟨S22, .i32⟩ : BufTy).Contents (Elt F))
  let t22 := (select t19 t21 t8 : (⟨S22, .i32⟩ : BufTy).Contents (Elt F))
  let t23 := ((constantI S_ 32 0#32) : (⟨S_, .i32⟩ : BufTy).Contents (Elt F))
  let t24 := ((broadcastInDim S22 ![] bcast_S_S22 : (⟨S_, .i32⟩ : BufTy).Contents (Elt F) → (⟨S22, .i32⟩ : BufTy).Contents (Elt F)) t23 : (⟨S22, .i32⟩ : BufTy).Contents (Elt F))
  let t25 := ((cmpi .eq : (⟨S22, .i32⟩ : BufTy).Contents (Elt F) → (⟨S22, .i32⟩ : BufTy).Contents (Elt F) → (⟨S22, .i1⟩ : BufTy).Contents (Elt F)) t22 t24 : (⟨S22, .i1⟩ : BufTy).Contents (Elt F))
  let t26 := ((constant S_ .f32 0x3F800000#32) : (⟨S_, .f32⟩ : BufTy).Contents (Elt F))
  let t27 := ((constant S_ .f32 0xBF800000#32) : (⟨S_, .f32⟩ : BufTy).Contents (Elt F))
  let t28 := ((broadcastInDim S22 ![] bcast_S_S22) t26 : (⟨S22, .f32⟩ : BufTy).Contents (Elt F))
  let t29 := ((broadcastInDim S22 ![] bcast_S_S22) t27 : (⟨S22, .f32⟩ : BufTy).Contents (Elt F))
  let t30 := (select t25 t28 t29 : (⟨S22, .f32⟩ : BufTy).Contents (Elt F))
  let t31 := ((id : (⟨S22, .f32⟩ : BufTy).Contents (Elt F) → (⟨S22, .f32⟩ : BufTy).Contents (Elt F)) t30 : (⟨S22, .f32⟩ : BufTy).Contents (Elt F))
  t31

/-- The 22 literals of every edge: the node table's row at the first endpoint, its row at the second endpoint, the edge's relation features. -/
noncomputable def lits (z : (⟨S100000x10, .f32⟩ : BufTy).Contents (Elt F)) (rel : (⟨S3200000x2, .f32⟩ : BufTy).Contents (Elt F)) (sx : (⟨S3200000, .i32⟩ : BufTy).Contents (Elt F)) (sy : (⟨S3200000, .i32⟩ : BufTy).Contents (Elt F)) :
    (⟨S3200000x22, .f32⟩ : BufTy).Contents (Elt F) :=
  let t0 := ((constantI S_ 32 0#32) : (⟨S_, .i32⟩ : BufTy).Contents (Elt F))
  let t1 := ((broadcastInDim S3200000 ![] bcast_S_S3200000 : (⟨S_, .i32⟩ : BufTy).Contents (Elt F) → (⟨S3200000, .i32⟩ : BufTy).Contents (Elt F)) t0 : (⟨S3200000, .i32⟩ : BufTy).Contents (Elt F))
  let t2 := ((cmpi .slt : (⟨S3200000, .i32⟩ : BufTy).Contents (Elt F) → (⟨S3200000, .i32⟩ : BufTy).Contents (Elt F) → (⟨S3200000, .i1⟩ : BufTy).Contents (Elt F)) sx t1 : (⟨S3200000, .i1⟩ : BufTy).Contents (Elt F))
  let t3 := ((constantI S_ 32 100000#32) : (⟨S_, .i32⟩ : BufTy).Contents (Elt F))
  let t4 := ((broadcastInDim S3200000 ![] bcast_S_S3200000 : (⟨S_, .i32⟩ : BufTy).Contents (Elt F) → (⟨S3200000, .i32⟩ : BufTy).Contents (Elt F)) t3 : (⟨S3200000, .i32⟩ : BufTy).Contents (Elt F))
  let t5 := ((addi : (⟨S3200000, .i32⟩ : BufTy).Contents (Elt F) → (⟨S3200000, .i32⟩ : BufTy).Contents (Elt F) → (⟨S3200000, .i32⟩ : BufTy).Contents (Elt F)) sx t4 : (⟨S3200000, .i32⟩ : BufTy).Contents (Elt F))
  let t6 := ((select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) t2 t5 sx : (⟨S3200000, .i32⟩ : BufTy).Contents (Elt F))
  let t7 := ((broadcastInDim S3200000x1 ![0] bcast_S3200000_S3200000x1_0 : (⟨S3200000, .i32⟩ : BufTy).Contents (Elt F) → (⟨S3200000x1, .i32⟩ : BufTy).Contents (Elt F)) t6 : (⟨S3200000x1, .i32⟩ : BufTy).Contents (Elt F))
  let t8 := (((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)) z t7 : (⟨S3200000x10, .f32⟩ : BufTy).Contents (Elt F))
  let t9 := ((constantI S_ 32 0#32) : (⟨S_, .i32⟩ : BufTy).Contents (Elt F))
  let t10 := ((broadcastInDim S3200000 ![] bcast_S_S3200000 : (⟨S_, .i32⟩ : BufTy).Contents (Elt F) → (⟨S3200000, .i32⟩ : BufTy).Contents (Elt F)) t9 : (⟨S3200000, .i32⟩ : BufTy).Contents (Elt F))
  let t11 := ((cmpi .slt : (⟨S3200000, .i32⟩ : BufTy).Contents (Elt F) → (⟨S3200000, .i32⟩ : BufTy).Contents (Elt F) → (⟨S3200000, .i1⟩ : BufTy).Contents (Elt F)) sy t10 : (⟨S3200000, .i1⟩ : BufTy).Contents (Elt F))
  let t12 := ((constantI S_ 32 100000#32) : (⟨S_, .i32⟩ : BufTy).Contents (Elt F))
  let t13 := ((broadcastInDim S3200000 ![] bcast_S_S3200000 : (⟨S_, .i32⟩ : BufTy).Contents (Elt F) → (⟨S3200000, .i32⟩ : BufTy).Contents (Elt F)) t12 : (⟨S3200000, .i32⟩ : BufTy).Contents (Elt F))
  let t14 := ((addi : (⟨S3200000, .i32⟩ : BufTy).Contents (Elt F) → (⟨S3200000, .i32⟩ : BufTy).Contents (Elt F) → (⟨S3200000, .i32⟩ : BufTy).Contents (Elt F)) sy t13 : (⟨S3200000, .i32⟩ : BufTy).Contents (Elt F))
  let t15 := ((select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) t11 t14 sy : (⟨S3200000, .i32⟩ : BufTy).Contents (Elt F))
  let t16 := ((broadcastInDim S3200000x1 ![0] bcast_S3200000_S3200000x1_0 : (⟨S3200000, .i32⟩ : BufTy).Contents (Elt F) → (⟨S3200000x1, .i32⟩ : BufTy).Contents (Elt F)) t15 : (⟨S3200000x1, .i32⟩ : BufTy).Contents (Elt F))
  let t17 := (((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)) z t16 : (⟨S3200000x10, .f32⟩ : BufTy).Contents (Elt F))
  let t18 := (concatenate S3200000x22 1 [⟨S3200000x10, t8⟩, ⟨S3200000x10, t17⟩, ⟨S3200000x2, rel⟩] concatenates_S3200000x10_S3200000x10_S3200000x2_S3200000x22_d1 : (⟨S3200000x22, .f32⟩ : BufTy).Contents (Elt F))
  t18

/-- softplus of the clause weight. -/
noncomputable def splus (w : (⟨S_, .f32⟩ : BufTy).Contents (Elt F)) :
    (⟨S_, .f32⟩ : BufTy).Contents (Elt F) :=
  let t0 := ((constant S_ .f32 0x00000000#32) : (⟨S_, .f32⟩ : BufTy).Contents (Elt F))
  let t1 := (maximumf w t0 : (⟨S_, .f32⟩ : BufTy).Contents (Elt F))
  let t2 := (subf w t0 : (⟨S_, .f32⟩ : BufTy).Contents (Elt F))
  let t3 := ((cmpf .une) t2 t2 : (⟨S_, .i1⟩ : BufTy).Contents (Elt F))
  let t4 := (addf w t0 : (⟨S_, .f32⟩ : BufTy).Contents (Elt F))
  let t5 := (Host.absf t2 : (⟨S_, .f32⟩ : BufTy).Contents (Elt F))
  let t6 := (Host.negf t5 : (⟨S_, .f32⟩ : BufTy).Contents (Elt F))
  let t7 := (Host.exp t6 : (⟨S_, .f32⟩ : BufTy).Contents (Elt F))
  let t8 := (Host.log1p t7 : (⟨S_, .f32⟩ : BufTy).Contents (Elt F))
  let t9 := (addf t1 t8 : (⟨S_, .f32⟩ : BufTy).Contents (Elt F))
  let t10 := (select t3 t4 t9 : (⟨S_, .f32⟩ : BufTy).Contents (Elt F))
  t10

/-- softplus(w) times the softmax of the signed literals over the 22 positions, times the signs. -/
noncomputable def deltas (s : (⟨S22, .f32⟩ : BufTy).Contents (Elt F)) (l : (⟨S3200000x22, .f32⟩ : BufTy).Contents (Elt F)) (sp : (⟨S_, .f32⟩ : BufTy).Contents (Elt F)) :
    (⟨S3200000x22, .f32⟩ : BufTy).Contents (Elt F) :=
  let t0 := ((broadcastInDim S1x22 ![1] bcast_S22_S1x22_1 : (⟨S22, .f32⟩ : BufTy).Contents (Elt F) → (⟨S1x22, .f32⟩ : BufTy).Contents (Elt F)) s : (⟨S1x22, .f32⟩ : BufTy).Contents (Elt F))
  let t1 := ((broadcastInDim S3200000x22 ![0, 1] bcast_S1x22_S3200000x22_0_1 : (⟨S1x22, .f32⟩ : BufTy).Contents (Elt F) → (⟨S3200000x22, .f32⟩ : BufTy).Contents (Elt F)) t0 : (⟨S3200000x22, .f32⟩ : BufTy).Contents (Elt F))
  let t2 := ((mulf : (⟨S3200000x22, .f32⟩ : BufTy).Contents (Elt F) → (⟨S3200000x22, .f32⟩ : BufTy).Contents (Elt F) → (⟨S3200000x22, .f32⟩ : BufTy).Contents (Elt F)) t1 l : (⟨S3200000x22, .f32⟩ : BufTy).Contents (Elt F))
  let t3 := ((constant S_ .f32 0xFF800000#32) : (⟨S_, .f32⟩ : BufTy).Contents (Elt F))
  let t4 := (((fun x v => Host.reduce FloatOps.maximumf x v reducesTo_S3200000x22_S3200000_d1 h_S_) : (⟨S3200000x22, .f32⟩ : BufTy).Contents (Elt F) → (⟨S_, .f32⟩ : BufTy).Contents (Elt F) → (⟨S3200000, .f32⟩ : BufTy).Contents (Elt F)) t2 t3 : (⟨S3200000, .f32⟩ : BufTy).Contents (Elt F))
  let t5 := ((constant S_ .f32 0xFF800000#32) : (⟨S_, .f32⟩ : BufTy).Contents (Elt F))
  let t6 := ((broadcastInDim S3200000 ![] bcast_S_S3200000 : (⟨S_, .f32⟩ : BufTy).Contents (Elt F) → (⟨S3200000, .f32⟩ : BufTy).Contents (Elt F)) t5 : (⟨S3200000, .f32⟩ : BufTy).Contents (Elt F))
  let t7 := ((maximumf : (⟨S3200000, .f32⟩ : BufTy).Contents (Elt F) → (⟨S3200000, .f32⟩ : BufTy).Contents (Elt F) → (⟨S3200000, .f32⟩ : BufTy).Contents (Elt F)) t6 t4 : (⟨S3200000, .f32⟩ : BufTy).Contents (Elt F))
  let t8 := ((broadcastInDim S3200000x1 ![0] bcast_S3200000_S3200000x1_0 : (⟨S3200000, .f32⟩ : BufTy).Contents (Elt F) → (⟨S3200000x1, .f32⟩ : BufTy).Contents (Elt F)) t7 : (⟨S3200000x1, .f32⟩ : BufTy).Contents (Elt F))
  let t9 := ((broadcastInDim S3200000x22 ![0, 1] bcast_S3200000x1_S3200000x22_0_1 : (⟨S3200000x1, .f32⟩ : BufTy).Contents (Elt F) → (⟨S3200000x22, .f32⟩ : BufTy).Contents (Elt F)) t8 : (⟨S3200000x22, .f32⟩ : BufTy).Contents (Elt F))
  let t10 := ((subf : (⟨S3200000x22, .f32⟩ : BufTy).Contents (Elt F) → (⟨S3200000x22, .f32⟩ : BufTy).Contents (Elt F) → (⟨S3200000x22, .f32⟩ : BufTy).Contents (Elt F)) t2 t9 : (⟨S3200000x22, .f32⟩ : BufTy).Contents (Elt F))
  let t11 := ((Host.exp : (⟨S3200000x22, .f32⟩ : BufTy).Contents (Elt F) → (⟨S3200000x22, .f32⟩ : BufTy).Contents (Elt F)) t10 : (⟨S3200000x22, .f32⟩ : BufTy).Contents (Elt F))
  let t12 := ((constant S_ .f32 0x00000000#32) : (⟨S_, .f32⟩ : BufTy).Contents (Elt F))
  let t13 := (((fun x v => Host.reduceAdd x v reducesTo_S3200000x22_S3200000_d1 h_S_) : (⟨S3200000x22, .f32⟩ : BufTy).Contents (Elt F) → (⟨S_, .f32⟩ : BufTy).Contents (Elt F) → (⟨S3200000, .f32⟩ : BufTy).Contents (Elt F)) t11 t12 : (⟨S3200000, .f32⟩ : BufTy).Contents (Elt F))
  let t14 := ((broadcastInDim S3200000x1 ![0] bcast_S3200000_S3200000x1_0 : (⟨S3200000, .f32⟩ : BufTy).Contents (Elt F) → (⟨S3200000x1, .f32⟩ : BufTy).Contents (Elt F)) t13 : (⟨S3200000x1, .f32⟩ : BufTy).Contents (Elt F))
  let t15 := ((broadcastInDim S3200000x22 ![0, 1] bcast_S3200000x1_S3200000x22_0_1 : (⟨S3200000x1, .f32⟩ : BufTy).Contents (Elt F) → (⟨S3200000x22, .f32⟩ : BufTy).Contents (Elt F)) t14 : (⟨S3200000x22, .f32⟩ : BufTy).Contents (Elt F))
  let t16 := ((Host.divf : (⟨S3200000x22, .f32⟩ : BufTy).Contents (Elt F) → (⟨S3200000x22, .f32⟩ : BufTy).Contents (Elt F) → (⟨S3200000x22, .f32⟩ : BufTy).Contents (Elt F)) t11 t15 : (⟨S3200000x22, .f32⟩ : BufTy).Contents (Elt F))
  let t17 := ((broadcastInDim S3200000x22 ![] bcast_S_S3200000x22 : (⟨S_, .f32⟩ : BufTy).Contents (Elt F) → (⟨S3200000x22, .f32⟩ : BufTy).Contents (Elt F)) sp : (⟨S3200000x22, .f32⟩ : BufTy).Contents (Elt F))
  let t18 := ((mulf : (⟨S3200000x22, .f32⟩ : BufTy).Contents (Elt F) → (⟨S3200000x22, .f32⟩ : BufTy).Contents (Elt F) → (⟨S3200000x22, .f32⟩ : BufTy).Contents (Elt F)) t17 t16 : (⟨S3200000x22, .f32⟩ : BufTy).Contents (Elt F))
  let t19 := ((broadcastInDim S1x22 ![1] bcast_S22_S1x22_1 : (⟨S22, .f32⟩ : BufTy).Contents (Elt F) → (⟨S1x22, .f32⟩ : BufTy).Contents (Elt F)) s : (⟨S1x22, .f32⟩ : BufTy).Contents (Elt F))
  let t20 := ((broadcastInDim S3200000x22 ![0, 1] bcast_S1x22_S3200000x22_0_1 : (⟨S1x22, .f32⟩ : BufTy).Contents (Elt F) → (⟨S3200000x22, .f32⟩ : BufTy).Contents (Elt F)) t19 : (⟨S3200000x22, .f32⟩ : BufTy).Contents (Elt F))
  let t21 := ((mulf : (⟨S3200000x22, .f32⟩ : BufTy).Contents (Elt F) → (⟨S3200000x22, .f32⟩ : BufTy).Contents (Elt F) → (⟨S3200000x22, .f32⟩ : BufTy).Contents (Elt F)) t18 t20 : (⟨S3200000x22, .f32⟩ : BufTy).Contents (Elt F))
  t21

/-- Columns 0–9 of the boost scatter-added into the node table at the first endpoints. -/
noncomputable def scat1 (z : (⟨S100000x10, .f32⟩ : BufTy).Contents (Elt F)) (d : (⟨S3200000x22, .f32⟩ : BufTy).Contents (Elt F)) (sx : (⟨S3200000, .i32⟩ : BufTy).Contents (Elt F)) :
    (⟨S100000x10, .f32⟩ : BufTy).Contents (Elt F) :=
  let t0 := (((extractStridedSlice S3200000x10 ![0, 0] · slices_S3200000x22_S3200000x10_0_0) : (⟨S3200000x22, .f32⟩ : BufTy).Contents (Elt F) → (⟨S3200000x10, .f32⟩ : BufTy).Contents (Elt F)) d : (⟨S3200000x10, .f32⟩ : BufTy).Contents (Elt F))
  let t1 := ((constantI S_ 32 0#32) : (⟨S_, .i32⟩ : BufTy).Contents (Elt F))
  let t2 := ((broadcastInDim S3200000 ![] bcast_S_S3200000 : (⟨S_, .i32⟩ : BufTy).Contents (Elt F) → (⟨S3200000, .i32⟩ : BufTy).Contents (Elt F)) t1 : (⟨S3200000, .i32⟩ : BufTy).Contents (Elt F))
  let t3 := ((cmpi .slt : (⟨S3200000, .i32⟩ : BufTy).Contents (Elt F) → (⟨S3200000, .i32⟩ : BufTy).Contents (Elt F) → (⟨S3200000, .i1⟩ : BufTy).Contents (Elt F)) sx t2 : (⟨S3200000, .i1⟩ : BufTy).Contents (Elt F))
  let t4 := ((constantI S_ 32 100000#32) : (⟨S_, .i32⟩ : BufTy).Contents (Elt F))
  let t5 := ((broadcastInDim S3200000 ![] bcast_S_S3200000 : (⟨S_, .i32⟩ : BufTy).Contents (Elt F) → (⟨S3200000, .i32⟩ : BufTy).Contents (Elt F)) t4 : (⟨S3200000, .i32⟩ : BufTy).Contents (Elt F))
  let t6 := ((addi : (⟨S3200000, .i32⟩ : BufTy).Contents (Elt F) → (⟨S3200000, .i32⟩ : BufTy).Contents (Elt F) → (⟨S3200000, .i32⟩ : BufTy).Contents (Elt F)) sx t5 : (⟨S3200000, .i32⟩ : BufTy).Contents (Elt F))
  let t7 := ((select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) t3 t6 sx : (⟨S3200000, .i32⟩ : BufTy).Contents (Elt F))
  let t8 := ((broadcastInDim S3200000x1 ![0] bcast_S3200000_S3200000x1_0 : (⟨S3200000, .i32⟩ : BufTy).Contents (Elt F) → (⟨S3200000x1, .i32⟩ : BufTy).Contents (Elt F)) t7 : (⟨S3200000x1, .i32⟩ : BufTy).Contents (Elt F))
  let t9 := (((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)) z t8 t0 : (⟨S100000x10, .f32⟩ : BufTy).Contents (Elt F))
  t9

/-- Columns 10–19 of the boost scatter-added into the node table at the second endpoints. -/
noncomputable def scat2 (z1 : (⟨S100000x10, .f32⟩ : BufTy).Contents (Elt F)) (d : (⟨S3200000x22, .f32⟩ : BufTy).Contents (Elt F)) (sy : (⟨S3200000, .i32⟩ : BufTy).Contents (Elt F)) :
    (⟨S100000x10, .f32⟩ : BufTy).Contents (Elt F) :=
  let t0 := (((extractStridedSlice S3200000x10 ![0, 10] · slices_S3200000x22_S3200000x10_0_10) : (⟨S3200000x22, .f32⟩ : BufTy).Contents (Elt F) → (⟨S3200000x10, .f32⟩ : BufTy).Contents (Elt F)) d : (⟨S3200000x10, .f32⟩ : BufTy).Contents (Elt F))
  let t1 := ((constantI S_ 32 0#32) : (⟨S_, .i32⟩ : BufTy).Contents (Elt F))
  let t2 := ((broadcastInDim S3200000 ![] bcast_S_S3200000 : (⟨S_, .i32⟩ : BufTy).Contents (Elt F) → (⟨S3200000, .i32⟩ : BufTy).Contents (Elt F)) t1 : (⟨S3200000, .i32⟩ : BufTy).Contents (Elt F))
  let t3 := ((cmpi .slt : (⟨S3200000, .i32⟩ : BufTy).Contents (Elt F) → (⟨S3200000, .i32⟩ : BufTy).Contents (Elt F) → (⟨S3200000, .i1⟩ : BufTy).Contents (Elt F)) sy t2 : (⟨S3200000, .i1⟩ : BufTy).Contents (Elt F))
  let t4 := ((constantI S_ 32 100000#32) : (⟨S_, .i32⟩ : BufTy).Contents (Elt F))
  let t5 := ((broadcastInDim S3200000 ![] bcast_S_S3200000 : (⟨S_, .i32⟩ : BufTy).Contents (Elt F) → (⟨S3200000, .i32⟩ : BufTy).Contents (Elt F)) t4 : (⟨S3200000, .i32⟩ : BufTy).Contents (Elt F))
  let t6 := ((addi : (⟨S3200000, .i32⟩ : BufTy).Contents (Elt F) → (⟨S3200000, .i32⟩ : BufTy).Contents (Elt F) → (⟨S3200000, .i32⟩ : BufTy).Contents (Elt F)) sy t5 : (⟨S3200000, .i32⟩ : BufTy).Contents (Elt F))
  let t7 := ((select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) t3 t6 sy : (⟨S3200000, .i32⟩ : BufTy).Contents (Elt F))
  let t8 := ((broadcastInDim S3200000x1 ![0] bcast_S3200000_S3200000x1_0 : (⟨S3200000, .i32⟩ : BufTy).Contents (Elt F) → (⟨S3200000x1, .i32⟩ : BufTy).Contents (Elt F)) t7 : (⟨S3200000x1, .i32⟩ : BufTy).Contents (Elt F))
  let t9 := (((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)) z1 t8 t0 : (⟨S100000x10, .f32⟩ : BufTy).Contents (Elt F))
  t9

end Cert.ReferenceIdeal.Stage

end
-- ==== Proof.RefStageSplit.lean ====
/- A layer of the reference program is its six parts put together. -/
import proofs.«140184_j29661044146691_2_alg».proof.Proof.RefStageDefs
import proofs.«140184_j29661044146691_2_alg».proof.Proof.RefStageParts

set_option maxRecDepth 65536

noncomputable section

namespace Cert.ReferenceIdeal.Stage

open Cert.ReferenceIdeal Idealize.ShloMosaic

variable {F : FTy → Type} [FloatOps F] [Cert.ReferenceIdeal.Facts]

theorem layer_parts (z : (⟨S100000x10, .f32⟩ : BufTy).Contents (Elt F)) (rel : (⟨S3200000x2, .f32⟩ : BufTy).Contents (Elt F))
    (w : (⟨S_, .f32⟩ : BufTy).Contents (Elt F)) (sx sy : (⟨S3200000, .i32⟩ : BufTy).Contents (Elt F)) :
    layer z rel w sx sy = scat2 (scat1 z (deltas sgn (lits z rel sx sy) (splus w)) sx) (deltas sgn (lits z rel sx sy) (splus w)) sy := rfl

end Cert.ReferenceIdeal.Stage

end
-- ==== Proof.RefStagesCommon.lean ====
import proofs.«140184_j29661044146691_2_alg».proof.Proof.RefStageTable
import proofs.«140184_j29661044146691_2_alg».proof.Proof.RefStageSplit
import proofs.«140184_j29661044146691_2_alg».proof.Proof.LibHostLine

/-! What the three relational layers' stage lemmas share: the tactic that reads off which buffer each operation of a
    literal line writes, and seven lines run in a row. -/

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- Each operation of a literal line writes the buffer listed at its place: the builder's own field. -/
macro "writes_one" : tactic => `(tactic| repeat' (first | exact List.Forall₂.nil | refine List.Forall₂.cons rfl ?_))

/-- Seven lines run one after the other. -/
theorem after_append7 (a b c d e f g : List (HloOp τ sig (Elt F))) (V : Valuation τ sig (Elt F)) :
    after (a ++ (b ++ (c ++ (d ++ (e ++ (f ++ g)))))) V
      = after g (after f (after e (after d (after c (after b (after a V)))))) := by
  simp only [after_append]

end Cert.ReferenceIdeal.HostRun

end
-- ==== Proof.RefStagesEnds.lean ====
/- The two end stages of the reference program read back: the node table before any layer is the perceptron stage's function of
   the five arrays it reads, and the four results are the head's functions of the node table after the last layer. -/
import proofs.«140184_j29661044146691_2_alg».proof.Proof.RefStagesCommon
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! ## The perceptron stage -/

theorem opsMlp_ok : WritesOne (opsMlp : List (HloOp τ sig (Elt F))) wMlp := by writes_one
theorem opsMlp_keeps (W : Valuation τ sig (Elt F)) {b : Ref sig .tc} (hb : b ∉ wMlp) :
    after opsMlp W (no_index (Proc.devRef .tc b)) = W (Proc.devRef .tc b) := after_unwritten opsMlp_ok hb W

attribute [local irreducible] concatenate broadcastInDim extractStridedSlice shapeCast Host.gather Host.scatterAdd Host.reduce Host.reduceAdd in
set_option maxRecDepth 8192 in
set_option maxHeartbeats 1000000 in
/-- The node table before any layer is the perceptron stage's function of the five arrays it reads. -/
theorem mlp_eq (W : Valuation τ sig (Elt F)) :
    after opsMlp W (main_v46 : DevRef τ sig)
      = Stage.mlp (W (main_arg0 : DevRef τ sig)) (W (main_arg2 : DevRef τ sig)) (W (main_arg3 : DevRef τ sig))
          (W (main_arg4 : DevRef τ sig)) (W (main_arg5 : DevRef τ sig)) := by
  simp only [after_cons, after_nil]
  rfl

/-! ## The head -/

theorem opsHead_ok : WritesOne (opsHead : List (HloOp τ sig (Elt F))) wHead := by writes_one
theorem opsHead_keeps (W : Valuation τ sig (Elt F)) {b : Ref sig .tc} (hb : b ∉ wHead) :
    after opsHead W (no_index (Proc.devRef .tc b)) = W (Proc.devRef .tc b) := after_unwritten opsHead_ok hb W

set_option maxRecDepth 65536 in
set_option maxHeartbeats 4000000 in
/-- The first group of four logits. -/
theorem headA_eq (W : Valuation τ sig (Elt F)) :
    after opsHead W (main_v225 : DevRef τ sig) = Stage.headA (W (main_v223 : DevRef τ sig)) := by
  simp only [Stage.headA]
  simp only [opsHead, q8, q9, List.cons_append, List.nil_append, List.append_nil, List.append_assoc]
  after_results_simp

set_option maxRecDepth 65536 in
set_option maxHeartbeats 4000000 in
/-- The softmax of the first group of four logits. -/
theorem headSA_eq (W : Valuation τ sig (Elt F)) :
    after opsHead W (main_v237 : DevRef τ sig) = Stage.headSA (W (main_v223 : DevRef τ sig)) := by
  simp only [Stage.headSA]
  simp only [opsHead, q8, q9, List.cons_append, List.nil_append, List.append_nil, List.append_assoc]
  after_results_simp

set_option maxRecDepth 65536 in
set_option maxHeartbeats 4000000 in
/-- The second group of four logits. -/
theorem headB_eq (W : Valuation τ sig (Elt F)) :
    after opsHead W (main_v226 : DevRef τ sig) = Stage.headB (W (main_v223 : DevRef τ sig)) := by
  simp only [Stage.headB]
  simp only [opsHead, q8, q9, List.cons_append, List.nil_append, List.append_nil, List.append_assoc]
  after_results_simp

set_option maxRecDepth 65536 in
set_option maxHeartbeats 4000000 in
/-- The softmax of the second group of four logits. -/
theorem headSB_eq (W : Valuation τ sig (Elt F)) :
    after opsHead W (main_v248 : DevRef τ sig) = Stage.headSB (W (main_v223 : DevRef τ sig)) := by
  simp only [Stage.headSB]
  simp only [opsHead, q8, q9, List.cons_append, List.nil_append, List.append_nil, List.append_assoc]
  after_results_simp

end Cert.ReferenceIdeal.HostRun

end
-- ==== Proof.RefStagesL1.lean ====
import proofs.«140184_j29661044146691_2_alg».proof.Proof.RefStagesCommon

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! Relational layer 1 of the reference program. Its line is seven parts in a row. Each part's live-out is that part's
    function of its live-ins: the part's function is unfolded to the nest of the operations' functions, the fold over the
    part's operations is rewritten result by result (an operation's result at its own buffer is its function of its operands'
    contents; at any other buffer, what was there), and the two sides agree. A part leaves every buffer outside its written
    list alone, so the parts compose. -/

theorem opsL1_parts : (opsL1 : List (HloOp τ sig (Elt F)))
    = l1_w ++ (l1_sgn ++ (l1_lits ++ (l1_splus ++ (l1_deltas ++ (l1_scat1 ++ l1_scat2))))) := rfl

theorem l1_w_ok : WritesOne (l1_w : List (HloOp τ sig (Elt F))) w1_w := by writes_one
theorem l1_w_keeps (W : Valuation τ sig (Elt F)) {b : Ref sig .tc} (hb : b ∉ w1_w) :
    after l1_w W (no_index (Proc.devRef .tc b)) = W (Proc.devRef .tc b) := after_unwritten l1_w_ok hb W
set_option maxRecDepth 65536 in
set_option maxHeartbeats 4000000 in
/-- The clause weight: the slice of the weight vector, as a scalar. -/
theorem l1_w_eq (W : Valuation τ sig (Elt F)) :
    after l1_w W (no_index (main_v48 : DevRef τ sig)) = Stage.weight0 (W (main_arg6 : DevRef τ sig)) := by
  simp only [Stage.weight0]
  simp only [l1_w]
  after_results_simp
  rfl

theorem l1_sgn_ok : WritesOne (l1_sgn : List (HloOp τ sig (Elt F))) w1_sgn := by writes_one
theorem l1_sgn_keeps (W : Valuation τ sig (Elt F)) {b : Ref sig .tc} (hb : b ∉ w1_sgn) :
    after l1_sgn W (no_index (Proc.devRef .tc b)) = W (Proc.devRef .tc b) := after_unwritten l1_sgn_ok hb W
set_option maxRecDepth 65536 in
set_option maxHeartbeats 4000000 in
/-- The sign vector: it reads nothing. -/
theorem l1_sgn_eq (W : Valuation τ sig (Elt F)) :
    after l1_sgn W (no_index (main_v54 : DevRef τ sig)) = Stage.sgn := by
  simp only [Stage.sgn]
  simp only [l1_sgn]
  after_results_simp
  rfl

theorem l1_lits_ok : WritesOne (l1_lits : List (HloOp τ sig (Elt F))) w1_lits := by writes_one
theorem l1_lits_keeps (W : Valuation τ sig (Elt F)) {b : Ref sig .tc} (hb : b ∉ w1_lits) :
    after l1_lits W (no_index (Proc.devRef .tc b)) = W (Proc.devRef .tc b) := after_unwritten l1_lits_ok hb W
set_option maxRecDepth 65536 in
set_option maxHeartbeats 4000000 in
/-- The 22 literals of every edge: both endpoint rows of the node table beside the relation features. -/
theorem l1_lits_eq (W : Valuation τ sig (Elt F)) :
    after l1_lits W (no_index (main_v69 : DevRef τ sig))
      = Stage.lits (W (main_v46 : DevRef τ sig)) (W (main_arg1 : DevRef τ sig)) (W (main_arg7 : DevRef τ sig)) (W (main_arg8 : DevRef τ sig)) := by
  simp only [Stage.lits]
  simp only [l1_lits]
  after_results_simp
  rfl

theorem l1_splus_ok : WritesOne (l1_splus : List (HloOp τ sig (Elt F))) w1_splus := by writes_one
theorem l1_splus_keeps (W : Valuation τ sig (Elt F)) {b : Ref sig .tc} (hb : b ∉ w1_splus) :
    after l1_splus W (no_index (Proc.devRef .tc b)) = W (Proc.devRef .tc b) := after_unwritten l1_splus_ok hb W
set_option maxRecDepth 65536 in
set_option maxHeartbeats 4000000 in
/-- The softplus of the clause weight. -/
theorem l1_splus_eq (W : Valuation τ sig (Elt F)) :
    after l1_splus W (no_index (main_v70 : DevRef τ sig)) = Stage.splus (W (main_v48 : DevRef τ sig)) := by
  simp only [Stage.splus]
  simp only [l1_splus]
  after_results_simp
  rfl

theorem l1_deltas_ok : WritesOne (l1_deltas : List (HloOp τ sig (Elt F))) w1_deltas := by writes_one
theorem l1_deltas_keeps (W : Valuation τ sig (Elt F)) {b : Ref sig .tc} (hb : b ∉ w1_deltas) :
    after l1_deltas W (no_index (Proc.devRef .tc b)) = W (Proc.devRef .tc b) := after_unwritten l1_deltas_ok hb W
set_option maxRecDepth 65536 in
set_option maxHeartbeats 4000000 in
/-- The softmax of the signed literals, scaled by the softplus and signed again. -/
theorem l1_deltas_eq (W : Valuation τ sig (Elt F)) :
    after l1_deltas W (no_index (main_v89 : DevRef τ sig))
      = Stage.deltas (W (main_v54 : DevRef τ sig)) (W (main_v69 : DevRef τ sig)) (W (main_v70 : DevRef τ sig)) := by
  simp only [Stage.deltas]
  simp only [l1_deltas]
  after_results_simp

theorem l1_scat1_ok : WritesOne (l1_scat1 : List (HloOp τ sig (Elt F))) w1_scat1 := by writes_one
theorem l1_scat1_keeps (W : Valuation τ sig (Elt F)) {b : Ref sig .tc} (hb : b ∉ w1_scat1) :
    after l1_scat1 W (no_index (Proc.devRef .tc b)) = W (Proc.devRef .tc b) := after_unwritten l1_scat1_ok hb W
set_option maxRecDepth 65536 in
set_option maxHeartbeats 4000000 in
/-- The first scatter-add: columns 0–9 at the first endpoints. -/
theorem l1_scat1_eq (W : Valuation τ sig (Elt F)) :
    after l1_scat1 W (no_index (main_v97 : DevRef τ sig))
      = Stage.scat1 (W (main_v46 : DevRef τ sig)) (W (main_v89 : DevRef τ sig)) (W (main_arg7 : DevRef τ sig)) := by
  simp only [Stage.scat1]
  simp only [l1_scat1]
  after_results_simp

theorem l1_scat2_ok : WritesOne (l1_scat2 : List (HloOp τ sig (Elt F))) w1_scat2 := by writes_one
theorem l1_scat2_keeps (W : Valuation τ sig (Elt F)) {b : Ref sig .tc} (hb : b ∉ w1_scat2) :
    after l1_scat2 W (no_index (Proc.devRef .tc b)) = W (Proc.devRef .tc b) := after_unwritten l1_scat2_ok hb W
set_option maxRecDepth 65536 in
set_option maxHeartbeats 4000000 in
/-- The second scatter-add: columns 10–19 at the second endpoints. -/
theorem l1_scat2_eq (W : Valuation τ sig (Elt F)) :
    after l1_scat2 W (no_index (main_v105 : DevRef τ sig))
      = Stage.scat2 (W (main_v97 : DevRef τ sig)) (W (main_v89 : DevRef τ sig)) (W (main_arg8 : DevRef τ sig)) := by
  simp only [Stage.scat2]
  simp only [l1_scat2]
  after_results_simp

set_option maxRecDepth 65536 in
set_option maxHeartbeats 4000000 in
/-- The node table after layer 1 is the layer's function of the table before it, the relation features, the clause weight
    and the two endpoint columns. -/
theorem layer1_eq (W : Valuation τ sig (Elt F)) :
    after opsL1 W (main_v105 : DevRef τ sig)
      = Stage.layer (W (main_v46 : DevRef τ sig)) (W (main_arg1 : DevRef τ sig)) (Stage.weight0 (W (main_arg6 : DevRef τ sig)))
          (W (main_arg7 : DevRef τ sig)) (W (main_arg8 : DevRef τ sig)) := by
  rw [opsL1_parts, after_append7, Stage.layer_parts]
  simp (disch := decide) only [l1_w_eq, l1_sgn_eq, l1_lits_eq, l1_splus_eq, l1_deltas_eq, l1_scat1_eq, l1_scat2_eq,
    l1_w_keeps, l1_sgn_keeps, l1_lits_keeps, l1_splus_keeps, l1_deltas_keeps, l1_scat1_keeps, l1_scat2_keeps]

end Cert.ReferenceIdeal.HostRun

end
-- ==== Proof.RefStagesL2.lean ====
/- Layer 2 of the reference program read back: the node table after the layer is the layer's function of the table before it,
   the relation features, the layer's clause weight and the two endpoint columns. The layer's line is seven parts in a row (the clause
   weight, the sign vector, the 22 literals of every edge, the softplus of the weight, the scaled signed softmax, and the two
   scatter-adds in turn); each part's live-out is that part's function of its live-ins, and a part leaves every buffer it does not
   write alone. -/
import proofs.«140184_j29661044146691_2_alg».proof.Proof.RefStagesCommon

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The layer's line is its seven parts, one after the other. -/
theorem opsL2_parts : (opsL2 : List (HloOp τ sig (Elt F)))
    = l2_w ++ (l2_sgn ++ (l2_lits ++ (l2_splus ++ (l2_deltas ++ (l2_scat1 ++ l2_scat2))))) := rfl

theorem l2_w_ok : WritesOne (l2_w : List (HloOp τ sig (Elt F))) w2_w := by writes_one
theorem l2_w_keeps (W : Valuation τ sig (Elt F)) {b : Ref sig .tc} (hb : b ∉ w2_w) :
    after l2_w W (no_index (Proc.devRef .tc b)) = W (Proc.devRef .tc b) := after_unwritten l2_w_ok hb W
set_option maxRecDepth 65536 in
set_option maxHeartbeats 4000000 in
/-- Layer 2, the clause weight. -/
theorem l2_w_eq (W : Valuation τ sig (Elt F)) :
    after l2_w W (no_index (main_v107 : DevRef τ sig))
      = Stage.weight1 (W (main_arg6 : DevRef τ sig)) := by
  simp only [Stage.weight1]
  simp only [l2_w]
  after_results_simp
  rfl

theorem l2_sgn_ok : WritesOne (l2_sgn : List (HloOp τ sig (Elt F))) w2_sgn := by writes_one
theorem l2_sgn_keeps (W : Valuation τ sig (Elt F)) {b : Ref sig .tc} (hb : b ∉ w2_sgn) :
    after l2_sgn W (no_index (Proc.devRef .tc b)) = W (Proc.devRef .tc b) := after_unwritten l2_sgn_ok hb W
set_option maxRecDepth 65536 in
set_option maxHeartbeats 4000000 in
/-- Layer 2, the sign vector (it reads nothing). -/
theorem l2_sgn_eq (W : Valuation τ sig (Elt F)) :
    after l2_sgn W (no_index (main_v113 : DevRef τ sig))
      = Stage.sgn := by
  simp only [Stage.sgn]
  simp only [l2_sgn]
  after_results_simp
  rfl

theorem l2_lits_ok : WritesOne (l2_lits : List (HloOp τ sig (Elt F))) w2_lits := by writes_one
theorem l2_lits_keeps (W : Valuation τ sig (Elt F)) {b : Ref sig .tc} (hb : b ∉ w2_lits) :
    after l2_lits W (no_index (Proc.devRef .tc b)) = W (Proc.devRef .tc b) := after_unwritten l2_lits_ok hb W
set_option maxRecDepth 65536 in
set_option maxHeartbeats 4000000 in
/-- Layer 2, the 22 literals of every edge. -/
theorem l2_lits_eq (W : Valuation τ sig (Elt F)) :
    after l2_lits W (no_index (main_v128 : DevRef τ sig))
      = Stage.lits (W (main_v105 : DevRef τ sig)) (W (main_arg1 : DevRef τ sig)) (W (main_arg7 : DevRef τ sig)) (W (main_arg8 : DevRef τ sig)) := by
  simp only [Stage.lits]
  simp only [l2_lits]
  after_results_simp
  rfl

theorem l2_splus_ok : WritesOne (l2_splus : List (HloOp τ sig (Elt F))) w2_splus := by writes_one
theorem l2_splus_keeps (W : Valuation τ sig (Elt F)) {b : Ref sig .tc} (hb : b ∉ w2_splus) :
    after l2_splus W (no_index (Proc.devRef .tc b)) = W (Proc.devRef .tc b) := after_unwritten l2_splus_ok hb W
set_option maxRecDepth 65536 in
set_option maxHeartbeats 4000000 in
/-- Layer 2, the softplus of the clause weight. -/
theorem l2_splus_eq (W : Valuation τ sig (Elt F)) :
    after l2_splus W (no_index (main_v129 : DevRef τ sig))
      = Stage.splus (W (main_v107 : DevRef τ sig)) := by
  simp only [Stage.splus]
  simp only [l2_splus]
  after_results_simp
  rfl

theorem l2_deltas_ok : WritesOne (l2_deltas : List (HloOp τ sig (Elt F))) w2_deltas := by writes_one
theorem l2_deltas_keeps (W : Valuation τ sig (Elt F)) {b : Ref sig .tc} (hb : b ∉ w2_deltas) :
    after l2_deltas W (no_index (Proc.devRef .tc b)) = W (Proc.devRef .tc b) := after_unwritten l2_deltas_ok hb W
set_option maxRecDepth 65536 in
set_option maxHeartbeats 4000000 in
/-- Layer 2, the scaled, signed softmax. -/
theorem l2_deltas_eq (W : Valuation τ sig (Elt F)) :
    after l2_deltas W (no_index (main_v148 : DevRef τ sig))
      = Stage.deltas (W (main_v113 : DevRef τ sig)) (W (main_v128 : DevRef τ sig)) (W (main_v129 : DevRef τ sig)) := by
  simp only [Stage.deltas]
  simp only [l2_deltas]
  after_results_simp

theorem l2_scat1_ok : WritesOne (l2_scat1 : List (HloOp τ sig (Elt F))) w2_scat1 := by writes_one
theorem l2_scat1_keeps (W : Valuation τ sig (Elt F)) {b : Ref sig .tc} (hb : b ∉ w2_scat1) :
    after l2_scat1 W (no_index (Proc.devRef .tc b)) = W (Proc.devRef .tc b) := after_unwritten l2_scat1_ok hb W
set_option maxRecDepth 65536 in
set_option maxHeartbeats 4000000 in
/-- Layer 2, the first scatter-add. -/
theorem l2_scat1_eq (W : Valuation τ sig (Elt F)) :
    after l2_scat1 W (no_index (main_v156 : DevRef τ sig))
      = Stage.scat1 (W (main_v105 : DevRef τ sig)) (W (main_v148 : DevRef τ sig)) (W (main_arg7 : DevRef τ sig)) := by
  simp only [Stage.scat1]
  simp only [l2_scat1]
  after_results_simp

theorem l2_scat2_ok : WritesOne (l2_scat2 : List (HloOp τ sig (Elt F))) w2_scat2 := by writes_one
theorem l2_scat2_keeps (W : Valuation τ sig (Elt F)) {b : Ref sig .tc} (hb : b ∉ w2_scat2) :
    after l2_scat2 W (no_index (Proc.devRef .tc b)) = W (Proc.devRef .tc b) := after_unwritten l2_scat2_ok hb W
set_option maxRecDepth 65536 in
set_option maxHeartbeats 4000000 in
/-- Layer 2, the second scatter-add. -/
theorem l2_scat2_eq (W : Valuation τ sig (Elt F)) :
    after l2_scat2 W (no_index (main_v164 : DevRef τ sig))
      = Stage.scat2 (W (main_v156 : DevRef τ sig)) (W (main_v148 : DevRef τ sig)) (W (main_arg8 : DevRef τ sig)) := by
  simp only [Stage.scat2]
  simp only [l2_scat2]
  after_results_simp

/-- Layer 2: the node table after it is the layer's function of the table before it, the relation features, the clause
    weight and the two endpoint columns. -/
theorem layer2_eq (W : Valuation τ sig (Elt F)) :
    after opsL2 W (main_v164 : DevRef τ sig)
      = Stage.layer (W (main_v105 : DevRef τ sig)) (W (main_arg1 : DevRef τ sig)) (Stage.weight1 (W (main_arg6 : DevRef τ sig)))
          (W (main_arg7 : DevRef τ sig)) (W (main_arg8 : DevRef τ sig)) := by
  rw [opsL2_parts, after_append7, Stage.layer_parts]
  simp (disch := decide) only [l2_w_eq, l2_sgn_eq, l2_lits_eq, l2_splus_eq, l2_deltas_eq, l2_scat1_eq, l2_scat2_eq,
    l2_w_keeps, l2_sgn_keeps, l2_lits_keeps, l2_splus_keeps, l2_deltas_keeps, l2_scat1_keeps, l2_scat2_keeps]

end Cert.ReferenceIdeal.HostRun

end
-- ==== Proof.RefStagesL3.lean ====
/- Layer 3 of the reference program read back: its line is seven parts in a row, each part's live-out is that part's
   function of its live-ins and leaves every buffer outside its written list alone, and the node table after the layer is
   the layer's function of the table before it, the relation features, the clause weight and the two endpoint columns. -/
import proofs.«140184_j29661044146691_2_alg».proof.Proof.RefStagesCommon
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! ## Layer 3

The layer's line is seven parts in a row; each part's live-out is that part's function of its live-ins, by computation:
the fold unrolled, each operation's result deciding whether the buffer read is the one it writes, the array operations
kept folded. A part leaves every buffer outside its written list alone. -/

theorem opsL3_parts : (opsL3 : List (HloOp τ sig (Elt F)))
    = l3_w ++ (l3_sgn ++ (l3_lits ++ (l3_splus ++ (l3_deltas ++ (l3_scat1 ++ l3_scat2))))) := rfl

theorem l3_w_ok : WritesOne (l3_w : List (HloOp τ sig (Elt F))) w3_w := by writes_one
theorem l3_w_keeps (W : Valuation τ sig (Elt F)) {b : Ref sig .tc} (hb : b ∉ w3_w) :
    after l3_w W (no_index (Proc.devRef .tc b)) = W (Proc.devRef .tc b) := after_unwritten l3_w_ok hb W
set_option maxRecDepth 65536 in
set_option maxHeartbeats 4000000 in
/-- Layer 3, the clause weight. -/
theorem l3_w_eq (W : Valuation τ sig (Elt F)) :
    after l3_w W (main_v166 : DevRef τ sig) = Stage.weight2 (W (main_arg6 : DevRef τ sig)) := by
  simp only [Stage.weight2]
  simp only [l3_w]
  after_results_simp <;> rfl

theorem l3_sgn_ok : WritesOne (l3_sgn : List (HloOp τ sig (Elt F))) w3_sgn := by writes_one
theorem l3_sgn_keeps (W : Valuation τ sig (Elt F)) {b : Ref sig .tc} (hb : b ∉ w3_sgn) :
    after l3_sgn W (no_index (Proc.devRef .tc b)) = W (Proc.devRef .tc b) := after_unwritten l3_sgn_ok hb W
set_option maxRecDepth 65536 in
set_option maxHeartbeats 4000000 in
/-- Layer 3, the sign vector (it reads nothing). -/
theorem l3_sgn_eq (W : Valuation τ sig (Elt F)) :
    after l3_sgn W (main_v172 : DevRef τ sig) = Stage.sgn := by
  simp only [Stage.sgn]
  simp only [l3_sgn]
  after_results_simp <;> rfl

theorem l3_lits_ok : WritesOne (l3_lits : List (HloOp τ sig (Elt F))) w3_lits := by writes_one
theorem l3_lits_keeps (W : Valuation τ sig (Elt F)) {b : Ref sig .tc} (hb : b ∉ w3_lits) :
    after l3_lits W (no_index (Proc.devRef .tc b)) = W (Proc.devRef .tc b) := after_unwritten l3_lits_ok hb W
set_option maxRecDepth 65536 in
set_option maxHeartbeats 4000000 in
/-- Layer 3, the 22 literals of every edge. -/
theorem l3_lits_eq (W : Valuation τ sig (Elt F)) :
    after l3_lits W (main_v187 : DevRef τ sig)
      = Stage.lits (W (main_v164 : DevRef τ sig)) (W (main_arg1 : DevRef τ sig)) (W (main_arg7 : DevRef τ sig)) (W (main_arg8 : DevRef τ sig)) := by
  simp only [Stage.lits]
  simp only [l3_lits]
  after_results_simp <;> rfl

theorem l3_splus_ok : WritesOne (l3_splus : List (HloOp τ sig (Elt F))) w3_splus := by writes_one
theorem l3_splus_keeps (W : Valuation τ sig (Elt F)) {b : Ref sig .tc} (hb : b ∉ w3_splus) :
    after l3_splus W (no_index (Proc.devRef .tc b)) = W (Proc.devRef .tc b) := after_unwritten l3_splus_ok hb W
set_option maxRecDepth 65536 in
set_option maxHeartbeats 4000000 in
/-- Layer 3, the softplus of the clause weight. -/
theorem l3_splus_eq (W : Valuation τ sig (Elt F)) :
    after l3_splus W (main_v188 : DevRef τ sig) = Stage.splus (W (main_v166 : DevRef τ sig)) := by
  simp only [Stage.splus]
  simp only [l3_splus]
  after_results_simp <;> rfl

theorem l3_deltas_ok : WritesOne (l3_deltas : List (HloOp τ sig (Elt F))) w3_deltas := by writes_one
theorem l3_deltas_keeps (W : Valuation τ sig (Elt F)) {b : Ref sig .tc} (hb : b ∉ w3_deltas) :
    after l3_deltas W (no_index (Proc.devRef .tc b)) = W (Proc.devRef .tc b) := after_unwritten l3_deltas_ok hb W
set_option maxRecDepth 65536 in
set_option maxHeartbeats 4000000 in
/-- Layer 3, the scaled, signed softmax. -/
theorem l3_deltas_eq (W : Valuation τ sig (Elt F)) :
    after l3_deltas W (main_v207 : DevRef τ sig) = Stage.deltas (W (main_v172 : DevRef τ sig)) (W (main_v187 : DevRef τ sig)) (W (main_v188 : DevRef τ sig)) := by
  simp only [Stage.deltas]
  simp only [l3_deltas]
  after_results_simp <;> rfl

theorem l3_scat1_ok : WritesOne (l3_scat1 : List (HloOp τ sig (Elt F))) w3_scat1 := by writes_one
theorem l3_scat1_keeps (W : Valuation τ sig (Elt F)) {b : Ref sig .tc} (hb : b ∉ w3_scat1) :
    after l3_scat1 W (no_index (Proc.devRef .tc b)) = W (Proc.devRef .tc b) := after_unwritten l3_scat1_ok hb W
set_option maxRecDepth 65536 in
set_option maxHeartbeats 4000000 in
/-- Layer 3, the first scatter-add. -/
theorem l3_scat1_eq (W : Valuation τ sig (Elt F)) :
    after l3_scat1 W (main_v215 : DevRef τ sig) = Stage.scat1 (W (main_v164 : DevRef τ sig)) (W (main_v207 : DevRef τ sig)) (W (main_arg7 : DevRef τ sig)) := by
  simp only [Stage.scat1]
  simp only [l3_scat1]
  after_results_simp <;> rfl

theorem l3_scat2_ok : WritesOne (l3_scat2 : List (HloOp τ sig (Elt F))) w3_scat2 := by writes_one
theorem l3_scat2_keeps (W : Valuation τ sig (Elt F)) {b : Ref sig .tc} (hb : b ∉ w3_scat2) :
    after l3_scat2 W (no_index (Proc.devRef .tc b)) = W (Proc.devRef .tc b) := after_unwritten l3_scat2_ok hb W
set_option maxRecDepth 65536 in
set_option maxHeartbeats 4000000 in
/-- Layer 3, the second scatter-add. -/
theorem l3_scat2_eq (W : Valuation τ sig (Elt F)) :
    after l3_scat2 W (main_v223 : DevRef τ sig) = Stage.scat2 (W (main_v215 : DevRef τ sig)) (W (main_v207 : DevRef τ sig)) (W (main_arg8 : DevRef τ sig)) := by
  simp only [Stage.scat2]
  simp only [l3_scat2]
  after_results_simp <;> rfl

set_option maxRecDepth 65536 in
set_option maxHeartbeats 4000000 in
/-- Layer 3: the node table after it is the layer's function of the table before it, the relation features, the clause
    weight and the two endpoint columns. -/
theorem layer3_eq (W : Valuation τ sig (Elt F)) :
    after opsL3 W (main_v223 : DevRef τ sig)
      = Stage.layer (W (main_v164 : DevRef τ sig)) (W (main_arg1 : DevRef τ sig)) (Stage.weight2 (W (main_arg6 : DevRef τ sig)))
          (W (main_arg7 : DevRef τ sig)) (W (main_arg8 : DevRef τ sig)) := by
  rw [opsL3_parts, after_append7, Stage.layer_parts]
  repeat (first
    | rw [l3_scat2_eq] | rw [l3_scat1_eq] | rw [l3_deltas_eq] | rw [l3_splus_eq] | rw [l3_lits_eq] | rw [l3_sgn_eq] | rw [l3_w_eq]
    | (rw [l3_scat2_keeps]; rotate_left; decide)
    | (rw [l3_scat1_keeps]; rotate_left; decide)
    | (rw [l3_deltas_keeps]; rotate_left; decide)
    | (rw [l3_splus_keeps]; rotate_left; decide)
    | (rw [l3_lits_keeps]; rotate_left; decide)
    | (rw [l3_sgn_keeps]; rotate_left; decide)
    | (rw [l3_w_keeps]; rotate_left; decide))

end Cert.ReferenceIdeal.HostRun

end
-- ==== Proof.RefStages.lean ====
import proofs.«140184_j29661044146691_2_alg».proof.Proof.RefStagesEnds
import proofs.«140184_j29661044146691_2_alg».proof.Proof.RefStagesL1
import proofs.«140184_j29661044146691_2_alg».proof.Proof.RefStagesL2
import proofs.«140184_j29661044146691_2_alg».proof.Proof.RefStagesL3

/-! The reference program's four results as functions of its nine arguments: the five stages composed. The whole line
    is the stages' lines in a row, so the contents after it are the head's lines run from the contents after layer 3,
    and so on down to the launch contents; a stage's live-out is its function of its live-ins, and the arguments and the
    earlier live-outs a stage reads are buffers no stage before it has written. -/

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The five stages run one after the other. -/
theorem after_ops (V : Valuation τ sig (Elt F)) :
    after ops V = after opsHead (after opsL3 (after opsL2 (after opsL1 (after opsMlp V)))) :=
  (after_append (opsMlp ++ opsL1 ++ opsL2 ++ opsL3) opsHead V).trans
    (congrArg (after opsHead) ((after_append (opsMlp ++ opsL1 ++ opsL2) opsL3 V).trans
      (congrArg (after opsL3) ((after_append (opsMlp ++ opsL1) opsL2 V).trans
        (congrArg (after opsL2) (after_append opsMlp opsL1 V))))))

/-! ## What layers 1 and 2 leave alone -/

/-- The buffers layer 1 writes. -/
abbrev wL1 : List (Ref sig .tc) := w1_w ++ (w1_sgn ++ (w1_lits ++ (w1_splus ++ (w1_deltas ++ (w1_scat1 ++ w1_scat2)))))
/-- The buffers layer 2 writes. -/
abbrev wL2 : List (Ref sig .tc) := w2_w ++ (w2_sgn ++ (w2_lits ++ (w2_splus ++ (w2_deltas ++ (w2_scat1 ++ w2_scat2)))))

theorem opsL1_ok : WritesOne (opsL1 : List (HloOp τ sig (Elt F))) wL1 :=
  show WritesOne (l1_w ++ (l1_sgn ++ (l1_lits ++ (l1_splus ++ (l1_deltas ++ (l1_scat1 ++ l1_scat2)))))) _ from
    ((by writes_one : WritesOne (l1_w : List (HloOp τ sig (Elt F))) w1_w).append
      ((by writes_one : WritesOne (l1_sgn : List (HloOp τ sig (Elt F))) w1_sgn).append
      ((by writes_one : WritesOne (l1_lits : List (HloOp τ sig (Elt F))) w1_lits).append
      ((by writes_one : WritesOne (l1_splus : List (HloOp τ sig (Elt F))) w1_splus).append
      ((by writes_one : WritesOne (l1_deltas : List (HloOp τ sig (Elt F))) w1_deltas).append
      ((by writes_one : WritesOne (l1_scat1 : List (HloOp τ sig (Elt F))) w1_scat1).append
      (by writes_one : WritesOne (l1_scat2 : List (HloOp τ sig (Elt F))) w1_scat2)))))))
theorem opsL2_ok : WritesOne (opsL2 : List (HloOp τ sig (Elt F))) wL2 :=
  show WritesOne (l2_w ++ (l2_sgn ++ (l2_lits ++ (l2_splus ++ (l2_deltas ++ (l2_scat1 ++ l2_scat2)))))) _ from
    ((by writes_one : WritesOne (l2_w : List (HloOp τ sig (Elt F))) w2_w).append
      ((by writes_one : WritesOne (l2_sgn : List (HloOp τ sig (Elt F))) w2_sgn).append
      ((by writes_one : WritesOne (l2_lits : List (HloOp τ sig (Elt F))) w2_lits).append
      ((by writes_one : WritesOne (l2_splus : List (HloOp τ sig (Elt F))) w2_splus).append
      ((by writes_one : WritesOne (l2_deltas : List (HloOp τ sig (Elt F))) w2_deltas).append
      ((by writes_one : WritesOne (l2_scat1 : List (HloOp τ sig (Elt F))) w2_scat1).append
      (by writes_one : WritesOne (l2_scat2 : List (HloOp τ sig (Elt F))) w2_scat2)))))))

theorem opsL1_keeps (W : Valuation τ sig (Elt F)) {b : Ref sig .tc} (hb : b ∉ wL1) :
    after opsL1 W (no_index (Proc.devRef .tc b)) = W (Proc.devRef .tc b) := after_unwritten opsL1_ok hb W
theorem opsL2_keeps (W : Valuation τ sig (Elt F)) {b : Ref sig .tc} (hb : b ∉ wL2) :
    after opsL2 W (no_index (Proc.devRef .tc b)) = W (Proc.devRef .tc b) := after_unwritten opsL2_ok hb W

/-! ## The node table after the three layers, and the four results -/

/-- The node table after the three layers, as a function of the nine arguments. -/
def zOf (a0 : (⟨S100000x12, .f32⟩ : BufTy).Contents (Elt F)) (a1 : (⟨S3200000x2, .f32⟩ : BufTy).Contents (Elt F))
    (a2 : (⟨S12x1024, .f32⟩ : BufTy).Contents (Elt F)) (a3 : (⟨S1024, .f32⟩ : BufTy).Contents (Elt F))
    (a4 : (⟨S1024x8, .f32⟩ : BufTy).Contents (Elt F)) (a5 : (⟨S8, .f32⟩ : BufTy).Contents (Elt F))
    (a6 : (⟨S3, .f32⟩ : BufTy).Contents (Elt F)) (a7 a8 : (⟨S3200000, .i32⟩ : BufTy).Contents (Elt F)) :
    (⟨S100000x10, .f32⟩ : BufTy).Contents (Elt F) :=
  Stage.layer (Stage.layer (Stage.layer (Stage.mlp a0 a2 a3 a4 a5) a1 (Stage.weight0 a6) a7 a8) a1 (Stage.weight1 a6) a7 a8)
    a1 (Stage.weight2 a6) a7 a8

set_option maxRecDepth 65536 in
set_option maxHeartbeats 4000000 in
theorem z_eq (V : Valuation τ sig (Elt F)) :
    after opsL3 (after opsL2 (after opsL1 (after opsMlp V))) (main_v223 : DevRef τ sig)
      = zOf (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [layer3_eq, layer2_eq, layer1_eq, mlp_eq]
  simp (disch := decide) only [opsL2_keeps, opsL1_keeps, opsMlp_keeps, zOf]

/-- The first group of four logits. -/
theorem ref_A (V : Valuation τ sig (Elt F)) :
    after ops V (main_v225 : DevRef τ sig) = Stage.headA (zOf (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig))) := by
  rw [after_ops, headA_eq, z_eq]
/-- Its softmax. -/
theorem ref_SA (V : Valuation τ sig (Elt F)) :
    after ops V (main_v237 : DevRef τ sig) = Stage.headSA (zOf (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig))) := by
  rw [after_ops, headSA_eq, z_eq]
/-- The second group of four logits. -/
theorem ref_B (V : Valuation τ sig (Elt F)) :
    after ops V (main_v226 : DevRef τ sig) = Stage.headB (zOf (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig))) := by
  rw [after_ops, headB_eq, z_eq]
/-- Its softmax. -/
theorem ref_SB (V : Valuation τ sig (Elt F)) :
    after ops V (main_v248 : DevRef τ sig) = Stage.headSB (zOf (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig))) := by
  rw [after_ops, headSB_eq, z_eq]

end Cert.ReferenceIdeal.HostRun

end
-- ==== Proof.MlpRowReal.lean ====
/-
  A row of the node table is a row of real numbers when the features and the weights are.

  Finite sums, products, differences and maxima of reals are reals; the three float literals the row uses (0, 10
  and 5) are finite patterns, hence reals; the comparison bit enters as the natural number 0 or 1. So every entry of
  `MlpRow.row` over real inputs is a real — neither infinity, and no junk value.
-/
import Idealize.ShloMosaic.PureOps.Ideal.Laws
import proofs.«140184_j29661044146691_2_alg».proof.Proof.MlpRow

open scoped BigOperators

noncomputable section

namespace MlpRow

open Idealize.ShloMosaic Idealize.ShloMosaic.ValueIdx

/-! ## Reals are closed under what a row uses -/

theorem real_add {a b : EReal} (ha : ∃ r : ℝ, a = r) (hb : ∃ r : ℝ, b = r) : ∃ r : ℝ, a + b = r := by
  obtain ⟨x, rfl⟩ := ha
  obtain ⟨y, rfl⟩ := hb
  exact ⟨x + y, (EReal.coe_add x y).symm⟩

theorem real_sub {a b : EReal} (ha : ∃ r : ℝ, a = r) (hb : ∃ r : ℝ, b = r) : ∃ r : ℝ, a - b = r := by
  obtain ⟨x, rfl⟩ := ha
  obtain ⟨y, rfl⟩ := hb
  exact ⟨x - y, (EReal.coe_sub x y).symm⟩

theorem real_mul {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

theorem real_max {a b : EReal} (ha : ∃ r : ℝ, a = r) (hb : ∃ r : ℝ, b = r) : ∃ r : ℝ, max a b = r := by
  rcases max_choice a b with h | h
  · rw [h]; exact ha
  · rw [h]; exact hb

/-- A finite sum of reals is a real. -/
theorem real_sum {ι : Type} (s : Finset ι) (f : ι → EReal) (h : ∀ i ∈ s, ∃ r : ℝ, f i = r) :
    ∃ r : ℝ, ∑ i ∈ s, f i = r := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-- A pattern whose exponent field is not all ones denotes a real. -/
theorem real_ieee (e m : Nat) {w : Nat} (b : BitVec w) (h : (b.extractLsb' m e).toNat ≠ 2 ^ e - 1) :
    ∃ r : ℝ, Ideal.ieee e m b = r := by
  unfold Ideal.ieee
  simp only []
  rw [if_neg h]
  split
  · exact ⟨_, rfl⟩
  · exact ⟨_, rfl⟩

theorem real_zero : ∃ r : ℝ, Ideal.ofBits .f32 0x00000000#32 = r :=
  real_ieee 8 23 (0x00000000#32 : BitVec 32) (by decide)

theorem real_ten : ∃ r : ℝ, Ideal.ofBits .f32 0x41200000#32 = r :=
  real_ieee 8 23 (0x41200000#32 : BitVec 32) (by decide)

theorem real_five : ∃ r : ℝ, Ideal.ofBits .f32 0x40A00000#32 = r :=
  real_ieee 8 23 (0x40A00000#32 : BitVec 32) (by decide)

/-! ## The row -/

section
variable {x : Fin 12 → EReal} {w1 : (⟨2, ![12, 1024]⟩ : Shape).Idx → EReal} {b1 : Fin 1024 → EReal}
  {w2 : (⟨2, ![1024, 8]⟩ : Shape).Idx → EReal} {b2 : Fin 8 → EReal}

theorem hidden_real (hx : ∀ d, ∃ r : ℝ, x d = r) (hw1 : ∀ i, ∃ r : ℝ, w1 i = r) (hb1 : ∀ j, ∃ r : ℝ, b1 j = r)
    (j : Fin 1024) : ∃ r : ℝ, hidden x w1 b1 j = r :=
  real_max (real_add (real_sum _ _ fun d _ => real_mul (hx d) (hw1 _)) (hb1 j)) real_zero

theorem dense_real (hx : ∀ d, ∃ r : ℝ, x d = r) (hw1 : ∀ i, ∃ r : ℝ, w1 i = r) (hb1 : ∀ j, ∃ r : ℝ, b1 j = r)
    (hw2 : ∀ i, ∃ r : ℝ, w2 i = r) (hb2 : ∀ c, ∃ r : ℝ, b2 c = r) (c : Fin 8) : ∃ r : ℝ, dense x w1 b1 w2 b2 c = r :=
  real_add (real_sum _ _ fun j _ => real_mul (hidden_real hx hw1 hb1 j) (hw2 _)) (hb2 c)

theorem diff_real (hx : ∀ d, ∃ r : ℝ, x d = r) : ∃ r : ℝ, diff x = r :=
  real_mul (real_sub (hx 2) (hx 10)) real_ten

/-- The flag is a real whatever the features: the bit is 0 or 1. -/
theorem flag_real (x : Fin 12 → EReal) : ∃ r : ℝ, flag x = r :=
  real_sub (real_mul ⟨_, rfl⟩ real_ten) real_five

/-- **Every entry of a row over real inputs is a real.** -/
theorem row_real (hx : ∀ d, ∃ r : ℝ, x d = r) (hw1 : ∀ i, ∃ r : ℝ, w1 i = r) (hb1 : ∀ j, ∃ r : ℝ, b1 j = r)
    (hw2 : ∀ i, ∃ r : ℝ, w2 i = r) (hb2 : ∀ c, ∃ r : ℝ, b2 c = r) (k : Fin 10) : ∃ r : ℝ, row x w1 b1 w2 b2 k = r := by
  unfold row
  split
  · exact dense_real hx hw1 hb1 hw2 hb2 _
  · split
    · exact diff_real hx
    · exact flag_real x

end

end MlpRow

end
-- ==== Proof.MlpTableReal.lean ====
/-
  The reference's node table before any layer is real-valued when the features, the weights and the biases are:
  every entry is an entry of `MlpRow.row` over real inputs.
-/
import proofs.«140184_j29661044146691_2_alg».proof.Proof.MlpRefTable
import proofs.«140184_j29661044146691_2_alg».proof.Proof.MlpRowReal

noncomputable section

namespace Cert.ReferenceIdeal.MlpTable

open Idealize.ShloMosaic Idealize.ShloMosaic.ValueIdx Cert.ReferenceIdeal

variable [Cert.ReferenceIdeal.Facts]

/-- **Real inputs give a real table.** -/
theorem mlp_real (feat : FVec Ideal S100000x12 .f32) (w1 : FVec Ideal S12x1024 .f32) (b1 : FVec Ideal S1024 .f32)
    (w2 : FVec Ideal S1024x8 .f32) (b2 : FVec Ideal S8 .f32)
    (hfeat : ∀ i, ∃ r : ℝ, feat i = r) (hw1 : ∀ i, ∃ r : ℝ, w1 i = r) (hb1 : ∀ i, ∃ r : ℝ, b1 i = r)
    (hw2 : ∀ i, ∃ r : ℝ, w2 i = r) (hb2 : ∀ i, ∃ r : ℝ, b2 i = r) (i : S100000x10.Idx) :
    ∃ r : ℝ, Stage.mlp (F := Ideal) feat w1 b1 w2 b2 i = r := by
  obtain ⟨n, k, rfl⟩ : ∃ (n : Fin 100000) (k : Fin 10), i = ix2 n k := ⟨i 0, i 1, eq_ix2 i⟩
  rw [table_row]
  exact MlpRow.row_real (fun d => hfeat _) hw1 (fun j => hb1 _) hw2 (fun c => hb2 _) k

end Cert.ReferenceIdeal.MlpTable

end
-- ==== Proof.Finite.lean ====
import proofs.«140184_j29661044146691_2_alg».proof.Defs
import proofs.«140184_j29661044146691_2_alg».proof.Proof.Gen.Pre_finite_inputs
import Idealize.ShloMosaic.Lib.ReduceAll
import Idealize.ShloMosaic.Lib.ValueIdx
import Idealize.ShloMosaic.PureOps.Ideal

noncomputable section

namespace Cert.Proof.Finite

open Idealize.ShloMosaic Cert.Pre_finite_inputs

/-- An extended real whose absolute value lies strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Entry `i` of a float array passes the test "|x| < +∞" (the compare's bit is 1): the entry is a real number. -/
theorem real_of_test {S s0 : Shape} (a : FVec Ideal S .f32) (dims : Fin s0.rank → Fin S.rank) (hb : s0.BroadcastsInDim S dims)
    (i : S.Idx) (h : cmpf .olt (Host.absf a) (broadcastInDim S dims hb (constant s0 .f32 0x7F800000#32)) i = 1#1) :
    ∃ r : ℝ, a i = (r : EReal) := by
  apply real_of_abs_lt_top
  have h' : Ideal.cmp .olt (max (a i) (-(a i))) (Ideal.ofBits .f32 0x7F800000#32) = 1#1 := h
  have ht : Ideal.ofBits .f32 0x7F800000#32 = (⊤ : EReal) := by simp [Ideal.ofBits, Ideal.ieee]
  rw [ht] at h'
  simp only [Ideal.cmp] at h'
  by_contra hc
  simp [hc] at h'

/-- The scalar shape has one index. -/
instance : Subsingleton S_.Idx := ⟨fun a b => funext fun d => d.elim0⟩

/-- An array whose every entry passes the test "|x| < +∞", the bits conjoined over all axes into one that is 1, is an
    array of real numbers. -/
theorem reals_of_all {S : Shape} {axes : List (Fin S.rank)} (a : FVec Ideal S .f32)
    (hb : S_.BroadcastsInDim S (![] : Fin 0 → Fin S.rank)) (hr : S.ReducesTo axes S_) (hu : 0 < S_.numel) (init : IVec S_ 1) (j : S_.Idx)
    (h : Host.reduce IntOp.andi (cmpf .olt (Host.absf a) (broadcastInDim S ![] hb (constant S_ .f32 0x7F800000#32))) init hr hu j = 1#1) :
    ∀ i, ∃ r : ℝ, a i = (r : EReal) :=
  fun i => real_of_test a _ hb i (Host.reduce_andi_all _ init hr hu j h i)

/-- The precondition decoded: if the printed predicate is all ones, every entry of each of the seven float inputs is a
    real number. The predicate is the conjunction, over the seven arrays, of "every entry has |x| < +∞". -/
theorem reals_of_pre [Facts] (a0 : FVec Ideal S100000x12 .f32) (a1 : FVec Ideal S3200000x2 .f32) (a2 : FVec Ideal S12x1024 .f32)
    (a3 : FVec Ideal S1024 .f32) (a4 : FVec Ideal S1024x8 .f32) (a5 : FVec Ideal S8 .f32) (a6 : FVec Ideal S3 .f32)
    (a7 a8 : IVec S3200000 32) (h : fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ValueIdx.ix0
  dsimp only [fn, fn_part1] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨reals_of_all a0 _ _ _ _ _ h0, reals_of_all a1 _ _ _ _ _ h1, reals_of_all a2 _ _ _ _ _ h2,
    reals_of_all a3 _ _ _ _ _ h3, reals_of_all a4 _ _ _ _ _ h4, reals_of_all a5 _ _ _ _ _ h5, reals_of_all a6 _ _ _ _ _ h6⟩

/-- The same of a memory that satisfies the kernel's precondition: on every core, every entry of each of the seven float
    argument arrays is a real number. -/
theorem reals_of_Pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0) : FVec Ideal S100000x12 .f32) i = (r : EReal))
      ∧ (∀ i, ∃ r : ℝ, (m ((c.tc : Thread Cert.KernelIdeal.nD Cert.KernelIdeal.τ).loc Cert.KernelIdeal.main_arg1) : FVec Ideal S3200000x2 .f32) i = (r : EReal))
      ∧ (∀ i, ∃ r : ℝ, (m ((c.tc : Thread Cert.KernelIdeal.nD Cert.KernelIdeal.τ).loc Cert.KernelIdeal.main_arg2) : FVec Ideal S12x1024 .f32) i = (r : EReal))
      ∧ (∀ i, ∃ r : ℝ, (m ((c.tc : Thread Cert.KernelIdeal.nD Cert.KernelIdeal.τ).loc Cert.KernelIdeal.main_arg3) : FVec Ideal S1024 .f32) i = (r : EReal))
      ∧ (∀ i, ∃ r : ℝ, (m ((c.tc : Thread Cert.KernelIdeal.nD Cert.KernelIdeal.τ).loc Cert.KernelIdeal.main_arg4) : FVec Ideal S1024x8 .f32) i = (r : EReal))
      ∧ (∀ i, ∃ r : ℝ, (m ((c.tc : Thread Cert.KernelIdeal.nD Cert.KernelIdeal.τ).loc Cert.KernelIdeal.main_arg5) : FVec Ideal S8 .f32) i = (r : EReal))
      ∧ (∀ i, ∃ r : ℝ, (m ((c.tc : Thread Cert.KernelIdeal.nD Cert.KernelIdeal.τ).loc Cert.KernelIdeal.main_arg6) : FVec Ideal S3 .f32) i = (r : EReal)) :=
  reals_of_pre _ _ _ _ _ _ _ _ _ (h c)

end Cert.Proof.Finite

end
-- ==== Proof.HeadSame.lean ====
import proofs.«140184_j29661044146691_2_alg».proof.Proof.KerStageDefs
import proofs.«140184_j29661044146691_2_alg».proof.Proof.RefStageDefs

noncomputable section

namespace Cert.Proof.HeadSame

open Idealize.ShloMosaic

variable {F : FTy → Type} [FloatOps F] [Cert.KernelIdeal.Facts] [Cert.ReferenceIdeal.Facts]

/-- The two programs slice the same first group of four logit columns. -/
theorem headA_eq (z : (⟨Cert.KernelIdeal.S100000x10, .f32⟩ : BufTy).Contents (Elt F)) :
    Cert.KernelIdeal.Stage.headA z = Cert.ReferenceIdeal.Stage.headA z := rfl

/-- And take the same softmax of it. -/
theorem headSA_eq (z : (⟨Cert.KernelIdeal.S100000x10, .f32⟩ : BufTy).Contents (Elt F)) :
    Cert.KernelIdeal.Stage.headSA z = Cert.ReferenceIdeal.Stage.headSA z := rfl

/-- The two programs slice the same second group of four logit columns. -/
theorem headB_eq (z : (⟨Cert.KernelIdeal.S100000x10, .f32⟩ : BufTy).Contents (Elt F)) :
    Cert.KernelIdeal.Stage.headB z = Cert.ReferenceIdeal.Stage.headB z := rfl

/-- And take the same softmax of it. -/
theorem headSB_eq (z : (⟨Cert.KernelIdeal.S100000x10, .f32⟩ : BufTy).Contents (Elt F)) :
    Cert.KernelIdeal.Stage.headSB z = Cert.ReferenceIdeal.Stage.headSB z := rfl

end Cert.Proof.HeadSame

end
-- ==== Proof.Algebraic.lean ====
import proofs.«140184_j29661044146691_2_alg».proof.Defs
import proofs.«140184_j29661044146691_2_alg».proof.Proof.Gen.Pre_finite_inputs
import proofs.«140184_j29661044146691_2_alg».proof.Proof.KernelIdealRun
import proofs.«140184_j29661044146691_2_alg».proof.Proof.RefOps
import proofs.«140184_j29661044146691_2_alg».proof.Proof.KerStageDefs
import proofs.«140184_j29661044146691_2_alg».proof.Proof.RefStageDefs
import proofs.«140184_j29661044146691_2_alg».proof.Proof.MlpJoin
import proofs.«140184_j29661044146691_2_alg».proof.Proof.KerTail
import proofs.«140184_j29661044146691_2_alg».proof.Proof.LayerLaw
import proofs.«140184_j29661044146691_2_alg».proof.Proof.RefStages
import proofs.«140184_j29661044146691_2_alg».proof.Proof.MlpTableReal
import proofs.«140184_j29661044146691_2_alg».proof.Proof.Finite
import proofs.«140184_j29661044146691_2_alg».proof.Proof.HeadSame
import proofs.«140184_j29661044146691_2_alg».proof.Proof.Frames

/-! The value claim, assembled. At the extended reals both programs end with the same four results: the head (two
    groups of four logit columns, and the softmax of each) of the node table after three relational layers over the
    perceptron's table of the arguments. The kernel program computes the table in its region and each layer with the
    softmax's max and sum taken piece by piece and one scatter over the concatenated indices; the reference computes
    the table by two matrix products and each layer with one max, one sum and two scatters. On real-valued tables the
    two layers agree and give a real-valued table again, and the arguments are real-valued by the precondition. -/

noncomputable section

namespace Cert.Proof.Algebraic

open Idealize.ShloMosaic Idealize.ShloMosaic.TcCoe Idealize.SL.Sem Idealize.ShloMosaic.StableHlo

open LayerLaw (IsReal)

/-- The reference's buffers' contents on a core. -/
abbrev RVal : Type := Valuation Cert.ReferenceIdeal.τ Cert.ReferenceIdeal.sig (Elt Ideal)

section Tables

open Cert.ReferenceIdeal

/-- The reference's node table after its three layers, as a function of the nine argument arrays. -/
def zOf (a0 : (⟨S100000x12, .f32⟩ : BufTy).Contents (Elt Ideal)) (a1 : (⟨S3200000x2, .f32⟩ : BufTy).Contents (Elt Ideal)) (a2 : (⟨S12x1024, .f32⟩ : BufTy).Contents (Elt Ideal))
    (a3 : (⟨S1024, .f32⟩ : BufTy).Contents (Elt Ideal)) (a4 : (⟨S1024x8, .f32⟩ : BufTy).Contents (Elt Ideal)) (a5 : (⟨S8, .f32⟩ : BufTy).Contents (Elt Ideal)) (a6 : (⟨S3, .f32⟩ : BufTy).Contents (Elt Ideal))
    (a7 a8 : (⟨S3200000, .i32⟩ : BufTy).Contents (Elt Ideal)) : (⟨S100000x10, .f32⟩ : BufTy).Contents (Elt Ideal) :=
  Stage.layer (Stage.layer (Stage.layer (Stage.mlp a0 a2 a3 a4 a5) a1 (Stage.weight0 a6) a7 a8)
    a1 (Stage.weight1 a6) a7 a8) a1 (Stage.weight2 a6) a7 a8

/-- A clause weight is an entry of the weight vector. -/
theorem weight0_real (cw : (⟨S3, .f32⟩ : BufTy).Contents (Elt Ideal)) (h : IsReal (S := S3) cw) : IsReal (S := S_) (Stage.weight0 cw) := fun i => h _
theorem weight1_real (cw : (⟨S3, .f32⟩ : BufTy).Contents (Elt Ideal)) (h : IsReal (S := S3) cw) : IsReal (S := S_) (Stage.weight1 cw) := fun i => h _
theorem weight2_real (cw : (⟨S3, .f32⟩ : BufTy).Contents (Elt Ideal)) (h : IsReal (S := S3) cw) : IsReal (S := S_) (Stage.weight2 cw) := fun i => h _

end Tables

section Kernel

open Cert.KernelIdeal Cert.KernelIdeal.HostSide

/-- An argument array is as launched when the region is left. -/
theorem V2_launch (m : (ℓ : Loc nD τ sig) → Buf (Elt Ideal) ℓ) (out : Out (F := Ideal)) (c : Dev nD) {r : Ref sig .tc} (hr : r ∈ args) :
    V2 m out c r = V0 m c r :=
  (V2_arg m out c hr).trans (after_keeps head0.keeps _ hr)

/-- THE KERNEL'S NODE TABLE IS THE REFERENCE'S. The region leaves the perceptron's table of the launch contents, which
    is real-valued; each of the three layers then agrees with the reference's on a real-valued table and gives one. -/
theorem kernel_node
    (m : (ℓ : Loc nD τ sig) → Buf (Elt Ideal) ℓ) (hpre : Cert.Pre_KernelIdeal m) (c : Dev nD) :
    TailValue.z3 (V2 m (fun c => Region.mlpOut (V1 m) c) c)
      = zOf (V0 m c main_arg0) (V0 m c main_arg1) (V0 m c main_arg2) (V0 m c main_arg3) (V0 m c main_arg4)
          (V0 m c main_arg5) (V0 m c main_arg6) (V0 m c main_arg7) (V0 m c main_arg8) := by
  obtain ⟨r0, r1, r2, r3, r4, r5, r6⟩ := Cert.Proof.Finite.reals_of_Pre m hpre c
  have e2 : V2 m (fun c => Region.mlpOut (V1 m) c) c main_v2 = Region.mlpOut (V1 m) c := Function.update_self ..
  have e1 := V2_launch m (fun c => Region.mlpOut (V1 m) c) c (r := main_arg1) (by decide)
  have e6 := V2_launch m (fun c => Region.mlpOut (V1 m) c) c (r := main_arg6) (by decide)
  have e7 := V2_launch m (fun c => Region.mlpOut (V1 m) c) c (r := main_arg7) (by decide)
  have e8 := V2_launch m (fun c => Region.mlpOut (V1 m) c) c (r := main_arg8) (by decide)
  have hz0 : IsReal (S := S100000x10) (Cert.ReferenceIdeal.Stage.mlp (F := Ideal) (V0 m c main_arg0) (V0 m c main_arg2) (V0 m c main_arg3) (V0 m c main_arg4) (V0 m c main_arg5)) :=
    Cert.ReferenceIdeal.MlpTable.mlp_real _ _ _ _ _ r0 r2 r3 r4 r5
  obtain ⟨l1, q1⟩ := LayerLaw.layer_law _ (V0 m c main_arg1) (Stage.weight0 (V0 m c main_arg6)) (V0 m c main_arg7) (V0 m c main_arg8) hz0 r1 (weight0_real _ r6)
  obtain ⟨l2, q2⟩ := LayerLaw.layer_law _ (V0 m c main_arg1) (Stage.weight1 (V0 m c main_arg6)) (V0 m c main_arg7) (V0 m c main_arg8) q1 r1 (weight1_real _ r6)
  obtain ⟨l3, -⟩ := LayerLaw.layer_law _ (V0 m c main_arg1) (Stage.weight2 (V0 m c main_arg6)) (V0 m c main_arg7) (V0 m c main_arg8) q2 r1 (weight2_real _ r6)
  show Stage.layer (Stage.layer (Stage.layer (V2 m (fun c => Region.mlpOut (V1 m) c) c main_v2) _ _ _ _ _) _ _ _ _ _) _ _ _ _ _ = _
  rw [e2, e1, e6, e7, e8, Cert.MlpJoin.mlpOut_eq_ref m c, l1, l2, l3]
  rfl

end Kernel

section Claim

open Cert.KernelIdeal Cert.KernelIdeal.HostSide

/-- Nine equal arguments give equal tables. -/
theorem zOf_congr {x0 y0 : (⟨Cert.ReferenceIdeal.S100000x12, .f32⟩ : BufTy).Contents (Elt Ideal)} {x1 y1 : (⟨Cert.ReferenceIdeal.S3200000x2, .f32⟩ : BufTy).Contents (Elt Ideal)} {x2 y2 : (⟨Cert.ReferenceIdeal.S12x1024, .f32⟩ : BufTy).Contents (Elt Ideal)}
    {x3 y3 : (⟨Cert.ReferenceIdeal.S1024, .f32⟩ : BufTy).Contents (Elt Ideal)} {x4 y4 : (⟨Cert.ReferenceIdeal.S1024x8, .f32⟩ : BufTy).Contents (Elt Ideal)} {x5 y5 : (⟨Cert.ReferenceIdeal.S8, .f32⟩ : BufTy).Contents (Elt Ideal)} {x6 y6 : (⟨Cert.ReferenceIdeal.S3, .f32⟩ : BufTy).Contents (Elt Ideal)}
    {x7 y7 x8 y8 : (⟨Cert.ReferenceIdeal.S3200000, .i32⟩ : BufTy).Contents (Elt Ideal)}
    (h0 : x0 = y0) (h1 : x1 = y1) (h2 : x2 = y2) (h3 : x3 = y3) (h4 : x4 = y4) (h5 : x5 = y5) (h6 : x6 = y6) (h7 : x7 = y7) (h8 : x8 = y8) :
    zOf x0 x1 x2 x3 x4 x5 x6 x7 x8 = zOf y0 y1 y2 y3 y4 y5 y6 y7 y8 := by
  rw [h0, h1, h2, h3, h4, h5, h6, h7, h8]

/-- THE VALUE CLAIM, given what the reference's host operations compute at the extended reals: from any contents `V`,
    the head of its three layers over the perceptron's table of `V`'s arguments (`hRA` … `hRSB`, one per result).
    Both runs then end with the same four arrays — the reference's head of the reference's table of the KERNEL's launch
    arguments. The kernel's: its host operations after the region compute the head of its three layers over the table
    the region leaves, which is the perceptron's table, and each kernel layer on real-valued inputs is the reference's
    layer. The reference's: its arguments are the kernel's. -/
theorem algebraic_of
    (hRA : ∀ V : RVal, after (Cert.ReferenceIdeal.HostRun.ops : List (HloOp Cert.ReferenceIdeal.τ Cert.ReferenceIdeal.sig (Elt Ideal))) V Cert.ReferenceIdeal.main_v225
      = Cert.ReferenceIdeal.Stage.headA (zOf (V Cert.ReferenceIdeal.main_arg0) (V Cert.ReferenceIdeal.main_arg1) (V Cert.ReferenceIdeal.main_arg2) (V Cert.ReferenceIdeal.main_arg3) (V Cert.ReferenceIdeal.main_arg4) (V Cert.ReferenceIdeal.main_arg5) (V Cert.ReferenceIdeal.main_arg6) (V Cert.ReferenceIdeal.main_arg7) (V Cert.ReferenceIdeal.main_arg8)))
    (hRSA : ∀ V : RVal, after (Cert.ReferenceIdeal.HostRun.ops : List (HloOp Cert.ReferenceIdeal.τ Cert.ReferenceIdeal.sig (Elt Ideal))) V Cert.ReferenceIdeal.main_v237
      = Cert.ReferenceIdeal.Stage.headSA (zOf (V Cert.ReferenceIdeal.main_arg0) (V Cert.ReferenceIdeal.main_arg1) (V Cert.ReferenceIdeal.main_arg2) (V Cert.ReferenceIdeal.main_arg3) (V Cert.ReferenceIdeal.main_arg4) (V Cert.ReferenceIdeal.main_arg5) (V Cert.ReferenceIdeal.main_arg6) (V Cert.ReferenceIdeal.main_arg7) (V Cert.ReferenceIdeal.main_arg8)))
    (hRB : ∀ V : RVal, after (Cert.ReferenceIdeal.HostRun.ops : List (HloOp Cert.ReferenceIdeal.τ Cert.ReferenceIdeal.sig (Elt Ideal))) V Cert.ReferenceIdeal.main_v226
      = Cert.ReferenceIdeal.Stage.headB (zOf (V Cert.ReferenceIdeal.main_arg0) (V Cert.ReferenceIdeal.main_arg1) (V Cert.ReferenceIdeal.main_arg2) (V Cert.ReferenceIdeal.main_arg3) (V Cert.ReferenceIdeal.main_arg4) (V Cert.ReferenceIdeal.main_arg5) (V Cert.ReferenceIdeal.main_arg6) (V Cert.ReferenceIdeal.main_arg7) (V Cert.ReferenceIdeal.main_arg8)))
    (hRSB : ∀ V : RVal, after (Cert.ReferenceIdeal.HostRun.ops : List (HloOp Cert.ReferenceIdeal.τ Cert.ReferenceIdeal.sig (Elt Ideal))) V Cert.ReferenceIdeal.main_v248
      = Cert.ReferenceIdeal.Stage.headSB (zOf (V Cert.ReferenceIdeal.main_arg0) (V Cert.ReferenceIdeal.main_arg1) (V Cert.ReferenceIdeal.main_arg2) (V Cert.ReferenceIdeal.main_arg3) (V Cert.ReferenceIdeal.main_arg4) (V Cert.ReferenceIdeal.main_arg5) (V Cert.ReferenceIdeal.main_arg6) (V Cert.ReferenceIdeal.main_arg7) (V Cert.ReferenceIdeal.main_arg8))) :
    Cert.algebraic_KernelIdeal_ReferenceIdeal := by
  intro m ρ m' ρ' hpre hagree
  refine ⟨fun c => Cert.ReferenceIdeal.Stage.headA (zOf (V0 m c main_arg0) (V0 m c main_arg1) (V0 m c main_arg2) (V0 m c main_arg3) (V0 m c main_arg4) (V0 m c main_arg5) (V0 m c main_arg6) (V0 m c main_arg7) (V0 m c main_arg8)), fun c => Cert.ReferenceIdeal.Stage.headSA (zOf (V0 m c main_arg0) (V0 m c main_arg1) (V0 m c main_arg2) (V0 m c main_arg3) (V0 m c main_arg4) (V0 m c main_arg5) (V0 m c main_arg6) (V0 m c main_arg7) (V0 m c main_arg8)),
    fun c => Cert.ReferenceIdeal.Stage.headB (zOf (V0 m c main_arg0) (V0 m c main_arg1) (V0 m c main_arg2) (V0 m c main_arg3) (V0 m c main_arg4) (V0 m c main_arg5) (V0 m c main_arg6) (V0 m c main_arg7) (V0 m c main_arg8)), fun c => Cert.ReferenceIdeal.Stage.headSB (zOf (V0 m c main_arg0) (V0 m c main_arg1) (V0 m c main_arg2) (V0 m c main_arg3) (V0 m c main_arg4) (V0 m c main_arg5) (V0 m c main_arg6) (V0 m c main_arg7) (V0 m c main_arg8)), ?_, ?_⟩
  · -- the kernel program: its run's four results are the heads of its own table, which is the reference's
    refine (θ_run Cert.KernelIdeal.defs _ _).mono (fun _ h c => ?_) (Cert.KernelIdeal.Run.run (F := Ideal) m ρ)
    obtain ⟨hA, hSA, hB, hSB, hargs⟩ := h c
    have hz := kernel_node m hpre c
    refine ⟨hA.trans ?_, hSA.trans ?_, hB.trans ?_, hSB.trans ?_, hargs⟩
    · exact (TailValue.tail_A _).trans ((congrArg Stage.headA hz).trans (Cert.Proof.HeadSame.headA_eq _))
    · exact (TailValue.tail_SA _).trans ((congrArg Stage.headSA hz).trans (Cert.Proof.HeadSame.headSA_eq _))
    · exact (TailValue.tail_B _).trans ((congrArg Stage.headB hz).trans (Cert.Proof.HeadSame.headB_eq _))
    · exact (TailValue.tail_SB _).trans ((congrArg Stage.headSB hz).trans (Cert.Proof.HeadSame.headSB_eq _))
  · -- the reference: its run's four results are the heads of its table of its own arguments, which are the kernel's
    refine (θ_run Cert.ReferenceIdeal.defs _ _).mono (fun _ h c => ?_) (Cert.ReferenceIdeal.HostRun.run (F := Ideal) m' ρ')
    obtain ⟨g0, g1, g2, g3, g4, g5, g6, g7, g8⟩ := hagree c
    have hz : zOf ((fun b => m' (c, b) : RVal) Cert.ReferenceIdeal.main_arg0) ((fun b => m' (c, b) : RVal) Cert.ReferenceIdeal.main_arg1) ((fun b => m' (c, b) : RVal) Cert.ReferenceIdeal.main_arg2) ((fun b => m' (c, b) : RVal) Cert.ReferenceIdeal.main_arg3) ((fun b => m' (c, b) : RVal) Cert.ReferenceIdeal.main_arg4) ((fun b => m' (c, b) : RVal) Cert.ReferenceIdeal.main_arg5) ((fun b => m' (c, b) : RVal) Cert.ReferenceIdeal.main_arg6) ((fun b => m' (c, b) : RVal) Cert.ReferenceIdeal.main_arg7) ((fun b => m' (c, b) : RVal) Cert.ReferenceIdeal.main_arg8)
        = zOf (V0 m c main_arg0) (V0 m c main_arg1) (V0 m c main_arg2) (V0 m c main_arg3) (V0 m c main_arg4) (V0 m c main_arg5) (V0 m c main_arg6) (V0 m c main_arg7) (V0 m c main_arg8) := zOf_congr g0 g1 g2 g3 g4 g5 g6 g7 g8
    exact ⟨(h c Cert.ReferenceIdeal.main_v225).trans ((hRA _).trans (congrArg Cert.ReferenceIdeal.Stage.headA hz)),
      (h c Cert.ReferenceIdeal.main_v237).trans ((hRSA _).trans (congrArg Cert.ReferenceIdeal.Stage.headSA hz)),
      (h c Cert.ReferenceIdeal.main_v226).trans ((hRB _).trans (congrArg Cert.ReferenceIdeal.Stage.headB hz)),
      (h c Cert.ReferenceIdeal.main_v248).trans ((hRSB _).trans (congrArg Cert.ReferenceIdeal.Stage.headSB hz)),
      (h c Cert.ReferenceIdeal.main_arg0).trans (Cert.Proof.Frames.after_ops_arg _ (by decide)),
      (h c Cert.ReferenceIdeal.main_arg1).trans (Cert.Proof.Frames.after_ops_arg _ (by decide)),
      (h c Cert.ReferenceIdeal.main_arg2).trans (Cert.Proof.Frames.after_ops_arg _ (by decide)),
      (h c Cert.ReferenceIdeal.main_arg3).trans (Cert.Proof.Frames.after_ops_arg _ (by decide)),
      (h c Cert.ReferenceIdeal.main_arg4).trans (Cert.Proof.Frames.after_ops_arg _ (by decide)),
      (h c Cert.ReferenceIdeal.main_arg5).trans (Cert.Proof.Frames.after_ops_arg _ (by decide)),
      (h c Cert.ReferenceIdeal.main_arg6).trans (Cert.Proof.Frames.after_ops_arg _ (by decide)),
      (h c Cert.ReferenceIdeal.main_arg7).trans (Cert.Proof.Frames.after_ops_arg _ (by decide)),
      (h c Cert.ReferenceIdeal.main_arg8).trans (Cert.Proof.Frames.after_ops_arg _ (by decide))⟩

end Claim

/-- THE VALUE CLAIM: the reference's host operations do compute the head of its three layers over the perceptron's
    table of its arguments, one reading per result. -/
theorem algebraic : Cert.algebraic_KernelIdeal_ReferenceIdeal :=
  algebraic_of (fun V => Cert.ReferenceIdeal.HostRun.ref_A V) (fun V => Cert.ReferenceIdeal.HostRun.ref_SA V)
    (fun V => Cert.ReferenceIdeal.HostRun.ref_B V) (fun V => Cert.ReferenceIdeal.HostRun.ref_SB V)

end Cert.Proof.Algebraic

end
-- ==== Proof.lean ====
/-
  A node-wise MLP followed by three relational boosting layers and a two-group softmax head, computed two ways, are one function of
  finite inputs over the extended reals.

  The kernel program stages 100000 rows of 12 features in 50 blocks of 2000 rows through one fused region: each block is multiplied by a
  12 × 1024 matrix, a bias row added, negative entries zeroed, the result multiplied by a 1024 × 8 matrix and a second bias row added;
  beside these eight columns the block's output holds ten times the difference of feature columns 2 and 10, and ten times the 0/1 outcome
  of four column comparisons minus five. The reference computes the same table with two whole matrix products. A change of float format
  is the identity on extended reals and both matrix products are the plain sums over the contracted axis, so the table is the same entry
  by entry: row 2000·t + p of the array the region leaves is row p of what grid point t stored, and that row is the reference's.

  A layer gathers, for each of 3200000 edges, the table's rows at the edge's two endpoints (an index below zero counted from the end, an
  index out of range clamped), lays them beside the edge's two relation features, flips the sign of every odd position, and adds to the
  endpoint rows exp(literal − max) · softplus(w) / (sum of the exponentials) · sign. The reference takes ONE maximum and ONE sum over the
  22 positions, multiplies softplus(w) by the quotient, and scatters the first ten columns at the first endpoints, then the next ten at
  the second endpoints. The kernel program takes the maximum and the sum piece by piece (10 + 10 + 2), multiplies each exponential by the
  quotient softplus(w) / sum, and scatters the two blocks of update rows, one after the other, at the two index vectors one after the
  other. Maxima and sums do not depend on grouping; a scatter-add over a concatenation is the two scatter-adds in turn; and
  e · (s / d) = s · (e / d) whenever d is a real other than zero. Here d is a sum of exponentials of reals one of which is exp 0, so
  d ≥ 1 — which is where finiteness of the inputs is used: the table is real-valued because the inputs are, every update is then a
  real, and so the table stays real-valued from layer to layer.

  The head keeps eight columns, splits them in two groups of four and returns each group and its softmax; both programs apply the same
  operations to the same table.

  Every program's run — termination, no fault, the arguments unchanged, each result buffer at a named function of the arguments — is read
  off its own operations: the reference's from its list of host operations; the kernel programs' from the region (the body run at a
  symbolic grid point, the blocks written back covering the output array) between its two stretches of host operations.
-/
import proofs.«140184_j29661044146691_2_alg».proof.Defs
import proofs.«140184_j29661044146691_2_alg».proof.Proof.Gen.Kernel
import proofs.«140184_j29661044146691_2_alg».proof.Proof.Gen.KernelIdeal
import proofs.«140184_j29661044146691_2_alg».proof.Proof.Gen.ReferenceIdeal
import proofs.«140184_j29661044146691_2_alg».proof.Proof.Gen.Pre_finite_inputs
import proofs.«140184_j29661044146691_2_alg».proof.Proof.Frames
import proofs.«140184_j29661044146691_2_alg».proof.Proof.Algebraic

noncomputable section

namespace Cert.Proof

/-- The three runs leave the arguments as they found them; no operation was rewritten on the way to the idealized kernel program; and the
    two idealized programs return the same four arrays. -/
theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, trivial, Algebraic.algebraic⟩

end Cert.Proof

end
